-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_27" .f32 0x3D17B426#32 ((1 / 27 : ℝ) : EReal)
  ∧ IdealRules.named_const.Statement Cert.KernelIdeal.κ "inv_27" .f32 0x3D17B426#32 ((1 / 27 : ℝ) : EReal)
  ∧ IdealRules.named_const.Statement Cert.KernelIdeal.κ "inv_27" .f32 0x3D17B426#32 ((1 / 27 : ℝ) : EReal)
  ∧ IdealRules.named_const.Statement Cert.KernelIdeal.κ "inv_27" .f32 0x3D17B426#32 ((1 / 27 : ℝ) : EReal)
  ∧ IdealRules.named_const.Statement Cert.KernelIdeal.κ "inv_27" .f32 0x3D17B426#32 ((1 / 27 : ℝ) : EReal)
  ∧ IdealRules.named_const.Statement Cert.KernelIdeal.κ "inv_27" .f32 0x3D17B426#32 ((1 / 27 : ℝ) : EReal)
  ∧ IdealRules.named_const.Statement Cert.KernelIdeal.κ "inv_27" .f32 0x3D17B426#32 ((1 / 27 : ℝ) : EReal)
  ∧ IdealRules.named_const.Statement Cert.KernelIdeal.κ "inv_27" .f32 0x3D17B426#32 ((1 / 27 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024 : Shape := ⟨1, ![1024]⟩
abbrev S512x1024 : Shape := ⟨2, ![512, 1024]⟩
abbrev S_ : Shape := ⟨0, ![]⟩
abbrev S512 : Shape := ⟨1, ![512]⟩
abbrev S2048x1024 : Shape := ⟨2, ![2048, 1024]⟩
abbrev S1024x1024 : Shape := ⟨2, ![1024, 1024]⟩
abbrev S2048x3 : Shape := ⟨2, ![2048, 3]⟩
abbrev S3 : Shape := ⟨1, ![3]⟩

class Facts : Prop where
  bcast_S_S1024 : S_.BroadcastsInDim S1024 (![] : Fin 0 → Fin S1024.rank)
  reducesTo_S1024_S_d0 : S1024.ReducesTo [0] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2048x3 : S_.BroadcastsInDim S2048x3 (![] : Fin 0 → Fin S2048x3.rank)
  reducesTo_S2048x3_S_d0_1 : S2048x3.ReducesTo [0, 1] S_
  bcast_S_S3 : S_.BroadcastsInDim S3 (![] : Fin 0 → Fin S3.rank)
  reducesTo_S3_S_d0 : S3.ReducesTo [0] S_
  reducesTo_S_S_d : S_.ReducesTo [] S_
  bcast_S_S512 : S_.BroadcastsInDim S512 (![] : Fin 0 → Fin S512.rank)
  reducesTo_S512_S_d0 : S512.ReducesTo [0] S_

variable [Facts]

def fn_part4 {F : FTy → Type} [FloatOps F] (main_arg3 : IVec S512 32) (main_v63 : IVec S_ 1) (main_v65 : IVec S512 1) (main_v66 : IVec S512 32) : IVec S_ 1 :=
  let main_v67 : IVec S512 1 := cmpi .sle main_arg3 main_v66
  let main_v68 : IVec S512 1 := andi main_v65 main_v67
  let main_c_27 : IVec S_ 1 := constantI S_ 1 1#1
  let main_v69 : IVec S_ 1 := (fun x v => Host.reduce IntOp.andi x v reducesTo_S512_S_d0 h_S_) main_v68 main_c_27
  let main_v70 : IVec S_ 1 := andi main_v63 main_v69
  main_v70

def fn_part3 {F : FTy → Type} [FloatOps F] (main_arg2 : IVec S_ 32) (main_arg3 : IVec S512 32) (main_arg13 : FVec F S3 .f32) (main_v48 : IVec S_ 1) (main_v49 : FVec F S2048x3 .f32) (main_v50 : FVec F S2048x3 .f32) : IVec S_ 1 :=
  let main_v51 : IVec S2048x3 1 := cmpf .olt main_v49 main_v50
  let main_c_19 : IVec S_ 1 := constantI S_ 1 1#1
  let main_v52 : IVec S_ 1 := (fun x v => Host.reduce IntOp.andi x v reducesTo_S2048x3_S_d0_1 h_S_) main_v51 main_c_19
  let main_v53 : IVec S_ 1 := andi main_v48 main_v52
  let main_v54 : FVec F S3 .f32 := Host.absf main_arg13
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  let main_c_22 : IVec S_ 32 := constantI S_ 32 9841#32
  let main_v59 : IVec S_ 1 := cmpi .sge main_arg2 main_c_22
  let main_c_23 : IVec S_ 32 := constantI S_ 32 9841#32
  let main_v60 : IVec S_ 1 := cmpi .sle main_arg2 main_c_23
  let main_v61 : IVec S_ 1 := andi main_v59 main_v60
  let main_c_24 : IVec S_ 1 := constantI S_ 1 1#1
  let main_v62 : IVec S_ 1 := (fun x v => Host.reduce IntOp.andi x v reducesTo_S_S_d h_S_) main_v61 main_c_24
  let main_v63 : IVec S_ 1 := andi main_v58 main_v62
  let main_c_25 : IVec S_ 32 := constantI S_ 32 0#32
  let main_v64 : IVec S512 32 := broadcastInDim S512 ![] bcast_S_S512 main_c_25
  let main_v65 : IVec S512 1 := cmpi .sge main_arg3 main_v64
  let main_c_26 : IVec S_ 32 := constantI S_ 32 19682#32
  let main_v66 : IVec S512 32 := broadcastInDim S512 ![] bcast_S_S512 main_c_26
  fn_part4 (F := F) main_arg3 main_v63 main_v65 main_v66

def fn_part2 {F : FTy → Type} [FloatOps F] (main_arg2 : IVec S_ 32) (main_arg3 : IVec S512 32) (main_arg9 : FVec F S1024 .f32) (main_arg10 : FVec F S2048x1024 .f32) (main_arg11 : FVec F S1024 .f32) (main_arg12 : FVec F S2048x3 .f32) (main_arg13 : FVec F S3 .f32) (main_v33 : IVec S_ 1) : IVec S_ 1 :=
  let main_v34 : FVec F S1024 .f32 := Host.absf main_arg9
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S2048x1024 .f32 := Host.absf main_arg10
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S1024 .f32 := Host.absf main_arg11
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S2048x3 .f32 := Host.absf main_arg12
  let main_cst_18 : FVec F S_ .f32 := constant S_ .f32 0x7F800000#32
  let main_v50 : FVec F S2048x3 .f32 := broadcastInDim S2048x3 ![] bcast_S_S2048x3 main_cst_18
  fn_part3 (F := F) main_arg2 main_arg3 main_arg13 main_v48 main_v49 main_v50

def fn_part1 {F : FTy → Type} [FloatOps F] (main_arg2 : IVec S_ 32) (main_arg3 : IVec S512 32) (main_arg6 : FVec F S1024x1024 .f32) (main_arg7 : FVec F S1024 .f32) (main_arg8 : FVec F S2048x1024 .f32) (main_arg9 : FVec F S1024 .f32) (main_arg10 : FVec F S2048x1024 .f32) (main_arg11 : FVec F S1024 .f32) (main_arg12 : FVec F S2048x3 .f32) (main_arg13 : FVec F S3 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg6
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2048x1024 .f32 := Host.absf main_arg8
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg2 main_arg3 main_arg9 main_arg10 main_arg11 main_arg12 main_arg13 main_v33

def fn {F : FTy → Type} [FloatOps F] (main_arg0 : FVec F S1024 .f32) (main_arg1 : FVec F S512x1024 .f32) (main_arg2 : IVec S_ 32) (main_arg3 : IVec S512 32) (main_arg4 : FVec F S2048x1024 .f32) (main_arg5 : FVec F S1024 .f32) (main_arg6 : FVec F S1024x1024 .f32) (main_arg7 : FVec F S1024 .f32) (main_arg8 : FVec F S2048x1024 .f32) (main_arg9 : FVec F S1024 .f32) (main_arg10 : FVec F S2048x1024 .f32) (main_arg11 : FVec F S1024 .f32) (main_arg12 : FVec F S2048x3 .f32) (main_arg13 : FVec F S3 .f32) : IVec S_ 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2048x1024 .f32 := Host.absf main_arg4
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg2 main_arg3 main_arg6 main_arg7 main_arg8 main_arg9 main_arg10 main_arg11 main_arg12 main_arg13 main_v13 main_v16
-- ==== Kernel.lean ====
abbrev S1024 : Shape := ⟨1, ![1024]⟩
abbrev S512x1024 : Shape := ⟨2, ![512, 1024]⟩
abbrev S_ : Shape := ⟨0, ![]⟩
abbrev S512 : Shape := ⟨1, ![512]⟩
abbrev S2048x1024 : Shape := ⟨2, ![2048, 1024]⟩
abbrev S1024x1024 : Shape := ⟨2, ![1024, 1024]⟩
abbrev S2048x3 : Shape := ⟨2, ![2048, 3]⟩
abbrev S3 : Shape := ⟨1, ![3]⟩
abbrev S1x1 : Shape := ⟨2, ![1, 1]⟩
abbrev S1x1024 : Shape := ⟨2, ![1, 1024]⟩
abbrev S1x512 : Shape := ⟨2, ![1, 512]⟩
abbrev S16 : Shape := ⟨1, ![16]⟩
abbrev S4x4096 : Shape := ⟨2, ![4, 4096]⟩
abbrev S128x128 : Shape := ⟨2, ![128, 128]⟩
abbrev S2x128 : Shape := ⟨2, ![2, 128]⟩
abbrev S4x128 : Shape := ⟨2, ![4, 128]⟩
abbrev S1x16 : Shape := ⟨2, ![1, 16]⟩
abbrev S1 : Shape := ⟨1, ![1]⟩
abbrev S1x3 : Shape := ⟨2, ![1, 3]⟩
abbrev S14 : Shape := ⟨1, ![14]⟩
abbrev S1x1x512 : Shape := ⟨3, ![1, 1, 512]⟩
abbrev S1x1x1 : Shape := ⟨3, ![1, 1, 1]⟩
abbrev S3x512 : Shape := ⟨2, ![3, 512]⟩
abbrev S3x1024 : Shape := ⟨2, ![3, 1024]⟩
abbrev S1x2048 : Shape := ⟨2, ![1, 2048]⟩
abbrev S1x1x3 : Shape := ⟨3, ![1, 1, 3]⟩
abbrev S1x4096 : Shape := ⟨2, ![1, 4096]⟩
abbrev S4096 : Shape := ⟨1, ![4096]⟩
abbrev S4x1024 : Shape := ⟨2, ![4, 1024]⟩

abbrev nBuf : Table → Nat
  | .hbm => 32
  | .local .tc .vmem => 14
  | .local .tc .smem => 1
  | .local .scVector .vmem => 5
  | _ => 0

abbrev bufTy : (tb : Table) → Fin (nBuf tb) → BufTy
  | .hbm, ⟨0, _⟩ => ⟨S1024, .f32⟩
  | .hbm, ⟨1, _⟩ => ⟨S512x1024, .f32⟩
  | .hbm, ⟨2, _⟩ => ⟨S_, .i32⟩
  | .hbm, ⟨3, _⟩ => ⟨S512, .i32⟩
  | .hbm, ⟨4, _⟩ => ⟨S2048x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S2048x1024, .f32⟩
  | .hbm, ⟨9, _⟩ => ⟨S1024, .f32⟩
  | .hbm, ⟨10, _⟩ => ⟨S2048x1024, .f32⟩
  | .hbm, ⟨11, _⟩ => ⟨S1024, .f32⟩
  | .hbm, ⟨12, _⟩ => ⟨S2048x3, .f32⟩
  | .hbm, ⟨13, _⟩ => ⟨S3, .f32⟩
  | .hbm, ⟨14, _⟩ => ⟨S1x1, .i32⟩
  | .hbm, ⟨15, _⟩ => ⟨S1x1024, .f32⟩
  | .hbm, ⟨16, _⟩ => ⟨S1x512, .i32⟩
  | .hbm, ⟨17, _⟩ => ⟨S16, .i32⟩
  | .hbm, ⟨18, _⟩ => ⟨S4x4096, .f32⟩
  | .hbm, ⟨19, _⟩ => ⟨S1x3, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1024, .f32⟩
  | .hbm, ⟨26, _⟩ => ⟨S1x4096, .f32⟩
  | .hbm, ⟨27, _⟩ => ⟨S4096, .f32⟩
  | .hbm, ⟨28, _⟩ => ⟨S4x1024, .f32⟩
  | .hbm, ⟨29, _⟩ => ⟨S_, .f32⟩
  | .hbm, ⟨30, _⟩ => ⟨S1024, .f32⟩
  | .hbm, ⟨31, _⟩ => ⟨S1024, .f32⟩
  | .local .tc .vmem, ⟨0, _⟩ => ⟨S1x1024, .f32⟩
  | .local .tc .vmem, ⟨1, _⟩ => ⟨S1x512, .i32⟩
  | .local .tc .vmem, ⟨2, _⟩ => ⟨S1x3, .f32⟩
  | .local .tc .vmem, ⟨3, _⟩ => ⟨S2048x3, .f32⟩
  | .local .tc .vmem, ⟨4, _⟩ => ⟨S1x1024, .f32⟩
  | .local .tc .vmem, ⟨5, _⟩ => ⟨S1x1024, .f32⟩
  | .local .tc .vmem, ⟨6, _⟩ => ⟨S1x1024, .f32⟩
  | .local .tc .vmem, ⟨7, _⟩ => ⟨S1x1024, .f32⟩
  | .local .tc .vmem, ⟨8, _⟩ => ⟨S1x1024, .f32⟩
  | .local .tc .vmem, ⟨9, _⟩ => ⟨S512x1024, .f32⟩
  | .local .tc .vmem, ⟨10, _⟩ => ⟨S1024x1024, .f32⟩
  | .local .tc .vmem, ⟨11, _⟩ => ⟨S2048x1024, .f32⟩
  | .local .tc .vmem, ⟨12, _⟩ => ⟨S2048x1024, .f32⟩
  | .local .tc .vmem, ⟨13, _⟩ => ⟨S2048x1024, .f32⟩
  | .local .tc .smem, ⟨0, _⟩ => ⟨S1x1, .i32⟩
  | .local .scVector .vmem, ⟨0, _⟩ => ⟨S512, .i32⟩
  | .local .scVector .vmem, ⟨1, _⟩ => ⟨S16, .i32⟩
  | .local .scVector .vmem, ⟨2, _⟩ => ⟨S128x128, .f32⟩
  | .local .scVector .vmem, ⟨3, _⟩ => ⟨S2x128, .f32⟩
  | .local .scVector .vmem, ⟨4, _⟩ => ⟨S4x128, .f32⟩
  | _, _ => ⟨S1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_arg3_scv : Ref sig .scVector := ⟨.hbm, 3, rfl⟩
abbrev main_v3_scv : Ref sig .scVector := ⟨.hbm, 17, rfl⟩
abbrev main_arg1_scv : Ref sig .scVector := ⟨.hbm, 1, rfl⟩
abbrev main_v4_scv : Ref sig .scVector := ⟨.hbm, 18, rfl⟩
abbrev cc1_stg1_0 : Ref sig .tc := ⟨.vmem, 0, rfl⟩
abbrev cc1_stg2_0 : Ref sig .tc := ⟨.vmem, 1, rfl⟩
abbrev cc1_stg3_0 : Ref sig .tc := ⟨.vmem, 2, rfl⟩
abbrev cc1_stg4_0 : Ref sig .tc := ⟨.vmem, 3, rfl⟩
abbrev cc1_stg5_0 : Ref sig .tc := ⟨.vmem, 4, rfl⟩
abbrev cc1_stg6_0 : Ref sig .tc := ⟨.vmem, 5, rfl⟩
abbrev cc1_stg7_0 : Ref sig .tc := ⟨.vmem, 6, rfl⟩
abbrev cc1_stg8_0 : Ref sig .tc := ⟨.vmem, 7, rfl⟩
abbrev cc1_stg9_0 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc1_scratch3 : Ref sig .tc := ⟨.vmem, 12, rfl⟩
abbrev cc1_scratch4 : Ref sig .tc := ⟨.vmem, 13, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c128_i32_10 : BitVec 32 := 128#32
  let v30 : BitVec 32 := Scalar.muli v28 c128_i32_10
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v29 : BitVec 32 := Scalar.muli v11 c128_i32
  ![v30.toNat, v29.toNat]
@[reducible] def k0_t1_loop : Scf.Loop 32 :=
  let c0_i32_19 : BitVec 32 := 0#32
  let c8_i32_20 : BitVec 32 := 8#32
  let v56 : BitVec 32 := Scalar.addi c0_i32_19 c8_i32_20
  let c1_i32_21 : BitVec 32 := 1#32
  ⟨c0_i32_19, v56, c1_i32_21⟩
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c128_i32_10 : BitVec 32 := 128#32
  let v30 : BitVec 32 := Scalar.muli v28 c128_i32_10
  let c0_i32_19 : BitVec 32 := 0#32
  let c1_i32_21 : BitVec 32 := 1#32
  let arg12 : BitVec 32 := Scf.iv c0_i32_19 c1_i32_21 k0_t1
  let c16_i32 : BitVec 32 := 16#32
  let v193 : BitVec 32 := Scalar.muli arg12 c16_i32
  let v194 : BitVec 32 := Scalar.addi v30 v193
  let v195 : Index := Scalar.indexCast v194
  ![v195.toNat]
def k0_off3 (k0_t1 : Fin k0_t1_loop.trips) : Fin 2 → Nat :=
  let c0_i32_92 : BitVec 32 := 0#32
  let v229 : Index := Scalar.indexCast c0_i32_92
  let c0_i32_19 : BitVec 32 := 0#32
  let c1_i32_21 : BitVec 32 := 1#32
  let arg12 : BitVec 32 := Scf.iv c0_i32_19 c1_i32_21 k0_t1
  let c16_i32_91 : BitVec 32 := 16#32
  let v228 : BitVec 32 := Scalar.muli arg12 c16_i32_91
  let v230 : Index := Scalar.indexCast v228
  ![0, v230.toNat]
def k0_off4 (k0_t1 : Fin k0_t1_loop.trips) : Fin 2 → Nat :=
  let c1_i32_95 : BitVec 32 := 1#32
  let v238 : Index := Scalar.indexCast c1_i32_95
  let c0_i32_19 : BitVec 32 := 0#32
  let c1_i32_21 : BitVec 32 := 1#32
  let arg12 : BitVec 32 := Scf.iv c0_i32_19 c1_i32_21 k0_t1
  let c16_i32_94 : BitVec 32 := 16#32
  let v237 : BitVec 32 := Scalar.muli arg12 c16_i32_94
  let v239 : Index := Scalar.indexCast v237
  ![1, v239.toNat]
@[reducible] def k0_t2_loop : Scf.Loop 32 :=
  let c0_i32_24 : BitVec 32 := 0#32
  let c8_i32_25 : BitVec 32 := 8#32
  let v61 : BitVec 32 := Scalar.addi c0_i32_24 c8_i32_25
  let c1_i32_26 : BitVec 32 := 1#32
  ⟨c0_i32_24, v61, c1_i32_26⟩
def k0_off5 (k0_t2 : Fin k0_t2_loop.trips) : Fin 2 → Nat :=
  let c0_i32_84 : BitVec 32 := 0#32
  let v194 : Index := Scalar.indexCast c0_i32_84
  let c0_i32_24 : BitVec 32 := 0#32
  let c1_i32_26 : BitVec 32 := 1#32
  let arg12 : BitVec 32 := Scf.iv c0_i32_24 c1_i32_26 k0_t2
  let c16_i32 : BitVec 32 := 16#32
  let v193 : BitVec 32 := Scalar.muli arg12 c16_i32
  let v195 : Index := Scalar.indexCast v193
  ![0, v195.toNat]
def k0_off6 (k0_t2 : Fin k0_t2_loop.trips) : Fin 2 → Nat :=
  let c1_i32_85 : BitVec 32 := 1#32
  let v198 : Index := Scalar.indexCast c1_i32_85
  let c0_i32_24 : BitVec 32 := 0#32
  let c1_i32_26 : BitVec 32 := 1#32
  let arg12 : BitVec 32 := Scf.iv c0_i32_24 c1_i32_26 k0_t2
  let c16_i32 : BitVec 32 := 16#32
  let v193 : BitVec 32 := Scalar.muli arg12 c16_i32
  let v199 : Index := Scalar.indexCast v193
  ![1, v199.toNat]
def k0_off7 (k0_t2 : Fin k0_t2_loop.trips) (c0_i32_86 : BitVec 32) : Fin 2 → Nat :=
  let c0_i32_24 : BitVec 32 := 0#32
  let c1_i32_26 : BitVec 32 := 1#32
  let arg12 : BitVec 32 := Scf.iv c0_i32_24 c1_i32_26 k0_t2
  let c16_i32 : BitVec 32 := 16#32
  let v193 : BitVec 32 := Scalar.muli arg12 c16_i32
  let v206 : BitVec 32 := Scalar.addi v193 c0_i32_86
  let v207 : Index := Scalar.indexCast v206
  let c0_87 : Index := 0#32
  ![v207.toNat, 0]
def k0_off8 (k0_t2 : Fin k0_t2_loop.trips) (c0_i32_88 : BitVec 32) : Fin 2 → Nat :=
  let c0_i32_24 : BitVec 32 := 0#32
  let c1_i32_26 : BitVec 32 := 1#32
  let arg12 : BitVec 32 := Scf.iv c0_i32_24 c1_i32_26 k0_t2
  let c16_i32 : BitVec 32 := 16#32
  let v193 : BitVec 32 := Scalar.muli arg12 c16_i32
  let v217 : BitVec 32 := Scalar.addi v193 c0_i32_88
  let v218 : Index := Scalar.indexCast v217
  let c16_89 : Index := 16#32
  ![v218.toNat, 16]
def k0_off9 (k0_t2 : Fin k0_t2_loop.trips) (c0_i32_90 : BitVec 32) : Fin 2 → Nat :=
  let c0_i32_24 : BitVec 32 := 0#32
  let c1_i32_26 : BitVec 32 := 1#32
  let arg12 : BitVec 32 := Scf.iv c0_i32_24 c1_i32_26 k0_t2
  let c16_i32 : BitVec 32 := 16#32
  let v193 : BitVec 32 := Scalar.muli arg12 c16_i32
  let v228 : BitVec 32 := Scalar.addi v193 c0_i32_90
  let v229 : Index := Scalar.indexCast v228
  let c32_91 : Index := 32#32
  ![v229.toNat, 32]
def k0_off10 (k0_t2 : Fin k0_t2_loop.trips) (c0_i32_92 : BitVec 32) : Fin 2 → Nat :=
  let c0_i32_24 : BitVec 32 := 0#32
  let c1_i32_26 : BitVec 32 := 1#32
  let arg12 : BitVec 32 := Scf.iv c0_i32_24 c1_i32_26 k0_t2
  let c16_i32 : BitVec 32 := 16#32
  let v193 : BitVec 32 := Scalar.muli arg12 c16_i32
  let v239 : BitVec 32 := Scalar.addi v193 c0_i32_92
  let v240 : Index := Scalar.indexCast v239
  let c48_93 : Index := 48#32
  ![v240.toNat, 48]
def k0_off11 (k0_t2 : Fin k0_t2_loop.trips) (c0_i32_94 : BitVec 32) : Fin 2 → Nat :=
  let c0_i32_24 : BitVec 32 := 0#32
  let c1_i32_26 : BitVec 32 := 1#32
  let arg12 : BitVec 32 := Scf.iv c0_i32_24 c1_i32_26 k0_t2
  let c16_i32 : BitVec 32 := 16#32
  let v193 : BitVec 32 := Scalar.muli arg12 c16_i32
  let v250 : BitVec 32 := Scalar.addi v193 c0_i32_94
  let v251 : Index := Scalar.indexCast v250
  let c64_95 : Index := 64#32
  ![v251.toNat, 64]
def k0_off12 (k0_t2 : Fin k0_t2_loop.trips) (c0_i32_96 : BitVec 32) : Fin 2 → Nat :=
  let c0_i32_24 : BitVec 32 := 0#32
  let c1_i32_26 : BitVec 32 := 1#32
  let arg12 : BitVec 32 := Scf.iv c0_i32_24 c1_i32_26 k0_t2
  let c16_i32 : BitVec 32 := 16#32
  let v193 : BitVec 32 := Scalar.muli arg12 c16_i32
  let v261 : BitVec 32 := Scalar.addi v193 c0_i32_96
  let v262 : Index := Scalar.indexCast v261
  let c80_97 : Index := 80#32
  ![v262.toNat, 80]
def k0_off13 (k0_t2 : Fin k0_t2_loop.trips) (c0_i32_98 : BitVec 32) : Fin 2 → Nat :=
  let c0_i32_24 : BitVec 32 := 0#32
  let c1_i32_26 : BitVec 32 := 1#32
  let arg12 : BitVec 32 := Scf.iv c0_i32_24 c1_i32_26 k0_t2
  let c16_i32 : BitVec 32 := 16#32
  let v193 : BitVec 32 := Scalar.muli arg12 c16_i32
  let v272 : BitVec 32 := Scalar.addi v193 c0_i32_98
  let v273 : Index := Scalar.indexCast v272
  let c96_99 : Index := 96#32
  ![v273.toNat, 96]
def k0_off14 (k0_t2 : Fin k0_t2_loop.trips) (c0_i32_100 : BitVec 32) : Fin 2 → Nat :=
  let c0_i32_24 : BitVec 32 := 0#32
  let c1_i32_26 : BitVec 32 := 1#32
  let arg12 : BitVec 32 := Scf.iv c0_i32_24 c1_i32_26 k0_t2
  let c16_i32 : BitVec 32 := 16#32
  let v193 : BitVec 32 := Scalar.muli arg12 c16_i32
  let v283 : BitVec 32 := Scalar.addi v193 c0_i32_100
  let v284 : Index := Scalar.indexCast v283
  let c112_101 : Index := 112#32
  ![v284.toNat, 112]
def k0_off15 (i : grid0.Coords) : Fin 2 → Nat :=
  let c0_i32_84_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c1024_i32 : BitVec 32 := 1024#32
  let v191 : BitVec 32 := Scalar.muli v28 c1024_i32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v29 : BitVec 32 := Scalar.muli v11 c128_i32
  let v192 : BitVec 32 := Scalar.addi v191 v29
  ![0, v192.toNat]
abbrev grid1 : Pipeline.Grid := .none

abbrev stage1_0 : Fin 1 → Memref sig .tc .smem S1x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x512 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2048x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S_S1x1 : S_.ShapeCasts S1x1
  shapeCasts_S1024_S1x1024 : S1024.ShapeCasts S1x1024
  shapeCasts_S512_S1x512 : S512.ShapeCasts S1x512
  bcast_S_S16 : S_.BroadcastsInDim S16 (![] : Fin 0 → Fin S16.rank)
  inb_S16_S16_0 : ∀ a, (![0] : Fin 1 → Nat) a + S16.size a ≤ S16.size a
  h_S16 : 0 < S16.numel
  shapeCasts_S16_S16 : S16.ShapeCasts S16
  h_S1x16 : 0 < S1x16.numel
  shapeCasts_S1x16_S16 : S1x16.ShapeCasts S16
  shapeCasts_S16_S1x16 : S16.ShapeCasts S1x16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S4x128_S1x16_0_0 : ∀ a, (![0, 0] : Fin 2 → Nat) a + S1x16.size a ≤ S4x128.size a
  inb_S4x128_S1x16_1_0 : ∀ a, (![1, 0] : Fin 2 → Nat) a + S1x16.size a ≤ S4x128.size a
  inb_S4x128_S1x16_2_0 : ∀ a, (![2, 0] : Fin 2 → Nat) a + S1x16.size a ≤ S4x128.size a
  inb_S4x128_S1x16_3_0 : ∀ a, (![3, 0] : Fin 2 → Nat) a + S1x16.size a ≤ S4x128.size a
  inb_S4x128_S1x16_0_16 : ∀ a, (![0, 16] : Fin 2 → Nat) a + S1x16.size a ≤ S4x128.size a
  inb_S4x128_S1x16_1_16 : ∀ a, (![1, 16] : Fin 2 → Nat) a + S1x16.size a ≤ S4x128.size a
  inb_S4x128_S1x16_2_16 : ∀ a, (![2, 16] : Fin 2 → Nat) a + S1x16.size a ≤ S4x128.size a
  inb_S4x128_S1x16_3_16 : ∀ a, (![3, 16] : Fin 2 → Nat) a + S1x16.size a ≤ S4x128.size a
  inb_S4x128_S1x16_0_32 : ∀ a, (![0, 32] : Fin 2 → Nat) a + S1x16.size a ≤ S4x128.size a
  inb_S4x128_S1x16_1_32 : ∀ a, (![1, 32] : Fin 2 → Nat) a + S1x16.size a ≤ S4x128.size a
  inb_S4x128_S1x16_2_32 : ∀ a, (![2, 32] : Fin 2 → Nat) a + S1x16.size a ≤ S4x128.size a
  inb_S4x128_S1x16_3_32 : ∀ a, (![3, 32] : Fin 2 → Nat) a + S1x16.size a ≤ S4x128.size a
  inb_S4x128_S1x16_0_48 : ∀ a, (![0, 48] : Fin 2 → Nat) a + S1x16.size a ≤ S4x128.size a
  inb_S4x128_S1x16_1_48 : ∀ a, (![1, 48] : Fin 2 → Nat) a + S1x16.size a ≤ S4x128.size a
  inb_S4x128_S1x16_2_48 : ∀ a, (![2, 48] : Fin 2 → Nat) a + S1x16.size a ≤ S4x128.size a
  inb_S4x128_S1x16_3_48 : ∀ a, (![3, 48] : Fin 2 → Nat) a + S1x16.size a ≤ S4x128.size a
  inb_S4x128_S1x16_0_64 : ∀ a, (![0, 64] : Fin 2 → Nat) a + S1x16.size a ≤ S4x128.size a
  inb_S4x128_S1x16_1_64 : ∀ a, (![1, 64] : Fin 2 → Nat) a + S1x16.size a ≤ S4x128.size a
  inb_S4x128_S1x16_2_64 : ∀ a, (![2, 64] : Fin 2 → Nat) a + S1x16.size a ≤ S4x128.size a
  inb_S4x128_S1x16_3_64 : ∀ a, (![3, 64] : Fin 2 → Nat) a + S1x16.size a ≤ S4x128.size a
  inb_S4x128_S1x16_0_80 : ∀ a, (![0, 80] : Fin 2 → Nat) a + S1x16.size a ≤ S4x128.size a
  inb_S4x128_S1x16_1_80 : ∀ a, (![1, 80] : Fin 2 → Nat) a + S1x16.size a ≤ S4x128.size a
  inb_S4x128_S1x16_2_80 : ∀ a, (![2, 80] : Fin 2 → Nat) a + S1x16.size a ≤ S4x128.size a
  inb_S4x128_S1x16_3_80 : ∀ a, (![3, 80] : Fin 2 → Nat) a + S1x16.size a ≤ S4x128.size a
  inb_S4x128_S1x16_0_96 : ∀ a, (![0, 96] : Fin 2 → Nat) a + S1x16.size a ≤ S4x128.size a
  inb_S4x128_S1x16_1_96 : ∀ a, (![1, 96] : Fin 2 → Nat) a + S1x16.size a ≤ S4x128.size a
  inb_S4x128_S1x16_2_96 : ∀ a, (![2, 96] : Fin 2 → Nat) a + S1x16.size a ≤ S4x128.size a
  inb_S4x128_S1x16_3_96 : ∀ a, (![3, 96] : Fin 2 → Nat) a + S1x16.size a ≤ S4x128.size a
  inb_S4x128_S1x16_0_112 : ∀ a, (![0, 112] : Fin 2 → Nat) a + S1x16.size a ≤ S4x128.size a
  inb_S4x128_S1x16_1_112 : ∀ a, (![1, 112] : Fin 2 → Nat) a + S1x16.size a ≤ S4x128.size a
  inb_S4x128_S1x16_2_112 : ∀ a, (![2, 112] : Fin 2 → Nat) a + S1x16.size a ≤ S4x128.size a
  inb_S4x128_S1x16_3_112 : ∀ a, (![3, 112] : Fin 2 → Nat) a + S1x16.size a ≤ S4x128.size a
  shapeCasts_S3_S1x3 : S3.ShapeCasts S1x3
  inb_S14_S1_0 : ∀ a, (![0] : Fin 1 → Nat) a + S1.size a ≤ S14.size a
  squeezes_S1_S_ : S1.Squeezes S_
  inb_S14_S1_1 : ∀ a, (![1] : Fin 1 → Nat) a + S1.size a ≤ S14.size a
  inb_S14_S1_2 : ∀ a, (![2] : Fin 1 → Nat) a + S1.size a ≤ S14.size a
  inb_S2048x1024_S512x1024_0_0 : ∀ a, (![0, 0] : Fin 2 → Nat) a + S512x1024.size a ≤ S2048x1024.size a
  inb_S14_S1_3 : ∀ a, (![3] : Fin 1 → Nat) a + S1.size a ≤ S14.size a
  inb_S2048x1024_S512x1024_512_0 : ∀ a, (![512, 0] : Fin 2 → Nat) a + S512x1024.size a ≤ S2048x1024.size a
  inb_S14_S1_4 : ∀ a, (![4] : Fin 1 → Nat) a + S1.size a ≤ S14.size a
  inb_S2048x1024_S512x1024_1024_0 : ∀ a, (![1024, 0] : Fin 2 → Nat) a + S512x1024.size a ≤ S2048x1024.size a
  inb_S14_S1_5 : ∀ a, (![5] : Fin 1 → Nat) a + S1.size a ≤ S14.size a
  inb_S2048x1024_S512x1024_1536_0 : ∀ a, (![1536, 0] : Fin 2 → Nat) a + S512x1024.size a ≤ S2048x1024.size a
  inb_S14_S1_6 : ∀ a, (![6] : Fin 1 → Nat) a + S1.size a ≤ S14.size a
  inb_S14_S1_7 : ∀ a, (![7] : Fin 1 → Nat) a + S1.size a ≤ S14.size a
  inb_S14_S1_8 : ∀ a, (![8] : Fin 1 → Nat) a + S1.size a ≤ S14.size a
  inb_S14_S1_9 : ∀ a, (![9] : Fin 1 → Nat) a + S1.size a ≤ S14.size a
  inb_S14_S1_10 : ∀ a, (![10] : Fin 1 → Nat) a + S1.size a ≤ S14.size a
  inb_S14_S1_11 : ∀ a, (![11] : Fin 1 → Nat) a + S1.size a ≤ S14.size a
  inb_S14_S1_12 : ∀ a, (![12] : Fin 1 → Nat) a + S1.size a ≤ S14.size a
  inb_S14_S1_13 : ∀ a, (![13] : Fin 1 → Nat) a + S1.size a ≤ S14.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  numel1_S1x1 : S1x1.numel = 1
  natLt_1_32 : 1 < 32
  shapeCasts_S1x512_S1x1x512 : S1x512.ShapeCasts S1x1x512
  reduces_S1x1x512_S1 : S1x1x512.Reduces [1, 2] S1
  shapeCasts_S1_S1x1x1 : S1.ShapeCasts S1x1x1
  inpos_S1x1x1_p0_0_0 : ∀ a, (![0, 0, 0] : Fin 3 → Nat) a < S1x1x1.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x512_S1x512_S1x512_S3x512_d0 : Shape.Concatenates [S1x512, S1x512, S1x512] S3x512 0
  inb_S512x1024_S512x1024_0_0 : ∀ a, (![0, 0] : Fin 2 → Nat) a + S512x1024.size a ≤ S512x1024.size a
  h_S512x1024 : 0 < S512x1024.numel
  slices_S3x1024_o0_0_S1x1024 : S3x1024.Slices ![0, 0] S1x1024
  slices_S3x1024_o1_0_S1x1024 : S3x1024.Slices ![1, 0] S1x1024
  slices_S3x1024_o2_0_S1x1024 : S3x1024.Slices ![2, 0] S1x1024
  concatenates_S1x1024_S1x1024_S1x2048_d1 : Shape.Concatenates [S1x1024, S1x1024] S1x2048 1
  inb_S2048x3_S2048x3_0_0 : ∀ a, (![0, 0] : Fin 2 → Nat) a + S2048x3.size a ≤ S2048x3.size a
  h_S2048x3 : 0 < S2048x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  shapeCasts_S1x3_S1x1x3 : S1x3.ShapeCasts S1x1x3
  reduces_S1x1x3_S1 : S1x1x3.Reduces [1, 2] S1
  inb_S1024x1024_S1024x1024_0_0 : ∀ a, (![0, 0] : Fin 2 → Nat) a + S1024x1024.size a ≤ S1024x1024.size a
  h_S1024x1024 : 0 < S1024x1024.numel
  broadcasts_S1x1024_S512x1024 : S1x1024.Broadcasts S512x1024
  slices_S1x2048_o0_0_S1x512 : S1x2048.Slices ![0, 0] S1x512
  slices_S1x2048_o0_512_S1x512 : S1x2048.Slices ![0, 512] S1x512
  slices_S1x2048_o0_1024_S1x512 : S1x2048.Slices ![0, 1024] S1x512
  slices_S1x2048_o0_1536_S1x512 : S1x2048.Slices ![0, 1536] S1x512
  slices_S1x3_o0_0_S1x1 : S1x3.Slices ![0, 0] S1x1
  inpos_S1x1_p0_0 : ∀ a, (![0, 0] : Fin 2 → Nat) a < S1x1.size a
  slices_S1x3_o0_1_S1x1 : S1x3.Slices ![0, 1] S1x1
  slices_S1x3_o0_2_S1x1 : S1x3.Slices ![0, 2] S1x1
  shapeCasts_S1x1024_S1024 : S1x1024.ShapeCasts S1024
  slices_S4x4096_S1x4096_3_0 : S4x4096.Slices ![3, 0] S1x4096
  shapeCasts_S1x4096_S4096 : S1x4096.ShapeCasts S4096
  shapeCasts_S4096_S4x1024 : S4096.ShapeCasts S4x1024
  reducesTo_S4x1024_S1024_d0 : S4x1024.ReducesTo [0] S1024
  h_S_ : 0 < S_.numel
  dot_S3x512_S512x1024_S3x1024_1_0_0_1_n_n_wf : DotDims.WF S3x512 S512x1024 S3x1024 [1] [0] [0] [1] [] []
  dot_S1x2048_S2048x3_S1x3_1_0_0_1_n_n_wf : DotDims.WF S1x2048 S2048x3 S1x3 [1] [0] [0] [1] [] []
  dot_S512x1024_S1024x1024_S512x1024_1_0_0_1_n_n_wf : DotDims.WF S512x1024 S1024x1024 S512x1024 [1] [0] [0] [1] [] []
  dot_S1x512_S512x1024_S1x1024_1_0_0_1_n_n_wf : DotDims.WF S1x512 S512x1024 S1x1024 [1] [0] [0] [1] [] []
  hcc0_scratch5 : 0 + S_.numel ≤ 28
  hcc0_scoped0 : 1 + S_.numel ≤ 28
  hcc0_scoped1 : 2 + S_.numel ≤ 28
  hcc0_scoped2 : 3 + S_.numel ≤ 28
  hcc1_scratch5 : 14 + S14.numel ≤ 28
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128x128.size a ≤ S512x1024.size a
  k0_t1_ok : k0_t1_loop.OK
  k0_off2_inb : ∀ (i : grid0.Coords) (k0_t1 : Fin k0_t1_loop.trips), ∀ a, (k0_off2 i k0_t1) a + S16.size a ≤ S512.size a
  k0_off3_inb : ∀ k0_t1 : Fin k0_t1_loop.trips, ∀ a, (k0_off3 k0_t1) a + S1x16.size a ≤ S2x128.size a
  k0_off4_inb : ∀ k0_t1 : Fin k0_t1_loop.trips, ∀ a, (k0_off4 k0_t1) a + S1x16.size a ≤ S2x128.size a
  k0_t2_ok : k0_t2_loop.OK
  k0_off5_inb : ∀ k0_t2 : Fin k0_t2_loop.trips, ∀ a, (k0_off5 k0_t2) a + S1x16.size a ≤ S2x128.size a
  k0_off6_inb : ∀ k0_t2 : Fin k0_t2_loop.trips, ∀ a, (k0_off6 k0_t2) a + S1x16.size a ≤ S2x128.size a
  k0_off7_inb : ∀ k0_t2 : Fin k0_t2_loop.trips, ∀ (r : Fin 16), ∀ a, (k0_off7 k0_t2 (BitVec.ofNat 32 r.val)) a + S1x16.size a ≤ S128x128.size a
  k0_off8_inb : ∀ k0_t2 : Fin k0_t2_loop.trips, ∀ (r : Fin 16), ∀ a, (k0_off8 k0_t2 (BitVec.ofNat 32 r.val)) a + S1x16.size a ≤ S128x128.size a
  k0_off9_inb : ∀ k0_t2 : Fin k0_t2_loop.trips, ∀ (r : Fin 16), ∀ a, (k0_off9 k0_t2 (BitVec.ofNat 32 r.val)) a + S1x16.size a ≤ S128x128.size a
  k0_off10_inb : ∀ k0_t2 : Fin k0_t2_loop.trips, ∀ (r : Fin 16), ∀ a, (k0_off10 k0_t2 (BitVec.ofNat 32 r.val)) a + S1x16.size a ≤ S128x128.size a
  k0_off11_inb : ∀ k0_t2 : Fin k0_t2_loop.trips, ∀ (r : Fin 16), ∀ a, (k0_off11 k0_t2 (BitVec.ofNat 32 r.val)) a + S1x16.size a ≤ S128x128.size a
  k0_off12_inb : ∀ k0_t2 : Fin k0_t2_loop.trips, ∀ (r : Fin 16), ∀ a, (k0_off12 k0_t2 (BitVec.ofNat 32 r.val)) a + S1x16.size a ≤ S128x128.size a
  k0_off13_inb : ∀ k0_t2 : Fin k0_t2_loop.trips, ∀ (r : Fin 16), ∀ a, (k0_off13 k0_t2 (BitVec.ofNat 32 r.val)) a + S1x16.size a ≤ S128x128.size a
  k0_off14_inb : ∀ k0_t2 : Fin k0_t2_loop.trips, ∀ (r : Fin 16), ∀ a, (k0_off14 k0_t2 (BitVec.ofNat 32 r.val)) a + S1x16.size a ≤ S128x128.size a
  k0_off15_inb : ∀ i : grid0.Coords, ∀ a, (k0_off15 i) a + S4x128.size a ≤ S4x4096.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole

variable [Facts₀]

abbrev cc0_scratch5 : DmaSems sig S_ := SemArray.consecutive 0 S_ hcc0_scratch5
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc1_scratch5 : DmaSems sig S14 := SemArray.consecutive 14 S14 hcc1_scratch5
def dot_S3x512_S512x1024_S3x1024_1_0_0_1_n_n : DotDims S3x512 S512x1024 S3x1024 where
  lhsContracting := [1]
  rhsContracting := [0]
  lhsNonContracting := [0]
  rhsNonContracting := [1]
  lhsBatch := []
  rhsBatch := []
  wf := dot_S3x512_S512x1024_S3x1024_1_0_0_1_n_n_wf
def dot_S1x2048_S2048x3_S1x3_1_0_0_1_n_n : DotDims S1x2048 S2048x3 S1x3 where
  lhsContracting := [1]
  rhsContracting := [0]
  lhsNonContracting := [0]
  rhsNonContracting := [1]
  lhsBatch := []
  rhsBatch := []
  wf := dot_S1x2048_S2048x3_S1x3_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf

abbrev win1_0 : Pipeline.Window sig grid1 :=
  Pipeline.Window.whole (Memref.whole main_v0) false false (stage1_0 0) (sem1_0 0) (Memref.isWhole_whole _) (hstage1_0 0)

abbrev win1_1 : Pipeline.Window sig grid1 :=
  Pipeline.Window.whole (Memref.whole main_v1) false false (stage1_1 0) (sem1_1 0) (Memref.isWhole_whole _) (hstage1_1 0)

abbrev win1_2 : Pipeline.Window sig grid1 :=
  Pipeline.Window.whole (Memref.whole main_v2) false false (stage1_2 0) (sem1_2 0) (Memref.isWhole_whole _) (hstage1_2 0)

abbrev win1_3 : Pipeline.Window sig grid1 :=
  Pipeline.Window.whole (Memref.whole main_v5) false false (stage1_3 0) (sem1_3 0) (Memref.isWhole_whole _) (hstage1_3 0)

abbrev win1_4 : Pipeline.Window sig grid1 :=
  Pipeline.Window.whole (Memref.whole main_arg12) false false (stage1_4 0) (sem1_4 0) (Memref.isWhole_whole _) (hstage1_4 0)

abbrev win1_5 : Pipeline.Window sig grid1 :=
  Pipeline.Window.whole (Memref.whole main_v6) false false (stage1_5 0) (sem1_5 0) (Memref.isWhole_whole _) (hstage1_5 0)

abbrev win1_6 : Pipeline.Window sig grid1 :=
  Pipeline.Window.whole (Memref.whole main_v7) false false (stage1_6 0) (sem1_6 0) (Memref.isWhole_whole _) (hstage1_6 0)

abbrev win1_7 : Pipeline.Window sig grid1 :=
  Pipeline.Window.whole (Memref.whole main_v8) false false (stage1_7 0) (sem1_7 0) (Memref.isWhole_whole _) (hstage1_7 0)

abbrev win1_8 : Pipeline.Window sig grid1 :=
  Pipeline.Window.whole (Memref.whole main_v9) false false (stage1_8 0) (sem1_8 0) (Memref.isWhole_whole _) (hstage1_8 0)

abbrev win1_9 : Pipeline.Window sig grid1 :=
  Pipeline.Window.whole (Memref.whole main_v10) true false (stage1_9 0) (sem1_9 0) (Memref.isWhole_whole _) (hstage1_9 0)

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S1024 : Shape := ⟨1, ![1024]⟩
abbrev S512x1024 : Shape := ⟨2, ![512, 1024]⟩
abbrev S_ : Shape := ⟨0, ![]⟩
abbrev S512 : Shape := ⟨1, ![512]⟩
abbrev S2048x1024 : Shape := ⟨2, ![2048, 1024]⟩
abbrev S1024x1024 : Shape := ⟨2, ![1024, 1024]⟩
abbrev S2048x3 : Shape := ⟨2, ![2048, 3]⟩
abbrev S3 : Shape := ⟨1, ![3]⟩
abbrev S1 : Shape := ⟨1, ![1]⟩
abbrev S512x1 : Shape := ⟨2, ![512, 1]⟩
abbrev S512x3 : Shape := ⟨2, ![512, 3]⟩
abbrev S1x3 : Shape := ⟨2, ![1, 3]⟩
abbrev S2048 : Shape := ⟨1, ![2048]⟩
abbrev S1x1024 : Shape := ⟨2, ![1, 1024]⟩
abbrev S3x1024 : Shape := ⟨2, ![3, 1024]⟩
abbrev S3x1 : Shape := ⟨2, ![3, 1]⟩

abbrev nBuf : Space → Nat
  | .hbm => 290
  | .vmem => 0
  | .smem => 0
  | _ => 0

abbrev hbmTy0_0 (i : Nat) : BufTy := match i % 128 with
  | 0 => ⟨S1024, .f32⟩
  | 1 => ⟨S512x1024, .f32⟩
  | 2 => ⟨S_, .i32⟩
  | 3 => ⟨S512, .i32⟩
  | 4 => ⟨S2048x1024, .f32⟩
  | 5 => ⟨S1024, .f32⟩
  | 6 => ⟨S1024x1024, .f32⟩
  | 7 => ⟨S1024, .f32⟩
  | 8 => ⟨S2048x1024, .f32⟩
  | 9 => ⟨S1024, .f32⟩
  | 10 => ⟨S2048x1024, .f32⟩
  | 11 => ⟨S1024, .f32⟩
  | 12 => ⟨S2048x3, .f32⟩
  | 13 => ⟨S3, .f32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i1⟩
  | 25 => ⟨S_, .i32⟩
  | 26 => ⟨S_, .i1⟩
  | 27 => ⟨S_, .i1⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i1⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i1⟩
  | 55 => ⟨S_, .i32⟩
  | 56 => ⟨S_, .i1⟩
  | 57 => ⟨S_, .i1⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i1⟩
  | 70 => ⟨S_, .i1⟩
  | 71 => ⟨S_, .i32⟩
  | 72 => ⟨S_, .i32⟩
  | 73 => ⟨S_, .i32⟩
  | 74 => ⟨S1, .i32⟩
  | 75 => ⟨S1, .i32⟩
  | 76 => ⟨S1, .i32⟩
  | 77 => ⟨S3, .i32⟩
  | 78 => ⟨S3, .f32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S512, .i32⟩
  | 86 => ⟨S512, .i32⟩
  | 87 => ⟨S_, .i32⟩
  | 88 => ⟨S512, .i32⟩
  | 89 => ⟨S512, .i1⟩
  | 90 => ⟨S_, .i32⟩
  | 91 => ⟨S512, .i32⟩
  | 92 => ⟨S512, .i1⟩
  | 93 => ⟨S_, .i32⟩
  | 94 => ⟨S_, .i1⟩
  | 95 => ⟨S512, .i1⟩
  | 96 => ⟨S512, .i1⟩
  | 97 => ⟨S512, .i1⟩
  | 98 => ⟨S512, .i32⟩
  | 99 => ⟨S512, .i32⟩
  | 100 => ⟨S512, .i32⟩
  | 101 => ⟨S_, .i32⟩
  | 102 => ⟨S_, .i32⟩
  | 103 => ⟨S512, .i32⟩
  | 104 => ⟨S512, .i32⟩
  | 105 => ⟨S512, .i32⟩
  | 106 => ⟨S_, .i32⟩
  | 107 => ⟨S512, .i32⟩
  | 108 => ⟨S512, .i1⟩
  | 109 => ⟨S512, .i32⟩
  | 110 => ⟨S512, .i32⟩
  | 111 => ⟨S_, .i32⟩
  | 112 => ⟨S512, .i32⟩
  | 113 => ⟨S512, .i1⟩
  | 114 => ⟨S512, .i1⟩
  | 115 => ⟨S_, .i32⟩
  | 116 => ⟨S512, .i32⟩
  | 117 => ⟨S512, .i32⟩
  | 118 => ⟨S512, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S512, .i32⟩
  | 126 => ⟨S512, .i32⟩
  | 127 => ⟨S_, .i32⟩
  | _ => ⟨S1024, .f32⟩

abbrev hbmTy0_1 (i : Nat) : BufTy := match i % 128 with
  | 0 => ⟨S512, .i32⟩
  | 1 => ⟨S512, .i1⟩
  | 2 => ⟨S_, .i32⟩
  | 3 => ⟨S512, .i32⟩
  | 4 => ⟨S512, .i1⟩
  | 5 => ⟨S_, .i32⟩
  | 6 => ⟨S_, .i1⟩
  | 7 => ⟨S512, .i1⟩
  | 8 => ⟨S512, .i1⟩
  | 9 => ⟨S512, .i1⟩
  | 10 => ⟨S512, .i32⟩
  | 11 => ⟨S512, .i32⟩
  | 12 => ⟨S512, .i32⟩
  | 13 => ⟨S_, .i32⟩
  | 14 => ⟨S_, .i32⟩
  | 15 => ⟨S512, .i32⟩
  | 16 => ⟨S512, .i32⟩
  | 17 => ⟨S512, .i32⟩
  | 18 => ⟨S_, .i32⟩
  | 19 => ⟨S512, .i32⟩
  | 20 => ⟨S512, .i1⟩
  | 21 => ⟨S512, .i32⟩
  | 22 => ⟨S512, .i32⟩
  | 23 => ⟨S_, .i32⟩
  | 24 => ⟨S512, .i32⟩
  | 25 => ⟨S512, .i1⟩
  | 26 => ⟨S512, .i1⟩
  | 27 => ⟨S_, .i32⟩
  | 28 => ⟨S512, .i32⟩
  | 29 => ⟨S512, .i32⟩
  | 30 => ⟨S512, .i32⟩
  | 31 => ⟨S512x1, .i32⟩
  | 32 => ⟨S512x1, .i32⟩
  | 33 => ⟨S512x1, .i32⟩
  | 34 => ⟨S512x3, .i32⟩
  | 35 => ⟨S512x3, .f32⟩
  | 36 => ⟨S1x3, .f32⟩
  | 37 => ⟨S512x3, .f32⟩
  | 38 => ⟨S512x3, .f32⟩
  | 39 => ⟨S512x3, .f32⟩
  | 40 => ⟨S_, .f32⟩
  | 41 => ⟨S512, .f32⟩
  | 42 => ⟨S_, .f32⟩
  | 43 => ⟨S512, .f32⟩
  | 44 => ⟨S512, .f32⟩
  | 45 => ⟨S512, .f32⟩
  | 46 => ⟨S_, .f32⟩
  | 47 => ⟨S512, .f32⟩
  | 48 => ⟨S512, .i1⟩
  | 49 => ⟨S512, .f32⟩
  | 50 => ⟨S_, .f32⟩
  | 51 => ⟨S512, .f32⟩
  | 52 => ⟨S512, .i1⟩
  | 53 => ⟨S512, .f32⟩
  | 54 => ⟨S_, .f32⟩
  | 55 => ⟨S512, .f32⟩
  | 56 => ⟨S512, .f32⟩
  | 57 => ⟨S_, .f32⟩
  | 58 => ⟨S512, .f32⟩
  | 59 => ⟨S512, .f32⟩
  | 60 => ⟨S512, .f32⟩
  | 61 => ⟨S_, .f32⟩
  | 62 => ⟨S_, .f32⟩
  | 63 => ⟨S_, .f32⟩
  | 64 => ⟨S_, .f32⟩
  | 65 => ⟨S512x1, .f32⟩
  | 66 => ⟨S512x1024, .f32⟩
  | 67 => ⟨S512x1024, .f32⟩
  | 68 => ⟨S_, .f32⟩
  | 69 => ⟨S1024, .f32⟩
  | 70 => ⟨S1024, .f32⟩
  | 71 => ⟨S1024, .f32⟩
  | 72 => ⟨S2048, .f32⟩
  | 73 => ⟨S1024, .f32⟩
  | 74 => ⟨S1024, .f32⟩
  | 75 => ⟨S1024, .f32⟩
  | 76 => ⟨S_, .f32⟩
  | 77 => ⟨S_, .f32⟩
  | 78 => ⟨S_, .f32⟩
  | 79 => ⟨S_, .i1⟩
  | 80 => ⟨S_, .f32⟩
  | 81 => ⟨S1024, .f32⟩
  | 82 => ⟨S1024, .f32⟩
  | 83 => ⟨S512x1024, .f32⟩
  | 84 => ⟨S1x1024, .f32⟩
  | 85 => ⟨S512x1024, .f32⟩
  | 86 => ⟨S512x1024, .f32⟩
  | 87 => ⟨S512x1024, .f32⟩
  | 88 => ⟨S_, .f32⟩
  | 89 => ⟨S_, .f32⟩
  | 90 => ⟨S_, .f32⟩
  | 91 => ⟨S_, .f32⟩
  | 92 => ⟨S512x1, .f32⟩
  | 93 => ⟨S512x1024, .f32⟩
  | 94 => ⟨S512x1024, .f32⟩
  | 95 => ⟨S_, .f32⟩
  | 96 => ⟨S1024, .f32⟩
  | 97 => ⟨S1024, .f32⟩
  | 98 => ⟨S1024, .f32⟩
  | 99 => ⟨S2048, .f32⟩
  | 100 => ⟨S1024, .f32⟩
  | 101 => ⟨S1024, .f32⟩
  | 102 => ⟨S1024, .f32⟩
  | 103 => ⟨S_, .f32⟩
  | 104 => ⟨S_, .f32⟩
  | 105 => ⟨S_, .f32⟩
  | 106 => ⟨S_, .i1⟩
  | 107 => ⟨S_, .f32⟩
  | 108 => ⟨S1024, .f32⟩
  | 109 => ⟨S1024, .f32⟩
  | 110 => ⟨S_, .f32⟩
  | 111 => ⟨S_, .f32⟩
  | 112 => ⟨S_, .f32⟩
  | 113 => ⟨S_, .f32⟩
  | 114 => ⟨S512x1, .f32⟩
  | 115 => ⟨S512x1024, .f32⟩
  | 116 => ⟨S512x1024, .f32⟩
  | 117 => ⟨S_, .f32⟩
  | 118 => ⟨S1024, .f32⟩
  | 119 => ⟨S1024, .f32⟩
  | 120 => ⟨S1024, .f32⟩
  | 121 => ⟨S2048, .f32⟩
  | 122 => ⟨S1024, .f32⟩
  | 123 => ⟨S1024, .f32⟩
  | 124 => ⟨S1024, .f32⟩
  | 125 => ⟨S_, .f32⟩
  | 126 => ⟨S_, .f32⟩
  | 127 => ⟨S_, .f32⟩
  | _ => ⟨S1024, .f32⟩

abbrev hbmTy0_2 (i : Nat) : BufTy := match i % 128 with
  | 0 => ⟨S_, .i1⟩
  | 1 => ⟨S_, .f32⟩
  | 2 => ⟨S1024, .f32⟩
  | 3 => ⟨S1024, .f32⟩
  | 4 => ⟨S_, .f32⟩
  | 5 => ⟨S1024, .f32⟩
  | 6 => ⟨S_, .f32⟩
  | 7 => ⟨S1024, .f32⟩
  | 8 => ⟨S1024, .f32⟩
  | 9 => ⟨S2048, .f32⟩
  | 10 => ⟨S3, .f32⟩
  | 11 => ⟨S3, .f32⟩
  | 12 => ⟨S_, .f32⟩
  | 13 => ⟨S_, .f32⟩
  | 14 => ⟨S_, .f32⟩
  | 15 => ⟨S_, .f32⟩
  | 16 => ⟨S1, .f32⟩
  | 17 => ⟨S3, .f32⟩
  | 18 => ⟨S3, .f32⟩
  | 19 => ⟨S3, .f32⟩
  | 20 => ⟨S_, .f32⟩
  | 21 => ⟨S_, .f32⟩
  | 22 => ⟨S1, .f32⟩
  | 23 => ⟨S3, .f32⟩
  | 24 => ⟨S3, .f32⟩
  | 25 => ⟨S1x1024, .f32⟩
  | 26 => ⟨S1x1024, .f32⟩
  | 27 => ⟨S1x1024, .f32⟩
  | 28 => ⟨S3x1024, .f32⟩
  | 29 => ⟨S3x1, .f32⟩
  | 30 => ⟨S3x1024, .f32⟩
  | 31 => ⟨S3x1024, .f32⟩
  | 32 => ⟨S_, .f32⟩
  | 33 => ⟨S1024, .f32⟩
  | _ => ⟨S1024, .f32⟩

abbrev hbmTy (i : Nat) : BufTy := match i / 128 with
  | 0 => hbmTy0_0 i
  | 1 => hbmTy0_1 i
  | 2 => hbmTy0_2 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_c_1 : Ref sig .tc := ⟨.hbm, 21, rfl⟩
abbrev main_call0_v4 : Ref sig .tc := ⟨.hbm, 22, rfl⟩
abbrev main_call0_c_2 : Ref sig .tc := ⟨.hbm, 23, rfl⟩
abbrev main_call0_v5 : Ref sig .tc := ⟨.hbm, 24, rfl⟩
abbrev main_call0_c_3 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_v0 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c : Ref sig .tc := ⟨.hbm, 38, rfl⟩
abbrev main_call1_v6 : Ref sig .tc := ⟨.hbm, 39, rfl⟩
abbrev main_call1_v7 : Ref sig .tc := ⟨.hbm, 40, rfl⟩
abbrev main_call1_c_0 : Ref sig .tc := ⟨.hbm, 41, rfl⟩
abbrev main_call1_v8 : Ref sig .tc := ⟨.hbm, 42, rfl⟩
abbrev main_v1 : Ref sig .tc := ⟨.hbm, 43, rfl⟩
abbrev main_c_1 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_c_1 : Ref sig .tc := ⟨.hbm, 51, rfl⟩
abbrev main_call2_v4 : Ref sig .tc := ⟨.hbm, 52, rfl⟩
abbrev main_call2_c_2 : Ref sig .tc := ⟨.hbm, 53, rfl⟩
abbrev main_call2_v5 : Ref sig .tc := ⟨.hbm, 54, rfl⟩
abbrev main_call2_c_3 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_v2 : Ref sig .tc := ⟨.hbm, 60, rfl⟩
abbrev main_c_2 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_c : Ref sig .tc := ⟨.hbm, 68, rfl⟩
abbrev main_call3_v6 : Ref sig .tc := ⟨.hbm, 69, rfl⟩
abbrev main_call3_v7 : Ref sig .tc := ⟨.hbm, 70, rfl⟩
abbrev main_call3_c_0 : Ref sig .tc := ⟨.hbm, 71, rfl⟩
abbrev main_call3_v8 : Ref sig .tc := ⟨.hbm, 72, rfl⟩
abbrev main_v3 : Ref sig .tc := ⟨.hbm, 73, rfl⟩
abbrev main_v4 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_v8 : Ref sig .tc := ⟨.hbm, 78, rfl⟩
abbrev main_c_3 : Ref sig .tc := ⟨.hbm, 79, rfl⟩
abbrev main_call4_v0 : Ref sig .tc := ⟨.hbm, 80, rfl⟩
abbrev main_call4_c : Ref sig .tc := ⟨.hbm, 81, rfl⟩
abbrev main_call4_v1 : Ref sig .tc := ⟨.hbm, 82, rfl⟩
abbrev main_call4_c_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_c_1 : Ref sig .tc := ⟨.hbm, 87, rfl⟩
abbrev main_call4_v5 : Ref sig .tc := ⟨.hbm, 88, rfl⟩
abbrev main_call4_v6 : Ref sig .tc := ⟨.hbm, 89, rfl⟩
abbrev main_call4_c_2 : Ref sig .tc := ⟨.hbm, 90, rfl⟩
abbrev main_call4_v7 : Ref sig .tc := ⟨.hbm, 91, rfl⟩
abbrev main_call4_v8 : Ref sig .tc := ⟨.hbm, 92, rfl⟩
abbrev main_call4_c_3 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_v12 : Ref sig .tc := ⟨.hbm, 97, rfl⟩
abbrev main_call4_v13 : Ref sig .tc := ⟨.hbm, 98, rfl⟩
abbrev main_call4_v14 : Ref sig .tc := ⟨.hbm, 99, rfl⟩
abbrev main_v9 : Ref sig .tc := ⟨.hbm, 100, rfl⟩
abbrev main_c_4 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_call5_v5 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_c : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_call5_c_0 : Ref sig .tc := ⟨.hbm, 115, rfl⟩
abbrev main_call5_v12 : Ref sig .tc := ⟨.hbm, 116, rfl⟩
abbrev main_call5_v13 : Ref sig .tc := ⟨.hbm, 117, rfl⟩
abbrev main_v10 : Ref sig .tc := ⟨.hbm, 118, rfl⟩
abbrev main_c_5 : Ref sig .tc := ⟨.hbm, 119, rfl⟩
abbrev main_call6_v0 : Ref sig .tc := ⟨.hbm, 120, rfl⟩
abbrev main_call6_c : Ref sig .tc := ⟨.hbm, 121, rfl⟩
abbrev main_call6_v1 : Ref sig .tc := ⟨.hbm, 122, rfl⟩
abbrev main_call6_c_0 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_call6_c_1 : Ref sig .tc := ⟨.hbm, 127, rfl⟩
abbrev main_call6_v5 : Ref sig .tc := ⟨.hbm, 128, rfl⟩
abbrev main_call6_v6 : Ref sig .tc := ⟨.hbm, 129, rfl⟩
abbrev main_call6_c_2 : Ref sig .tc := ⟨.hbm, 130, rfl⟩
abbrev main_call6_v7 : Ref sig .tc := ⟨.hbm, 131, rfl⟩
abbrev main_call6_v8 : Ref sig .tc := ⟨.hbm, 132, rfl⟩
abbrev main_call6_c_3 : Ref sig .tc := ⟨.hbm, 133, rfl⟩
abbrev main_call6_v9 : Ref sig .tc := ⟨.hbm, 134, rfl⟩
abbrev main_call6_v10 : Ref sig .tc := ⟨.hbm, 135, rfl⟩
abbrev main_call6_v11 : Ref sig .tc := ⟨.hbm, 136, rfl⟩
abbrev main_call6_v12 : Ref sig .tc := ⟨.hbm, 137, rfl⟩
abbrev main_call6_v13 : Ref sig .tc := ⟨.hbm, 138, rfl⟩
abbrev main_call6_v14 : Ref sig .tc := ⟨.hbm, 139, rfl⟩
abbrev main_v11 : Ref sig .tc := ⟨.hbm, 140, rfl⟩
abbrev main_c_6 : Ref sig .tc := ⟨.hbm, 141, rfl⟩
abbrev main_call7_v0 : Ref sig .tc := ⟨.hbm, 142, rfl⟩
abbrev main_call7_v1 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_call7_v5 : Ref sig .tc := ⟨.hbm, 147, rfl⟩
abbrev main_call7_v6 : Ref sig .tc := ⟨.hbm, 148, rfl⟩
abbrev main_call7_v7 : Ref sig .tc := ⟨.hbm, 149, rfl⟩
abbrev main_call7_v8 : Ref sig .tc := ⟨.hbm, 150, rfl⟩
abbrev main_call7_c : Ref sig .tc := ⟨.hbm, 151, rfl⟩
abbrev main_call7_v9 : Ref sig .tc := ⟨.hbm, 152, rfl⟩
abbrev main_call7_v10 : Ref sig .tc := ⟨.hbm, 153, rfl⟩
abbrev main_call7_v11 : Ref sig .tc := ⟨.hbm, 154, rfl⟩
abbrev main_call7_c_0 : Ref sig .tc := ⟨.hbm, 155, rfl⟩
abbrev main_call7_v12 : Ref sig .tc := ⟨.hbm, 156, rfl⟩
abbrev main_call7_v13 : Ref sig .tc := ⟨.hbm, 157, rfl⟩
abbrev main_v12 : Ref sig .tc := ⟨.hbm, 158, rfl⟩
abbrev main_v13 : Ref sig .tc := ⟨.hbm, 159, rfl⟩
abbrev main_v14 : Ref sig .tc := ⟨.hbm, 160, rfl⟩
abbrev main_v15 : Ref sig .tc := ⟨.hbm, 161, rfl⟩
abbrev main_v16 : Ref sig .tc := ⟨.hbm, 162, rfl⟩
abbrev main_v17 : Ref sig .tc := ⟨.hbm, 163, rfl⟩
abbrev main_v18 : Ref sig .tc := ⟨.hbm, 164, rfl⟩
abbrev main_v19 : Ref sig .tc := ⟨.hbm, 165, rfl⟩
abbrev main_v20 : Ref sig .tc := ⟨.hbm, 166, rfl⟩
abbrev main_v21 : Ref sig .tc := ⟨.hbm, 167, rfl⟩
abbrev main_cst : Ref sig .tc := ⟨.hbm, 168, rfl⟩
abbrev main_v22 : Ref sig .tc := ⟨.hbm, 169, rfl⟩
abbrev main_cst_7 : Ref sig .tc := ⟨.hbm, 170, rfl⟩
abbrev main_v23 : Ref sig .tc := ⟨.hbm, 171, rfl⟩
abbrev main_v24 : Ref sig .tc := ⟨.hbm, 172, rfl⟩
abbrev main_v25 : Ref sig .tc := ⟨.hbm, 173, rfl⟩
abbrev main_cst_8 : Ref sig .tc := ⟨.hbm, 174, rfl⟩
abbrev main_v26 : Ref sig .tc := ⟨.hbm, 175, rfl⟩
abbrev main_v27 : Ref sig .tc := ⟨.hbm, 176, rfl⟩
abbrev main_v28 : Ref sig .tc := ⟨.hbm, 177, rfl⟩
abbrev main_cst_9 : Ref sig .tc := ⟨.hbm, 178, rfl⟩
abbrev main_v29 : Ref sig .tc := ⟨.hbm, 179, rfl⟩
abbrev main_v30 : Ref sig .tc := ⟨.hbm, 180, rfl⟩
abbrev main_v31 : Ref sig .tc := ⟨.hbm, 181, rfl⟩
abbrev main_cst_10 : Ref sig .tc := ⟨.hbm, 182, rfl⟩
abbrev main_v32 : Ref sig .tc := ⟨.hbm, 183, rfl⟩
abbrev main_v33 : Ref sig .tc := ⟨.hbm, 184, rfl⟩
abbrev main_cst_11 : Ref sig .tc := ⟨.hbm, 185, rfl⟩
abbrev main_v34 : Ref sig .tc := ⟨.hbm, 186, rfl⟩
abbrev main_v35 : Ref sig .tc := ⟨.hbm, 187, rfl⟩
abbrev main_v36 : Ref sig .tc := ⟨.hbm, 188, rfl⟩
abbrev main_cst_12 : Ref sig .tc := ⟨.hbm, 189, rfl⟩
abbrev main_v37 : Ref sig .tc := ⟨.hbm, 190, rfl⟩
abbrev main_cst_13 : Ref sig .tc := ⟨.hbm, 191, rfl⟩
abbrev main_v38 : Ref sig .tc := ⟨.hbm, 192, rfl⟩
abbrev main_v39 : Ref sig .tc := ⟨.hbm, 193, rfl⟩
abbrev main_v40 : Ref sig .tc := ⟨.hbm, 194, rfl⟩
abbrev main_v41 : Ref sig .tc := ⟨.hbm, 195, rfl⟩
abbrev main_cst_14 : Ref sig .tc := ⟨.hbm, 196, rfl⟩
abbrev main_v42 : Ref sig .tc := ⟨.hbm, 197, rfl⟩
abbrev main_v43 : Ref sig .tc := ⟨.hbm, 198, rfl⟩
abbrev main_v44 : Ref sig .tc := ⟨.hbm, 199, rfl⟩
abbrev main_v45 : Ref sig .tc := ⟨.hbm, 200, rfl⟩
abbrev main_v46 : Ref sig .tc := ⟨.hbm, 201, rfl⟩
abbrev main_v47 : Ref sig .tc := ⟨.hbm, 202, rfl⟩
abbrev main_v48 : Ref sig .tc := ⟨.hbm, 203, rfl⟩
abbrev main_cst_15 : Ref sig .tc := ⟨.hbm, 204, rfl⟩
abbrev main_v49 : Ref sig .tc := ⟨.hbm, 205, rfl⟩
abbrev main_cst_16 : Ref sig .tc := ⟨.hbm, 206, rfl⟩
abbrev main_v50 : Ref sig .tc := ⟨.hbm, 207, rfl⟩
abbrev main_v51 : Ref sig .tc := ⟨.hbm, 208, rfl⟩
abbrev main_v52 : Ref sig .tc := ⟨.hbm, 209, rfl⟩
abbrev main_v53 : Ref sig .tc := ⟨.hbm, 210, rfl⟩
abbrev main_v54 : Ref sig .tc := ⟨.hbm, 211, rfl⟩
abbrev main_v55 : Ref sig .tc := ⟨.hbm, 212, rfl⟩
abbrev main_v56 : Ref sig .tc := ⟨.hbm, 213, rfl⟩
abbrev main_v57 : Ref sig .tc := ⟨.hbm, 214, rfl⟩
abbrev main_v58 : Ref sig .tc := ⟨.hbm, 215, rfl⟩
abbrev main_cst_17 : Ref sig .tc := ⟨.hbm, 216, rfl⟩
abbrev main_v59 : Ref sig .tc := ⟨.hbm, 217, rfl⟩
abbrev main_cst_18 : Ref sig .tc := ⟨.hbm, 218, rfl⟩
abbrev main_v60 : Ref sig .tc := ⟨.hbm, 219, rfl⟩
abbrev main_v61 : Ref sig .tc := ⟨.hbm, 220, rfl⟩
abbrev main_v62 : Ref sig .tc := ⟨.hbm, 221, rfl⟩
abbrev main_v63 : Ref sig .tc := ⟨.hbm, 222, rfl⟩
abbrev main_cst_19 : Ref sig .tc := ⟨.hbm, 223, rfl⟩
abbrev main_v64 : Ref sig .tc := ⟨.hbm, 224, rfl⟩
abbrev main_v65 : Ref sig .tc := ⟨.hbm, 225, rfl⟩
abbrev main_v66 : Ref sig .tc := ⟨.hbm, 226, rfl⟩
abbrev main_v67 : Ref sig .tc := ⟨.hbm, 227, rfl⟩
abbrev main_v68 : Ref sig .tc := ⟨.hbm, 228, rfl⟩
abbrev main_v69 : Ref sig .tc := ⟨.hbm, 229, rfl⟩
abbrev main_v70 : Ref sig .tc := ⟨.hbm, 230, rfl⟩
abbrev main_cst_20 : Ref sig .tc := ⟨.hbm, 231, rfl⟩
abbrev main_v71 : Ref sig .tc := ⟨.hbm, 232, rfl⟩
abbrev main_cst_21 : Ref sig .tc := ⟨.hbm, 233, rfl⟩
abbrev main_v72 : Ref sig .tc := ⟨.hbm, 234, rfl⟩
abbrev main_v73 : Ref sig .tc := ⟨.hbm, 235, rfl⟩
abbrev main_v74 : Ref sig .tc := ⟨.hbm, 236, rfl⟩
abbrev main_v75 : Ref sig .tc := ⟨.hbm, 237, rfl⟩
abbrev main_cst_22 : Ref sig .tc := ⟨.hbm, 238, rfl⟩
abbrev main_v76 : Ref sig .tc := ⟨.hbm, 239, rfl⟩
abbrev main_cst_23 : Ref sig .tc := ⟨.hbm, 240, rfl⟩
abbrev main_v77 : Ref sig .tc := ⟨.hbm, 241, rfl⟩
abbrev main_v78 : Ref sig .tc := ⟨.hbm, 242, rfl⟩
abbrev main_v79 : Ref sig .tc := ⟨.hbm, 243, rfl⟩
abbrev main_v80 : Ref sig .tc := ⟨.hbm, 244, rfl⟩
abbrev main_cst_24 : Ref sig .tc := ⟨.hbm, 245, rfl⟩
abbrev main_v81 : Ref sig .tc := ⟨.hbm, 246, rfl⟩
abbrev main_v82 : Ref sig .tc := ⟨.hbm, 247, rfl⟩
abbrev main_v83 : Ref sig .tc := ⟨.hbm, 248, rfl⟩
abbrev main_v84 : Ref sig .tc := ⟨.hbm, 249, rfl⟩
abbrev main_v85 : Ref sig .tc := ⟨.hbm, 250, rfl⟩
abbrev main_v86 : Ref sig .tc := ⟨.hbm, 251, rfl⟩
abbrev main_v87 : Ref sig .tc := ⟨.hbm, 252, rfl⟩
abbrev main_cst_25 : Ref sig .tc := ⟨.hbm, 253, rfl⟩
abbrev main_v88 : Ref sig .tc := ⟨.hbm, 254, rfl⟩
abbrev main_cst_26 : Ref sig .tc := ⟨.hbm, 255, rfl⟩
abbrev main_v89 : Ref sig .tc := ⟨.hbm, 256, rfl⟩
abbrev main_v90 : Ref sig .tc := ⟨.hbm, 257, rfl⟩
abbrev main_v91 : Ref sig .tc := ⟨.hbm, 258, rfl⟩
abbrev main_v92 : Ref sig .tc := ⟨.hbm, 259, rfl⟩
abbrev main_cst_27 : Ref sig .tc := ⟨.hbm, 260, rfl⟩
abbrev main_v93 : Ref sig .tc := ⟨.hbm, 261, rfl⟩
abbrev main_cst_28 : Ref sig .tc := ⟨.hbm, 262, rfl⟩
abbrev main_v94 : Ref sig .tc := ⟨.hbm, 263, rfl⟩
abbrev main_v95 : Ref sig .tc := ⟨.hbm, 264, rfl⟩
abbrev main_v96 : Ref sig .tc := ⟨.hbm, 265, rfl⟩
abbrev main_v97 : Ref sig .tc := ⟨.hbm, 266, rfl⟩
abbrev main_v98 : Ref sig .tc := ⟨.hbm, 267, rfl⟩
abbrev main_cst_29 : Ref sig .tc := ⟨.hbm, 268, rfl⟩
abbrev main_v99 : Ref sig .tc := ⟨.hbm, 269, rfl⟩
abbrev main_cst_30 : Ref sig .tc := ⟨.hbm, 270, rfl⟩
abbrev main_v100 : Ref sig .tc := ⟨.hbm, 271, rfl⟩
abbrev main_v101 : Ref sig .tc := ⟨.hbm, 272, rfl⟩
abbrev main_v102 : Ref sig .tc := ⟨.hbm, 273, rfl⟩
abbrev main_v103 : Ref sig .tc := ⟨.hbm, 274, rfl⟩
abbrev main_v104 : Ref sig .tc := ⟨.hbm, 275, rfl⟩
abbrev main_cst_31 : Ref sig .tc := ⟨.hbm, 276, rfl⟩
abbrev main_v105 : Ref sig .tc := ⟨.hbm, 277, rfl⟩
abbrev main_v106 : Ref sig .tc := ⟨.hbm, 278, rfl⟩
abbrev main_v107 : Ref sig .tc := ⟨.hbm, 279, rfl⟩
abbrev main_v108 : Ref sig .tc := ⟨.hbm, 280, rfl⟩
abbrev main_v109 : Ref sig .tc := ⟨.hbm, 281, rfl⟩
abbrev main_v110 : Ref sig .tc := ⟨.hbm, 282, rfl⟩
abbrev main_v111 : Ref sig .tc := ⟨.hbm, 283, rfl⟩
abbrev main_v112 : Ref sig .tc := ⟨.hbm, 284, rfl⟩
abbrev main_v113 : Ref sig .tc := ⟨.hbm, 285, rfl⟩
abbrev main_v114 : Ref sig .tc := ⟨.hbm, 286, rfl⟩
abbrev main_v115 : Ref sig .tc := ⟨.hbm, 287, rfl⟩
abbrev main_cst_32 : Ref sig .tc := ⟨.hbm, 288, rfl⟩
abbrev main_v116 : Ref sig .tc := ⟨.hbm, 289, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S1_S1_S1_S3_d0 : Shape.Concatenates [S1, S1, S1] S3 0
  bcast_S_S512 : S_.BroadcastsInDim S512 (![] : Fin 0 → Fin S512.rank)
  bcast_S512_S512x1_0 : S512.BroadcastsInDim S512x1 (![0] : Fin 1 → Fin S512x1.rank)
  concatenates_S512x1_S512x1_S512x1_S512x3_d1 : Shape.Concatenates [S512x1, S512x1, S512x1] S512x3 1
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  reducesTo_S512x3_S512_d1 : S512x3.ReducesTo [1] S512
  h_S_ : 0 < S_.numel
  reducesTo_S512_S_d0 : S512.ReducesTo [0] S_
  bcast_S512x1_S512x1024_0_1 : S512x1.BroadcastsInDim S512x1024 (![0, 1] : Fin 2 → Fin S512x1024.rank)
  reducesTo_S512x1024_S1024_d0 : S512x1024.ReducesTo [0] S1024
  bcast_S_S1024 : S_.BroadcastsInDim S1024 (![] : Fin 0 → Fin S1024.rank)
  concatenates_S1024_S1024_S2048_d0 : Shape.Concatenates [S1024, S1024] S2048 0
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  reducesTo_S3_S_d0 : S3.ReducesTo [0] S_
  bcast_S1_S3_0 : S1.BroadcastsInDim S3 (![0] : Fin 1 → Fin S3.rank)
  concatenates_S1x1024_S1x1024_S1x1024_S3x1024_d0 : Shape.Concatenates [S1x1024, S1x1024, S1x1024] S3x1024 0
  bcast_S3_S3x1_0 : S3.BroadcastsInDim S3x1 (![0] : Fin 1 → Fin S3x1.rank)
  bcast_S3x1_S3x1024_0_1 : S3x1.BroadcastsInDim S3x1024 (![0, 1] : Fin 2 → Fin S3x1024.rank)
  reducesTo_S3x1024_S1024_d0 : S3x1024.ReducesTo [0] S1024
  dot_S2048_S2048x1024_S1024_0_0_n_1_n_n_wf : DotDims.WF S2048 S2048x1024 S1024 [0] [0] [] [1] [] []
  dot_S512x1024_S1024x1024_S512x1024_1_0_0_1_n_n_wf : DotDims.WF S512x1024 S1024x1024 S512x1024 [1] [0] [0] [1] [] []
  dot_S2048_S2048x3_S3_0_0_n_1_n_n_wf : DotDims.WF S2048 S2048x3 S3 [0] [0] [] [1] [] []

variable [Facts₀]

def dot_S2048_S2048x1024_S1024_0_0_n_1_n_n : DotDims S2048 S2048x1024 S1024 where
  lhsContracting := [0]
  rhsContracting := [0]
  lhsNonContracting := []
  rhsNonContracting := [1]
  lhsBatch := []
  rhsBatch := []
  wf := dot_S2048_S2048x1024_S1024_0_0_n_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S2048_S2048x3_S3_0_0_n_1_n_n : DotDims S2048 S2048x3 S3 where
  lhsContracting := [0]
  rhsContracting := [0]
  lhsNonContracting := []
  rhsNonContracting := [1]
  lhsBatch := []
  rhsBatch := []
  wf := dot_S2048_S2048x3_S3_0_0_n_1_n_n_wf

class Facts : Prop extends Facts₀ where

variable [Facts]
-- ==== Proof.Preserves.lean ====
/-
  The eight ledger entries of the idealization: each names the kernel's literal 0.03703703731298447 (the f32 nearest
  1/27, which the source spells as 1.0 / 27) by the rational 1/27; the table κ gives "inv_27" that value.
-/
import proofs.«211217_g68642167325227_cont_9to1_m_1168_22_alg».proof.Defs

noncomputable section

namespace Cert.Proof

open Idealize.ShloMosaic

/-- One entry: the table's value for "inv_27" is 1/27. -/
theorem inv27_entry : IdealRules.named_const.Statement Cert.KernelIdeal.κ "inv_27" .f32 0x3D17B426#32 ((1 / 27 : ℝ) : EReal) :=
  IdealRules.named_const.statement Cert.KernelIdeal.κ "inv_27" .f32 0x3D17B426#32 ((1 / 27 : ℝ) : EReal) rfl

/-- All eight sites carry the same entry. -/
theorem preserves : Cert.preserves_Kernel_KernelIdeal :=
  ⟨inv27_entry, inv27_entry, inv27_entry, inv27_entry, inv27_entry, inv27_entry, inv27_entry, inv27_entry⟩

end Cert.Proof

end
-- ==== Proof.RefRun.lean ====
/-
  The reference program's run, written out: its straight line of host operations (the outlined integer functions
  unfolded at their calls), what each stage of it computes as a pure function of the fourteen argument arrays,
  and the statement that every execution ends with the result array at `out` of the arguments, the arguments
  unchanged.

  The mathematics, stage by stage. An index of the 27×27×27 lattice has three coordinates: its remainder by 27,
  the remainder by 27 of its quotient by 27, and its quotient by 729 (`cz`, `cy`, `cx`; quotient and remainder
  are the floored ones: the truncated ones corrected by one step when the signs differ and the division is not
  exact). The distance of each of the 512 neighbour indices to the cell's index is the square root of the sum of
  the three squared coordinate differences plus 1e-12 (`dist`). Three weights per neighbour follow: 1 where the
  distance is at most 1.8 (`localMask`), 1 where it is at least 5 (`distantMask`), and the product of the two
  complements (`funcMask`). A weighted mean of 512 rows is the weighted sum of the rows divided by the larger of
  the weights' total and 1 (`maskedMean`). An expert is the hyperbolic tangent of an affine map of the state
  joined with such a mean, zeroed when the weights' total is not positive (`expert`); the middle expert takes the
  mean of the rows after an affine map and a hyperbolic tangent of their own (`msg`). The three gates are the
  softmax of an affine map of the state joined with the plain mean of the rows (`gates`), and the result is the
  gates' combination of the three experts (`mix`).
-/
import proofs.«211217_g68642167325227_cont_9to1_m_1168_22_alg».proof.Defs
import proofs.«211217_g68642167325227_cont_9to1_m_1168_22_alg».proof.Proof.Gen.ReferenceIdeal
import proofs.«211217_g68642167325227_cont_9to1_m_1168_22_alg».proof.Proof.Gen.Pre_input_domain
import Idealize.ShloMosaic.Lib.StableHlo.Run
import Idealize.ShloMosaic.Lib.Pipeline.Frame

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The stages -/

/-- A scalar divisor with zero replaced by one. -/
def nz (d : IVec S_ 32) : IVec S_ 32 :=
  select (cmpi .eq d (constantI S_ 32 0#32)) (constantI S_ 32 1#32) d

/-- The floored remainder of a scalar by a scalar: the truncated remainder `r` by the divisor `nz d`, moved by
    one divisor when `r` is not zero and its sign is not the divisor's. -/
def remS (a d : IVec S_ 32) : IVec S_ 32 :=
  select
    (andi (cmpi .ne (cmpi .slt (Host.remsi a (nz d)) (constantI S_ 32 0#32)) (cmpi .slt (nz d) (constantI S_ 32 0#32)))
      (cmpi .ne (Host.remsi a (nz d)) (constantI S_ 32 0#32)))
    (addi (Host.remsi a (nz d)) (nz d)) (Host.remsi a (nz d))

/-- The floored quotient of a scalar by a scalar: the truncated quotient, less one when the signs differ and the
    division is not exact. -/
def fdivS (a d : IVec S_ 32) : IVec S_ 32 :=
  select (andi (cmpi .ne (signi a) (signi d)) (cmpi .ne (Host.remsi a d) (constantI S_ 32 0#32)))
    (subi (Host.divsi a d) (constantI S_ 32 1#32)) (Host.divsi a d)

/-- A scalar repeated over the 512 neighbours. -/
def splat {α : Type} (x : S_.Idx → α) : S512.Idx → α := broadcastInDim S512 ![] bcast_S_S512 x

/-- The floored remainder of each of 512 integers by one scalar divisor. -/
def remV (a : IVec S512 32) (d : IVec S_ 32) : IVec S512 32 :=
  select
    (andi
      (cmpi .ne (cmpi .slt (Host.remsi a (splat (nz d))) (splat (constantI S_ 32 0#32)))
        (splat (cmpi .slt (nz d) (constantI S_ 32 0#32))))
      (cmpi .ne (Host.remsi a (splat (nz d))) (splat (constantI S_ 32 0#32))))
    (addi (Host.remsi a (splat (nz d))) (splat (nz d))) (Host.remsi a (splat (nz d)))

/-- The floored quotient of each of 512 integers by one scalar divisor. -/
def fdivV (a : IVec S512 32) (d : IVec S_ 32) : IVec S512 32 :=
  select
    (andi (cmpi .ne (signi a) (splat (signi d))) (cmpi .ne (Host.remsi a (splat d)) (splat (constantI S_ 32 0#32))))
    (subi (Host.divsi a (splat d)) (splat (constantI S_ 32 1#32))) (Host.divsi a (splat d))

/-- Three one-element integer vectors joined into one of three. -/
def cat3i (u0 u1 u2 : IVec S1 32) : IVec S3 32 :=
  concatenate S3 0 [⟨S1, u0⟩, ⟨S1, u1⟩, ⟨S1, u2⟩] concatenates_S1_S1_S1_S3_d0

/-- Three integer columns of 512 joined into a 512×3 table. -/
def cat3v (u0 u1 u2 : IVec S512x1 32) : IVec S512x3 32 :=
  concatenate S512x3 1 [⟨S512x1, u0⟩, ⟨S512x1, u1⟩, ⟨S512x1, u2⟩] concatenates_S512x1_S512x1_S512x1_S512x3_d1

/-- Two vectors of 1024 joined into one of 2048. -/
def cat2 (a b : FVec F S1024 .f32) : FVec F S2048 .f32 :=
  concatenate S2048 0 [⟨S1024, a⟩, ⟨S1024, b⟩] concatenates_S1024_S1024_S2048_d0

/-- Three rows of 1024 stacked into a 3×1024 table. -/
def cat3f (u0 u1 u2 : FVec F S1x1024 .f32) : FVec F S3x1024 .f32 :=
  concatenate S3x1024 0 [⟨S1x1024, u0⟩, ⟨S1x1024, u1⟩, ⟨S1x1024, u2⟩] concatenates_S1x1024_S1x1024_S1x1024_S3x1024_d0

/-- The last lattice coordinate of a scalar index: its remainder by 27. -/
def cz (i : IVec S_ 32) : IVec S_ 32 := remS i (constantI S_ 32 27#32)
/-- The middle lattice coordinate of a scalar index: the remainder by 27 of its quotient by 27. -/
def cy (i : IVec S_ 32) : IVec S_ 32 := remS (fdivS i (constantI S_ 32 27#32)) (constantI S_ 32 27#32)
/-- The first lattice coordinate of a scalar index: its quotient by 729. -/
def cx (i : IVec S_ 32) : IVec S_ 32 := fdivS i (constantI S_ 32 729#32)

/-- The three lattice coordinates of the cell, as floats. -/
def cellCoords (i : IVec S_ 32) : FVec F S3 .f32 :=
  sitofp .f32
    (cat3i (broadcastInDim S1 ![] bcast_S_S1 (cx i)) (broadcastInDim S1 ![] bcast_S_S1 (cy i))
      (broadcastInDim S1 ![] bcast_S_S1 (cz i)))

/-- The last, middle and first lattice coordinates of each of the 512 neighbour indices. -/
def nbrZ (n : IVec S512 32) : IVec S512 32 := remV n (constantI S_ 32 27#32)
@[inherit_doc nbrZ]
def nbrY (n : IVec S512 32) : IVec S512 32 := remV (fdivV n (constantI S_ 32 27#32)) (constantI S_ 32 27#32)
@[inherit_doc nbrZ]
def nbrX (n : IVec S512 32) : IVec S512 32 := fdivV n (constantI S_ 32 729#32)

/-- The 512×3 table of the neighbours' lattice coordinates, as floats. -/
def nbrCoords (n : IVec S512 32) : FVec F S512x3 .f32 :=
  sitofp .f32
    (cat3v (broadcastInDim S512x1 ![0] bcast_S512_S512x1_0 (nbrX n)) (broadcastInDim S512x1 ![0] bcast_S512_S512x1_0 (nbrY n))
      (broadcastInDim S512x1 ![0] bcast_S512_S512x1_0 (nbrZ n)))

/-- Each neighbour's coordinates less the cell's. -/
def diff (i : IVec S_ 32) (n : IVec S512 32) : FVec F S512x3 .f32 :=
  subf (nbrCoords n)
    (broadcastInDim S512x3 ![0, 1] bcast_S1x3_S512x3_0_1 (broadcastInDim S1x3 ![1] bcast_S3_S1x3_1 (cellCoords i)))

/-- Each neighbour's squared lattice distance to the cell: the sum of the three squared differences. -/
def sqDist (i : IVec S_ 32) (n : IVec S512 32) : FVec F S512 .f32 :=
  Host.reduceAdd (mulf (diff (F := F) i n) (diff (F := F) i n)) (constant S_ .f32 0x00000000#32) reducesTo_S512x3_S512_d1 h_S_

/-- Each neighbour's lattice distance to the cell: the square root of the squared distance plus 1e-12. -/
def dist (i : IVec S_ 32) (n : IVec S512 32) : FVec F S512 .f32 :=
  Host.sqrt (addf (sqDist (F := F) i n) (splat (constant S_ .f32 0x2B8CBCCC#32)))

/-- The weight 1 on the neighbours at distance at most 1.8, 0 on the others. -/
def localMask (i : IVec S_ 32) (n : IVec S512 32) : FVec F S512 .f32 :=
  uitofp .f32 (cmpf .ole (dist (F := F) i n) (splat (constant S_ .f32 0x3FE66666#32)))

/-- The weight 1 on the neighbours at distance at least 5, 0 on the others. -/
def distantMask (i : IVec S_ 32) (n : IVec S512 32) : FVec F S512 .f32 :=
  uitofp .f32 (cmpf .oge (dist (F := F) i n) (splat (constant S_ .f32 0x40A00000#32)))

/-- The weight of the neighbours that are neither: the product of the two complements. -/
def funcMask (i : IVec S_ 32) (n : IVec S512 32) : FVec F S512 .f32 :=
  mulf (subf (splat (constant S_ .f32 0x3F800000#32)) (localMask (F := F) i n))
    (subf (splat (constant S_ .f32 0x3F800000#32)) (distantMask (F := F) i n))

/-- The total of 512 weights. -/
def total (w : FVec F S512 .f32) : FVec F S_ .f32 :=
  Host.reduceAdd w (constant S_ .f32 0x00000000#32) reducesTo_S512_S_d0 h_S_

/-- The divisor of a weighted mean: the larger of the weights' total and 1. -/
def count (w : FVec F S512 .f32) : FVec F S_ .f32 := maximumf (total w) (constant S_ .f32 0x3F800000#32)

/-- The weighted sum of 512 rows of 1024. -/
def maskedSum (w : FVec F S512 .f32) (vals : FVec F S512x1024 .f32) : FVec F S1024 .f32 :=
  Host.reduceAdd
    (mulf (broadcastInDim S512x1024 ![0, 1] bcast_S512x1_S512x1024_0_1 (broadcastInDim S512x1 ![0] bcast_S512_S512x1_0 w)) vals)
    (constant S_ .f32 0x00000000#32) reducesTo_S512x1024_S1024_d0 h_S_

/-- The weighted mean of 512 rows of 1024: the weighted sum over `count`. -/
def maskedMean (w : FVec F S512 .f32) (vals : FVec F S512x1024 .f32) : FVec F S1024 .f32 :=
  Host.divf (maskedSum w vals) (broadcastInDim S1024 ![] bcast_S_S1024 (count w))

/-- The hyperbolic tangent of the affine map `[s, agg] · W + b`. -/
def hidden (s agg : FVec F S1024 .f32) (W : FVec F S2048x1024 .f32) (b : FVec F S1024 .f32) : FVec F S1024 .f32 :=
  Host.tanh (addf (Host.dotGeneral dot_S2048_S2048x1024_S1024_0_0_n_1_n_n none (cat2 s agg) W) b)

/-- 1 when the weights' total is positive, 0 otherwise. -/
def anyOn (w : FVec F S512 .f32) : FVec F S_ .f32 :=
  uitofp .f32 (cmpf .ogt (total w) (constant S_ .f32 0x00000000#32))

/-- One expert: `hidden`, zeroed when no neighbour carries weight. -/
def expert (s agg : FVec F S1024 .f32) (W : FVec F S2048x1024 .f32) (b : FVec F S1024 .f32) (w : FVec F S512 .f32) :
    FVec F S1024 .f32 :=
  mulf (hidden s agg W b) (broadcastInDim S1024 ![] bcast_S_S1024 (anyOn w))

/-- The neighbours' messages: the hyperbolic tangent of the affine map `vals · W₁ + b₁`, row by row. -/
def msg (vals : FVec F S512x1024 .f32) (W1 : FVec F S1024x1024 .f32) (b1 : FVec F S1024 .f32) : FVec F S512x1024 .f32 :=
  Host.tanh
    (addf (Host.dotGeneral dot_S512x1024_S1024x1024_S512x1024_1_0_0_1_n_n none vals W1)
      (broadcastInDim S512x1024 ![0, 1] bcast_S1x1024_S512x1024_0_1 (broadcastInDim S1x1024 ![1] bcast_S1024_S1x1024_1 b1)))

/-- The plain mean of the 512 rows: their sum over 512. -/
def nbrMean (vals : FVec F S512x1024 .f32) : FVec F S1024 .f32 :=
  Host.divf (Host.reduceAdd vals (constant S_ .f32 0x00000000#32) reducesTo_S512x1024_S1024_d0 h_S_)
    (broadcastInDim S1024 ![] bcast_S_S1024 (constant S_ .f32 0x44000000#32))

/-- The three gate scores: the affine map `[s, mean] · W_g + b_g`. -/
def logits (s : FVec F S1024 .f32) (vals : FVec F S512x1024 .f32) (Wg : FVec F S2048x3 .f32) (bg : FVec F S3 .f32) :
    FVec F S3 .f32 :=
  addf (Host.dotGeneral dot_S2048_S2048x3_S3_0_0_n_1_n_n none (cat2 s (nbrMean vals)) Wg) bg

/-- A scalar repeated three times. -/
def spread3 (x : FVec F S_ .f32) : FVec F S3 .f32 :=
  broadcastInDim S3 ![0] bcast_S1_S3_0 (broadcastInDim S1 ![] bcast_S_S1 x)

/-- The exponentials of three scores less their maximum. -/
def expShift (z : FVec F S3 .f32) : FVec F S3 .f32 :=
  Host.exp
    (subf z
      (spread3
        (maximumf (constant S_ .f32 0xFF800000#32)
          (Host.reduce FloatOps.maximumf z (constant S_ .f32 0xFF800000#32) reducesTo_S3_S_d0 h_S_))))

/-- The softmax of three scores. -/
def softmax3 (z : FVec F S3 .f32) : FVec F S3 .f32 :=
  Host.divf (expShift z) (spread3 (Host.reduceAdd (expShift z) (constant S_ .f32 0x00000000#32) reducesTo_S3_S_d0 h_S_))

/-- The three gates. -/
def gates (s : FVec F S1024 .f32) (vals : FVec F S512x1024 .f32) (Wg : FVec F S2048x3 .f32) (bg : FVec F S3 .f32) :
    FVec F S3 .f32 :=
  softmax3 (logits s vals Wg bg)

/-- The gates' combination of three experts: the sum over the three of gate times expert. -/
def mix (g : FVec F S3 .f32) (e0 e1 e2 : FVec F S1024 .f32) : FVec F S1024 .f32 :=
  Host.reduceAdd
    (mulf (broadcastInDim S3x1024 ![0, 1] bcast_S3x1_S3x1024_0_1 (broadcastInDim S3x1 ![0] bcast_S3_S3x1_0 g))
      (cat3f (broadcastInDim S1x1024 ![1] bcast_S1024_S1x1024_1 e0) (broadcastInDim S1x1024 ![1] bcast_S1024_S1x1024_1 e1)
        (broadcastInDim S1x1024 ![1] bcast_S1024_S1x1024_1 e2)))
    (constant S_ .f32 0x00000000#32) reducesTo_S3x1024_S1024_d0 h_S_

/-- The result array as a pure function of the fourteen argument arrays: the operations' composed term, the
    outlined functions unfolded. -/
def out (a0 : FVec F S1024 .f32) (a1 : FVec F S512x1024 .f32) (a2 : IVec S_ 32) (a3 : IVec S512 32)
    (a4 : FVec F S2048x1024 .f32) (a5 : FVec F S1024 .f32) (a6 : FVec F S1024x1024 .f32) (a7 : FVec F S1024 .f32)
    (a8 : FVec F S2048x1024 .f32) (a9 : FVec F S1024 .f32) (a10 : FVec F S2048x1024 .f32) (a11 : FVec F S1024 .f32)
    (a12 : FVec F S2048x3 .f32) (a13 : FVec F S3 .f32) : FVec F S1024 .f32 :=
  mix (gates a0 a1 a12 a13)
    (expert a0 (maskedMean (localMask (F := F) a2 a3) a1) a4 a5 (localMask (F := F) a2 a3))
    (expert a0 (maskedMean (funcMask (F := F) a2 a3) (msg a1 a6 a7)) a8 a9 (funcMask (F := F) a2 a3))
    (expert a0 (maskedMean (distantMask (F := F) a2 a3) a1) a10 a11 (distantMask (F := F) a2 a3))

/-! ## The operations, in order, by stage -/

/-- The operations computing the cell's last coordinate (17). -/
abbrev w01 : List (HloOp τ sig (Elt F)) :=
  [ nullary main_c (constantI S_ 32 27#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.binary (.of main_arg2) main_call0.call0.v0 main_call0.v3 Host.remsi,
    TRef.nullary main_call0.c_1 (constantI S_ 32 0#32),
    TRef.binary main_call0.v3 main_call0.c_1 main_call0.v4 (cmpi .ne),
    TRef.nullary main_call0.c_2 (constantI S_ 32 0#32),
    TRef.binary main_call0.v3 main_call0.c_2 main_call0.v5 (cmpi .slt),
    TRef.nullary main_call0.c_3 (constantI S_ 32 0#32),
    TRef.binary main_call0.call0.v0 main_call0.c_3 main_call0.v6 (cmpi .slt),
    TRef.binary main_call0.v5 main_call0.v6 main_call0.v7 (cmpi .ne),
    TRef.binary main_call0.v7 main_call0.v4 main_call0.v8 andi,
    TRef.binary main_call0.v3 main_call0.call0.v0 main_call0.v9 addi,
    TRef.ternary main_call0.v8 main_call0.v9 main_call0.v3 main_call0.v10 select ]

/-- The operations computing the cell's quotient by 27 (13). -/
abbrev w02 : List (HloOp τ sig (Elt F)) :=
  [ nullary main_c_0 (constantI S_ 32 27#32),
    TRef.unary (.of main_c_0) main_call1.v0 id,
    TRef.binary (.of main_arg2) main_call1.v0 main_call1.v1 Host.divsi,
    TRef.unary (.of main_arg2) main_call1.v2 signi,
    TRef.unary main_call1.v0 main_call1.v3 signi,
    TRef.binary main_call1.v2 main_call1.v3 main_call1.v4 (cmpi .ne),
    TRef.binary (.of main_arg2) main_call1.v0 main_call1.v5 Host.remsi,
    TRef.nullary main_call1.c (constantI S_ 32 0#32),
    TRef.binary main_call1.v5 main_call1.c main_call1.v6 (cmpi .ne),
    TRef.binary main_call1.v4 main_call1.v6 main_call1.v7 andi,
    TRef.nullary main_call1.c_0 (constantI S_ 32 1#32),
    TRef.binary main_call1.v1 main_call1.c_0 main_call1.v8 subi,
    TRef.ternary main_call1.v7 main_call1.v8 main_call1.v1 main_call1.call0.v0 select ]

/-- The operations computing the cell's middle coordinate (17). -/
abbrev w03 : List (HloOp τ sig (Elt F)) :=
  [ nullary main_c_1 (constantI S_ 32 27#32),
    TRef.unary (.of main_c_1) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.binary (.of main_v1) main_call2.call0.v0 main_call2.v3 Host.remsi,
    TRef.nullary main_call2.c_1 (constantI S_ 32 0#32),
    TRef.binary main_call2.v3 main_call2.c_1 main_call2.v4 (cmpi .ne),
    TRef.nullary main_call2.c_2 (constantI S_ 32 0#32),
    TRef.binary main_call2.v3 main_call2.c_2 main_call2.v5 (cmpi .slt),
    TRef.nullary main_call2.c_3 (constantI S_ 32 0#32),
    TRef.binary main_call2.call0.v0 main_call2.c_3 main_call2.v6 (cmpi .slt),
    TRef.binary main_call2.v5 main_call2.v6 main_call2.v7 (cmpi .ne),
    TRef.binary main_call2.v7 main_call2.v4 main_call2.v8 andi,
    TRef.binary main_call2.v3 main_call2.call0.v0 main_call2.v9 addi,
    TRef.ternary main_call2.v8 main_call2.v9 main_call2.v3 main_call2.v10 select ]

/-- The operations computing the cell's first coordinate (13). -/
abbrev w04 : List (HloOp τ sig (Elt F)) :=
  [ nullary main_c_2 (constantI S_ 32 729#32),
    TRef.unary (.of main_c_2) main_call3.v0 id,
    TRef.binary (.of main_arg2) main_call3.v0 main_call3.v1 Host.divsi,
    TRef.unary (.of main_arg2) main_call3.v2 signi,
    TRef.unary main_call3.v0 main_call3.v3 signi,
    TRef.binary main_call3.v2 main_call3.v3 main_call3.v4 (cmpi .ne),
    TRef.binary (.of main_arg2) main_call3.v0 main_call3.v5 Host.remsi,
    TRef.nullary main_call3.c (constantI S_ 32 0#32),
    TRef.binary main_call3.v5 main_call3.c main_call3.v6 (cmpi .ne),
    TRef.binary main_call3.v4 main_call3.v6 main_call3.v7 andi,
    TRef.nullary main_call3.c_0 (constantI S_ 32 1#32),
    TRef.binary main_call3.v1 main_call3.c_0 main_call3.v8 subi,
    TRef.ternary main_call3.v7 main_call3.v8 main_call3.v1 main_call3.call0.v0 select ]

/-- The operations computing the cell's coordinates as floats (5). -/
abbrev w05 : List (HloOp τ sig (Elt F)) :=
  [ unary main_v3 main_v4 (broadcastInDim S1 ![] bcast_S_S1 : (⟨S_, .i32⟩ : BufTy).Contents (Elt F) → (⟨S1, .i32⟩ : BufTy).Contents (Elt F)),
    unary main_v2 main_v5 (broadcastInDim S1 ![] bcast_S_S1 : (⟨S_, .i32⟩ : BufTy).Contents (Elt F) → (⟨S1, .i32⟩ : BufTy).Contents (Elt F)),
    unary main_v0 main_v6 (broadcastInDim S1 ![] bcast_S_S1 : (⟨S_, .i32⟩ : BufTy).Contents (Elt F) → (⟨S1, .i32⟩ : BufTy).Contents (Elt F)),
    nary ![main_v4, main_v5, main_v6] main_v7 (fun u => cat3i (u 0) (u 1) (u 2)),
    unary main_v7 main_v8 (sitofp .f32 : (⟨S3, .i32⟩ : BufTy).Contents (Elt F) → (⟨S3, .f32⟩ : BufTy).Contents (Elt F)) ]

/-- The operations computing the neighbours' last coordinates (22). -/
abbrev w06 : List (HloOp τ sig (Elt F)) :=
  [ nullary main_c_3 (constantI S_ 32 27#32),
    TRef.unary (.of main_c_3) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S512 ![] bcast_S_S512),
    TRef.binary (.of main_arg3) main_call4.v3 main_call4.v4 Host.remsi,
    TRef.nullary main_call4.c_1 (constantI S_ 32 0#32),
    TRef.unary main_call4.c_1 main_call4.v5 (broadcastInDim S512 ![] bcast_S_S512),
    TRef.binary main_call4.v4 main_call4.v5 main_call4.v6 (cmpi .ne),
    TRef.nullary main_call4.c_2 (constantI S_ 32 0#32),
    TRef.unary main_call4.c_2 main_call4.v7 (broadcastInDim S512 ![] bcast_S_S512),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S512 ![] bcast_S_S512),
    TRef.binary main_call4.v8 main_call4.v10 main_call4.v11 (cmpi .ne),
    TRef.binary main_call4.v11 main_call4.v6 main_call4.v12 andi,
    TRef.unary main_call4.call0.v0 main_call4.v13 (broadcastInDim S512 ![] bcast_S_S512),
    TRef.binary main_call4.v4 main_call4.v13 main_call4.v14 addi,
    TRef.ternary main_call4.v12 main_call4.v14 main_call4.v4 main_call4.v15 select ]

/-- The operations computing the neighbours' quotients by 27 (18). -/
abbrev w07 : List (HloOp τ sig (Elt F)) :=
  [ nullary main_c_4 (constantI S_ 32 27#32),
    TRef.unary (.of main_c_4) main_call5.v0 id,
    TRef.unary main_call5.v0 main_call5.v1 (broadcastInDim S512 ![] bcast_S_S512),
    TRef.binary (.of main_arg3) main_call5.v1 main_call5.v2 Host.divsi,
    TRef.unary (.of main_arg3) main_call5.v3 signi,
    TRef.unary main_call5.v0 main_call5.v4 signi,
    TRef.unary main_call5.v4 main_call5.v5 (broadcastInDim S512 ![] bcast_S_S512),
    TRef.binary main_call5.v3 main_call5.v5 main_call5.v6 (cmpi .ne),
    TRef.unary main_call5.v0 main_call5.v7 (broadcastInDim S512 ![] bcast_S_S512),
    TRef.binary (.of main_arg3) main_call5.v7 main_call5.v8 Host.remsi,
    TRef.nullary main_call5.c (constantI S_ 32 0#32),
    TRef.unary main_call5.c main_call5.v9 (broadcastInDim S512 ![] bcast_S_S512),
    TRef.binary main_call5.v8 main_call5.v9 main_call5.v10 (cmpi .ne),
    TRef.binary main_call5.v6 main_call5.v10 main_call5.v11 andi,
    TRef.nullary main_call5.c_0 (constantI S_ 32 1#32),
    TRef.unary main_call5.c_0 main_call5.v12 (broadcastInDim S512 ![] bcast_S_S512),
    TRef.binary main_call5.v2 main_call5.v12 main_call5.v13 subi,
    TRef.ternary main_call5.v11 main_call5.v13 main_call5.v2 main_call5.call0.v0 select ]

/-- The operations computing the neighbours' middle coordinates (22). -/
abbrev w08 : List (HloOp τ sig (Elt F)) :=
  [ nullary main_c_5 (constantI S_ 32 27#32),
    TRef.unary (.of main_c_5) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S512 ![] bcast_S_S512),
    TRef.binary (.of main_v10) main_call6.v3 main_call6.v4 Host.remsi,
    TRef.nullary main_call6.c_1 (constantI S_ 32 0#32),
    TRef.unary main_call6.c_1 main_call6.v5 (broadcastInDim S512 ![] bcast_S_S512),
    TRef.binary main_call6.v4 main_call6.v5 main_call6.v6 (cmpi .ne),
    TRef.nullary main_call6.c_2 (constantI S_ 32 0#32),
    TRef.unary main_call6.c_2 main_call6.v7 (broadcastInDim S512 ![] bcast_S_S512),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S512 ![] bcast_S_S512),
    TRef.binary main_call6.v8 main_call6.v10 main_call6.v11 (cmpi .ne),
    TRef.binary main_call6.v11 main_call6.v6 main_call6.v12 andi,
    TRef.unary main_call6.call0.v0 main_call6.v13 (broadcastInDim S512 ![] bcast_S_S512),
    TRef.binary main_call6.v4 main_call6.v13 main_call6.v14 addi,
    TRef.ternary main_call6.v12 main_call6.v14 main_call6.v4 main_call6.v15 select ]

/-- The operations computing the neighbours' first coordinates (18). -/
abbrev w09 : List (HloOp τ sig (Elt F)) :=
  [ nullary main_c_6 (constantI S_ 32 729#32),
    TRef.unary (.of main_c_6) main_call7.v0 id,
    TRef.unary main_call7.v0 main_call7.v1 (broadcastInDim S512 ![] bcast_S_S512),
    TRef.binary (.of main_arg3) main_call7.v1 main_call7.v2 Host.divsi,
    TRef.unary (.of main_arg3) main_call7.v3 signi,
    TRef.unary main_call7.v0 main_call7.v4 signi,
    TRef.unary main_call7.v4 main_call7.v5 (broadcastInDim S512 ![] bcast_S_S512),
    TRef.binary main_call7.v3 main_call7.v5 main_call7.v6 (cmpi .ne),
    TRef.unary main_call7.v0 main_call7.v7 (broadcastInDim S512 ![] bcast_S_S512),
    TRef.binary (.of main_arg3) main_call7.v7 main_call7.v8 Host.remsi,
    TRef.nullary main_call7.c (constantI S_ 32 0#32),
    TRef.unary main_call7.c main_call7.v9 (broadcastInDim S512 ![] bcast_S_S512),
    TRef.binary main_call7.v8 main_call7.v9 main_call7.v10 (cmpi .ne),
    TRef.binary main_call7.v6 main_call7.v10 main_call7.v11 andi,
    TRef.nullary main_call7.c_0 (constantI S_ 32 1#32),
    TRef.unary main_call7.c_0 main_call7.v12 (broadcastInDim S512 ![] bcast_S_S512),
    TRef.binary main_call7.v2 main_call7.v12 main_call7.v13 subi,
    TRef.ternary main_call7.v11 main_call7.v13 main_call7.v2 main_call7.call0.v0 select ]

/-- The operations computing the neighbours' coordinates as floats (5). -/
abbrev w10 : List (HloOp τ sig (Elt F)) :=
  [ unary main_v12 main_v13 (broadcastInDim S512x1 ![0] bcast_S512_S512x1_0 : (⟨S512, .i32⟩ : BufTy).Contents (Elt F) → (⟨S512x1, .i32⟩ : BufTy).Contents (Elt F)),
    unary main_v11 main_v14 (broadcastInDim S512x1 ![0] bcast_S512_S512x1_0 : (⟨S512, .i32⟩ : BufTy).Contents (Elt F) → (⟨S512x1, .i32⟩ : BufTy).Contents (Elt F)),
    unary main_v9 main_v15 (broadcastInDim S512x1 ![0] bcast_S512_S512x1_0 : (⟨S512, .i32⟩ : BufTy).Contents (Elt F) → (⟨S512x1, .i32⟩ : BufTy).Contents (Elt F)),
    nary ![main_v13, main_v14, main_v15] main_v16 (fun u => cat3v (u 0) (u 1) (u 2)),
    unary main_v16 main_v17 (sitofp .f32 : (⟨S512x3, .i32⟩ : BufTy).Contents (Elt F) → (⟨S512x3, .f32⟩ : BufTy).Contents (Elt F)) ]

/-- The operations computing the distances (10). -/
abbrev w11 : List (HloOp τ sig (Elt F)) :=
  [ unary main_v8 main_v18 (broadcastInDim S1x3 ![1] bcast_S3_S1x3_1 : (⟨S3, .f32⟩ : BufTy).Contents (Elt F) → (⟨S1x3, .f32⟩ : BufTy).Contents (Elt F)),
    unary main_v18 main_v19 (broadcastInDim S512x3 ![0, 1] bcast_S1x3_S512x3_0_1 : (⟨S1x3, .f32⟩ : BufTy).Contents (Elt F) → (⟨S512x3, .f32⟩ : BufTy).Contents (Elt F)),
    binary main_v17 main_v19 main_v20 (subf : (⟨S512x3, .f32⟩ : BufTy).Contents (Elt F) → (⟨S512x3, .f32⟩ : BufTy).Contents (Elt F) → (⟨S512x3, .f32⟩ : BufTy).Contents (Elt F)),
    binary main_v20 main_v20 main_v21 (mulf : (⟨S512x3, .f32⟩ : BufTy).Contents (Elt F) → (⟨S512x3, .f32⟩ : BufTy).Contents (Elt F) → (⟨S512x3, .f32⟩ : BufTy).Contents (Elt F)),
    nullary main_cst (constant S_ .f32 0x00000000#32),
    binary main_v21 main_cst main_v22 ((fun x v => Host.reduceAdd x v reducesTo_S512x3_S512_d1 h_S_) : (⟨S512x3, .f32⟩ : BufTy).Contents (Elt F) → (⟨S_, .f32⟩ : BufTy).Contents (Elt F) → (⟨S512, .f32⟩ : BufTy).Contents (Elt F)),
    nullary main_cst_7 (constant S_ .f32 0x2B8CBCCC#32),
    unary main_cst_7 main_v23 (broadcastInDim S512 ![] bcast_S_S512 : (⟨S_, .f32⟩ : BufTy).Contents (Elt F) → (⟨S512, .f32⟩ : BufTy).Contents (Elt F)),
    binary main_v22 main_v23 main_v24 (addf : (⟨S512, .f32⟩ : BufTy).Contents (Elt F) → (⟨S512, .f32⟩ : BufTy).Contents (Elt F) → (⟨S512, .f32⟩ : BufTy).Contents (Elt F)),
    unary main_v24 main_v25 (Host.sqrt : (⟨S512, .f32⟩ : BufTy).Contents (Elt F) → (⟨S512, .f32⟩ : BufTy).Contents (Elt F)) ]

/-- The operations computing the three weights (15). -/
abbrev w12 : List (HloOp τ sig (Elt F)) :=
  [ nullary main_cst_8 (constant S_ .f32 0x3FE66666#32),
    unary main_cst_8 main_v26 (broadcastInDim S512 ![] bcast_S_S512 : (⟨S_, .f32⟩ : BufTy).Contents (Elt F) → (⟨S512, .f32⟩ : BufTy).Contents (Elt F)),
    binary main_v25 main_v26 main_v27 (cmpf .ole : (⟨S512, .f32⟩ : BufTy).Contents (Elt F) → (⟨S512, .f32⟩ : BufTy).Contents (Elt F) → (⟨S512, .i1⟩ : BufTy).Contents (Elt F)),
    unary main_v27 main_v28 (uitofp .f32 : (⟨S512, .i1⟩ : BufTy).Contents (Elt F) → (⟨S512, .f32⟩ : BufTy).Contents (Elt F)),
    nullary main_cst_9 (constant S_ .f32 0x40A00000#32),
    unary main_cst_9 main_v29 (broadcastInDim S512 ![] bcast_S_S512 : (⟨S_, .f32⟩ : BufTy).Contents (Elt F) → (⟨S512, .f32⟩ : BufTy).Contents (Elt F)),
    binary main_v25 main_v29 main_v30 (cmpf .oge : (⟨S512, .f32⟩ : BufTy).Contents (Elt F) → (⟨S512, .f32⟩ : BufTy).Contents (Elt F) → (⟨S512, .i1⟩ : BufTy).Contents (Elt F)),
    unary main_v30 main_v31 (uitofp .f32 : (⟨S512, .i1⟩ : BufTy).Contents (Elt F) → (⟨S512, .f32⟩ : BufTy).Contents (Elt F)),
    nullary main_cst_10 (constant S_ .f32 0x3F800000#32),
    unary main_cst_10 main_v32 (broadcastInDim S512 ![] bcast_S_S512 : (⟨S_, .f32⟩ : BufTy).Contents (Elt F) → (⟨S512, .f32⟩ : BufTy).Contents (Elt F)),
    binary main_v32 main_v28 main_v33 (subf : (⟨S512, .f32⟩ : BufTy).Contents (Elt F) → (⟨S512, .f32⟩ : BufTy).Contents (Elt F) → (⟨S512, .f32⟩ : BufTy).Contents (Elt F)),
    nullary main_cst_11 (constant S_ .f32 0x3F800000#32),
    unary main_cst_11 main_v34 (broadcastInDim S512 ![] bcast_S_S512 : (⟨S_, .f32⟩ : BufTy).Contents (Elt F) → (⟨S512, .f32⟩ : BufTy).Contents (Elt F)),
    binary main_v34 main_v31 main_v35 (subf : (⟨S512, .f32⟩ : BufTy).Contents (Elt F) → (⟨S512, .f32⟩ : BufTy).Contents (Elt F) → (⟨S512, .f32⟩ : BufTy).Contents (Elt F)),
    binary main_v33 main_v35 main_v36 (mulf : (⟨S512, .f32⟩ : BufTy).Contents (Elt F) → (⟨S512, .f32⟩ : BufTy).Contents (Elt F) → (⟨S512, .f32⟩ : BufTy).Contents (Elt F)) ]

/-- The operations computing the local weights' divisor and weighted sum (9). -/
abbrev w13 : List (HloOp τ sig (Elt F)) :=
  [ nullary main_cst_12 (constant S_ .f32 0x00000000#32),
    binary main_v28 main_cst_12 main_v37 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_13 (constant S_ .f32 0x3F800000#32),
    binary main_v37 main_cst_13 main_v38 (maximumf : (⟨S_, .f32⟩ : BufTy).Contents (Elt F) → (⟨S_, .f32⟩ : BufTy).Contents (Elt F) → (⟨S_, .f32⟩ : BufTy).Contents (Elt F)),
    unary main_v28 main_v39 (broadcastInDim S512x1 ![0] bcast_S512_S512x1_0 : (⟨S512, .f32⟩ : BufTy).Contents (Elt F) → (⟨S512x1, .f32⟩ : BufTy).Contents (Elt F)),
    unary main_v39 main_v40 (broadcastInDim S512x1024 ![0, 1] bcast_S512x1_S512x1024_0_1 : (⟨S512x1, .f32⟩ : BufTy).Contents (Elt F) → (⟨S512x1024, .f32⟩ : BufTy).Contents (Elt F)),
    binary main_v40 main_arg1 main_v41 (mulf : (⟨S512x1024, .f32⟩ : BufTy).Contents (Elt F) → (⟨S512x1024, .f32⟩ : BufTy).Contents (Elt F) → (⟨S512x1024, .f32⟩ : BufTy).Contents (Elt F)),
    nullary main_cst_14 (constant S_ .f32 0x00000000#32),
    binary main_v41 main_cst_14 main_v42 ((fun x v => Host.reduceAdd x v reducesTo_S512x1024_S1024_d0 h_S_) : (⟨S512x1024, .f32⟩ : BufTy).Contents (Elt F) → (⟨S_, .f32⟩ : BufTy).Contents (Elt F) → (⟨S1024, .f32⟩ : BufTy).Contents (Elt F)) ]

/-- The operations computing the local expert (13). -/
abbrev w14 : List (HloOp τ sig (Elt F)) :=
  [ unary main_v38 main_v43 (broadcastInDim S1024 ![] bcast_S_S1024 : (⟨S_, .f32⟩ : BufTy).Contents (Elt F) → (⟨S1024, .f32⟩ : BufTy).Contents (Elt F)),
    binary main_v42 main_v43 main_v44 (Host.divf : (⟨S1024, .f32⟩ : BufTy).Contents (Elt F) → (⟨S1024, .f32⟩ : BufTy).Contents (Elt F) → (⟨S1024, .f32⟩ : BufTy).Contents (Elt F)),
    binary main_arg0 main_v44 main_v45 (cat2 (F := F)),
    binary main_v45 main_arg4 main_v46 ((fun l r => Host.dotGeneral dot_S2048_S2048x1024_S1024_0_0_n_1_n_n none l r) : (⟨S2048, .f32⟩ : BufTy).Contents (Elt F) → (⟨S2048x1024, .f32⟩ : BufTy).Contents (Elt F) → (⟨S1024, .f32⟩ : BufTy).Contents (Elt F)),
    binary main_v46 main_arg5 main_v47 (addf : (⟨S1024, .f32⟩ : BufTy).Contents (Elt F) → (⟨S1024, .f32⟩ : BufTy).Contents (Elt F) → (⟨S1024, .f32⟩ : BufTy).Contents (Elt F)),
    unary main_v47 main_v48 (Host.tanh : (⟨S1024, .f32⟩ : BufTy).Contents (Elt F) → (⟨S1024, .f32⟩ : BufTy).Contents (Elt F)),
    nullary main_cst_15 (constant S_ .f32 0x00000000#32),
    binary main_v28 main_cst_15 main_v49 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_16 (constant S_ .f32 0x00000000#32),
    binary main_v49 main_cst_16 main_v50 (cmpf .ogt : (⟨S_, .f32⟩ : BufTy).Contents (Elt F) → (⟨S_, .f32⟩ : BufTy).Contents (Elt F) → (⟨S_, .i1⟩ : BufTy).Contents (Elt F)),
    unary main_v50 main_v51 (uitofp .f32 : (⟨S_, .i1⟩ : BufTy).Contents (Elt F) → (⟨S_, .f32⟩ : BufTy).Contents (Elt F)),
    unary main_v51 main_v52 (broadcastInDim S1024 ![] bcast_S_S1024 : (⟨S_, .f32⟩ : BufTy).Contents (Elt F) → (⟨S1024, .f32⟩ : BufTy).Contents (Elt F)),
    binary main_v48 main_v52 main_v53 (mulf : (⟨S1024, .f32⟩ : BufTy).Contents (Elt F) → (⟨S1024, .f32⟩ : BufTy).Contents (Elt F) → (⟨S1024, .f32⟩ : BufTy).Contents (Elt F)) ]

/-- The operations computing the messages and the middle expert (27). -/
abbrev w15 : List (HloOp τ sig (Elt F)) :=
  [ binary main_arg1 main_arg6 main_v54 ((fun l r => Host.dotGeneral dot_S512x1024_S1024x1024_S512x1024_1_0_0_1_n_n none l r) : (⟨S512x1024, .f32⟩ : BufTy).Contents (Elt F) → (⟨S1024x1024, .f32⟩ : BufTy).Contents (Elt F) → (⟨S512x1024, .f32⟩ : BufTy).Contents (Elt F)),
    unary main_arg7 main_v55 (broadcastInDim S1x1024 ![1] bcast_S1024_S1x1024_1 : (⟨S1024, .f32⟩ : BufTy).Contents (Elt F) → (⟨S1x1024, .f32⟩ : BufTy).Contents (Elt F)),
    unary main_v55 main_v56 (broadcastInDim S512x1024 ![0, 1] bcast_S1x1024_S512x1024_0_1 : (⟨S1x1024, .f32⟩ : BufTy).Contents (Elt F) → (⟨S512x1024, .f32⟩ : BufTy).Contents (Elt F)),
    binary main_v54 main_v56 main_v57 (addf : (⟨S512x1024, .f32⟩ : BufTy).Contents (Elt F) → (⟨S512x1024, .f32⟩ : BufTy).Contents (Elt F) → (⟨S512x1024, .f32⟩ : BufTy).Contents (Elt F)),
    unary main_v57 main_v58 (Host.tanh : (⟨S512x1024, .f32⟩ : BufTy).Contents (Elt F) → (⟨S512x1024, .f32⟩ : BufTy).Contents (Elt F)),
    nullary main_cst_17 (constant S_ .f32 0x00000000#32),
    binary main_v36 main_cst_17 main_v59 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_18 (constant S_ .f32 0x3F800000#32),
    binary main_v59 main_cst_18 main_v60 (maximumf : (⟨S_, .f32⟩ : BufTy).Contents (Elt F) → (⟨S_, .f32⟩ : BufTy).Contents (Elt F) → (⟨S_, .f32⟩ : BufTy).Contents (Elt F)),
    unary main_v36 main_v61 (broadcastInDim S512x1 ![0] bcast_S512_S512x1_0 : (⟨S512, .f32⟩ : BufTy).Contents (Elt F) → (⟨S512x1, .f32⟩ : BufTy).Contents (Elt F)),
    unary main_v61 main_v62 (broadcastInDim S512x1024 ![0, 1] bcast_S512x1_S512x1024_0_1 : (⟨S512x1, .f32⟩ : BufTy).Contents (Elt F) → (⟨S512x1024, .f32⟩ : BufTy).Contents (Elt F)),
    binary main_v62 main_v58 main_v63 (mulf : (⟨S512x1024, .f32⟩ : BufTy).Contents (Elt F) → (⟨S512x1024, .f32⟩ : BufTy).Contents (Elt F) → (⟨S512x1024, .f32⟩ : BufTy).Contents (Elt F)),
    nullary main_cst_19 (constant S_ .f32 0x00000000#32),
    binary main_v63 main_cst_19 main_v64 ((fun x v => Host.reduceAdd x v reducesTo_S512x1024_S1024_d0 h_S_) : (⟨S512x1024, .f32⟩ : BufTy).Contents (Elt F) → (⟨S_, .f32⟩ : BufTy).Contents (Elt F) → (⟨S1024, .f32⟩ : BufTy).Contents (Elt F)),
    unary main_v60 main_v65 (broadcastInDim S1024 ![] bcast_S_S1024 : (⟨S_, .f32⟩ : BufTy).Contents (Elt F) → (⟨S1024, .f32⟩ : BufTy).Contents (Elt F)),
    binary main_v64 main_v65 main_v66 (Host.divf : (⟨S1024, .f32⟩ : BufTy).Contents (Elt F) → (⟨S1024, .f32⟩ : BufTy).Contents (Elt F) → (⟨S1024, .f32⟩ : BufTy).Contents (Elt F)),
    binary main_arg0 main_v66 main_v67 (cat2 (F := F)),
    binary main_v67 main_arg8 main_v68 ((fun l r => Host.dotGeneral dot_S2048_S2048x1024_S1024_0_0_n_1_n_n none l r) : (⟨S2048, .f32⟩ : BufTy).Contents (Elt F) → (⟨S2048x1024, .f32⟩ : BufTy).Contents (Elt F) → (⟨S1024, .f32⟩ : BufTy).Contents (Elt F)),
    binary main_v68 main_arg9 main_v69 (addf : (⟨S1024, .f32⟩ : BufTy).Contents (Elt F) → (⟨S1024, .f32⟩ : BufTy).Contents (Elt F) → (⟨S1024, .f32⟩ : BufTy).Contents (Elt F)),
    unary main_v69 main_v70 (Host.tanh : (⟨S1024, .f32⟩ : BufTy).Contents (Elt F) → (⟨S1024, .f32⟩ : BufTy).Contents (Elt F)),
    nullary main_cst_20 (constant S_ .f32 0x00000000#32),
    binary main_v36 main_cst_20 main_v71 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_21 (constant S_ .f32 0x00000000#32),
    binary main_v71 main_cst_21 main_v72 (cmpf .ogt : (⟨S_, .f32⟩ : BufTy).Contents (Elt F) → (⟨S_, .f32⟩ : BufTy).Contents (Elt F) → (⟨S_, .i1⟩ : BufTy).Contents (Elt F)),
    unary main_v72 main_v73 (uitofp .f32 : (⟨S_, .i1⟩ : BufTy).Contents (Elt F) → (⟨S_, .f32⟩ : BufTy).Contents (Elt F)),
    unary main_v73 main_v74 (broadcastInDim S1024 ![] bcast_S_S1024 : (⟨S_, .f32⟩ : BufTy).Contents (Elt F) → (⟨S1024, .f32⟩ : BufTy).Contents (Elt F)),
    binary main_v70 main_v74 main_v75 (mulf : (⟨S1024, .f32⟩ : BufTy).Contents (Elt F) → (⟨S1024, .f32⟩ : BufTy).Contents (Elt F) → (⟨S1024, .f32⟩ : BufTy).Contents (Elt F)) ]

/-- The operations computing the distant expert, before its zeroing (20). -/
abbrev w16 : List (HloOp τ sig (Elt F)) :=
  [ nullary main_cst_22 (constant S_ .f32 0x00000000#32),
    binary main_v31 main_cst_22 main_v76 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_23 (constant S_ .f32 0x3F800000#32),
    binary main_v76 main_cst_23 main_v77 (maximumf : (⟨S_, .f32⟩ : BufTy).Contents (Elt F) → (⟨S_, .f32⟩ : BufTy).Contents (Elt F) → (⟨S_, .f32⟩ : BufTy).Contents (Elt F)),
    unary main_v31 main_v78 (broadcastInDim S512x1 ![0] bcast_S512_S512x1_0 : (⟨S512, .f32⟩ : BufTy).Contents (Elt F) → (⟨S512x1, .f32⟩ : BufTy).Contents (Elt F)),
    unary main_v78 main_v79 (broadcastInDim S512x1024 ![0, 1] bcast_S512x1_S512x1024_0_1 : (⟨S512x1, .f32⟩ : BufTy).Contents (Elt F) → (⟨S512x1024, .f32⟩ : BufTy).Contents (Elt F)),
    binary main_v79 main_arg1 main_v80 (mulf : (⟨S512x1024, .f32⟩ : BufTy).Contents (Elt F) → (⟨S512x1024, .f32⟩ : BufTy).Contents (Elt F) → (⟨S512x1024, .f32⟩ : BufTy).Contents (Elt F)),
    nullary main_cst_24 (constant S_ .f32 0x00000000#32),
    binary main_v80 main_cst_24 main_v81 ((fun x v => Host.reduceAdd x v reducesTo_S512x1024_S1024_d0 h_S_) : (⟨S512x1024, .f32⟩ : BufTy).Contents (Elt F) → (⟨S_, .f32⟩ : BufTy).Contents (Elt F) → (⟨S1024, .f32⟩ : BufTy).Contents (Elt F)),
    unary main_v77 main_v82 (broadcastInDim S1024 ![] bcast_S_S1024 : (⟨S_, .f32⟩ : BufTy).Contents (Elt F) → (⟨S1024, .f32⟩ : BufTy).Contents (Elt F)),
    binary main_v81 main_v82 main_v83 (Host.divf : (⟨S1024, .f32⟩ : BufTy).Contents (Elt F) → (⟨S1024, .f32⟩ : BufTy).Contents (Elt F) → (⟨S1024, .f32⟩ : BufTy).Contents (Elt F)),
    binary main_arg0 main_v83 main_v84 (cat2 (F := F)),
    binary main_v84 main_arg10 main_v85 ((fun l r => Host.dotGeneral dot_S2048_S2048x1024_S1024_0_0_n_1_n_n none l r) : (⟨S2048, .f32⟩ : BufTy).Contents (Elt F) → (⟨S2048x1024, .f32⟩ : BufTy).Contents (Elt F) → (⟨S1024, .f32⟩ : BufTy).Contents (Elt F)),
    binary main_v85 main_arg11 main_v86 (addf : (⟨S1024, .f32⟩ : BufTy).Contents (Elt F) → (⟨S1024, .f32⟩ : BufTy).Contents (Elt F) → (⟨S1024, .f32⟩ : BufTy).Contents (Elt F)),
    unary main_v86 main_v87 (Host.tanh : (⟨S1024, .f32⟩ : BufTy).Contents (Elt F) → (⟨S1024, .f32⟩ : BufTy).Contents (Elt F)),
    nullary main_cst_25 (constant S_ .f32 0x00000000#32),
    binary main_v31 main_cst_25 main_v88 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_26 (constant S_ .f32 0x00000000#32),
    binary main_v88 main_cst_26 main_v89 (cmpf .ogt : (⟨S_, .f32⟩ : BufTy).Contents (Elt F) → (⟨S_, .f32⟩ : BufTy).Contents (Elt F) → (⟨S_, .i1⟩ : BufTy).Contents (Elt F)),
    unary main_v89 main_v90 (uitofp .f32 : (⟨S_, .i1⟩ : BufTy).Contents (Elt F) → (⟨S_, .f32⟩ : BufTy).Contents (Elt F)) ]

/-- The operations computing the distant expert and the gates (23). -/
abbrev w17 : List (HloOp τ sig (Elt F)) :=
  [ unary main_v90 main_v91 (broadcastInDim S1024 ![] bcast_S_S1024 : (⟨S_, .f32⟩ : BufTy).Contents (Elt F) → (⟨S1024, .f32⟩ : BufTy).Contents (Elt F)),
    binary main_v87 main_v91 main_v92 (mulf : (⟨S1024, .f32⟩ : BufTy).Contents (Elt F) → (⟨S1024, .f32⟩ : BufTy).Contents (Elt F) → (⟨S1024, .f32⟩ : BufTy).Contents (Elt F)),
    nullary main_cst_27 (constant S_ .f32 0x00000000#32),
    binary main_arg1 main_cst_27 main_v93 ((fun x v => Host.reduceAdd x v reducesTo_S512x1024_S1024_d0 h_S_) : (⟨S512x1024, .f32⟩ : BufTy).Contents (Elt F) → (⟨S_, .f32⟩ : BufTy).Contents (Elt F) → (⟨S1024, .f32⟩ : BufTy).Contents (Elt F)),
    nullary main_cst_28 (constant S_ .f32 0x44000000#32),
    unary main_cst_28 main_v94 (broadcastInDim S1024 ![] bcast_S_S1024 : (⟨S_, .f32⟩ : BufTy).Contents (Elt F) → (⟨S1024, .f32⟩ : BufTy).Contents (Elt F)),
    binary main_v93 main_v94 main_v95 (Host.divf : (⟨S1024, .f32⟩ : BufTy).Contents (Elt F) → (⟨S1024, .f32⟩ : BufTy).Contents (Elt F) → (⟨S1024, .f32⟩ : BufTy).Contents (Elt F)),
    binary main_arg0 main_v95 main_v96 (cat2 (F := F)),
    binary main_v96 main_arg12 main_v97 ((fun l r => Host.dotGeneral dot_S2048_S2048x3_S3_0_0_n_1_n_n none l r) : (⟨S2048, .f32⟩ : BufTy).Contents (Elt F) → (⟨S2048x3, .f32⟩ : BufTy).Contents (Elt F) → (⟨S3, .f32⟩ : BufTy).Contents (Elt F)),
    binary main_v97 main_arg13 main_v98 (addf : (⟨S3, .f32⟩ : BufTy).Contents (Elt F) → (⟨S3, .f32⟩ : BufTy).Contents (Elt F) → (⟨S3, .f32⟩ : BufTy).Contents (Elt F)),
    nullary main_cst_29 (constant S_ .f32 0xFF800000#32),
    binary main_v98 main_cst_29 main_v99 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    nullary main_cst_30 (constant S_ .f32 0xFF800000#32),
    binary main_cst_30 main_v99 main_v100 (maximumf : (⟨S_, .f32⟩ : BufTy).Contents (Elt F) → (⟨S_, .f32⟩ : BufTy).Contents (Elt F) → (⟨S_, .f32⟩ : BufTy).Contents (Elt F)),
    unary main_v100 main_v101 (broadcastInDim S1 ![] bcast_S_S1 : (⟨S_, .f32⟩ : BufTy).Contents (Elt F) → (⟨S1, .f32⟩ : BufTy).Contents (Elt F)),
    unary main_v101 main_v102 (broadcastInDim S3 ![0] bcast_S1_S3_0 : (⟨S1, .f32⟩ : BufTy).Contents (Elt F) → (⟨S3, .f32⟩ : BufTy).Contents (Elt F)),
    binary main_v98 main_v102 main_v103 (subf : (⟨S3, .f32⟩ : BufTy).Contents (Elt F) → (⟨S3, .f32⟩ : BufTy).Contents (Elt F) → (⟨S3, .f32⟩ : BufTy).Contents (Elt F)),
    unary main_v103 main_v104 (Host.exp : (⟨S3, .f32⟩ : BufTy).Contents (Elt F) → (⟨S3, .f32⟩ : BufTy).Contents (Elt F)),
    nullary main_cst_31 (constant S_ .f32 0x00000000#32),
    binary main_v104 main_cst_31 main_v105 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v105 main_v106 (broadcastInDim S1 ![] bcast_S_S1 : (⟨S_, .f32⟩ : BufTy).Contents (Elt F) → (⟨S1, .f32⟩ : BufTy).Contents (Elt F)),
    unary main_v106 main_v107 (broadcastInDim S3 ![0] bcast_S1_S3_0 : (⟨S1, .f32⟩ : BufTy).Contents (Elt F) → (⟨S3, .f32⟩ : BufTy).Contents (Elt F)),
    binary main_v104 main_v107 main_v108 (Host.divf : (⟨S3, .f32⟩ : BufTy).Contents (Elt F) → (⟨S3, .f32⟩ : BufTy).Contents (Elt F) → (⟨S3, .f32⟩ : BufTy).Contents (Elt F)) ]

/-- The operations computing the combination (9). -/
abbrev w18 : List (HloOp τ sig (Elt F)) :=
  [ unary main_v53 main_v109 (broadcastInDim S1x1024 ![1] bcast_S1024_S1x1024_1 : (⟨S1024, .f32⟩ : BufTy).Contents (Elt F) → (⟨S1x1024, .f32⟩ : BufTy).Contents (Elt F)),
    unary main_v75 main_v110 (broadcastInDim S1x1024 ![1] bcast_S1024_S1x1024_1 : (⟨S1024, .f32⟩ : BufTy).Contents (Elt F) → (⟨S1x1024, .f32⟩ : BufTy).Contents (Elt F)),
    unary main_v92 main_v111 (broadcastInDim S1x1024 ![1] bcast_S1024_S1x1024_1 : (⟨S1024, .f32⟩ : BufTy).Contents (Elt F) → (⟨S1x1024, .f32⟩ : BufTy).Contents (Elt F)),
    nary ![main_v109, main_v110, main_v111] main_v112 (fun u => cat3f (F := F) (u 0) (u 1) (u 2)),
    unary main_v108 main_v113 (broadcastInDim S3x1 ![0] bcast_S3_S3x1_0 : (⟨S3, .f32⟩ : BufTy).Contents (Elt F) → (⟨S3x1, .f32⟩ : BufTy).Contents (Elt F)),
    unary main_v113 main_v114 (broadcastInDim S3x1024 ![0, 1] bcast_S3x1_S3x1024_0_1 : (⟨S3x1, .f32⟩ : BufTy).Contents (Elt F) → (⟨S3x1024, .f32⟩ : BufTy).Contents (Elt F)),
    binary main_v114 main_v112 main_v115 (mulf : (⟨S3x1024, .f32⟩ : BufTy).Contents (Elt F) → (⟨S3x1024, .f32⟩ : BufTy).Contents (Elt F) → (⟨S3x1024, .f32⟩ : BufTy).Contents (Elt F)),
    nullary main_cst_32 (constant S_ .f32 0x00000000#32),
    binary main_v115 main_cst_32 main_v116 ((fun x v => Host.reduceAdd x v reducesTo_S3x1024_S1024_d0 h_S_) : (⟨S3x1024, .f32⟩ : BufTy).Contents (Elt F) → (⟨S_, .f32⟩ : BufTy).Contents (Elt F) → (⟨S1024, .f32⟩ : BufTy).Contents (Elt F)) ]

/-- The operations of @main's first window. -/
abbrev P0 : List (HloOp τ sig (Elt F)) := w01 ++ (w02 ++ (w03 ++ (w04 ++ (w05 ++ (w06 ++ (w07 ++ (w08 ++ (w09 ++ (w10 ++ (w11 ++ (w12 ++ (w13))))))))))))

/-- The operations of @main's second window. -/
abbrev P1 : List (HloOp τ sig (Elt F)) := w14 ++ (w15 ++ (w16))

/-- The operations of @main's third window. -/
abbrev P2 : List (HloOp τ sig (Elt F)) := w17 ++ (w18)

/-- @main's 276 operations, in order. -/
abbrev ops : List (HloOp τ sig (Elt F)) := P0 ++ (P1 ++ P2)

/-! ## @main is that straight line -/

set_option maxRecDepth 65536 in
set_option maxHeartbeats 4000000 in
theorem main_part0_eq (c : Dev nD) : main_part0 (F := F) c = seq P0 := by
  simp only [main_part0, fn_remainder.body, fn_floor_divide.body, fn_remainder_0.body, fn_remainder_1.body, fn_floor_divide_2.body, fn_remainder_4.body, fn_where.body, fn_where_3.body, P0, w01, w02, w03, w04, w05, w06, w07, w08, w09, w10, w11, w12, w13, List.cons_append, List.nil_append, seq, bind_assoc, pure_bind]
  rfl

set_option maxRecDepth 65536 in
set_option maxHeartbeats 4000000 in
theorem main_part1_eq (c : Dev nD) : main_part1 (F := F) c = seq P1 := rfl

set_option maxRecDepth 65536 in
set_option maxHeartbeats 4000000 in
theorem main_part2_eq (c : Dev nD) : main_part2 (F := F) c = seq P2 := rfl

set_option maxRecDepth 65536 in
theorem main_eq (c : Dev nD) : main (F := F) c = seq ops := by
  simp only [ops, seq_append, ← main_part0_eq c, ← main_part1_eq c, ← main_part2_eq c]
  rfl

/-! ## The buffers' contents, stage by stage

`val k V0`: what the device's buffers hold after the first `k` stages, from any contents `V0`; for each buffer a later
stage still reads, the pure function of the arguments it then holds. -/

/-- The buffers' contents before the first stage. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl

/-- The buffers' contents after the first 1 stage. -/
def val1 (V0 : Valuation τ sig (Elt F)) : Valuation τ sig (Elt F) := after w01 (val0 V0)
/-- The buffers stage 1 writes. -/
abbrev w01_W : List (Ref sig .tc) := [main_c, main_call0_v0, main_call0_c, main_call0_v1, main_call0_c_0, main_call0_v2, main_call0_v3, main_call0_c_1, main_call0_v4, main_call0_c_2, main_call0_v5, main_call0_c_3, main_call0_v6, main_call0_v7, main_call0_v8, main_call0_v9, main_v0]
set_option maxRecDepth 8192 in
theorem w01_writes : (w01 : List (HloOp τ sig (Elt F))).Forall fun op => op.writes ⊆ (w01_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val1_keep (V0 : Valuation τ sig (Elt F)) (r : Ref sig .tc) (h : r ∉ w01_W) :
    val1 V0 (Proc.devRef .tc r) = val0 V0 (Proc.devRef .tc r) :=
  after_of_writes_sub w01 _ w01_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
set_option maxRecDepth 8192 in
set_option maxHeartbeats 2000000 in
theorem val1_main_v0 (V0 : Valuation τ sig (Elt F)) : val1 V0 (no_index (Proc.devRef .tc main_v0)) = cz (V0 (Proc.devRef .tc main_arg2)) := by
  unfold val1
  simp only [w01]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13] <;> rfl

/-- The buffers' contents after the first 2 stages. -/
def val2 (V0 : Valuation τ sig (Elt F)) : Valuation τ sig (Elt F) := after w02 (val1 V0)
/-- The buffers stage 2 writes. -/
abbrev w02_W : List (Ref sig .tc) := [main_c_0, main_call1_v0, main_call1_v1, main_call1_v2, main_call1_v3, main_call1_v4, main_call1_v5, main_call1_c, main_call1_v6, main_call1_v7, main_call1_c_0, main_call1_v8, main_v1]
set_option maxRecDepth 8192 in
theorem w02_writes : (w02 : List (HloOp τ sig (Elt F))).Forall fun op => op.writes ⊆ (w02_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val2_keep (V0 : Valuation τ sig (Elt F)) (r : Ref sig .tc) (h : r ∉ w02_W) :
    val2 V0 (Proc.devRef .tc r) = val1 V0 (Proc.devRef .tc r) :=
  after_of_writes_sub w02 _ w02_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_v0 (V0 : Valuation τ sig (Elt F)) : val2 V0 (no_index (Proc.devRef .tc main_v0)) = cz (V0 (Proc.devRef .tc main_arg2)) :=
  (val2_keep V0 main_v0 (by decide)).trans (val1_main_v0 V0)
set_option maxRecDepth 8192 in
set_option maxHeartbeats 2000000 in
theorem val2_main_v1 (V0 : Valuation τ sig (Elt F)) : val2 V0 (no_index (Proc.devRef .tc main_v1)) = fdivS (V0 (Proc.devRef .tc main_arg2)) (constantI S_ 32 27#32) := by
  unfold val2
  simp only [w02]
  after_results_simp
  simp only [val1_main_arg0, val1_main_arg1, val1_main_arg2, val1_main_arg3, val1_main_arg4, val1_main_arg5, val1_main_arg6, val1_main_arg7, val1_main_arg8, val1_main_arg9, val1_main_arg10, val1_main_arg11, val1_main_arg12, val1_main_arg13, val1_main_v0] <;> rfl

/-- The buffers' contents after the first 3 stages. -/
def val3 (V0 : Valuation τ sig (Elt F)) : Valuation τ sig (Elt F) := after w03 (val2 V0)
/-- The buffers stage 3 writes. -/
abbrev w03_W : List (Ref sig .tc) := [main_c_1, main_call2_v0, main_call2_c, main_call2_v1, main_call2_c_0, main_call2_v2, main_call2_v3, main_call2_c_1, main_call2_v4, main_call2_c_2, main_call2_v5, main_call2_c_3, main_call2_v6, main_call2_v7, main_call2_v8, main_call2_v9, main_v2]
set_option maxRecDepth 8192 in
theorem w03_writes : (w03 : List (HloOp τ sig (Elt F))).Forall fun op => op.writes ⊆ (w03_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val3_keep (V0 : Valuation τ sig (Elt F)) (r : Ref sig .tc) (h : r ∉ w03_W) :
    val3 V0 (Proc.devRef .tc r) = val2 V0 (Proc.devRef .tc r) :=
  after_of_writes_sub w03 _ w03_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_v0 (V0 : Valuation τ sig (Elt F)) : val3 V0 (no_index (Proc.devRef .tc main_v0)) = cz (V0 (Proc.devRef .tc main_arg2)) :=
  (val3_keep V0 main_v0 (by decide)).trans (val2_main_v0 V0)
set_option maxRecDepth 8192 in
set_option maxHeartbeats 2000000 in
theorem val3_main_v2 (V0 : Valuation τ sig (Elt F)) : val3 V0 (no_index (Proc.devRef .tc main_v2)) = cy (V0 (Proc.devRef .tc main_arg2)) := by
  unfold val3
  simp only [w03]
  after_results_simp
  simp only [val2_main_arg0, val2_main_arg1, val2_main_arg2, val2_main_arg3, val2_main_arg4, val2_main_arg5, val2_main_arg6, val2_main_arg7, val2_main_arg8, val2_main_arg9, val2_main_arg10, val2_main_arg11, val2_main_arg12, val2_main_arg13, val2_main_v0, val2_main_v1] <;> rfl

/-- The buffers' contents after the first 4 stages. -/
def val4 (V0 : Valuation τ sig (Elt F)) : Valuation τ sig (Elt F) := after w04 (val3 V0)
/-- The buffers stage 4 writes. -/
abbrev w04_W : List (Ref sig .tc) := [main_c_2, main_call3_v0, main_call3_v1, main_call3_v2, main_call3_v3, main_call3_v4, main_call3_v5, main_call3_c, main_call3_v6, main_call3_v7, main_call3_c_0, main_call3_v8, main_v3]
set_option maxRecDepth 8192 in
theorem w04_writes : (w04 : List (HloOp τ sig (Elt F))).Forall fun op => op.writes ⊆ (w04_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val4_keep (V0 : Valuation τ sig (Elt F)) (r : Ref sig .tc) (h : r ∉ w04_W) :
    val4 V0 (Proc.devRef .tc r) = val3 V0 (Proc.devRef .tc r) :=
  after_of_writes_sub w04 _ w04_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_v0 (V0 : Valuation τ sig (Elt F)) : val4 V0 (no_index (Proc.devRef .tc main_v0)) = cz (V0 (Proc.devRef .tc main_arg2)) :=
  (val4_keep V0 main_v0 (by decide)).trans (val3_main_v0 V0)
theorem val4_main_v2 (V0 : Valuation τ sig (Elt F)) : val4 V0 (no_index (Proc.devRef .tc main_v2)) = cy (V0 (Proc.devRef .tc main_arg2)) :=
  (val4_keep V0 main_v2 (by decide)).trans (val3_main_v2 V0)
set_option maxRecDepth 8192 in
set_option maxHeartbeats 2000000 in
theorem val4_main_v3 (V0 : Valuation τ sig (Elt F)) : val4 V0 (no_index (Proc.devRef .tc main_v3)) = cx (V0 (Proc.devRef .tc main_arg2)) := by
  unfold val4
  simp only [w04]
  after_results_simp
  simp only [val3_main_arg0, val3_main_arg1, val3_main_arg2, val3_main_arg3, val3_main_arg4, val3_main_arg5, val3_main_arg6, val3_main_arg7, val3_main_arg8, val3_main_arg9, val3_main_arg10, val3_main_arg11, val3_main_arg12, val3_main_arg13, val3_main_v0, val3_main_v2] <;> rfl

/-- The buffers' contents after the first 5 stages. -/
def val5 (V0 : Valuation τ sig (Elt F)) : Valuation τ sig (Elt F) := after w05 (val4 V0)
/-- The buffers stage 5 writes. -/
abbrev w05_W : List (Ref sig .tc) := [main_v4, main_v5, main_v6, main_v7, main_v8]
set_option maxRecDepth 8192 in
theorem w05_writes : (w05 : List (HloOp τ sig (Elt F))).Forall fun op => op.writes ⊆ (w05_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val5_keep (V0 : Valuation τ sig (Elt F)) (r : Ref sig .tc) (h : r ∉ w05_W) :
    val5 V0 (Proc.devRef .tc r) = val4 V0 (Proc.devRef .tc r) :=
  after_of_writes_sub w05 _ w05_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
set_option maxRecDepth 8192 in
set_option maxHeartbeats 2000000 in
theorem val5_main_v8 (V0 : Valuation τ sig (Elt F)) : val5 V0 (no_index (Proc.devRef .tc main_v8)) = cellCoords (F := F) (V0 (Proc.devRef .tc main_arg2)) := by
  unfold val5
  simp only [w05]
  after_results_simp
  try dsimp only [Matrix.cons_val]
  try after_results_simp
  simp only [val4_main_arg0, val4_main_arg1, val4_main_arg2, val4_main_arg3, val4_main_arg4, val4_main_arg5, val4_main_arg6, val4_main_arg7, val4_main_arg8, val4_main_arg9, val4_main_arg10, val4_main_arg11, val4_main_arg12, val4_main_arg13, val4_main_v0, val4_main_v2, val4_main_v3] <;> rfl

/-- The buffers' contents after the first 6 stages. -/
def val6 (V0 : Valuation τ sig (Elt F)) : Valuation τ sig (Elt F) := after w06 (val5 V0)
/-- The buffers stage 6 writes. -/
abbrev w06_W : List (Ref sig .tc) := [main_c_3, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v9]
set_option maxRecDepth 8192 in
theorem w06_writes : (w06 : List (HloOp τ sig (Elt F))).Forall fun op => op.writes ⊆ (w06_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val6_keep (V0 : Valuation τ sig (Elt F)) (r : Ref sig .tc) (h : r ∉ w06_W) :
    val6 V0 (Proc.devRef .tc r) = val5 V0 (Proc.devRef .tc r) :=
  after_of_writes_sub w06 _ w06_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_v8 (V0 : Valuation τ sig (Elt F)) : val6 V0 (no_index (Proc.devRef .tc main_v8)) = cellCoords (F := F) (V0 (Proc.devRef .tc main_arg2)) :=
  (val6_keep V0 main_v8 (by decide)).trans (val5_main_v8 V0)
set_option maxRecDepth 8192 in
set_option maxHeartbeats 2000000 in
theorem val6_main_v9 (V0 : Valuation τ sig (Elt F)) : val6 V0 (no_index (Proc.devRef .tc main_v9)) = nbrZ (V0 (Proc.devRef .tc main_arg3)) := by
  unfold val6
  simp only [w06]
  after_results_simp
  simp only [val5_main_arg0, val5_main_arg1, val5_main_arg2, val5_main_arg3, val5_main_arg4, val5_main_arg5, val5_main_arg6, val5_main_arg7, val5_main_arg8, val5_main_arg9, val5_main_arg10, val5_main_arg11, val5_main_arg12, val5_main_arg13, val5_main_v8] <;> rfl

/-- The buffers' contents after the first 7 stages. -/
def val7 (V0 : Valuation τ sig (Elt F)) : Valuation τ sig (Elt F) := after w07 (val6 V0)
/-- The buffers stage 7 writes. -/
abbrev w07_W : List (Ref sig .tc) := [main_c_4, main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v10]
set_option maxRecDepth 8192 in
theorem w07_writes : (w07 : List (HloOp τ sig (Elt F))).Forall fun op => op.writes ⊆ (w07_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val7_keep (V0 : Valuation τ sig (Elt F)) (r : Ref sig .tc) (h : r ∉ w07_W) :
    val7 V0 (Proc.devRef .tc r) = val6 V0 (Proc.devRef .tc r) :=
  after_of_writes_sub w07 _ w07_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_v8 (V0 : Valuation τ sig (Elt F)) : val7 V0 (no_index (Proc.devRef .tc main_v8)) = cellCoords (F := F) (V0 (Proc.devRef .tc main_arg2)) :=
  (val7_keep V0 main_v8 (by decide)).trans (val6_main_v8 V0)
theorem val7_main_v9 (V0 : Valuation τ sig (Elt F)) : val7 V0 (no_index (Proc.devRef .tc main_v9)) = nbrZ (V0 (Proc.devRef .tc main_arg3)) :=
  (val7_keep V0 main_v9 (by decide)).trans (val6_main_v9 V0)
set_option maxRecDepth 8192 in
set_option maxHeartbeats 2000000 in
theorem val7_main_v10 (V0 : Valuation τ sig (Elt F)) : val7 V0 (no_index (Proc.devRef .tc main_v10)) = fdivV (V0 (Proc.devRef .tc main_arg3)) (constantI S_ 32 27#32) := by
  unfold val7
  simp only [w07]
  after_results_simp
  simp only [val6_main_arg0, val6_main_arg1, val6_main_arg2, val6_main_arg3, val6_main_arg4, val6_main_arg5, val6_main_arg6, val6_main_arg7, val6_main_arg8, val6_main_arg9, val6_main_arg10, val6_main_arg11, val6_main_arg12, val6_main_arg13, val6_main_v8, val6_main_v9] <;> rfl

/-- The buffers' contents after the first 8 stages. -/
def val8 (V0 : Valuation τ sig (Elt F)) : Valuation τ sig (Elt F) := after w08 (val7 V0)
/-- The buffers stage 8 writes. -/
abbrev w08_W : List (Ref sig .tc) := [main_c_5, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v11]
set_option maxRecDepth 8192 in
theorem w08_writes : (w08 : List (HloOp τ sig (Elt F))).Forall fun op => op.writes ⊆ (w08_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val8_keep (V0 : Valuation τ sig (Elt F)) (r : Ref sig .tc) (h : r ∉ w08_W) :
    val8 V0 (Proc.devRef .tc r) = val7 V0 (Proc.devRef .tc r) :=
  after_of_writes_sub w08 _ w08_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_v8 (V0 : Valuation τ sig (Elt F)) : val8 V0 (no_index (Proc.devRef .tc main_v8)) = cellCoords (F := F) (V0 (Proc.devRef .tc main_arg2)) :=
  (val8_keep V0 main_v8 (by decide)).trans (val7_main_v8 V0)
theorem val8_main_v9 (V0 : Valuation τ sig (Elt F)) : val8 V0 (no_index (Proc.devRef .tc main_v9)) = nbrZ (V0 (Proc.devRef .tc main_arg3)) :=
  (val8_keep V0 main_v9 (by decide)).trans (val7_main_v9 V0)
set_option maxRecDepth 8192 in
set_option maxHeartbeats 2000000 in
theorem val8_main_v11 (V0 : Valuation τ sig (Elt F)) : val8 V0 (no_index (Proc.devRef .tc main_v11)) = nbrY (V0 (Proc.devRef .tc main_arg3)) := by
  unfold val8
  simp only [w08]
  after_results_simp
  simp only [val7_main_arg0, val7_main_arg1, val7_main_arg2, val7_main_arg3, val7_main_arg4, val7_main_arg5, val7_main_arg6, val7_main_arg7, val7_main_arg8, val7_main_arg9, val7_main_arg10, val7_main_arg11, val7_main_arg12, val7_main_arg13, val7_main_v8, val7_main_v9, val7_main_v10] <;> rfl

/-- The buffers' contents after the first 9 stages. -/
def val9 (V0 : Valuation τ sig (Elt F)) : Valuation τ sig (Elt F) := after w09 (val8 V0)
/-- The buffers stage 9 writes. -/
abbrev w09_W : List (Ref sig .tc) := [main_c_6, main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v12]
set_option maxRecDepth 8192 in
theorem w09_writes : (w09 : List (HloOp τ sig (Elt F))).Forall fun op => op.writes ⊆ (w09_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val9_keep (V0 : Valuation τ sig (Elt F)) (r : Ref sig .tc) (h : r ∉ w09_W) :
    val9 V0 (Proc.devRef .tc r) = val8 V0 (Proc.devRef .tc r) :=
  after_of_writes_sub w09 _ w09_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_v8 (V0 : Valuation τ sig (Elt F)) : val9 V0 (no_index (Proc.devRef .tc main_v8)) = cellCoords (F := F) (V0 (Proc.devRef .tc main_arg2)) :=
  (val9_keep V0 main_v8 (by decide)).trans (val8_main_v8 V0)
theorem val9_main_v9 (V0 : Valuation τ sig (Elt F)) : val9 V0 (no_index (Proc.devRef .tc main_v9)) = nbrZ (V0 (Proc.devRef .tc main_arg3)) :=
  (val9_keep V0 main_v9 (by decide)).trans (val8_main_v9 V0)
theorem val9_main_v11 (V0 : Valuation τ sig (Elt F)) : val9 V0 (no_index (Proc.devRef .tc main_v11)) = nbrY (V0 (Proc.devRef .tc main_arg3)) :=
  (val9_keep V0 main_v11 (by decide)).trans (val8_main_v11 V0)
set_option maxRecDepth 8192 in
set_option maxHeartbeats 2000000 in
theorem val9_main_v12 (V0 : Valuation τ sig (Elt F)) : val9 V0 (no_index (Proc.devRef .tc main_v12)) = nbrX (V0 (Proc.devRef .tc main_arg3)) := by
  unfold val9
  simp only [w09]
  after_results_simp
  simp only [val8_main_arg0, val8_main_arg1, val8_main_arg2, val8_main_arg3, val8_main_arg4, val8_main_arg5, val8_main_arg6, val8_main_arg7, val8_main_arg8, val8_main_arg9, val8_main_arg10, val8_main_arg11, val8_main_arg12, val8_main_arg13, val8_main_v8, val8_main_v9, val8_main_v11] <;> rfl

/-- The buffers' contents after the first 10 stages. -/
def val10 (V0 : Valuation τ sig (Elt F)) : Valuation τ sig (Elt F) := after w10 (val9 V0)
/-- The buffers stage 10 writes. -/
abbrev w10_W : List (Ref sig .tc) := [main_v13, main_v14, main_v15, main_v16, main_v17]
set_option maxRecDepth 8192 in
theorem w10_writes : (w10 : List (HloOp τ sig (Elt F))).Forall fun op => op.writes ⊆ (w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val10_keep (V0 : Valuation τ sig (Elt F)) (r : Ref sig .tc) (h : r ∉ w10_W) :
    val10 V0 (Proc.devRef .tc r) = val9 V0 (Proc.devRef .tc r) :=
  after_of_writes_sub w10 _ w10_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_arg13 (V0 : Valuation τ sig (Elt F)) : val10 V0 (no_index (Proc.devRef .tc main_arg13)) = V0 (Proc.devRef .tc main_arg13) :=
  (val10_keep V0 main_arg13 (by decide)).trans (val9_main_arg13 V0)
theorem val10_main_v8 (V0 : Valuation τ sig (Elt F)) : val10 V0 (no_index (Proc.devRef .tc main_v8)) = cellCoords (F := F) (V0 (Proc.devRef .tc main_arg2)) :=
  (val10_keep V0 main_v8 (by decide)).trans (val9_main_v8 V0)
set_option maxRecDepth 8192 in
set_option maxHeartbeats 2000000 in
theorem val10_main_v17 (V0 : Valuation τ sig (Elt F)) : val10 V0 (no_index (Proc.devRef .tc main_v17)) = nbrCoords (F := F) (V0 (Proc.devRef .tc main_arg3)) := by
  unfold val10
  simp only [w10]
  after_results_simp
  try dsimp only [Matrix.cons_val]
  try after_results_simp
  simp only [val9_main_arg0, val9_main_arg1, val9_main_arg2, val9_main_arg3, val9_main_arg4, val9_main_arg5, val9_main_arg6, val9_main_arg7, val9_main_arg8, val9_main_arg9, val9_main_arg10, val9_main_arg11, val9_main_arg12, val9_main_arg13, val9_main_v8, val9_main_v9, val9_main_v11, val9_main_v12] <;> rfl

/-- The buffers' contents after the first 11 stages. -/
def val11 (V0 : Valuation τ sig (Elt F)) : Valuation τ sig (Elt F) := after w11 (val10 V0)
/-- The buffers stage 11 writes. -/
abbrev w11_W : List (Ref sig .tc) := [main_v18, main_v19, main_v20, main_v21, main_cst, main_v22, main_cst_7, main_v23, main_v24, main_v25]
set_option maxRecDepth 8192 in
theorem w11_writes : (w11 : List (HloOp τ sig (Elt F))).Forall fun op => op.writes ⊆ (w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val11_keep (V0 : Valuation τ sig (Elt F)) (r : Ref sig .tc) (h : r ∉ w11_W) :
    val11 V0 (Proc.devRef .tc r) = val10 V0 (Proc.devRef .tc r) :=
  after_of_writes_sub w11 _ w11_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
theorem val11_main_arg12 (V0 : Valuation τ sig (Elt F)) : val11 V0 (no_index (Proc.devRef .tc main_arg12)) = V0 (Proc.devRef .tc main_arg12) :=
  (val11_keep V0 main_arg12 (by decide)).trans (val10_main_arg12 V0)
theorem val11_main_arg13 (V0 : Valuation τ sig (Elt F)) : val11 V0 (no_index (Proc.devRef .tc main_arg13)) = V0 (Proc.devRef .tc main_arg13) :=
  (val11_keep V0 main_arg13 (by decide)).trans (val10_main_arg13 V0)
set_option maxRecDepth 8192 in
set_option maxHeartbeats 2000000 in
theorem val11_main_v25 (V0 : Valuation τ sig (Elt F)) : val11 V0 (no_index (Proc.devRef .tc main_v25)) = dist (F := F) (V0 (Proc.devRef .tc main_arg2)) (V0 (Proc.devRef .tc main_arg3)) := by
  unfold val11
  simp only [w11]
  after_results_simp
  simp only [val10_main_arg0, val10_main_arg1, val10_main_arg2, val10_main_arg3, val10_main_arg4, val10_main_arg5, val10_main_arg6, val10_main_arg7, val10_main_arg8, val10_main_arg9, val10_main_arg10, val10_main_arg11, val10_main_arg12, val10_main_arg13, val10_main_v8, val10_main_v17] <;> rfl

/-- The buffers' contents after the first 12 stages. -/
def val12 (V0 : Valuation τ sig (Elt F)) : Valuation τ sig (Elt F) := after w12 (val11 V0)
/-- The buffers stage 12 writes. -/
abbrev w12_W : List (Ref sig .tc) := [main_cst_8, main_v26, main_v27, main_v28, main_cst_9, main_v29, main_v30, main_v31, main_cst_10, main_v32, main_v33, main_cst_11, main_v34, main_v35, main_v36]
set_option maxRecDepth 8192 in
theorem w12_writes : (w12 : List (HloOp τ sig (Elt F))).Forall fun op => op.writes ⊆ (w12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val12_keep (V0 : Valuation τ sig (Elt F)) (r : Ref sig .tc) (h : r ∉ w12_W) :
    val12 V0 (Proc.devRef .tc r) = val11 V0 (Proc.devRef .tc r) :=
  after_of_writes_sub w12 _ w12_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_arg8 (V0 : Valuation τ sig (Elt F)) : val12 V0 (no_index (Proc.devRef .tc main_arg8)) = V0 (Proc.devRef .tc main_arg8) :=
  (val12_keep V0 main_arg8 (by decide)).trans (val11_main_arg8 V0)
theorem val12_main_arg9 (V0 : Valuation τ sig (Elt F)) : val12 V0 (no_index (Proc.devRef .tc main_arg9)) = V0 (Proc.devRef .tc main_arg9) :=
  (val12_keep V0 main_arg9 (by decide)).trans (val11_main_arg9 V0)
theorem val12_main_arg10 (V0 : Valuation τ sig (Elt F)) : val12 V0 (no_index (Proc.devRef .tc main_arg10)) = V0 (Proc.devRef .tc main_arg10) :=
  (val12_keep V0 main_arg10 (by decide)).trans (val11_main_arg10 V0)
theorem val12_main_arg11 (V0 : Valuation τ sig (Elt F)) : val12 V0 (no_index (Proc.devRef .tc main_arg11)) = V0 (Proc.devRef .tc main_arg11) :=
  (val12_keep V0 main_arg11 (by decide)).trans (val11_main_arg11 V0)
theorem val12_main_arg12 (V0 : Valuation τ sig (Elt F)) : val12 V0 (no_index (Proc.devRef .tc main_arg12)) = V0 (Proc.devRef .tc main_arg12) :=
  (val12_keep V0 main_arg12 (by decide)).trans (val11_main_arg12 V0)
theorem val12_main_arg13 (V0 : Valuation τ sig (Elt F)) : val12 V0 (no_index (Proc.devRef .tc main_arg13)) = V0 (Proc.devRef .tc main_arg13) :=
  (val12_keep V0 main_arg13 (by decide)).trans (val11_main_arg13 V0)
set_option maxRecDepth 8192 in
set_option maxHeartbeats 2000000 in
theorem val12_main_v28 (V0 : Valuation τ sig (Elt F)) : val12 V0 (no_index (Proc.devRef .tc main_v28)) = localMask (F := F) (V0 (Proc.devRef .tc main_arg2)) (V0 (Proc.devRef .tc main_arg3)) := by
  unfold val12
  simp only [w12]
  after_results_simp
  simp only [val11_main_arg0, val11_main_arg1, val11_main_arg2, val11_main_arg3, val11_main_arg4, val11_main_arg5, val11_main_arg6, val11_main_arg7, val11_main_arg8, val11_main_arg9, val11_main_arg10, val11_main_arg11, val11_main_arg12, val11_main_arg13, val11_main_v25] <;> rfl
set_option maxRecDepth 8192 in
set_option maxHeartbeats 2000000 in
theorem val12_main_v31 (V0 : Valuation τ sig (Elt F)) : val12 V0 (no_index (Proc.devRef .tc main_v31)) = distantMask (F := F) (V0 (Proc.devRef .tc main_arg2)) (V0 (Proc.devRef .tc main_arg3)) := by
  unfold val12
  simp only [w12]
  after_results_simp
  simp only [val11_main_arg0, val11_main_arg1, val11_main_arg2, val11_main_arg3, val11_main_arg4, val11_main_arg5, val11_main_arg6, val11_main_arg7, val11_main_arg8, val11_main_arg9, val11_main_arg10, val11_main_arg11, val11_main_arg12, val11_main_arg13, val11_main_v25] <;> rfl
set_option maxRecDepth 8192 in
set_option maxHeartbeats 2000000 in
theorem val12_main_v36 (V0 : Valuation τ sig (Elt F)) : val12 V0 (no_index (Proc.devRef .tc main_v36)) = funcMask (F := F) (V0 (Proc.devRef .tc main_arg2)) (V0 (Proc.devRef .tc main_arg3)) := by
  unfold val12
  simp only [w12]
  after_results_simp
  simp only [val11_main_arg0, val11_main_arg1, val11_main_arg2, val11_main_arg3, val11_main_arg4, val11_main_arg5, val11_main_arg6, val11_main_arg7, val11_main_arg8, val11_main_arg9, val11_main_arg10, val11_main_arg11, val11_main_arg12, val11_main_arg13, val11_main_v25] <;> rfl

/-- The buffers' contents after the first 13 stages. -/
def val13 (V0 : Valuation τ sig (Elt F)) : Valuation τ sig (Elt F) := after w13 (val12 V0)
/-- The buffers stage 13 writes. -/
abbrev w13_W : List (Ref sig .tc) := [main_cst_12, main_v37, main_cst_13, main_v38, main_v39, main_v40, main_v41, main_cst_14, main_v42]
set_option maxRecDepth 8192 in
theorem w13_writes : (w13 : List (HloOp τ sig (Elt F))).Forall fun op => op.writes ⊆ (w13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val13_keep (V0 : Valuation τ sig (Elt F)) (r : Ref sig .tc) (h : r ∉ w13_W) :
    val13 V0 (Proc.devRef .tc r) = val12 V0 (Proc.devRef .tc r) :=
  after_of_writes_sub w13 _ w13_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_arg5 (V0 : Valuation τ sig (Elt F)) : val13 V0 (no_index (Proc.devRef .tc main_arg5)) = V0 (Proc.devRef .tc main_arg5) :=
  (val13_keep V0 main_arg5 (by decide)).trans (val12_main_arg5 V0)
theorem val13_main_arg6 (V0 : Valuation τ sig (Elt F)) : val13 V0 (no_index (Proc.devRef .tc main_arg6)) = V0 (Proc.devRef .tc main_arg6) :=
  (val13_keep V0 main_arg6 (by decide)).trans (val12_main_arg6 V0)
theorem val13_main_arg7 (V0 : Valuation τ sig (Elt F)) : val13 V0 (no_index (Proc.devRef .tc main_arg7)) = V0 (Proc.devRef .tc main_arg7) :=
  (val13_keep V0 main_arg7 (by decide)).trans (val12_main_arg7 V0)
theorem val13_main_arg8 (V0 : Valuation τ sig (Elt F)) : val13 V0 (no_index (Proc.devRef .tc main_arg8)) = V0 (Proc.devRef .tc main_arg8) :=
  (val13_keep V0 main_arg8 (by decide)).trans (val12_main_arg8 V0)
theorem val13_main_arg9 (V0 : Valuation τ sig (Elt F)) : val13 V0 (no_index (Proc.devRef .tc main_arg9)) = V0 (Proc.devRef .tc main_arg9) :=
  (val13_keep V0 main_arg9 (by decide)).trans (val12_main_arg9 V0)
theorem val13_main_arg10 (V0 : Valuation τ sig (Elt F)) : val13 V0 (no_index (Proc.devRef .tc main_arg10)) = V0 (Proc.devRef .tc main_arg10) :=
  (val13_keep V0 main_arg10 (by decide)).trans (val12_main_arg10 V0)
theorem val13_main_arg11 (V0 : Valuation τ sig (Elt F)) : val13 V0 (no_index (Proc.devRef .tc main_arg11)) = V0 (Proc.devRef .tc main_arg11) :=
  (val13_keep V0 main_arg11 (by decide)).trans (val12_main_arg11 V0)
theorem val13_main_arg12 (V0 : Valuation τ sig (Elt F)) : val13 V0 (no_index (Proc.devRef .tc main_arg12)) = V0 (Proc.devRef .tc main_arg12) :=
  (val13_keep V0 main_arg12 (by decide)).trans (val12_main_arg12 V0)
theorem val13_main_arg13 (V0 : Valuation τ sig (Elt F)) : val13 V0 (no_index (Proc.devRef .tc main_arg13)) = V0 (Proc.devRef .tc main_arg13) :=
  (val13_keep V0 main_arg13 (by decide)).trans (val12_main_arg13 V0)
theorem val13_main_v28 (V0 : Valuation τ sig (Elt F)) : val13 V0 (no_index (Proc.devRef .tc main_v28)) = localMask (F := F) (V0 (Proc.devRef .tc main_arg2)) (V0 (Proc.devRef .tc main_arg3)) :=
  (val13_keep V0 main_v28 (by decide)).trans (val12_main_v28 V0)
theorem val13_main_v31 (V0 : Valuation τ sig (Elt F)) : val13 V0 (no_index (Proc.devRef .tc main_v31)) = distantMask (F := F) (V0 (Proc.devRef .tc main_arg2)) (V0 (Proc.devRef .tc main_arg3)) :=
  (val13_keep V0 main_v31 (by decide)).trans (val12_main_v31 V0)
theorem val13_main_v36 (V0 : Valuation τ sig (Elt F)) : val13 V0 (no_index (Proc.devRef .tc main_v36)) = funcMask (F := F) (V0 (Proc.devRef .tc main_arg2)) (V0 (Proc.devRef .tc main_arg3)) :=
  (val13_keep V0 main_v36 (by decide)).trans (val12_main_v36 V0)
set_option maxRecDepth 8192 in
set_option maxHeartbeats 2000000 in
theorem val13_main_v38 (V0 : Valuation τ sig (Elt F)) : val13 V0 (no_index (Proc.devRef .tc main_v38)) = count (localMask (F := F) (V0 (Proc.devRef .tc main_arg2)) (V0 (Proc.devRef .tc main_arg3))) := by
  unfold val13
  simp only [w13]
  after_results_simp
  simp only [val12_main_arg0, val12_main_arg1, val12_main_arg2, val12_main_arg3, val12_main_arg4, val12_main_arg5, val12_main_arg6, val12_main_arg7, val12_main_arg8, val12_main_arg9, val12_main_arg10, val12_main_arg11, val12_main_arg12, val12_main_arg13, val12_main_v28, val12_main_v31, val12_main_v36] <;> rfl
set_option maxRecDepth 8192 in
set_option maxHeartbeats 2000000 in
theorem val13_main_v42 (V0 : Valuation τ sig (Elt F)) : val13 V0 (no_index (Proc.devRef .tc main_v42)) = maskedSum (localMask (F := F) (V0 (Proc.devRef .tc main_arg2)) (V0 (Proc.devRef .tc main_arg3))) (V0 (Proc.devRef .tc main_arg1)) := by
  unfold val13
  simp only [w13]
  after_results_simp
  simp only [val12_main_arg0, val12_main_arg1, val12_main_arg2, val12_main_arg3, val12_main_arg4, val12_main_arg5, val12_main_arg6, val12_main_arg7, val12_main_arg8, val12_main_arg9, val12_main_arg10, val12_main_arg11, val12_main_arg12, val12_main_arg13, val12_main_v28, val12_main_v31, val12_main_v36] <;> rfl

/-- The buffers' contents after the first 14 stages. -/
def val14 (V0 : Valuation τ sig (Elt F)) : Valuation τ sig (Elt F) := after w14 (val13 V0)
/-- The buffers stage 14 writes. -/
abbrev w14_W : List (Ref sig .tc) := [main_v43, main_v44, main_v45, main_v46, main_v47, main_v48, main_cst_15, main_v49, main_cst_16, main_v50, main_v51, main_v52, main_v53]
set_option maxRecDepth 8192 in
theorem w14_writes : (w14 : List (HloOp τ sig (Elt F))).Forall fun op => op.writes ⊆ (w14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val14_keep (V0 : Valuation τ sig (Elt F)) (r : Ref sig .tc) (h : r ∉ w14_W) :
    val14 V0 (Proc.devRef .tc r) = val13 V0 (Proc.devRef .tc r) :=
  after_of_writes_sub w14 _ w14_writes h
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
theorem val14_main_arg2 (V0 : Valuation τ sig (Elt F)) : val14 V0 (no_index (Proc.devRef .tc main_arg2)) = V0 (Proc.devRef .tc main_arg2) :=
  (val14_keep V0 main_arg2 (by decide)).trans (val13_main_arg2 V0)
theorem val14_main_arg3 (V0 : Valuation τ sig (Elt F)) : val14 V0 (no_index (Proc.devRef .tc main_arg3)) = V0 (Proc.devRef .tc main_arg3) :=
  (val14_keep V0 main_arg3 (by decide)).trans (val13_main_arg3 V0)
theorem val14_main_arg4 (V0 : Valuation τ sig (Elt F)) : val14 V0 (no_index (Proc.devRef .tc main_arg4)) = V0 (Proc.devRef .tc main_arg4) :=
  (val14_keep V0 main_arg4 (by decide)).trans (val13_main_arg4 V0)
theorem val14_main_arg5 (V0 : Valuation τ sig (Elt F)) : val14 V0 (no_index (Proc.devRef .tc main_arg5)) = V0 (Proc.devRef .tc main_arg5) :=
  (val14_keep V0 main_arg5 (by decide)).trans (val13_main_arg5 V0)
theorem val14_main_arg6 (V0 : Valuation τ sig (Elt F)) : val14 V0 (no_index (Proc.devRef .tc main_arg6)) = V0 (Proc.devRef .tc main_arg6) :=
  (val14_keep V0 main_arg6 (by decide)).trans (val13_main_arg6 V0)
theorem val14_main_arg7 (V0 : Valuation τ sig (Elt F)) : val14 V0 (no_index (Proc.devRef .tc main_arg7)) = V0 (Proc.devRef .tc main_arg7) :=
  (val14_keep V0 main_arg7 (by decide)).trans (val13_main_arg7 V0)
theorem val14_main_arg8 (V0 : Valuation τ sig (Elt F)) : val14 V0 (no_index (Proc.devRef .tc main_arg8)) = V0 (Proc.devRef .tc main_arg8) :=
  (val14_keep V0 main_arg8 (by decide)).trans (val13_main_arg8 V0)
theorem val14_main_arg9 (V0 : Valuation τ sig (Elt F)) : val14 V0 (no_index (Proc.devRef .tc main_arg9)) = V0 (Proc.devRef .tc main_arg9) :=
  (val14_keep V0 main_arg9 (by decide)).trans (val13_main_arg9 V0)
theorem val14_main_arg10 (V0 : Valuation τ sig (Elt F)) : val14 V0 (no_index (Proc.devRef .tc main_arg10)) = V0 (Proc.devRef .tc main_arg10) :=
  (val14_keep V0 main_arg10 (by decide)).trans (val13_main_arg10 V0)
theorem val14_main_arg11 (V0 : Valuation τ sig (Elt F)) : val14 V0 (no_index (Proc.devRef .tc main_arg11)) = V0 (Proc.devRef .tc main_arg11) :=
  (val14_keep V0 main_arg11 (by decide)).trans (val13_main_arg11 V0)
theorem val14_main_arg12 (V0 : Valuation τ sig (Elt F)) : val14 V0 (no_index (Proc.devRef .tc main_arg12)) = V0 (Proc.devRef .tc main_arg12) :=
  (val14_keep V0 main_arg12 (by decide)).trans (val13_main_arg12 V0)
theorem val14_main_arg13 (V0 : Valuation τ sig (Elt F)) : val14 V0 (no_index (Proc.devRef .tc main_arg13)) = V0 (Proc.devRef .tc main_arg13) :=
  (val14_keep V0 main_arg13 (by decide)).trans (val13_main_arg13 V0)
theorem val14_main_v31 (V0 : Valuation τ sig (Elt F)) : val14 V0 (no_index (Proc.devRef .tc main_v31)) = distantMask (F := F) (V0 (Proc.devRef .tc main_arg2)) (V0 (Proc.devRef .tc main_arg3)) :=
  (val14_keep V0 main_v31 (by decide)).trans (val13_main_v31 V0)
theorem val14_main_v36 (V0 : Valuation τ sig (Elt F)) : val14 V0 (no_index (Proc.devRef .tc main_v36)) = funcMask (F := F) (V0 (Proc.devRef .tc main_arg2)) (V0 (Proc.devRef .tc main_arg3)) :=
  (val14_keep V0 main_v36 (by decide)).trans (val13_main_v36 V0)
set_option maxRecDepth 8192 in
set_option maxHeartbeats 2000000 in
theorem val14_main_v53 (V0 : Valuation τ sig (Elt F)) : val14 V0 (no_index (Proc.devRef .tc main_v53)) = expert (V0 (Proc.devRef .tc main_arg0)) (maskedMean (localMask (F := F) (V0 (Proc.devRef .tc main_arg2)) (V0 (Proc.devRef .tc main_arg3))) (V0 (Proc.devRef .tc main_arg1))) (V0 (Proc.devRef .tc main_arg4)) (V0 (Proc.devRef .tc main_arg5)) (localMask (F := F) (V0 (Proc.devRef .tc main_arg2)) (V0 (Proc.devRef .tc main_arg3))) := by
  unfold val14
  simp only [w14]
  after_results_simp
  simp only [val13_main_arg0, val13_main_arg1, val13_main_arg2, val13_main_arg3, val13_main_arg4, val13_main_arg5, val13_main_arg6, val13_main_arg7, val13_main_arg8, val13_main_arg9, val13_main_arg10, val13_main_arg11, val13_main_arg12, val13_main_arg13, val13_main_v28, val13_main_v31, val13_main_v36, val13_main_v38, val13_main_v42] <;> rfl

/-- The buffers' contents after the first 15 stages. -/
def val15 (V0 : Valuation τ sig (Elt F)) : Valuation τ sig (Elt F) := after w15 (val14 V0)
/-- The buffers stage 15 writes. -/
abbrev w15_W : List (Ref sig .tc) := [main_v54, main_v55, main_v56, main_v57, main_v58, main_cst_17, main_v59, main_cst_18, main_v60, main_v61, main_v62, main_v63, main_cst_19, main_v64, main_v65, main_v66, main_v67, main_v68, main_v69, main_v70, main_cst_20, main_v71, main_cst_21, main_v72, main_v73, main_v74, main_v75]
set_option maxRecDepth 8192 in
theorem w15_writes : (w15 : List (HloOp τ sig (Elt F))).Forall fun op => op.writes ⊆ (w15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val15_keep (V0 : Valuation τ sig (Elt F)) (r : Ref sig .tc) (h : r ∉ w15_W) :
    val15 V0 (Proc.devRef .tc r) = val14 V0 (Proc.devRef .tc r) :=
  after_of_writes_sub w15 _ w15_writes h
theorem val15_main_arg0 (V0 : Valuation τ sig (Elt F)) : val15 V0 (no_index (Proc.devRef .tc main_arg0)) = V0 (Proc.devRef .tc main_arg0) :=
  (val15_keep V0 main_arg0 (by decide)).trans (val14_main_arg0 V0)
theorem val15_main_arg1 (V0 : Valuation τ sig (Elt F)) : val15 V0 (no_index (Proc.devRef .tc main_arg1)) = V0 (Proc.devRef .tc main_arg1) :=
  (val15_keep V0 main_arg1 (by decide)).trans (val14_main_arg1 V0)
theorem val15_main_arg2 (V0 : Valuation τ sig (Elt F)) : val15 V0 (no_index (Proc.devRef .tc main_arg2)) = V0 (Proc.devRef .tc main_arg2) :=
  (val15_keep V0 main_arg2 (by decide)).trans (val14_main_arg2 V0)
theorem val15_main_arg3 (V0 : Valuation τ sig (Elt F)) : val15 V0 (no_index (Proc.devRef .tc main_arg3)) = V0 (Proc.devRef .tc main_arg3) :=
  (val15_keep V0 main_arg3 (by decide)).trans (val14_main_arg3 V0)
theorem val15_main_arg4 (V0 : Valuation τ sig (Elt F)) : val15 V0 (no_index (Proc.devRef .tc main_arg4)) = V0 (Proc.devRef .tc main_arg4) :=
  (val15_keep V0 main_arg4 (by decide)).trans (val14_main_arg4 V0)
theorem val15_main_arg5 (V0 : Valuation τ sig (Elt F)) : val15 V0 (no_index (Proc.devRef .tc main_arg5)) = V0 (Proc.devRef .tc main_arg5) :=
  (val15_keep V0 main_arg5 (by decide)).trans (val14_main_arg5 V0)
theorem val15_main_arg6 (V0 : Valuation τ sig (Elt F)) : val15 V0 (no_index (Proc.devRef .tc main_arg6)) = V0 (Proc.devRef .tc main_arg6) :=
  (val15_keep V0 main_arg6 (by decide)).trans (val14_main_arg6 V0)
theorem val15_main_arg7 (V0 : Valuation τ sig (Elt F)) : val15 V0 (no_index (Proc.devRef .tc main_arg7)) = V0 (Proc.devRef .tc main_arg7) :=
  (val15_keep V0 main_arg7 (by decide)).trans (val14_main_arg7 V0)
theorem val15_main_arg8 (V0 : Valuation τ sig (Elt F)) : val15 V0 (no_index (Proc.devRef .tc main_arg8)) = V0 (Proc.devRef .tc main_arg8) :=
  (val15_keep V0 main_arg8 (by decide)).trans (val14_main_arg8 V0)
theorem val15_main_arg9 (V0 : Valuation τ sig (Elt F)) : val15 V0 (no_index (Proc.devRef .tc main_arg9)) = V0 (Proc.devRef .tc main_arg9) :=
  (val15_keep V0 main_arg9 (by decide)).trans (val14_main_arg9 V0)
theorem val15_main_arg10 (V0 : Valuation τ sig (Elt F)) : val15 V0 (no_index (Proc.devRef .tc main_arg10)) = V0 (Proc.devRef .tc main_arg10) :=
  (val15_keep V0 main_arg10 (by decide)).trans (val14_main_arg10 V0)
theorem val15_main_arg11 (V0 : Valuation τ sig (Elt F)) : val15 V0 (no_index (Proc.devRef .tc main_arg11)) = V0 (Proc.devRef .tc main_arg11) :=
  (val15_keep V0 main_arg11 (by decide)).trans (val14_main_arg11 V0)
theorem val15_main_arg12 (V0 : Valuation τ sig (Elt F)) : val15 V0 (no_index (Proc.devRef .tc main_arg12)) = V0 (Proc.devRef .tc main_arg12) :=
  (val15_keep V0 main_arg12 (by decide)).trans (val14_main_arg12 V0)
theorem val15_main_arg13 (V0 : Valuation τ sig (Elt F)) : val15 V0 (no_index (Proc.devRef .tc main_arg13)) = V0 (Proc.devRef .tc main_arg13) :=
  (val15_keep V0 main_arg13 (by decide)).trans (val14_main_arg13 V0)
theorem val15_main_v31 (V0 : Valuation τ sig (Elt F)) : val15 V0 (no_index (Proc.devRef .tc main_v31)) = distantMask (F := F) (V0 (Proc.devRef .tc main_arg2)) (V0 (Proc.devRef .tc main_arg3)) :=
  (val15_keep V0 main_v31 (by decide)).trans (val14_main_v31 V0)
theorem val15_main_v53 (V0 : Valuation τ sig (Elt F)) : val15 V0 (no_index (Proc.devRef .tc main_v53)) = expert (V0 (Proc.devRef .tc main_arg0)) (maskedMean (localMask (F := F) (V0 (Proc.devRef .tc main_arg2)) (V0 (Proc.devRef .tc main_arg3))) (V0 (Proc.devRef .tc main_arg1))) (V0 (Proc.devRef .tc main_arg4)) (V0 (Proc.devRef .tc main_arg5)) (localMask (F := F) (V0 (Proc.devRef .tc main_arg2)) (V0 (Proc.devRef .tc main_arg3))) :=
  (val15_keep V0 main_v53 (by decide)).trans (val14_main_v53 V0)
set_option maxRecDepth 8192 in
set_option maxHeartbeats 2000000 in
theorem val15_main_v75 (V0 : Valuation τ sig (Elt F)) : val15 V0 (no_index (Proc.devRef .tc main_v75)) = expert (V0 (Proc.devRef .tc main_arg0)) (maskedMean (funcMask (F := F) (V0 (Proc.devRef .tc main_arg2)) (V0 (Proc.devRef .tc main_arg3))) (msg (V0 (Proc.devRef .tc main_arg1)) (V0 (Proc.devRef .tc main_arg6)) (V0 (Proc.devRef .tc main_arg7)))) (V0 (Proc.devRef .tc main_arg8)) (V0 (Proc.devRef .tc main_arg9)) (funcMask (F := F) (V0 (Proc.devRef .tc main_arg2)) (V0 (Proc.devRef .tc main_arg3))) := by
  unfold val15
  simp only [w15]
  after_results_simp
  simp only [val14_main_arg0, val14_main_arg1, val14_main_arg2, val14_main_arg3, val14_main_arg4, val14_main_arg5, val14_main_arg6, val14_main_arg7, val14_main_arg8, val14_main_arg9, val14_main_arg10, val14_main_arg11, val14_main_arg12, val14_main_arg13, val14_main_v31, val14_main_v36, val14_main_v53] <;> rfl

/-- The buffers' contents after the first 16 stages. -/
def val16 (V0 : Valuation τ sig (Elt F)) : Valuation τ sig (Elt F) := after w16 (val15 V0)
/-- The buffers stage 16 writes. -/
abbrev w16_W : List (Ref sig .tc) := [main_cst_22, main_v76, main_cst_23, main_v77, main_v78, main_v79, main_v80, main_cst_24, main_v81, main_v82, main_v83, main_v84, main_v85, main_v86, main_v87, main_cst_25, main_v88, main_cst_26, main_v89, main_v90]
set_option maxRecDepth 8192 in
theorem w16_writes : (w16 : List (HloOp τ sig (Elt F))).Forall fun op => op.writes ⊆ (w16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val16_keep (V0 : Valuation τ sig (Elt F)) (r : Ref sig .tc) (h : r ∉ w16_W) :
    val16 V0 (Proc.devRef .tc r) = val15 V0 (Proc.devRef .tc r) :=
  after_of_writes_sub w16 _ w16_writes h
theorem val16_main_arg0 (V0 : Valuation τ sig (Elt F)) : val16 V0 (no_index (Proc.devRef .tc main_arg0)) = V0 (Proc.devRef .tc main_arg0) :=
  (val16_keep V0 main_arg0 (by decide)).trans (val15_main_arg0 V0)
theorem val16_main_arg1 (V0 : Valuation τ sig (Elt F)) : val16 V0 (no_index (Proc.devRef .tc main_arg1)) = V0 (Proc.devRef .tc main_arg1) :=
  (val16_keep V0 main_arg1 (by decide)).trans (val15_main_arg1 V0)
theorem val16_main_arg2 (V0 : Valuation τ sig (Elt F)) : val16 V0 (no_index (Proc.devRef .tc main_arg2)) = V0 (Proc.devRef .tc main_arg2) :=
  (val16_keep V0 main_arg2 (by decide)).trans (val15_main_arg2 V0)
theorem val16_main_arg3 (V0 : Valuation τ sig (Elt F)) : val16 V0 (no_index (Proc.devRef .tc main_arg3)) = V0 (Proc.devRef .tc main_arg3) :=
  (val16_keep V0 main_arg3 (by decide)).trans (val15_main_arg3 V0)
theorem val16_main_arg4 (V0 : Valuation τ sig (Elt F)) : val16 V0 (no_index (Proc.devRef .tc main_arg4)) = V0 (Proc.devRef .tc main_arg4) :=
  (val16_keep V0 main_arg4 (by decide)).trans (val15_main_arg4 V0)
theorem val16_main_arg5 (V0 : Valuation τ sig (Elt F)) : val16 V0 (no_index (Proc.devRef .tc main_arg5)) = V0 (Proc.devRef .tc main_arg5) :=
  (val16_keep V0 main_arg5 (by decide)).trans (val15_main_arg5 V0)
theorem val16_main_arg6 (V0 : Valuation τ sig (Elt F)) : val16 V0 (no_index (Proc.devRef .tc main_arg6)) = V0 (Proc.devRef .tc main_arg6) :=
  (val16_keep V0 main_arg6 (by decide)).trans (val15_main_arg6 V0)
theorem val16_main_arg7 (V0 : Valuation τ sig (Elt F)) : val16 V0 (no_index (Proc.devRef .tc main_arg7)) = V0 (Proc.devRef .tc main_arg7) :=
  (val16_keep V0 main_arg7 (by decide)).trans (val15_main_arg7 V0)
theorem val16_main_arg8 (V0 : Valuation τ sig (Elt F)) : val16 V0 (no_index (Proc.devRef .tc main_arg8)) = V0 (Proc.devRef .tc main_arg8) :=
  (val16_keep V0 main_arg8 (by decide)).trans (val15_main_arg8 V0)
theorem val16_main_arg9 (V0 : Valuation τ sig (Elt F)) : val16 V0 (no_index (Proc.devRef .tc main_arg9)) = V0 (Proc.devRef .tc main_arg9) :=
  (val16_keep V0 main_arg9 (by decide)).trans (val15_main_arg9 V0)
theorem val16_main_arg10 (V0 : Valuation τ sig (Elt F)) : val16 V0 (no_index (Proc.devRef .tc main_arg10)) = V0 (Proc.devRef .tc main_arg10) :=
  (val16_keep V0 main_arg10 (by decide)).trans (val15_main_arg10 V0)
theorem val16_main_arg11 (V0 : Valuation τ sig (Elt F)) : val16 V0 (no_index (Proc.devRef .tc main_arg11)) = V0 (Proc.devRef .tc main_arg11) :=
  (val16_keep V0 main_arg11 (by decide)).trans (val15_main_arg11 V0)
theorem val16_main_arg12 (V0 : Valuation τ sig (Elt F)) : val16 V0 (no_index (Proc.devRef .tc main_arg12)) = V0 (Proc.devRef .tc main_arg12) :=
  (val16_keep V0 main_arg12 (by decide)).trans (val15_main_arg12 V0)
theorem val16_main_arg13 (V0 : Valuation τ sig (Elt F)) : val16 V0 (no_index (Proc.devRef .tc main_arg13)) = V0 (Proc.devRef .tc main_arg13) :=
  (val16_keep V0 main_arg13 (by decide)).trans (val15_main_arg13 V0)
theorem val16_main_v53 (V0 : Valuation τ sig (Elt F)) : val16 V0 (no_index (Proc.devRef .tc main_v53)) = expert (V0 (Proc.devRef .tc main_arg0)) (maskedMean (localMask (F := F) (V0 (Proc.devRef .tc main_arg2)) (V0 (Proc.devRef .tc main_arg3))) (V0 (Proc.devRef .tc main_arg1))) (V0 (Proc.devRef .tc main_arg4)) (V0 (Proc.devRef .tc main_arg5)) (localMask (F := F) (V0 (Proc.devRef .tc main_arg2)) (V0 (Proc.devRef .tc main_arg3))) :=
  (val16_keep V0 main_v53 (by decide)).trans (val15_main_v53 V0)
theorem val16_main_v75 (V0 : Valuation τ sig (Elt F)) : val16 V0 (no_index (Proc.devRef .tc main_v75)) = expert (V0 (Proc.devRef .tc main_arg0)) (maskedMean (funcMask (F := F) (V0 (Proc.devRef .tc main_arg2)) (V0 (Proc.devRef .tc main_arg3))) (msg (V0 (Proc.devRef .tc main_arg1)) (V0 (Proc.devRef .tc main_arg6)) (V0 (Proc.devRef .tc main_arg7)))) (V0 (Proc.devRef .tc main_arg8)) (V0 (Proc.devRef .tc main_arg9)) (funcMask (F := F) (V0 (Proc.devRef .tc main_arg2)) (V0 (Proc.devRef .tc main_arg3))) :=
  (val16_keep V0 main_v75 (by decide)).trans (val15_main_v75 V0)
set_option maxRecDepth 8192 in
set_option maxHeartbeats 2000000 in
theorem val16_main_v87 (V0 : Valuation τ sig (Elt F)) : val16 V0 (no_index (Proc.devRef .tc main_v87)) = hidden (V0 (Proc.devRef .tc main_arg0)) (maskedMean (distantMask (F := F) (V0 (Proc.devRef .tc main_arg2)) (V0 (Proc.devRef .tc main_arg3))) (V0 (Proc.devRef .tc main_arg1))) (V0 (Proc.devRef .tc main_arg10)) (V0 (Proc.devRef .tc main_arg11)) := by
  unfold val16
  simp only [w16]
  after_results_simp
  simp only [val15_main_arg0, val15_main_arg1, val15_main_arg2, val15_main_arg3, val15_main_arg4, val15_main_arg5, val15_main_arg6, val15_main_arg7, val15_main_arg8, val15_main_arg9, val15_main_arg10, val15_main_arg11, val15_main_arg12, val15_main_arg13, val15_main_v31, val15_main_v53, val15_main_v75] <;> rfl
set_option maxRecDepth 8192 in
set_option maxHeartbeats 2000000 in
theorem val16_main_v90 (V0 : Valuation τ sig (Elt F)) : val16 V0 (no_index (Proc.devRef .tc main_v90)) = anyOn (distantMask (F := F) (V0 (Proc.devRef .tc main_arg2)) (V0 (Proc.devRef .tc main_arg3))) := by
  unfold val16
  simp only [w16]
  after_results_simp
  simp only [val15_main_arg0, val15_main_arg1, val15_main_arg2, val15_main_arg3, val15_main_arg4, val15_main_arg5, val15_main_arg6, val15_main_arg7, val15_main_arg8, val15_main_arg9, val15_main_arg10, val15_main_arg11, val15_main_arg12, val15_main_arg13, val15_main_v31, val15_main_v53, val15_main_v75] <;> rfl

/-- The buffers' contents after the first 17 stages. -/
def val17 (V0 : Valuation τ sig (Elt F)) : Valuation τ sig (Elt F) := after w17 (val16 V0)
/-- The buffers stage 17 writes. -/
abbrev w17_W : List (Ref sig .tc) := [main_v91, main_v92, main_cst_27, main_v93, main_cst_28, main_v94, main_v95, main_v96, main_v97, main_v98, main_cst_29, main_v99, main_cst_30, main_v100, main_v101, main_v102, main_v103, main_v104, main_cst_31, main_v105, main_v106, main_v107, main_v108]
set_option maxRecDepth 8192 in
theorem w17_writes : (w17 : List (HloOp τ sig (Elt F))).Forall fun op => op.writes ⊆ (w17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val17_keep (V0 : Valuation τ sig (Elt F)) (r : Ref sig .tc) (h : r ∉ w17_W) :
    val17 V0 (Proc.devRef .tc r) = val16 V0 (Proc.devRef .tc r) :=
  after_of_writes_sub w17 _ w17_writes h
theorem val17_main_arg0 (V0 : Valuation τ sig (Elt F)) : val17 V0 (no_index (Proc.devRef .tc main_arg0)) = V0 (Proc.devRef .tc main_arg0) :=
  (val17_keep V0 main_arg0 (by decide)).trans (val16_main_arg0 V0)
theorem val17_main_arg1 (V0 : Valuation τ sig (Elt F)) : val17 V0 (no_index (Proc.devRef .tc main_arg1)) = V0 (Proc.devRef .tc main_arg1) :=
  (val17_keep V0 main_arg1 (by decide)).trans (val16_main_arg1 V0)
theorem val17_main_arg2 (V0 : Valuation τ sig (Elt F)) : val17 V0 (no_index (Proc.devRef .tc main_arg2)) = V0 (Proc.devRef .tc main_arg2) :=
  (val17_keep V0 main_arg2 (by decide)).trans (val16_main_arg2 V0)
theorem val17_main_arg3 (V0 : Valuation τ sig (Elt F)) : val17 V0 (no_index (Proc.devRef .tc main_arg3)) = V0 (Proc.devRef .tc main_arg3) :=
  (val17_keep V0 main_arg3 (by decide)).trans (val16_main_arg3 V0)
theorem val17_main_arg4 (V0 : Valuation τ sig (Elt F)) : val17 V0 (no_index (Proc.devRef .tc main_arg4)) = V0 (Proc.devRef .tc main_arg4) :=
  (val17_keep V0 main_arg4 (by decide)).trans (val16_main_arg4 V0)
theorem val17_main_arg5 (V0 : Valuation τ sig (Elt F)) : val17 V0 (no_index (Proc.devRef .tc main_arg5)) = V0 (Proc.devRef .tc main_arg5) :=
  (val17_keep V0 main_arg5 (by decide)).trans (val16_main_arg5 V0)
theorem val17_main_arg6 (V0 : Valuation τ sig (Elt F)) : val17 V0 (no_index (Proc.devRef .tc main_arg6)) = V0 (Proc.devRef .tc main_arg6) :=
  (val17_keep V0 main_arg6 (by decide)).trans (val16_main_arg6 V0)
theorem val17_main_arg7 (V0 : Valuation τ sig (Elt F)) : val17 V0 (no_index (Proc.devRef .tc main_arg7)) = V0 (Proc.devRef .tc main_arg7) :=
  (val17_keep V0 main_arg7 (by decide)).trans (val16_main_arg7 V0)
theorem val17_main_arg8 (V0 : Valuation τ sig (Elt F)) : val17 V0 (no_index (Proc.devRef .tc main_arg8)) = V0 (Proc.devRef .tc main_arg8) :=
  (val17_keep V0 main_arg8 (by decide)).trans (val16_main_arg8 V0)
theorem val17_main_arg9 (V0 : Valuation τ sig (Elt F)) : val17 V0 (no_index (Proc.devRef .tc main_arg9)) = V0 (Proc.devRef .tc main_arg9) :=
  (val17_keep V0 main_arg9 (by decide)).trans (val16_main_arg9 V0)
theorem val17_main_arg10 (V0 : Valuation τ sig (Elt F)) : val17 V0 (no_index (Proc.devRef .tc main_arg10)) = V0 (Proc.devRef .tc main_arg10) :=
  (val17_keep V0 main_arg10 (by decide)).trans (val16_main_arg10 V0)
theorem val17_main_arg11 (V0 : Valuation τ sig (Elt F)) : val17 V0 (no_index (Proc.devRef .tc main_arg11)) = V0 (Proc.devRef .tc main_arg11) :=
  (val17_keep V0 main_arg11 (by decide)).trans (val16_main_arg11 V0)
theorem val17_main_arg12 (V0 : Valuation τ sig (Elt F)) : val17 V0 (no_index (Proc.devRef .tc main_arg12)) = V0 (Proc.devRef .tc main_arg12) :=
  (val17_keep V0 main_arg12 (by decide)).trans (val16_main_arg12 V0)
theorem val17_main_arg13 (V0 : Valuation τ sig (Elt F)) : val17 V0 (no_index (Proc.devRef .tc main_arg13)) = V0 (Proc.devRef .tc main_arg13) :=
  (val17_keep V0 main_arg13 (by decide)).trans (val16_main_arg13 V0)
theorem val17_main_v53 (V0 : Valuation τ sig (Elt F)) : val17 V0 (no_index (Proc.devRef .tc main_v53)) = expert (V0 (Proc.devRef .tc main_arg0)) (maskedMean (localMask (F := F) (V0 (Proc.devRef .tc main_arg2)) (V0 (Proc.devRef .tc main_arg3))) (V0 (Proc.devRef .tc main_arg1))) (V0 (Proc.devRef .tc main_arg4)) (V0 (Proc.devRef .tc main_arg5)) (localMask (F := F) (V0 (Proc.devRef .tc main_arg2)) (V0 (Proc.devRef .tc main_arg3))) :=
  (val17_keep V0 main_v53 (by decide)).trans (val16_main_v53 V0)
theorem val17_main_v75 (V0 : Valuation τ sig (Elt F)) : val17 V0 (no_index (Proc.devRef .tc main_v75)) = expert (V0 (Proc.devRef .tc main_arg0)) (maskedMean (funcMask (F := F) (V0 (Proc.devRef .tc main_arg2)) (V0 (Proc.devRef .tc main_arg3))) (msg (V0 (Proc.devRef .tc main_arg1)) (V0 (Proc.devRef .tc main_arg6)) (V0 (Proc.devRef .tc main_arg7)))) (V0 (Proc.devRef .tc main_arg8)) (V0 (Proc.devRef .tc main_arg9)) (funcMask (F := F) (V0 (Proc.devRef .tc main_arg2)) (V0 (Proc.devRef .tc main_arg3))) :=
  (val17_keep V0 main_v75 (by decide)).trans (val16_main_v75 V0)
set_option maxRecDepth 8192 in
set_option maxHeartbeats 2000000 in
theorem val17_main_v92 (V0 : Valuation τ sig (Elt F)) : val17 V0 (no_index (Proc.devRef .tc main_v92)) = expert (V0 (Proc.devRef .tc main_arg0)) (maskedMean (distantMask (F := F) (V0 (Proc.devRef .tc main_arg2)) (V0 (Proc.devRef .tc main_arg3))) (V0 (Proc.devRef .tc main_arg1))) (V0 (Proc.devRef .tc main_arg10)) (V0 (Proc.devRef .tc main_arg11)) (distantMask (F := F) (V0 (Proc.devRef .tc main_arg2)) (V0 (Proc.devRef .tc main_arg3))) := by
  unfold val17
  simp only [w17]
  after_results_simp
  simp only [val16_main_arg0, val16_main_arg1, val16_main_arg2, val16_main_arg3, val16_main_arg4, val16_main_arg5, val16_main_arg6, val16_main_arg7, val16_main_arg8, val16_main_arg9, val16_main_arg10, val16_main_arg11, val16_main_arg12, val16_main_arg13, val16_main_v53, val16_main_v75, val16_main_v87, val16_main_v90] <;> rfl
set_option maxRecDepth 8192 in
set_option maxHeartbeats 2000000 in
theorem val17_main_v108 (V0 : Valuation τ sig (Elt F)) : val17 V0 (no_index (Proc.devRef .tc main_v108)) = gates (V0 (Proc.devRef .tc main_arg0)) (V0 (Proc.devRef .tc main_arg1)) (V0 (Proc.devRef .tc main_arg12)) (V0 (Proc.devRef .tc main_arg13)) := by
  unfold val17
  simp only [w17]
  after_results_simp
  simp only [val16_main_arg0, val16_main_arg1, val16_main_arg2, val16_main_arg3, val16_main_arg4, val16_main_arg5, val16_main_arg6, val16_main_arg7, val16_main_arg8, val16_main_arg9, val16_main_arg10, val16_main_arg11, val16_main_arg12, val16_main_arg13, val16_main_v53, val16_main_v75, val16_main_v87, val16_main_v90] <;> rfl

/-- The buffers' contents after the first 18 stages. -/
def val18 (V0 : Valuation τ sig (Elt F)) : Valuation τ sig (Elt F) := after w18 (val17 V0)
/-- The buffers stage 18 writes. -/
abbrev w18_W : List (Ref sig .tc) := [main_v109, main_v110, main_v111, main_v112, main_v113, main_v114, main_v115, main_cst_32, main_v116]
set_option maxRecDepth 8192 in
theorem w18_writes : (w18 : List (HloOp τ sig (Elt F))).Forall fun op => op.writes ⊆ (w18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val18_keep (V0 : Valuation τ sig (Elt F)) (r : Ref sig .tc) (h : r ∉ w18_W) :
    val18 V0 (Proc.devRef .tc r) = val17 V0 (Proc.devRef .tc r) :=
  after_of_writes_sub w18 _ w18_writes h
theorem val18_main_arg0 (V0 : Valuation τ sig (Elt F)) : val18 V0 (no_index (Proc.devRef .tc main_arg0)) = V0 (Proc.devRef .tc main_arg0) :=
  (val18_keep V0 main_arg0 (by decide)).trans (val17_main_arg0 V0)
theorem val18_main_arg1 (V0 : Valuation τ sig (Elt F)) : val18 V0 (no_index (Proc.devRef .tc main_arg1)) = V0 (Proc.devRef .tc main_arg1) :=
  (val18_keep V0 main_arg1 (by decide)).trans (val17_main_arg1 V0)
theorem val18_main_arg2 (V0 : Valuation τ sig (Elt F)) : val18 V0 (no_index (Proc.devRef .tc main_arg2)) = V0 (Proc.devRef .tc main_arg2) :=
  (val18_keep V0 main_arg2 (by decide)).trans (val17_main_arg2 V0)
theorem val18_main_arg3 (V0 : Valuation τ sig (Elt F)) : val18 V0 (no_index (Proc.devRef .tc main_arg3)) = V0 (Proc.devRef .tc main_arg3) :=
  (val18_keep V0 main_arg3 (by decide)).trans (val17_main_arg3 V0)
theorem val18_main_arg4 (V0 : Valuation τ sig (Elt F)) : val18 V0 (no_index (Proc.devRef .tc main_arg4)) = V0 (Proc.devRef .tc main_arg4) :=
  (val18_keep V0 main_arg4 (by decide)).trans (val17_main_arg4 V0)
theorem val18_main_arg5 (V0 : Valuation τ sig (Elt F)) : val18 V0 (no_index (Proc.devRef .tc main_arg5)) = V0 (Proc.devRef .tc main_arg5) :=
  (val18_keep V0 main_arg5 (by decide)).trans (val17_main_arg5 V0)
theorem val18_main_arg6 (V0 : Valuation τ sig (Elt F)) : val18 V0 (no_index (Proc.devRef .tc main_arg6)) = V0 (Proc.devRef .tc main_arg6) :=
  (val18_keep V0 main_arg6 (by decide)).trans (val17_main_arg6 V0)
theorem val18_main_arg7 (V0 : Valuation τ sig (Elt F)) : val18 V0 (no_index (Proc.devRef .tc main_arg7)) = V0 (Proc.devRef .tc main_arg7) :=
  (val18_keep V0 main_arg7 (by decide)).trans (val17_main_arg7 V0)
theorem val18_main_arg8 (V0 : Valuation τ sig (Elt F)) : val18 V0 (no_index (Proc.devRef .tc main_arg8)) = V0 (Proc.devRef .tc main_arg8) :=
  (val18_keep V0 main_arg8 (by decide)).trans (val17_main_arg8 V0)
theorem val18_main_arg9 (V0 : Valuation τ sig (Elt F)) : val18 V0 (no_index (Proc.devRef .tc main_arg9)) = V0 (Proc.devRef .tc main_arg9) :=
  (val18_keep V0 main_arg9 (by decide)).trans (val17_main_arg9 V0)
theorem val18_main_arg10 (V0 : Valuation τ sig (Elt F)) : val18 V0 (no_index (Proc.devRef .tc main_arg10)) = V0 (Proc.devRef .tc main_arg10) :=
  (val18_keep V0 main_arg10 (by decide)).trans (val17_main_arg10 V0)
theorem val18_main_arg11 (V0 : Valuation τ sig (Elt F)) : val18 V0 (no_index (Proc.devRef .tc main_arg11)) = V0 (Proc.devRef .tc main_arg11) :=
  (val18_keep V0 main_arg11 (by decide)).trans (val17_main_arg11 V0)
theorem val18_main_arg12 (V0 : Valuation τ sig (Elt F)) : val18 V0 (no_index (Proc.devRef .tc main_arg12)) = V0 (Proc.devRef .tc main_arg12) :=
  (val18_keep V0 main_arg12 (by decide)).trans (val17_main_arg12 V0)
theorem val18_main_arg13 (V0 : Valuation τ sig (Elt F)) : val18 V0 (no_index (Proc.devRef .tc main_arg13)) = V0 (Proc.devRef .tc main_arg13) :=
  (val18_keep V0 main_arg13 (by decide)).trans (val17_main_arg13 V0)
set_option maxRecDepth 8192 in
set_option maxHeartbeats 2000000 in
theorem val18_main_v116 (V0 : Valuation τ sig (Elt F)) : val18 V0 (no_index (Proc.devRef .tc main_v116)) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold val18
  simp only [w18]
  after_results_simp
  try dsimp only [Matrix.cons_val]
  try after_results_simp
  simp only [val17_main_arg0, val17_main_arg1, val17_main_arg2, val17_main_arg3, val17_main_arg4, val17_main_arg5, val17_main_arg6, val17_main_arg7, val17_main_arg8, val17_main_arg9, val17_main_arg10, val17_main_arg11, val17_main_arg12, val17_main_arg13, val17_main_v53, val17_main_v75, val17_main_v92, val17_main_v108] <;> rfl

theorem after_ops (V0 : Valuation τ sig (Elt F)) : after ops V0 = val18 V0 := by
  simp only [ops, P0, P1, P2, after_append]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem w01_sub : (w01 : List (HloOp τ sig (Elt F))).Forall fun op => op.bufs ⊆ tcRefs τ sig :=
  ⟨nullary_bufs_sub .., unary_bufs_sub .., nullary_bufs_sub .., binary_bufs_sub .., nullary_bufs_sub .., ternary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub ..⟩
set_option maxRecDepth 8192 in
theorem w02_sub : (w02 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub .., nullary_bufs_sub .., binary_bufs_sub .., binary_bufs_sub .., nullary_bufs_sub .., binary_bufs_sub .., ternary_bufs_sub ..⟩
set_option maxRecDepth 8192 in
theorem w03_sub : (w03 : List (HloOp τ sig (Elt F))).Forall fun op => op.bufs ⊆ tcRefs τ sig :=
  ⟨nullary_bufs_sub .., unary_bufs_sub .., nullary_bufs_sub .., binary_bufs_sub .., nullary_bufs_sub .., ternary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub ..⟩
set_option maxRecDepth 8192 in
theorem w04_sub : (w04 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub .., nullary_bufs_sub .., binary_bufs_sub .., binary_bufs_sub .., nullary_bufs_sub .., binary_bufs_sub .., ternary_bufs_sub ..⟩
set_option maxRecDepth 8192 in
theorem w05_sub : (w05 : List (HloOp τ sig (Elt F))).Forall fun op => op.bufs ⊆ tcRefs τ sig :=
  ⟨unary_bufs_sub .., unary_bufs_sub .., unary_bufs_sub .., nary_bufs_sub .., unary_bufs_sub ..⟩
set_option maxRecDepth 8192 in
theorem w06_sub : (w06 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 8192 in
theorem w07_sub : (w07 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
set_option maxRecDepth 8192 in
theorem w08_sub : (w08 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 8192 in
theorem w09_sub : (w09 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
set_option maxRecDepth 8192 in
theorem w10_sub : (w10 : List (HloOp τ sig (Elt F))).Forall fun op => op.bufs ⊆ tcRefs τ sig :=
  ⟨unary_bufs_sub .., unary_bufs_sub .., unary_bufs_sub .., nary_bufs_sub .., unary_bufs_sub ..⟩
set_option maxRecDepth 8192 in
theorem w11_sub : (w11 : List (HloOp τ sig (Elt F))).Forall fun op => op.bufs ⊆ tcRefs τ sig :=
  ⟨unary_bufs_sub .., unary_bufs_sub .., binary_bufs_sub .., binary_bufs_sub .., nullary_bufs_sub .., binary_bufs_sub .., nullary_bufs_sub .., unary_bufs_sub .., binary_bufs_sub .., unary_bufs_sub ..⟩
set_option maxRecDepth 8192 in
theorem w12_sub : (w12 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub ..⟩
set_option maxRecDepth 8192 in
theorem w13_sub : (w13 : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., nullary_bufs_sub .., binary_bufs_sub ..⟩
set_option maxRecDepth 8192 in
theorem w14_sub : (w14 : List (HloOp τ sig (Elt F))).Forall fun op => op.bufs ⊆ tcRefs τ sig :=
  ⟨unary_bufs_sub .., binary_bufs_sub .., binary_bufs_sub .., binary_bufs_sub .., binary_bufs_sub .., unary_bufs_sub .., nullary_bufs_sub .., binary_bufs_sub .., nullary_bufs_sub .., binary_bufs_sub .., unary_bufs_sub .., unary_bufs_sub .., binary_bufs_sub ..⟩
set_option maxRecDepth 8192 in
theorem w15_sub : (w15 : List (HloOp τ sig (Elt F))).Forall fun op => op.bufs ⊆ tcRefs τ sig :=
  ⟨binary_bufs_sub .., unary_bufs_sub .., unary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., unary_bufs_sub .., binary_bufs_sub .., binary_bufs_sub .., binary_bufs_sub .., binary_bufs_sub .., unary_bufs_sub .., nullary_bufs_sub .., binary_bufs_sub .., nullary_bufs_sub .., binary_bufs_sub .., unary_bufs_sub .., unary_bufs_sub .., binary_bufs_sub ..⟩
set_option maxRecDepth 8192 in
theorem w16_sub : (w16 : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., nullary_bufs_sub .., binary_bufs_sub .., unary_bufs_sub .., binary_bufs_sub .., binary_bufs_sub .., binary_bufs_sub .., binary_bufs_sub .., unary_bufs_sub .., nullary_bufs_sub .., binary_bufs_sub .., nullary_bufs_sub .., binary_bufs_sub .., unary_bufs_sub ..⟩
set_option maxRecDepth 8192 in
theorem w17_sub : (w17 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., binary_bufs_sub .., binary_bufs_sub .., binary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
set_option maxRecDepth 8192 in
theorem w18_sub : (w18 : List (HloOp τ sig (Elt F))).Forall fun op => op.bufs ⊆ tcRefs τ sig :=
  ⟨unary_bufs_sub .., unary_bufs_sub .., unary_bufs_sub .., nary_bufs_sub .., unary_bufs_sub .., unary_bufs_sub .., binary_bufs_sub .., nullary_bufs_sub .., binary_bufs_sub ..⟩
theorem ops_sub : (ops : List (HloOp τ sig (Elt F))).Forall fun op => op.bufs ⊆ tcRefs τ sig :=
  List.forall_iff_forall_mem.mpr fun op h => by
    simp only [ops, P0, P1, P2, List.mem_append] at h
    rcases h with (h | h | h | h | h | h | h | h | h | h | h | h | h) | (h | h | h) | (h | h)
    exacts [List.forall_iff_forall_mem.mp w01_sub op h, List.forall_iff_forall_mem.mp w02_sub op h, List.forall_iff_forall_mem.mp w03_sub op h, List.forall_iff_forall_mem.mp w04_sub op h, List.forall_iff_forall_mem.mp w05_sub op h, List.forall_iff_forall_mem.mp w06_sub op h, List.forall_iff_forall_mem.mp w07_sub op h, List.forall_iff_forall_mem.mp w08_sub op h, List.forall_iff_forall_mem.mp w09_sub op h, List.forall_iff_forall_mem.mp w10_sub op h, List.forall_iff_forall_mem.mp w11_sub op h, List.forall_iff_forall_mem.mp w12_sub op h, List.forall_iff_forall_mem.mp w13_sub op h, List.forall_iff_forall_mem.mp w14_sub op h, List.forall_iff_forall_mem.mp w15_sub op h, List.forall_iff_forall_mem.mp w16_sub op h, List.forall_iff_forall_mem.mp w17_sub op h, List.forall_iff_forall_mem.mp w18_sub op h]

set_option maxRecDepth 8192 in
theorem w01_fresh : ∀ op ∈ (w01 : List (HloOp τ sig (Elt F))), op.fresh = ∅ := by
  intro _ h; (repeat (cases h with | head => rfl | tail _ h => ?_)); exact nomatch h
set_option maxRecDepth 8192 in
theorem w02_fresh : ∀ op ∈ (w02 : List (HloOp τ sig (Elt F))), op.fresh = ∅ := by
  intro _ h; (repeat (cases h with | head => rfl | tail _ h => ?_)); exact nomatch h
set_option maxRecDepth 8192 in
theorem w03_fresh : ∀ op ∈ (w03 : List (HloOp τ sig (Elt F))), op.fresh = ∅ := by
  intro _ h; (repeat (cases h with | head => rfl | tail _ h => ?_)); exact nomatch h
set_option maxRecDepth 8192 in
theorem w04_fresh : ∀ op ∈ (w04 : List (HloOp τ sig (Elt F))), op.fresh = ∅ := by
  intro _ h; (repeat (cases h with | head => rfl | tail _ h => ?_)); exact nomatch h
set_option maxRecDepth 8192 in
theorem w05_fresh : ∀ op ∈ (w05 : List (HloOp τ sig (Elt F))), op.fresh = ∅ := by
  intro _ h; (repeat (cases h with | head => rfl | tail _ h => ?_)); exact nomatch h
set_option maxRecDepth 8192 in
theorem w06_fresh : ∀ op ∈ (w06 : List (HloOp τ sig (Elt F))), op.fresh = ∅ := by
  intro _ h; (repeat (cases h with | head => rfl | tail _ h => ?_)); exact nomatch h
set_option maxRecDepth 8192 in
theorem w07_fresh : ∀ op ∈ (w07 : List (HloOp τ sig (Elt F))), op.fresh = ∅ := by
  intro _ h; (repeat (cases h with | head => rfl | tail _ h => ?_)); exact nomatch h
set_option maxRecDepth 8192 in
theorem w08_fresh : ∀ op ∈ (w08 : List (HloOp τ sig (Elt F))), op.fresh = ∅ := by
  intro _ h; (repeat (cases h with | head => rfl | tail _ h => ?_)); exact nomatch h
set_option maxRecDepth 8192 in
theorem w09_fresh : ∀ op ∈ (w09 : List (HloOp τ sig (Elt F))), op.fresh = ∅ := by
  intro _ h; (repeat (cases h with | head => rfl | tail _ h => ?_)); exact nomatch h
set_option maxRecDepth 8192 in
theorem w10_fresh : ∀ op ∈ (w10 : List (HloOp τ sig (Elt F))), op.fresh = ∅ := by
  intro _ h; (repeat (cases h with | head => rfl | tail _ h => ?_)); exact nomatch h
set_option maxRecDepth 8192 in
theorem w11_fresh : ∀ op ∈ (w11 : List (HloOp τ sig (Elt F))), op.fresh = ∅ := by
  intro _ h; (repeat (cases h with | head => rfl | tail _ h => ?_)); exact nomatch h
set_option maxRecDepth 8192 in
theorem w12_fresh : ∀ op ∈ (w12 : List (HloOp τ sig (Elt F))), op.fresh = ∅ := by
  intro _ h; (repeat (cases h with | head => rfl | tail _ h => ?_)); exact nomatch h
set_option maxRecDepth 8192 in
theorem w13_fresh : ∀ op ∈ (w13 : List (HloOp τ sig (Elt F))), op.fresh = ∅ := by
  intro _ h; (repeat (cases h with | head => rfl | tail _ h => ?_)); exact nomatch h
set_option maxRecDepth 8192 in
theorem w14_fresh : ∀ op ∈ (w14 : List (HloOp τ sig (Elt F))), op.fresh = ∅ := by
  intro _ h; (repeat (cases h with | head => rfl | tail _ h => ?_)); exact nomatch h
set_option maxRecDepth 8192 in
theorem w15_fresh : ∀ op ∈ (w15 : List (HloOp τ sig (Elt F))), op.fresh = ∅ := by
  intro _ h; (repeat (cases h with | head => rfl | tail _ h => ?_)); exact nomatch h
set_option maxRecDepth 8192 in
theorem w16_fresh : ∀ op ∈ (w16 : List (HloOp τ sig (Elt F))), op.fresh = ∅ := by
  intro _ h; (repeat (cases h with | head => rfl | tail _ h => ?_)); exact nomatch h
set_option maxRecDepth 8192 in
theorem w17_fresh : ∀ op ∈ (w17 : List (HloOp τ sig (Elt F))), op.fresh = ∅ := by
  intro _ h; (repeat (cases h with | head => rfl | tail _ h => ?_)); exact nomatch h
set_option maxRecDepth 8192 in
theorem w18_fresh : ∀ op ∈ (w18 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := fun op h => by
  simp only [ops, P0, P1, P2, List.mem_append] at h
  rcases h with (h | h | h | h | h | h | h | h | h | h | h | h | h) | (h | h | h) | (h | h)
  exacts [w01_fresh op h, w02_fresh op h, w03_fresh op h, w04_fresh op h, w05_fresh op h, w06_fresh op h, w07_fresh op h, w08_fresh op h, w09_fresh op h, w10_fresh op h, w11_fresh op h, w12_fresh op h, w13_fresh op h, w14_fresh op h, w15_fresh op h, w16_fresh op h, w17_fresh op h, w18_fresh op h]

/-- From any memory with zero counters, every weakly fair execution of @main terminates; the result array then holds
    `out` of the arguments' launch contents, and the arguments are unchanged. -/
theorem run (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v116) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v116).trans (by simp only [after_ops]; exact val18_main_v116 (launchContents m c)),
      (h c main_arg0).trans (by simp only [after_ops]; exact val18_main_arg0 (launchContents m c)),
      (h c main_arg1).trans (by simp only [after_ops]; exact val18_main_arg1 (launchContents m c)),
      (h c main_arg2).trans (by simp only [after_ops]; exact val18_main_arg2 (launchContents m c)),
      (h c main_arg3).trans (by simp only [after_ops]; exact val18_main_arg3 (launchContents m c)),
      (h c main_arg4).trans (by simp only [after_ops]; exact val18_main_arg4 (launchContents m c)),
      (h c main_arg5).trans (by simp only [after_ops]; exact val18_main_arg5 (launchContents m c)),
      (h c main_arg6).trans (by simp only [after_ops]; exact val18_main_arg6 (launchContents m c)),
      (h c main_arg7).trans (by simp only [after_ops]; exact val18_main_arg7 (launchContents m c)),
      (h c main_arg8).trans (by simp only [after_ops]; exact val18_main_arg8 (launchContents m c)),
      (h c main_arg9).trans (by simp only [after_ops]; exact val18_main_arg9 (launchContents m c)),
      (h c main_arg10).trans (by simp only [after_ops]; exact val18_main_arg10 (launchContents m c)),
      (h c main_arg11).trans (by simp only [after_ops]; exact val18_main_arg11 (launchContents m c)),
      (h c main_arg12).trans (by simp only [after_ops]; exact val18_main_arg12 (launchContents m c)),
      (h c main_arg13).trans (by simp only [after_ops]; exact val18_main_arg13 (launchContents m c))⟩)
    (run_seq scopedRefs_eq scopedSems_eq defs main (fun _ => ops) main_eq (fun _ => ops_sub) m g (fun _ => ops_fresh))

end Cert.ReferenceIdeal.RefRun

namespace Cert.ReferenceIdeal.RefRun

open Idealize.ShloMosaic Idealize.SL.Sem

/-- The reference runs to its end from any memory and leaves its arguments as they were. -/
theorem frame : Cert.frame_ReferenceIdeal (hReferenceIdeal := Cert.ReferenceIdeal.Gen.facts) (hPre_input_domain := Cert.Pre_input_domain.Gen.facts) :=
  fun m g _ => (θ_run _ _ _).mono (fun _ h c => (h c).2) (run (F := Ideal) m g)

end Cert.ReferenceIdeal.RefRun

end
-- ==== Proof.KICommon.lean ====
/-
  The idealized kernel's program as the SparseCore launch theorem sees it, and what its one SparseCore call carries.

  @main runs on the TensorCore: a few host reshapes, the call of the vector-subcore kernel on 2 x 16 tiles, more
  reshapes, one gridless TensorCore kernel region, and a host tail.  Tile (c, s) has worker number w = 2 s + c; it
  reads the neighbour indices (512 words) and the broadcast centre index (16 words) whole, the 128 x 128 block of
  the neighbour states at rows 128 (w / 8) and columns 128 (w % 8), and writes the 4 x 128 block of the call's
  result at columns 128 w: the thirty-two result blocks tile the 4 x 4096 result.  So the three arrays read are
  handed out as read shares (a share per SparseCore, of it a share per tile) and the result block by block, each
  tile its own block with full ownership; what comes back is the same shares and every block at contents whose
  row 3 is zero (the kernel stores a zero vector there; rows 0-2 hold partial sums nothing reads).
-/
import proofs.«211217_g68642167325227_cont_9to1_m_1168_22_alg».proof.Defs
import Idealize.ShloMosaic.Lib.SparseCore.Launch
import Idealize.ShloMosaic.Lib.StableHlo.Run
import Idealize.ShloMosaic.Lib.Pipeline.Kit
import Idealize.ShloMosaic.Lib.Tactic
import proofs.«211217_g68642167325227_cont_9to1_m_1168_22_alg».proof.Proof.Gen.KernelIdeal
import proofs.«211217_g68642167325227_cont_9to1_m_1168_22_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F] [Cert.KernelIdeal.Facts]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore region's staging rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays the SparseCore call touches, as the TensorCore holds them -/

variable (m : (ℓ : Loc nD τ sig) → Buf (Elt F) ℓ) (ρ : Dev nD → PrngReg)

abbrev nLoc (d : Dev nD) : Loc nD τ sig := (SparseCore.T d).loc main_arg3
abbrev cLoc (d : Dev nD) : Loc nD τ sig := (SparseCore.T d).loc main_v3
abbrev xLoc (d : Dev nD) : Loc nD τ sig := (SparseCore.T d).loc main_arg1
abbrev oLoc (d : Dev nD) : Loc nD τ sig := (SparseCore.T d).loc main_v4

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- SparseCore `c`'s read share of an array held whole, and tile `i`'s share of that. -/
abbrev qC (c : Fin 2) : PosShare TreeShare := shareTok fullShare 2 c
abbrev qT (c : Fin 2) (i : Fin 16) : PosShare TreeShare := shareTok (qC c) 16 i

theorem bound_zero : grid0.bound 0 = 2 := rfl
theorem bound_one : grid0.bound 1 = 16 := rfl

/-- The grid point of tile `i` of SparseCore `c`, from plain numbers. -/
abbrev pt (c : Fin 2) (i : Fin 16) : grid0.Coords := coordsV (Fin.cast bound_zero.symm c) (Fin.cast bound_one.symm i)

/-- The call's result array as a tile addresses it, and the tile's own block of it, sliced as the kernel slices it. -/
abbrev oV : Memref sig .scVector .hbm S4x4096 .f32 := Memref.whole main_v4_scv
abbrev outM (L : grid0.Coords) : Memref sig .scVector .hbm S4x128 .f32 :=
  (oV.slice (Rect.unit (s := S4x4096) (k0_off15 L) S4x128.size (k0_off15_inb L)) (fun _ => rfl))
abbrev outSet (L : grid0.Coords) : Finset S4x4096.Idx := (outM L).view.set

/-- The float zero the kernel stores. -/
abbrev zeroF : F .f32 := Scalar.ofBits .f32 0x00000000#32

/-- Row 3 of tile `L`'s block holds zeros. -/
def Row3Zero (d : Dev nD) (L : grid0.Coords) (f : Buf (Elt F) (oLoc d)) : Prop :=
  ∀ j : S4x128.Idx, (j 0).val = 3 → f ((outM L).view.emb j) = (zeroF : F .f32)

/-! ## What the handshakes carry -/

-- the centre index broadcast to sixteen lanes, as @main's host operation leaves it before the call
variable (cv : (d : Dev nD) → Buf (Elt F) (cLoc d))

/-- The three arrays the tiles only read, each whole at share `q`. -/
def rdPts (d : Dev nD) (q : PosShare TreeShare) : sProp 𝕄 :=
  iprop((nLoc d ↦{q} m (nLoc d)) ∗ (cLoc d ↦{q} cv d) ∗ (xLoc d ↦{q} m (xLoc d)))

/-- A tile's result block at its launch contents; and at whatever the tile left, row 3 zero. -/
def outPre (d : Dev nD) (L : grid0.Coords) : sProp 𝕄 := oLoc d ↦[outSet L]{fullShare} m (oLoc d)
def outPost (d : Dev nD) (L : grid0.Coords) : sProp 𝕄 := iprop(∃ f : Buf (Elt F) (oLoc d), (oLoc d ↦[outSet L]{fullShare} f) ∗ ⌜Row3Zero d L f⌝)

/-- The one call: SparseCore `c` is handed its read share of the three arrays and its sixteen tiles' result blocks; tile
    `i` its share of the share and its block; back come the same shares and the blocks with row 3 zero. -/
def P : (K (F := F)).Pay (nD := nD) (Val := Elt F) (Name := ℕ) (U := UU) where
  st := fun q d c => match q with
    | 0 => iprop(rdPts m cv d (qC (Fin.cast nCore_zero c)) ∗ bigSep Finset.univ fun i : Fin 16 => outPre m d (pt (Fin.cast nCore_zero c) i))
  dn := fun q d c => match q with
    | 0 => iprop(rdPts m cv d (qC (Fin.cast nCore_zero c)) ∗ bigSep Finset.univ fun i : Fin 16 => outPost d (pt (Fin.cast nCore_zero c) i))
  go := fun q d c i => match q with
    | 0 => iprop(rdPts m cv d (qT (Fin.cast nCore_zero c) (Fin.cast nSub_zero i)) ∗ outPre m d (pt (Fin.cast nCore_zero c) (Fin.cast nSub_zero i)))
  td := fun q d c i => match q with
    | 0 => iprop(rdPts m cv d (qT (Fin.cast nCore_zero c) (Fin.cast nSub_zero i)) ∗ outPost d (pt (Fin.cast nCore_zero c) (Fin.cast nSub_zero i)))
  x := fun _ _ => iprop(emp)

instance P_storable : (P (F := F) m cv).IsStorable where
  st q d c := match q with | 0 => by unfold P rdPts outPre; infer_instance
  dn q d c := match q with | 0 => by unfold P rdPts outPost; infer_instance
  go q d c i := match q with | 0 => by unfold P rdPts outPre; infer_instance
  td q d c i := match q with | 0 => by unfold P rdPts outPost; infer_instance

end Cert.Proof.KI

end
-- ==== Proof.KIMain.lean ====
/-
  @main of the idealized kernel on the TensorCore, as stretches of host operations around the SparseCore call and the
  TensorCore kernel region: four reshapes/broadcasts, the call, five reshapes, the region, and the seven-operation tail
  that adds the (zero) row 3 of the call's result to the region's result.
-/
import proofs.«211217_g68642167325227_cont_9to1_m_1168_22_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F] [Named F] [Cert.KernelIdeal.Facts]

local notation "𝕄" => MT nD τ sig (HIx 1) (Elt F) ℕ UU ℕ

/-! ## The host stretches -/

/-- Before the call: the three reshapes of the kernel region's small operands and the centre index broadcast to 16 lanes. -/
def ops1 : List (HloOp τ sig (Elt F)) :=
  [StableHlo.reshape main_arg2 main_v0 rfl shapeCasts_S_S1x1,
   StableHlo.reshape main_arg0 main_v1 rfl shapeCasts_S1024_S1x1024,
   StableHlo.reshape main_arg3 main_v2 rfl shapeCasts_S512_S1x512,
   StableHlo.unary main_arg2 main_v3 (broadcastInDim S16 ![] bcast_S_S16 : (⟨S_, .i32⟩ : BufTy).Contents (Elt F) → (⟨S16, .i32⟩ : BufTy).Contents (Elt F))]

/-- Between the call and the region: the biases reshaped to rows. -/
def ops2 : List (HloOp τ sig (Elt F)) :=
  [StableHlo.reshape main_arg13 main_v5 rfl shapeCasts_S3_S1x3,
   StableHlo.reshape main_arg7 main_v6 rfl shapeCasts_S1024_S1x1024,
   StableHlo.reshape main_arg5 main_v7 rfl shapeCasts_S1024_S1x1024,
   StableHlo.reshape main_arg9 main_v8 rfl shapeCasts_S1024_S1x1024,
   StableHlo.reshape main_arg11 main_v9 rfl shapeCasts_S1024_S1x1024]

/-- The tail: the region's row reshaped to a vector; row 3 of the call's result, re-laid 4 x 1024 and summed over its
    four rows; the sum of the two. -/
def ops3 : List (HloOp τ sig (Elt F)) :=
  [StableHlo.reshape main_v10 main_v11 rfl shapeCasts_S1x1024_S1024,
   StableHlo.unary main_v4 main_v12 ((extractStridedSlice S1x4096 ![3, 0] · slices_S4x4096_S1x4096_3_0) : (⟨S4x4096, .f32⟩ : BufTy).Contents (Elt F) → (⟨S1x4096, .f32⟩ : BufTy).Contents (Elt F)),
   StableHlo.reshape main_v12 main_v13 rfl shapeCasts_S1x4096_S4096,
   StableHlo.reshape main_v13 main_v14 rfl shapeCasts_S4096_S4x1024,
   StableHlo.nullary main_cst (constant S_ .f32 0x00000000#32),
   StableHlo.binary main_v14 main_cst main_v15 ((fun x v => Host.reduceAdd x v reducesTo_S4x1024_S1024_d0 h_S_) : (⟨S4x1024, .f32⟩ : BufTy).Contents (Elt F) → (⟨S_, .f32⟩ : BufTy).Contents (Elt F) → (⟨S1024, .f32⟩ : BufTy).Contents (Elt F)),
   StableHlo.binary main_v11 main_v15 main_v16 (addf : (⟨S1024, .f32⟩ : BufTy).Contents (Elt F) → (⟨S1024, .f32⟩ : BufTy).Contents (Elt F) → (⟨S1024, .f32⟩ : BufTy).Contents (Elt F))]

/-- @main is the first stretch, the call, the second stretch, the region, the tail. -/
theorem main_eq (d : Dev nD) :
    main (F := F) d = (StableHlo.seq (ops1 (F := F)) >>= fun _ => (sc (F := F)).run d 0 >>= fun _ => StableHlo.seq (ops2 (F := F)) >>= fun _ =>
      (Prog.lift (.customCall (SparseCore.inner (Pipeline.entry 0)) ()) >>= fun _ => StableHlo.seq (ops3 (F := F)))) := by
  simp only [main, ops1, ops2, ops3, StableHlo.seq, bind_assoc, pure_bind, bind_pure]

/-! ## How a SparseCore's operands split among its sixteen tiles -/

variable (m : (ℓ : Loc nD τ sig) → Buf (Elt F) ℓ) (cv : (d : Dev nD) → Buf (Elt F) (cLoc d))

open Idealize.ShloMosaic.Transfers (pointsTo_toks_split pointsTo_toks_join shareTok shareDrop)

/-- The three read arrays at a share are the same at the share's remainder and at its sixteen tokens. -/
theorem rdPts_split (d : Dev nD) (q : PosShare TreeShare) :
    (rdPts m cv d q : sProp 𝕄) ⊢ iprop(rdPts m cv d (shareDrop q 16) ∗ bigSep Finset.univ fun i : Fin 16 => rdPts m cv d (shareTok q 16 i)) := by
  unfold rdPts
  iintro ⟨Hn, Hc, Hx⟩
  ihave Hn' := (pointsTo_toks_split (ℓ := nLoc d) (S := Finset.univ) (f := m (nLoc d)) q 16) $$ Hn
  ihave Hc' := (pointsTo_toks_split (ℓ := cLoc d) (S := Finset.univ) (f := cv d) q 16) $$ Hc
  ihave Hx' := (pointsTo_toks_split (ℓ := xLoc d) (S := Finset.univ) (f := m (xLoc d)) q 16) $$ Hx
  icases Hn' with ⟨Hnr, Hnt⟩
  icases Hc' with ⟨Hcr, Hct⟩
  icases Hx' with ⟨Hxr, Hxt⟩
  isplitl [Hnr Hcr Hxr]
  · isplitl [Hnr]; · iexact Hnr
    isplitl [Hcr]; · iexact Hcr
    iexact Hxr
  rw [bigSep_sep', bigSep_sep']
  isplitl [Hnt]; · iexact Hnt
  isplitl [Hct]; · iexact Hct
  iexact Hxt

/-- and back. -/
theorem rdPts_join (d : Dev nD) (q : PosShare TreeShare) :
    iprop(rdPts m cv d (shareDrop q 16) ∗ bigSep Finset.univ fun i : Fin 16 => rdPts m cv d (shareTok q 16 i)) ⊢ (rdPts m cv d q : sProp 𝕄) := by
  unfold rdPts
  rw [bigSep_sep', bigSep_sep']
  iintro ⟨⟨Hnr, Hcr, Hxr⟩, Hnt, Hct, Hxt⟩
  isplitl [Hnr Hnt]
  · iapply (pointsTo_toks_join (ℓ := nLoc d) (S := Finset.univ) (f := m (nLoc d)) q 16)
    isplitl [Hnr] <;> iassumption
  isplitl [Hcr Hct]
  · iapply (pointsTo_toks_join (ℓ := cLoc d) (S := Finset.univ) (f := cv d) q 16)
    isplitl [Hcr] <;> iassumption
  iapply (pointsTo_toks_join (ℓ := xLoc d) (S := Finset.univ) (f := m (xLoc d)) q 16)
  isplitl [Hxr] <;> iassumption

/-- A conjunction over the call's tiles is one over sixteen numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands for one SparseCore split into its tiles' and the results gather from theirs: the read shares into
    sixteen tokens each (the remainder waits in the frame), the result blocks one to a tile. -/
theorem vecSplit : (K (F := F)).VecSplit' (P m cv) 0 := by
  intro d c
  show iprop(rdPts m cv d (qC (Fin.cast nCore_zero c)) ∗ bigSep Finset.univ fun i : Fin 16 => outPre m d (pt (Fin.cast nCore_zero c) i))
    ⊢ |={Set.univ}=> iprop(
      (bigSep Finset.univ fun i : Fin ((K (F := F)).nSub 0) =>
        iprop(rdPts m cv d (qT (Fin.cast nCore_zero c) (Fin.cast nSub_zero i)) ∗ outPre m d (pt (Fin.cast nCore_zero c) (Fin.cast nSub_zero i))))
      ∗ ((bigSep Finset.univ fun i : Fin ((K (F := F)).nSub 0) =>
          iprop(rdPts m cv d (qT (Fin.cast nCore_zero c) (Fin.cast nSub_zero i)) ∗ outPost d (pt (Fin.cast nCore_zero c) (Fin.cast nSub_zero i))))
          -∗ iprop(rdPts m cv d (qC (Fin.cast nCore_zero c)) ∗ bigSep Finset.univ fun i : Fin 16 => outPost d (pt (Fin.cast nCore_zero c) i))))
  rw [bigSep_tasks (F := F) (fun i => iprop(rdPts m cv d (qT (Fin.cast nCore_zero c) i) ∗ outPre m d (pt (Fin.cast nCore_zero c) i))),
    bigSep_tasks (F := F) (fun i => iprop(rdPts m cv d (qT (Fin.cast nCore_zero c) i) ∗ outPost d (pt (Fin.cast nCore_zero c) i))),
    bigSep_sep', bigSep_sep']
  iintro ⟨Hr, Ho⟩
  ihave Hr' := (rdPts_split m cv d (qC (Fin.cast nCore_zero c))) $$ Hr
  icases Hr' with ⟨Hrem, Htok⟩
  imodintro
  isplitl [Htok Ho]
  · isplitl [Htok]; · iexact Htok
    iexact Ho
  iintro ⟨Htok, Ho⟩
  isplitl [Hrem Htok]
  · iapply (rdPts_join m cv d (qC (Fin.cast nCore_zero c)))
    isplitl [Hrem] <;> iassumption
  iexact Ho

end Cert.Proof.KI

end
-- ==== Proof.KILaunch.lean ====
/-
  The launch element of the idealized kernel's ghost state: the handshakes' rounds; the TensorCore kernel region's
  staging cells, funded here and handed to @main on each device; the transfers' counters, which nothing at the launch
  consumes.  The SparseCore kernel keeps no ghost state of its own (it only makes local copies and waits for them).
-/
import proofs.«211217_g68642167325227_cont_9to1_m_1168_22_alg».proof.Proof.KIMain
import proofs.«211217_g68642167325227_cont_9to1_m_1168_22_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Cert.KernelIdeal.Facts]

local notation "𝕄" => MT nD τ sig (HIx 1) (Elt F) ℕ UU ℕ

/-- The region's rounds library: the left of the right component. -/
abbrev EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP (F := F)).LandsIn (upEmb : UEmb _ 𝕄) := by unfold EP; infer_instance

/-- What @main starts from on device `d` beyond what the launch deals every TensorCore: the region's cells' ghost state and
    its duty tokens. -/
abbrev G (d : Dev nD) : sProp 𝕄 :=
  iprop((bigSep Finset.univ fun p : Fin 1 => Pipeline.cellsGhost cfgs (EP (F := F)) p d)
    ∗ bigSep Finset.univ fun p : Fin 1 => (Pipeline.toksInit cfgs (EP (F := F)) p d : sProp 𝕄))

def u₀ : UU :=
  (initOf (K (F := F)).hsCells (K (F := F)).hsToks,
    (initOf (Pipeline.cells (nD := nD) (τ := τ) cfgs cellOf_inj) (Pipeline.launchToks (nD := nD) (τ := τ) cfgs cellOf_inj), 1))

variable (m : (ℓ : Loc nD τ sig) → Buf (Elt F) ℓ) (cv : (d : Dev nD) → Buf (Elt F) (cLoc d))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m cv).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  imod (Pipeline.fund_ghost (nD := nD) (τ := τ) cfgs (EP (F := F)) cellOf_inj) $$ HP with ⟨Hc, Ht⟩
  imodintro
  isplitl [HH]; · iexact HH
  isplitl [Hc Ht]
  · rw [bigSep_sep']
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KIHmain.lean ====
/-
  @main of the idealized kernel on one TensorCore, proved from what the launch deals it: the first host stretch, the
  SparseCore call (its operands handed out and taken back), the second stretch, the TensorCore kernel region, the tail.
  The valuations name what every unscoped array holds after each step.
-/
import proofs.«211217_g68642167325227_cont_9to1_m_1168_22_alg».proof.Proof.KILaunch
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F] [Named F] [Cert.KernelIdeal.Facts]

local notation "𝕄" => MT nD τ sig (HIx 1) (Elt F) ℕ UU ℕ

variable (m : (ℓ : Loc nD τ sig) → Buf (Elt F) ℓ) (ρ : Dev nD → PrngReg)

/-! ## The unscoped arrays and their contents step by step -/

abbrev UC : Finset (DevRef τ sig) := Pipeline.ucRefs τ sig
abbrev n' : DevRef τ sig := Proc.devRef .tc (main_arg3 : Ref sig .tc)
abbrev c' : DevRef τ sig := Proc.devRef .tc (main_v3 : Ref sig .tc)
abbrev x' : DevRef τ sig := Proc.devRef .tc (main_arg1 : Ref sig .tc)
abbrev o' : DevRef τ sig := Proc.devRef .tc (main_v4 : Ref sig .tc)
abbrev r' : DevRef τ sig := Proc.devRef .tc (main_v10 : Ref sig .tc)

abbrev rLoc (d : Dev nD) : Loc nD τ sig := (SparseCore.T d).loc main_v10

/-- At the launch. -/
def V0 (d : Dev nD) : Valuation τ sig (Elt F) := fun b => m (d, b)
/-- After the first stretch. -/
def V1 (d : Dev nD) : Valuation τ sig (Elt F) := StableHlo.after (ops1 (F := F)) (V0 m d)
/-- The centre index on sixteen lanes, as the tiles read it. -/
def cvOf (d : Dev nD) : Buf (Elt F) (cLoc d) := V1 m d c'
/-- After the call, its result at `g`. -/
def V2 (d : Dev nD) (g : Buf (Elt F) (oLoc d)) : Valuation τ sig (Elt F) := Function.update (V1 m d) o' g
/-- After the second stretch. -/
def V3 (d : Dev nD) (g : Buf (Elt F) (oLoc d)) : Valuation τ sig (Elt F) := StableHlo.after (ops2 (F := F)) (V2 m d g)
/-- After the region, its result at `vo`. -/
def V4 (d : Dev nD) (g : Buf (Elt F) (oLoc d)) (vo : Buf (Elt F) (rLoc d)) : Valuation τ sig (Elt F) :=
  Function.update (V3 m d g) r' vo
/-- At the end. -/
def V5 (d : Dev nD) (g : Buf (Elt F) (oLoc d)) (vo : Buf (Elt F) (rLoc d)) : Valuation τ sig (Elt F) :=
  StableHlo.after (ops3 (F := F)) (V4 m d g vo)

/-- Row 3 of the call's result is zero throughout. -/
def OutZero (d : Dev nD) (g : Buf (Elt F) (oLoc d)) : Prop :=
  ∀ j : S4x4096.Idx, (j 0).val = 3 → g j = (zeroF : F .f32)

/-! ## The host stretches touch unscoped TensorCore arrays only, and allocate nothing -/

theorem ops1_sub : ∀ op ∈ (ops1 : List (HloOp τ sig (Elt F))), op.bufs ⊆ UC := fun op h =>
  Pipeline.sub_ucRefs op ((List.forall_iff_forall_mem.mp
    (show (ops1 : List (HloOp τ sig (Elt F))).Forall fun op => op.bufs ⊆ StableHlo.tcRefs τ sig from
      ⟨StableHlo.reshape_bufs_sub .., StableHlo.reshape_bufs_sub .., StableHlo.reshape_bufs_sub .., StableHlo.unary_bufs_sub ..⟩)) op h)
theorem ops2_sub : ∀ op ∈ (ops2 : List (HloOp τ sig (Elt F))), op.bufs ⊆ UC := fun op h =>
  Pipeline.sub_ucRefs op ((List.forall_iff_forall_mem.mp
    (show (ops2 : List (HloOp τ sig (Elt F))).Forall fun op => op.bufs ⊆ StableHlo.tcRefs τ sig from
      ⟨StableHlo.reshape_bufs_sub .., StableHlo.reshape_bufs_sub .., StableHlo.reshape_bufs_sub .., StableHlo.reshape_bufs_sub .., StableHlo.reshape_bufs_sub ..⟩)) op h)
theorem ops3_sub : ∀ op ∈ (ops3 : List (HloOp τ sig (Elt F))), op.bufs ⊆ UC := fun op h =>
  Pipeline.sub_ucRefs op ((List.forall_iff_forall_mem.mp
    (show (ops3 : List (HloOp τ sig (Elt F))).Forall fun op => op.bufs ⊆ StableHlo.tcRefs τ sig from
      ⟨StableHlo.reshape_bufs_sub .., StableHlo.unary_bufs_sub .., StableHlo.reshape_bufs_sub .., StableHlo.reshape_bufs_sub .., StableHlo.nullary_bufs_sub ..,
        StableHlo.binary_bufs_sub .., StableHlo.binary_bufs_sub ..⟩)) op h)

theorem ops1_fresh : ∀ op ∈ (ops1 : List (HloOp τ sig (Elt F))), op.fresh = ∅ := fun op h => by
  simp only [ops1, List.mem_cons, List.not_mem_nil, or_false] at h
  rcases h with rfl | rfl | rfl | rfl <;> rfl
theorem ops2_fresh : ∀ op ∈ (ops2 : List (HloOp τ sig (Elt F))), op.fresh = ∅ := fun op h => by
  simp only [ops2, List.mem_cons, List.not_mem_nil, or_false] at h
  rcases h with rfl | rfl | rfl | rfl | rfl <;> rfl
theorem ops3_fresh : ∀ op ∈ (ops3 : List (HloOp τ sig (Elt F))), op.fresh = ∅ := fun op h => by
  simp only [ops3, List.mem_cons, List.not_mem_nil, or_false] at h
  rcases h with rfl | rfl | rfl | rfl | rfl | rfl | rfl <;> rfl

end Cert.Proof.KI

end
-- ==== Proof.KIRun.lean ====
/-
  @main of the idealized kernel on one TensorCore, from what the launch deals it, given how the SparseCore call's
  operands leave and re-enter the unscoped arrays (CallIO) and the rule of the TensorCore kernel region (RegionRule);
  then the launch theorem's application: the whole program's run.
-/
import proofs.«211217_g68642167325227_cont_9to1_m_1168_22_alg».proof.Proof.KIHmain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F] [Named F] [Cert.KernelIdeal.Facts]

local notation "𝕄" => MT nD τ sig (HIx 1) (Elt F) ℕ UU ℕ

variable (m : (ℓ : Loc nD τ sig) → Buf (Elt F) ℓ) (ρ : Dev nD → PrngReg)

-- what the region's result is known to be (the kernel body's function of the staged operands)
variable (TcOut : (d : Dev nD) → Buf (Elt F) (oLoc d) → Buf (Elt F) (rLoc d) → Prop)

/-- The call's operands out of the unscoped arrays, and its results back into them with row 3 zero. -/
def CallIO : Prop := ∀ d : Dev nD,
  (held (T d) UC (V1 m d) : sProp 𝕄) ⊢ iprop((bigSep Finset.univ fun c : Fin ((K (F := F)).nCore 0) => (P m (cvOf m)).st 0 d c)
    ∗ ((bigSep Finset.univ fun c : Fin ((K (F := F)).nCore 0) => (P m (cvOf m)).dn 0 d c) -∗ ∃ g, ⌜OutZero d g⌝ ∗ held (T d) UC (V2 m d g)))

/-- The TensorCore kernel region inside the SparseCore program: entered holding the region boundary, the unscoped arrays,
    the region's rounds ghost state and the TensorCore's handshake state after the last call (it owes nothing any more); left
    with the region's result array at contents of which `TcOut` holds, everything else as it was. -/
def RegionRule : Prop := ∀ (κ : GSem nD τ sig → ℕ) (d : Dev nD) (g : Buf (Elt F) (oLoc d)) (Q : PUnit → sProp 𝕄),
  iprop((K (F := F)).ctx EH (P m (cvOf m)) κ ∗ (K (F := F)).tcSt EH d 1 ∗ boundary (T d) ∗ held (T d) UC (V3 m d g) ∗ G (F := F) d
      ∗ ((∃ vo, ⌜TcOut d g vo⌝ ∗ (K (F := F)).tcSt EH d 1 ∗ boundary (T d) ∗ held (T d) UC (V4 m d g vo))
          -∗ wp frame (wpE (D (F := F)) 𝒱 (T d) none) Set.univ (StableHlo.seq (ops3 (F := F))) Q))
    ⊢ wp frame (wpE ((K (F := F)).defs (D (F := F))) 𝒱 (T d) none) Set.univ
        (.op (.customCall (SparseCore.inner (Pipeline.entry 0)) ()) fun _ => StableHlo.seq (ops3 (F := F))) Q

/-- What @main leaves: the unscoped arrays at the final valuation, for some result of the call with row 3 zero and some
    result of the region of which `TcOut` holds. -/
abbrev FIN (d : Dev nD) : sProp 𝕄 := iprop(∃ g vo, ⌜OutZero d g⌝ ∗ ⌜TcOut d g vo⌝ ∗ held (T d) UC (V5 m d g vo))

set_option backward.isDefEq.respectTransparency.types false in
theorem hmain (hio : CallIO m) (hreg : RegionRule m TcOut) (κ : GSem nD τ sig → ℕ) (d : Dev nD) :
    iprop((K (F := F)).ctx EH (P m (cvOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m TcOut d) := by
  unfold SparseCore.Cfg.tcRes
  rw [show (unscopedBufs d (fun b => m ((SparseCore.T d).loc b)) : sProp 𝕄) = held (T d) UC (V0 m d) from
    Pipeline.unscopedBufs_held (Ix := HIx 1) (Name := ℕ) (U := UU) (Lvl := ℕ) d (V0 m d)]
  rw [main_eq]
  iintro ⟨#Hctx, Hst, ⟨Hb, Hheld, -, -⟩, HG⟩
  -- the first stretch
  iapply (StableHlo.wp_seq 𝒱 none Set.univ d UC _ (ops1 (F := F)) ops1_sub ops1_fresh (V0 m d)) $$ [Hb Hheld]
  · isplitl [Hb] <;> iassumption
  iintro ⟨Hb, Hheld⟩
  rw [show StableHlo.after (ops1 (F := F)) (V0 m d) = V1 m d from rfl]
  -- the call
  rw [wp_bind]
  ihave Hio := (hio d) $$ Hheld
  icases Hio with ⟨Hops, Hback⟩
  iapply ((K (F := F)).wp_run (D (F := F)) 𝒱 (EH := EH) (P := P m (cvOf m)) κ d 0) $$ [Hst Hops Hback Hb HG]
  isplitr; · iexact Hctx
  isplitl [Hst]; · iexact Hst
  isplitl [Hops]; · iexact Hops
  iintro ⟨Hst, Hdn⟩
  ihave Hg := Hback $$ Hdn
  icases Hg with ⟨%g, %hg, Hheld⟩
  -- the second stretch
  iapply (StableHlo.wp_seq 𝒱 none Set.univ d UC _ (ops2 (F := F)) ops2_sub ops2_fresh (V2 m d g)) $$ [Hb Hheld]
  · isplitl [Hb] <;> iassumption
  iintro ⟨Hb, Hheld⟩
  rw [show StableHlo.after (ops2 (F := F)) (V2 m d g) = V3 m d g from rfl]
  -- the region
  simp only [Prog.lift, Prog.bind_op, Prog.bind_ret]
  iapply (hreg κ d g) $$ [Hst Hb Hheld HG]
  isplitr; · iexact Hctx
  isplitl [Hst]; · iexact Hst
  isplitl [Hb]; · iexact Hb
  isplitl [Hheld]; · iexact Hheld
  isplitl [HG]; · iexact HG
  iintro ⟨%vo, %hvo, Hst, Hb, Hheld⟩
  -- the tail
  rw [← bind_pure (StableHlo.seq (ops3 (F := F)))]
  iapply (StableHlo.wp_seq 𝒱 none Set.univ d UC _ (ops3 (F := F)) ops3_sub ops3_fresh (V4 m d g vo)) $$ [Hb Hheld]
  · isplitl [Hb] <;> iassumption
  iintro ⟨Hb, Hheld⟩
  rw [show StableHlo.after (ops3 (F := F)) (V4 m d g vo) = V5 m d g vo from rfl]
  rw [wp_pure]; imodintro
  isplitl [Hst]; · iexact Hst
  iexists g; iexists vo
  isplitr; · ipureintro; exact hg
  isplitr; · ipureintro; exact hvo
  iexact Hheld

/-! ## The final memory reads the final valuation -/

/-- A set of arrays held whole against the state interpretation: the memory agrees with the valuation on each. -/
theorem held_agree (thr : Thread nD τ) (Sx : Finset (DevRef τ sig)) (W : Valuation τ sig (Elt F)) (s' : Phys nD τ sig (Elt F)) :
    iprop(held thr Sx W ∗ SI s') ⊢ (⌜∀ b ∈ Sx, s'.mem.mem (thr.1, b) = W b⌝ : sProp 𝕄) := by
  induction Sx using Finset.induction_on with
  | empty => exact BIClass.pure_intro (fun _ h => absurd h (Finset.notMem_empty _))
  | insert b Sx hb ih =>
    have e : (held thr (insert b Sx) W : sProp 𝕄) = iprop(((thr.1, b) ↦{fullShare} W b) ∗ held thr Sx W) := by
      unfold held; exact bigSep_insert hb
    rw [e]
    refine Laws.pure_elim _ ((BIClass.sep_mono sep_elim_left (BI.Entails.refl _)).trans (sep_comm.1.trans SI_pointsTo_agree)) fun h1 => ?_
    refine Laws.pure_elim _ ((BIClass.sep_mono sep_elim_right (BI.Entails.refl _)).trans ih) fun h2 => ?_
    exact BIClass.pure_intro fun b' hb' => by
      rcases Finset.mem_insert.mp hb' with rfl | h
      · exact funext fun i => h1 i (Finset.mem_univ i)
      · exact h2 b' h

def fq (d : Dev nD) (s' : Phys nD τ sig (Elt F)) : Prop :=
  ∃ g vo, OutZero d g ∧ TcOut d g vo ∧ ∀ b ∈ UC, s'.mem.mem (d, b) = V5 m d g vo b

theorem hfin (d : Dev nD) (s' : Phys nD τ sig (Elt F)) : iprop(FIN m TcOut d ∗ SI s') ⊢ (⌜fq m TcOut d s'⌝ : sProp 𝕄) := by
  iintro ⟨⟨%g, %vo, %hg, %hvo, Hh⟩, HSI⟩
  ihave H := (held_agree (T d) UC (V5 m d g vo) s') $$ [Hh HSI]
  · isplitl [Hh] <;> iassumption
  icases H with %h
  ipureintro; exact ⟨g, vo, hg, hvo, h⟩

/-! ## The program's run -/

/-- On every device: every unscoped array ends at the final valuation, for some result of the call with row 3 zero and
    some result of the region of which `TcOut` holds. -/
def QC : PUnit × MemSt nD τ sig (Elt F) → Prop := fun r =>
  ∀ c : Dev nD, ∃ g vo, OutZero c g ∧ TcOut c g vo ∧ ∀ b ∈ UC, r.2.mem (c, b) = V5 m c g vo b

theorem run_main [∀ e, Nonempty (Elt F e)] (hio : CallIO m) (hreg : RegionRule m TcOut)
    (htile : (K (F := F)).TileObl (D (F := F)) 𝒱 (P m (cvOf m)) v₀ 0) :
    θ_run (Cert.KernelIdeal.defs (F := F)) (Cert.KernelIdeal.threads (F := F)) ⟨m, fun _ => 0, ρ⟩ (QC m TcOut) :=
  SparseCore.Cfg.θ_run_sc (K := K (F := F)) (D := D (F := F)) (𝒱 := 𝒱) (EH := EH) (P := P m (cvOf m)) facts v₀
    (fun q hq => match q with | 0 => nomatch hq)
    (fun q _ => match q with | 0 => htile)
    (fun q _ => match q with | 0 => SparseCore.Cfg.VecSplit.of_plain (vecSplit m (cvOf m)))
    m ρ main (fun d => G (F := F) d) (FIN m TcOut) (u₀ (F := F)) (sep_elim_left.trans (hu₀ m (cvOf m))) (hmain m ρ TcOut hio hreg)
    (fq m TcOut) (hfin m TcOut) (QC m TcOut) (fun _ h => h)

end Cert.Proof.KI

end
-- ==== Proof.KITcBody.lean ====
/-
  The TensorCore kernel body's triple.

  The body starts fourteen local copies, each on a DMA semaphore of its own (the neighbour states and W_func1 whole,
  W_local, W_dist and W_func2 each in four chunks of 512 rows, from a slice of the HBM array into the same slice of a
  VMEM scratch), reads its staged operands, and waits for each copy just before the first load of the rows it
  delivers; no destination is read before its own wait and no source is written. One transfer at a time per
  semaphore: each is the schedule-free protocol of the counters ghost state, its wait admissible under what the
  thread owes by the evidence carried in the precondition. A copy into a chunk of a scratch borrows that chunk's
  elements only, so the four chunks of one scratch are in flight together and each comes back with its own wait; what
  the body stores is therefore one function of the contents of its operands, `tcOut`.
-/
import proofs.«211217_g68642167325227_cont_9to1_m_1168_22_alg».proof.Proof.KICommon
import Idealize.ShloMosaic.Lib.Pipeline.FrameBody
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [Cert.KernelIdeal.Facts]

local notation "𝕄" => MT nD τ sig (HIx 1) (Elt F) ℕ UU ℕ

/-- The kernel's k-th DMA semaphore (the semaphore scratch's cells are the pool's 14..27). -/
abbrev tcSem (k : Fin 14) : DmaSem sig := ⟨14 + k.val, by have := k.isLt; show 14 + k.val < 28; omega⟩

/-- The fourteen semaphores' counters at zero. -/
def tcSems (c : Dev nD) : sProp 𝕄 :=
  iprop(semVal ((c.tc : Thread nD τ), SemLoc.dma (tcSem 0)) 0 ∗ semVal ((c.tc : Thread nD τ), SemLoc.dma (tcSem 1)) 0
    ∗ semVal ((c.tc : Thread nD τ), SemLoc.dma (tcSem 2)) 0 ∗ semVal ((c.tc : Thread nD τ), SemLoc.dma (tcSem 3)) 0
    ∗ semVal ((c.tc : Thread nD τ), SemLoc.dma (tcSem 4)) 0 ∗ semVal ((c.tc : Thread nD τ), SemLoc.dma (tcSem 5)) 0
    ∗ semVal ((c.tc : Thread nD τ), SemLoc.dma (tcSem 6)) 0 ∗ semVal ((c.tc : Thread nD τ), SemLoc.dma (tcSem 7)) 0
    ∗ semVal ((c.tc : Thread nD τ), SemLoc.dma (tcSem 8)) 0 ∗ semVal ((c.tc : Thread nD τ), SemLoc.dma (tcSem 9)) 0
    ∗ semVal ((c.tc : Thread nD τ), SemLoc.dma (tcSem 10)) 0 ∗ semVal ((c.tc : Thread nD τ), SemLoc.dma (tcSem 11)) 0
    ∗ semVal ((c.tc : Thread nD τ), SemLoc.dma (tcSem 12)) 0 ∗ semVal ((c.tc : Thread nD τ), SemLoc.dma (tcSem 13)) 0)

/-- A TensorCore array held whole. -/
abbrev heldW (c : Dev nD) (b : Ref sig .tc) (q : PosShare TreeShare) (f : b.ty.Contents (Elt F)) : sProp 𝕄 :=
  (Memref.whole b).view.loc (c.tc : Thread nD τ) ↦{q} f

/-- The nine staged inputs, each owned at its contents. -/
def tcIns (c : Dev nD) (arg0 : Memref sig .tc .smem S1x1 .i32) (arg1 : Memref sig .tc .vmem S1x1024 .f32) (arg2 : Memref sig .tc .vmem S1x512 .i32) (arg3 : Memref sig .tc .vmem S1x3 .f32) (arg4 : Memref sig .tc .vmem S2048x3 .f32) (arg5 arg6 arg7 arg8 : Memref sig .tc .vmem S1x1024 .f32)
    (x0 : Vec F S1x1 .i32) (x1 : Vec F S1x1024 .f32) (x2 : Vec F S1x512 .i32) (x3 : Vec F S1x3 .f32) (x4 : Vec F S2048x3 .f32)
    (x5 x6 x7 x8 : Vec F S1x1024 .f32) : sProp 𝕄 :=
  iprop(owns (c.tc : Thread nD τ) arg0 fullShare x0 ∗ owns (c.tc : Thread nD τ) arg1 fullShare x1 ∗ owns (c.tc : Thread nD τ) arg2 fullShare x2
    ∗ owns (c.tc : Thread nD τ) arg3 fullShare x3 ∗ owns (c.tc : Thread nD τ) arg4 fullShare x4 ∗ owns (c.tc : Thread nD τ) arg5 fullShare x5
    ∗ owns (c.tc : Thread nD τ) arg6 fullShare x6 ∗ owns (c.tc : Thread nD τ) arg7 fullShare x7 ∗ owns (c.tc : Thread nD τ) arg8 fullShare x8)

/-- The five HBM arrays the kernel copies from, each held whole at share `q`. -/
def tcHbm (c : Dev nD) (q : PosShare TreeShare)
    (a1 : main_arg1.ty.Contents (Elt F)) (a6 : main_arg6.ty.Contents (Elt F)) (a4 : main_arg4.ty.Contents (Elt F))
    (a10 : main_arg10.ty.Contents (Elt F)) (a8 : main_arg8.ty.Contents (Elt F)) : sProp 𝕄 :=
  iprop(heldW c main_arg1 q a1 ∗ heldW c main_arg6 q a6 ∗ heldW c main_arg4 q a4 ∗ heldW c main_arg10 q a10 ∗ heldW c main_arg8 q a8)

/-- The five VMEM scratch buffers, each held whole at some contents. -/
def tcScr (c : Dev nD) : sProp 𝕄 :=
  iprop((∃ f, heldW c cc1_scratch0 fullShare f) ∗ (∃ f, heldW c cc1_scratch1 fullShare f) ∗ (∃ f, heldW c cc1_scratch2 fullShare f)
    ∗ (∃ f, heldW c cc1_scratch3 fullShare f) ∗ (∃ f, heldW c cc1_scratch4 fullShare f))

/-! ## What the body stores, as one function of what it loads -/

/-- The rectangles the body loads through: each staged operand whole, the neighbour states and W_func1 whole, and the
    four chunks of 512 rows of the three expert weights. -/
abbrev rCell : Rect S1x1 := Rect.unit (s := S1x1) ![0, 0] S1x1.size inb_S1x1_S1x1_0_0
abbrev rNbr : Rect S1x512 := Rect.unit (s := S1x512) ![0, 0] S1x512.size inb_S1x512_S1x512_0_0
abbrev rRow : Rect S1x1024 := Rect.unit (s := S1x1024) ![0, 0] S1x1024.size inb_S1x1024_S1x1024_0_0
abbrev rBg : Rect S1x3 := Rect.unit (s := S1x3) ![0, 0] S1x3.size inb_S1x3_S1x3_0_0
abbrev rWg : Rect S2048x3 := Rect.unit (s := S2048x3) ![0, 0] S2048x3.size inb_S2048x3_S2048x3_0_0
abbrev rNs : Rect S512x1024 := Rect.unit (s := S512x1024) ![0, 0] S512x1024.size inb_S512x1024_S512x1024_0_0
abbrev rW1 : Rect S1024x1024 := Rect.unit (s := S1024x1024) ![0, 0] S1024x1024.size inb_S1024x1024_S1024x1024_0_0
abbrev rC0 : Rect S2048x1024 := Rect.unit (s := S2048x1024) ![0, 0] S512x1024.size inb_S2048x1024_S512x1024_0_0
abbrev rC1 : Rect S2048x1024 := Rect.unit (s := S2048x1024) ![512, 0] S512x1024.size inb_S2048x1024_S512x1024_512_0
abbrev rC2 : Rect S2048x1024 := Rect.unit (s := S2048x1024) ![1024, 0] S512x1024.size inb_S2048x1024_S512x1024_1024_0
abbrev rC3 : Rect S2048x1024 := Rect.unit (s := S2048x1024) ![1536, 0] S512x1024.size inb_S2048x1024_S512x1024_1536_0

/-- The values the body loads, in program order, named after the values of the printed body: the neighbour indices
    (`v52`), the cell index (`v71`), the current state (`v128`), the neighbour states from their scratch (`v134`, and
    again `v170`), the gate's weights and bias (`v150`, `v152`), W_func1 from its scratch (`v171`), b_func1 (`v173`),
    the four chunks of W_local (`v190` … `v214`), of W_dist (`v223` … `v247`) and of W_func2 (`v256` … `v280`) from
    their scratch buffers, b_local (`v283`), b_func2 (`v292`) and b_dist (`v301`). -/
structure TcIn (F : FTy → Type) where
  v52 : Vec F S1x512 .i32
  v71 : Elt F .i32
  v128 : Vec F S1x1024 .f32
  v134 : Vec F S512x1024 .f32
  v150 : Vec F S2048x3 .f32
  v152 : Vec F S1x3 .f32
  v170 : Vec F S512x1024 .f32
  v171 : Vec F S1024x1024 .f32
  v173 : Vec F S1x1024 .f32
  v190 : Vec F S512x1024 .f32
  v198 : Vec F S512x1024 .f32
  v206 : Vec F S512x1024 .f32
  v214 : Vec F S512x1024 .f32
  v223 : Vec F S512x1024 .f32
  v231 : Vec F S512x1024 .f32
  v239 : Vec F S512x1024 .f32
  v247 : Vec F S512x1024 .f32
  v256 : Vec F S512x1024 .f32
  v264 : Vec F S512x1024 .f32
  v272 : Vec F S512x1024 .f32
  v280 : Vec F S512x1024 .f32
  v283 : Vec F S1x1024 .f32
  v292 : Vec F S1x1024 .f32
  v301 : Vec F S1x1024 .f32

namespace TcIn

variable (I : TcIn F)

/-! Lattice coordinates of the neighbours and of the cell; the squared distances. -/
def v62 : FVec F S1x512 .f32 := k1_pay4 I.v52
def v77 : F .f32 := k1_pay8 I.v71
def v85 : FVec F S1x512 .f32 := k1_pay10 I.v52 I.v71
def v87 : FVec F S1x512 .f32 := k1_pay11 I.v52 I.v71
/-! The three masks, their counts and flags; the current state. -/
def v97 : FVec F S1x512 .f32 := k1_pay13 I.v62 I.v77 I.v85 I.v87
def v101 : FVec F S1x512 .f32 := k1_pay14 I.v62 I.v77 I.v85 I.v87
def v106 : FVec F S1x512 .f32 := k1_pay15 I.v62 I.v77 I.v85 I.v87
def v110 : F .f32 := k1_pay16 I.v62 I.v77 I.v85 I.v87
def v114 : F .f32 := k1_pay17 I.v62 I.v77 I.v85 I.v87
def v118 : F .f32 := k1_pay18 I.v62 I.v77 I.v85 I.v87
def v121 : F .f32 := k1_pay19 I.v62 I.v77 I.v85 I.v87
def v124 : F .f32 := k1_pay20 I.v62 I.v77 I.v85 I.v87
def v127 : F .f32 := k1_pay21 I.v62 I.v77 I.v85 I.v87
def v129 : FVec F S1x1024 .f32 := k1_pay22 I.v128
def v132 (_ : TcIn F) : FVec F S1x512 .f32 := k1_pay23 (F := F)
/-! The aggregates over the neighbour states, the two expert inputs built from them, the gate. -/
def v147 : FVec F S1x2048 .f32 := k1_pay25 I.v97 I.v101 I.v110 I.v129 I.v132 I.v134
def v148 : FVec F S1x2048 .f32 := k1_pay26 I.v97 I.v101 I.v114 I.v129 I.v132 I.v134
def v167 : FVec F S1x3 .f32 := k1_pay27 I.v97 I.v101 I.v129 I.v132 I.v134 I.v150 I.v152
def cst92 (_ : TcIn F) : FVec F S512x1024 .f32 := constant S512x1024 .f32 0x00000000#32
/-! The functional expert's input; the local expert's chunked product. -/
def v183 : FVec F S1x2048 .f32 := k1_pay28 I.v106 I.v118 I.v129 I.v170 I.v171 I.cst92 I.v173
def v200 : FVec F S1x1024 .f32 := k1_pay29 I.v147 I.v190 I.v198
def v216 : FVec F S1x1024 .f32 := k1_pay30 I.v147 I.v200 I.v206 I.v214
/-! The distant expert's chunked product. -/
def v225 : FVec F S1x1024 .f32 := k1_pay31 I.v148 I.v223
def v230 : FVec F S1x512 .f32 := k1_pay32 I.v148
def v249 : FVec F S1x1024 .f32 := k1_pay33 I.v148 I.v225 I.v230 I.v231 I.v239 I.v247
/-! The functional expert's chunked product; the local expert's output. -/
def v258 : FVec F S1x1024 .f32 := k1_pay34 I.v183 I.v256
def v282 : FVec F S1x1024 .f32 := k1_pay35 I.v183 I.v258 I.v264 I.v272 I.v280
def v291 : FVec F S1x1024 .f32 := k1_pay36 I.v121 I.v167 I.v216 I.v283
/-- The vector the body stores: the gated sum of the three experts' outputs. -/
def out : Vec F S1x1024 .f32 := k1_pay1 I.v124 I.v127 I.v167 I.v249 I.v282 I.v291 I.v292 I.v301

end TcIn

/-- What the body loads, from the contents of its operands: the cell index word `x0`, the eight staged vectors `x1` …
    `x8` (current state, neighbour indices, gate bias, gate weights, the biases of func1, local, func2, dist) and the
    five HBM arrays (neighbour states `a1`, W_func1 `a6`, W_local `a4`, W_dist `a10`, W_func2 `a8`); a scratch buffer
    reads as the array copied into it. -/
def tcLoads (x0 : Vec F S1x1 .i32) (x1 : Vec F S1x1024 .f32) (x2 : Vec F S1x512 .i32) (x3 : Vec F S1x3 .f32) (x4 : Vec F S2048x3 .f32)
    (x5 x6 x7 x8 : Vec F S1x1024 .f32) (a1 : main_arg1.ty.Contents (Elt F)) (a6 : main_arg6.ty.Contents (Elt F)) (a4 : main_arg4.ty.Contents (Elt F))
    (a10 : main_arg10.ty.Contents (Elt F)) (a8 : main_arg8.ty.Contents (Elt F)) : TcIn F where
  v52 := View.ld x2 rNbr
  v71 := View.ld x0 rCell (Shape.Idx.first (numel1_S1x1.symm ▸ Nat.one_pos))
  v128 := View.ld x1 rRow
  v134 := View.ld (a1 : Vec F S512x1024 .f32) rNs
  v150 := View.ld x4 rWg
  v152 := View.ld x3 rBg
  v170 := View.ld (a1 : Vec F S512x1024 .f32) rNs
  v171 := View.ld (a6 : Vec F S1024x1024 .f32) rW1
  v173 := View.ld x5 rRow
  v190 := View.ld (a4 : Vec F S2048x1024 .f32) rC0
  v198 := View.ld (a4 : Vec F S2048x1024 .f32) rC1
  v206 := View.ld (a4 : Vec F S2048x1024 .f32) rC2
  v214 := View.ld (a4 : Vec F S2048x1024 .f32) rC3
  v223 := View.ld (a10 : Vec F S2048x1024 .f32) rC0
  v231 := View.ld (a10 : Vec F S2048x1024 .f32) rC1
  v239 := View.ld (a10 : Vec F S2048x1024 .f32) rC2
  v247 := View.ld (a10 : Vec F S2048x1024 .f32) rC3
  v256 := View.ld (a8 : Vec F S2048x1024 .f32) rC0
  v264 := View.ld (a8 : Vec F S2048x1024 .f32) rC1
  v272 := View.ld (a8 : Vec F S2048x1024 .f32) rC2
  v280 := View.ld (a8 : Vec F S2048x1024 .f32) rC3
  v283 := View.ld x6 rRow
  v292 := View.ld x7 rRow
  v301 := View.ld x8 rRow

/-- The output staging buffer's final contents, from the contents of the body's operands. -/
def tcOut (x0 : Vec F S1x1 .i32) (x1 : Vec F S1x1024 .f32) (x2 : Vec F S1x512 .i32) (x3 : Vec F S1x3 .f32) (x4 : Vec F S2048x3 .f32)
    (x5 x6 x7 x8 : Vec F S1x1024 .f32) (a1 : main_arg1.ty.Contents (Elt F)) (a6 : main_arg6.ty.Contents (Elt F)) (a4 : main_arg4.ty.Contents (Elt F))
    (a10 : main_arg10.ty.Contents (Elt F)) (a8 : main_arg8.ty.Contents (Elt F)) : Vec F S1x1024 .f32 :=
  (tcLoads x0 x1 x2 x3 x4 x5 x6 x7 x8 a1 a6 a4 a10 a8).out

/-! ## What a load reads of a scratch a copy has landed in -/

/-- A scratch whose four chunks of 512 rows each hold the same rows of one array `G` reads, through a box inside one
    chunk, `G` at the box. -/
theorem leafC (v : View sig .tc .vmem S2048x1024 .f32) (G : Vec F S2048x1024 .f32) (p0 p1 p2 p3 : Vec F S512x1024 .f32)
    (h0 : p0 = View.ld G rC0) (h1 : p1 = View.ld G rC1) (h2 : p2 = View.ld G rC2) (h3 : p3 = View.ld G rC3)
    (B : Rect S2048x1024) (hB : (LoadRect.within rC0 B.toLoadRect || LoadRect.within rC1 B.toLoadRect
      || LoadRect.within rC2 B.toLoadRect || LoadRect.within rC3 B.toLoadRect) = true) :
    v.readCov [⟨rC3, p3⟩, ⟨rC2, p2⟩, ⟨rC1, p1⟩, ⟨rC0, p0⟩] B.toLoadRect = View.ld G B := by
  subst h0 h1 h2 h3
  rw [View.readCov_eq_canon']
  funext j
  show View.canon _ (B.idx j) = G (B.idx j)
  refine View.canon_apply_of_pieces G _ ?_ _ ?_
  · intro p hp x
    simp only [List.mem_cons, List.mem_nil_iff, or_false] at hp
    rcases hp with rfl | rfl | rfl | rfl <;> rfl
  · simp only [Bool.or_eq_true] at hB
    rcases hB with ((hB | hB) | hB) | hB
    · exact ⟨⟨rC0, View.ld G rC0⟩, by simp, LoadRect.idx_mem_of_within hB j⟩
    · exact ⟨⟨rC1, View.ld G rC1⟩, by simp, LoadRect.idx_mem_of_within hB j⟩
    · exact ⟨⟨rC2, View.ld G rC2⟩, by simp, LoadRect.idx_mem_of_within hB j⟩
    · exact ⟨⟨rC3, View.ld G rC3⟩, by simp, LoadRect.idx_mem_of_within hB j⟩

/-- The neighbour states' scratch, filled whole by its copy, reads back as the array. -/
theorem leafW0 (a1 : main_arg1.ty.Contents (Elt F)) (g0 : cc1_scratch0.ty.Contents (Elt F)) :
    View.readAt (Elt F) (Memref.whole cc1_scratch0).view rNs.toLoadRect
      (View.write (Elt F) (Memref.whole cc1_scratch0).view g0 (ReadAs.same.apply (View.read (Elt F) (Memref.whole main_arg1).view a1)) Finset.univ)
    = View.ld (a1 : Vec F S512x1024 .f32) rNs := by
  rw [View.readAt_eq_ld, View.read_write_univ]; rfl

/-- W_func1's scratch likewise. -/
theorem leafW1 (a6 : main_arg6.ty.Contents (Elt F)) (g1 : cc1_scratch1.ty.Contents (Elt F)) :
    View.readAt (Elt F) (Memref.whole cc1_scratch1).view rW1.toLoadRect
      (View.write (Elt F) (Memref.whole cc1_scratch1).view g1 (ReadAs.same.apply (View.read (Elt F) (Memref.whole main_arg6).view a6)) Finset.univ)
    = View.ld (a6 : Vec F S1024x1024 .f32) rW1 := by
  rw [View.readAt_eq_ld, View.read_write_univ]; rfl

/-! The three expert weights' scratch buffers, chunk by chunk. -/
theorem leafC2_0 (a : main_arg4.ty.Contents (Elt F)) :
    (Memref.whole cc1_scratch2).view.readCov
      [⟨rC3, ReadAs.same.apply (View.read (Elt F) ((Memref.whole main_arg4).slice rC3 (fun _ => rfl)).view a)⟩,
        ⟨rC2, ReadAs.same.apply (View.read (Elt F) ((Memref.whole main_arg4).slice rC2 (fun _ => rfl)).view a)⟩,
        ⟨rC1, ReadAs.same.apply (View.read (Elt F) ((Memref.whole main_arg4).slice rC1 (fun _ => rfl)).view a)⟩,
        ⟨rC0, ReadAs.same.apply (View.read (Elt F) ((Memref.whole main_arg4).slice rC0 (fun _ => rfl)).view a)⟩] rC0.toLoadRect
      = View.ld (a : Vec F S2048x1024 .f32) rC0 :=
  leafC _ (a : Vec F S2048x1024 .f32) _ _ _ _ rfl rfl rfl rfl rC0 (by decide)
theorem leafC2_1 (a : main_arg4.ty.Contents (Elt F)) :
    (Memref.whole cc1_scratch2).view.readCov
      [⟨rC3, ReadAs.same.apply (View.read (Elt F) ((Memref.whole main_arg4).slice rC3 (fun _ => rfl)).view a)⟩,
        ⟨rC2, ReadAs.same.apply (View.read (Elt F) ((Memref.whole main_arg4).slice rC2 (fun _ => rfl)).view a)⟩,
        ⟨rC1, ReadAs.same.apply (View.read (Elt F) ((Memref.whole main_arg4).slice rC1 (fun _ => rfl)).view a)⟩,
        ⟨rC0, ReadAs.same.apply (View.read (Elt F) ((Memref.whole main_arg4).slice rC0 (fun _ => rfl)).view a)⟩] rC1.toLoadRect
      = View.ld (a : Vec F S2048x1024 .f32) rC1 :=
  leafC _ (a : Vec F S2048x1024 .f32) _ _ _ _ rfl rfl rfl rfl rC1 (by decide)
theorem leafC2_2 (a : main_arg4.ty.Contents (Elt F)) :
    (Memref.whole cc1_scratch2).view.readCov
      [⟨rC3, ReadAs.same.apply (View.read (Elt F) ((Memref.whole main_arg4).slice rC3 (fun _ => rfl)).view a)⟩,
        ⟨rC2, ReadAs.same.apply (View.read (Elt F) ((Memref.whole main_arg4).slice rC2 (fun _ => rfl)).view a)⟩,
        ⟨rC1, ReadAs.same.apply (View.read (Elt F) ((Memref.whole main_arg4).slice rC1 (fun _ => rfl)).view a)⟩,
        ⟨rC0, ReadAs.same.apply (View.read (Elt F) ((Memref.whole main_arg4).slice rC0 (fun _ => rfl)).view a)⟩] rC2.toLoadRect
      = View.ld (a : Vec F S2048x1024 .f32) rC2 :=
  leafC _ (a : Vec F S2048x1024 .f32) _ _ _ _ rfl rfl rfl rfl rC2 (by decide)
theorem leafC2_3 (a : main_arg4.ty.Contents (Elt F)) :
    (Memref.whole cc1_scratch2).view.readCov
      [⟨rC3, ReadAs.same.apply (View.read (Elt F) ((Memref.whole main_arg4).slice rC3 (fun _ => rfl)).view a)⟩,
        ⟨rC2, ReadAs.same.apply (View.read (Elt F) ((Memref.whole main_arg4).slice rC2 (fun _ => rfl)).view a)⟩,
        ⟨rC1, ReadAs.same.apply (View.read (Elt F) ((Memref.whole main_arg4).slice rC1 (fun _ => rfl)).view a)⟩,
        ⟨rC0, ReadAs.same.apply (View.read (Elt F) ((Memref.whole main_arg4).slice rC0 (fun _ => rfl)).view a)⟩] rC3.toLoadRect
      = View.ld (a : Vec F S2048x1024 .f32) rC3 :=
  leafC _ (a : Vec F S2048x1024 .f32) _ _ _ _ rfl rfl rfl rfl rC3 (by decide)
theorem leafC3_0 (a : main_arg10.ty.Contents (Elt F)) :
    (Memref.whole cc1_scratch3).view.readCov
      [⟨rC3, ReadAs.same.apply (View.read (Elt F) ((Memref.whole main_arg10).slice rC3 (fun _ => rfl)).view a)⟩,
        ⟨rC2, ReadAs.same.apply (View.read (Elt F) ((Memref.whole main_arg10).slice rC2 (fun _ => rfl)).view a)⟩,
        ⟨rC1, ReadAs.same.apply (View.read (Elt F) ((Memref.whole main_arg10).slice rC1 (fun _ => rfl)).view a)⟩,
        ⟨rC0, ReadAs.same.apply (View.read (Elt F) ((Memref.whole main_arg10).slice rC0 (fun _ => rfl)).view a)⟩] rC0.toLoadRect
      = View.ld (a : Vec F S2048x1024 .f32) rC0 :=
  leafC _ (a : Vec F S2048x1024 .f32) _ _ _ _ rfl rfl rfl rfl rC0 (by decide)
theorem leafC3_1 (a : main_arg10.ty.Contents (Elt F)) :
    (Memref.whole cc1_scratch3).view.readCov
      [⟨rC3, ReadAs.same.apply (View.read (Elt F) ((Memref.whole main_arg10).slice rC3 (fun _ => rfl)).view a)⟩,
        ⟨rC2, ReadAs.same.apply (View.read (Elt F) ((Memref.whole main_arg10).slice rC2 (fun _ => rfl)).view a)⟩,
        ⟨rC1, ReadAs.same.apply (View.read (Elt F) ((Memref.whole main_arg10).slice rC1 (fun _ => rfl)).view a)⟩,
        ⟨rC0, ReadAs.same.apply (View.read (Elt F) ((Memref.whole main_arg10).slice rC0 (fun _ => rfl)).view a)⟩] rC1.toLoadRect
      = View.ld (a : Vec F S2048x1024 .f32) rC1 :=
  leafC _ (a : Vec F S2048x1024 .f32) _ _ _ _ rfl rfl rfl rfl rC1 (by decide)
theorem leafC3_2 (a : main_arg10.ty.Contents (Elt F)) :
    (Memref.whole cc1_scratch3).view.readCov
      [⟨rC3, ReadAs.same.apply (View.read (Elt F) ((Memref.whole main_arg10).slice rC3 (fun _ => rfl)).view a)⟩,
        ⟨rC2, ReadAs.same.apply (View.read (Elt F) ((Memref.whole main_arg10).slice rC2 (fun _ => rfl)).view a)⟩,
        ⟨rC1, ReadAs.same.apply (View.read (Elt F) ((Memref.whole main_arg10).slice rC1 (fun _ => rfl)).view a)⟩,
        ⟨rC0, ReadAs.same.apply (View.read (Elt F) ((Memref.whole main_arg10).slice rC0 (fun _ => rfl)).view a)⟩] rC2.toLoadRect
      = View.ld (a : Vec F S2048x1024 .f32) rC2 :=
  leafC _ (a : Vec F S2048x1024 .f32) _ _ _ _ rfl rfl rfl rfl rC2 (by decide)
theorem leafC3_3 (a : main_arg10.ty.Contents (Elt F)) :
    (Memref.whole cc1_scratch3).view.readCov
      [⟨rC3, ReadAs.same.apply (View.read (Elt F) ((Memref.whole main_arg10).slice rC3 (fun _ => rfl)).view a)⟩,
        ⟨rC2, ReadAs.same.apply (View.read (Elt F) ((Memref.whole main_arg10).slice rC2 (fun _ => rfl)).view a)⟩,
        ⟨rC1, ReadAs.same.apply (View.read (Elt F) ((Memref.whole main_arg10).slice rC1 (fun _ => rfl)).view a)⟩,
        ⟨rC0, ReadAs.same.apply (View.read (Elt F) ((Memref.whole main_arg10).slice rC0 (fun _ => rfl)).view a)⟩] rC3.toLoadRect
      = View.ld (a : Vec F S2048x1024 .f32) rC3 :=
  leafC _ (a : Vec F S2048x1024 .f32) _ _ _ _ rfl rfl rfl rfl rC3 (by decide)
theorem leafC4_0 (a : main_arg8.ty.Contents (Elt F)) :
    (Memref.whole cc1_scratch4).view.readCov
      [⟨rC3, ReadAs.same.apply (View.read (Elt F) ((Memref.whole main_arg8).slice rC3 (fun _ => rfl)).view a)⟩,
        ⟨rC2, ReadAs.same.apply (View.read (Elt F) ((Memref.whole main_arg8).slice rC2 (fun _ => rfl)).view a)⟩,
        ⟨rC1, ReadAs.same.apply (View.read (Elt F) ((Memref.whole main_arg8).slice rC1 (fun _ => rfl)).view a)⟩,
        ⟨rC0, ReadAs.same.apply (View.read (Elt F) ((Memref.whole main_arg8).slice rC0 (fun _ => rfl)).view a)⟩] rC0.toLoadRect
      = View.ld (a : Vec F S2048x1024 .f32) rC0 :=
  leafC _ (a : Vec F S2048x1024 .f32) _ _ _ _ rfl rfl rfl rfl rC0 (by decide)
theorem leafC4_1 (a : main_arg8.ty.Contents (Elt F)) :
    (Memref.whole cc1_scratch4).view.readCov
      [⟨rC3, ReadAs.same.apply (View.read (Elt F) ((Memref.whole main_arg8).slice rC3 (fun _ => rfl)).view a)⟩,
        ⟨rC2, ReadAs.same.apply (View.read (Elt F) ((Memref.whole main_arg8).slice rC2 (fun _ => rfl)).view a)⟩,
        ⟨rC1, ReadAs.same.apply (View.read (Elt F) ((Memref.whole main_arg8).slice rC1 (fun _ => rfl)).view a)⟩,
        ⟨rC0, ReadAs.same.apply (View.read (Elt F) ((Memref.whole main_arg8).slice rC0 (fun _ => rfl)).view a)⟩] rC1.toLoadRect
      = View.ld (a : Vec F S2048x1024 .f32) rC1 :=
  leafC _ (a : Vec F S2048x1024 .f32) _ _ _ _ rfl rfl rfl rfl rC1 (by decide)
theorem leafC4_2 (a : main_arg8.ty.Contents (Elt F)) :
    (Memref.whole cc1_scratch4).view.readCov
      [⟨rC3, ReadAs.same.apply (View.read (Elt F) ((Memref.whole main_arg8).slice rC3 (fun _ => rfl)).view a)⟩,
        ⟨rC2, ReadAs.same.apply (View.read (Elt F) ((Memref.whole main_arg8).slice rC2 (fun _ => rfl)).view a)⟩,
        ⟨rC1, ReadAs.same.apply (View.read (Elt F) ((Memref.whole main_arg8).slice rC1 (fun _ => rfl)).view a)⟩,
        ⟨rC0, ReadAs.same.apply (View.read (Elt F) ((Memref.whole main_arg8).slice rC0 (fun _ => rfl)).view a)⟩] rC2.toLoadRect
      = View.ld (a : Vec F S2048x1024 .f32) rC2 :=
  leafC _ (a : Vec F S2048x1024 .f32) _ _ _ _ rfl rfl rfl rfl rC2 (by decide)
theorem leafC4_3 (a : main_arg8.ty.Contents (Elt F)) :
    (Memref.whole cc1_scratch4).view.readCov
      [⟨rC3, ReadAs.same.apply (View.read (Elt F) ((Memref.whole main_arg8).slice rC3 (fun _ => rfl)).view a)⟩,
        ⟨rC2, ReadAs.same.apply (View.read (Elt F) ((Memref.whole main_arg8).slice rC2 (fun _ => rfl)).view a)⟩,
        ⟨rC1, ReadAs.same.apply (View.read (Elt F) ((Memref.whole main_arg8).slice rC1 (fun _ => rfl)).view a)⟩,
        ⟨rC0, ReadAs.same.apply (View.read (Elt F) ((Memref.whole main_arg8).slice rC0 (fun _ => rfl)).view a)⟩] rC3.toLoadRect
      = View.ld (a : Vec F S2048x1024 .f32) rC3 :=
  leafC _ (a : Vec F S2048x1024 .f32) _ _ _ _ rfl rfl rfl rfl rC3 (by decide)

/-! ## The triple -/

set_option maxHeartbeats 2000000 in
set_option maxRecDepth 65536 in
set_option sl_exec.dmaWindow true in
/-- THE BODY'S TRIPLE: from the nine staged inputs owned at their contents, the output staging buffer owned at any, the
    five HBM arrays held whole at a share `q`, the five scratch buffers held whole, the fourteen counters at zero, the
    evidence that the thread's waits are admissible and what it owes, the body runs to a continuation that is handed all
    of it back: the inputs and the HBM arrays as they were, the output buffer at `tcOut` of the operands' contents, the
    scratch at some contents, the counters at zero again, and the waits recorded at the kernels' index only. The stored
    vector is the payloads' composition `TcIn.out` at the values loaded, and a load of a scratch reads the array its
    copy brought. -/
theorem tc_body (c : Dev nD) (arg0 : Memref sig .tc .smem S1x1 .i32) (harg0 : arg0.IsWhole) (arg1 : Memref sig .tc .vmem S1x1024 .f32) (harg1 : arg1.IsWhole) (arg2 : Memref sig .tc .vmem S1x512 .i32) (harg2 : arg2.IsWhole) (arg3 : Memref sig .tc .vmem S1x3 .f32) (harg3 : arg3.IsWhole) (arg4 : Memref sig .tc .vmem S2048x3 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg14 : Memref sig .tc .vmem S1x1024 .f32) (harg14 : arg14.IsWhole)
    (x0 : Vec F S1x1 .i32) (x1 : Vec F S1x1024 .f32) (x2 : Vec F S1x512 .i32) (x3 : Vec F S1x3 .f32) (x4 : Vec F S2048x3 .f32)
    (x5 x6 x7 x8 : Vec F S1x1024 .f32) (q : PosShare TreeShare)
    (a1 : main_arg1.ty.Contents (Elt F)) (a6 : main_arg6.ty.Contents (Elt F)) (a4 : main_arg4.ty.Contents (Elt F))
    (a10 : main_arg10.ty.Contents (Elt F)) (a8 : main_arg8.ty.Contents (Elt F))
    (O : CellTallies nD τ sig (HIx 1)) (W : Waits sig (HIx 1)) (K : PUnit → sProp 𝕄) :
    iprop(tcIns c arg0 arg1 arg2 arg3 arg4 arg5 arg6 arg7 arg8 x0 x1 x2 x3 x4 x5 x6 x7 x8
        ∗ (∃ d, owns (c.tc : Thread nD τ) arg14 fullShare d)
        ∗ tcHbm c q a1 a6 a4 a10 a8 ∗ tcScr c ∗ tcSems c
        ∗ Transfers.MayWaits (c.tc : Thread nD τ) (none : HIx 1) O ∗ owes (c.tc : Thread nD τ) O W
        ∗ (iprop(tcIns c arg0 arg1 arg2 arg3 arg4 arg5 arg6 arg7 arg8 x0 x1 x2 x3 x4 x5 x6 x7 x8
            ∗ owns (c.tc : Thread nD τ) arg14 fullShare (tcOut x0 x1 x2 x3 x4 x5 x6 x7 x8 a1 a6 a4 a10 a8)
            ∗ tcHbm c q a1 a6 a4 a10 a8 ∗ tcScr c ∗ tcSems c
            ∗ ∃ W', ⌜∀ p ∈ W', p ∈ W ∨ p.2 = none⌝ ∗ owes (c.tc : Thread nD τ) O W') -∗ K ⟨⟩))
      ⊢ wp frame (wpE (defs₀ (F := F)) 𝒱₀ (c.tc : Thread nD τ) none) Set.univ (cc1__body arg0 harg0 arg1 harg1 arg2 harg2 arg3 harg3 arg4 harg4 arg5 harg5 arg6 harg6 arg7 harg7 arg8 harg8 (Memref.whole main_arg1) (Memref.isWhole_whole _) (Memref.whole main_arg6) (Memref.isWhole_whole _) (Memref.whole main_arg4) (Memref.isWhole_whole _) (Memref.whole main_arg10) (Memref.isWhole_whole _) (Memref.whole main_arg8) (Memref.isWhole_whole _) arg14 harg14 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5) K := by
  rw [cc1__body_eq_skeleton]; unfold cc1__body_skel
  rw [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton]
  unfold k1_part1_skel k1_part2_skel k1_part3_skel k1_part4_skel k1_part5_skel k1_part6_skel k1_part7_skel k1_part8_skel k1_part9_skel
  unfold tcIns tcHbm tcScr tcSems owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d14, %f14, -, H14⟩, ⟨A1, A6, A4, A10, A8⟩, ⟨⟨%g0, G0⟩, ⟨%g1, G1⟩, ⟨%g2, G2⟩, ⟨%g3, G3⟩, ⟨%g4, G4⟩⟩, ⟨S0, S1, S2, S3, S4, S5, S6, S7, S8, S9, S10, S11, S12, S13⟩, Hmw, HO, Hk⟩
  subst hf0 hf1 hf2 hf3 hf4 hf5 hf6 hf7 hf8
  sl_exec
  sl_step
  iapply Hk
  isplitl [H0 H1 H2 H3 H4 H5 H6 H7 H8]
  · isplitl [H0]
    · iexists f0; isplitr
      · ipureintro; rfl
      · iexact H0
    isplitl [H1]
    · iexists f1; isplitr
      · ipureintro; rfl
      · iexact H1
    isplitl [H2]
    · iexists f2; isplitr
      · ipureintro; rfl
      · iexact H2
    isplitl [H3]
    · iexists f3; isplitr
      · ipureintro; rfl
      · iexact H3
    isplitl [H4]
    · iexists f4; isplitr
      · ipureintro; rfl
      · iexact H4
    isplitl [H5]
    · iexists f5; isplitr
      · ipureintro; rfl
      · iexact H5
    isplitl [H6]
    · iexists f6; isplitr
      · ipureintro; rfl
      · iexact H6
    isplitl [H7]
    · iexists f7; isplitr
      · ipureintro; rfl
      · iexact H7
    iexists f8; isplitr
    · ipureintro; rfl
    · iexact H8
  isplitl [H14]
  · iexists _; isplitr
    swap; · iexact H14
    ipureintro
    rw [View.read_writes_eq_canon _ _ _ (fun y => ⟨_, List.mem_singleton_self _, View.mem_set_unit_zero (by funext i; fin_cases i <;> rfl) inb_S1x1024_S1x1024_0_0 y⟩),
      View.canon_unit_zero (by funext i; fin_cases i <;> rfl)]
    unfold tcOut tcLoads
    -- each load of a scratch reads the array copied into it
    rw [show tc_body.sl.v134 a1 g0 = View.ld (a1 : Vec F S512x1024 .f32) rNs from leafW0 a1 g0,
      show tc_body.sl.v171 a6 g1 = View.ld (a6 : Vec F S1024x1024 .f32) rW1 from leafW1 a6 g1,
      show tc_body.sl.v190 a4 = View.ld (a4 : Vec F S2048x1024 .f32) rC0 from leafC2_0 a4,
      show tc_body.sl.v198 a4 = View.ld (a4 : Vec F S2048x1024 .f32) rC1 from leafC2_1 a4,
      show tc_body.sl.v206 a4 = View.ld (a4 : Vec F S2048x1024 .f32) rC2 from leafC2_2 a4,
      show tc_body.sl.v214 a4 = View.ld (a4 : Vec F S2048x1024 .f32) rC3 from leafC2_3 a4,
      show tc_body.sl.v223 a10 = View.ld (a10 : Vec F S2048x1024 .f32) rC0 from leafC3_0 a10,
      show tc_body.sl.v231 a10 = View.ld (a10 : Vec F S2048x1024 .f32) rC1 from leafC3_1 a10,
      show tc_body.sl.v239 a10 = View.ld (a10 : Vec F S2048x1024 .f32) rC2 from leafC3_2 a10,
      show tc_body.sl.v247 a10 = View.ld (a10 : Vec F S2048x1024 .f32) rC3 from leafC3_3 a10,
      show tc_body.sl.v256 a8 = View.ld (a8 : Vec F S2048x1024 .f32) rC0 from leafC4_0 a8,
      show tc_body.sl.v264 a8 = View.ld (a8 : Vec F S2048x1024 .f32) rC1 from leafC4_1 a8,
      show tc_body.sl.v272 a8 = View.ld (a8 : Vec F S2048x1024 .f32) rC2 from leafC4_2 a8,
      show tc_body.sl.v280 a8 = View.ld (a8 : Vec F S2048x1024 .f32) rC3 from leafC4_3 a8,
      show tc_body.sl.r c arg0 f0 = View.ld (View.read (Elt F) arg0.view f0) rCell (Shape.Idx.first (numel1_S1x1.symm ▸ Nat.one_pos)) from rfl,
      show View.readAt (Elt F) arg2.view rNbr.toLoadRect f2 = View.ld (View.read (Elt F) arg2.view f2) rNbr from rfl,
      show View.readAt (Elt F) arg1.view rRow.toLoadRect f1 = View.ld (View.read (Elt F) arg1.view f1) rRow from rfl,
      show View.readAt (Elt F) arg4.view rWg.toLoadRect f4 = View.ld (View.read (Elt F) arg4.view f4) rWg from rfl,
      show View.readAt (Elt F) arg3.view rBg.toLoadRect f3 = View.ld (View.read (Elt F) arg3.view f3) rBg from rfl,
      show View.readAt (Elt F) arg5.view rRow.toLoadRect f5 = View.ld (View.read (Elt F) arg5.view f5) rRow from rfl,
      show View.readAt (Elt F) arg6.view rRow.toLoadRect f6 = View.ld (View.read (Elt F) arg6.view f6) rRow from rfl,
      show View.readAt (Elt F) arg7.view rRow.toLoadRect f7 = View.ld (View.read (Elt F) arg7.view f7) rRow from rfl,
      show View.readAt (Elt F) arg8.view rRow.toLoadRect f8 = View.ld (View.read (Elt F) arg8.view f8) rRow from rfl]
    -- with the loaded values as atoms, the stored vector is `TcIn.out` of them by definition
    generalize View.ld (View.read (Elt F) arg2.view f2) rNbr = L52
    generalize View.ld (View.read (Elt F) arg0.view f0) rCell (Shape.Idx.first (numel1_S1x1.symm ▸ Nat.one_pos)) = L71
    generalize View.ld (View.read (Elt F) arg1.view f1) rRow = L128
    generalize View.ld (a1 : Vec F S512x1024 .f32) rNs = L134
    generalize View.ld (View.read (Elt F) arg4.view f4) rWg = L150
    generalize View.ld (View.read (Elt F) arg3.view f3) rBg = L152
    generalize View.ld (a6 : Vec F S1024x1024 .f32) rW1 = L171
    generalize View.ld (View.read (Elt F) arg5.view f5) rRow = L173
    generalize View.ld (a4 : Vec F S2048x1024 .f32) rC0 = L190
    generalize View.ld (a4 : Vec F S2048x1024 .f32) rC1 = L198
    generalize View.ld (a4 : Vec F S2048x1024 .f32) rC2 = L206
    generalize View.ld (a4 : Vec F S2048x1024 .f32) rC3 = L214
    generalize View.ld (a10 : Vec F S2048x1024 .f32) rC0 = L223
    generalize View.ld (a10 : Vec F S2048x1024 .f32) rC1 = L231
    generalize View.ld (a10 : Vec F S2048x1024 .f32) rC2 = L239
    generalize View.ld (a10 : Vec F S2048x1024 .f32) rC3 = L247
    generalize View.ld (a8 : Vec F S2048x1024 .f32) rC0 = L256
    generalize View.ld (a8 : Vec F S2048x1024 .f32) rC1 = L264
    generalize View.ld (a8 : Vec F S2048x1024 .f32) rC2 = L272
    generalize View.ld (a8 : Vec F S2048x1024 .f32) rC3 = L280
    generalize View.ld (View.read (Elt F) arg6.view f6) rRow = L283
    generalize View.ld (View.read (Elt F) arg7.view f7) rRow = L292
    generalize View.ld (View.read (Elt F) arg8.view f8) rRow = L301
    rfl
  isplitl [A1 A6 A4 A10 A8]
  · isplitl [A1]; · iexact A1
    isplitl [A6]; · iexact A6
    isplitl [A4]; · iexact A4
    isplitl [A10]; · iexact A10
    iexact A8
  isplitl [G0 G1 G2 G3 G4]
  · isplitl [G0]; · iexists _; iexact G0
    isplitl [G1]; · iexists _; iexact G1
    isplitl [G2]; · iexists _; iexact G2
    isplitl [G3]; · iexists _; iexact G3
    iexists _; iexact G4
  isplitl [S0 S1 S2 S3 S4 S5 S6 S7 S8 S9 S10 S11 S12 S13]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  iexists _; isplitr
  swap; · iexact HO
  ipureintro
  intro p hp
  simp only [Finset.mem_insert] at hp
  rcases hp with hp | hp | hp | hp | hp | hp | hp | hp | hp | hp | hp | hp | hp | hp | hp
  all_goals first | exact .inl hp | exact .inr (hp ▸ rfl)

/-- THE FRAME FORM: the same run with the output staging buffer's final contents forgotten. -/
theorem tc_body_frame (c : Dev nD) (arg0 : Memref sig .tc .smem S1x1 .i32) (harg0 : arg0.IsWhole) (arg1 : Memref sig .tc .vmem S1x1024 .f32) (harg1 : arg1.IsWhole) (arg2 : Memref sig .tc .vmem S1x512 .i32) (harg2 : arg2.IsWhole) (arg3 : Memref sig .tc .vmem S1x3 .f32) (harg3 : arg3.IsWhole) (arg4 : Memref sig .tc .vmem S2048x3 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg14 : Memref sig .tc .vmem S1x1024 .f32) (harg14 : arg14.IsWhole)
    (x0 : Vec F S1x1 .i32) (x1 : Vec F S1x1024 .f32) (x2 : Vec F S1x512 .i32) (x3 : Vec F S1x3 .f32) (x4 : Vec F S2048x3 .f32)
    (x5 x6 x7 x8 : Vec F S1x1024 .f32) (q : PosShare TreeShare)
    (a1 : main_arg1.ty.Contents (Elt F)) (a6 : main_arg6.ty.Contents (Elt F)) (a4 : main_arg4.ty.Contents (Elt F))
    (a10 : main_arg10.ty.Contents (Elt F)) (a8 : main_arg8.ty.Contents (Elt F))
    (O : CellTallies nD τ sig (HIx 1)) (W : Waits sig (HIx 1)) (K : PUnit → sProp 𝕄) :
    iprop(tcIns c arg0 arg1 arg2 arg3 arg4 arg5 arg6 arg7 arg8 x0 x1 x2 x3 x4 x5 x6 x7 x8
        ∗ (∃ d, owns (c.tc : Thread nD τ) arg14 fullShare d)
        ∗ tcHbm c q a1 a6 a4 a10 a8 ∗ tcScr c ∗ tcSems c
        ∗ Transfers.MayWaits (c.tc : Thread nD τ) (none : HIx 1) O ∗ owes (c.tc : Thread nD τ) O W
        ∗ (iprop(tcIns c arg0 arg1 arg2 arg3 arg4 arg5 arg6 arg7 arg8 x0 x1 x2 x3 x4 x5 x6 x7 x8
            ∗ (∃ d, owns (c.tc : Thread nD τ) arg14 fullShare d)
            ∗ tcHbm c q a1 a6 a4 a10 a8 ∗ tcScr c ∗ tcSems c
            ∗ ∃ W', ⌜∀ p ∈ W', p ∈ W ∨ p.2 = none⌝ ∗ owes (c.tc : Thread nD τ) O W') -∗ K ⟨⟩))
      ⊢ wp frame (wpE (defs₀ (F := F)) 𝒱₀ (c.tc : Thread nD τ) none) Set.univ (cc1__body arg0 harg0 arg1 harg1 arg2 harg2 arg3 harg3 arg4 harg4 arg5 harg5 arg6 harg6 arg7 harg7 arg8 harg8 (Memref.whole main_arg1) (Memref.isWhole_whole _) (Memref.whole main_arg6) (Memref.isWhole_whole _) (Memref.whole main_arg4) (Memref.isWhole_whole _) (Memref.whole main_arg10) (Memref.isWhole_whole _) (Memref.whole main_arg8) (Memref.isWhole_whole _) arg14 harg14 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5) K := by
  iintro ⟨Hi, Ho, Hh, Hs, Hm, Hmw, HO, Hk⟩
  iapply (tc_body c arg0 harg0 arg1 harg1 arg2 harg2 arg3 harg3 arg4 harg4 arg5 harg5 arg6 harg6 arg7 harg7 arg8 harg8 arg14 harg14
    x0 x1 x2 x3 x4 x5 x6 x7 x8 q a1 a6 a4 a10 a8 O W K)
  isplitl [Hi]; · iexact Hi
  isplitl [Ho]; · iexact Ho
  isplitl [Hh]; · iexact Hh
  isplitl [Hs]; · iexact Hs
  isplitl [Hm]; · iexact Hm
  isplitl [Hmw]; · iexact Hmw
  isplitl [HO]; · iexact HO
  iintro ⟨Hi, Ho, Hh, Hs, Hm, HW⟩
  iapply Hk
  isplitl [Hi]; · iexact Hi
  isplitl [Ho]; · iexists _; iexact Ho
  isplitl [Hh]; · iexact Hh
  isplitl [Hs]; · iexact Hs
  isplitl [Hm]; · iexact Hm
  iexact HW

end Cert.Proof.KI
end
-- ==== Proof.KIRegDefs.lean ====
/-
  The TensorCore kernel region of the idealized kernel inside its SparseCore program: the body's triple as a
  specification, and the pipeline's proof data over the unscoped arrays as the region finds them.  The region is gridless: every window's block is its
  whole array; nine windows are fetched, one (the result row) written back.  The body's own fourteen copies read five
  unscoped arrays that are no window's, into five scratch buffers, each on its own semaphore.
-/
import proofs.«211217_g68642167325227_cont_9to1_m_1168_22_alg».proof.Proof.KIRun
import proofs.«211217_g68642167325227_cont_9to1_m_1168_22_alg».proof.Proof.KITcBody
import proofs.«211217_g68642167325227_cont_9to1_m_1168_22_alg».proof.Proof.Gen.KernelIdeal.Launch
import proofs.«211217_g68642167325227_cont_9to1_m_1168_22_alg».proof.Proof.Gen.KernelIdeal.Points
import Idealize.ShloMosaic.Lib.Pipeline.FrameBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat BodyObligation)

variable {F : FTy → Type} [FloatOps F] [Named F] [Cert.KernelIdeal.Facts]

local notation "𝕄" => MT nD τ sig (HIx 1) (Elt F) ℕ UU ℕ

/-- The type of the body's result as a function of what it loads: the nine staged operands, the five arrays it copies. -/
abbrev TcOutTy (F : FTy → Type) [FloatOps F] : Type := Vec F S1x1 .i32 → Vec F S1x1024 .f32 → Vec F S1x512 .i32 → Vec F S1x3 .f32 → Vec F S2048x3 .f32 → Vec F S1x1024 .f32 → Vec F S1x1024 .f32 → Vec F S1x1024 .f32 → Vec F S1x1024 .f32 → main_arg1.ty.Contents (Elt F) → main_arg6.ty.Contents (Elt F) → main_arg4.ty.Contents (Elt F) → main_arg10.ty.Contents (Elt F) → main_arg8.ty.Contents (Elt F) → Vec F S1x1024 .f32

/-- The body's triple, as the region needs it: from the staged operands, the result's staging buffer, the five arrays at a
    share, the scratch, the fourteen semaphores at zero and evidence that its waits are admissible, the body runs and leaves
    the result's buffer at `tcOutF` of what it was given, everything else as it was. -/
def TcBodySpec (tcOutF : TcOutTy F) : Prop :=
  ∀ (c : Dev nD) (arg0 : Memref sig .tc .smem S1x1 .i32) (harg0 : arg0.IsWhole) (arg1 : Memref sig .tc .vmem S1x1024 .f32) (harg1 : arg1.IsWhole) (arg2 : Memref sig .tc .vmem S1x512 .i32) (harg2 : arg2.IsWhole) (arg3 : Memref sig .tc .vmem S1x3 .f32) (harg3 : arg3.IsWhole) (arg4 : Memref sig .tc .vmem S2048x3 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg14 : Memref sig .tc .vmem S1x1024 .f32) (harg14 : arg14.IsWhole)
    (x0 : Vec F S1x1 .i32) (x1 : Vec F S1x1024 .f32) (x2 : Vec F S1x512 .i32) (x3 : Vec F S1x3 .f32) (x4 : Vec F S2048x3 .f32) (x5 : Vec F S1x1024 .f32) (x6 : Vec F S1x1024 .f32) (x7 : Vec F S1x1024 .f32) (x8 : Vec F S1x1024 .f32) (q : PosShare TreeShare) (a1 : main_arg1.ty.Contents (Elt F)) (a6 : main_arg6.ty.Contents (Elt F)) (a4 : main_arg4.ty.Contents (Elt F)) (a10 : main_arg10.ty.Contents (Elt F)) (a8 : main_arg8.ty.Contents (Elt F))
    (O : CellTallies nD τ sig (HIx 1)) (W : Waits sig (HIx 1)) (Kk : PUnit → sProp 𝕄),
  iprop(tcIns c arg0 arg1 arg2 arg3 arg4 arg5 arg6 arg7 arg8 x0 x1 x2 x3 x4 x5 x6 x7 x8 ∗ (∃ dd, owns (c.tc : Thread nD τ) arg14 fullShare dd) ∗ tcHbm c q a1 a6 a4 a10 a8 ∗ tcScr c ∗ tcSems c
      ∗ Transfers.MayWaits (c.tc : Thread nD τ) (none : HIx 1) O ∗ owes (c.tc : Thread nD τ) O W
      ∗ (iprop(tcIns c arg0 arg1 arg2 arg3 arg4 arg5 arg6 arg7 arg8 x0 x1 x2 x3 x4 x5 x6 x7 x8 ∗ owns (c.tc : Thread nD τ) arg14 fullShare (tcOutF x0 x1 x2 x3 x4 x5 x6 x7 x8 a1 a6 a4 a10 a8)
          ∗ tcHbm c q a1 a6 a4 a10 a8 ∗ tcScr c ∗ tcSems c ∗ ∃ W', ⌜∀ p ∈ W', p ∈ W ∨ p.2 = none⌝ ∗ owes (c.tc : Thread nD τ) O W') -∗ Kk ⟨⟩))
    ⊢ wp frame (wpE (defs₀ (F := F)) 𝒱₀ (c.tc : Thread nD τ) none) Set.univ
        (cc1__body arg0 harg0 arg1 harg1 arg2 harg2 arg3 harg3 arg4 harg4 arg5 harg5 arg6 harg6 arg7 harg7 arg8 harg8 (Memref.whole main_arg1) (Memref.isWhole_whole _) (Memref.whole main_arg6) (Memref.isWhole_whole _) (Memref.whole main_arg4) (Memref.isWhole_whole _) (Memref.whole main_arg10) (Memref.isWhole_whole _) (Memref.whole main_arg8) (Memref.isWhole_whole _) arg14 harg14 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5) Kk

variable (m : (ℓ : Loc nD τ sig) → Buf (Elt F) ℓ) (tcOutF : TcOutTy F)

/-! ## The proof data -/

abbrev adm : (p : Fin 1) → (pcfgs (F := F) p).Adm := fun p => (cfgs p).toPCfg_adm

/-- The unscoped arrays as the region finds them, indexed as the pipeline library indexes them. -/
abbrev VR (d : Dev nD) (g : Buf (Elt F) (oLoc d)) (b : Ref sig .tc) : Buf (Elt F) ((d.tc : Thread nD τ).loc b) := V3 m d g (Proc.devRef .tc b)

/-- Window `w`'s block at the one point: its whole array. -/
def iblk (d : Dev nD) (g : Buf (Elt F) (oLoc d)) (w : Fin cfg1.W) (t : Fin cfg1.N) : ((cfg1.win w).xblock (cfg1.grid.coords t)).Idx → Elt F (cfg1.win w).elt :=
  ((cfg1.win w).blk t).view.read (Elt F) (VR m d g (Pipeline.arrRef spec1 w))

/-- What the body computes at the one point, from the nine blocks and the five arrays. -/
def tcVal (d : Dev nD) (g : Buf (Elt F) (oLoc d)) (t : Fin cfg1.N) : Vec F S1x1024 .f32 :=
  tcOutF (iblk m d g 0 t) (iblk m d g 1 t) (iblk m d g 2 t) (iblk m d g 3 t) (iblk m d g 4 t) (iblk m d g 5 t) (iblk m d g 6 t) (iblk m d g 7 t) (iblk m d g 8 t)
    (VR m d g main_arg1) (VR m d g main_arg6) (VR m d g main_arg4) (VR m d g main_arg10) (VR m d g main_arg8)

/-! ## The body's own semaphores, and what the body needs that is no window's -/

abbrev osem (k : Fin 14) : SemLoc sig := SemLoc.dma (tcSem k)

theorem ho : Pipeline.OwnSemFacts spec1 osem := by decide

/-- The level facts (for the waits' evidence), the fourteen semaphores at zero, the unscoped arrays that are no window's
    (the five the body copies among them) and the scratch. -/
def RΦ (d : Dev nD) (g : Buf (Elt F) (oLoc d)) : sProp 𝕄 :=
  iprop(levAts (K (F := F)).L (K (F := F)).lev ∗ Pipeline.ownSems0 osem d ∗ Pipeline.unscopedRest spec1 d (VR m d g) ∗ Pipeline.scopedRest spec1 d)

/-- The proof data on core `d`: the windows' arrays as the region finds them; after the body each input's buffer at its
    block and the result's at the body's function of them; the invariant above; nothing owed; full shares. -/
def dat1 (d : Dev nD) (g : Buf (Elt F) (oLoc d)) : Dat τ (Elt F) (HIx 1) ℕ UU ℕ cfg1 d where
  A w := VR m d g (Pipeline.arrRef spec1 w)
  after w t := match w with
    | ⟨0, _⟩ => iblk m d g 0 t
    | ⟨1, _⟩ => iblk m d g 1 t
    | ⟨2, _⟩ => iblk m d g 2 t
    | ⟨3, _⟩ => iblk m d g 3 t
    | ⟨4, _⟩ => iblk m d g 4 t
    | ⟨5, _⟩ => iblk m d g 5 t
    | ⟨6, _⟩ => iblk m d g 6 t
    | ⟨7, _⟩ => iblk m d g 7 t
    | ⟨8, _⟩ => iblk m d g 8 t
    | ⟨9, _⟩ => tcVal m tcOutF d g t
  Φ _ := RΦ m d g
  q _ := fullShare
  owed _ := 0

theorem A_eq (d : Dev nD) (g : Buf (Elt F) (oLoc d)) (w : Fin cfg1.W) : (dat1 m tcOutF d g).A w = VR m d g (Pipeline.arrRef spec1 w) := by
  dsimp only [dat1]

variable (gs : (c : Dev nD) → Buf (Elt F) (oLoc c))

/-- One pipeline; on core `c` the call's result is `gs c`. -/
def pdats : (p : Fin 1) → (c : Dev nD) → Dat τ (Elt F) (HIx 1) ℕ UU ℕ (Pipeline.pin (pcfgs (F := F)) adm p) c
  | 0 => fun c => dat1 m tcOutF c (gs c)

end Cert.Proof.KI

end
-- ==== Proof.KIRegion.lean ====
/-
  The TensorCore kernel region of the idealized kernel inside its SparseCore program: the region's record (entry and
  exit around the unscoped arrays and what the TensorCore owes, which is nothing after the last call) and the rule @main
  uses, entered through the lift of the inner body table into the SparseCore program's.
-/
import proofs.«211217_g68642167325227_cont_9to1_m_1168_22_alg».proof.Proof.KIRegDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat BodyObligation)

variable {F : FTy → Type} [FloatOps F] [Named F] [Cert.KernelIdeal.Facts]

local notation "𝕄" => MT nD τ sig (HIx 1) (Elt F) ℕ UU ℕ

variable (m : (ℓ : Loc nD τ sig) → Buf (Elt F) ℓ) (tcOutF : TcOutTy F) (gs : (c : Dev nD) → Buf (Elt F) (oLoc c))

/-! ## The arrays after the region -/

/-- The region's result array after the region, as the pipeline library computes it from the proof data. -/
abbrev vOut (c : Dev nD) : Buf (Elt F) (rLoc c) := (dat1 m tcOutF c (gs c)).arrAt 9 cfg1.N

/-- The unscoped arrays after the region. -/
abbrev VRo (c : Dev nD) (b : Ref sig .tc) : Buf (Elt F) ((c.tc : Thread nD τ).loc b) := V4 m c (gs c) (vOut m tcOutF gs c) (Proc.devRef .tc b)

theorem VRo_of_ne (c : Dev nD) (b : Ref sig .tc) (h : (Proc.devRef .tc b : DevRef τ sig) ≠ r') : VRo m tcOutF gs c b = VR m c (gs c) b :=
  Function.update_of_ne h ..
theorem VRo_v10 (c : Dev nD) : VRo m tcOutF gs c main_v10 = vOut m tcOutF gs c := Function.update_self ..

/-- Each window's array after the region is what the valuation after the region holds there: the nine inputs as found, the
    result at what the library computes. -/
theorem arrAt_eq (c : Dev nD) (w : Fin cfg1.W) :
    (pdats m tcOutF gs 0 c).arrAt w (Pipeline.pin (pcfgs (F := F)) adm 0).N = VRo m tcOutF gs c (Pipeline.arrRef spec1 w) := by
  match w with
  | ⟨0, _⟩ => exact ((dat1 m tcOutF c (gs c)).arrAt_in 0 rfl _).trans (VRo_of_ne m tcOutF gs c main_v0 (by decide)).symm
  | ⟨1, _⟩ => exact ((dat1 m tcOutF c (gs c)).arrAt_in 1 rfl _).trans (VRo_of_ne m tcOutF gs c main_v1 (by decide)).symm
  | ⟨2, _⟩ => exact ((dat1 m tcOutF c (gs c)).arrAt_in 2 rfl _).trans (VRo_of_ne m tcOutF gs c main_v2 (by decide)).symm
  | ⟨3, _⟩ => exact ((dat1 m tcOutF c (gs c)).arrAt_in 3 rfl _).trans (VRo_of_ne m tcOutF gs c main_v5 (by decide)).symm
  | ⟨4, _⟩ => exact ((dat1 m tcOutF c (gs c)).arrAt_in 4 rfl _).trans (VRo_of_ne m tcOutF gs c main_arg12 (by decide)).symm
  | ⟨5, _⟩ => exact ((dat1 m tcOutF c (gs c)).arrAt_in 5 rfl _).trans (VRo_of_ne m tcOutF gs c main_v6 (by decide)).symm
  | ⟨6, _⟩ => exact ((dat1 m tcOutF c (gs c)).arrAt_in 6 rfl _).trans (VRo_of_ne m tcOutF gs c main_v7 (by decide)).symm
  | ⟨7, _⟩ => exact ((dat1 m tcOutF c (gs c)).arrAt_in 7 rfl _).trans (VRo_of_ne m tcOutF gs c main_v8 (by decide)).symm
  | ⟨8, _⟩ => exact ((dat1 m tcOutF c (gs c)).arrAt_in 8 rfl _).trans (VRo_of_ne m tcOutF gs c main_v9 (by decide)).symm
  | ⟨9, _⟩ => exact (VRo_v10 m tcOutF gs c).symm

/-- The arrays that are no window's are untouched by the region. -/
theorem rest_eq (c : Dev nD) :
    (Pipeline.unscopedRest (Ix := HIx 1) (Name := ℕ) (U := UU) (Lvl := ℕ) spec1 c (VRo m tcOutF gs c) : sProp 𝕄)
      = Pipeline.unscopedRest spec1 c (VR m c (gs c)) := by
  unfold Pipeline.unscopedRest
  refine bigSep_congr fun b hb => ?_
  rw [VRo_of_ne m tcOutF gs c b fun e => (Finset.mem_sdiff.mp hb).2 (Finset.mem_image.mpr ⟨9, Finset.mem_univ _, (Proc.devRef_injective _ e).symm⟩)]

/-! ## The region's record -/

/-- The region: the ten windows' arrays into the pipeline; the fourteen semaphores, the level facts and every other unscoped
    array into the body's invariant (and back out); the TensorCore owes nothing on either side. -/
def reg1 (hbody : ∀ c, BodyObligation (dat1 m tcOutF c (gs c)) (defs₀ (F := F)) 𝒱₀ (none : HIx 1) Set.univ) :
    Pipeline.RegionSeg (pcfgs (F := F)) adm (pdats m tcOutF gs) (none : HIx 1) defs₀ 𝒱₀ (K (F := F)).L (K (F := F)).lev 0 where
  win := launch1.win.to₀
  block_pos := launch1.block_pos
  stage_whole := launch1.stage_whole
  K := Fin 14
  osem := osem
  ho := ho
  hbody c := (hbody c).loose
  hwaits c := Pipeline.hwaits_of_owed_zero (pcfgs (F := F)) adm (pdats m tcOutF gs) (none : HIx 1) (K (F := F)).L (K (F := F)).lev 0 (fun _ _ => rfl) c
  pre c := iprop(unscopedBufs c (VR m c (gs c)) ∗ ∃ W, owes (c.tc : Thread nD τ) (0 : CellTallies nD τ sig (HIx 1)) W)
  post c := iprop(unscopedBufs c (VRo m tcOutF gs c) ∗ ∃ W, owes (c.tc : Thread nD τ) (0 : CellTallies nD τ sig (HIx 1)) W)
  X c := iprop(levAts (K (F := F)).L (K (F := F)).lev ∗ Pipeline.ownSems0 osem c ∗ Pipeline.unscopedRest spec1 c (VR m c (gs c)))
  Y c := Pipeline.unscopedRest spec1 c (VR m c (gs c))
  Z _ := iprop(emp)
  hentry c := by
    have hsplit := Pipeline.arrays_of_unscopedBufs (pcfgs (F := F)) adm (pdats m tcOutF gs) launch1.win launch1.arr_whole c
      ((pdats m tcOutF gs 0 c).share_full fun _ => rfl) (VR m c (gs c)) fun _ => rfl
    iintro ⟨⟨Hub, %W, HO⟩, Hsem, #Hlv⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ _ => Or.inl trivial
      iexact HO
    isplitl [Hsem Hr]
    · isplitr; · iexact Hlv
      isplitl [Hsem]; · iexact Hsem
      iexact Hr
    iempintro
  hin c := by
    show _ ⊢ RΦ m c (gs c)
    unfold RΦ
    iintro ⟨⟨Hlv, Hsem, Hr⟩, -, Hsr⟩
    isplitl [Hlv]; · iexact Hlv
    isplitl [Hsem]; · iexact Hsem
    isplitl [Hr]; · iexact Hr
    iexact Hsr
  hout c := by
    show RΦ m c (gs c) ⊢ _
    unfold RΦ
    iintro ⟨-, Hsem, Hr, Hsr⟩
    isplitl [Hr]; · iexact Hr
    isplitl [Hsem]; · iexact Hsem
    iexact Hsr
  hexit c := by
    rw [Pipeline.unscopedBufs_split (Pipeline.pin (pcfgs (F := F)) adm) 0 launch1.win.arr_unscoped launch1.win.arr_inj c (VRo m tcOutF gs c),
      Pipeline.arrays_eq (Pipeline.pin (pcfgs (F := F)) adm) (pdats m tcOutF gs) 0 c launch1.arr_whole ((pdats m tcOutF gs 0 c).share_full fun _ => rfl),
      rest_eq]
    simp only [arrAt_eq m tcOutF gs c]
    iintro ⟨Ha, HO, Hy, -⟩
    imodintro
    isplitl [Ha Hy]
    · isplitl [Ha]; · iexact Ha
      iexact Hy
    unfold Pipeline.Dat.owesAt Pipeline.owesWithin
    icases HO with ⟨%W, -, HO⟩
    iexists W; iexact HO

/-! ## The rule -/

/-- What the region's result is: what the pipeline library computes from the proof data (the body's function of the
    blocks, written back). -/
def TcOutP (d : Dev nD) (g : Buf (Elt F) (oLoc d)) (vo : Buf (Elt F) (rLoc d)) : Prop :=
  vo = (dat1 m tcOutF d g).arrAt 9 cfg1.N

/-- With one call, every recorded wait sits at or below level 8. -/
theorem wbelow_any (d : Dev nD) (W : Waits sig (HIx 1)) : (K (F := F)).WBelow (T d) W (8 * 1) := fun p _ => by
  rcases hp : p.2 with _ | q
  · simp
  · have := (K (F := F)).lev_some_le ((T d : Thread nD τ), p.1) q
    have hq := q.isLt
    omega

/-- After the last call the TensorCore owes nothing: its handshake state is that, beside a rest the region does not touch. -/
theorem tcSt_one (d : Dev nD) : ∃ R : sProp 𝕄, ((K (F := F)).tcSt EH d 1 : sProp 𝕄)
    = iprop((∃ W, ⌜(K (F := F)).WBelow (T d) W (8 * 1)⌝ ∗ owes (T d) (0 : CellTallies nD τ sig (HIx 1)) W) ∗ R) := by
  refine ⟨?R, ?h⟩
  case h =>
    unfold SparseCore.Cfg.tcSt
    rw [(K (F := F)).Otc_end d (le_refl _)]

theorem lift_seq (ops : List (HloOp τ sig (Elt F))) :
    TpuEff.inlProg (Λ' := (SparseCore.Sig (ΛP (F := F)) 1)) (StableHlo.seq ops : Prog (TpuEff nD τ sig (Elt F) (ΛP (F := F)) .tc) PUnit) = StableHlo.seq ops := by
  induction ops with
  | nil => rfl
  | cons op ops ih =>
    simp only [StableHlo.seq, inlProg_bind, ih]
    rfl

theorem lift_region :
    SparseCore.liftProg (Q := 1) ((.op (.customCall (Pipeline.entry 0) ()) fun _ => StableHlo.seq (ops3 (F := F))) : Prog (TpuEff nD τ sig (Elt F) (ΛP (F := F)) .tc) PUnit)
      = .op (.customCall (SparseCore.inner (Pipeline.entry 0)) ()) fun _ => StableHlo.seq (ops3 (F := F)) := by
  show TpuEff.inlProg _ = _
  rw [inlProg_op]
  simp only [lift_seq]
  rfl

set_option backward.isDefEq.respectTransparency.types false in
/-- The region under the inner body table: the pipeline library's region rule at the record above. -/
theorem inner_rule (hbody : ∀ c, BodyObligation (dat1 m tcOutF c (gs c)) (defs₀ (F := F)) 𝒱₀ (none : HIx 1) Set.univ) (d : Dev nD)
    (Q : PUnit → sProp 𝕄) :
    iprop((iprop(boundary (d.tc : Thread nD τ) ∗ (reg1 m tcOutF gs hbody).post d) -∗ wp frame (wpE (D (F := F)) 𝒱 (d.tc : Thread nD τ) none) Set.univ (StableHlo.seq (ops3 (F := F))) Q)
        ∗ boundary (d.tc : Thread nD τ) ∗ (reg1 m tcOutF gs hbody).pre d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE (D (F := F)) 𝒱 (d.tc : Thread nD τ) none) Set.univ (.op (.customCall (Pipeline.entry 0) ()) fun _ => StableHlo.seq (ops3 (F := F))) Q :=
  Pipeline.RegionSeg.wp (pcfgs (F := F)) adm (pdats m tcOutF gs) (none : HIx 1) cellOf_inj (EP (F := F)) defs₀ 𝒱₀
    (K (F := F)).L (K (F := F)).lev (reg1 m tcOutF gs hbody) d none (by intro u h; cases h) (fun _ => StableHlo.seq (ops3 (F := F))) Q

/-- The record's entry and exit conditions, spelt out. -/
theorem reg1_pre (hbody : ∀ c, BodyObligation (dat1 m tcOutF c (gs c)) (defs₀ (F := F)) 𝒱₀ (none : HIx 1) Set.univ) (d : Dev nD) :
    (reg1 m tcOutF gs hbody).pre d = iprop(unscopedBufs d (VR m d (gs d)) ∗ ∃ W, owes (d.tc : Thread nD τ) (0 : CellTallies nD τ sig (HIx 1)) W) := rfl
theorem reg1_post (hbody : ∀ c, BodyObligation (dat1 m tcOutF c (gs c)) (defs₀ (F := F)) 𝒱₀ (none : HIx 1) Set.univ) (d : Dev nD) :
    (reg1 m tcOutF gs hbody).post d = iprop(unscopedBufs d (VRo m tcOutF gs d) ∗ ∃ W, owes (d.tc : Thread nD τ) (0 : CellTallies nD τ sig (HIx 1)) W) := rfl

/-- The region's ghost state, in the library's spelling of the configurations and in the program's. -/
theorem cellsGhost_pin (d : Dev nD) :
    (Pipeline.cellsGhost (Pipeline.pin (pcfgs (F := F)) adm) (EP (F := F)) 0 d : sProp 𝕄) = Pipeline.cellsGhost cfgs (EP (F := F)) 0 d := rfl
theorem toksInit_pin (d : Dev nD) :
    (Pipeline.toksInit (Pipeline.pin (pcfgs (F := F)) adm) (EP (F := F)) 0 d : sProp 𝕄) = Pipeline.toksInit cfgs (EP (F := F)) 0 d := rfl

/-- The region's own summand of what @main starts from. -/
theorem G_elem (d : Dev nD) :
    (G (F := F) d : sProp 𝕄) ⊢ iprop(Pipeline.cellsGhost cfgs (EP (F := F)) 0 d ∗ Pipeline.toksInit cfgs (EP (F := F)) 0 d) :=
  BIClass.sep_mono (bigSep_elim (Φ := fun p : Fin 1 => Pipeline.cellsGhost cfgs (EP (F := F)) p d) (Finset.mem_univ (0 : Fin 1)))
    (bigSep_elim (Φ := fun p : Fin 1 => (Pipeline.toksInit cfgs (EP (F := F)) p d : sProp 𝕄)) (Finset.mem_univ (0 : Fin 1)))

/-- What the rule is entered with yields what the inner rule asks, the continuation included: the TensorCore's handshake
    state (it owes nothing) and the rest of it ride along. -/
theorem region_pre (κ : GSem nD τ sig → ℕ) (d : Dev nD) (Q : PUnit → sProp 𝕄) (R : sProp 𝕄) :
    iprop((K (F := F)).ctx EH (P m (cvOf m)) κ
        ∗ ((∃ W, ⌜(K (F := F)).WBelow (T d) W (8 * 1)⌝ ∗ owes (T d) (0 : CellTallies nD τ sig (HIx 1)) W) ∗ R)
        ∗ boundary (T d) ∗ held (T d) UC (V3 m d (gs d)) ∗ G (F := F) d
        ∗ ((∃ vo, ⌜TcOutP m tcOutF d (gs d) vo⌝ ∗ ((∃ W, ⌜(K (F := F)).WBelow (T d) W (8 * 1)⌝ ∗ owes (T d) (0 : CellTallies nD τ sig (HIx 1)) W) ∗ R)
              ∗ boundary (T d) ∗ held (T d) UC (V4 m d (gs d) vo))
            -∗ wp frame (wpE (D (F := F)) 𝒱 (T d) none) Set.univ (StableHlo.seq (ops3 (F := F))) Q))
      ⊢ iprop((iprop(boundary (d.tc : Thread nD τ) ∗ (unscopedBufs d (VRo m tcOutF gs d) ∗ ∃ W, owes (d.tc : Thread nD τ) (0 : CellTallies nD τ sig (HIx 1)) W))
            -∗ wp frame (wpE (D (F := F)) 𝒱 (d.tc : Thread nD τ) none) Set.univ (StableHlo.seq (ops3 (F := F))) Q)
        ∗ boundary (d.tc : Thread nD τ) ∗ (unscopedBufs d (VR m d (gs d)) ∗ ∃ W, owes (d.tc : Thread nD τ) (0 : CellTallies nD τ sig (HIx 1)) W)
        ∗ levAts (K (F := F)).L (K (F := F)).lev
        ∗ Pipeline.cellsGhost cfgs (EP (F := F)) 0 d ∗ Pipeline.toksInit cfgs (EP (F := F)) 0 d) := by
  iintro ⟨#Hctx, ⟨⟨%W, -, HO⟩, Hrest⟩, Hb, Hheld, HG, Hk⟩
  ihave HG' := (G_elem (F := F) d) $$ HG
  icases HG' with ⟨Hc, Ht⟩
  ihave #Hlev := ((K (F := F)).ctx_levAts κ) $$ Hctx
  isplitl [Hk Hrest]
  · iintro ⟨Hb, Hub, %W', HO⟩
    iapply Hk
    iexists (vOut m tcOutF gs d)
    isplitr; · ipureintro; rfl
    isplitl [HO Hrest]
    · isplitl [HO]
      · iexists W'; isplitr; · ipureintro; exact wbelow_any d W'
        iexact HO
      iexact Hrest
    isplitl [Hb]; · iexact Hb
    iapply (Entails.of_eq (Pipeline.unscopedBufs_held (Ix := HIx 1) (Name := ℕ) (U := UU) (Lvl := ℕ) d (V4 m d (gs d) (vOut m tcOutF gs d))))
    iexact Hub
  isplitl [Hb]; · iexact Hb
  isplitl [Hheld HO]
  · isplitl [Hheld]
    · iapply (Entails.of_eq (Pipeline.unscopedBufs_held (Ix := HIx 1) (Name := ℕ) (U := UU) (Lvl := ℕ) d (V3 m d (gs d))).symm)
      iexact Hheld
    iexists W; iexact HO
  isplitr; · iexact Hlev
  isplitl [Hc]; · iexact Hc
  iexact Ht

set_option backward.isDefEq.respectTransparency.types false in
/-- The region inside the SparseCore program: its call is the lift of the inner program's, the inner one is the pipeline
    library's region rule at this record, and the TensorCore's handshake state passes through (it owes nothing). -/
theorem region_rule (hbody : ∀ (d : Dev nD) (g : Buf (Elt F) (oLoc d)), BodyObligation (dat1 m tcOutF d g) (defs₀ (F := F)) 𝒱₀ (none : HIx 1) Set.univ) :
    RegionRule m (TcOutP m tcOutF) := by
  intro κ d g Q
  obtain ⟨gs, hgs⟩ : ∃ gs : (c : Dev nD) → Buf (Elt F) (oLoc c), gs d = g :=
    ⟨Function.update (fun c => m (oLoc c)) d g, Function.update_self ..⟩
  subst hgs
  obtain ⟨R, hR⟩ := tcSt_one (F := F) d
  rw [hR, ← lift_region]
  refine BI.Entails.trans ?_ ((K (F := F)).wp_liftProg (D (F := F)) 𝒱 (T d) Set.univ none _ Q)
  refine BI.Entails.trans ?_ (inner_rule m tcOutF gs (fun c => hbody c (gs c)) d Q)
  rw [reg1_pre, reg1_post, cellsGhost_pin, toksInit_pin]
  exact region_pre m tcOutF gs κ d Q R

end Cert.Proof.KI

end
-- ==== Proof.KIRegBody.lean ====
/-
  The body obligation of the TensorCore kernel region of the idealized kernel.

  The region is gridless: at its one point every input window's staging buffer holds the window's whole array (its
  block), and the body is handed, beside the ten staging buffers, what the region's invariant keeps for it: the level
  facts (from which the evidence that its waits are admissible follows, the thread owing nothing), its fourteen
  semaphores at zero, the five unscoped arrays it copies (among the unscoped arrays that are no window's) and its
  five scratch buffers.  The body's triple, taken as a hypothesis, then leaves the result's buffer at the body's
  function of the nine blocks and the five arrays and everything else as it was: the invariant at the next point.
-/
import proofs.«211217_g68642167325227_cont_9to1_m_1168_22_alg».proof.Proof.KIRegDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat BodyObligation)

variable {F : FTy → Type} [FloatOps F] [Named F] [Cert.KernelIdeal.Facts]

local notation "𝕄" => MT nD τ sig (HIx 1) (Elt F) ℕ UU ℕ

variable (m : (ℓ : Loc nD τ sig) → Buf (Elt F) ℓ) (tcOutF : TcOutTy F)

/-! ## What each staging buffer holds before and after the body -/

theorem after1_0 (d : Dev nD) (g : Buf (Elt F) (oLoc d)) (t : Fin cfg1.N) : (dat1 m tcOutF d g).after 0 t = iblk m d g 0 t := by dsimp only [dat1]; rfl
theorem after1_1 (d : Dev nD) (g : Buf (Elt F) (oLoc d)) (t : Fin cfg1.N) : (dat1 m tcOutF d g).after 1 t = iblk m d g 1 t := by dsimp only [dat1]; rfl
theorem after1_2 (d : Dev nD) (g : Buf (Elt F) (oLoc d)) (t : Fin cfg1.N) : (dat1 m tcOutF d g).after 2 t = iblk m d g 2 t := by dsimp only [dat1]; rfl
theorem after1_3 (d : Dev nD) (g : Buf (Elt F) (oLoc d)) (t : Fin cfg1.N) : (dat1 m tcOutF d g).after 3 t = iblk m d g 3 t := by dsimp only [dat1]; rfl
theorem after1_4 (d : Dev nD) (g : Buf (Elt F) (oLoc d)) (t : Fin cfg1.N) : (dat1 m tcOutF d g).after 4 t = iblk m d g 4 t := by dsimp only [dat1]; rfl
theorem after1_5 (d : Dev nD) (g : Buf (Elt F) (oLoc d)) (t : Fin cfg1.N) : (dat1 m tcOutF d g).after 5 t = iblk m d g 5 t := by dsimp only [dat1]; rfl
theorem after1_6 (d : Dev nD) (g : Buf (Elt F) (oLoc d)) (t : Fin cfg1.N) : (dat1 m tcOutF d g).after 6 t = iblk m d g 6 t := by dsimp only [dat1]; rfl
theorem after1_7 (d : Dev nD) (g : Buf (Elt F) (oLoc d)) (t : Fin cfg1.N) : (dat1 m tcOutF d g).after 7 t = iblk m d g 7 t := by dsimp only [dat1]; rfl
theorem after1_8 (d : Dev nD) (g : Buf (Elt F) (oLoc d)) (t : Fin cfg1.N) : (dat1 m tcOutF d g).after 8 t = iblk m d g 8 t := by dsimp only [dat1]; rfl
theorem after1_9 (d : Dev nD) (g : Buf (Elt F) (oLoc d)) (t : Fin cfg1.N) : (dat1 m tcOutF d g).after 9 t = tcVal m tcOutF d g t := by dsimp only [dat1]; rfl

/-- Input window 0's staging buffer holds its block (the window is fetched at the point, uncut and never idle). -/
theorem before1_0 (d : Dev nD) (g : Buf (Elt F) (oLoc d)) (t : Fin cfg1.N) (dd) : (dat1 m tcOutF d g).before 0 t dd = iblk m d g 0 t :=
  ((dat1 m tcOutF d g).before_in_eq_fetched 0 rfl (fun _ => rfl) (fun _ _ _ => rfl)
    (fun t => by rw [after1_0]; unfold Dat.blockOf iblk; rw [A_eq]; try rfl) t dd).trans
    (by unfold Dat.fetched Dat.blockOf iblk; rw [A_eq]; try rfl)
/-- Input window 1's staging buffer holds its block (the window is fetched at the point, uncut and never idle). -/
theorem before1_1 (d : Dev nD) (g : Buf (Elt F) (oLoc d)) (t : Fin cfg1.N) (dd) : (dat1 m tcOutF d g).before 1 t dd = iblk m d g 1 t :=
  ((dat1 m tcOutF d g).before_in_eq_fetched 1 rfl (fun _ => rfl) (fun _ _ _ => rfl)
    (fun t => by rw [after1_1]; unfold Dat.blockOf iblk; rw [A_eq]; try rfl) t dd).trans
    (by unfold Dat.fetched Dat.blockOf iblk; rw [A_eq]; try rfl)
/-- Input window 2's staging buffer holds its block (the window is fetched at the point, uncut and never idle). -/
theorem before1_2 (d : Dev nD) (g : Buf (Elt F) (oLoc d)) (t : Fin cfg1.N) (dd) : (dat1 m tcOutF d g).before 2 t dd = iblk m d g 2 t :=
  ((dat1 m tcOutF d g).before_in_eq_fetched 2 rfl (fun _ => rfl) (fun _ _ _ => rfl)
    (fun t => by rw [after1_2]; unfold Dat.blockOf iblk; rw [A_eq]; try rfl) t dd).trans
    (by unfold Dat.fetched Dat.blockOf iblk; rw [A_eq]; try rfl)
/-- Input window 3's staging buffer holds its block (the window is fetched at the point, uncut and never idle). -/
theorem before1_3 (d : Dev nD) (g : Buf (Elt F) (oLoc d)) (t : Fin cfg1.N) (dd) : (dat1 m tcOutF d g).before 3 t dd = iblk m d g 3 t :=
  ((dat1 m tcOutF d g).before_in_eq_fetched 3 rfl (fun _ => rfl) (fun _ _ _ => rfl)
    (fun t => by rw [after1_3]; unfold Dat.blockOf iblk; rw [A_eq]; try rfl) t dd).trans
    (by unfold Dat.fetched Dat.blockOf iblk; rw [A_eq]; try rfl)
/-- Input window 4's staging buffer holds its block (the window is fetched at the point, uncut and never idle). -/
theorem before1_4 (d : Dev nD) (g : Buf (Elt F) (oLoc d)) (t : Fin cfg1.N) (dd) : (dat1 m tcOutF d g).before 4 t dd = iblk m d g 4 t :=
  ((dat1 m tcOutF d g).before_in_eq_fetched 4 rfl (fun _ => rfl) (fun _ _ _ => rfl)
    (fun t => by rw [after1_4]; unfold Dat.blockOf iblk; rw [A_eq]; try rfl) t dd).trans
    (by unfold Dat.fetched Dat.blockOf iblk; rw [A_eq]; try rfl)
/-- Input window 5's staging buffer holds its block (the window is fetched at the point, uncut and never idle). -/
theorem before1_5 (d : Dev nD) (g : Buf (Elt F) (oLoc d)) (t : Fin cfg1.N) (dd) : (dat1 m tcOutF d g).before 5 t dd = iblk m d g 5 t :=
  ((dat1 m tcOutF d g).before_in_eq_fetched 5 rfl (fun _ => rfl) (fun _ _ _ => rfl)
    (fun t => by rw [after1_5]; unfold Dat.blockOf iblk; rw [A_eq]; try rfl) t dd).trans
    (by unfold Dat.fetched Dat.blockOf iblk; rw [A_eq]; try rfl)
/-- Input window 6's staging buffer holds its block (the window is fetched at the point, uncut and never idle). -/
theorem before1_6 (d : Dev nD) (g : Buf (Elt F) (oLoc d)) (t : Fin cfg1.N) (dd) : (dat1 m tcOutF d g).before 6 t dd = iblk m d g 6 t :=
  ((dat1 m tcOutF d g).before_in_eq_fetched 6 rfl (fun _ => rfl) (fun _ _ _ => rfl)
    (fun t => by rw [after1_6]; unfold Dat.blockOf iblk; rw [A_eq]; try rfl) t dd).trans
    (by unfold Dat.fetched Dat.blockOf iblk; rw [A_eq]; try rfl)
/-- Input window 7's staging buffer holds its block (the window is fetched at the point, uncut and never idle). -/
theorem before1_7 (d : Dev nD) (g : Buf (Elt F) (oLoc d)) (t : Fin cfg1.N) (dd) : (dat1 m tcOutF d g).before 7 t dd = iblk m d g 7 t :=
  ((dat1 m tcOutF d g).before_in_eq_fetched 7 rfl (fun _ => rfl) (fun _ _ _ => rfl)
    (fun t => by rw [after1_7]; unfold Dat.blockOf iblk; rw [A_eq]; try rfl) t dd).trans
    (by unfold Dat.fetched Dat.blockOf iblk; rw [A_eq]; try rfl)
/-- Input window 8's staging buffer holds its block (the window is fetched at the point, uncut and never idle). -/
theorem before1_8 (d : Dev nD) (g : Buf (Elt F) (oLoc d)) (t : Fin cfg1.N) (dd) : (dat1 m tcOutF d g).before 8 t dd = iblk m d g 8 t :=
  ((dat1 m tcOutF d g).before_in_eq_fetched 8 rfl (fun _ => rfl) (fun _ _ _ => rfl)
    (fun t => by rw [after1_8]; unfold Dat.blockOf iblk; rw [A_eq]; try rfl) t dd).trans
    (by unfold Dat.fetched Dat.blockOf iblk; rw [A_eq]; try rfl)

/-! ## The invariant's pieces as the body's triple names them -/

/-- The fourteen semaphores at zero, one by one. -/
theorem ownSems0_eq (d : Dev nD) : (Pipeline.ownSems0 osem d : sProp 𝕄) = tcSems d := by
  unfold Pipeline.ownSems0 tcSems
  exact bigSep_univ_eq_bigSepL [(0 : Fin 14), (1 : Fin 14), (2 : Fin 14), (3 : Fin 14), (4 : Fin 14), (5 : Fin 14), (6 : Fin 14), (7 : Fin 14),
    (8 : Fin 14), (9 : Fin 14), (10 : Fin 14), (11 : Fin 14), (12 : Fin 14), (13 : Fin 14)] (by decide) (by decide) _

/-- A TensorCore array held whole, as the region's invariant spells it. -/
theorem heldW_eq (d : Dev nD) (b : Ref sig .tc) (q : PosShare TreeShare) (f : b.ty.Contents (Elt F)) :
    (heldW d b q f : sProp 𝕄) = (((d.tc : Thread nD τ).loc b) ↦{q} f) := by
  simp only [Memref.view_whole, View.set_whole]

/-- The scoped buffers that are no staging buffer are the body's five scratch buffers. -/
theorem scopedRest_eq (d : Dev nD) : (Pipeline.scopedRest spec1 d : sProp 𝕄) = tcScr d := by
  unfold tcScr
  simp only [heldW_eq]
  exact scopedRest1_eq d

/-! ## The body obligation, at the point -/

/-- What the body is called with at point `t` (the windows one by one), -/
def bodyPre (d : Dev nD) (g : Buf (Elt F) (oLoc d)) (t : Fin cfg1.N) : sProp 𝕄 :=
  iprop((dat1 m tcOutF d g).Φ t.castSucc ∗ (dat1 m tcOutF d g).owesAt (none : HIx 1) t.castSucc
    ∗ (∃ dd, owns (d.tc : Thread nD τ) (st1_0 t) fullShare ((dat1 m tcOutF d g).before 0 t dd))
    ∗ (∃ dd, owns (d.tc : Thread nD τ) (st1_1 t) fullShare ((dat1 m tcOutF d g).before 1 t dd))
    ∗ (∃ dd, owns (d.tc : Thread nD τ) (st1_2 t) fullShare ((dat1 m tcOutF d g).before 2 t dd))
    ∗ (∃ dd, owns (d.tc : Thread nD τ) (st1_3 t) fullShare ((dat1 m tcOutF d g).before 3 t dd))
    ∗ (∃ dd, owns (d.tc : Thread nD τ) (st1_4 t) fullShare ((dat1 m tcOutF d g).before 4 t dd))
    ∗ (∃ dd, owns (d.tc : Thread nD τ) (st1_5 t) fullShare ((dat1 m tcOutF d g).before 5 t dd))
    ∗ (∃ dd, owns (d.tc : Thread nD τ) (st1_6 t) fullShare ((dat1 m tcOutF d g).before 6 t dd))
    ∗ (∃ dd, owns (d.tc : Thread nD τ) (st1_7 t) fullShare ((dat1 m tcOutF d g).before 7 t dd))
    ∗ (∃ dd, owns (d.tc : Thread nD τ) (st1_8 t) fullShare ((dat1 m tcOutF d g).before 8 t dd))
    ∗ (∃ dd, owns (d.tc : Thread nD τ) (st1_9 t) fullShare ((dat1 m tcOutF d g).before 9 t dd)))

/-- and what it returns. -/
def bodyPost (d : Dev nD) (g : Buf (Elt F) (oLoc d)) (t : Fin cfg1.N) : sProp 𝕄 :=
  iprop((dat1 m tcOutF d g).Φ t.succ ∗ (dat1 m tcOutF d g).owesAt (none : HIx 1) t.succ
    ∗ owns (d.tc : Thread nD τ) (st1_0 t) fullShare ((dat1 m tcOutF d g).after 0 t)
    ∗ owns (d.tc : Thread nD τ) (st1_1 t) fullShare ((dat1 m tcOutF d g).after 1 t)
    ∗ owns (d.tc : Thread nD τ) (st1_2 t) fullShare ((dat1 m tcOutF d g).after 2 t)
    ∗ owns (d.tc : Thread nD τ) (st1_3 t) fullShare ((dat1 m tcOutF d g).after 3 t)
    ∗ owns (d.tc : Thread nD τ) (st1_4 t) fullShare ((dat1 m tcOutF d g).after 4 t)
    ∗ owns (d.tc : Thread nD τ) (st1_5 t) fullShare ((dat1 m tcOutF d g).after 5 t)
    ∗ owns (d.tc : Thread nD τ) (st1_6 t) fullShare ((dat1 m tcOutF d g).after 6 t)
    ∗ owns (d.tc : Thread nD τ) (st1_7 t) fullShare ((dat1 m tcOutF d g).after 7 t)
    ∗ owns (d.tc : Thread nD τ) (st1_8 t) fullShare ((dat1 m tcOutF d g).after 8 t)
    ∗ owns (d.tc : Thread nD τ) (st1_9 t) fullShare ((dat1 m tcOutF d g).after 9 t))

/-- The body at the point: the inputs' buffers hold their blocks, the invariant yields what the body's triple asks
    beside them, and what the triple hands back is the invariant and the buffers as the next point wants them. -/
theorem sound_body (htc : TcBodySpec tcOutF) (d : Dev nD) (g : Buf (Elt F) (oLoc d)) (t : Fin cfg1.N) :
    bodyPre m tcOutF d g t ⊢ wp frame (wpE (defs₀ (F := F)) 𝒱₀ (d.tc : Thread nD τ) none) Set.univ (bodyAt1 t) (fun _ => bodyPost m tcOutF d g t) := by
  unfold bodyPre bodyPost bodyAt1
  simp only [before1_0, before1_1, before1_2, before1_3, before1_4, before1_5, before1_6, before1_7, before1_8]
  rw [show (dat1 m tcOutF d g).Φ t.succ = RΦ m d g from rfl, show (dat1 m tcOutF d g).Φ t.castSucc = RΦ m d g from rfl,
    show (dat1 m tcOutF d g).owesAt (none : HIx 1) t.succ = (dat1 m tcOutF d g).owesAt (none : HIx 1) t.castSucc from rfl,
    after1_0, after1_1, after1_2, after1_3, after1_4, after1_5, after1_6, after1_7, after1_8, after1_9]
  unfold RΦ
  rw [ownSems0_eq, scopedRest_eq, unscopedRest1_eq]
  iintro ⟨⟨#Hlv, Hsems, ⟨U0, A1, U2, U3, A4, U5, A6, U7, A8, U9, A10, U11, U13, Uv3, Uv4, Uv11, Uv12, Uv13, Uv14, Ucst, Uv15, Uv16⟩, Hscr⟩, ⟨%W0, %hW0, HO⟩,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave Hmw := ((K (F := F)).mayWaits_none (thr := (d.tc : Thread nD τ)) (O := (0 : CellTallies nD τ sig (HIx 1))) (fun _ => rfl)) $$ Hlv
  iapply (htc d _ _ _ _ _ _ _ _ _ _ _ _ _ _ _ _ _ _ _ _ (iblk m d g 0 t) (iblk m d g 1 t) (iblk m d g 2 t) (iblk m d g 3 t) (iblk m d g 4 t)
    (iblk m d g 5 t) (iblk m d g 6 t) (iblk m d g 7 t) (iblk m d g 8 t) fullShare
    (VR m d g main_arg1) (VR m d g main_arg6) (VR m d g main_arg4) (VR m d g main_arg10) (VR m d g main_arg8) 0 W0 _)
  unfold tcIns tcHbm
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [A1 A6 A4 A10 A8]
  · isplitl [A1]; · iapply (Entails.of_eq (heldW_eq (F := F) d _ _ _).symm); iexact A1
    isplitl [A6]; · iapply (Entails.of_eq (heldW_eq (F := F) d _ _ _).symm); iexact A6
    isplitl [A4]; · iapply (Entails.of_eq (heldW_eq (F := F) d _ _ _).symm); iexact A4
    isplitl [A10]; · iapply (Entails.of_eq (heldW_eq (F := F) d _ _ _).symm); iexact A10
    iapply (Entails.of_eq (heldW_eq (F := F) d _ _ _).symm); iexact A8
  isplitl [Hscr]; · iexact Hscr
  isplitl [Hsems]; · iexact Hsems
  isplitl [Hmw]; · iexact Hmw
  isplitl [HO]; · iexact HO
  iintro ⟨⟨H0, H1, H2, H3, H4, H5, H6, H7, H8⟩, H9, ⟨A1, A6, A4, A10, A8⟩, Hscr, Hsems, %W', %hW', HO⟩
  isplitl [Hsems U0 A1 U2 U3 A4 U5 A6 U7 A8 U9 A10 U11 U13 Uv3 Uv4 Uv11 Uv12 Uv13 Uv14 Ucst Uv15 Uv16 Hscr]
  · isplitr; · iexact Hlv
    isplitl [Hsems]; · iexact Hsems
    isplitr [Hscr]
    · isplitl [U0]; · iexact U0
      isplitl [A1]; · iapply (Entails.of_eq (heldW_eq (F := F) d _ _ _)); iexact A1
      isplitl [U2]; · iexact U2
      isplitl [U3]; · iexact U3
      isplitl [A4]; · iapply (Entails.of_eq (heldW_eq (F := F) d _ _ _)); iexact A4
      isplitl [U5]; · iexact U5
      isplitl [A6]; · iapply (Entails.of_eq (heldW_eq (F := F) d _ _ _)); iexact A6
      isplitl [U7]; · iexact U7
      isplitl [A8]; · iapply (Entails.of_eq (heldW_eq (F := F) d _ _ _)); iexact A8
      isplitl [U9]; · iexact U9
      isplitl [A10]; · iapply (Entails.of_eq (heldW_eq (F := F) d _ _ _)); iexact A10
      isplitl [U11]; · iexact U11
      isplitl [U13]; · iexact U13
      isplitl [Uv3]; · iexact Uv3
      isplitl [Uv4]; · iexact Uv4
      isplitl [Uv11]; · iexact Uv11
      isplitl [Uv12]; · iexact Uv12
      isplitl [Uv13]; · iexact Uv13
      isplitl [Uv14]; · iexact Uv14
      isplitl [Ucst]; · iexact Ucst
      isplitl [Uv15]; · iexact Uv15
      iexact Uv16
    · iexact Hscr
  isplitl [HO]
  · iexists W'; isplitr
    · ipureintro; exact fun p _ => Or.inl (Set.mem_univ p)
    · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at the region's one point. -/
theorem body_obligation (htc : TcBodySpec tcOutF) (d : Dev nD) (g : Buf (Elt F) (oLoc d)) :
    BodyObligation (dat1 m tcOutF d g) (defs₀ (F := F)) 𝒱₀ (none : HIx 1) Set.univ := fun t => by
  rw [bigSep_W1, bigSep_W1]
  exact sound_body m tcOutF htc d g t

end Cert.Proof.KI

end
-- ==== Proof.KITile.lean ====
/-
  One vector-subcore tile's task of the kernel `cc0__sc_aggregates`, proved once at a symbolic tile and generic in
  the float instance.

  The tile starts one copy of its 128 x 128 block of the neighbour states into its vector memory, copies the
  neighbour indices (512 words) and the centre index (16 words) and waits for each, runs a counted loop of 8 trips
  that loads 16 indices and stores two mask rows, waits for the first copy, runs a second counted loop of 8 trips
  that only loads (mask rows, rows of the block) and carries 24 accumulator vectors, stores the accumulators and a
  zero vector into the 4 x 128 scratch (rows 0-2 the sums, row 3 zero), copies that scratch to its own 4 x 128
  block of the result and waits.  Every transfer is local: a copy and its own wait, through the transfers' counters;
  no schedule.  The three arrays read are held whole at a read share, the result block at the slice's own element
  set with full ownership.  What the proof keeps of the data: row 3 of the result block is the zero stored.
-/
import proofs.«211217_g68642167325227_cont_9to1_m_1168_22_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F] [Named F] [Cert.KernelIdeal.Facts]

local notation "𝕄" => MT nD τ sig (HIx 1) (Elt F) ℕ UU ℕ

variable (m : (ℓ : Loc nD τ sig) → Buf (Elt F) ℓ) (cv : (d : Dev nD) → Buf (Elt F) (cLoc d))

/-! ## The memrefs as the body table passes them, and the tile's own semaphores and buffers -/

local notation "nW" => (Memref.whole Cert.KernelIdeal.main_arg3_scv : Memref Cert.KernelIdeal.sig Kind.scVector Space.hbm Cert.KernelIdeal.S512 EltTy.i32)
local notation "cW" => (Memref.whole Cert.KernelIdeal.main_v3_scv : Memref Cert.KernelIdeal.sig Kind.scVector Space.hbm Cert.KernelIdeal.S16 EltTy.i32)
local notation "xW" => (Memref.whole Cert.KernelIdeal.main_arg1_scv : Memref Cert.KernelIdeal.sig Kind.scVector Space.hbm Cert.KernelIdeal.S512x1024 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S16 EltTy.i32)
local notation "s2" => (Memref.whole Cert.KernelIdeal.cc0_scratch2 : Memref Cert.KernelIdeal.sig Kind.scVector Space.vmem Cert.KernelIdeal.S128x128 EltTy.f32)
local notation "s3" => (Memref.whole Cert.KernelIdeal.cc0_scratch3 : Memref Cert.KernelIdeal.sig Kind.scVector Space.vmem Cert.KernelIdeal.S2x128 EltTy.f32)
local notation "s4" => (Memref.whole Cert.KernelIdeal.cc0_scratch4 : Memref Cert.KernelIdeal.sig Kind.scVector Space.vmem Cert.KernelIdeal.S4x128 EltTy.f32)

section Tile

variable (d : Dev nD) (L : grid0.Coords)

/-- The tile's thread. -/
abbrev thrV : Thread nD τ := V d (cV L) (jV L)

abbrev cell5 : GSem nD τ sig := (thrV d L, .dma cc0_scratch5.sem)
abbrev cellA : GSem nD τ sig := (thrV d L, .dma cc0_scoped0.sem)
abbrev cellB : GSem nD τ sig := (thrV d L, .dma cc0_scoped1.sem)
abbrev cellC : GSem nD τ sig := (thrV d L, .dma cc0_scoped2.sem)

theorem ownSems0_V :
    (ownSems0 (thrV d L) : sProp 𝕄)
      = iprop(semVal (cell5 d L) 0 ∗ semVal (cellA d L) 0 ∗ semVal (cellB d L) 0 ∗ semVal (cellC d L) 0
          ∗ bigSep (((((ownCells (thrV d L)).erase (cell5 d L)).erase (cellA d L)).erase (cellB d L)).erase (cellC d L))
              fun g => semVal g 0) := by
  unfold SparseCore.Cfg.ownSems0
  rw [SparseCore.bigSep_erase' ((mem_ownCells (g := cell5 d L)).mpr ⟨rfl, by
      show (SemLoc.dma cc0_scratch5.sem : SemLoc sig).isScoped .scVector = true; decide⟩),
    SparseCore.bigSep_erase' (Finset.mem_erase.mpr ⟨by simp [cell5, cellA]; decide, (mem_ownCells (g := cellA d L)).mpr ⟨rfl, by
      show (SemLoc.dma cc0_scoped0.sem : SemLoc sig).isScoped .scVector = true; decide⟩⟩),
    SparseCore.bigSep_erase' (Finset.mem_erase.mpr ⟨by simp [cellA, cellB]; decide, Finset.mem_erase.mpr ⟨by simp [cell5, cellB]; decide,
      (mem_ownCells (g := cellB d L)).mpr ⟨rfl, by show (SemLoc.dma cc0_scoped1.sem : SemLoc sig).isScoped .scVector = true; decide⟩⟩⟩),
    SparseCore.bigSep_erase' (Finset.mem_erase.mpr ⟨by simp [cellB, cellC]; decide, Finset.mem_erase.mpr ⟨by simp [cellA, cellC]; decide,
      Finset.mem_erase.mpr ⟨by simp [cell5, cellC]; decide,
      (mem_ownCells (g := cellC d L)).mpr ⟨rfl, by show (SemLoc.dma cc0_scoped2.sem : SemLoc sig).isScoped .scVector = true; decide⟩⟩⟩⟩)]

/-- The tile's processor and its five scratch buffers as references of the device. -/
abbrev pV : Proc τ := Proc.scVector (cV L) (jV L)
abbrev r0 : DevRef τ sig := (pV L).devRef cc0_scratch0
abbrev r1 : DevRef τ sig := (pV L).devRef cc0_scratch1
abbrev r2 : DevRef τ sig := (pV L).devRef cc0_scratch2
abbrev r3 : DevRef τ sig := (pV L).devRef cc0_scratch3
abbrev r4 : DevRef τ sig := (pV L).devRef cc0_scratch4

/-- The five scratch buffers are among the tile's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ (∃ f, (thrV d L).loc cc0_scratch4 ↦{fullShare} f)
          ∗ bigSep ((((((ownRefs (τ := τ) (.scVector (cV L) (jV L))).erase (r0 L)).erase (r1 L)).erase (r2 L)).erase (r3 L)).erase (r4 L))
              fun b => iprop(∃ f, ((d, b) : Loc nD τ sig) ↦{fullShare} f)) := by
  unfold SparseCore.Cfg.ownBufs
  have hne : ∀ {a b : Ref sig .scVector}, a ≠ b → (pV L).devRef a ≠ (pV L).devRef b := fun h e => h (Proc.devRef_injective _ e)
  refine (SparseCore.bigSep_erase' (SparseCore.Cfg.mem_ownRefs_of_owner (p := pV L) (b := r0 L) rfl)).trans ?_
  rw [SparseCore.bigSep_erase' (Finset.mem_erase.mpr ⟨hne (show (cc0_scratch1 : Ref sig .scVector) ≠ cc0_scratch0 by decide),
      SparseCore.Cfg.mem_ownRefs_of_owner (p := pV L) (b := r1 L) rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide),
      SparseCore.Cfg.mem_ownRefs_of_owner (p := pV L) (b := r2 L) rfl⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
      Finset.mem_erase.mpr ⟨hne (show (cc0_scratch3 : Ref sig .scVector) ≠ cc0_scratch0 by decide),
      SparseCore.Cfg.mem_ownRefs_of_owner (p := pV L) (b := r3 L) rfl⟩⟩⟩),
    SparseCore.bigSep_erase' (Finset.mem_erase.mpr ⟨hne (show (cc0_scratch4 : Ref sig .scVector) ≠ cc0_scratch3 by decide),
      Finset.mem_erase.mpr ⟨hne (show (cc0_scratch4 : Ref sig .scVector) ≠ cc0_scratch2 by decide),
      Finset.mem_erase.mpr ⟨hne (show (cc0_scratch4 : Ref sig .scVector) ≠ cc0_scratch1 by decide),
      Finset.mem_erase.mpr ⟨hne (show (cc0_scratch4 : Ref sig .scVector) ≠ cc0_scratch0 by decide),
      SparseCore.Cfg.mem_ownRefs_of_owner (p := pV L) (b := r4 L) rfl⟩⟩⟩⟩)]

/-! ## The arrays as the tile's memrefs address them are the TensorCore's arrays -/

theorem pts_n (q : PosShare TreeShare) (f : Buf (Elt F) (nLoc d)) :
    ((nW).view.loc (thrV d L) ↦{q} f : sProp 𝕄) = nLoc d ↦{q} f := by
  simp only [Memref.view_whole, View.set_whole]
theorem pts_c (q : PosShare TreeShare) (f : Buf (Elt F) (cLoc d)) :
    ((cW).view.loc (thrV d L) ↦{q} f : sProp 𝕄) = cLoc d ↦{q} f := by
  simp only [Memref.view_whole, View.set_whole]
theorem pts_x (q : PosShare TreeShare) (f : Buf (Elt F) (xLoc d)) :
    ((xW).view.loc (thrV d L) ↦{q} f : sProp 𝕄) = xLoc d ↦{q} f := by
  simp only [Memref.view_whole, View.set_whole]
theorem pts_o (f : Buf (Elt F) (oLoc d)) :
    ((outM L).view.loc (thrV d L) ↦[(outM L).view.set]{fullShare} f : sProp 𝕄) = oLoc d ↦[outSet L]{fullShare} f := rfl
theorem pts_s0 (f : Buf (Elt F) ((thrV d L).loc cc0_scratch0)) :
    ((s0).view.loc (thrV d L) ↦{fullShare} f : sProp 𝕄) = (thrV d L).loc cc0_scratch0 ↦{fullShare} f := rfl
theorem pts_s1 (f : Buf (Elt F) ((thrV d L).loc cc0_scratch1)) :
    ((s1).view.loc (thrV d L) ↦{fullShare} f : sProp 𝕄) = (thrV d L).loc cc0_scratch1 ↦{fullShare} f := rfl
theorem pts_s2 (f : Buf (Elt F) ((thrV d L).loc cc0_scratch2)) :
    ((s2).view.loc (thrV d L) ↦{fullShare} f : sProp 𝕄) = (thrV d L).loc cc0_scratch2 ↦{fullShare} f := rfl
theorem pts_s3 (f : Buf (Elt F) ((thrV d L).loc cc0_scratch3)) :
    ((s3).view.loc (thrV d L) ↦{fullShare} f : sProp 𝕄) = (thrV d L).loc cc0_scratch3 ↦{fullShare} f := rfl
theorem pts_s4 (f : Buf (Elt F) ((thrV d L).loc cc0_scratch4)) :
    ((s4).view.loc (thrV d L) ↦{fullShare} f : sProp 𝕄) = (thrV d L).loc cc0_scratch4 ↦{fullShare} f := rfl

/-! ## The two counted loops' invariants -/

/-- The first loop reads the index scratch and writes the two mask rows: both held, at some contents. -/
def inv1 (_ : Nat) (_ : BitVec 32) : sProp 𝕄 :=
  iprop((∃ f, (s0).view.loc (thrV d L) ↦{fullShare} f) ∗ ∃ f, (s3).view.loc (thrV d L) ↦{fullShare} f)

/-- The second loop only reads the block and the mask rows: both held, at some contents; the carried accumulators
    are unconstrained. -/
def inv2 {σ : Type} (_ : Nat) (_ : σ) : sProp 𝕄 :=
  iprop((∃ f, (s2).view.loc (thrV d L) ↦{fullShare} f) ∗ ∃ f, (s3).view.loc (thrV d L) ↦{fullShare} f)

/-! ## Row 3 of the scratch and of the result block -/

/-- What a list of writes leaves at an element some piece covers satisfies `P` as soon as every piece's payload does
    wherever that piece covers the element (the newest piece over the element decides, and it is one of them). -/
theorem read_writes_of_all {sig' : RefSig} {κ : Kind} {sp : Space} {s : Shape} {e : EltTy} {Val : EltTy → Type}
    (v : View sig' κ sp s e) (f : v.ty.Contents Val) (P : Val e → Prop) (y : s.Idx) :
    ∀ Lp : List (View.Piece Val s e), (∃ p ∈ Lp, y ∈ p.1.set) → (∀ p ∈ Lp, ∀ x, p.1.emb x = y → P (p.2 x)) →
      P (v.read Val (v.writes Val f Lp) y)
  | [], h, _ => by obtain ⟨_, hm, _⟩ := h; exact absurd hm List.not_mem_nil
  | p :: Lp, h, hP => by
    by_cases hy : y ∈ p.1.set
    · obtain ⟨r, w⟩ := p
      obtain ⟨x, hx⟩ := r.exists_idx_of_mem hy
      have hx' : r.emb x = y := hx
      have hw := hP ⟨r, w⟩ List.mem_cons_self x hx'
      rw [← hx', View.read_writes_cons_emb]
      exact hw
    · have hy' : y ∉ Finset.univ.map p.1.emb := by rwa [Rect.map_emb_univ]
      rw [View.writes_cons, View.read_slice_write_of_not_mem p.1 _ _ _ hy']
      refine read_writes_of_all v f P y Lp ?_ (fun p' hp' => hP p' (List.mem_cons_of_mem _ hp'))
      obtain ⟨p', hm, hy''⟩ := h
      rcases List.mem_cons.mp hm with rfl | hm
      · exact absurd hy'' hy
      · exact ⟨p', hm, hy''⟩

/-- Row 3 of a 4 x 128 buffer after a list of writes whose pieces cover that row and store zero wherever they touch it. -/
theorem row3_of_pieces {sig' : RefSig} {κ : Kind} {sp : Space} (v : View sig' κ sp S4x128 .f32) (f : v.ty.Contents (Elt F))
    (Lp : List (View.Piece (Elt F) S4x128 .f32))
    (hcov : ∀ y : S4x128.Idx, (y 0).val = 3 → ∃ p ∈ Lp, y ∈ p.1.set)
    (hz : ∀ p ∈ Lp, ∀ x, ((p.1.emb x) 0).val = 3 → p.2 x = (zeroF : F .f32))
    (j : S4x128.Idx) (hj : (j 0).val = 3) :
    v.read (Elt F) (v.writes (Elt F) f Lp) j = (zeroF : F .f32) :=
  read_writes_of_all v f (fun z => z = (zeroF : F .f32)) j Lp (hcov j hj) fun p hp x hx => hz p hp x (by rw [hx]; exact hj)

/-- An index of row 3 whose column lies in `[c0, c0 + 16)` lies in the sixteen-lane rectangle at `(3, c0)`. -/
theorem mem_row3_unit {c0 : ℕ} {inb : ∀ a, (![3, c0] : Fin 2 → ℕ) a + S1x16.size a ≤ S4x128.size a} (y : S4x128.Idx)
    (hy : (y 0).val = 3) (h1 : c0 ≤ (y 1).val) (h2 : (y 1).val < c0 + 16) :
    y ∈ (Rect.unit (s := S4x128) ![3, c0] S1x16.size inb).set :=
  Rect.mem_set_unit.mpr (Fin.forall_fin_two.mpr
    ⟨⟨by show 3 ≤ (y 0).val; omega, by show (y 0).val < 3 + 1; omega⟩, ⟨h1, h2⟩⟩)

/-- A sixteen-lane rectangle at row `r ≠ 3` holds no element of row 3. -/
theorem row_ne3 {r c0 : ℕ} {inb : ∀ a, (![r, c0] : Fin 2 → ℕ) a + S1x16.size a ≤ S4x128.size a} (hr : r ≠ 3)
    (x : (Rect.unit (s := S4x128) ![r, c0] S1x16.size inb).shape.Idx) :
    (((Rect.unit (s := S4x128) ![r, c0] S1x16.size inb).emb x) 0).val ≠ 3 := by
  have h0 : (x 0).val < 1 := (x 0).isLt
  show r + 1 * (x 0).val ≠ 3
  omega

/-- A list of pieces whose entry `i` is the sixteen-lane rectangle at `(3, c0)` covers the indices of row 3 with column in
    `[c0, c0 + 16)`. -/
theorem cover_of_getElem? {Lp : List (View.Piece (Elt F) S4x128 .f32)} (i c0 : ℕ)
    {inb : ∀ a, (![3, c0] : Fin 2 → ℕ) a + S1x16.size a ≤ S4x128.size a}
    {w : (Rect.unit (s := S4x128) ![3, c0] S1x16.size inb).shape.Idx → Elt F .f32}
    (h : Lp[i]? = some ⟨Rect.unit (s := S4x128) ![3, c0] S1x16.size inb, w⟩)
    (y : S4x128.Idx) (hy : (y 0).val = 3) (h1 : c0 ≤ (y 1).val) (h2 : (y 1).val < c0 + 16) : ∃ p ∈ Lp, y ∈ p.1.set :=
  ⟨⟨Rect.unit (s := S4x128) ![3, c0] S1x16.size inb, w⟩, List.mem_of_getElem? h, mem_row3_unit (inb := inb) y hy h1 h2⟩

/-- A property of every entry of a list of known length, entry by entry. -/
theorem forall_mem_of_getElem? {α : Type} {Q : α → Prop} (l : List α) (n : ℕ) (hlen : l.length = n)
    (h : ∀ i, i < n → ∀ p, l[i]? = some p → Q p) : ∀ p ∈ l, Q p := by
  intro p hp
  obtain ⟨i, hi, rfl⟩ := List.getElem_of_mem hp
  exact h i (hlen ▸ hi) _ (List.getElem?_eq_getElem hi)

/-- The result block after the copy-out of a payload whose row 3 is zero: its row 3 is zero. -/
theorem row3_of_payload (g : Buf (Elt F) (oLoc d)) (w : S4x128.Idx → Elt F .f32)
    (hw : ∀ j : S4x128.Idx, (j 0).val = 3 → w j = (zeroF : F .f32)) :
    Row3Zero d L ((outM L).view.writes (Elt F) g [⟨Rect.whole S4x128, w⟩]) := by
  intro j hj
  have h := View.read_writes_cons_emb (outM L).view g (Rect.whole S4x128) w [] j
  rw [Rect.emb_whole_apply] at h
  exact h.trans (hw j hj)

set_option maxHeartbeats 2000000 in
/-- The tile's task: what it was handed comes back, the result block at contents whose row 3 is the zero stored. -/
theorem tile_body (q : PosShare TreeShare) (O : CellTallies nD τ sig (HIx 1)) (W : Waits sig (HIx 1)) (hO : ∀ g, O g none = 0) :
    iprop(levAts (K (F := F)).L (K (F := F)).lev ∗ emp ∗ (rdPts m cv d q ∗ outPre m d L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_aggregates L (Memref.whole main_arg3_scv) (Memref.isWhole_whole _) (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2)
          fun _ => iprop((rdPts m cv d q ∗ outPost d L) ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0__sc_aggregates_eq_skeleton]; unfold cc0__sc_aggregates_skel
  rw [(K (F := F)).scopedBufs_V facts d (cV L) (jV L), SparseCore.Cfg.scopedSems0_V (Val := Elt F) d (cV L) (jV L), ownSems0_V, ownBufs_V]
  unfold rdPts outPre outPost
  iintro ⟨#Hlv, -, ⟨⟨Hn, Hc, Hx⟩, Ho⟩, ⟨⟨%f0, H0⟩, ⟨%f1, H1⟩, ⟨%f2, H2⟩, ⟨%f3, H3⟩, ⟨%f4, H4⟩, Hbufs⟩, ⟨Hsem5, HsemA, HsemB, HsemC, Hsems⟩, HO⟩
  ihave Hmw := ((K (F := F)).mayWaits_none (thr := thrV d L) hO) $$ Hlv
  ihave Hn' := (Entails.of_eq (pts_n (F := F) d L _ _).symm) $$ Hn
  ihave Hc' := (Entails.of_eq (pts_c (F := F) d L _ _).symm) $$ Hc
  ihave Hx' := (Entails.of_eq (pts_x (F := F) d L _ _).symm) $$ Hx
  ihave Ho' := (Entails.of_eq (pts_o (F := F) d L _).symm) $$ Ho
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  sl_exec_parts
  -- the first loop: the index scratch and the mask rows go round
  sl_for (inv1 (F := F) d L) $$ [H0' H3']
  case region =>
    intro k acc
    unfold inv1
    iintro ⟨⟨%g0, H0⟩, %g3, H3⟩
    sl_exec_parts
    sl_step
    isplitl [H0]; · iexists _; iexact H0
    iexists _; iexact H3
  · unfold inv1
    isplitl [H0']; · iexists _; iexact H0'
    iexists _; iexact H3'
  iintro %acc1 HI
  unfold inv1
  icases HI with ⟨⟨%g0, H0'⟩, %g3, H3'⟩
  sl_exec_parts
  -- the second loop: the block and the mask rows are only read
  sl_for (inv2 (F := F) d L) $$ [H2' H3']
  case region =>
    intro k acc
    unfold inv2
    iintro ⟨⟨%g2, H2⟩, %g3', H3⟩
    sl_exec_parts
    sl_step
    isplitl [H2]; · iexists _; iexact H2
    iexists _; iexact H3
  · unfold inv2
    isplitl [H2']; · iexists _; iexact H2'
    iexists _; iexact H3'
  iintro %acc2 HI
  unfold inv2
  icases HI with ⟨⟨%g2, H2'⟩, %g3', H3'⟩
  sl_exec_parts
  sl_step
  isplitl [Hn' Hc' Hx' Ho']
  · isplitl [Hn' Hc' Hx']
    · isplitl [Hn']; · iapply (Entails.of_eq (pts_n (F := F) d L _ _)); iexact Hn'
      isplitl [Hc']; · iapply (Entails.of_eq (pts_c (F := F) d L _ _)); iexact Hc'
      iapply (Entails.of_eq (pts_x (F := F) d L _ _)); iexact Hx'
    · iexists _; isplitl [Ho']
      · iapply (Entails.of_eq (pts_o (F := F) d L _)); iexact Ho'
      · -- row 3 of the scratch is the zero stored, so row 3 of what the copy-out wrote is
        ipureintro
        refine row3_of_payload d L _ _ fun j hj => row3_of_pieces _ _ _ ?hcov ?hz j hj
        case hcov =>
          intro y hy
          have hc : (y 1).val < 128 := (y 1).isLt
          obtain h | h | h | h | h | h | h | h : (y 1).val < 16 ∨ (16 ≤ (y 1).val ∧ (y 1).val < 32) ∨ (32 ≤ (y 1).val ∧ (y 1).val < 48)
              ∨ (48 ≤ (y 1).val ∧ (y 1).val < 64) ∨ (64 ≤ (y 1).val ∧ (y 1).val < 80) ∨ (80 ≤ (y 1).val ∧ (y 1).val < 96)
              ∨ (96 ≤ (y 1).val ∧ (y 1).val < 112) ∨ 112 ≤ (y 1).val := by omega
          · exact cover_of_getElem? 28 0 rfl y hy (Nat.zero_le _) (by omega)
          · exact cover_of_getElem? 24 16 rfl y hy h.1 (by omega)
          · exact cover_of_getElem? 20 32 rfl y hy h.1 (by omega)
          · exact cover_of_getElem? 16 48 rfl y hy h.1 (by omega)
          · exact cover_of_getElem? 12 64 rfl y hy h.1 (by omega)
          · exact cover_of_getElem? 8 80 rfl y hy h.1 (by omega)
          · exact cover_of_getElem? 4 96 rfl y hy h.1 (by omega)
          · exact cover_of_getElem? 0 112 rfl y hy h (by omega)
        case hz =>
          refine forall_mem_of_getElem? _ 32 rfl fun i hi p hp => ?_
          interval_cases i <;> (obtain rfl := Option.some.inj hp) <;> dsimp only <;> first
            | (intro x hx; exact absurd hx (row_ne3 (by decide) x))
            | (intro x _; rfl)
  isplitl [H0' H1' H2' H3' H4' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    iexact Hbufs
  isplitl [Hsem5 HsemA HsemB HsemC Hsems]
  · isplitl [Hsem5]; · iexact Hsem5
    isplitl [HsemA]; · iexact HsemA
    isplitl [HsemB]; · iexact HsemB
    isplitl [HsemC]; · iexact HsemC
    iexact Hsems
  iexists _; isplitr
  rotate_left
  · iexact HO
  · ipureintro; intro p hp
    simp only [Finset.mem_insert] at hp
    rcases hp with rfl | rfl | rfl | rfl | hp
    exacts [.inr rfl, .inr rfl, .inr rfl, .inr rfl, .inl hp]

end Tile

/-! ## The launch theorem's obligation -/

theorem defs₀_vector (c : Fin τ.nSC) (s : Fin τ.nSub) :
    defs₀ (F := F) (.scVector c s) 0 ()
      = SparseCore.onTile hcore0 hsub0 (fun c s => cc0__sc_aggregates (coordsV c s)
          (Memref.whole main_arg3_scv) (Memref.isWhole_whole _) (Memref.whole main_v3_scv) (Memref.isWhole_whole _)
          (Memref.whole main_arg1_scv) (Memref.isWhole_whole _) (Memref.whole main_v4_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) cc0_scratch5 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The one vector-subcore kernel as the task of tile `i` of SparseCore `c`: `tile_body` at that tile's grid point and
    its share of the read share. -/
theorem tileObl : (K (F := F)).TileObl (D (F := F)) 𝒱 (P m cv) v₀ 0 := by
  intro d c i O W hO _ _
  -- this kernel owes nothing for a protocol of its own (`Pay.ox` at its default)
  simp only [show (P m cv).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m cv d (coordsV ⟨_, hc.1⟩ ⟨_, hc.2⟩) (qT (Fin.cast nCore_zero c) (Fin.cast nSub_zero i)) O W hO).trans
    (wp_mono frame _ _ fun _ => obl_post)

end Cert.Proof.KI

end
-- ==== Proof.KICallIO.lean ====
/-
  How the SparseCore call's operands come out of the unscoped arrays the TensorCore holds, and how its results go
  back.  Four arrays are concerned: the neighbour indices, the centre index on sixteen lanes and the neighbour
  states, which the tiles only read, and the call's 4 x 4096 result, which they write.  The three read arrays split
  by shares, a token per SparseCore and a remainder that waits; the result splits by elements, into the thirty-two
  tiles' 4 x 128 blocks: tile i of SparseCore c owns columns [128 (2 i + c), 128 (2 i + c) + 128) of all four rows,
  part 2 i + c of the cut of the 4096 columns into thirty-two, so the blocks are pairwise disjoint and cover the
  array.  Coming back, every block is at some contents whose row 3 is zero; one contents of the whole array agrees
  with each on its block, so its row 3 is zero everywhere; the shares rejoin; every other array was never touched.
-/
import proofs.«211217_g68642167325227_cont_9to1_m_1168_22_alg».proof.Proof.KIHmain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Transfers (pointsTo_toks_split pointsTo_toks_join shareTok shareDrop)

/-! ## The thirty-two result blocks tile the 4 x 4096 result -/

/-- The result's 4096 columns cut into thirty-two parts of 128. -/
theorem hdiv32 : 32 ∣ S4x4096.size 1 := ⟨128, rfl⟩

/-- The worker number of tile i of SparseCore c: 2 i + c. -/
def wk (c : Fin 2) (i : Fin 16) : Fin 32 := ⟨2 * i.val + c.val, by omega⟩

/-- A tile's block starts at row 0 and column 128 (2 i + c): the offsets of part 2 i + c of the cut. -/
theorem off15_eq : ∀ (c : Fin 2) (i : Fin 16) (a : Fin 2),
    k0_off15 (pt c i) a = Shape.partIx S4x4096 1 (wk c i).val a * Shape.partSize S4x4096 1 32 a := by decide +kernel

/-- A tile's block is 4 x 128: the sizes of a part of the cut. -/
theorem size_eq : ∀ a : Fin 2, S4x128.size a = Shape.partSize S4x4096 1 32 a := by decide +kernel

/-- Two unit-stride rectangles with the same offsets and sizes are one. -/
theorem unit_congr {s : Shape} {off off' size size' : Fin s.rank → Nat} {inb : ∀ a, off a + size a ≤ s.size a}
    {inb' : ∀ a, off' a + size' a ≤ s.size a} (ho : off = off') (hs : size = size') :
    Rect.unit off size inb = Rect.unit off' size' inb' := by
  subst ho; subst hs; rfl

/-- Tile (c, i)'s rectangle is part 2 i + c of the cut of the columns into thirty-two. -/
theorem blkR_eq (p : Fin 2 × Fin 16) :
    Rect.unit (s := S4x4096) (k0_off15 (pt p.1 p.2)) S4x128.size (k0_off15_inb (pt p.1 p.2))
      = Rect.part (s := S4x4096) (a₀ := 1) hdiv32 (wk p.1 p.2) :=
  unit_congr (funext (off15_eq p.1 p.2)) (funext size_eq)

/-- The block of tile (c, i), the pair as one index. -/
abbrev blk (p : Fin 2 × Fin 16) : Finset S4x4096.Idx := outSet (pt p.1 p.2)

/-- Tile (c, i)'s block is part 2 i + c of the cut of the columns into thirty-two. -/
theorem blk_eq (p : Fin 2 × Fin 16) : blk p = (Rect.part (s := S4x4096) (a₀ := 1) hdiv32 (wk p.1 p.2)).set := by
  show ((View.whole (main_v4_scv : Ref sig .scVector)).slice
    (Rect.unit (s := S4x4096) (k0_off15 (pt p.1 p.2)) S4x128.size (k0_off15_inb (pt p.1 p.2)))).set = _
  rw [View.set_slice_whole, blkR_eq]

/-- Different tiles have different worker numbers. -/
theorem wk_inj {p p' : Fin 2 × Fin 16} (h : wk p.1 p.2 = wk p'.1 p'.2) : p = p' := by
  have h' := congrArg Fin.val h
  simp only [wk] at h'
  have := p.1.isLt; have := p'.1.isLt
  apply Prod.ext <;> apply Fin.ext <;> omega

/-- Different tiles' blocks are disjoint. -/
theorem blk_disjoint : ∀ p ∈ (Finset.univ : Finset (Fin 2 × Fin 16)), ∀ p' ∈ (Finset.univ : Finset (Fin 2 × Fin 16)),
    p ≠ p' → Disjoint (blk p) (blk p') :=
  fun p _ p' _ h => by rw [blk_eq, blk_eq]; exact Rect.part_disjoint hdiv32 fun e => h (wk_inj e)

/-- Every element of the result lies in some tile's block. -/
theorem exists_blk (x : S4x4096.Idx) : ∃ p : Fin 2 × Fin 16, x ∈ blk p := by
  obtain ⟨j, hj⟩ := Rect.exists_mem_part hdiv32 x
  have hjl := j.isLt
  refine ⟨(⟨j.val % 2, Nat.mod_lt _ (by norm_num)⟩, ⟨j.val / 2, by omega⟩), ?_⟩
  rw [blk_eq]
  have hw : wk ⟨j.val % 2, Nat.mod_lt _ (by norm_num)⟩ ⟨j.val / 2, by omega⟩ = j :=
    Fin.ext (by simp only [wk]; omega)
  rw [hw]; exact hj

/-- The blocks cover the result. -/
theorem blk_cover : (Finset.univ : Finset (Fin 2 × Fin 16)).biUnion blk = Finset.univ := by
  ext x
  simp only [Finset.mem_biUnion, Finset.mem_univ, true_and, iff_true]
  exact exists_blk x

variable {F : FTy → Type} [FloatOps F] [Named F] [Cert.KernelIdeal.Facts]

local notation "𝕄" => MT nD τ sig (HIx 1) (Elt F) ℕ UU ℕ

variable (m : (ℓ : Loc nD τ sig) → Buf (Elt F) ℓ)

/-! ## What the first host stretch leaves in the four arrays -/

/-- The first stretch writes only its four results. -/
theorem ops1_not_writes {r : Ref sig .tc} (h0 : r ≠ main_v0) (h1 : r ≠ main_v1) (h2 : r ≠ main_v2) (h3 : r ≠ main_v3) :
    ∀ op ∈ (ops1 : List (HloOp τ sig (Elt F))), (Proc.devRef .tc r : DevRef τ sig) ∉ op.writes := by
  intro op h
  simp only [ops1, List.mem_cons, List.not_mem_nil, or_false] at h
  rcases h with rfl | rfl | rfl | rfl
  · rw [StableHlo.reshape_writes, Finset.mem_singleton]; exact StableHlo.devRef_ne_of_ne h0
  · rw [StableHlo.reshape_writes, Finset.mem_singleton]; exact StableHlo.devRef_ne_of_ne h1
  · rw [StableHlo.reshape_writes, Finset.mem_singleton]; exact StableHlo.devRef_ne_of_ne h2
  · rw [StableHlo.unary_writes, Finset.mem_singleton]; exact StableHlo.devRef_ne_of_ne h3

/-- The neighbour indices are as at the launch. -/
theorem V1_n (d : Dev nD) : V1 m d n' = m (nLoc d) :=
  StableHlo.after_of_forall_not_mem _ _ (ops1_not_writes (by decide) (by decide) (by decide) (by decide))
/-- The neighbour states are as at the launch. -/
theorem V1_x (d : Dev nD) : V1 m d x' = m (xLoc d) :=
  StableHlo.after_of_forall_not_mem _ _ (ops1_not_writes (by decide) (by decide) (by decide) (by decide))
/-- The call's result array is as at the launch. -/
theorem V1_o (d : Dev nD) : V1 m d o' = m (oLoc d) :=
  StableHlo.after_of_forall_not_mem _ _ (ops1_not_writes (by decide) (by decide) (by decide) (by decide))

/-! ## The four arrays out of the unscoped ones -/

/-- The four arrays are unscoped TensorCore arrays. -/
theorem four_sub : ({n', c', x', o'} : Finset (DevRef τ sig)) ⊆ UC := by decide

/-- The four arrays held at a valuation, one by one. -/
theorem held_four (d : Dev nD) (W : Valuation τ sig (Elt F)) :
    (held (T d) {n', c', x', o'} W : sProp 𝕄)
      = iprop((nLoc d ↦{fullShare} W n') ∗ (cLoc d ↦{fullShare} W c') ∗ (xLoc d ↦{fullShare} W x') ∗ (oLoc d ↦{fullShare} W o')) := by
  unfold held
  rw [bigSep_insert (by decide), bigSep_insert (by decide), bigSep_insert (by decide), bigSep_singleton]
  rfl

/-! ## The result array as its thirty-two blocks -/

/-- The result array whole is its thirty-two blocks. -/
theorem oPts_blocks (d : Dev nD) (f : Buf (Elt F) (oLoc d)) :
    (oLoc d ↦{fullShare} f : sProp 𝕄)
      = bigSep Finset.univ fun c : Fin 2 => bigSep Finset.univ fun i : Fin 16 => oLoc d ↦[outSet (pt c i)]{fullShare} f := by
  have h1 : (oLoc d ↦[(Finset.univ : Finset (Fin 2 × Fin 16)).biUnion blk]{fullShare} f : sProp 𝕄)
      = bigSep Finset.univ fun p : Fin 2 × Fin 16 => oLoc d ↦[blk p]{fullShare} f :=
    pointsTo_biUnion Finset.univ (ℓ := oLoc d) blk blk_disjoint
  rw [blk_cover] at h1
  exact h1.trans (bigSep_univ_prod (fun p : Fin 2 × Fin 16 => (oLoc d ↦[blk p]{fullShare} f : sProp 𝕄)))

/-- An element of a tile's block in row 3 is the image of an element of row 3 of the block. -/
theorem row3_of_mem (p : Fin 2 × Fin 16) (j : S4x4096.Idx) (hj : j ∈ blk p) (h3 : (j 0).val = 3) :
    ∃ j' : S4x128.Idx, (j' 0).val = 3 ∧ (outM (pt p.1 p.2)).view.emb j' = j := by
  obtain ⟨j', -, e⟩ := Finset.mem_map.mp hj
  refine ⟨j', ?_, e⟩
  have h0 : k0_off15 (pt p.1 p.2) 0 = 0 := by rw [off15_eq]; rfl
  have e0 : (((Rect.unit (s := S4x4096) (k0_off15 (pt p.1 p.2)) S4x128.size (k0_off15_inb (pt p.1 p.2))).emb j' 0 : Fin _) : Nat)
      = (j 0).val := congrArg (fun x : S4x4096.Idx => (x 0).val) e
  rw [Rect.emb_apply, Rect.off_unit, Rect.stride_unit, h0] at e0
  omega

/-- A block back at contents whose row 3 is zero, the fact first. -/
theorem outPost_swap (d : Dev nD) (p : Fin 2 × Fin 16) :
    (outPost (F := F) d (pt p.1 p.2) : sProp 𝕄)
      ⊢ iprop(∃ f : Buf (Elt F) (oLoc d), ⌜Row3Zero d (pt p.1 p.2) f⌝ ∗ (oLoc d ↦[blk p]{fullShare} f)) := by
  unfold outPost
  iintro ⟨%f, H, %h⟩
  iexists f
  isplitr
  · ipureintro; exact h
  · iexact H

/-- The blocks back, each at contents whose row 3 is zero, are the whole array at contents whose row 3 is zero. -/
theorem oBlocks_join (d : Dev nD) :
    (bigSep Finset.univ fun c : Fin 2 => bigSep Finset.univ fun i : Fin 16 => (outPost (F := F) d (pt c i) : sProp 𝕄))
      ⊢ (iprop(∃ g, ⌜OutZero (F := F) d g⌝ ∗ oLoc d ↦{fullShare} g) : sProp 𝕄) := by
  refine (Entails.of_eq (bigSep_univ_prod (fun p : Fin 2 × Fin 16 => (outPost (F := F) d (pt p.1 p.2) : sProp 𝕄))).symm).trans ?_
  have hswap : (bigSep Finset.univ fun p : Fin 2 × Fin 16 => (outPost (F := F) d (pt p.1 p.2) : sProp 𝕄))
      ⊢ bigSep Finset.univ fun p : Fin 2 × Fin 16 =>
          iprop(∃ f : Buf (Elt F) (oLoc d), ⌜Row3Zero d (pt p.1 p.2) f⌝ ∗ (oLoc d ↦[blk p]{fullShare} f)) :=
    bigSep_mono fun p _ => outPost_swap d p
  refine hswap.trans ?_
  refine (bigSep_exists_pi Finset.univ
    (fun (p : Fin 2 × Fin 16) (f : Buf (Elt F) (oLoc d)) => iprop(⌜Row3Zero d (pt p.1 p.2) f⌝ ∗ (oLoc d ↦[blk p]{fullShare} f)))).trans ?_
  iintro ⟨%fs, H⟩
  ihave H' := (bigSep_pure_sep Finset.univ (fun p : Fin 2 × Fin 16 => Row3Zero d (pt p.1 p.2) (fs p))
    (fun p => (oLoc d ↦[blk p]{fullShare} fs p : sProp 𝕄))) $$ H
  icases H' with ⟨%hz, H⟩
  ihave H'' := (pointsTo_biUnion_join Finset.univ blk fs (fs (0, 0)) blk_disjoint) $$ H
  icases H'' with ⟨%g, %hg, Hg⟩
  rw [blk_cover]
  iexists g
  isplitr
  · ipureintro
    intro j h3
    obtain ⟨p, hp⟩ := exists_blk j
    obtain ⟨j', h3', e⟩ := row3_of_mem p j hp h3
    rw [hg p (Finset.mem_univ p) j hp, ← e]
    exact hz p (Finset.mem_univ p) j' h3'
  · iexact Hg

/-! ## The three read arrays: one share per SparseCore, the remainder kept -/

variable (cv : (d : Dev nD) → Buf (Elt F) (cLoc d))

/-- The three read arrays whole are the remainder of the full share and one token per SparseCore. -/
theorem rdPts_split2 (d : Dev nD) :
    (rdPts m cv d fullShare : sProp 𝕄)
      ⊢ iprop(rdPts m cv d (shareDrop fullShare 2) ∗ bigSep Finset.univ fun c : Fin 2 => rdPts m cv d (qC c)) := by
  unfold rdPts
  iintro ⟨Hn, Hc, Hx⟩
  ihave Hn' := (pointsTo_toks_split (ℓ := nLoc d) (S := Finset.univ) (f := m (nLoc d)) fullShare 2) $$ Hn
  ihave Hc' := (pointsTo_toks_split (ℓ := cLoc d) (S := Finset.univ) (f := cv d) fullShare 2) $$ Hc
  ihave Hx' := (pointsTo_toks_split (ℓ := xLoc d) (S := Finset.univ) (f := m (xLoc d)) fullShare 2) $$ Hx
  icases Hn' with ⟨Hnr, Hnt⟩
  icases Hc' with ⟨Hcr, Hct⟩
  icases Hx' with ⟨Hxr, Hxt⟩
  isplitl [Hnr Hcr Hxr]
  · isplitl [Hnr]; · iexact Hnr
    isplitl [Hcr]; · iexact Hcr
    iexact Hxr
  rw [bigSep_sep', bigSep_sep']
  isplitl [Hnt]; · iexact Hnt
  isplitl [Hct]; · iexact Hct
  iexact Hxt

/-- and back. -/
theorem rdPts_join2 (d : Dev nD) :
    iprop(rdPts m cv d (shareDrop fullShare 2) ∗ bigSep Finset.univ fun c : Fin 2 => rdPts m cv d (qC c))
      ⊢ (rdPts m cv d fullShare : sProp 𝕄) := by
  unfold rdPts
  rw [bigSep_sep', bigSep_sep']
  iintro ⟨⟨Hnr, Hcr, Hxr⟩, Hnt, Hct, Hxt⟩
  isplitl [Hnr Hnt]
  · iapply (pointsTo_toks_join (ℓ := nLoc d) (S := Finset.univ) (f := m (nLoc d)) fullShare 2)
    isplitl [Hnr] <;> iassumption
  isplitl [Hcr Hct]
  · iapply (pointsTo_toks_join (ℓ := cLoc d) (S := Finset.univ) (f := cv d) fullShare 2)
    isplitl [Hcr] <;> iassumption
  iapply (pointsTo_toks_join (ℓ := xLoc d) (S := Finset.univ) (f := m (xLoc d)) fullShare 2)
  isplitl [Hxr] <;> iassumption

/-- A conjunction over the call's SparseCores is one over two numbers. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## After the call -/

/-- The three read arrays are not the result array. -/
theorem n_ne_o : (n' : DevRef τ sig) ≠ o' := by decide
theorem c_ne_o : (c' : DevRef τ sig) ≠ o' := by decide
theorem x_ne_o : (x' : DevRef τ sig) ≠ o' := by decide

/-- The four arrays and the rest, the result at g, are the unscoped arrays after the call. -/
theorem held_V2 (d : Dev nD) (g : Buf (Elt F) (oLoc d)) :
    iprop(rdPts m (cvOf m) d fullShare ∗ (oLoc d ↦{fullShare} g) ∗ held (T d) (UC \ {n', c', x', o'}) (V1 m d))
      ⊢ (held (T d) UC (V2 m d g) : sProp 𝕄) := by
  have hrest : (held (T d) (UC \ {n', c', x', o'}) (V2 m d g) : sProp 𝕄) = held (T d) (UC \ {n', c', x', o'}) (V1 m d) :=
    held_congr (T d) fun b hb => by
      have hne : b ≠ o' := by
        rintro rfl
        exact (Finset.mem_sdiff.mp hb).2 (by decide)
      exact Function.update_of_ne hne _ _
  have hn : V2 m d g n' = m (nLoc d) := (Function.update_of_ne n_ne_o _ _).trans (V1_n m d)
  have hc : V2 m d g c' = cvOf m d := Function.update_of_ne c_ne_o _ _
  have hx : V2 m d g x' = m (xLoc d) := (Function.update_of_ne x_ne_o _ _).trans (V1_x m d)
  have ho : V2 m d g o' = g := Function.update_self _ _ _
  rw [held_sub_split (T d) four_sub (V2 m d g), held_four, hrest, hn, hc, hx, ho]
  unfold rdPts
  iintro ⟨⟨Hn, Hc, Hx⟩, Ho, Hrest⟩
  isplitr [Hrest]
  · isplitl [Hn]; · iexact Hn
    isplitl [Hc]; · iexact Hc
    isplitl [Hx]; · iexact Hx
    iexact Ho
  · iexact Hrest

/-! ## The call's operands out of the unscoped arrays, and its results back -/

/-- Before the call the TensorCore holds every unscoped array at what the first host stretch left.  Out of them
    come, per SparseCore, its read share of the neighbour indices, the centre index and the neighbour states, and
    its sixteen tiles' blocks of the result array; the remainders of the read shares and every other array wait.
    When the SparseCores hand back the same shares and every block with row 3 zero, the shares rejoin, the blocks
    join to the whole result at contents whose row 3 is zero, and the unscoped arrays are held again, the result
    alone changed. -/
theorem call_io (d : Dev nD) :
    (held (T d) UC (V1 m d) : sProp 𝕄) ⊢ iprop((bigSep Finset.univ fun c : Fin ((K (F := F)).nCore 0) => (P m (cvOf m)).st 0 d c)
      ∗ ((bigSep Finset.univ fun c : Fin ((K (F := F)).nCore 0) => (P m (cvOf m)).dn 0 d c)
        -∗ ∃ g, ⌜OutZero d g⌝ ∗ held (T d) UC (V2 m d g))) := by
  rw [held_sub_split (T d) four_sub (V1 m d), held_four, V1_n, V1_x, V1_o, oPts_blocks]
  show iprop(((nLoc d ↦{fullShare} m (nLoc d)) ∗ (cLoc d ↦{fullShare} V1 m d c') ∗ (xLoc d ↦{fullShare} m (xLoc d))
        ∗ bigSep Finset.univ fun c : Fin 2 => bigSep Finset.univ fun i : Fin 16 => oLoc d ↦[outSet (pt c i)]{fullShare} m (oLoc d))
      ∗ held (T d) (UC \ {n', c', x', o'}) (V1 m d))
    ⊢ iprop((bigSep Finset.univ fun c : Fin ((K (F := F)).nCore 0) =>
        iprop(rdPts m (cvOf m) d (qC (Fin.cast nCore_zero c))
          ∗ bigSep Finset.univ fun i : Fin 16 => outPre m d (pt (Fin.cast nCore_zero c) i)))
      ∗ ((bigSep Finset.univ fun c : Fin ((K (F := F)).nCore 0) =>
          iprop(rdPts m (cvOf m) d (qC (Fin.cast nCore_zero c))
            ∗ bigSep Finset.univ fun i : Fin 16 => outPost d (pt (Fin.cast nCore_zero c) i)))
        -∗ ∃ g, ⌜OutZero d g⌝ ∗ held (T d) UC (V2 m d g)))
  rw [bigSep_cores (F := F) (fun c => iprop(rdPts m (cvOf m) d (qC c) ∗ bigSep Finset.univ fun i : Fin 16 => outPre m d (pt c i))),
    bigSep_cores (F := F) (fun c => iprop(rdPts m (cvOf m) d (qC c) ∗ bigSep Finset.univ fun i : Fin 16 => outPost d (pt c i))),
    bigSep_sep', bigSep_sep']
  iintro ⟨⟨Hn, Hc, Hx, Ho⟩, Hrest⟩
  ihave Hr := (rdPts_split2 m (cvOf m) d) $$ [Hn Hc Hx]
  · unfold rdPts
    isplitl [Hn]; · iexact Hn
    isplitl [Hc]; · iexact Hc
    iexact Hx
  icases Hr with ⟨Hrem, Htok⟩
  isplitl [Htok Ho]
  · isplitl [Htok]; · iexact Htok
    unfold outPre
    iexact Ho
  iintro ⟨Htok, Hpost⟩
  ihave Hj := (oBlocks_join (F := F) d) $$ Hpost
  icases Hj with ⟨%g, %hg, Hg⟩
  iexists g
  isplitr
  · ipureintro; exact hg
  iapply (held_V2 m d g)
  isplitl [Hrem Htok]
  · iapply (rdPts_join2 m (cvOf m) d)
    isplitl [Hrem] <;> iassumption
  isplitl [Hg]; · iexact Hg
  iexact Hrest

end Cert.Proof.KI

end
-- ==== Proof.KIArgs.lean ====
/-
  @main's arguments keep their launch contents to the end: no host operation of the three stretches writes an
  argument array, and neither the SparseCore call's result nor the TensorCore kernel region's result is one.
-/
import proofs.«211217_g68642167325227_cont_9to1_m_1168_22_alg».proof.Proof.KIHmain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

/-- @main's fourteen arguments. -/
def argRefs : List (Ref sig .tc) :=
  [main_arg0, main_arg1, main_arg2, main_arg3, main_arg4, main_arg5, main_arg6, main_arg7, main_arg8, main_arg9,
    main_arg10, main_arg11, main_arg12, main_arg13]

/-- Every array @main's steps write: the host operations' results, the call's result, the region's result. -/
def wroteRefs : List (Ref sig .tc) :=
  [main_v0, main_v1, main_v2, main_v3, main_v4, main_v5, main_v6, main_v7, main_v8, main_v9, main_v10, main_v11,
    main_v12, main_v13, main_v14, main_cst, main_v15, main_v16]

/-- No argument is among the arrays written. -/
theorem arg_ne_wrote : ∀ r ∈ argRefs, ∀ y ∈ wroteRefs, r ≠ y := by decide

/-- An array among those written, as a one-element set of device buffers. -/
theorem wrote_sub {y : Ref sig .tc} (h : y ∈ wroteRefs) :
    ({Proc.devRef .tc y} : Finset (DevRef τ sig)) ⊆ (wroteRefs.map (Proc.devRef (τ := τ) .tc)).toFinset :=
  Finset.singleton_subset_iff.mpr (List.mem_toFinset.mpr (List.mem_map_of_mem h))

variable {F : FTy → Type} [FloatOps F] [Named F] [Cert.KernelIdeal.Facts]

/-- The three host stretches write only arrays of the list. -/
theorem ops1_wrote : (ops1 : List (HloOp τ sig (Elt F))).Forall fun op =>
    op.writes ⊆ (wroteRefs.map (Proc.devRef (τ := τ) .tc)).toFinset :=
  ⟨wrote_sub (by decide), wrote_sub (by decide), wrote_sub (by decide), wrote_sub (by decide)⟩
theorem ops2_wrote : (ops2 : List (HloOp τ sig (Elt F))).Forall fun op =>
    op.writes ⊆ (wroteRefs.map (Proc.devRef (τ := τ) .tc)).toFinset :=
  ⟨wrote_sub (by decide), wrote_sub (by decide), wrote_sub (by decide), wrote_sub (by decide), wrote_sub (by decide)⟩
theorem ops3_wrote : (ops3 : List (HloOp τ sig (Elt F))).Forall fun op =>
    op.writes ⊆ (wroteRefs.map (Proc.devRef (τ := τ) .tc)).toFinset :=
  ⟨wrote_sub (by decide), wrote_sub (by decide), wrote_sub (by decide), wrote_sub (by decide), wrote_sub (by decide),
    wrote_sub (by decide), wrote_sub (by decide)⟩

variable (m : (ℓ : Loc nD τ sig) → Buf (Elt F) ℓ)

/-- At the end every argument holds what it held at the launch, whatever the call and the region returned. -/
theorem V5_arg (d : Dev nD) (g : Buf (Elt F) (oLoc d)) (vo : Buf (Elt F) (rLoc d)) {r : Ref sig .tc} (hr : r ∈ argRefs) :
    V5 m d g vo (Proc.devRef .tc r) = m (d, Proc.devRef .tc r) := by
  have hne : ∀ y ∈ wroteRefs, r ≠ y := arg_ne_wrote r hr
  have hnot : r ∉ wroteRefs := fun h => hne r h rfl
  unfold V5
  rw [StableHlo.after_of_writes_sub ops3 _ ops3_wrote hnot]
  unfold V4
  rw [Function.update_of_ne (StableHlo.devRef_ne_of_ne (hne main_v10 (by decide)))]
  unfold V3
  rw [StableHlo.after_of_writes_sub ops2 _ ops2_wrote hnot]
  unfold V2
  rw [Function.update_of_ne (StableHlo.devRef_ne_of_ne (hne main_v4 (by decide)))]
  unfold V1
  rw [StableHlo.after_of_writes_sub ops1 _ ops1_wrote hnot]
  rfl

end Cert.Proof.KI

end
-- ==== Proof.KIFrame.lean ====
/-
  The frame of the idealized kernel: the whole program's run from the launch theorem, and from its final valuation that every
  argument array ends as it began (no host operation writes an argument; the call and the region write their own results).
-/
import proofs.«211217_g68642167325227_cont_9to1_m_1168_22_alg».proof.Proof.KIRegion
import proofs.«211217_g68642167325227_cont_9to1_m_1168_22_alg».proof.Proof.KIRegBody
import proofs.«211217_g68642167325227_cont_9to1_m_1168_22_alg».proof.Proof.KITile
import proofs.«211217_g68642167325227_cont_9to1_m_1168_22_alg».proof.Proof.KICallIO
import proofs.«211217_g68642167325227_cont_9to1_m_1168_22_alg».proof.Proof.KIArgs

noncomputable section

namespace Cert.Proof.KI

open Cert.KernelIdeal Cert.KernelIdeal.Gen

open Idealize.ShloMosaic
open Idealize.ShloMosaic.SparseCore (S V T)
open Idealize.SL Idealize.SL.Sem

variable {F : FTy → Type} [FloatOps F] [Named F] [Cert.KernelIdeal.Facts] [∀ e, Nonempty (Elt F e)]

variable (m : (ℓ : Loc nD τ sig) → Buf (Elt F) ℓ) (ρ : Dev nD → PrngReg)

/-- The whole program's run: on every device the unscoped arrays end at the final valuation, for a result of the call whose
    row 3 is zero and the region's result as the pipeline library computes it from the body's function. -/
theorem run (tcOutF : TcOutTy F) (htc : TcBodySpec tcOutF) :
    θ_run (Cert.KernelIdeal.defs (F := F)) (Cert.KernelIdeal.threads (F := F)) ⟨m, fun _ => 0, ρ⟩ (QC m (TcOutP m tcOutF)) :=
  run_main m ρ (TcOutP m tcOutF) (call_io m) (region_rule m tcOutF (fun d g => body_obligation m tcOutF htc d g)) (tileObl m (cvOf m))

/-- Every argument is an unscoped TensorCore array. -/
theorem arg_mem_UC : ∀ r ∈ argRefs, (Proc.devRef .tc r : DevRef τ sig) ∈ UC := by decide

/-- The final valuation leaves every argument array at its launch contents. -/
theorem args_of_QC (TcOut : (d : Dev nD) → Buf (Elt F) (oLoc d) → Buf (Elt F) (rLoc d) → Prop) (r : PUnit × MemSt nD τ sig (Elt F))
    (h : QC m TcOut r) (c : Dev nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13) := by
  obtain ⟨g, vo, -, -, hb⟩ := h c
  exact ⟨(hb (Proc.devRef .tc main_arg0) (arg_mem_UC main_arg0 (by decide))).trans (V5_arg m c g vo (r := main_arg0) (by decide)),
    (hb (Proc.devRef .tc main_arg1) (arg_mem_UC main_arg1 (by decide))).trans (V5_arg m c g vo (r := main_arg1) (by decide)),
    (hb (Proc.devRef .tc main_arg2) (arg_mem_UC main_arg2 (by decide))).trans (V5_arg m c g vo (r := main_arg2) (by decide)),
    (hb (Proc.devRef .tc main_arg3) (arg_mem_UC main_arg3 (by decide))).trans (V5_arg m c g vo (r := main_arg3) (by decide)),
    (hb (Proc.devRef .tc main_arg4) (arg_mem_UC main_arg4 (by decide))).trans (V5_arg m c g vo (r := main_arg4) (by decide)),
    (hb (Proc.devRef .tc main_arg5) (arg_mem_UC main_arg5 (by decide))).trans (V5_arg m c g vo (r := main_arg5) (by decide)),
    (hb (Proc.devRef .tc main_arg6) (arg_mem_UC main_arg6 (by decide))).trans (V5_arg m c g vo (r := main_arg6) (by decide)),
    (hb (Proc.devRef .tc main_arg7) (arg_mem_UC main_arg7 (by decide))).trans (V5_arg m c g vo (r := main_arg7) (by decide)),
    (hb (Proc.devRef .tc main_arg8) (arg_mem_UC main_arg8 (by decide))).trans (V5_arg m c g vo (r := main_arg8) (by decide)),
    (hb (Proc.devRef .tc main_arg9) (arg_mem_UC main_arg9 (by decide))).trans (V5_arg m c g vo (r := main_arg9) (by decide)),
    (hb (Proc.devRef .tc main_arg10) (arg_mem_UC main_arg10 (by decide))).trans (V5_arg m c g vo (r := main_arg10) (by decide)),
    (hb (Proc.devRef .tc main_arg11) (arg_mem_UC main_arg11 (by decide))).trans (V5_arg m c g vo (r := main_arg11) (by decide)),
    (hb (Proc.devRef .tc main_arg12) (arg_mem_UC main_arg12 (by decide))).trans (V5_arg m c g vo (r := main_arg12) (by decide)),
    (hb (Proc.devRef .tc main_arg13) (arg_mem_UC main_arg13 (by decide))).trans (V5_arg m c g vo (r := main_arg13) (by decide))⟩

end Cert.Proof.KI

end
-- ==== Proof.KIRegValue.lean ====
/-
  The value the TensorCore kernel region leaves, as a function of @main's arguments.

  The region is gridless: its one point writes the result window's block back whole, so the result array ends at
  what the body leaves; every input window's block is its whole array; and the arrays the region reads are, through
  the host operations before it, reshapes of arguments or arguments themselves (the SparseCore call's result is not
  among them).  So the region's result is the body's function of the arguments, whatever the call returned.
-/
import proofs.«211217_g68642167325227_cont_9to1_m_1168_22_alg».proof.Proof.KIRegBody
import proofs.«211217_g68642167325227_cont_9to1_m_1168_22_alg».proof.Proof.KIArgs
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat BodyObligation)

variable {F : FTy → Type} [FloatOps F] [Named F] [Cert.KernelIdeal.Facts]

local notation "𝕄" => MT nD τ sig (HIx 1) (Elt F) ℕ UU ℕ

variable (m : (ℓ : Loc nD τ sig) → Buf (Elt F) ℓ) (tcOutF : TcOutTy F)

/-! ## The result array after the region -/

/-- What the one point writes back is the body's result read through the result window's block (the whole array). -/
theorem flushed9_eq (d : Dev nD) (g : Buf (Elt F) (oLoc d)) (t : Fin cfg1.N) :
    (dat1 m tcOutF d g).flushed 9 t = ((cfg1.win 9).blk t).view.read (Elt F) (tcVal m tcOutF d g t1_0) := by
  show (cfg1.win 9).cut (grid1.coords t) ((dat1 m tcOutF d g).after 9 t) = _
  rw [after1_9, fin_N1 t]
  funext j
  show tcVal m tcOutF d g t1_0 ((cfg1.win 9).xinj (grid1.coords t1_0) j) = tcVal m tcOutF d g t1_0 (((cfg1.win 9).blk t1_0).view.emb j)
  congr 1
  funext a; apply Fin.ext
  show (j a).val = 0 * _ + 1 * (j a).val
  omega

/-- The result array after the region is what the body leaves at the one point: its block is the whole array. -/
theorem final9 (d : Dev nD) (g : Buf (Elt F) (oLoc d)) :
    (dat1 m tcOutF d g).arrAt 9 cfg1.N = tcVal m tcOutF d g t1_0 :=
  (dat1 m tcOutF d g).arrAt_eq_of_cover 9 (tcVal m tcOutF d g t1_0) (fun t _ => flushed9_eq m tcOutF d g t) fun i =>
    ⟨t1_0, flush1_9 t1_0, by
      show i ∈ ((View.whole main_v10).slice (win1_9.rect t1_0)).set
      rw [View.set_slice_whole]
      exact Rect.mem_set_unit.mpr fun a => ⟨by show 0 * _ ≤ _; rw [Nat.zero_mul]; exact Nat.zero_le _,
        by show (i a).val < 0 * _ + _; rw [Nat.zero_mul, Nat.zero_add]; exact (i a).isLt⟩⟩

/-! ## The arrays the region reads, through the host operations before it -/

/-- `main_v0` is `main_arg2` reshaped: neither the call's result nor a later host operation touches it. -/
theorem V3_v0 (d : Dev nD) (g : Buf (Elt F) (oLoc d)) :
    V3 m d g (Proc.devRef .tc main_v0) = shapeCast S1x1 (m (d, Proc.devRef .tc main_arg2)) shapeCasts_S_S1x1 := by
  unfold V3 ops2
  after_results
  unfold V2
  rw [Function.update_of_ne (StableHlo.devRef_ne_of_ne (by decide))]
  unfold V1 ops1
  after_results
  rfl
/-- `main_v1` is `main_arg0` reshaped: neither the call's result nor a later host operation touches it. -/
theorem V3_v1 (d : Dev nD) (g : Buf (Elt F) (oLoc d)) :
    V3 m d g (Proc.devRef .tc main_v1) = shapeCast S1x1024 (m (d, Proc.devRef .tc main_arg0)) shapeCasts_S1024_S1x1024 := by
  unfold V3 ops2
  after_results
  unfold V2
  rw [Function.update_of_ne (StableHlo.devRef_ne_of_ne (by decide))]
  unfold V1 ops1
  after_results
  rfl
/-- `main_v2` is `main_arg3` reshaped: neither the call's result nor a later host operation touches it. -/
theorem V3_v2 (d : Dev nD) (g : Buf (Elt F) (oLoc d)) :
    V3 m d g (Proc.devRef .tc main_v2) = shapeCast S1x512 (m (d, Proc.devRef .tc main_arg3)) shapeCasts_S512_S1x512 := by
  unfold V3 ops2
  after_results
  unfold V2
  rw [Function.update_of_ne (StableHlo.devRef_ne_of_ne (by decide))]
  unfold V1 ops1
  after_results
  rfl
/-- `main_v5` is `main_arg13` reshaped: neither the call's result nor a later host operation touches it. -/
theorem V3_v5 (d : Dev nD) (g : Buf (Elt F) (oLoc d)) :
    V3 m d g (Proc.devRef .tc main_v5) = shapeCast S1x3 (m (d, Proc.devRef .tc main_arg13)) shapeCasts_S3_S1x3 := by
  unfold V3 ops2
  after_results
  unfold V2
  rw [Function.update_of_ne (StableHlo.devRef_ne_of_ne (by decide))]
  unfold V1 ops1
  after_results
  rfl
/-- `main_v6` is `main_arg7` reshaped: neither the call's result nor a later host operation touches it. -/
theorem V3_v6 (d : Dev nD) (g : Buf (Elt F) (oLoc d)) :
    V3 m d g (Proc.devRef .tc main_v6) = shapeCast S1x1024 (m (d, Proc.devRef .tc main_arg7)) shapeCasts_S1024_S1x1024 := by
  unfold V3 ops2
  after_results
  unfold V2
  rw [Function.update_of_ne (StableHlo.devRef_ne_of_ne (by decide))]
  unfold V1 ops1
  after_results
  rfl
/-- `main_v7` is `main_arg5` reshaped: neither the call's result nor a later host operation touches it. -/
theorem V3_v7 (d : Dev nD) (g : Buf (Elt F) (oLoc d)) :
    V3 m d g (Proc.devRef .tc main_v7) = shapeCast S1x1024 (m (d, Proc.devRef .tc main_arg5)) shapeCasts_S1024_S1x1024 := by
  unfold V3 ops2
  after_results
  unfold V2
  rw [Function.update_of_ne (StableHlo.devRef_ne_of_ne (by decide))]
  unfold V1 ops1
  after_results
  rfl
/-- `main_v8` is `main_arg9` reshaped: neither the call's result nor a later host operation touches it. -/
theorem V3_v8 (d : Dev nD) (g : Buf (Elt F) (oLoc d)) :
    V3 m d g (Proc.devRef .tc main_v8) = shapeCast S1x1024 (m (d, Proc.devRef .tc main_arg9)) shapeCasts_S1024_S1x1024 := by
  unfold V3 ops2
  after_results
  unfold V2
  rw [Function.update_of_ne (StableHlo.devRef_ne_of_ne (by decide))]
  unfold V1 ops1
  after_results
  rfl
/-- `main_v9` is `main_arg11` reshaped: neither the call's result nor a later host operation touches it. -/
theorem V3_v9 (d : Dev nD) (g : Buf (Elt F) (oLoc d)) :
    V3 m d g (Proc.devRef .tc main_v9) = shapeCast S1x1024 (m (d, Proc.devRef .tc main_arg11)) shapeCasts_S1024_S1x1024 := by
  unfold V3 ops2
  after_results
  unfold V2
  rw [Function.update_of_ne (StableHlo.devRef_ne_of_ne (by decide))]
  unfold V1 ops1
  after_results
  rfl

/-- An argument array is as launched when the region is entered. -/
theorem V3_arg (d : Dev nD) (g : Buf (Elt F) (oLoc d)) {r : Ref sig .tc} (hr : r ∈ argRefs) :
    V3 m d g (Proc.devRef .tc r) = m (d, Proc.devRef .tc r) := by
  have hne : ∀ y ∈ wroteRefs, r ≠ y := arg_ne_wrote r hr
  have hnot : r ∉ wroteRefs := fun h => hne r h rfl
  unfold V3
  rw [StableHlo.after_of_writes_sub ops2 _ ops2_wrote hnot]
  unfold V2
  rw [Function.update_of_ne (StableHlo.devRef_ne_of_ne (hne main_v4 (by decide)))]
  unfold V1
  rw [StableHlo.after_of_writes_sub ops1 _ ops1_wrote hnot]
  rfl

/-! ## Each input window's block is its whole array, so a reshape of an argument or an argument -/

theorem iblk0_eq (d : Dev nD) (g : Buf (Elt F) (oLoc d)) (t : Fin cfg1.N) :
    iblk m d g 0 t = (shapeCast S1x1 (m (d, Proc.devRef .tc main_arg2)) shapeCasts_S_S1x1) := by
  rw [← V3_v0 m d g]
  unfold iblk
  funext j
  show VR m d g main_v0 (((cfg1.win 0).blk t).view.emb j) = VR m d g main_v0 j
  congr 1
  funext a; apply Fin.ext
  show 0 * _ + 1 * (j a).val = (j a).val
  omega
theorem iblk1_eq (d : Dev nD) (g : Buf (Elt F) (oLoc d)) (t : Fin cfg1.N) :
    iblk m d g 1 t = (shapeCast S1x1024 (m (d, Proc.devRef .tc main_arg0)) shapeCasts_S1024_S1x1024) := by
  rw [← V3_v1 m d g]
  unfold iblk
  funext j
  show VR m d g main_v1 (((cfg1.win 1).blk t).view.emb j) = VR m d g main_v1 j
  congr 1
  funext a; apply Fin.ext
  show 0 * _ + 1 * (j a).val = (j a).val
  omega
theorem iblk2_eq (d : Dev nD) (g : Buf (Elt F) (oLoc d)) (t : Fin cfg1.N) :
    iblk m d g 2 t = (shapeCast S1x512 (m (d, Proc.devRef .tc main_arg3)) shapeCasts_S512_S1x512) := by
  rw [← V3_v2 m d g]
  unfold iblk
  funext j
  show VR m d g main_v2 (((cfg1.win 2).blk t).view.emb j) = VR m d g main_v2 j
  congr 1
  funext a; apply Fin.ext
  show 0 * _ + 1 * (j a).val = (j a).val
  omega
theorem iblk3_eq (d : Dev nD) (g : Buf (Elt F) (oLoc d)) (t : Fin cfg1.N) :
    iblk m d g 3 t = (shapeCast S1x3 (m (d, Proc.devRef .tc main_arg13)) shapeCasts_S3_S1x3) := by
  rw [← V3_v5 m d g]
  unfold iblk
  funext j
  show VR m d g main_v5 (((cfg1.win 3).blk t).view.emb j) = VR m d g main_v5 j
  congr 1
  funext a; apply Fin.ext
  show 0 * _ + 1 * (j a).val = (j a).val
  omega
theorem iblk4_eq (d : Dev nD) (g : Buf (Elt F) (oLoc d)) (t : Fin cfg1.N) :
    iblk m d g 4 t = (m (d, Proc.devRef .tc main_arg12)) := by
  rw [← V3_arg m d g (r := main_arg12) (by decide)]
  unfold iblk
  funext j
  show VR m d g main_arg12 (((cfg1.win 4).blk t).view.emb j) = VR m d g main_arg12 j
  congr 1
  funext a; apply Fin.ext
  show 0 * _ + 1 * (j a).val = (j a).val
  omega
theorem iblk5_eq (d : Dev nD) (g : Buf (Elt F) (oLoc d)) (t : Fin cfg1.N) :
    iblk m d g 5 t = (shapeCast S1x1024 (m (d, Proc.devRef .tc main_arg7)) shapeCasts_S1024_S1x1024) := by
  rw [← V3_v6 m d g]
  unfold iblk
  funext j
  show VR m d g main_v6 (((cfg1.win 5).blk t).view.emb j) = VR m d g main_v6 j
  congr 1
  funext a; apply Fin.ext
  show 0 * _ + 1 * (j a).val = (j a).val
  omega
theorem iblk6_eq (d : Dev nD) (g : Buf (Elt F) (oLoc d)) (t : Fin cfg1.N) :
    iblk m d g 6 t = (shapeCast S1x1024 (m (d, Proc.devRef .tc main_arg5)) shapeCasts_S1024_S1x1024) := by
  rw [← V3_v7 m d g]
  unfold iblk
  funext j
  show VR m d g main_v7 (((cfg1.win 6).blk t).view.emb j) = VR m d g main_v7 j
  congr 1
  funext a; apply Fin.ext
  show 0 * _ + 1 * (j a).val = (j a).val
  omega
theorem iblk7_eq (d : Dev nD) (g : Buf (Elt F) (oLoc d)) (t : Fin cfg1.N) :
    iblk m d g 7 t = (shapeCast S1x1024 (m (d, Proc.devRef .tc main_arg9)) shapeCasts_S1024_S1x1024) := by
  rw [← V3_v8 m d g]
  unfold iblk
  funext j
  show VR m d g main_v8 (((cfg1.win 7).blk t).view.emb j) = VR m d g main_v8 j
  congr 1
  funext a; apply Fin.ext
  show 0 * _ + 1 * (j a).val = (j a).val
  omega
theorem iblk8_eq (d : Dev nD) (g : Buf (Elt F) (oLoc d)) (t : Fin cfg1.N) :
    iblk m d g 8 t = (shapeCast S1x1024 (m (d, Proc.devRef .tc main_arg11)) shapeCasts_S1024_S1x1024) := by
  rw [← V3_v9 m d g]
  unfold iblk
  funext j
  show VR m d g main_v9 (((cfg1.win 8).blk t).view.emb j) = VR m d g main_v9 j
  congr 1
  funext a; apply Fin.ext
  show 0 * _ + 1 * (j a).val = (j a).val
  omega

/-! ## The region's result as a function of @main's arguments -/

/-- The body's function at @main's arguments: the nine staged operands are reshapes of arguments or arguments, the
    five arrays it copies are arguments. -/
def tcOutArgs (d : Dev nD) : Vec F S1x1024 .f32 :=
  tcOutF (shapeCast S1x1 (m (d, Proc.devRef .tc main_arg2)) shapeCasts_S_S1x1)
    (shapeCast S1x1024 (m (d, Proc.devRef .tc main_arg0)) shapeCasts_S1024_S1x1024)
    (shapeCast S1x512 (m (d, Proc.devRef .tc main_arg3)) shapeCasts_S512_S1x512)
    (shapeCast S1x3 (m (d, Proc.devRef .tc main_arg13)) shapeCasts_S3_S1x3)
    (m (d, Proc.devRef .tc main_arg12))
    (shapeCast S1x1024 (m (d, Proc.devRef .tc main_arg7)) shapeCasts_S1024_S1x1024)
    (shapeCast S1x1024 (m (d, Proc.devRef .tc main_arg5)) shapeCasts_S1024_S1x1024)
    (shapeCast S1x1024 (m (d, Proc.devRef .tc main_arg9)) shapeCasts_S1024_S1x1024)
    (shapeCast S1x1024 (m (d, Proc.devRef .tc main_arg11)) shapeCasts_S1024_S1x1024)
    (m (d, Proc.devRef .tc main_arg1)) (m (d, Proc.devRef .tc main_arg6)) (m (d, Proc.devRef .tc main_arg4)) (m (d, Proc.devRef .tc main_arg10)) (m (d, Proc.devRef .tc main_arg8))

/-- What the body computes at the one point is its function of the arguments, whatever the SparseCore call returned. -/
theorem tcVal_args (d : Dev nD) (g : Buf (Elt F) (oLoc d)) : tcVal m tcOutF d g t1_0 = tcOutArgs m tcOutF d := by
  unfold tcVal tcOutArgs VR
  rw [iblk0_eq, iblk1_eq, iblk2_eq, iblk3_eq, iblk4_eq, iblk5_eq, iblk6_eq, iblk7_eq, iblk8_eq,
    V3_arg m d g (r := main_arg1) (by decide), V3_arg m d g (r := main_arg6) (by decide), V3_arg m d g (r := main_arg4) (by decide), V3_arg m d g (r := main_arg10) (by decide), V3_arg m d g (r := main_arg8) (by decide)]

/-- THE REGION'S RESULT: the result array after the region is the body's function of @main's arguments. -/
theorem region_value (d : Dev nD) (g : Buf (Elt F) (oLoc d)) :
    (dat1 m tcOutF d g).arrAt 9 cfg1.N = tcOutArgs m tcOutF d :=
  (final9 m tcOutF d g).trans (tcVal_args m tcOutF d g)

end Cert.Proof.KI

end
-- ==== Proof.LibLattice.lean ====
/-
  The pure mathematics of a 27 x 27 x 27 lattice's coordinates and of two distance masks, read at the ideal
  instance (a float an extended real, every operation exact).

  A cell index n with 0 ≤ n ≤ 27^3 - 1 has coordinates z = n mod 27, y = (n div 27) mod 27, x = n div 729.
  One program computes them on 32-bit integer words (truncating signed division and remainder, each followed
  by a floor correction by signs, the remainder behind a divisor-is-zero guard) and converts the words to floats;
  another converts n to a float first and computes q = floor((n + 1/2) * (1/27)), n - 27 * q. Both then form the
  squared distance D of two cells, a natural number, and classify it: "near" as D < 3.5 on one side and
  sqrt(D + e) ≤ 1.8f on the other, "far" as D > 24.5 and sqrt(D + e) ≥ 5, with e and 1.8f two binary32 values.
  This file proves that the two computations of each coordinate give the same natural number, and that the two
  forms of each mask give the same bit (near: D ≤ 3; far: 25 ≤ D).

  Every float literal of the two programs is stated here as the extended real its binary32 pattern denotes.
-/
import Idealize.ShloMosaic.PureOps
import Idealize.ShloMosaic.PureOps.Ideal
import Idealize.ShloMosaic.PureOps.Ideal.Laws
import Idealize.ShloMosaic.PureOps.IdealRules

noncomputable section

namespace Cert.Lattice

open Idealize.ShloMosaic

/-! ## The float literals, as the extended reals their patterns denote -/

/-- The pattern of `0.5` denotes the real 1/2. -/
theorem ofBits_half : Ideal.ofBits .f32 0x3F000000#32 = ((1 / 2 : ℝ) : EReal) := by
  simp [Ideal.ofBits, Ideal.ieee, -EReal.coe_mul]; norm_num

/-- The pattern of `27.0` denotes the real 27. -/
theorem ofBits_27 : Ideal.ofBits .f32 0x41D80000#32 = ((27 : ℝ) : EReal) := by
  simp [Ideal.ofBits, Ideal.ieee, -EReal.coe_mul]; norm_num

/-- The pattern of `3.5` denotes the real 7/2. -/
theorem ofBits_3p5 : Ideal.ofBits .f32 0x40600000#32 = ((7 / 2 : ℝ) : EReal) := by
  simp [Ideal.ofBits, Ideal.ieee, -EReal.coe_mul]; norm_num

/-- The pattern of `24.5` denotes the real 49/2. -/
theorem ofBits_24p5 : Ideal.ofBits .f32 0x41C40000#32 = ((49 / 2 : ℝ) : EReal) := by
  simp [Ideal.ofBits, Ideal.ieee, -EReal.coe_mul]; norm_num

/-- The pattern of `5.0` denotes the real 5. -/
theorem ofBits_5 : Ideal.ofBits .f32 0x40A00000#32 = ((5 : ℝ) : EReal) := by
  simp [Ideal.ofBits, Ideal.ieee, -EReal.coe_mul]; norm_num

/-- The binary32 value nearest 1.8 is the dyadic rational 15099494 / 2^23 (about 1.79999995). -/
theorem ofBits_1p8 : Ideal.ofBits .f32 0x3FE66666#32 = ((15099494 / 8388608 : ℝ) : EReal) := by
  simp [Ideal.ofBits, Ideal.ieee, -EReal.coe_mul]; norm_num

/-- The binary32 value nearest 1e-12 is the dyadic rational 9223372 / 2^63 (about 9.99999996e-13). -/
theorem ofBits_eps : Ideal.ofBits .f32 0x2B8CBCCC#32 = ((9223372 / 2 ^ 63 : ℝ) : EReal) := by
  simp [Ideal.ofBits, Ideal.ieee, -EReal.coe_mul]; norm_num

/-- The pattern of `0.001953125` denotes the real 1/512. -/
theorem ofBits_inv512 : Ideal.ofBits .f32 0x3B000000#32 = ((1 / 512 : ℝ) : EReal) := by
  simp [Ideal.ofBits, Ideal.ieee, -EReal.coe_mul]; norm_num

/-- The pattern of `512.0` denotes the real 512. -/
theorem ofBits_512 : Ideal.ofBits .f32 0x44000000#32 = ((512 : ℝ) : EReal) := by
  simp [Ideal.ofBits, Ideal.ieee, -EReal.coe_mul]; norm_num

/-- The pattern of negative infinity denotes the bottom element. -/
theorem ofBits_neg_inf : Ideal.ofBits .f32 0xFF800000#32 = ⊥ := by
  simp [Ideal.ofBits, Ideal.ieee]

/-- The pattern of `1.0` denotes 1. -/
theorem ofBits_one : Ideal.ofBits .f32 0x3F800000#32 = 1 := by
  simp [Ideal.ofBits, Ideal.ieee, -EReal.coe_mul]; norm_num

/-- The pattern of `+0.0` denotes 0. -/
theorem ofBits_zero : Ideal.ofBits .f32 0x00000000#32 = 0 := by
  simp [Ideal.ofBits, Ideal.ieee]

/-! ## Natural numbers among the extended reals -/

/-- The sum of two natural numbers, read as extended reals, is their sum read as one. -/
theorem natCast_add (m n : ℕ) : ((m : ℝ) : EReal) + ((n : ℝ) : EReal) = (((m + n : ℕ) : ℝ) : EReal) := by
  rw [← EReal.coe_add, Nat.cast_add]

/-- The product of two natural numbers, read as extended reals, is their product read as one. -/
theorem natCast_mul (m n : ℕ) : ((m : ℝ) : EReal) * ((n : ℝ) : EReal) = (((m * n : ℕ) : ℝ) : EReal) := by
  rw [← EReal.coe_mul, Nat.cast_mul]

/-- The squared difference of two natural numbers, a natural number. -/
def sqDiff (a b : ℕ) : ℕ := ((a : ℤ) - (b : ℤ)).natAbs ^ 2

/-- (a - b) * (a - b) on the extended reals, for natural a and b, is the natural number (a - b)^2. -/
theorem sub_mul_self (a b : ℕ) :
    (((a : ℝ) : EReal) - ((b : ℝ) : EReal)) * (((a : ℝ) : EReal) - ((b : ℝ) : EReal))
      = (((sqDiff a b : ℕ) : ℝ) : EReal) := by
  rw [← EReal.coe_sub, ← EReal.coe_mul, EReal.coe_eq_coe_iff]
  have h1 : ((sqDiff a b : ℕ) : ℤ) = ((a : ℤ) - (b : ℤ)) ^ 2 := by
    unfold sqDiff; push_cast; exact sq_abs _
  have h2 : ((sqDiff a b : ℕ) : ℝ) = ((a : ℝ) - (b : ℝ)) ^ 2 := by exact_mod_cast h1
  rw [h2]; ring

/-! ## The float road: q = floor((n + 1/2) * (1/27)) and n - 27 * q -/

/-- For a natural number n, floor((n + 1/2) / 27) is the natural quotient n div 27: with n = 27 q + r and
    0 ≤ r < 27 the argument is q + (r + 1/2) / 27, and 0 < (r + 1/2) / 27 < 1. -/
theorem floor_real (n : ℕ) : ⌊((n : ℝ) + 1 / 2) * (1 / 27)⌋ = ((n / 27 : ℕ) : ℤ) := by
  obtain ⟨q, r, hr, rfl⟩ : ∃ q r, r < 27 ∧ n = 27 * q + r :=
    ⟨n / 27, n % 27, Nat.mod_lt _ (by norm_num), (Nat.div_add_mod n 27).symm⟩
  have hq : (27 * q + r) / 27 = q := by omega
  rw [hq, Int.floor_eq_iff]
  have hr' : (r : ℝ) ≤ 26 := by exact_mod_cast (by omega : r ≤ 26)
  have hr0 : (0 : ℝ) ≤ (r : ℝ) := Nat.cast_nonneg r
  push_cast
  constructor <;> linarith

/-- The quotient step at the ideal instance: floor((n + 1/2) * (1/27)) = n div 27. -/
theorem floor_step (n : ℕ) :
    Ideal.liftRound Int.floor ((((n : ℝ) : EReal) + ((1 / 2 : ℝ) : EReal)) * ((1 / 27 : ℝ) : EReal))
      = (((n / 27 : ℕ) : ℝ) : EReal) := by
  rw [← EReal.coe_add, ← EReal.coe_mul, Ideal.liftRound_coe, floor_real, Int.cast_natCast]

/-- The remainder step at the ideal instance: n - 27 * (n div 27) = n mod 27. -/
theorem rem_step (n : ℕ) :
    ((n : ℝ) : EReal) - ((27 : ℝ) : EReal) * (((n / 27 : ℕ) : ℝ) : EReal) = (((n % 27 : ℕ) : ℝ) : EReal) := by
  rw [← EReal.coe_mul, ← EReal.coe_sub, EReal.coe_eq_coe_iff]
  have h : (n : ℝ) = 27 * ((n / 27 : ℕ) : ℝ) + ((n % 27 : ℕ) : ℝ) := by
    exact_mod_cast (Nat.div_add_mod n 27).symm
  linarith

/-- Two quotient steps by 27 are one by 729. -/
theorem div_div_27 (n : ℕ) : n / 27 / 27 = n / 729 := by
  rw [Nat.div_div_eq_div_mul]

/-- The quotient step as the operations print it: the literal 0.5 and any constant that denotes 1/27. -/
theorem floor_step' (n : ℕ) (c : EReal) (hc : c = ((1 / 27 : ℝ) : EReal)) :
    FloatOps.floor (F := Ideal) (φ := .f32)
        (FloatOps.mulf (FloatOps.addf ((n : ℝ) : EReal) (FloatOps.ofBits .f32 0x3F000000#32)) c)
      = (((n / 27 : ℕ) : ℝ) : EReal) := by
  subst hc
  show Ideal.liftRound Int.floor ((((n : ℝ) : EReal) + Ideal.ofBits .f32 0x3F000000#32) * ((1 / 27 : ℝ) : EReal)) = _
  rw [ofBits_half, floor_step]

/-- The remainder step as the operations print it: the literal 27.0 times the quotient, subtracted. -/
theorem rem_step' (n : ℕ) :
    FloatOps.subf (F := Ideal) (φ := .f32) ((n : ℝ) : EReal)
        (FloatOps.mulf (FloatOps.ofBits .f32 0x41D80000#32) (((n / 27 : ℕ) : ℝ) : EReal))
      = (((n % 27 : ℕ) : ℝ) : EReal) := by
  show ((n : ℝ) : EReal) - Ideal.ofBits .f32 0x41D80000#32 * (((n / 27 : ℕ) : ℝ) : EReal) = _
  rw [ofBits_27, rem_step]

/-! ## The integer road: truncating division of a nonnegative word by a positive one -/

/-- A word that reads as a nonnegative signed integer has its sign bit clear. -/
theorem msb_false_of_nonneg {v : BitVec 32} (h : 0 ≤ v.toInt) : v.msb = false := by
  by_contra hm
  have hm' : v.msb = true := by simpa using hm
  rw [BitVec.toInt_eq_msb_cond, if_pos hm'] at h
  have := v.isLt
  omega

/-- A word that reads as a nonnegative signed integer is below 2^31 read unsigned. -/
theorem toNat_lt_of_nonneg {v : BitVec 32} (h : 0 ≤ v.toInt) : v.toNat < 2 ^ 31 := by
  have := BitVec.msb_eq_false_iff_two_mul_lt.mp (msb_false_of_nonneg h)
  omega

/-- Signed and unsigned readings of a nonnegative word agree. -/
theorem toInt_eq_toNat_of_nonneg {v : BitVec 32} (h : 0 ≤ v.toInt) : v.toInt = (v.toNat : ℤ) :=
  BitVec.toInt_eq_toNat_of_msb (msb_false_of_nonneg h)

/-- The word of a natural number below 2^31 reads back as that number, signed. -/
theorem toInt_ofNat_small (k : ℕ) (hk : k < 2 ^ 31) : (BitVec.ofNat 32 k).toInt = (k : ℤ) := by
  rw [BitVec.toInt_eq_toNat_cond, BitVec.toNat_ofNat, Nat.mod_eq_of_lt (by omega), if_pos (by omega)]

/-- The signed conversion to float of a nonnegative word, at the ideal instance, is the natural number
    the word denotes. (The left side is `FloatOps.sitofp .f32 v` and `Scalar.sitofp .f32 v` there.) -/
theorem sitofp_nonneg (v : BitVec 32) (h : 0 ≤ v.toInt) :
    ((v.toInt : ℝ) : EReal) = ((v.toNat : ℝ) : EReal) := by
  rw [toInt_eq_toNat_of_nonneg h, Int.cast_natCast]

/-- The signed conversion to float of the word of a natural number below 2^31 is that number. -/
theorem sitofp_ofNat (k : ℕ) (hk : k < 2 ^ 31) :
    (((BitVec.ofNat 32 k).toInt : ℝ) : EReal) = ((k : ℝ) : EReal) := by
  rw [toInt_ofNat_small k hk, Int.cast_natCast]

/-- A division by a positive word is not at the signed-division corner (a zero divisor, or the least
    integer divided by -1). -/
theorem not_corner (v : BitVec 32) {d : BitVec 32} (hd : 0 < d.toInt) : ¬ IntOp.SDivCorner v d := by
  rintro (h | ⟨_, h⟩)
  · subst h; exact absurd hd (by decide)
  · subst h; exact absurd hd (by decide)

/-- Truncating signed division of a nonnegative word by a positive word is natural division. -/
theorem divsi_nonneg (u : ArithUnit) (v d : BitVec 32) (hv : 0 ≤ v.toInt) (hd : 0 < d.toInt) :
    IntOp.divsi u v d = BitVec.ofNat 32 (v.toNat / d.toNat) := by
  have h : v.sdiv d = v / d := by
    rw [BitVec.sdiv_eq, msb_false_of_nonneg hv, msb_false_of_nonneg hd.le]; rfl
  rw [IntOp.divsi, if_neg (not_corner v hd), h]
  apply BitVec.eq_of_toNat_eq
  rw [BitVec.toNat_udiv, BitVec.toNat_ofNat]
  exact (Nat.mod_eq_of_lt (lt_of_le_of_lt (Nat.div_le_self _ _) v.isLt)).symm

/-- The signed remainder of a nonnegative word by a positive word is the natural remainder. -/
theorem remsi_nonneg (u : ArithUnit) (v d : BitVec 32) (hv : 0 ≤ v.toInt) (hd : 0 < d.toInt) :
    IntOp.remsi u v d = BitVec.ofNat 32 (v.toNat % d.toNat) := by
  have h : v.srem d = v % d := by
    rw [BitVec.srem_eq, msb_false_of_nonneg hv, msb_false_of_nonneg hd.le]
  rw [IntOp.remsi, if_neg (not_corner v hd), h]
  apply BitVec.eq_of_toNat_eq
  rw [BitVec.toNat_umod, BitVec.toNat_ofNat]
  exact (Nat.mod_eq_of_lt (lt_of_le_of_lt (Nat.mod_le _ _) v.isLt)).symm

/-- The remainder word of a nonnegative word by a positive word reads as a nonnegative signed integer. -/
theorem remsi_toInt_nonneg (u : ArithUnit) (v d : BitVec 32) (hv : 0 ≤ v.toInt) (hd : 0 < d.toInt) :
    0 ≤ (IntOp.remsi u v d).toInt := by
  have hlt : v.toNat % d.toNat < 2 ^ 31 := lt_of_le_of_lt (Nat.mod_le _ _) (toNat_lt_of_nonneg hv)
  rw [remsi_nonneg u v d hv hd, toInt_ofNat_small _ hlt]
  exact Int.natCast_nonneg _

/-- Floor division as it is lowered to words — the truncated quotient, less one where the operands' signs
    differ and the remainder is not zero — is natural division on a nonnegative dividend and a positive
    divisor: the signs differ only at a zero dividend, whose remainder is zero. -/
theorem floorDivide_word (u : ArithUnit) (v d : BitVec 32) (hv : 0 ≤ v.toInt) (hd : 0 < d.toInt) :
    Scalar.select
        (IntOp.andi
          (IntOp.cmpi .ne (if v = 0 then (0 : BitVec 32) else if v.msb then -1 else 1)
            (if d = 0 then (0 : BitVec 32) else if d.msb then -1 else 1))
          (IntOp.cmpi .ne (IntOp.remsi u v d) 0#32))
        (IntOp.subi (IntOp.divsi u v d) 1#32)
        (IntOp.divsi u v d)
      = BitVec.ofNat 32 (v.toNat / d.toNat) := by
  have hdne : d ≠ 0 := by rintro rfl; exact absurd hd (by decide)
  have hc : IntOp.andi
          (IntOp.cmpi .ne (if v = 0 then (0 : BitVec 32) else if v.msb then -1 else 1)
            (if d = 0 then (0 : BitVec 32) else if d.msb then -1 else 1))
          (IntOp.cmpi .ne (IntOp.remsi u v d) 0#32) = 0#1 := by
    rw [if_neg hdne, msb_false_of_nonneg hd.le]
    by_cases h0 : v = 0
    · subst h0
      rw [remsi_nonneg u 0 d (by decide) hd]
      simp [IntOp.andi, IntOp.cmpi]
    · rw [if_neg h0, msb_false_of_nonneg hv]
      simp [IntOp.andi, IntOp.cmpi]
  rw [hc, Scalar.select, if_neg (by decide), divsi_nonneg u v d hv hd]

/-- The remainder as it is lowered to words — the truncated remainder, plus the divisor where it is not zero
    and its sign differs from the divisor's — is the natural remainder on a nonnegative dividend and a
    positive divisor: neither the remainder nor the divisor is negative. -/
theorem remainder_word (u : ArithUnit) (v d : BitVec 32) (hv : 0 ≤ v.toInt) (hd : 0 < d.toInt) :
    Scalar.select
        (IntOp.andi
          (IntOp.cmpi .ne (IntOp.cmpi .slt (IntOp.remsi u v d) 0#32) (IntOp.cmpi .slt d 0#32))
          (IntOp.cmpi .ne (IntOp.remsi u v d) 0#32))
        (IntOp.addi (IntOp.remsi u v d) d)
        (IntOp.remsi u v d)
      = BitVec.ofNat 32 (v.toNat % d.toNat) := by
  have h1 : IntOp.cmpi .slt (IntOp.remsi u v d) 0#32 = 0#1 := by
    have := remsi_toInt_nonneg u v d hv hd
    simp only [IntOp.cmpi, BitVec.slt_eq_decide]
    rw [decide_eq_false (by simpa using this)]; rfl
  have h2 : IntOp.cmpi .slt d 0#32 = 0#1 := by
    simp only [IntOp.cmpi, BitVec.slt_eq_decide]
    rw [decide_eq_false (by simpa using hd.le)]; rfl
  have hc : IntOp.andi
          (IntOp.cmpi .ne (IntOp.cmpi .slt (IntOp.remsi u v d) 0#32) (IntOp.cmpi .slt d 0#32))
          (IntOp.cmpi .ne (IntOp.remsi u v d) 0#32) = 0#1 := by
    rw [h1, h2]; simp [IntOp.andi, IntOp.cmpi]
  rw [hc, Scalar.select, if_neg (by decide), remsi_nonneg u v d hv hd]

/-- The remainder's divisor-is-zero guard leaves the divisor 27 as it is. -/
theorem guard_27 : Scalar.select (IntOp.cmpi .eq 27#32 0#32) 1#32 27#32 = 27#32 := by decide

/-- The divisor 27 is not negative. -/
theorem slt_27 : IntOp.cmpi .slt 27#32 0#32 = 0#1 := by decide

/-- The sign of the divisor 27 is 1, in the spelling of the integer sign operation. -/
theorem sign_27 : (if (27#32 : BitVec 32) = 0 then (0 : BitVec 32) else if (27#32 : BitVec 32).msb then -1 else 1) = 1 := by
  decide
/-- The sign of the divisor 729 is 1, in the spelling of the integer sign operation. -/
theorem sign_729 : (if (729#32 : BitVec 32) = 0 then (0 : BitVec 32) else if (729#32 : BitVec 32).msb then -1 else 1) = 1 := by
  decide

/-! ### The same, at an index of the vector operations

Every operand that is a scalar spread over the vector is taken here as a vector of its own whose value at the
index is assumed. -/

/-- Floor division at an index of its vector form. -/
theorem floorDivide_apply {s : Shape} (x dq dr sd z o : IVec s 32) (i : s.Idx) (d : BitVec 32)
    (hdq : dq i = d) (hdr : dr i = d)
    (hsd : sd i = (if d = 0 then (0 : BitVec 32) else if d.msb then -1 else 1))
    (hz : z i = 0#32) (ho : o i = 1#32) (hx : 0 ≤ (x i).toInt) (hd : 0 < d.toInt) :
    select (andi (cmpi .ne (signi x) sd) (cmpi .ne (Host.remsi x dr) z)) (subi (Host.divsi x dq) o) (Host.divsi x dq) i
      = BitVec.ofNat 32 ((x i).toNat / d.toNat) := by
  show Scalar.select
      (IntOp.andi (IntOp.cmpi .ne (if x i = 0 then (0 : BitVec 32) else if (x i).msb then -1 else 1) (sd i))
        (IntOp.cmpi .ne (IntOp.remsi .host (x i) (dr i)) (z i)))
      (IntOp.subi (IntOp.divsi .host (x i) (dq i)) (o i)) (IntOp.divsi .host (x i) (dq i)) = _
  rw [hdq, hdr, hsd, hz, ho]
  exact floorDivide_word .host (x i) d hx hd

/-- The remainder at an index of its vector form. -/
theorem remainder_apply {s : Shape} (x dv dd z1 z2 : IVec s 32) (nd : IVec s 1) (i : s.Idx) (d : BitVec 32)
    (hdv : dv i = d) (hdd : dd i = d) (hnd : nd i = IntOp.cmpi .slt d 0#32)
    (hz1 : z1 i = 0#32) (hz2 : z2 i = 0#32) (hx : 0 ≤ (x i).toInt) (hd : 0 < d.toInt) :
    select (andi (cmpi .ne (cmpi .slt (Host.remsi x dv) z2) nd) (cmpi .ne (Host.remsi x dv) z1))
        (addi (Host.remsi x dv) dd) (Host.remsi x dv) i
      = BitVec.ofNat 32 ((x i).toNat % d.toNat) := by
  show Scalar.select
      (IntOp.andi (IntOp.cmpi .ne (IntOp.cmpi .slt (IntOp.remsi .host (x i) (dv i)) (z2 i)) (nd i))
        (IntOp.cmpi .ne (IntOp.remsi .host (x i) (dv i)) (z1 i)))
      (IntOp.addi (IntOp.remsi .host (x i) (dv i)) (dd i)) (IntOp.remsi .host (x i) (dv i)) = _
  rw [hdv, hdd, hnd, hz1, hz2]
  exact remainder_word .host (x i) d hx hd

/-! ## The two masks on a squared distance D, a natural number -/

/-- Below 3.5, a natural number is at most 3. -/
theorem lt_3p5_iff (D : ℕ) : (D : ℝ) < 7 / 2 ↔ D ≤ 3 := by
  constructor
  · intro h
    by_contra hD
    have : (4 : ℝ) ≤ (D : ℝ) := by exact_mod_cast (by omega : 4 ≤ D)
    linarith
  · intro h
    have : (D : ℝ) ≤ 3 := by exact_mod_cast h
    linarith

/-- Above 24.5, a natural number is at least 25. -/
theorem gt_24p5_iff (D : ℕ) : 49 / 2 < (D : ℝ) ↔ 25 ≤ D := by
  constructor
  · intro h
    by_contra hD
    have : (D : ℝ) ≤ 24 := by exact_mod_cast (by omega : D ≤ 24)
    linarith
  · intro h
    have : (25 : ℝ) ≤ (D : ℝ) := by exact_mod_cast h
    linarith

/-- sqrt(D + e) ≤ 1.8f exactly when D ≤ 3, for e = 9223372 / 2^63 and 1.8f = 15099494 / 2^23:
    1.8f^2 = 3.2399998..., so D ≤ 3 gives D + e ≤ 3 + e < 1.8f^2, and D ≥ 4 gives D + e > 4 > 1.8f^2. -/
theorem near_real (D : ℕ) :
    Real.sqrt ((D : ℝ) + 9223372 / 2 ^ 63) ≤ 15099494 / 8388608 ↔ D ≤ 3 := by
  rw [Real.sqrt_le_left (by norm_num)]
  have e0 : (0 : ℝ) < 9223372 / 2 ^ 63 := by positivity
  have e1 : ((15099494 : ℝ) / 8388608) ^ 2 < 4 := by norm_num
  have e2 : (3 : ℝ) + 9223372 / 2 ^ 63 ≤ ((15099494 : ℝ) / 8388608) ^ 2 := by norm_num
  constructor
  · intro h
    by_contra hD
    have : (4 : ℝ) ≤ (D : ℝ) := by exact_mod_cast (by omega : 4 ≤ D)
    linarith
  · intro h
    have : (D : ℝ) ≤ 3 := by exact_mod_cast h
    linarith

/-- 5 ≤ sqrt(D + e) exactly when 25 ≤ D, for e = 9223372 / 2^63: 0 < e < 1 and D is a whole number. -/
theorem far_real (D : ℕ) :
    5 ≤ Real.sqrt ((D : ℝ) + 9223372 / 2 ^ 63) ↔ 25 ≤ D := by
  rw [Real.le_sqrt' (by norm_num)]
  have e0 : (0 : ℝ) < 9223372 / 2 ^ 63 := by positivity
  have e1 : (9223372 : ℝ) / 2 ^ 63 < 1 := by norm_num
  constructor
  · intro h
    by_contra hD
    have : (D : ℝ) ≤ 24 := by exact_mod_cast (by omega : D ≤ 24)
    norm_num at h
    linarith
  · intro h
    have : (25 : ℝ) ≤ (D : ℝ) := by exact_mod_cast h
    norm_num
    linarith

/-- The square root of D + e at the ideal instance is the real square root: the argument is not negative. -/
theorem sqrt_add_eps (D : ℕ) :
    Ideal.sqrt (((D : ℝ) : EReal) + ((9223372 / 2 ^ 63 : ℝ) : EReal))
      = ((Real.sqrt ((D : ℝ) + 9223372 / 2 ^ 63) : ℝ) : EReal) := by
  rw [← EReal.coe_add, Ideal.sqrt_coe, if_neg (not_lt.mpr (by positivity))]

/-- The near mask's bit, in the form D < 3.5: set exactly when D ≤ 3. -/
theorem cmp_near_val (D : ℕ) :
    Ideal.cmp .olt ((D : ℝ) : EReal) ((7 / 2 : ℝ) : EReal) = BitVec.ofBool (decide (D ≤ 3)) := by
  show BitVec.ofBool (decide (((D : ℝ) : EReal) < ((7 / 2 : ℝ) : EReal))) = _
  congr 1
  rw [decide_eq_decide, EReal.coe_lt_coe_iff]
  exact lt_3p5_iff D

/-- The near mask's bit, in the form sqrt(D + e) ≤ 1.8f: set exactly when D ≤ 3. -/
theorem cmp_near_ref_val (D : ℕ) :
    Ideal.cmp .ole (Ideal.sqrt (((D : ℝ) : EReal) + ((9223372 / 2 ^ 63 : ℝ) : EReal)))
        ((15099494 / 8388608 : ℝ) : EReal)
      = BitVec.ofBool (decide (D ≤ 3)) := by
  rw [sqrt_add_eps]
  show BitVec.ofBool (decide (((Real.sqrt ((D : ℝ) + 9223372 / 2 ^ 63) : ℝ) : EReal)
    ≤ ((15099494 / 8388608 : ℝ) : EReal))) = _
  congr 1
  rw [decide_eq_decide, EReal.coe_le_coe_iff]
  exact near_real D

/-- The two forms of the near mask are one bit. -/
theorem cmp_near (D : ℕ) :
    Ideal.cmp .ole (Ideal.sqrt (((D : ℝ) : EReal) + ((9223372 / 2 ^ 63 : ℝ) : EReal)))
        ((15099494 / 8388608 : ℝ) : EReal)
      = Ideal.cmp .olt ((D : ℝ) : EReal) ((7 / 2 : ℝ) : EReal) := by
  rw [cmp_near_val, cmp_near_ref_val]

/-- The far mask's bit, in the form D > 24.5: set exactly when 25 ≤ D. -/
theorem cmp_far_val (D : ℕ) :
    Ideal.cmp .ogt ((D : ℝ) : EReal) ((49 / 2 : ℝ) : EReal) = BitVec.ofBool (decide (25 ≤ D)) := by
  show BitVec.ofBool (decide (((49 / 2 : ℝ) : EReal) < ((D : ℝ) : EReal))) = _
  congr 1
  rw [decide_eq_decide, EReal.coe_lt_coe_iff]
  exact gt_24p5_iff D

/-- The far mask's bit, in the form sqrt(D + e) ≥ 5: set exactly when 25 ≤ D. -/
theorem cmp_far_ref_val (D : ℕ) :
    Ideal.cmp .oge (Ideal.sqrt (((D : ℝ) : EReal) + ((9223372 / 2 ^ 63 : ℝ) : EReal))) ((5 : ℝ) : EReal)
      = BitVec.ofBool (decide (25 ≤ D)) := by
  rw [sqrt_add_eps]
  show BitVec.ofBool (decide (((5 : ℝ) : EReal)
    ≤ ((Real.sqrt ((D : ℝ) + 9223372 / 2 ^ 63) : ℝ) : EReal))) = _
  congr 1
  rw [decide_eq_decide, EReal.coe_le_coe_iff]
  exact far_real D

/-- The two forms of the far mask are one bit. -/
theorem cmp_far (D : ℕ) :
    Ideal.cmp .oge (Ideal.sqrt (((D : ℝ) : EReal) + ((9223372 / 2 ^ 63 : ℝ) : EReal))) ((5 : ℝ) : EReal)
      = Ideal.cmp .ogt ((D : ℝ) : EReal) ((49 / 2 : ℝ) : EReal) := by
  rw [cmp_far_val, cmp_far_ref_val]

/-- A bit widened to 32 bits and read signed is the bit read unsigned: 0 or 1 either way. -/
theorem bit_sitofp_extui (b : BitVec 1) :
    (((b.setWidth 32).toInt : ℝ) : EReal) = ((b.toNat : ℝ) : EReal) := by
  have h : (b.setWidth 32).toInt = (b.toNat : ℤ) := by revert b; decide
  rw [h, Int.cast_natCast]

/-- A truth value's bit, read unsigned as an extended real, is 1 or 0. -/
theorem ofBool_toNat_cast (p : Prop) [Decidable p] :
    (((BitVec.ofBool (decide p)).toNat : ℝ) : EReal) = if p then 1 else 0 := by
  by_cases h : p <;> simp [h]

/-- The near mask as one program prints it — D < 3.5, the bit widened and converted signed — is 1 where
    D ≤ 3 and 0 elsewhere. -/
theorem mask_near_kernel_val (D : ℕ) :
    FloatOps.sitofp (F := Ideal) .f32
        ((FloatOps.cmpf (F := Ideal) (φ := .f32) .olt ((D : ℝ) : EReal)
          (FloatOps.ofBits .f32 0x40600000#32)).setWidth 32)
      = if D ≤ 3 then (1 : EReal) else 0 := by
  show ((((Ideal.cmp .olt ((D : ℝ) : EReal) (Ideal.ofBits .f32 0x40600000#32)).setWidth 32).toInt : ℝ) : EReal) = _
  rw [ofBits_3p5, cmp_near_val, bit_sitofp_extui, ofBool_toNat_cast]

/-- The near mask as the other program prints it — sqrt(D + e) ≤ 1.8f, the bit converted unsigned — is 1
    where D ≤ 3 and 0 elsewhere. -/
theorem mask_near_ref_val (D : ℕ) :
    FloatOps.uitofp (F := Ideal) .f32
        (FloatOps.cmpf (F := Ideal) (φ := .f32) .ole
          (FloatOps.hostUnary .sqrt (FloatOps.addf ((D : ℝ) : EReal) (FloatOps.ofBits .f32 0x2B8CBCCC#32)))
          (FloatOps.ofBits .f32 0x3FE66666#32))
      = if D ≤ 3 then (1 : EReal) else 0 := by
  show (((Ideal.cmp .ole (Ideal.sqrt (((D : ℝ) : EReal) + Ideal.ofBits .f32 0x2B8CBCCC#32))
    (Ideal.ofBits .f32 0x3FE66666#32)).toNat : ℝ) : EReal) = _
  rw [ofBits_eps, ofBits_1p8, cmp_near_ref_val, ofBool_toNat_cast]

/-- The two printed forms of the near mask are one value. -/
theorem mask_near (D : ℕ) :
    FloatOps.sitofp (F := Ideal) .f32
        ((FloatOps.cmpf (F := Ideal) (φ := .f32) .olt ((D : ℝ) : EReal)
          (FloatOps.ofBits .f32 0x40600000#32)).setWidth 32)
      = FloatOps.uitofp (F := Ideal) .f32
        (FloatOps.cmpf (F := Ideal) (φ := .f32) .ole
          (FloatOps.hostUnary .sqrt (FloatOps.addf ((D : ℝ) : EReal) (FloatOps.ofBits .f32 0x2B8CBCCC#32)))
          (FloatOps.ofBits .f32 0x3FE66666#32)) := by
  rw [mask_near_kernel_val, mask_near_ref_val]

/-- The far mask as one program prints it — D > 24.5, the bit widened and converted signed — is 1 where
    25 ≤ D and 0 elsewhere. -/
theorem mask_far_kernel_val (D : ℕ) :
    FloatOps.sitofp (F := Ideal) .f32
        ((FloatOps.cmpf (F := Ideal) (φ := .f32) .ogt ((D : ℝ) : EReal)
          (FloatOps.ofBits .f32 0x41C40000#32)).setWidth 32)
      = if 25 ≤ D then (1 : EReal) else 0 := by
  show ((((Ideal.cmp .ogt ((D : ℝ) : EReal) (Ideal.ofBits .f32 0x41C40000#32)).setWidth 32).toInt : ℝ) : EReal) = _
  rw [ofBits_24p5, cmp_far_val, bit_sitofp_extui, ofBool_toNat_cast]

/-- The far mask as the other program prints it — sqrt(D + e) ≥ 5, the bit converted unsigned — is 1 where
    25 ≤ D and 0 elsewhere. -/
theorem mask_far_ref_val (D : ℕ) :
    FloatOps.uitofp (F := Ideal) .f32
        (FloatOps.cmpf (F := Ideal) (φ := .f32) .oge
          (FloatOps.hostUnary .sqrt (FloatOps.addf ((D : ℝ) : EReal) (FloatOps.ofBits .f32 0x2B8CBCCC#32)))
          (FloatOps.ofBits .f32 0x40A00000#32))
      = if 25 ≤ D then (1 : EReal) else 0 := by
  show (((Ideal.cmp .oge (Ideal.sqrt (((D : ℝ) : EReal) + Ideal.ofBits .f32 0x2B8CBCCC#32))
    (Ideal.ofBits .f32 0x40A00000#32)).toNat : ℝ) : EReal) = _
  rw [ofBits_eps, ofBits_5, cmp_far_ref_val, ofBool_toNat_cast]

/-- The two printed forms of the far mask are one value. -/
theorem mask_far (D : ℕ) :
    FloatOps.sitofp (F := Ideal) .f32
        ((FloatOps.cmpf (F := Ideal) (φ := .f32) .ogt ((D : ℝ) : EReal)
          (FloatOps.ofBits .f32 0x41C40000#32)).setWidth 32)
      = FloatOps.uitofp (F := Ideal) .f32
        (FloatOps.cmpf (F := Ideal) (φ := .f32) .oge
          (FloatOps.hostUnary .sqrt (FloatOps.addf ((D : ℝ) : EReal) (FloatOps.ofBits .f32 0x2B8CBCCC#32)))
          (FloatOps.ofBits .f32 0x40A00000#32)) := by
  rw [mask_far_kernel_val, mask_far_ref_val]

/-! ## The same steps in the scalar unit's spelling, and at every index of a vector

A constant the programs splat over a vector is taken as a vector of its own with a hypothesis at every index. -/

/-- The signed conversion of a nonnegative word on the scalar unit: the natural number it denotes. -/
theorem sitofp_scalar_nonneg (v : BitVec 32) (h : 0 ≤ v.toInt) :
    Scalar.sitofp (F := Ideal) .f32 v = ((v.toNat : ℝ) : EReal) :=
  sitofp_nonneg v h

/-- The quotient step on the scalar unit. -/
theorem floor_step_scalar (n : ℕ) (c : EReal) (hc : c = ((1 / 27 : ℝ) : EReal)) :
    Scalar.floor (F := Ideal) (φ := .f32)
        (Scalar.mulf (Scalar.addf ((n : ℝ) : EReal) (Scalar.ofBits .f32 0x3F000000#32)) c)
      = (((n / 27 : ℕ) : ℝ) : EReal) :=
  floor_step' n c hc

/-- The remainder step on the scalar unit. -/
theorem rem_step_scalar (n : ℕ) :
    Scalar.subf (F := Ideal) (φ := .f32) ((n : ℝ) : EReal)
        (Scalar.mulf (Scalar.ofBits .f32 0x41D80000#32) (((n / 27 : ℕ) : ℝ) : EReal))
      = (((n % 27 : ℕ) : ℝ) : EReal) :=
  rem_step' n

section Vectors
variable {s : Shape}

/-- The signed conversion of a vector of nonnegative words: the natural numbers they denote. -/
theorem sitofp_vec (w : IVec s 32) (hw : ∀ i, 0 ≤ (w i).toInt) :
    sitofp (F := Ideal) .f32 w = fun i => (((w i).toNat : ℝ) : EReal) := by
  funext i; exact sitofp_nonneg (w i) (hw i)

/-- The signed conversion of a vector of words of natural numbers below 2^31: those numbers. -/
theorem sitofp_ofNat_vec (N : s.Idx → ℕ) (hN : ∀ i, N i < 2 ^ 31) :
    sitofp (F := Ideal) .f32 (fun i => BitVec.ofNat 32 (N i)) = fun i => ((N i : ℝ) : EReal) := by
  funext i; exact sitofp_ofNat (N i) (hN i)

/-- The quotient step at every index: floor((N + 1/2) * (1/27)) = N div 27. -/
theorem floor_step_vec (N : s.Idx → ℕ) (h c : FVec Ideal s .f32)
    (hh : ∀ i, h i = FloatOps.ofBits .f32 0x3F000000#32) (hc : ∀ i, c i = ((1 / 27 : ℝ) : EReal)) :
    floor (F := Ideal) (φ := .f32) (mulf (addf (fun i => ((N i : ℝ) : EReal)) h) c)
      = fun i => (((N i / 27 : ℕ) : ℝ) : EReal) := by
  funext i
  show FloatOps.floor (F := Ideal) (φ := .f32)
    (FloatOps.mulf (FloatOps.addf ((N i : ℝ) : EReal) (h i)) (c i)) = _
  rw [hh i]; exact floor_step' (N i) (c i) (hc i)

/-- The remainder step at every index: N - 27 * (N div 27) = N mod 27. -/
theorem rem_step_vec (N : s.Idx → ℕ) (t : FVec Ideal s .f32)
    (ht : ∀ i, t i = FloatOps.ofBits .f32 0x41D80000#32) :
    subf (F := Ideal) (φ := .f32) (fun i => ((N i : ℝ) : EReal))
        (mulf t (fun i => (((N i / 27 : ℕ) : ℝ) : EReal)))
      = fun i => (((N i % 27 : ℕ) : ℝ) : EReal) := by
  funext i
  show FloatOps.subf (F := Ideal) (φ := .f32) ((N i : ℝ) : EReal)
    (FloatOps.mulf (t i) (((N i / 27 : ℕ) : ℝ) : EReal)) = _
  rw [ht i]; exact rem_step' (N i)

/-- The squared difference at every index. -/
theorem sq_diff_vec (A B : s.Idx → ℕ) :
    mulf (F := Ideal) (φ := .f32)
        (subf (fun i => ((A i : ℝ) : EReal)) (fun i => ((B i : ℝ) : EReal)))
        (subf (fun i => ((A i : ℝ) : EReal)) (fun i => ((B i : ℝ) : EReal)))
      = fun i => (((sqDiff (A i) (B i) : ℕ) : ℝ) : EReal) := by
  funext i; exact sub_mul_self (A i) (B i)

/-- The sum of two vectors of natural numbers. -/
theorem add_nat_vec (M N : s.Idx → ℕ) :
    addf (F := Ideal) (φ := .f32) (fun i => ((M i : ℝ) : EReal)) (fun i => ((N i : ℝ) : EReal))
      = fun i => (((M i + N i : ℕ) : ℝ) : EReal) := by
  funext i; exact natCast_add (M i) (N i)

/-- The near mask in the form D < 3.5 (the bit widened, converted signed), at every index. -/
theorem mask_near_kernel_vec (N : s.Idx → ℕ) (t : FVec Ideal s .f32)
    (ht : ∀ i, t i = FloatOps.ofBits .f32 0x40600000#32) (h : 1 < 32) :
    sitofp (F := Ideal) .f32 (extui 32 (cmpf .olt (fun i => ((N i : ℝ) : EReal)) t) h)
      = fun i => if N i ≤ 3 then (1 : EReal) else 0 := by
  funext i
  show FloatOps.sitofp (F := Ideal) .f32
    ((FloatOps.cmpf (F := Ideal) (φ := .f32) .olt ((N i : ℝ) : EReal) (t i)).setWidth 32) = _
  rw [ht i]; exact mask_near_kernel_val (N i)

/-- The far mask in the form D > 24.5 (the bit widened, converted signed), at every index. -/
theorem mask_far_kernel_vec (N : s.Idx → ℕ) (t : FVec Ideal s .f32)
    (ht : ∀ i, t i = FloatOps.ofBits .f32 0x41C40000#32) (h : 1 < 32) :
    sitofp (F := Ideal) .f32 (extui 32 (cmpf .ogt (fun i => ((N i : ℝ) : EReal)) t) h)
      = fun i => if 25 ≤ N i then (1 : EReal) else 0 := by
  funext i
  show FloatOps.sitofp (F := Ideal) .f32
    ((FloatOps.cmpf (F := Ideal) (φ := .f32) .ogt ((N i : ℝ) : EReal) (t i)).setWidth 32) = _
  rw [ht i]; exact mask_far_kernel_val (N i)

/-- The near mask in the form sqrt(D + e) ≤ 1.8f (the bit converted unsigned), at every index. -/
theorem mask_near_ref_vec (N : s.Idx → ℕ) (e c : FVec Ideal s .f32)
    (he : ∀ i, e i = FloatOps.ofBits .f32 0x2B8CBCCC#32) (hc : ∀ i, c i = FloatOps.ofBits .f32 0x3FE66666#32) :
    uitofp (F := Ideal) .f32 (cmpf .ole (Host.sqrt (addf (fun i => ((N i : ℝ) : EReal)) e)) c)
      = fun i => if N i ≤ 3 then (1 : EReal) else 0 := by
  funext i
  show FloatOps.uitofp (F := Ideal) .f32
    (FloatOps.cmpf (F := Ideal) (φ := .f32) .ole
      (FloatOps.hostUnary .sqrt (FloatOps.addf ((N i : ℝ) : EReal) (e i))) (c i)) = _
  rw [he i, hc i]; exact mask_near_ref_val (N i)

/-- The far mask in the form sqrt(D + e) ≥ 5 (the bit converted unsigned), at every index. -/
theorem mask_far_ref_vec (N : s.Idx → ℕ) (e c : FVec Ideal s .f32)
    (he : ∀ i, e i = FloatOps.ofBits .f32 0x2B8CBCCC#32) (hc : ∀ i, c i = FloatOps.ofBits .f32 0x40A00000#32) :
    uitofp (F := Ideal) .f32 (cmpf .oge (Host.sqrt (addf (fun i => ((N i : ℝ) : EReal)) e)) c)
      = fun i => if 25 ≤ N i then (1 : EReal) else 0 := by
  funext i
  show FloatOps.uitofp (F := Ideal) .f32
    (FloatOps.cmpf (F := Ideal) (φ := .f32) .oge
      (FloatOps.hostUnary .sqrt (FloatOps.addf ((N i : ℝ) : EReal) (e i))) (c i)) = _
  rw [he i, hc i]; exact mask_far_ref_val (N i)

end Vectors

end Cert.Lattice

end
-- ==== Proof.KITail.lean ====
/-
  The value of @main's host tail at the ideal instance.  The tail reshapes the TensorCore kernel region's 1 x 1024
  result to a vector, takes row 3 of the SparseCore call's 4 x 4096 result, re-lays it 4 x 1024, sums its four rows
  from zero, and adds the two.  When row 3 of the call's result is zero the re-laid rows are zero, their sum from
  zero is zero, and x + 0 = x: the final result is the region's result, reshaped.
-/
import proofs.«211217_g68642167325227_cont_9to1_m_1168_22_alg».proof.Proof.KIHmain
import proofs.«211217_g68642167325227_cont_9to1_m_1168_22_alg».proof.Proof.LibLattice
import Idealize.ShloMosaic.Lib.ValueIdx
import Idealize.ShloMosaic.Lib.Pipeline.Value
import Idealize.ShloMosaic.Lib.ValueLayout
import Idealize.ShloMosaic.PureOps.Ideal.Laws

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

open Idealize.ShloMosaic.ValueIdx
open Idealize.ShloMosaic.StableHlo (after_cons after_nil nullary_result unary_result binary_result ternary_result
  quaternary_result reshape_result binaryIndexed_result nary4_result nary_result unaryIndexed_result nullary_result_ne
  unary_result_ne binary_result_ne ternary_result_ne quaternary_result_ne reshape_result_ne binaryIndexed_result_ne
  nary_result_ne unaryIndexed_result_ne)

variable [Cert.KernelIdeal.Facts]

/-- The second stretch writes only its five results. -/
theorem ops2_not_writes {F : FTy → Type} [FloatOps F] [Named F] {r : Ref sig .tc} (h5 : r ≠ main_v5) (h6 : r ≠ main_v6)
    (h7 : r ≠ main_v7) (h8 : r ≠ main_v8) (h9 : r ≠ main_v9) :
    ∀ op ∈ (ops2 : List (HloOp τ sig (Elt F))), (Proc.devRef .tc r : DevRef τ sig) ∉ op.writes := by
  intro op h
  simp only [ops2, List.mem_cons, List.not_mem_nil, or_false] at h
  rcases h with rfl | rfl | rfl | rfl | rfl
  · rw [StableHlo.reshape_writes, Finset.mem_singleton]; exact StableHlo.devRef_ne_of_ne h5
  · rw [StableHlo.reshape_writes, Finset.mem_singleton]; exact StableHlo.devRef_ne_of_ne h6
  · rw [StableHlo.reshape_writes, Finset.mem_singleton]; exact StableHlo.devRef_ne_of_ne h7
  · rw [StableHlo.reshape_writes, Finset.mem_singleton]; exact StableHlo.devRef_ne_of_ne h8
  · rw [StableHlo.reshape_writes, Finset.mem_singleton]; exact StableHlo.devRef_ne_of_ne h9

variable (m : (ℓ : Loc nD τ sig) → Buf (Elt Ideal) ℓ)

/-- Before the tail the region's result array holds the region's result. -/
theorem V4_r (d : Dev nD) (g : Buf (Elt Ideal) (oLoc d)) (vo : Buf (Elt Ideal) (rLoc d)) :
    V4 (F := Ideal) m d g vo (Proc.devRef .tc main_v10) = vo :=
  Function.update_self _ _ _

/-- Before the tail the call's result array holds the call's result. -/
theorem V4_o (d : Dev nD) (g : Buf (Elt Ideal) (oLoc d)) (vo : Buf (Elt Ideal) (rLoc d)) :
    V4 (F := Ideal) m d g vo (Proc.devRef .tc main_v4) = g := by
  have h1 : V4 (F := Ideal) m d g vo (Proc.devRef .tc main_v4) = V3 (F := Ideal) m d g (Proc.devRef .tc main_v4) :=
    Function.update_of_ne (StableHlo.devRef_ne_of_ne (by decide)) _ _
  have h2 : V3 (F := Ideal) m d g (Proc.devRef .tc main_v4) = V2 (F := Ideal) m d g (Proc.devRef .tc main_v4) :=
    StableHlo.after_of_forall_not_mem _ _ (ops2_not_writes (by decide) (by decide) (by decide) (by decide) (by decide))
  have h3 : V2 (F := Ideal) m d g (Proc.devRef .tc main_v4) = g := Function.update_self _ _ _
  exact h1.trans (h2.trans h3)

/-- Row 3 of contents whose row 3 is zero, as the tail slices it, is zero. -/
theorem row3_zero (d : Dev nD) (g : Buf (Elt Ideal) (oLoc d)) (hg : OutZero (F := Ideal) d g) :
    extractStridedSlice S1x4096 ![3, 0] g slices_S4x4096_S1x4096_3_0 = fun _ => (0 : EReal) := by
  funext j
  obtain ⟨a, b, rfl⟩ : ∃ a b, j = ix2 a b := ⟨_, _, eq_ix2 j⟩
  have ha : a = 0 := Subsingleton.elim _ _
  subst ha
  refine (hg _ ?_).trans Ideal.ofBits_zero_f32
  rfl

/-- The sum over the four rows, from the literal zero, of an array of zeros is zero. -/
theorem reduce_zero :
    Host.reduceAdd (F := Ideal) (φ := .f32) (fun _ : S4x1024.Idx => (0 : EReal)) (constant S_ .f32 0x00000000#32)
      reducesTo_S4x1024_S1024_d0 h_S_ = fun _ => (0 : EReal) := by
  funext j
  show Ideal.ofBits .f32 0x00000000#32 + ∑ i ∈ Finset.univ.filter (fun i => reducesTo_S4x1024_S1024_d0.drop i = j), (0 : EReal) = 0
  rw [Finset.sum_const_zero, add_zero]
  exact Ideal.ofBits_zero_f32

/-- At the end the final result array holds the region's result reshaped to a vector, whenever row 3 of the call's
    result is zero. -/
theorem tail_value (d : Dev nD) (g : Buf (Elt Ideal) (oLoc d)) (hg : OutZero (F := Ideal) d g)
    (vo : Buf (Elt Ideal) (rLoc d)) :
    V5 (F := Ideal) m d g vo (Proc.devRef .tc main_v16) = shapeCast S1024 vo shapeCasts_S1x1024_S1024 := by
  unfold V5 ops3
  after_results
  rw [V4_r, V4_o]
  show addf (F := Ideal) (φ := .f32) (shapeCast S1024 vo shapeCasts_S1x1024_S1024)
      (Host.reduceAdd (F := Ideal) (φ := .f32)
        (shapeCast S4x1024
          (shapeCast S4096 (extractStridedSlice S1x4096 ![3, 0] g slices_S4x4096_S1x4096_3_0) shapeCasts_S1x4096_S4096)
          shapeCasts_S4096_S4x1024)
        (constant S_ .f32 0x00000000#32) reducesTo_S4x1024_S1024_d0 h_S_)
    = shapeCast S1024 vo shapeCasts_S1x1024_S1024
  rw [row3_zero d g hg]
  show addf (F := Ideal) (φ := .f32) (shapeCast S1024 vo shapeCasts_S1x1024_S1024)
      (Host.reduceAdd (F := Ideal) (φ := .f32) (fun _ : S4x1024.Idx => (0 : EReal))
        (constant S_ .f32 0x00000000#32) reducesTo_S4x1024_S1024_d0 h_S_) = _
  rw [reduce_zero]
  funext i
  exact add_zero (M := EReal) _

/-- The same at an index: element i of the final result is element (0, i) of the region's result. -/
theorem tail_value_apply (d : Dev nD) (g : Buf (Elt Ideal) (oLoc d)) (hg : OutZero (F := Ideal) d g)
    (vo : Buf (Elt Ideal) (rLoc d)) (i : Fin 1024) :
    V5 (F := Ideal) m d g vo (Proc.devRef .tc main_v16) (ix1 i) = vo (ix2 (0 : Fin 1) i) := by
  rw [tail_value m d g hg vo]
  exact shapeCast_1a_a_apply vo shapeCasts_S1x1024_S1024 i

end Cert.Proof.KI

end
-- ==== Proof.KIAlg.lean ====
/-
  The value conjunct from the value bridge: the idealized kernel's result array ends at the host tail's sum of the
  region's row and the (zero) row 3 of the SparseCore call's result, that is at the region's row; the region's row is the
  body's function of the reshaped arguments; the bridge says that function is the reference's, index by index; the
  reference's run ends at its composed term of arguments that agree with the kernel's.
-/
import proofs.«211217_g68642167325227_cont_9to1_m_1168_22_alg».proof.Proof.KIFrame
import proofs.«211217_g68642167325227_cont_9to1_m_1168_22_alg».proof.Proof.KIRegValue
import proofs.«211217_g68642167325227_cont_9to1_m_1168_22_alg».proof.Proof.KITail
import proofs.«211217_g68642167325227_cont_9to1_m_1168_22_alg».proof.Proof.RefRun

noncomputable section

namespace Cert.Proof.KI

open Cert.KernelIdeal Cert.KernelIdeal.Gen

open Idealize.ShloMosaic
open Idealize.ShloMosaic.SparseCore (S V T)
open Idealize.SL Idealize.SL.Sem

variable [Cert.KernelIdeal.Facts] [Cert.ReferenceIdeal.Facts] [Cert.Pre_input_domain.Facts]

/-- The value bridge: under the precondition, the body's function of the reshaped arguments, re-laid as a vector, is the
    reference's result. -/
def Bridge (tcOutF : TcOutTy Ideal) : Prop :=
  ∀ (m : (ℓ : Loc nD τ sig) → Buf (Elt Ideal) ℓ) (c : Dev nD), Cert.Pre_KernelIdeal m →
    shapeCast S1024 (tcOutArgs m tcOutF c) shapeCasts_S1x1024_S1024
      = Cert.ReferenceIdeal.RefRun.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))

theorem algebraic_of (tcOutF : TcOutTy Ideal) (htc : TcBodySpec tcOutF) (hbr : Bridge tcOutF) :
    Cert.algebraic_KernelIdeal_ReferenceIdeal := by
  intro m g m' g' hpre hagree
  refine ⟨fun c => Cert.ReferenceIdeal.RefRun.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run (Cert.KernelIdeal.defs (F := Ideal)) _ _).mono (fun r h c => ?_) (run (F := Ideal) m g tcOutF htc)
    obtain ⟨gg, vo, hg, hvo, hb⟩ := h c
    refine ⟨?_, args_of_QC m _ r h c⟩
    have hvo' : vo = tcOutArgs m tcOutF c := hvo.trans (region_value m tcOutF c gg)
    have h16 := hb (Proc.devRef .tc main_v16) (by decide)
    exact (h16.trans ((tail_value m c gg hg vo).trans (by rw [hvo']))).trans (hbr m c hpre)
  · refine (θ_run (Cert.ReferenceIdeal.defs (F := Ideal)) _ _).mono (fun r h c => ⟨?_, (h c).2⟩)
      (Cert.ReferenceIdeal.RefRun.run (F := Ideal) m' g')
    rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

end Cert.Proof.KI

end
-- ==== Proof.KBCommon.lean ====
/-
  The printed kernel's program as the SparseCore launch theorem sees it, and what its one SparseCore call carries.

  @main runs on the TensorCore: a few host reshapes, the call of the vector-subcore kernel on 2 x 16 tiles, more
  reshapes, one gridless TensorCore kernel region, and a host tail.  Tile (c, s) has worker number w = 2 s + c; it
  reads the neighbour indices (512 words) and the broadcast centre index (16 words) whole, the 128 x 128 block of
  the neighbour states at rows 128 (w / 8) and columns 128 (w % 8), and writes the 4 x 128 block of the call's
  result at columns 128 w: the thirty-two result blocks tile the 4 x 4096 result.  So the three arrays read are
  handed out as read shares (a share per SparseCore, of it a share per tile) and the result block by block, each
  tile its own block with full ownership; what comes back is the same shares and every block at contents whose
  row 3 is zero (the kernel stores a zero vector there; rows 0-2 hold partial sums nothing reads).
-/
import proofs.«211217_g68642167325227_cont_9to1_m_1168_22_alg».proof.Defs
import Idealize.ShloMosaic.Lib.SparseCore.Launch
import Idealize.ShloMosaic.Lib.StableHlo.Run
import Idealize.ShloMosaic.Lib.Pipeline.Kit
import Idealize.ShloMosaic.Lib.Tactic
import proofs.«211217_g68642167325227_cont_9to1_m_1168_22_alg».proof.Proof.Gen.Kernel
import proofs.«211217_g68642167325227_cont_9to1_m_1168_22_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Cert.Kernel.Facts]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore region's staging rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays the SparseCore call touches, as the TensorCore holds them -/

variable (m : (ℓ : Loc nD τ sig) → Buf (Elt F) ℓ) (ρ : Dev nD → PrngReg)

abbrev nLoc (d : Dev nD) : Loc nD τ sig := (SparseCore.T d).loc main_arg3
abbrev cLoc (d : Dev nD) : Loc nD τ sig := (SparseCore.T d).loc main_v3
abbrev xLoc (d : Dev nD) : Loc nD τ sig := (SparseCore.T d).loc main_arg1
abbrev oLoc (d : Dev nD) : Loc nD τ sig := (SparseCore.T d).loc main_v4

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- SparseCore `c`'s read share of an array held whole, and tile `i`'s share of that. -/
abbrev qC (c : Fin 2) : PosShare TreeShare := shareTok fullShare 2 c
abbrev qT (c : Fin 2) (i : Fin 16) : PosShare TreeShare := shareTok (qC c) 16 i

theorem bound_zero : grid0.bound 0 = 2 := rfl
theorem bound_one : grid0.bound 1 = 16 := rfl

/-- The grid point of tile `i` of SparseCore `c`, from plain numbers. -/
abbrev pt (c : Fin 2) (i : Fin 16) : grid0.Coords := coordsV (Fin.cast bound_zero.symm c) (Fin.cast bound_one.symm i)

/-- The call's result array as a tile addresses it, and the tile's own block of it, sliced as the kernel slices it. -/
abbrev oV : Memref sig .scVector .hbm S4x4096 .f32 := Memref.whole main_v4_scv
abbrev outM (L : grid0.Coords) : Memref sig .scVector .hbm S4x128 .f32 :=
  (oV.slice (Rect.unit (s := S4x4096) (k0_off15 L) S4x128.size (k0_off15_inb L)) (fun _ => rfl))
abbrev outSet (L : grid0.Coords) : Finset S4x4096.Idx := (outM L).view.set

/-- The float zero the kernel stores. -/
abbrev zeroF : F .f32 := Scalar.ofBits .f32 0x00000000#32

/-- Row 3 of tile `L`'s block holds zeros. -/
def Row3Zero (d : Dev nD) (L : grid0.Coords) (f : Buf (Elt F) (oLoc d)) : Prop :=
  ∀ j : S4x128.Idx, (j 0).val = 3 → f ((outM L).view.emb j) = (zeroF : F .f32)

/-! ## What the handshakes carry -/

-- the centre index broadcast to sixteen lanes, as @main's host operation leaves it before the call
variable (cv : (d : Dev nD) → Buf (Elt F) (cLoc d))

/-- The three arrays the tiles only read, each whole at share `q`. -/
def rdPts (d : Dev nD) (q : PosShare TreeShare) : sProp 𝕄 :=
  iprop((nLoc d ↦{q} m (nLoc d)) ∗ (cLoc d ↦{q} cv d) ∗ (xLoc d ↦{q} m (xLoc d)))

/-- A tile's result block at its launch contents; and at whatever the tile left, row 3 zero. -/
def outPre (d : Dev nD) (L : grid0.Coords) : sProp 𝕄 := oLoc d ↦[outSet L]{fullShare} m (oLoc d)
def outPost (d : Dev nD) (L : grid0.Coords) : sProp 𝕄 := iprop(∃ f : Buf (Elt F) (oLoc d), (oLoc d ↦[outSet L]{fullShare} f) ∗ ⌜Row3Zero d L f⌝)

/-- The one call: SparseCore `c` is handed its read share of the three arrays and its sixteen tiles' result blocks; tile
    `i` its share of the share and its block; back come the same shares and the blocks with row 3 zero. -/
def P : (K (F := F)).Pay (nD := nD) (Val := Elt F) (Name := ℕ) (U := UU) where
  st := fun q d c => match q with
    | 0 => iprop(rdPts m cv d (qC (Fin.cast nCore_zero c)) ∗ bigSep Finset.univ fun i : Fin 16 => outPre m d (pt (Fin.cast nCore_zero c) i))
  dn := fun q d c => match q with
    | 0 => iprop(rdPts m cv d (qC (Fin.cast nCore_zero c)) ∗ bigSep Finset.univ fun i : Fin 16 => outPost d (pt (Fin.cast nCore_zero c) i))
  go := fun q d c i => match q with
    | 0 => iprop(rdPts m cv d (qT (Fin.cast nCore_zero c) (Fin.cast nSub_zero i)) ∗ outPre m d (pt (Fin.cast nCore_zero c) (Fin.cast nSub_zero i)))
  td := fun q d c i => match q with
    | 0 => iprop(rdPts m cv d (qT (Fin.cast nCore_zero c) (Fin.cast nSub_zero i)) ∗ outPost d (pt (Fin.cast nCore_zero c) (Fin.cast nSub_zero i)))
  x := fun _ _ => iprop(emp)

instance P_storable : (P (F := F) m cv).IsStorable where
  st q d c := match q with | 0 => by unfold P rdPts outPre; infer_instance
  dn q d c := match q with | 0 => by unfold P rdPts outPost; infer_instance
  go q d c i := match q with | 0 => by unfold P rdPts outPre; infer_instance
  td q d c i := match q with | 0 => by unfold P rdPts outPost; infer_instance

end Cert.Proof.KB

end
-- ==== Proof.KBMain.lean ====
/-
  @main of the kernel as printed on the TensorCore, as stretches of host operations around the SparseCore call and the
  TensorCore kernel region: four reshapes/broadcasts, the call, five reshapes, the region, and the seven-operation tail
  that adds the (zero) row 3 of the call's result to the region's result.
-/
import proofs.«211217_g68642167325227_cont_9to1_m_1168_22_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F] [Cert.Kernel.Facts]

local notation "𝕄" => MT nD τ sig (HIx 1) (Elt F) ℕ UU ℕ

/-! ## The host stretches -/

/-- Before the call: the three reshapes of the kernel region's small operands and the centre index broadcast to 16 lanes. -/
def ops1 : List (HloOp τ sig (Elt F)) :=
  [StableHlo.reshape main_arg2 main_v0 rfl shapeCasts_S_S1x1,
   StableHlo.reshape main_arg0 main_v1 rfl shapeCasts_S1024_S1x1024,
   StableHlo.reshape main_arg3 main_v2 rfl shapeCasts_S512_S1x512,
   StableHlo.unary main_arg2 main_v3 (broadcastInDim S16 ![] bcast_S_S16 : (⟨S_, .i32⟩ : BufTy).Contents (Elt F) → (⟨S16, .i32⟩ : BufTy).Contents (Elt F))]

/-- Between the call and the region: the biases reshaped to rows. -/
def ops2 : List (HloOp τ sig (Elt F)) :=
  [StableHlo.reshape main_arg13 main_v5 rfl shapeCasts_S3_S1x3,
   StableHlo.reshape main_arg7 main_v6 rfl shapeCasts_S1024_S1x1024,
   StableHlo.reshape main_arg5 main_v7 rfl shapeCasts_S1024_S1x1024,
   StableHlo.reshape main_arg9 main_v8 rfl shapeCasts_S1024_S1x1024,
   StableHlo.reshape main_arg11 main_v9 rfl shapeCasts_S1024_S1x1024]

/-- The tail: the region's row reshaped to a vector; row 3 of the call's result, re-laid 4 x 1024 and summed over its
    four rows; the sum of the two. -/
def ops3 : List (HloOp τ sig (Elt F)) :=
  [StableHlo.reshape main_v10 main_v11 rfl shapeCasts_S1x1024_S1024,
   StableHlo.unary main_v4 main_v12 ((extractStridedSlice S1x4096 ![3, 0] · slices_S4x4096_S1x4096_3_0) : (⟨S4x4096, .f32⟩ : BufTy).Contents (Elt F) → (⟨S1x4096, .f32⟩ : BufTy).Contents (Elt F)),
   StableHlo.reshape main_v12 main_v13 rfl shapeCasts_S1x4096_S4096,
   StableHlo.reshape main_v13 main_v14 rfl shapeCasts_S4096_S4x1024,
   StableHlo.nullary main_cst (constant S_ .f32 0x00000000#32),
   StableHlo.binary main_v14 main_cst main_v15 ((fun x v => Host.reduceAdd x v reducesTo_S4x1024_S1024_d0 h_S_) : (⟨S4x1024, .f32⟩ : BufTy).Contents (Elt F) → (⟨S_, .f32⟩ : BufTy).Contents (Elt F) → (⟨S1024, .f32⟩ : BufTy).Contents (Elt F)),
   StableHlo.binary main_v11 main_v15 main_v16 (addf : (⟨S1024, .f32⟩ : BufTy).Contents (Elt F) → (⟨S1024, .f32⟩ : BufTy).Contents (Elt F) → (⟨S1024, .f32⟩ : BufTy).Contents (Elt F))]

/-- @main is the first stretch, the call, the second stretch, the region, the tail. -/
theorem main_eq (d : Dev nD) :
    main (F := F) d = (StableHlo.seq (ops1 (F := F)) >>= fun _ => (sc (F := F)).run d 0 >>= fun _ => StableHlo.seq (ops2 (F := F)) >>= fun _ =>
      (Prog.lift (.customCall (SparseCore.inner (Pipeline.entry 0)) ()) >>= fun _ => StableHlo.seq (ops3 (F := F)))) := by
  simp only [main, ops1, ops2, ops3, StableHlo.seq, bind_assoc, pure_bind, bind_pure]

/-! ## How a SparseCore's operands split among its sixteen tiles -/

variable (m : (ℓ : Loc nD τ sig) → Buf (Elt F) ℓ) (cv : (d : Dev nD) → Buf (Elt F) (cLoc d))

open Idealize.ShloMosaic.Transfers (pointsTo_toks_split pointsTo_toks_join shareTok shareDrop)

/-- The three read arrays at a share are the same at the share's remainder and at its sixteen tokens. -/
theorem rdPts_split (d : Dev nD) (q : PosShare TreeShare) :
    (rdPts m cv d q : sProp 𝕄) ⊢ iprop(rdPts m cv d (shareDrop q 16) ∗ bigSep Finset.univ fun i : Fin 16 => rdPts m cv d (shareTok q 16 i)) := by
  unfold rdPts
  iintro ⟨Hn, Hc, Hx⟩
  ihave Hn' := (pointsTo_toks_split (ℓ := nLoc d) (S := Finset.univ) (f := m (nLoc d)) q 16) $$ Hn
  ihave Hc' := (pointsTo_toks_split (ℓ := cLoc d) (S := Finset.univ) (f := cv d) q 16) $$ Hc
  ihave Hx' := (pointsTo_toks_split (ℓ := xLoc d) (S := Finset.univ) (f := m (xLoc d)) q 16) $$ Hx
  icases Hn' with ⟨Hnr, Hnt⟩
  icases Hc' with ⟨Hcr, Hct⟩
  icases Hx' with ⟨Hxr, Hxt⟩
  isplitl [Hnr Hcr Hxr]
  · isplitl [Hnr]; · iexact Hnr
    isplitl [Hcr]; · iexact Hcr
    iexact Hxr
  rw [bigSep_sep', bigSep_sep']
  isplitl [Hnt]; · iexact Hnt
  isplitl [Hct]; · iexact Hct
  iexact Hxt

/-- and back. -/
theorem rdPts_join (d : Dev nD) (q : PosShare TreeShare) :
    iprop(rdPts m cv d (shareDrop q 16) ∗ bigSep Finset.univ fun i : Fin 16 => rdPts m cv d (shareTok q 16 i)) ⊢ (rdPts m cv d q : sProp 𝕄) := by
  unfold rdPts
  rw [bigSep_sep', bigSep_sep']
  iintro ⟨⟨Hnr, Hcr, Hxr⟩, Hnt, Hct, Hxt⟩
  isplitl [Hnr Hnt]
  · iapply (pointsTo_toks_join (ℓ := nLoc d) (S := Finset.univ) (f := m (nLoc d)) q 16)
    isplitl [Hnr] <;> iassumption
  isplitl [Hcr Hct]
  · iapply (pointsTo_toks_join (ℓ := cLoc d) (S := Finset.univ) (f := cv d) q 16)
    isplitl [Hcr] <;> iassumption
  iapply (pointsTo_toks_join (ℓ := xLoc d) (S := Finset.univ) (f := m (xLoc d)) q 16)
  isplitl [Hxr] <;> iassumption

/-- A conjunction over the call's tiles is one over sixteen numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands for one SparseCore split into its tiles' and the results gather from theirs: the read shares into
    sixteen tokens each (the remainder waits in the frame), the result blocks one to a tile. -/
theorem vecSplit : (K (F := F)).VecSplit' (P m cv) 0 := by
  intro d c
  show iprop(rdPts m cv d (qC (Fin.cast nCore_zero c)) ∗ bigSep Finset.univ fun i : Fin 16 => outPre m d (pt (Fin.cast nCore_zero c) i))
    ⊢ |={Set.univ}=> iprop(
      (bigSep Finset.univ fun i : Fin ((K (F := F)).nSub 0) =>
        iprop(rdPts m cv d (qT (Fin.cast nCore_zero c) (Fin.cast nSub_zero i)) ∗ outPre m d (pt (Fin.cast nCore_zero c) (Fin.cast nSub_zero i))))
      ∗ ((bigSep Finset.univ fun i : Fin ((K (F := F)).nSub 0) =>
          iprop(rdPts m cv d (qT (Fin.cast nCore_zero c) (Fin.cast nSub_zero i)) ∗ outPost d (pt (Fin.cast nCore_zero c) (Fin.cast nSub_zero i))))
          -∗ iprop(rdPts m cv d (qC (Fin.cast nCore_zero c)) ∗ bigSep Finset.univ fun i : Fin 16 => outPost d (pt (Fin.cast nCore_zero c) i))))
  rw [bigSep_tasks (F := F) (fun i => iprop(rdPts m cv d (qT (Fin.cast nCore_zero c) i) ∗ outPre m d (pt (Fin.cast nCore_zero c) i))),
    bigSep_tasks (F := F) (fun i => iprop(rdPts m cv d (qT (Fin.cast nCore_zero c) i) ∗ outPost d (pt (Fin.cast nCore_zero c) i))),
    bigSep_sep', bigSep_sep']
  iintro ⟨Hr, Ho⟩
  ihave Hr' := (rdPts_split m cv d (qC (Fin.cast nCore_zero c))) $$ Hr
  icases Hr' with ⟨Hrem, Htok⟩
  imodintro
  isplitl [Htok Ho]
  · isplitl [Htok]; · iexact Htok
    iexact Ho
  iintro ⟨Htok, Ho⟩
  isplitl [Hrem Htok]
  · iapply (rdPts_join m cv d (qC (Fin.cast nCore_zero c)))
    isplitl [Hrem] <;> iassumption
  iexact Ho

end Cert.Proof.KB

end
-- ==== Proof.KBLaunch.lean ====
/-
  The launch element of the printed kernel's ghost state: the handshakes' rounds; the TensorCore kernel region's
  staging cells, funded here and handed to @main on each device; the transfers' counters, which nothing at the launch
  consumes.  The SparseCore kernel keeps no ghost state of its own (it only makes local copies and waits for them).
-/
import proofs.«211217_g68642167325227_cont_9to1_m_1168_22_alg».proof.Proof.KBMain
import proofs.«211217_g68642167325227_cont_9to1_m_1168_22_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 1) (Elt F) ℕ UU ℕ

/-- The region's rounds library: the left of the right component. -/
abbrev EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP (F := F)).LandsIn (upEmb : UEmb _ 𝕄) := by unfold EP; infer_instance

/-- What @main starts from on device `d` beyond what the launch deals every TensorCore: the region's cells' ghost state and
    its duty tokens. -/
abbrev G (d : Dev nD) : sProp 𝕄 :=
  iprop((bigSep Finset.univ fun p : Fin 1 => Pipeline.cellsGhost cfgs (EP (F := F)) p d)
    ∗ bigSep Finset.univ fun p : Fin 1 => (Pipeline.toksInit cfgs (EP (F := F)) p d : sProp 𝕄))

def u₀ : UU :=
  (initOf (K (F := F)).hsCells (K (F := F)).hsToks,
    (initOf (Pipeline.cells (nD := nD) (τ := τ) cfgs cellOf_inj) (Pipeline.launchToks (nD := nD) (τ := τ) cfgs cellOf_inj), 1))

variable (m : (ℓ : Loc nD τ sig) → Buf (Elt F) ℓ) (cv : (d : Dev nD) → Buf (Elt F) (cLoc d))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m cv).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  imod (Pipeline.fund_ghost (nD := nD) (τ := τ) cfgs (EP (F := F)) cellOf_inj) $$ HP with ⟨Hc, Ht⟩
  imodintro
  isplitl [HH]; · iexact HH
  isplitl [Hc Ht]
  · rw [bigSep_sep']
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.KBHmain.lean ====
/-
  @main of the kernel as printed on one TensorCore, proved from what the launch deals it: the first host stretch, the
  SparseCore call (its operands handed out and taken back), the second stretch, the TensorCore kernel region, the tail.
  The valuations name what every unscoped array holds after each step.
-/
import proofs.«211217_g68642167325227_cont_9to1_m_1168_22_alg».proof.Proof.KBLaunch
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F] [Cert.Kernel.Facts]

local notation "𝕄" => MT nD τ sig (HIx 1) (Elt F) ℕ UU ℕ

variable (m : (ℓ : Loc nD τ sig) → Buf (Elt F) ℓ) (ρ : Dev nD → PrngReg)

/-! ## The unscoped arrays and their contents step by step -/

abbrev UC : Finset (DevRef τ sig) := Pipeline.ucRefs τ sig
abbrev n' : DevRef τ sig := Proc.devRef .tc (main_arg3 : Ref sig .tc)
abbrev c' : DevRef τ sig := Proc.devRef .tc (main_v3 : Ref sig .tc)
abbrev x' : DevRef τ sig := Proc.devRef .tc (main_arg1 : Ref sig .tc)
abbrev o' : DevRef τ sig := Proc.devRef .tc (main_v4 : Ref sig .tc)
abbrev r' : DevRef τ sig := Proc.devRef .tc (main_v10 : Ref sig .tc)

abbrev rLoc (d : Dev nD) : Loc nD τ sig := (SparseCore.T d).loc main_v10

/-- At the launch. -/
def V0 (d : Dev nD) : Valuation τ sig (Elt F) := fun b => m (d, b)
/-- After the first stretch. -/
def V1 (d : Dev nD) : Valuation τ sig (Elt F) := StableHlo.after (ops1 (F := F)) (V0 m d)
/-- The centre index on sixteen lanes, as the tiles read it. -/
def cvOf (d : Dev nD) : Buf (Elt F) (cLoc d) := V1 m d c'
/-- After the call, its result at `g`. -/
def V2 (d : Dev nD) (g : Buf (Elt F) (oLoc d)) : Valuation τ sig (Elt F) := Function.update (V1 m d) o' g
/-- After the second stretch. -/
def V3 (d : Dev nD) (g : Buf (Elt F) (oLoc d)) : Valuation τ sig (Elt F) := StableHlo.after (ops2 (F := F)) (V2 m d g)
/-- After the region, its result at `vo`. -/
def V4 (d : Dev nD) (g : Buf (Elt F) (oLoc d)) (vo : Buf (Elt F) (rLoc d)) : Valuation τ sig (Elt F) :=
  Function.update (V3 m d g) r' vo
/-- At the end. -/
def V5 (d : Dev nD) (g : Buf (Elt F) (oLoc d)) (vo : Buf (Elt F) (rLoc d)) : Valuation τ sig (Elt F) :=
  StableHlo.after (ops3 (F := F)) (V4 m d g vo)

/-- Row 3 of the call's result is zero throughout. -/
def OutZero (d : Dev nD) (g : Buf (Elt F) (oLoc d)) : Prop :=
  ∀ j : S4x4096.Idx, (j 0).val = 3 → g j = (zeroF : F .f32)

/-! ## The host stretches touch unscoped TensorCore arrays only, and allocate nothing -/

theorem ops1_sub : ∀ op ∈ (ops1 : List (HloOp τ sig (Elt F))), op.bufs ⊆ UC := fun op h =>
  Pipeline.sub_ucRefs op ((List.forall_iff_forall_mem.mp
    (show (ops1 : List (HloOp τ sig (Elt F))).Forall fun op => op.bufs ⊆ StableHlo.tcRefs τ sig from
      ⟨StableHlo.reshape_bufs_sub .., StableHlo.reshape_bufs_sub .., StableHlo.reshape_bufs_sub .., StableHlo.unary_bufs_sub ..⟩)) op h)
theorem ops2_sub : ∀ op ∈ (ops2 : List (HloOp τ sig (Elt F))), op.bufs ⊆ UC := fun op h =>
  Pipeline.sub_ucRefs op ((List.forall_iff_forall_mem.mp
    (show (ops2 : List (HloOp τ sig (Elt F))).Forall fun op => op.bufs ⊆ StableHlo.tcRefs τ sig from
      ⟨StableHlo.reshape_bufs_sub .., StableHlo.reshape_bufs_sub .., StableHlo.reshape_bufs_sub .., StableHlo.reshape_bufs_sub .., StableHlo.reshape_bufs_sub ..⟩)) op h)
theorem ops3_sub : ∀ op ∈ (ops3 : List (HloOp τ sig (Elt F))), op.bufs ⊆ UC := fun op h =>
  Pipeline.sub_ucRefs op ((List.forall_iff_forall_mem.mp
    (show (ops3 : List (HloOp τ sig (Elt F))).Forall fun op => op.bufs ⊆ StableHlo.tcRefs τ sig from
      ⟨StableHlo.reshape_bufs_sub .., StableHlo.unary_bufs_sub .., StableHlo.reshape_bufs_sub .., StableHlo.reshape_bufs_sub .., StableHlo.nullary_bufs_sub ..,
        StableHlo.binary_bufs_sub .., StableHlo.binary_bufs_sub ..⟩)) op h)

theorem ops1_fresh : ∀ op ∈ (ops1 : List (HloOp τ sig (Elt F))), op.fresh = ∅ := fun op h => by
  simp only [ops1, List.mem_cons, List.not_mem_nil, or_false] at h
  rcases h with rfl | rfl | rfl | rfl <;> rfl
theorem ops2_fresh : ∀ op ∈ (ops2 : List (HloOp τ sig (Elt F))), op.fresh = ∅ := fun op h => by
  simp only [ops2, List.mem_cons, List.not_mem_nil, or_false] at h
  rcases h with rfl | rfl | rfl | rfl | rfl <;> rfl
theorem ops3_fresh : ∀ op ∈ (ops3 : List (HloOp τ sig (Elt F))), op.fresh = ∅ := fun op h => by
  simp only [ops3, List.mem_cons, List.not_mem_nil, or_false] at h
  rcases h with rfl | rfl | rfl | rfl | rfl | rfl | rfl <;> rfl

end Cert.Proof.KB

end
-- ==== Proof.KBRun.lean ====
/-
  @main of the kernel as printed on one TensorCore, from what the launch deals it, given how the SparseCore call's
  operands leave and re-enter the unscoped arrays (CallIO) and the rule of the TensorCore kernel region (RegionRule);
  then the launch theorem's application: the whole program's run.
-/
import proofs.«211217_g68642167325227_cont_9to1_m_1168_22_alg».proof.Proof.KBHmain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F] [Cert.Kernel.Facts]

local notation "𝕄" => MT nD τ sig (HIx 1) (Elt F) ℕ UU ℕ

variable (m : (ℓ : Loc nD τ sig) → Buf (Elt F) ℓ) (ρ : Dev nD → PrngReg)

-- what the region's result is known to be (the kernel body's function of the staged operands)
variable (TcOut : (d : Dev nD) → Buf (Elt F) (oLoc d) → Buf (Elt F) (rLoc d) → Prop)

/-- The call's operands out of the unscoped arrays, and its results back into them with row 3 zero. -/
def CallIO : Prop := ∀ d : Dev nD,
  (held (T d) UC (V1 m d) : sProp 𝕄) ⊢ iprop((bigSep Finset.univ fun c : Fin ((K (F := F)).nCore 0) => (P m (cvOf m)).st 0 d c)
    ∗ ((bigSep Finset.univ fun c : Fin ((K (F := F)).nCore 0) => (P m (cvOf m)).dn 0 d c) -∗ ∃ g, ⌜OutZero d g⌝ ∗ held (T d) UC (V2 m d g)))

/-- The TensorCore kernel region inside the SparseCore program: entered holding the region boundary, the unscoped arrays,
    the region's rounds ghost state and the TensorCore's handshake state after the last call (it owes nothing any more); left
    with the region's result array at contents of which `TcOut` holds, everything else as it was. -/
def RegionRule : Prop := ∀ (κ : GSem nD τ sig → ℕ) (d : Dev nD) (g : Buf (Elt F) (oLoc d)) (Q : PUnit → sProp 𝕄),
  iprop((K (F := F)).ctx EH (P m (cvOf m)) κ ∗ (K (F := F)).tcSt EH d 1 ∗ boundary (T d) ∗ held (T d) UC (V3 m d g) ∗ G (F := F) d
      ∗ ((∃ vo, ⌜TcOut d g vo⌝ ∗ (K (F := F)).tcSt EH d 1 ∗ boundary (T d) ∗ held (T d) UC (V4 m d g vo))
          -∗ wp frame (wpE (D (F := F)) 𝒱 (T d) none) Set.univ (StableHlo.seq (ops3 (F := F))) Q))
    ⊢ wp frame (wpE ((K (F := F)).defs (D (F := F))) 𝒱 (T d) none) Set.univ
        (.op (.customCall (SparseCore.inner (Pipeline.entry 0)) ()) fun _ => StableHlo.seq (ops3 (F := F))) Q

/-- What @main leaves: the unscoped arrays at the final valuation, for some result of the call with row 3 zero and some
    result of the region of which `TcOut` holds. -/
abbrev FIN (d : Dev nD) : sProp 𝕄 := iprop(∃ g vo, ⌜OutZero d g⌝ ∗ ⌜TcOut d g vo⌝ ∗ held (T d) UC (V5 m d g vo))

set_option backward.isDefEq.respectTransparency.types false in
theorem hmain (hio : CallIO m) (hreg : RegionRule m TcOut) (κ : GSem nD τ sig → ℕ) (d : Dev nD) :
    iprop((K (F := F)).ctx EH (P m (cvOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m TcOut d) := by
  unfold SparseCore.Cfg.tcRes
  rw [show (unscopedBufs d (fun b => m ((SparseCore.T d).loc b)) : sProp 𝕄) = held (T d) UC (V0 m d) from
    Pipeline.unscopedBufs_held (Ix := HIx 1) (Name := ℕ) (U := UU) (Lvl := ℕ) d (V0 m d)]
  rw [main_eq]
  iintro ⟨#Hctx, Hst, ⟨Hb, Hheld, -, -⟩, HG⟩
  -- the first stretch
  iapply (StableHlo.wp_seq 𝒱 none Set.univ d UC _ (ops1 (F := F)) ops1_sub ops1_fresh (V0 m d)) $$ [Hb Hheld]
  · isplitl [Hb] <;> iassumption
  iintro ⟨Hb, Hheld⟩
  rw [show StableHlo.after (ops1 (F := F)) (V0 m d) = V1 m d from rfl]
  -- the call
  rw [wp_bind]
  ihave Hio := (hio d) $$ Hheld
  icases Hio with ⟨Hops, Hback⟩
  iapply ((K (F := F)).wp_run (D (F := F)) 𝒱 (EH := EH) (P := P m (cvOf m)) κ d 0) $$ [Hst Hops Hback Hb HG]
  isplitr; · iexact Hctx
  isplitl [Hst]; · iexact Hst
  isplitl [Hops]; · iexact Hops
  iintro ⟨Hst, Hdn⟩
  ihave Hg := Hback $$ Hdn
  icases Hg with ⟨%g, %hg, Hheld⟩
  -- the second stretch
  iapply (StableHlo.wp_seq 𝒱 none Set.univ d UC _ (ops2 (F := F)) ops2_sub ops2_fresh (V2 m d g)) $$ [Hb Hheld]
  · isplitl [Hb] <;> iassumption
  iintro ⟨Hb, Hheld⟩
  rw [show StableHlo.after (ops2 (F := F)) (V2 m d g) = V3 m d g from rfl]
  -- the region
  simp only [Prog.lift, Prog.bind_op, Prog.bind_ret]
  iapply (hreg κ d g) $$ [Hst Hb Hheld HG]
  isplitr; · iexact Hctx
  isplitl [Hst]; · iexact Hst
  isplitl [Hb]; · iexact Hb
  isplitl [Hheld]; · iexact Hheld
  isplitl [HG]; · iexact HG
  iintro ⟨%vo, %hvo, Hst, Hb, Hheld⟩
  -- the tail
  rw [← bind_pure (StableHlo.seq (ops3 (F := F)))]
  iapply (StableHlo.wp_seq 𝒱 none Set.univ d UC _ (ops3 (F := F)) ops3_sub ops3_fresh (V4 m d g vo)) $$ [Hb Hheld]
  · isplitl [Hb] <;> iassumption
  iintro ⟨Hb, Hheld⟩
  rw [show StableHlo.after (ops3 (F := F)) (V4 m d g vo) = V5 m d g vo from rfl]
  rw [wp_pure]; imodintro
  isplitl [Hst]; · iexact Hst
  iexists g; iexists vo
  isplitr; · ipureintro; exact hg
  isplitr; · ipureintro; exact hvo
  iexact Hheld

/-! ## The final memory reads the final valuation -/

/-- A set of arrays held whole against the state interpretation: the memory agrees with the valuation on each. -/
theorem held_agree (thr : Thread nD τ) (Sx : Finset (DevRef τ sig)) (W : Valuation τ sig (Elt F)) (s' : Phys nD τ sig (Elt F)) :
    iprop(held thr Sx W ∗ SI s') ⊢ (⌜∀ b ∈ Sx, s'.mem.mem (thr.1, b) = W b⌝ : sProp 𝕄) := by
  induction Sx using Finset.induction_on with
  | empty => exact BIClass.pure_intro (fun _ h => absurd h (Finset.notMem_empty _))
  | insert b Sx hb ih =>
    have e : (held thr (insert b Sx) W : sProp 𝕄) = iprop(((thr.1, b) ↦{fullShare} W b) ∗ held thr Sx W) := by
      unfold held; exact bigSep_insert hb
    rw [e]
    refine Laws.pure_elim _ ((BIClass.sep_mono sep_elim_left (BI.Entails.refl _)).trans (sep_comm.1.trans SI_pointsTo_agree)) fun h1 => ?_
    refine Laws.pure_elim _ ((BIClass.sep_mono sep_elim_right (BI.Entails.refl _)).trans ih) fun h2 => ?_
    exact BIClass.pure_intro fun b' hb' => by
      rcases Finset.mem_insert.mp hb' with rfl | h
      · exact funext fun i => h1 i (Finset.mem_univ i)
      · exact h2 b' h

def fq (d : Dev nD) (s' : Phys nD τ sig (Elt F)) : Prop :=
  ∃ g vo, OutZero d g ∧ TcOut d g vo ∧ ∀ b ∈ UC, s'.mem.mem (d, b) = V5 m d g vo b

theorem hfin (d : Dev nD) (s' : Phys nD τ sig (Elt F)) : iprop(FIN m TcOut d ∗ SI s') ⊢ (⌜fq m TcOut d s'⌝ : sProp 𝕄) := by
  iintro ⟨⟨%g, %vo, %hg, %hvo, Hh⟩, HSI⟩
  ihave H := (held_agree (T d) UC (V5 m d g vo) s') $$ [Hh HSI]
  · isplitl [Hh] <;> iassumption
  icases H with %h
  ipureintro; exact ⟨g, vo, hg, hvo, h⟩

/-! ## The program's run -/

/-- On every device: every unscoped array ends at the final valuation, for some result of the call with row 3 zero and
    some result of the region of which `TcOut` holds. -/
def QC : PUnit × MemSt nD τ sig (Elt F) → Prop := fun r =>
  ∀ c : Dev nD, ∃ g vo, OutZero c g ∧ TcOut c g vo ∧ ∀ b ∈ UC, r.2.mem (c, b) = V5 m c g vo b

theorem run_main [∀ e, Nonempty (Elt F e)] (hio : CallIO m) (hreg : RegionRule m TcOut)
    (htile : (K (F := F)).TileObl (D (F := F)) 𝒱 (P m (cvOf m)) v₀ 0) :
    θ_run (Cert.Kernel.defs (F := F)) (Cert.Kernel.threads (F := F)) ⟨m, fun _ => 0, ρ⟩ (QC m TcOut) :=
  SparseCore.Cfg.θ_run_sc (K := K (F := F)) (D := D (F := F)) (𝒱 := 𝒱) (EH := EH) (P := P m (cvOf m)) facts v₀
    (fun q hq => match q with | 0 => nomatch hq)
    (fun q _ => match q with | 0 => htile)
    (fun q _ => match q with | 0 => SparseCore.Cfg.VecSplit.of_plain (vecSplit m (cvOf m)))
    m ρ main (fun d => G (F := F) d) (FIN m TcOut) (u₀ (F := F)) (sep_elim_left.trans (hu₀ m (cvOf m))) (hmain m ρ TcOut hio hreg)
    (fq m TcOut) (hfin m TcOut) (QC m TcOut) (fun _ h => h)

end Cert.Proof.KB

end
-- ==== Proof.KBTcBody.lean ====
/-
  The TensorCore kernel body's triple.

  The body starts fourteen local copies, each on a DMA semaphore of its own (the neighbour states and W_func1 whole,
  W_local, W_dist and W_func2 each in four chunks of 512 rows, from a slice of the HBM array into the same slice of a
  VMEM scratch), reads its staged operands, and waits for each copy just before the first load of the rows it
  delivers; no destination is read before its own wait and no source is written. One transfer at a time per
  semaphore: each is the schedule-free protocol of the counters ghost state, its wait admissible under what the
  thread owes by the evidence carried in the precondition. A copy into a chunk of a scratch borrows that chunk's
  elements only, so the four chunks of one scratch are in flight together and each comes back with its own wait; what
  the body stores is therefore one function of the contents of its operands, `tcOut`.
-/
import proofs.«211217_g68642167325227_cont_9to1_m_1168_22_alg».proof.Proof.KBCommon
import Idealize.ShloMosaic.Lib.Pipeline.FrameBody
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts]

local notation "𝕄" => MT nD τ sig (HIx 1) (Elt F) ℕ UU ℕ

/-- The kernel's k-th DMA semaphore (the semaphore scratch's cells are the pool's 14..27). -/
abbrev tcSem (k : Fin 14) : DmaSem sig := ⟨14 + k.val, by have := k.isLt; show 14 + k.val < 28; omega⟩

/-- The fourteen semaphores' counters at zero. -/
def tcSems (c : Dev nD) : sProp 𝕄 :=
  iprop(semVal ((c.tc : Thread nD τ), SemLoc.dma (tcSem 0)) 0 ∗ semVal ((c.tc : Thread nD τ), SemLoc.dma (tcSem 1)) 0
    ∗ semVal ((c.tc : Thread nD τ), SemLoc.dma (tcSem 2)) 0 ∗ semVal ((c.tc : Thread nD τ), SemLoc.dma (tcSem 3)) 0
    ∗ semVal ((c.tc : Thread nD τ), SemLoc.dma (tcSem 4)) 0 ∗ semVal ((c.tc : Thread nD τ), SemLoc.dma (tcSem 5)) 0
    ∗ semVal ((c.tc : Thread nD τ), SemLoc.dma (tcSem 6)) 0 ∗ semVal ((c.tc : Thread nD τ), SemLoc.dma (tcSem 7)) 0
    ∗ semVal ((c.tc : Thread nD τ), SemLoc.dma (tcSem 8)) 0 ∗ semVal ((c.tc : Thread nD τ), SemLoc.dma (tcSem 9)) 0
    ∗ semVal ((c.tc : Thread nD τ), SemLoc.dma (tcSem 10)) 0 ∗ semVal ((c.tc : Thread nD τ), SemLoc.dma (tcSem 11)) 0
    ∗ semVal ((c.tc : Thread nD τ), SemLoc.dma (tcSem 12)) 0 ∗ semVal ((c.tc : Thread nD τ), SemLoc.dma (tcSem 13)) 0)

/-- A TensorCore array held whole. -/
abbrev heldW (c : Dev nD) (b : Ref sig .tc) (q : PosShare TreeShare) (f : b.ty.Contents (Elt F)) : sProp 𝕄 :=
  (Memref.whole b).view.loc (c.tc : Thread nD τ) ↦{q} f

/-- The nine staged inputs, each owned at its contents. -/
def tcIns (c : Dev nD) (arg0 : Memref sig .tc .smem S1x1 .i32) (arg1 : Memref sig .tc .vmem S1x1024 .f32) (arg2 : Memref sig .tc .vmem S1x512 .i32) (arg3 : Memref sig .tc .vmem S1x3 .f32) (arg4 : Memref sig .tc .vmem S2048x3 .f32) (arg5 arg6 arg7 arg8 : Memref sig .tc .vmem S1x1024 .f32)
    (x0 : Vec F S1x1 .i32) (x1 : Vec F S1x1024 .f32) (x2 : Vec F S1x512 .i32) (x3 : Vec F S1x3 .f32) (x4 : Vec F S2048x3 .f32)
    (x5 x6 x7 x8 : Vec F S1x1024 .f32) : sProp 𝕄 :=
  iprop(owns (c.tc : Thread nD τ) arg0 fullShare x0 ∗ owns (c.tc : Thread nD τ) arg1 fullShare x1 ∗ owns (c.tc : Thread nD τ) arg2 fullShare x2
    ∗ owns (c.tc : Thread nD τ) arg3 fullShare x3 ∗ owns (c.tc : Thread nD τ) arg4 fullShare x4 ∗ owns (c.tc : Thread nD τ) arg5 fullShare x5
    ∗ owns (c.tc : Thread nD τ) arg6 fullShare x6 ∗ owns (c.tc : Thread nD τ) arg7 fullShare x7 ∗ owns (c.tc : Thread nD τ) arg8 fullShare x8)

/-- The five HBM arrays the kernel copies from, each held whole at share `q`. -/
def tcHbm (c : Dev nD) (q : PosShare TreeShare)
    (a1 : main_arg1.ty.Contents (Elt F)) (a6 : main_arg6.ty.Contents (Elt F)) (a4 : main_arg4.ty.Contents (Elt F))
    (a10 : main_arg10.ty.Contents (Elt F)) (a8 : main_arg8.ty.Contents (Elt F)) : sProp 𝕄 :=
  iprop(heldW c main_arg1 q a1 ∗ heldW c main_arg6 q a6 ∗ heldW c main_arg4 q a4 ∗ heldW c main_arg10 q a10 ∗ heldW c main_arg8 q a8)

/-- The five VMEM scratch buffers, each held whole at some contents. -/
def tcScr (c : Dev nD) : sProp 𝕄 :=
  iprop((∃ f, heldW c cc1_scratch0 fullShare f) ∗ (∃ f, heldW c cc1_scratch1 fullShare f) ∗ (∃ f, heldW c cc1_scratch2 fullShare f)
    ∗ (∃ f, heldW c cc1_scratch3 fullShare f) ∗ (∃ f, heldW c cc1_scratch4 fullShare f))

/-! ## What the body stores, as one function of what it loads -/

/-- The rectangles the body loads through: each staged operand whole, the neighbour states and W_func1 whole, and the
    four chunks of 512 rows of the three expert weights. -/
abbrev rCell : Rect S1x1 := Rect.unit (s := S1x1) ![0, 0] S1x1.size inb_S1x1_S1x1_0_0
abbrev rNbr : Rect S1x512 := Rect.unit (s := S1x512) ![0, 0] S1x512.size inb_S1x512_S1x512_0_0
abbrev rRow : Rect S1x1024 := Rect.unit (s := S1x1024) ![0, 0] S1x1024.size inb_S1x1024_S1x1024_0_0
abbrev rBg : Rect S1x3 := Rect.unit (s := S1x3) ![0, 0] S1x3.size inb_S1x3_S1x3_0_0
abbrev rWg : Rect S2048x3 := Rect.unit (s := S2048x3) ![0, 0] S2048x3.size inb_S2048x3_S2048x3_0_0
abbrev rNs : Rect S512x1024 := Rect.unit (s := S512x1024) ![0, 0] S512x1024.size inb_S512x1024_S512x1024_0_0
abbrev rW1 : Rect S1024x1024 := Rect.unit (s := S1024x1024) ![0, 0] S1024x1024.size inb_S1024x1024_S1024x1024_0_0
abbrev rC0 : Rect S2048x1024 := Rect.unit (s := S2048x1024) ![0, 0] S512x1024.size inb_S2048x1024_S512x1024_0_0
abbrev rC1 : Rect S2048x1024 := Rect.unit (s := S2048x1024) ![512, 0] S512x1024.size inb_S2048x1024_S512x1024_512_0
abbrev rC2 : Rect S2048x1024 := Rect.unit (s := S2048x1024) ![1024, 0] S512x1024.size inb_S2048x1024_S512x1024_1024_0
abbrev rC3 : Rect S2048x1024 := Rect.unit (s := S2048x1024) ![1536, 0] S512x1024.size inb_S2048x1024_S512x1024_1536_0

/-- The values the body loads, in program order, named after the values of the printed body: the neighbour indices
    (`v52`), the cell index (`v71`), the current state (`v128`), the neighbour states from their scratch (`v134`, and
    again `v170`), the gate's weights and bias (`v150`, `v152`), W_func1 from its scratch (`v171`), b_func1 (`v173`),
    the four chunks of W_local (`v190` … `v214`), of W_dist (`v223` … `v247`) and of W_func2 (`v256` … `v280`) from
    their scratch buffers, b_local (`v283`), b_func2 (`v292`) and b_dist (`v301`). -/
structure TcIn (F : FTy → Type) where
  v52 : Vec F S1x512 .i32
  v71 : Elt F .i32
  v128 : Vec F S1x1024 .f32
  v134 : Vec F S512x1024 .f32
  v150 : Vec F S2048x3 .f32
  v152 : Vec F S1x3 .f32
  v170 : Vec F S512x1024 .f32
  v171 : Vec F S1024x1024 .f32
  v173 : Vec F S1x1024 .f32
  v190 : Vec F S512x1024 .f32
  v198 : Vec F S512x1024 .f32
  v206 : Vec F S512x1024 .f32
  v214 : Vec F S512x1024 .f32
  v223 : Vec F S512x1024 .f32
  v231 : Vec F S512x1024 .f32
  v239 : Vec F S512x1024 .f32
  v247 : Vec F S512x1024 .f32
  v256 : Vec F S512x1024 .f32
  v264 : Vec F S512x1024 .f32
  v272 : Vec F S512x1024 .f32
  v280 : Vec F S512x1024 .f32
  v283 : Vec F S1x1024 .f32
  v292 : Vec F S1x1024 .f32
  v301 : Vec F S1x1024 .f32

namespace TcIn

variable (I : TcIn F)

/-! Lattice coordinates of the neighbours and of the cell; the squared distances. -/
def v62 : FVec F S1x512 .f32 := k1_pay4 I.v52
def v77 : F .f32 := k1_pay8 I.v71
def v85 : FVec F S1x512 .f32 := k1_pay10 I.v52 I.v71
def v87 : FVec F S1x512 .f32 := k1_pay11 I.v52 I.v71
/-! The three masks, their counts and flags; the current state. -/
def v97 : FVec F S1x512 .f32 := k1_pay13 I.v62 I.v77 I.v85 I.v87
def v101 : FVec F S1x512 .f32 := k1_pay14 I.v62 I.v77 I.v85 I.v87
def v106 : FVec F S1x512 .f32 := k1_pay15 I.v62 I.v77 I.v85 I.v87
def v110 : F .f32 := k1_pay16 I.v62 I.v77 I.v85 I.v87
def v114 : F .f32 := k1_pay17 I.v62 I.v77 I.v85 I.v87
def v118 : F .f32 := k1_pay18 I.v62 I.v77 I.v85 I.v87
def v121 : F .f32 := k1_pay19 I.v62 I.v77 I.v85 I.v87
def v124 : F .f32 := k1_pay20 I.v62 I.v77 I.v85 I.v87
def v127 : F .f32 := k1_pay21 I.v62 I.v77 I.v85 I.v87
def v129 : FVec F S1x1024 .f32 := k1_pay22 I.v128
def v132 (_ : TcIn F) : FVec F S1x512 .f32 := k1_pay23 (F := F)
/-! The aggregates over the neighbour states, the two expert inputs built from them, the gate. -/
def v147 : FVec F S1x2048 .f32 := k1_pay25 I.v97 I.v101 I.v110 I.v129 I.v132 I.v134
def v148 : FVec F S1x2048 .f32 := k1_pay26 I.v97 I.v101 I.v114 I.v129 I.v132 I.v134
def v167 : FVec F S1x3 .f32 := k1_pay27 I.v97 I.v101 I.v129 I.v132 I.v134 I.v150 I.v152
def cst92 (_ : TcIn F) : FVec F S512x1024 .f32 := constant S512x1024 .f32 0x00000000#32
/-! The functional expert's input; the local expert's chunked product. -/
def v183 : FVec F S1x2048 .f32 := k1_pay28 I.v106 I.v118 I.v129 I.v170 I.v171 I.cst92 I.v173
def v200 : FVec F S1x1024 .f32 := k1_pay29 I.v147 I.v190 I.v198
def v216 : FVec F S1x1024 .f32 := k1_pay30 I.v147 I.v200 I.v206 I.v214
/-! The distant expert's chunked product. -/
def v225 : FVec F S1x1024 .f32 := k1_pay31 I.v148 I.v223
def v230 : FVec F S1x512 .f32 := k1_pay32 I.v148
def v249 : FVec F S1x1024 .f32 := k1_pay33 I.v148 I.v225 I.v230 I.v231 I.v239 I.v247
/-! The functional expert's chunked product; the local expert's output. -/
def v258 : FVec F S1x1024 .f32 := k1_pay34 I.v183 I.v256
def v282 : FVec F S1x1024 .f32 := k1_pay35 I.v183 I.v258 I.v264 I.v272 I.v280
def v291 : FVec F S1x1024 .f32 := k1_pay36 I.v121 I.v167 I.v216 I.v283
/-- The vector the body stores: the gated sum of the three experts' outputs. -/
def out : Vec F S1x1024 .f32 := k1_pay1 I.v124 I.v127 I.v167 I.v249 I.v282 I.v291 I.v292 I.v301

end TcIn

/-- What the body loads, from the contents of its operands: the cell index word `x0`, the eight staged vectors `x1` …
    `x8` (current state, neighbour indices, gate bias, gate weights, the biases of func1, local, func2, dist) and the
    five HBM arrays (neighbour states `a1`, W_func1 `a6`, W_local `a4`, W_dist `a10`, W_func2 `a8`); a scratch buffer
    reads as the array copied into it. -/
def tcLoads (x0 : Vec F S1x1 .i32) (x1 : Vec F S1x1024 .f32) (x2 : Vec F S1x512 .i32) (x3 : Vec F S1x3 .f32) (x4 : Vec F S2048x3 .f32)
    (x5 x6 x7 x8 : Vec F S1x1024 .f32) (a1 : main_arg1.ty.Contents (Elt F)) (a6 : main_arg6.ty.Contents (Elt F)) (a4 : main_arg4.ty.Contents (Elt F))
    (a10 : main_arg10.ty.Contents (Elt F)) (a8 : main_arg8.ty.Contents (Elt F)) : TcIn F where
  v52 := View.ld x2 rNbr
  v71 := View.ld x0 rCell (Shape.Idx.first (numel1_S1x1.symm ▸ Nat.one_pos))
  v128 := View.ld x1 rRow
  v134 := View.ld (a1 : Vec F S512x1024 .f32) rNs
  v150 := View.ld x4 rWg
  v152 := View.ld x3 rBg
  v170 := View.ld (a1 : Vec F S512x1024 .f32) rNs
  v171 := View.ld (a6 : Vec F S1024x1024 .f32) rW1
  v173 := View.ld x5 rRow
  v190 := View.ld (a4 : Vec F S2048x1024 .f32) rC0
  v198 := View.ld (a4 : Vec F S2048x1024 .f32) rC1
  v206 := View.ld (a4 : Vec F S2048x1024 .f32) rC2
  v214 := View.ld (a4 : Vec F S2048x1024 .f32) rC3
  v223 := View.ld (a10 : Vec F S2048x1024 .f32) rC0
  v231 := View.ld (a10 : Vec F S2048x1024 .f32) rC1
  v239 := View.ld (a10 : Vec F S2048x1024 .f32) rC2
  v247 := View.ld (a10 : Vec F S2048x1024 .f32) rC3
  v256 := View.ld (a8 : Vec F S2048x1024 .f32) rC0
  v264 := View.ld (a8 : Vec F S2048x1024 .f32) rC1
  v272 := View.ld (a8 : Vec F S2048x1024 .f32) rC2
  v280 := View.ld (a8 : Vec F S2048x1024 .f32) rC3
  v283 := View.ld x6 rRow
  v292 := View.ld x7 rRow
  v301 := View.ld x8 rRow

/-- The output staging buffer's final contents, from the contents of the body's operands. -/
def tcOut (x0 : Vec F S1x1 .i32) (x1 : Vec F S1x1024 .f32) (x2 : Vec F S1x512 .i32) (x3 : Vec F S1x3 .f32) (x4 : Vec F S2048x3 .f32)
    (x5 x6 x7 x8 : Vec F S1x1024 .f32) (a1 : main_arg1.ty.Contents (Elt F)) (a6 : main_arg6.ty.Contents (Elt F)) (a4 : main_arg4.ty.Contents (Elt F))
    (a10 : main_arg10.ty.Contents (Elt F)) (a8 : main_arg8.ty.Contents (Elt F)) : Vec F S1x1024 .f32 :=
  (tcLoads x0 x1 x2 x3 x4 x5 x6 x7 x8 a1 a6 a4 a10 a8).out

/-! ## What a load reads of a scratch a copy has landed in -/

/-- A scratch whose four chunks of 512 rows each hold the same rows of one array `G` reads, through a box inside one
    chunk, `G` at the box. -/
theorem leafC (v : View sig .tc .vmem S2048x1024 .f32) (G : Vec F S2048x1024 .f32) (p0 p1 p2 p3 : Vec F S512x1024 .f32)
    (h0 : p0 = View.ld G rC0) (h1 : p1 = View.ld G rC1) (h2 : p2 = View.ld G rC2) (h3 : p3 = View.ld G rC3)
    (B : Rect S2048x1024) (hB : (LoadRect.within rC0 B.toLoadRect || LoadRect.within rC1 B.toLoadRect
      || LoadRect.within rC2 B.toLoadRect || LoadRect.within rC3 B.toLoadRect) = true) :
    v.readCov [⟨rC3, p3⟩, ⟨rC2, p2⟩, ⟨rC1, p1⟩, ⟨rC0, p0⟩] B.toLoadRect = View.ld G B := by
  subst h0 h1 h2 h3
  rw [View.readCov_eq_canon']
  funext j
  show View.canon _ (B.idx j) = G (B.idx j)
  refine View.canon_apply_of_pieces G _ ?_ _ ?_
  · intro p hp x
    simp only [List.mem_cons, List.mem_nil_iff, or_false] at hp
    rcases hp with rfl | rfl | rfl | rfl <;> rfl
  · simp only [Bool.or_eq_true] at hB
    rcases hB with ((hB | hB) | hB) | hB
    · exact ⟨⟨rC0, View.ld G rC0⟩, by simp, LoadRect.idx_mem_of_within hB j⟩
    · exact ⟨⟨rC1, View.ld G rC1⟩, by simp, LoadRect.idx_mem_of_within hB j⟩
    · exact ⟨⟨rC2, View.ld G rC2⟩, by simp, LoadRect.idx_mem_of_within hB j⟩
    · exact ⟨⟨rC3, View.ld G rC3⟩, by simp, LoadRect.idx_mem_of_within hB j⟩

/-- The neighbour states' scratch, filled whole by its copy, reads back as the array. -/
theorem leafW0 (a1 : main_arg1.ty.Contents (Elt F)) (g0 : cc1_scratch0.ty.Contents (Elt F)) :
    View.readAt (Elt F) (Memref.whole cc1_scratch0).view rNs.toLoadRect
      (View.write (Elt F) (Memref.whole cc1_scratch0).view g0 (ReadAs.same.apply (View.read (Elt F) (Memref.whole main_arg1).view a1)) Finset.univ)
    = View.ld (a1 : Vec F S512x1024 .f32) rNs := by
  rw [View.readAt_eq_ld, View.read_write_univ]; rfl

/-- W_func1's scratch likewise. -/
theorem leafW1 (a6 : main_arg6.ty.Contents (Elt F)) (g1 : cc1_scratch1.ty.Contents (Elt F)) :
    View.readAt (Elt F) (Memref.whole cc1_scratch1).view rW1.toLoadRect
      (View.write (Elt F) (Memref.whole cc1_scratch1).view g1 (ReadAs.same.apply (View.read (Elt F) (Memref.whole main_arg6).view a6)) Finset.univ)
    = View.ld (a6 : Vec F S1024x1024 .f32) rW1 := by
  rw [View.readAt_eq_ld, View.read_write_univ]; rfl

/-! The three expert weights' scratch buffers, chunk by chunk. -/
theorem leafC2_0 (a : main_arg4.ty.Contents (Elt F)) :
    (Memref.whole cc1_scratch2).view.readCov
      [⟨rC3, ReadAs.same.apply (View.read (Elt F) ((Memref.whole main_arg4).slice rC3 (fun _ => rfl)).view a)⟩,
        ⟨rC2, ReadAs.same.apply (View.read (Elt F) ((Memref.whole main_arg4).slice rC2 (fun _ => rfl)).view a)⟩,
        ⟨rC1, ReadAs.same.apply (View.read (Elt F) ((Memref.whole main_arg4).slice rC1 (fun _ => rfl)).view a)⟩,
        ⟨rC0, ReadAs.same.apply (View.read (Elt F) ((Memref.whole main_arg4).slice rC0 (fun _ => rfl)).view a)⟩] rC0.toLoadRect
      = View.ld (a : Vec F S2048x1024 .f32) rC0 :=
  leafC _ (a : Vec F S2048x1024 .f32) _ _ _ _ rfl rfl rfl rfl rC0 (by decide)
theorem leafC2_1 (a : main_arg4.ty.Contents (Elt F)) :
    (Memref.whole cc1_scratch2).view.readCov
      [⟨rC3, ReadAs.same.apply (View.read (Elt F) ((Memref.whole main_arg4).slice rC3 (fun _ => rfl)).view a)⟩,
        ⟨rC2, ReadAs.same.apply (View.read (Elt F) ((Memref.whole main_arg4).slice rC2 (fun _ => rfl)).view a)⟩,
        ⟨rC1, ReadAs.same.apply (View.read (Elt F) ((Memref.whole main_arg4).slice rC1 (fun _ => rfl)).view a)⟩,
        ⟨rC0, ReadAs.same.apply (View.read (Elt F) ((Memref.whole main_arg4).slice rC0 (fun _ => rfl)).view a)⟩] rC1.toLoadRect
      = View.ld (a : Vec F S2048x1024 .f32) rC1 :=
  leafC _ (a : Vec F S2048x1024 .f32) _ _ _ _ rfl rfl rfl rfl rC1 (by decide)
theorem leafC2_2 (a : main_arg4.ty.Contents (Elt F)) :
    (Memref.whole cc1_scratch2).view.readCov
      [⟨rC3, ReadAs.same.apply (View.read (Elt F) ((Memref.whole main_arg4).slice rC3 (fun _ => rfl)).view a)⟩,
        ⟨rC2, ReadAs.same.apply (View.read (Elt F) ((Memref.whole main_arg4).slice rC2 (fun _ => rfl)).view a)⟩,
        ⟨rC1, ReadAs.same.apply (View.read (Elt F) ((Memref.whole main_arg4).slice rC1 (fun _ => rfl)).view a)⟩,
        ⟨rC0, ReadAs.same.apply (View.read (Elt F) ((Memref.whole main_arg4).slice rC0 (fun _ => rfl)).view a)⟩] rC2.toLoadRect
      = View.ld (a : Vec F S2048x1024 .f32) rC2 :=
  leafC _ (a : Vec F S2048x1024 .f32) _ _ _ _ rfl rfl rfl rfl rC2 (by decide)
theorem leafC2_3 (a : main_arg4.ty.Contents (Elt F)) :
    (Memref.whole cc1_scratch2).view.readCov
      [⟨rC3, ReadAs.same.apply (View.read (Elt F) ((Memref.whole main_arg4).slice rC3 (fun _ => rfl)).view a)⟩,
        ⟨rC2, ReadAs.same.apply (View.read (Elt F) ((Memref.whole main_arg4).slice rC2 (fun _ => rfl)).view a)⟩,
        ⟨rC1, ReadAs.same.apply (View.read (Elt F) ((Memref.whole main_arg4).slice rC1 (fun _ => rfl)).view a)⟩,
        ⟨rC0, ReadAs.same.apply (View.read (Elt F) ((Memref.whole main_arg4).slice rC0 (fun _ => rfl)).view a)⟩] rC3.toLoadRect
      = View.ld (a : Vec F S2048x1024 .f32) rC3 :=
  leafC _ (a : Vec F S2048x1024 .f32) _ _ _ _ rfl rfl rfl rfl rC3 (by decide)
theorem leafC3_0 (a : main_arg10.ty.Contents (Elt F)) :
    (Memref.whole cc1_scratch3).view.readCov
      [⟨rC3, ReadAs.same.apply (View.read (Elt F) ((Memref.whole main_arg10).slice rC3 (fun _ => rfl)).view a)⟩,
        ⟨rC2, ReadAs.same.apply (View.read (Elt F) ((Memref.whole main_arg10).slice rC2 (fun _ => rfl)).view a)⟩,
        ⟨rC1, ReadAs.same.apply (View.read (Elt F) ((Memref.whole main_arg10).slice rC1 (fun _ => rfl)).view a)⟩,
        ⟨rC0, ReadAs.same.apply (View.read (Elt F) ((Memref.whole main_arg10).slice rC0 (fun _ => rfl)).view a)⟩] rC0.toLoadRect
      = View.ld (a : Vec F S2048x1024 .f32) rC0 :=
  leafC _ (a : Vec F S2048x1024 .f32) _ _ _ _ rfl rfl rfl rfl rC0 (by decide)
theorem leafC3_1 (a : main_arg10.ty.Contents (Elt F)) :
    (Memref.whole cc1_scratch3).view.readCov
      [⟨rC3, ReadAs.same.apply (View.read (Elt F) ((Memref.whole main_arg10).slice rC3 (fun _ => rfl)).view a)⟩,
        ⟨rC2, ReadAs.same.apply (View.read (Elt F) ((Memref.whole main_arg10).slice rC2 (fun _ => rfl)).view a)⟩,
        ⟨rC1, ReadAs.same.apply (View.read (Elt F) ((Memref.whole main_arg10).slice rC1 (fun _ => rfl)).view a)⟩,
        ⟨rC0, ReadAs.same.apply (View.read (Elt F) ((Memref.whole main_arg10).slice rC0 (fun _ => rfl)).view a)⟩] rC1.toLoadRect
      = View.ld (a : Vec F S2048x1024 .f32) rC1 :=
  leafC _ (a : Vec F S2048x1024 .f32) _ _ _ _ rfl rfl rfl rfl rC1 (by decide)
theorem leafC3_2 (a : main_arg10.ty.Contents (Elt F)) :
    (Memref.whole cc1_scratch3).view.readCov
      [⟨rC3, ReadAs.same.apply (View.read (Elt F) ((Memref.whole main_arg10).slice rC3 (fun _ => rfl)).view a)⟩,
        ⟨rC2, ReadAs.same.apply (View.read (Elt F) ((Memref.whole main_arg10).slice rC2 (fun _ => rfl)).view a)⟩,
        ⟨rC1, ReadAs.same.apply (View.read (Elt F) ((Memref.whole main_arg10).slice rC1 (fun _ => rfl)).view a)⟩,
        ⟨rC0, ReadAs.same.apply (View.read (Elt F) ((Memref.whole main_arg10).slice rC0 (fun _ => rfl)).view a)⟩] rC2.toLoadRect
      = View.ld (a : Vec F S2048x1024 .f32) rC2 :=
  leafC _ (a : Vec F S2048x1024 .f32) _ _ _ _ rfl rfl rfl rfl rC2 (by decide)
theorem leafC3_3 (a : main_arg10.ty.Contents (Elt F)) :
    (Memref.whole cc1_scratch3).view.readCov
      [⟨rC3, ReadAs.same.apply (View.read (Elt F) ((Memref.whole main_arg10).slice rC3 (fun _ => rfl)).view a)⟩,
        ⟨rC2, ReadAs.same.apply (View.read (Elt F) ((Memref.whole main_arg10).slice rC2 (fun _ => rfl)).view a)⟩,
        ⟨rC1, ReadAs.same.apply (View.read (Elt F) ((Memref.whole main_arg10).slice rC1 (fun _ => rfl)).view a)⟩,
        ⟨rC0, ReadAs.same.apply (View.read (Elt F) ((Memref.whole main_arg10).slice rC0 (fun _ => rfl)).view a)⟩] rC3.toLoadRect
      = View.ld (a : Vec F S2048x1024 .f32) rC3 :=
  leafC _ (a : Vec F S2048x1024 .f32) _ _ _ _ rfl rfl rfl rfl rC3 (by decide)
theorem leafC4_0 (a : main_arg8.ty.Contents (Elt F)) :
    (Memref.whole cc1_scratch4).view.readCov
      [⟨rC3, ReadAs.same.apply (View.read (Elt F) ((Memref.whole main_arg8).slice rC3 (fun _ => rfl)).view a)⟩,
        ⟨rC2, ReadAs.same.apply (View.read (Elt F) ((Memref.whole main_arg8).slice rC2 (fun _ => rfl)).view a)⟩,
        ⟨rC1, ReadAs.same.apply (View.read (Elt F) ((Memref.whole main_arg8).slice rC1 (fun _ => rfl)).view a)⟩,
        ⟨rC0, ReadAs.same.apply (View.read (Elt F) ((Memref.whole main_arg8).slice rC0 (fun _ => rfl)).view a)⟩] rC0.toLoadRect
      = View.ld (a : Vec F S2048x1024 .f32) rC0 :=
  leafC _ (a : Vec F S2048x1024 .f32) _ _ _ _ rfl rfl rfl rfl rC0 (by decide)
theorem leafC4_1 (a : main_arg8.ty.Contents (Elt F)) :
    (Memref.whole cc1_scratch4).view.readCov
      [⟨rC3, ReadAs.same.apply (View.read (Elt F) ((Memref.whole main_arg8).slice rC3 (fun _ => rfl)).view a)⟩,
        ⟨rC2, ReadAs.same.apply (View.read (Elt F) ((Memref.whole main_arg8).slice rC2 (fun _ => rfl)).view a)⟩,
        ⟨rC1, ReadAs.same.apply (View.read (Elt F) ((Memref.whole main_arg8).slice rC1 (fun _ => rfl)).view a)⟩,
        ⟨rC0, ReadAs.same.apply (View.read (Elt F) ((Memref.whole main_arg8).slice rC0 (fun _ => rfl)).view a)⟩] rC1.toLoadRect
      = View.ld (a : Vec F S2048x1024 .f32) rC1 :=
  leafC _ (a : Vec F S2048x1024 .f32) _ _ _ _ rfl rfl rfl rfl rC1 (by decide)
theorem leafC4_2 (a : main_arg8.ty.Contents (Elt F)) :
    (Memref.whole cc1_scratch4).view.readCov
      [⟨rC3, ReadAs.same.apply (View.read (Elt F) ((Memref.whole main_arg8).slice rC3 (fun _ => rfl)).view a)⟩,
        ⟨rC2, ReadAs.same.apply (View.read (Elt F) ((Memref.whole main_arg8).slice rC2 (fun _ => rfl)).view a)⟩,
        ⟨rC1, ReadAs.same.apply (View.read (Elt F) ((Memref.whole main_arg8).slice rC1 (fun _ => rfl)).view a)⟩,
        ⟨rC0, ReadAs.same.apply (View.read (Elt F) ((Memref.whole main_arg8).slice rC0 (fun _ => rfl)).view a)⟩] rC2.toLoadRect
      = View.ld (a : Vec F S2048x1024 .f32) rC2 :=
  leafC _ (a : Vec F S2048x1024 .f32) _ _ _ _ rfl rfl rfl rfl rC2 (by decide)
theorem leafC4_3 (a : main_arg8.ty.Contents (Elt F)) :
    (Memref.whole cc1_scratch4).view.readCov
      [⟨rC3, ReadAs.same.apply (View.read (Elt F) ((Memref.whole main_arg8).slice rC3 (fun _ => rfl)).view a)⟩,
        ⟨rC2, ReadAs.same.apply (View.read (Elt F) ((Memref.whole main_arg8).slice rC2 (fun _ => rfl)).view a)⟩,
        ⟨rC1, ReadAs.same.apply (View.read (Elt F) ((Memref.whole main_arg8).slice rC1 (fun _ => rfl)).view a)⟩,
        ⟨rC0, ReadAs.same.apply (View.read (Elt F) ((Memref.whole main_arg8).slice rC0 (fun _ => rfl)).view a)⟩] rC3.toLoadRect
      = View.ld (a : Vec F S2048x1024 .f32) rC3 :=
  leafC _ (a : Vec F S2048x1024 .f32) _ _ _ _ rfl rfl rfl rfl rC3 (by decide)

/-! ## The triple -/

set_option maxHeartbeats 2000000 in
set_option maxRecDepth 65536 in
set_option sl_exec.dmaWindow true in
/-- THE BODY'S TRIPLE: from the nine staged inputs owned at their contents, the output staging buffer owned at any, the
    five HBM arrays held whole at a share `q`, the five scratch buffers held whole, the fourteen counters at zero, the
    evidence that the thread's waits are admissible and what it owes, the body runs to a continuation that is handed all
    of it back: the inputs and the HBM arrays as they were, the output buffer at `tcOut` of the operands' contents, the
    scratch at some contents, the counters at zero again, and the waits recorded at the kernels' index only. The stored
    vector is the payloads' composition `TcIn.out` at the values loaded, and a load of a scratch reads the array its
    copy brought. -/
theorem tc_body (c : Dev nD) (arg0 : Memref sig .tc .smem S1x1 .i32) (harg0 : arg0.IsWhole) (arg1 : Memref sig .tc .vmem S1x1024 .f32) (harg1 : arg1.IsWhole) (arg2 : Memref sig .tc .vmem S1x512 .i32) (harg2 : arg2.IsWhole) (arg3 : Memref sig .tc .vmem S1x3 .f32) (harg3 : arg3.IsWhole) (arg4 : Memref sig .tc .vmem S2048x3 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg14 : Memref sig .tc .vmem S1x1024 .f32) (harg14 : arg14.IsWhole)
    (x0 : Vec F S1x1 .i32) (x1 : Vec F S1x1024 .f32) (x2 : Vec F S1x512 .i32) (x3 : Vec F S1x3 .f32) (x4 : Vec F S2048x3 .f32)
    (x5 x6 x7 x8 : Vec F S1x1024 .f32) (q : PosShare TreeShare)
    (a1 : main_arg1.ty.Contents (Elt F)) (a6 : main_arg6.ty.Contents (Elt F)) (a4 : main_arg4.ty.Contents (Elt F))
    (a10 : main_arg10.ty.Contents (Elt F)) (a8 : main_arg8.ty.Contents (Elt F))
    (O : CellTallies nD τ sig (HIx 1)) (W : Waits sig (HIx 1)) (K : PUnit → sProp 𝕄) :
    iprop(tcIns c arg0 arg1 arg2 arg3 arg4 arg5 arg6 arg7 arg8 x0 x1 x2 x3 x4 x5 x6 x7 x8
        ∗ (∃ d, owns (c.tc : Thread nD τ) arg14 fullShare d)
        ∗ tcHbm c q a1 a6 a4 a10 a8 ∗ tcScr c ∗ tcSems c
        ∗ Transfers.MayWaits (c.tc : Thread nD τ) (none : HIx 1) O ∗ owes (c.tc : Thread nD τ) O W
        ∗ (iprop(tcIns c arg0 arg1 arg2 arg3 arg4 arg5 arg6 arg7 arg8 x0 x1 x2 x3 x4 x5 x6 x7 x8
            ∗ owns (c.tc : Thread nD τ) arg14 fullShare (tcOut x0 x1 x2 x3 x4 x5 x6 x7 x8 a1 a6 a4 a10 a8)
            ∗ tcHbm c q a1 a6 a4 a10 a8 ∗ tcScr c ∗ tcSems c
            ∗ ∃ W', ⌜∀ p ∈ W', p ∈ W ∨ p.2 = none⌝ ∗ owes (c.tc : Thread nD τ) O W') -∗ K ⟨⟩))
      ⊢ wp frame (wpE (defs₀ (F := F)) 𝒱₀ (c.tc : Thread nD τ) none) Set.univ (cc1__body arg0 harg0 arg1 harg1 arg2 harg2 arg3 harg3 arg4 harg4 arg5 harg5 arg6 harg6 arg7 harg7 arg8 harg8 (Memref.whole main_arg1) (Memref.isWhole_whole _) (Memref.whole main_arg6) (Memref.isWhole_whole _) (Memref.whole main_arg4) (Memref.isWhole_whole _) (Memref.whole main_arg10) (Memref.isWhole_whole _) (Memref.whole main_arg8) (Memref.isWhole_whole _) arg14 harg14 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5) K := by
  rw [cc1__body_eq_skeleton]; unfold cc1__body_skel
  rw [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton]
  unfold k1_part1_skel k1_part2_skel k1_part3_skel k1_part4_skel k1_part5_skel k1_part6_skel k1_part7_skel k1_part8_skel k1_part9_skel
  unfold tcIns tcHbm tcScr tcSems owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d14, %f14, -, H14⟩, ⟨A1, A6, A4, A10, A8⟩, ⟨⟨%g0, G0⟩, ⟨%g1, G1⟩, ⟨%g2, G2⟩, ⟨%g3, G3⟩, ⟨%g4, G4⟩⟩, ⟨S0, S1, S2, S3, S4, S5, S6, S7, S8, S9, S10, S11, S12, S13⟩, Hmw, HO, Hk⟩
  subst hf0 hf1 hf2 hf3 hf4 hf5 hf6 hf7 hf8
  sl_exec
  sl_step
  iapply Hk
  isplitl [H0 H1 H2 H3 H4 H5 H6 H7 H8]
  · isplitl [H0]
    · iexists f0; isplitr
      · ipureintro; rfl
      · iexact H0
    isplitl [H1]
    · iexists f1; isplitr
      · ipureintro; rfl
      · iexact H1
    isplitl [H2]
    · iexists f2; isplitr
      · ipureintro; rfl
      · iexact H2
    isplitl [H3]
    · iexists f3; isplitr
      · ipureintro; rfl
      · iexact H3
    isplitl [H4]
    · iexists f4; isplitr
      · ipureintro; rfl
      · iexact H4
    isplitl [H5]
    · iexists f5; isplitr
      · ipureintro; rfl
      · iexact H5
    isplitl [H6]
    · iexists f6; isplitr
      · ipureintro; rfl
      · iexact H6
    isplitl [H7]
    · iexists f7; isplitr
      · ipureintro; rfl
      · iexact H7
    iexists f8; isplitr
    · ipureintro; rfl
    · iexact H8
  isplitl [H14]
  · iexists _; isplitr
    swap; · iexact H14
    ipureintro
    rw [View.read_writes_eq_canon _ _ _ (fun y => ⟨_, List.mem_singleton_self _, View.mem_set_unit_zero (by funext i; fin_cases i <;> rfl) inb_S1x1024_S1x1024_0_0 y⟩),
      View.canon_unit_zero (by funext i; fin_cases i <;> rfl)]
    unfold tcOut tcLoads
    -- each load of a scratch reads the array copied into it
    rw [show tc_body.sl.v134 a1 g0 = View.ld (a1 : Vec F S512x1024 .f32) rNs from leafW0 a1 g0,
      show tc_body.sl.v171 a6 g1 = View.ld (a6 : Vec F S1024x1024 .f32) rW1 from leafW1 a6 g1,
      show tc_body.sl.v190 a4 = View.ld (a4 : Vec F S2048x1024 .f32) rC0 from leafC2_0 a4,
      show tc_body.sl.v198 a4 = View.ld (a4 : Vec F S2048x1024 .f32) rC1 from leafC2_1 a4,
      show tc_body.sl.v206 a4 = View.ld (a4 : Vec F S2048x1024 .f32) rC2 from leafC2_2 a4,
      show tc_body.sl.v214 a4 = View.ld (a4 : Vec F S2048x1024 .f32) rC3 from leafC2_3 a4,
      show tc_body.sl.v223 a10 = View.ld (a10 : Vec F S2048x1024 .f32) rC0 from leafC3_0 a10,
      show tc_body.sl.v231 a10 = View.ld (a10 : Vec F S2048x1024 .f32) rC1 from leafC3_1 a10,
      show tc_body.sl.v239 a10 = View.ld (a10 : Vec F S2048x1024 .f32) rC2 from leafC3_2 a10,
      show tc_body.sl.v247 a10 = View.ld (a10 : Vec F S2048x1024 .f32) rC3 from leafC3_3 a10,
      show tc_body.sl.v256 a8 = View.ld (a8 : Vec F S2048x1024 .f32) rC0 from leafC4_0 a8,
      show tc_body.sl.v264 a8 = View.ld (a8 : Vec F S2048x1024 .f32) rC1 from leafC4_1 a8,
      show tc_body.sl.v272 a8 = View.ld (a8 : Vec F S2048x1024 .f32) rC2 from leafC4_2 a8,
      show tc_body.sl.v280 a8 = View.ld (a8 : Vec F S2048x1024 .f32) rC3 from leafC4_3 a8,
      show tc_body.sl.r c arg0 f0 = View.ld (View.read (Elt F) arg0.view f0) rCell (Shape.Idx.first (numel1_S1x1.symm ▸ Nat.one_pos)) from rfl,
      show View.readAt (Elt F) arg2.view rNbr.toLoadRect f2 = View.ld (View.read (Elt F) arg2.view f2) rNbr from rfl,
      show View.readAt (Elt F) arg1.view rRow.toLoadRect f1 = View.ld (View.read (Elt F) arg1.view f1) rRow from rfl,
      show View.readAt (Elt F) arg4.view rWg.toLoadRect f4 = View.ld (View.read (Elt F) arg4.view f4) rWg from rfl,
      show View.readAt (Elt F) arg3.view rBg.toLoadRect f3 = View.ld (View.read (Elt F) arg3.view f3) rBg from rfl,
      show View.readAt (Elt F) arg5.view rRow.toLoadRect f5 = View.ld (View.read (Elt F) arg5.view f5) rRow from rfl,
      show View.readAt (Elt F) arg6.view rRow.toLoadRect f6 = View.ld (View.read (Elt F) arg6.view f6) rRow from rfl,
      show View.readAt (Elt F) arg7.view rRow.toLoadRect f7 = View.ld (View.read (Elt F) arg7.view f7) rRow from rfl,
      show View.readAt (Elt F) arg8.view rRow.toLoadRect f8 = View.ld (View.read (Elt F) arg8.view f8) rRow from rfl]
    -- with the loaded values as atoms, the stored vector is `TcIn.out` of them by definition
    generalize View.ld (View.read (Elt F) arg2.view f2) rNbr = L52
    generalize View.ld (View.read (Elt F) arg0.view f0) rCell (Shape.Idx.first (numel1_S1x1.symm ▸ Nat.one_pos)) = L71
    generalize View.ld (View.read (Elt F) arg1.view f1) rRow = L128
    generalize View.ld (a1 : Vec F S512x1024 .f32) rNs = L134
    generalize View.ld (View.read (Elt F) arg4.view f4) rWg = L150
    generalize View.ld (View.read (Elt F) arg3.view f3) rBg = L152
    generalize View.ld (a6 : Vec F S1024x1024 .f32) rW1 = L171
    generalize View.ld (View.read (Elt F) arg5.view f5) rRow = L173
    generalize View.ld (a4 : Vec F S2048x1024 .f32) rC0 = L190
    generalize View.ld (a4 : Vec F S2048x1024 .f32) rC1 = L198
    generalize View.ld (a4 : Vec F S2048x1024 .f32) rC2 = L206
    generalize View.ld (a4 : Vec F S2048x1024 .f32) rC3 = L214
    generalize View.ld (a10 : Vec F S2048x1024 .f32) rC0 = L223
    generalize View.ld (a10 : Vec F S2048x1024 .f32) rC1 = L231
    generalize View.ld (a10 : Vec F S2048x1024 .f32) rC2 = L239
    generalize View.ld (a10 : Vec F S2048x1024 .f32) rC3 = L247
    generalize View.ld (a8 : Vec F S2048x1024 .f32) rC0 = L256
    generalize View.ld (a8 : Vec F S2048x1024 .f32) rC1 = L264
    generalize View.ld (a8 : Vec F S2048x1024 .f32) rC2 = L272
    generalize View.ld (a8 : Vec F S2048x1024 .f32) rC3 = L280
    generalize View.ld (View.read (Elt F) arg6.view f6) rRow = L283
    generalize View.ld (View.read (Elt F) arg7.view f7) rRow = L292
    generalize View.ld (View.read (Elt F) arg8.view f8) rRow = L301
    rfl
  isplitl [A1 A6 A4 A10 A8]
  · isplitl [A1]; · iexact A1
    isplitl [A6]; · iexact A6
    isplitl [A4]; · iexact A4
    isplitl [A10]; · iexact A10
    iexact A8
  isplitl [G0 G1 G2 G3 G4]
  · isplitl [G0]; · iexists _; iexact G0
    isplitl [G1]; · iexists _; iexact G1
    isplitl [G2]; · iexists _; iexact G2
    isplitl [G3]; · iexists _; iexact G3
    iexists _; iexact G4
  isplitl [S0 S1 S2 S3 S4 S5 S6 S7 S8 S9 S10 S11 S12 S13]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  iexists _; isplitr
  swap; · iexact HO
  ipureintro
  intro p hp
  simp only [Finset.mem_insert] at hp
  rcases hp with hp | hp | hp | hp | hp | hp | hp | hp | hp | hp | hp | hp | hp | hp | hp
  all_goals first | exact .inl hp | exact .inr (hp ▸ rfl)

/-- THE FRAME FORM: the same run with the output staging buffer's final contents forgotten. -/
theorem tc_body_frame (c : Dev nD) (arg0 : Memref sig .tc .smem S1x1 .i32) (harg0 : arg0.IsWhole) (arg1 : Memref sig .tc .vmem S1x1024 .f32) (harg1 : arg1.IsWhole) (arg2 : Memref sig .tc .vmem S1x512 .i32) (harg2 : arg2.IsWhole) (arg3 : Memref sig .tc .vmem S1x3 .f32) (harg3 : arg3.IsWhole) (arg4 : Memref sig .tc .vmem S2048x3 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg14 : Memref sig .tc .vmem S1x1024 .f32) (harg14 : arg14.IsWhole)
    (x0 : Vec F S1x1 .i32) (x1 : Vec F S1x1024 .f32) (x2 : Vec F S1x512 .i32) (x3 : Vec F S1x3 .f32) (x4 : Vec F S2048x3 .f32)
    (x5 x6 x7 x8 : Vec F S1x1024 .f32) (q : PosShare TreeShare)
    (a1 : main_arg1.ty.Contents (Elt F)) (a6 : main_arg6.ty.Contents (Elt F)) (a4 : main_arg4.ty.Contents (Elt F))
    (a10 : main_arg10.ty.Contents (Elt F)) (a8 : main_arg8.ty.Contents (Elt F))
    (O : CellTallies nD τ sig (HIx 1)) (W : Waits sig (HIx 1)) (K : PUnit → sProp 𝕄) :
    iprop(tcIns c arg0 arg1 arg2 arg3 arg4 arg5 arg6 arg7 arg8 x0 x1 x2 x3 x4 x5 x6 x7 x8
        ∗ (∃ d, owns (c.tc : Thread nD τ) arg14 fullShare d)
        ∗ tcHbm c q a1 a6 a4 a10 a8 ∗ tcScr c ∗ tcSems c
        ∗ Transfers.MayWaits (c.tc : Thread nD τ) (none : HIx 1) O ∗ owes (c.tc : Thread nD τ) O W
        ∗ (iprop(tcIns c arg0 arg1 arg2 arg3 arg4 arg5 arg6 arg7 arg8 x0 x1 x2 x3 x4 x5 x6 x7 x8
            ∗ (∃ d, owns (c.tc : Thread nD τ) arg14 fullShare d)
            ∗ tcHbm c q a1 a6 a4 a10 a8 ∗ tcScr c ∗ tcSems c
            ∗ ∃ W', ⌜∀ p ∈ W', p ∈ W ∨ p.2 = none⌝ ∗ owes (c.tc : Thread nD τ) O W') -∗ K ⟨⟩))
      ⊢ wp frame (wpE (defs₀ (F := F)) 𝒱₀ (c.tc : Thread nD τ) none) Set.univ (cc1__body arg0 harg0 arg1 harg1 arg2 harg2 arg3 harg3 arg4 harg4 arg5 harg5 arg6 harg6 arg7 harg7 arg8 harg8 (Memref.whole main_arg1) (Memref.isWhole_whole _) (Memref.whole main_arg6) (Memref.isWhole_whole _) (Memref.whole main_arg4) (Memref.isWhole_whole _) (Memref.whole main_arg10) (Memref.isWhole_whole _) (Memref.whole main_arg8) (Memref.isWhole_whole _) arg14 harg14 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5) K := by
  iintro ⟨Hi, Ho, Hh, Hs, Hm, Hmw, HO, Hk⟩
  iapply (tc_body c arg0 harg0 arg1 harg1 arg2 harg2 arg3 harg3 arg4 harg4 arg5 harg5 arg6 harg6 arg7 harg7 arg8 harg8 arg14 harg14
    x0 x1 x2 x3 x4 x5 x6 x7 x8 q a1 a6 a4 a10 a8 O W K)
  isplitl [Hi]; · iexact Hi
  isplitl [Ho]; · iexact Ho
  isplitl [Hh]; · iexact Hh
  isplitl [Hs]; · iexact Hs
  isplitl [Hm]; · iexact Hm
  isplitl [Hmw]; · iexact Hmw
  isplitl [HO]; · iexact HO
  iintro ⟨Hi, Ho, Hh, Hs, Hm, HW⟩
  iapply Hk
  isplitl [Hi]; · iexact Hi
  isplitl [Ho]; · iexists _; iexact Ho
  isplitl [Hh]; · iexact Hh
  isplitl [Hs]; · iexact Hs
  isplitl [Hm]; · iexact Hm
  iexact HW

end Cert.Proof.KB
end
-- ==== Proof.KBRegDefs.lean ====
/-
  The TensorCore kernel region of the kernel as printed inside its SparseCore program: the body's triple as a
  specification, and the pipeline's proof data over the unscoped arrays as the region finds them.  The region is gridless: every window's block is its
  whole array; nine windows are fetched, one (the result row) written back.  The body's own fourteen copies read five
  unscoped arrays that are no window's, into five scratch buffers, each on its own semaphore.
-/
import proofs.«211217_g68642167325227_cont_9to1_m_1168_22_alg».proof.Proof.KBRun
import proofs.«211217_g68642167325227_cont_9to1_m_1168_22_alg».proof.Proof.KBTcBody
import proofs.«211217_g68642167325227_cont_9to1_m_1168_22_alg».proof.Proof.Gen.Kernel.Launch
import proofs.«211217_g68642167325227_cont_9to1_m_1168_22_alg».proof.Proof.Gen.Kernel.Points
import Idealize.ShloMosaic.Lib.Pipeline.FrameBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat BodyObligation)

variable {F : FTy → Type} [FloatOps F] [Cert.Kernel.Facts]

local notation "𝕄" => MT nD τ sig (HIx 1) (Elt F) ℕ UU ℕ

/-- The type of the body's result as a function of what it loads: the nine staged operands, the five arrays it copies. -/
abbrev TcOutTy (F : FTy → Type) [FloatOps F] : Type := Vec F S1x1 .i32 → Vec F S1x1024 .f32 → Vec F S1x512 .i32 → Vec F S1x3 .f32 → Vec F S2048x3 .f32 → Vec F S1x1024 .f32 → Vec F S1x1024 .f32 → Vec F S1x1024 .f32 → Vec F S1x1024 .f32 → main_arg1.ty.Contents (Elt F) → main_arg6.ty.Contents (Elt F) → main_arg4.ty.Contents (Elt F) → main_arg10.ty.Contents (Elt F) → main_arg8.ty.Contents (Elt F) → Vec F S1x1024 .f32

/-- The body's triple, as the region needs it: from the staged operands, the result's staging buffer, the five arrays at a
    share, the scratch, the fourteen semaphores at zero and evidence that its waits are admissible, the body runs and leaves
    the result's buffer at `tcOutF` of what it was given, everything else as it was. -/
def TcBodySpec (tcOutF : TcOutTy F) : Prop :=
  ∀ (c : Dev nD) (arg0 : Memref sig .tc .smem S1x1 .i32) (harg0 : arg0.IsWhole) (arg1 : Memref sig .tc .vmem S1x1024 .f32) (harg1 : arg1.IsWhole) (arg2 : Memref sig .tc .vmem S1x512 .i32) (harg2 : arg2.IsWhole) (arg3 : Memref sig .tc .vmem S1x3 .f32) (harg3 : arg3.IsWhole) (arg4 : Memref sig .tc .vmem S2048x3 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg14 : Memref sig .tc .vmem S1x1024 .f32) (harg14 : arg14.IsWhole)
    (x0 : Vec F S1x1 .i32) (x1 : Vec F S1x1024 .f32) (x2 : Vec F S1x512 .i32) (x3 : Vec F S1x3 .f32) (x4 : Vec F S2048x3 .f32) (x5 : Vec F S1x1024 .f32) (x6 : Vec F S1x1024 .f32) (x7 : Vec F S1x1024 .f32) (x8 : Vec F S1x1024 .f32) (q : PosShare TreeShare) (a1 : main_arg1.ty.Contents (Elt F)) (a6 : main_arg6.ty.Contents (Elt F)) (a4 : main_arg4.ty.Contents (Elt F)) (a10 : main_arg10.ty.Contents (Elt F)) (a8 : main_arg8.ty.Contents (Elt F))
    (O : CellTallies nD τ sig (HIx 1)) (W : Waits sig (HIx 1)) (Kk : PUnit → sProp 𝕄),
  iprop(tcIns c arg0 arg1 arg2 arg3 arg4 arg5 arg6 arg7 arg8 x0 x1 x2 x3 x4 x5 x6 x7 x8 ∗ (∃ dd, owns (c.tc : Thread nD τ) arg14 fullShare dd) ∗ tcHbm c q a1 a6 a4 a10 a8 ∗ tcScr c ∗ tcSems c
      ∗ Transfers.MayWaits (c.tc : Thread nD τ) (none : HIx 1) O ∗ owes (c.tc : Thread nD τ) O W
      ∗ (iprop(tcIns c arg0 arg1 arg2 arg3 arg4 arg5 arg6 arg7 arg8 x0 x1 x2 x3 x4 x5 x6 x7 x8 ∗ owns (c.tc : Thread nD τ) arg14 fullShare (tcOutF x0 x1 x2 x3 x4 x5 x6 x7 x8 a1 a6 a4 a10 a8)
          ∗ tcHbm c q a1 a6 a4 a10 a8 ∗ tcScr c ∗ tcSems c ∗ ∃ W', ⌜∀ p ∈ W', p ∈ W ∨ p.2 = none⌝ ∗ owes (c.tc : Thread nD τ) O W') -∗ Kk ⟨⟩))
    ⊢ wp frame (wpE (defs₀ (F := F)) 𝒱₀ (c.tc : Thread nD τ) none) Set.univ
        (cc1__body arg0 harg0 arg1 harg1 arg2 harg2 arg3 harg3 arg4 harg4 arg5 harg5 arg6 harg6 arg7 harg7 arg8 harg8 (Memref.whole main_arg1) (Memref.isWhole_whole _) (Memref.whole main_arg6) (Memref.isWhole_whole _) (Memref.whole main_arg4) (Memref.isWhole_whole _) (Memref.whole main_arg10) (Memref.isWhole_whole _) (Memref.whole main_arg8) (Memref.isWhole_whole _) arg14 harg14 (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5) Kk

variable (m : (ℓ : Loc nD τ sig) → Buf (Elt F) ℓ) (tcOutF : TcOutTy F)

/-! ## The proof data -/

abbrev adm : (p : Fin 1) → (pcfgs (F := F) p).Adm := fun p => (cfgs p).toPCfg_adm

/-- The unscoped arrays as the region finds them, indexed as the pipeline library indexes them. -/
abbrev VR (d : Dev nD) (g : Buf (Elt F) (oLoc d)) (b : Ref sig .tc) : Buf (Elt F) ((d.tc : Thread nD τ).loc b) := V3 m d g (Proc.devRef .tc b)

/-- Window `w`'s block at the one point: its whole array. -/
def iblk (d : Dev nD) (g : Buf (Elt F) (oLoc d)) (w : Fin cfg1.W) (t : Fin cfg1.N) : ((cfg1.win w).xblock (cfg1.grid.coords t)).Idx → Elt F (cfg1.win w).elt :=
  ((cfg1.win w).blk t).view.read (Elt F) (VR m d g (Pipeline.arrRef spec1 w))

/-- What the body computes at the one point, from the nine blocks and the five arrays. -/
def tcVal (d : Dev nD) (g : Buf (Elt F) (oLoc d)) (t : Fin cfg1.N) : Vec F S1x1024 .f32 :=
  tcOutF (iblk m d g 0 t) (iblk m d g 1 t) (iblk m d g 2 t) (iblk m d g 3 t) (iblk m d g 4 t) (iblk m d g 5 t) (iblk m d g 6 t) (iblk m d g 7 t) (iblk m d g 8 t)
    (VR m d g main_arg1) (VR m d g main_arg6) (VR m d g main_arg4) (VR m d g main_arg10) (VR m d g main_arg8)

/-! ## The body's own semaphores, and what the body needs that is no window's -/

abbrev osem (k : Fin 14) : SemLoc sig := SemLoc.dma (tcSem k)

theorem ho : Pipeline.OwnSemFacts spec1 osem := by decide

/-- The level facts (for the waits' evidence), the fourteen semaphores at zero, the unscoped arrays that are no window's
    (the five the body copies among them) and the scratch. -/
def RΦ (d : Dev nD) (g : Buf (Elt F) (oLoc d)) : sProp 𝕄 :=
  iprop(levAts (K (F := F)).L (K (F := F)).lev ∗ Pipeline.ownSems0 osem d ∗ Pipeline.unscopedRest spec1 d (VR m d g) ∗ Pipeline.scopedRest spec1 d)

/-- The proof data on core `d`: the windows' arrays as the region finds them; after the body each input's buffer at its
    block and the result's at the body's function of them; the invariant above; nothing owed; full shares. -/
def dat1 (d : Dev nD) (g : Buf (Elt F) (oLoc d)) : Dat τ (Elt F) (HIx 1) ℕ UU ℕ cfg1 d where
  A w := VR m d g (Pipeline.arrRef spec1 w)
  after w t := match w with
    | ⟨0, _⟩ => iblk m d g 0 t
    | ⟨1, _⟩ => iblk m d g 1 t
    | ⟨2, _⟩ => iblk m d g 2 t
    | ⟨3, _⟩ => iblk m d g 3 t
    | ⟨4, _⟩ => iblk m d g 4 t
    | ⟨5, _⟩ => iblk m d g 5 t
    | ⟨6, _⟩ => iblk m d g 6 t
    | ⟨7, _⟩ => iblk m d g 7 t
    | ⟨8, _⟩ => iblk m d g 8 t
    | ⟨9, _⟩ => tcVal m tcOutF d g t
  Φ _ := RΦ m d g
  q _ := fullShare
  owed _ := 0

theorem A_eq (d : Dev nD) (g : Buf (Elt F) (oLoc d)) (w : Fin cfg1.W) : (dat1 m tcOutF d g).A w = VR m d g (Pipeline.arrRef spec1 w) := by
  dsimp only [dat1]

variable (gs : (c : Dev nD) → Buf (Elt F) (oLoc c))

/-- One pipeline; on core `c` the call's result is `gs c`. -/
def pdats : (p : Fin 1) → (c : Dev nD) → Dat τ (Elt F) (HIx 1) ℕ UU ℕ (Pipeline.pin (pcfgs (F := F)) adm p) c
  | 0 => fun c => dat1 m tcOutF c (gs c)

end Cert.Proof.KB

end
-- ==== Proof.KBRegion.lean ====
/-
  The TensorCore kernel region of the kernel as printed inside its SparseCore program: the region's record (entry and
  exit around the unscoped arrays and what the TensorCore owes, which is nothing after the last call) and the rule @main
  uses, entered through the lift of the inner body table into the SparseCore program's.
-/
import proofs.«211217_g68642167325227_cont_9to1_m_1168_22_alg».proof.Proof.KBRegDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat BodyObligation)

variable {F : FTy → Type} [FloatOps F] [Cert.Kernel.Facts]

local notation "𝕄" => MT nD τ sig (HIx 1) (Elt F) ℕ UU ℕ

variable (m : (ℓ : Loc nD τ sig) → Buf (Elt F) ℓ) (tcOutF : TcOutTy F) (gs : (c : Dev nD) → Buf (Elt F) (oLoc c))

/-! ## The arrays after the region -/

/-- The region's result array after the region, as the pipeline library computes it from the proof data. -/
abbrev vOut (c : Dev nD) : Buf (Elt F) (rLoc c) := (dat1 m tcOutF c (gs c)).arrAt 9 cfg1.N

/-- The unscoped arrays after the region. -/
abbrev VRo (c : Dev nD) (b : Ref sig .tc) : Buf (Elt F) ((c.tc : Thread nD τ).loc b) := V4 m c (gs c) (vOut m tcOutF gs c) (Proc.devRef .tc b)

theorem VRo_of_ne (c : Dev nD) (b : Ref sig .tc) (h : (Proc.devRef .tc b : DevRef τ sig) ≠ r') : VRo m tcOutF gs c b = VR m c (gs c) b :=
  Function.update_of_ne h ..
theorem VRo_v10 (c : Dev nD) : VRo m tcOutF gs c main_v10 = vOut m tcOutF gs c := Function.update_self ..

/-- Each window's array after the region is what the valuation after the region holds there: the nine inputs as found, the
    result at what the library computes. -/
theorem arrAt_eq (c : Dev nD) (w : Fin cfg1.W) :
    (pdats m tcOutF gs 0 c).arrAt w (Pipeline.pin (pcfgs (F := F)) adm 0).N = VRo m tcOutF gs c (Pipeline.arrRef spec1 w) := by
  match w with
  | ⟨0, _⟩ => exact ((dat1 m tcOutF c (gs c)).arrAt_in 0 rfl _).trans (VRo_of_ne m tcOutF gs c main_v0 (by decide)).symm
  | ⟨1, _⟩ => exact ((dat1 m tcOutF c (gs c)).arrAt_in 1 rfl _).trans (VRo_of_ne m tcOutF gs c main_v1 (by decide)).symm
  | ⟨2, _⟩ => exact ((dat1 m tcOutF c (gs c)).arrAt_in 2 rfl _).trans (VRo_of_ne m tcOutF gs c main_v2 (by decide)).symm
  | ⟨3, _⟩ => exact ((dat1 m tcOutF c (gs c)).arrAt_in 3 rfl _).trans (VRo_of_ne m tcOutF gs c main_v5 (by decide)).symm
  | ⟨4, _⟩ => exact ((dat1 m tcOutF c (gs c)).arrAt_in 4 rfl _).trans (VRo_of_ne m tcOutF gs c main_arg12 (by decide)).symm
  | ⟨5, _⟩ => exact ((dat1 m tcOutF c (gs c)).arrAt_in 5 rfl _).trans (VRo_of_ne m tcOutF gs c main_v6 (by decide)).symm
  | ⟨6, _⟩ => exact ((dat1 m tcOutF c (gs c)).arrAt_in 6 rfl _).trans (VRo_of_ne m tcOutF gs c main_v7 (by decide)).symm
  | ⟨7, _⟩ => exact ((dat1 m tcOutF c (gs c)).arrAt_in 7 rfl _).trans (VRo_of_ne m tcOutF gs c main_v8 (by decide)).symm
  | ⟨8, _⟩ => exact ((dat1 m tcOutF c (gs c)).arrAt_in 8 rfl _).trans (VRo_of_ne m tcOutF gs c main_v9 (by decide)).symm
  | ⟨9, _⟩ => exact (VRo_v10 m tcOutF gs c).symm

/-- The arrays that are no window's are untouched by the region. -/
theorem rest_eq (c : Dev nD) :
    (Pipeline.unscopedRest (Ix := HIx 1) (Name := ℕ) (U := UU) (Lvl := ℕ) spec1 c (VRo m tcOutF gs c) : sProp 𝕄)
      = Pipeline.unscopedRest spec1 c (VR m c (gs c)) := by
  unfold Pipeline.unscopedRest
  refine bigSep_congr fun b hb => ?_
  rw [VRo_of_ne m tcOutF gs c b fun e => (Finset.mem_sdiff.mp hb).2 (Finset.mem_image.mpr ⟨9, Finset.mem_univ _, (Proc.devRef_injective _ e).symm⟩)]

/-! ## The region's record -/

/-- The region: the ten windows' arrays into the pipeline; the fourteen semaphores, the level facts and every other unscoped
    array into the body's invariant (and back out); the TensorCore owes nothing on either side. -/
def reg1 (hbody : ∀ c, BodyObligation (dat1 m tcOutF c (gs c)) (defs₀ (F := F)) 𝒱₀ (none : HIx 1) Set.univ) :
    Pipeline.RegionSeg (pcfgs (F := F)) adm (pdats m tcOutF gs) (none : HIx 1) defs₀ 𝒱₀ (K (F := F)).L (K (F := F)).lev 0 where
  win := launch1.win.to₀
  block_pos := launch1.block_pos
  stage_whole := launch1.stage_whole
  K := Fin 14
  osem := osem
  ho := ho
  hbody c := (hbody c).loose
  hwaits c := Pipeline.hwaits_of_owed_zero (pcfgs (F := F)) adm (pdats m tcOutF gs) (none : HIx 1) (K (F := F)).L (K (F := F)).lev 0 (fun _ _ => rfl) c
  pre c := iprop(unscopedBufs c (VR m c (gs c)) ∗ ∃ W, owes (c.tc : Thread nD τ) (0 : CellTallies nD τ sig (HIx 1)) W)
  post c := iprop(unscopedBufs c (VRo m tcOutF gs c) ∗ ∃ W, owes (c.tc : Thread nD τ) (0 : CellTallies nD τ sig (HIx 1)) W)
  X c := iprop(levAts (K (F := F)).L (K (F := F)).lev ∗ Pipeline.ownSems0 osem c ∗ Pipeline.unscopedRest spec1 c (VR m c (gs c)))
  Y c := Pipeline.unscopedRest spec1 c (VR m c (gs c))
  Z _ := iprop(emp)
  hentry c := by
    have hsplit := Pipeline.arrays_of_unscopedBufs (pcfgs (F := F)) adm (pdats m tcOutF gs) launch1.win launch1.arr_whole c
      ((pdats m tcOutF gs 0 c).share_full fun _ => rfl) (VR m c (gs c)) fun _ => rfl
    iintro ⟨⟨Hub, %W, HO⟩, Hsem, #Hlv⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ _ => Or.inl trivial
      iexact HO
    isplitl [Hsem Hr]
    · isplitr; · iexact Hlv
      isplitl [Hsem]; · iexact Hsem
      iexact Hr
    iempintro
  hin c := by
    show _ ⊢ RΦ m c (gs c)
    unfold RΦ
    iintro ⟨⟨Hlv, Hsem, Hr⟩, -, Hsr⟩
    isplitl [Hlv]; · iexact Hlv
    isplitl [Hsem]; · iexact Hsem
    isplitl [Hr]; · iexact Hr
    iexact Hsr
  hout c := by
    show RΦ m c (gs c) ⊢ _
    unfold RΦ
    iintro ⟨-, Hsem, Hr, Hsr⟩
    isplitl [Hr]; · iexact Hr
    isplitl [Hsem]; · iexact Hsem
    iexact Hsr
  hexit c := by
    rw [Pipeline.unscopedBufs_split (Pipeline.pin (pcfgs (F := F)) adm) 0 launch1.win.arr_unscoped launch1.win.arr_inj c (VRo m tcOutF gs c),
      Pipeline.arrays_eq (Pipeline.pin (pcfgs (F := F)) adm) (pdats m tcOutF gs) 0 c launch1.arr_whole ((pdats m tcOutF gs 0 c).share_full fun _ => rfl),
      rest_eq]
    simp only [arrAt_eq m tcOutF gs c]
    iintro ⟨Ha, HO, Hy, -⟩
    imodintro
    isplitl [Ha Hy]
    · isplitl [Ha]; · iexact Ha
      iexact Hy
    unfold Pipeline.Dat.owesAt Pipeline.owesWithin
    icases HO with ⟨%W, -, HO⟩
    iexists W; iexact HO

/-! ## The rule -/

/-- What the region's result is: what the pipeline library computes from the proof data (the body's function of the
    blocks, written back). -/
def TcOutP (d : Dev nD) (g : Buf (Elt F) (oLoc d)) (vo : Buf (Elt F) (rLoc d)) : Prop :=
  vo = (dat1 m tcOutF d g).arrAt 9 cfg1.N

/-- With one call, every recorded wait sits at or below level 8. -/
theorem wbelow_any (d : Dev nD) (W : Waits sig (HIx 1)) : (K (F := F)).WBelow (T d) W (8 * 1) := fun p _ => by
  rcases hp : p.2 with _ | q
  · simp
  · have := (K (F := F)).lev_some_le ((T d : Thread nD τ), p.1) q
    have hq := q.isLt
    omega

/-- After the last call the TensorCore owes nothing: its handshake state is that, beside a rest the region does not touch. -/
theorem tcSt_one (d : Dev nD) : ∃ R : sProp 𝕄, ((K (F := F)).tcSt EH d 1 : sProp 𝕄)
    = iprop((∃ W, ⌜(K (F := F)).WBelow (T d) W (8 * 1)⌝ ∗ owes (T d) (0 : CellTallies nD τ sig (HIx 1)) W) ∗ R) := by
  refine ⟨?R, ?h⟩
  case h =>
    unfold SparseCore.Cfg.tcSt
    rw [(K (F := F)).Otc_end d (le_refl _)]

theorem lift_seq (ops : List (HloOp τ sig (Elt F))) :
    TpuEff.inlProg (Λ' := (SparseCore.Sig (ΛP (F := F)) 1)) (StableHlo.seq ops : Prog (TpuEff nD τ sig (Elt F) (ΛP (F := F)) .tc) PUnit) = StableHlo.seq ops := by
  induction ops with
  | nil => rfl
  | cons op ops ih =>
    simp only [StableHlo.seq, inlProg_bind, ih]
    rfl

theorem lift_region :
    SparseCore.liftProg (Q := 1) ((.op (.customCall (Pipeline.entry 0) ()) fun _ => StableHlo.seq (ops3 (F := F))) : Prog (TpuEff nD τ sig (Elt F) (ΛP (F := F)) .tc) PUnit)
      = .op (.customCall (SparseCore.inner (Pipeline.entry 0)) ()) fun _ => StableHlo.seq (ops3 (F := F)) := by
  show TpuEff.inlProg _ = _
  rw [inlProg_op]
  simp only [lift_seq]
  rfl

set_option backward.isDefEq.respectTransparency.types false in
/-- The region under the inner body table: the pipeline library's region rule at the record above. -/
theorem inner_rule (hbody : ∀ c, BodyObligation (dat1 m tcOutF c (gs c)) (defs₀ (F := F)) 𝒱₀ (none : HIx 1) Set.univ) (d : Dev nD)
    (Q : PUnit → sProp 𝕄) :
    iprop((iprop(boundary (d.tc : Thread nD τ) ∗ (reg1 m tcOutF gs hbody).post d) -∗ wp frame (wpE (D (F := F)) 𝒱 (d.tc : Thread nD τ) none) Set.univ (StableHlo.seq (ops3 (F := F))) Q)
        ∗ boundary (d.tc : Thread nD τ) ∗ (reg1 m tcOutF gs hbody).pre d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE (D (F := F)) 𝒱 (d.tc : Thread nD τ) none) Set.univ (.op (.customCall (Pipeline.entry 0) ()) fun _ => StableHlo.seq (ops3 (F := F))) Q :=
  Pipeline.RegionSeg.wp (pcfgs (F := F)) adm (pdats m tcOutF gs) (none : HIx 1) cellOf_inj (EP (F := F)) defs₀ 𝒱₀
    (K (F := F)).L (K (F := F)).lev (reg1 m tcOutF gs hbody) d none (by intro u h; cases h) (fun _ => StableHlo.seq (ops3 (F := F))) Q

/-- The record's entry and exit conditions, spelt out. -/
theorem reg1_pre (hbody : ∀ c, BodyObligation (dat1 m tcOutF c (gs c)) (defs₀ (F := F)) 𝒱₀ (none : HIx 1) Set.univ) (d : Dev nD) :
    (reg1 m tcOutF gs hbody).pre d = iprop(unscopedBufs d (VR m d (gs d)) ∗ ∃ W, owes (d.tc : Thread nD τ) (0 : CellTallies nD τ sig (HIx 1)) W) := rfl
theorem reg1_post (hbody : ∀ c, BodyObligation (dat1 m tcOutF c (gs c)) (defs₀ (F := F)) 𝒱₀ (none : HIx 1) Set.univ) (d : Dev nD) :
    (reg1 m tcOutF gs hbody).post d = iprop(unscopedBufs d (VRo m tcOutF gs d) ∗ ∃ W, owes (d.tc : Thread nD τ) (0 : CellTallies nD τ sig (HIx 1)) W) := rfl

/-- The region's ghost state, in the library's spelling of the configurations and in the program's. -/
theorem cellsGhost_pin (d : Dev nD) :
    (Pipeline.cellsGhost (Pipeline.pin (pcfgs (F := F)) adm) (EP (F := F)) 0 d : sProp 𝕄) = Pipeline.cellsGhost cfgs (EP (F := F)) 0 d := rfl
theorem toksInit_pin (d : Dev nD) :
    (Pipeline.toksInit (Pipeline.pin (pcfgs (F := F)) adm) (EP (F := F)) 0 d : sProp 𝕄) = Pipeline.toksInit cfgs (EP (F := F)) 0 d := rfl

/-- The region's own summand of what @main starts from. -/
theorem G_elem (d : Dev nD) :
    (G (F := F) d : sProp 𝕄) ⊢ iprop(Pipeline.cellsGhost cfgs (EP (F := F)) 0 d ∗ Pipeline.toksInit cfgs (EP (F := F)) 0 d) :=
  BIClass.sep_mono (bigSep_elim (Φ := fun p : Fin 1 => Pipeline.cellsGhost cfgs (EP (F := F)) p d) (Finset.mem_univ (0 : Fin 1)))
    (bigSep_elim (Φ := fun p : Fin 1 => (Pipeline.toksInit cfgs (EP (F := F)) p d : sProp 𝕄)) (Finset.mem_univ (0 : Fin 1)))

/-- What the rule is entered with yields what the inner rule asks, the continuation included: the TensorCore's handshake
    state (it owes nothing) and the rest of it ride along. -/
theorem region_pre (κ : GSem nD τ sig → ℕ) (d : Dev nD) (Q : PUnit → sProp 𝕄) (R : sProp 𝕄) :
    iprop((K (F := F)).ctx EH (P m (cvOf m)) κ
        ∗ ((∃ W, ⌜(K (F := F)).WBelow (T d) W (8 * 1)⌝ ∗ owes (T d) (0 : CellTallies nD τ sig (HIx 1)) W) ∗ R)
        ∗ boundary (T d) ∗ held (T d) UC (V3 m d (gs d)) ∗ G (F := F) d
        ∗ ((∃ vo, ⌜TcOutP m tcOutF d (gs d) vo⌝ ∗ ((∃ W, ⌜(K (F := F)).WBelow (T d) W (8 * 1)⌝ ∗ owes (T d) (0 : CellTallies nD τ sig (HIx 1)) W) ∗ R)
              ∗ boundary (T d) ∗ held (T d) UC (V4 m d (gs d) vo))
            -∗ wp frame (wpE (D (F := F)) 𝒱 (T d) none) Set.univ (StableHlo.seq (ops3 (F := F))) Q))
      ⊢ iprop((iprop(boundary (d.tc : Thread nD τ) ∗ (unscopedBufs d (VRo m tcOutF gs d) ∗ ∃ W, owes (d.tc : Thread nD τ) (0 : CellTallies nD τ sig (HIx 1)) W))
            -∗ wp frame (wpE (D (F := F)) 𝒱 (d.tc : Thread nD τ) none) Set.univ (StableHlo.seq (ops3 (F := F))) Q)
        ∗ boundary (d.tc : Thread nD τ) ∗ (unscopedBufs d (VR m d (gs d)) ∗ ∃ W, owes (d.tc : Thread nD τ) (0 : CellTallies nD τ sig (HIx 1)) W)
        ∗ levAts (K (F := F)).L (K (F := F)).lev
        ∗ Pipeline.cellsGhost cfgs (EP (F := F)) 0 d ∗ Pipeline.toksInit cfgs (EP (F := F)) 0 d) := by
  iintro ⟨#Hctx, ⟨⟨%W, -, HO⟩, Hrest⟩, Hb, Hheld, HG, Hk⟩
  ihave HG' := (G_elem (F := F) d) $$ HG
  icases HG' with ⟨Hc, Ht⟩
  ihave #Hlev := ((K (F := F)).ctx_levAts κ) $$ Hctx
  isplitl [Hk Hrest]
  · iintro ⟨Hb, Hub, %W', HO⟩
    iapply Hk
    iexists (vOut m tcOutF gs d)
    isplitr; · ipureintro; rfl
    isplitl [HO Hrest]
    · isplitl [HO]
      · iexists W'; isplitr; · ipureintro; exact wbelow_any d W'
        iexact HO
      iexact Hrest
    isplitl [Hb]; · iexact Hb
    iapply (Entails.of_eq (Pipeline.unscopedBufs_held (Ix := HIx 1) (Name := ℕ) (U := UU) (Lvl := ℕ) d (V4 m d (gs d) (vOut m tcOutF gs d))))
    iexact Hub
  isplitl [Hb]; · iexact Hb
  isplitl [Hheld HO]
  · isplitl [Hheld]
    · iapply (Entails.of_eq (Pipeline.unscopedBufs_held (Ix := HIx 1) (Name := ℕ) (U := UU) (Lvl := ℕ) d (V3 m d (gs d))).symm)
      iexact Hheld
    iexists W; iexact HO
  isplitr; · iexact Hlev
  isplitl [Hc]; · iexact Hc
  iexact Ht

set_option backward.isDefEq.respectTransparency.types false in
/-- The region inside the SparseCore program: its call is the lift of the inner program's, the inner one is the pipeline
    library's region rule at this record, and the TensorCore's handshake state passes through (it owes nothing). -/
theorem region_rule (hbody : ∀ (d : Dev nD) (g : Buf (Elt F) (oLoc d)), BodyObligation (dat1 m tcOutF d g) (defs₀ (F := F)) 𝒱₀ (none : HIx 1) Set.univ) :
    RegionRule m (TcOutP m tcOutF) := by
  intro κ d g Q
  obtain ⟨gs, hgs⟩ : ∃ gs : (c : Dev nD) → Buf (Elt F) (oLoc c), gs d = g :=
    ⟨Function.update (fun c => m (oLoc c)) d g, Function.update_self ..⟩
  subst hgs
  obtain ⟨R, hR⟩ := tcSt_one (F := F) d
  rw [hR, ← lift_region]
  refine BI.Entails.trans ?_ ((K (F := F)).wp_liftProg (D (F := F)) 𝒱 (T d) Set.univ none _ Q)
  refine BI.Entails.trans ?_ (inner_rule m tcOutF gs (fun c => hbody c (gs c)) d Q)
  rw [reg1_pre, reg1_post, cellsGhost_pin, toksInit_pin]
  exact region_pre m tcOutF gs κ d Q R

end Cert.Proof.KB

end
-- ==== Proof.KBRegBody.lean ====
/-
  The body obligation of the TensorCore kernel region of the kernel as printed.

  The region is gridless: at its one point every input window's staging buffer holds the window's whole array (its
  block), and the body is handed, beside the ten staging buffers, what the region's invariant keeps for it: the level
  facts (from which the evidence that its waits are admissible follows, the thread owing nothing), its fourteen
  semaphores at zero, the five unscoped arrays it copies (among the unscoped arrays that are no window's) and its
  five scratch buffers.  The body's triple, taken as a hypothesis, then leaves the result's buffer at the body's
  function of the nine blocks and the five arrays and everything else as it was: the invariant at the next point.
-/
import proofs.«211217_g68642167325227_cont_9to1_m_1168_22_alg».proof.Proof.KBRegDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat BodyObligation)

variable {F : FTy → Type} [FloatOps F] [Cert.Kernel.Facts]

local notation "𝕄" => MT nD τ sig (HIx 1) (Elt F) ℕ UU ℕ

variable (m : (ℓ : Loc nD τ sig) → Buf (Elt F) ℓ) (tcOutF : TcOutTy F)

/-! ## What each staging buffer holds before and after the body -/

theorem after1_0 (d : Dev nD) (g : Buf (Elt F) (oLoc d)) (t : Fin cfg1.N) : (dat1 m tcOutF d g).after 0 t = iblk m d g 0 t := by dsimp only [dat1]; rfl
theorem after1_1 (d : Dev nD) (g : Buf (Elt F) (oLoc d)) (t : Fin cfg1.N) : (dat1 m tcOutF d g).after 1 t = iblk m d g 1 t := by dsimp only [dat1]; rfl
theorem after1_2 (d : Dev nD) (g : Buf (Elt F) (oLoc d)) (t : Fin cfg1.N) : (dat1 m tcOutF d g).after 2 t = iblk m d g 2 t := by dsimp only [dat1]; rfl
theorem after1_3 (d : Dev nD) (g : Buf (Elt F) (oLoc d)) (t : Fin cfg1.N) : (dat1 m tcOutF d g).after 3 t = iblk m d g 3 t := by dsimp only [dat1]; rfl
theorem after1_4 (d : Dev nD) (g : Buf (Elt F) (oLoc d)) (t : Fin cfg1.N) : (dat1 m tcOutF d g).after 4 t = iblk m d g 4 t := by dsimp only [dat1]; rfl
theorem after1_5 (d : Dev nD) (g : Buf (Elt F) (oLoc d)) (t : Fin cfg1.N) : (dat1 m tcOutF d g).after 5 t = iblk m d g 5 t := by dsimp only [dat1]; rfl
theorem after1_6 (d : Dev nD) (g : Buf (Elt F) (oLoc d)) (t : Fin cfg1.N) : (dat1 m tcOutF d g).after 6 t = iblk m d g 6 t := by dsimp only [dat1]; rfl
theorem after1_7 (d : Dev nD) (g : Buf (Elt F) (oLoc d)) (t : Fin cfg1.N) : (dat1 m tcOutF d g).after 7 t = iblk m d g 7 t := by dsimp only [dat1]; rfl
theorem after1_8 (d : Dev nD) (g : Buf (Elt F) (oLoc d)) (t : Fin cfg1.N) : (dat1 m tcOutF d g).after 8 t = iblk m d g 8 t := by dsimp only [dat1]; rfl
theorem after1_9 (d : Dev nD) (g : Buf (Elt F) (oLoc d)) (t : Fin cfg1.N) : (dat1 m tcOutF d g).after 9 t = tcVal m tcOutF d g t := by dsimp only [dat1]; rfl

/-- Input window 0's staging buffer holds its block (the window is fetched at the point, uncut and never idle). -/
theorem before1_0 (d : Dev nD) (g : Buf (Elt F) (oLoc d)) (t : Fin cfg1.N) (dd) : (dat1 m tcOutF d g).before 0 t dd = iblk m d g 0 t :=
  ((dat1 m tcOutF d g).before_in_eq_fetched 0 rfl (fun _ => rfl) (fun _ _ _ => rfl)
    (fun t => by rw [after1_0]; unfold Dat.blockOf iblk; rw [A_eq]; try rfl) t dd).trans
    (by unfold Dat.fetched Dat.blockOf iblk; rw [A_eq]; try rfl)
/-- Input window 1's staging buffer holds its block (the window is fetched at the point, uncut and never idle). -/
theorem before1_1 (d : Dev nD) (g : Buf (Elt F) (oLoc d)) (t : Fin cfg1.N) (dd) : (dat1 m tcOutF d g).before 1 t dd = iblk m d g 1 t :=
  ((dat1 m tcOutF d g).before_in_eq_fetched 1 rfl (fun _ => rfl) (fun _ _ _ => rfl)
    (fun t => by rw [after1_1]; unfold Dat.blockOf iblk; rw [A_eq]; try rfl) t dd).trans
    (by unfold Dat.fetched Dat.blockOf iblk; rw [A_eq]; try rfl)
/-- Input window 2's staging buffer holds its block (the window is fetched at the point, uncut and never idle). -/
theorem before1_2 (d : Dev nD) (g : Buf (Elt F) (oLoc d)) (t : Fin cfg1.N) (dd) : (dat1 m tcOutF d g).before 2 t dd = iblk m d g 2 t :=
  ((dat1 m tcOutF d g).before_in_eq_fetched 2 rfl (fun _ => rfl) (fun _ _ _ => rfl)
    (fun t => by rw [after1_2]; unfold Dat.blockOf iblk; rw [A_eq]; try rfl) t dd).trans
    (by unfold Dat.fetched Dat.blockOf iblk; rw [A_eq]; try rfl)
/-- Input window 3's staging buffer holds its block (the window is fetched at the point, uncut and never idle). -/
theorem before1_3 (d : Dev nD) (g : Buf (Elt F) (oLoc d)) (t : Fin cfg1.N) (dd) : (dat1 m tcOutF d g).before 3 t dd = iblk m d g 3 t :=
  ((dat1 m tcOutF d g).before_in_eq_fetched 3 rfl (fun _ => rfl) (fun _ _ _ => rfl)
    (fun t => by rw [after1_3]; unfold Dat.blockOf iblk; rw [A_eq]; try rfl) t dd).trans
    (by unfold Dat.fetched Dat.blockOf iblk; rw [A_eq]; try rfl)
/-- Input window 4's staging buffer holds its block (the window is fetched at the point, uncut and never idle). -/
theorem before1_4 (d : Dev nD) (g : Buf (Elt F) (oLoc d)) (t : Fin cfg1.N) (dd) : (dat1 m tcOutF d g).before 4 t dd = iblk m d g 4 t :=
  ((dat1 m tcOutF d g).before_in_eq_fetched 4 rfl (fun _ => rfl) (fun _ _ _ => rfl)
    (fun t => by rw [after1_4]; unfold Dat.blockOf iblk; rw [A_eq]; try rfl) t dd).trans
    (by unfold Dat.fetched Dat.blockOf iblk; rw [A_eq]; try rfl)
/-- Input window 5's staging buffer holds its block (the window is fetched at the point, uncut and never idle). -/
theorem before1_5 (d : Dev nD) (g : Buf (Elt F) (oLoc d)) (t : Fin cfg1.N) (dd) : (dat1 m tcOutF d g).before 5 t dd = iblk m d g 5 t :=
  ((dat1 m tcOutF d g).before_in_eq_fetched 5 rfl (fun _ => rfl) (fun _ _ _ => rfl)
    (fun t => by rw [after1_5]; unfold Dat.blockOf iblk; rw [A_eq]; try rfl) t dd).trans
    (by unfold Dat.fetched Dat.blockOf iblk; rw [A_eq]; try rfl)
/-- Input window 6's staging buffer holds its block (the window is fetched at the point, uncut and never idle). -/
theorem before1_6 (d : Dev nD) (g : Buf (Elt F) (oLoc d)) (t : Fin cfg1.N) (dd) : (dat1 m tcOutF d g).before 6 t dd = iblk m d g 6 t :=
  ((dat1 m tcOutF d g).before_in_eq_fetched 6 rfl (fun _ => rfl) (fun _ _ _ => rfl)
    (fun t => by rw [after1_6]; unfold Dat.blockOf iblk; rw [A_eq]; try rfl) t dd).trans
    (by unfold Dat.fetched Dat.blockOf iblk; rw [A_eq]; try rfl)
/-- Input window 7's staging buffer holds its block (the window is fetched at the point, uncut and never idle). -/
theorem before1_7 (d : Dev nD) (g : Buf (Elt F) (oLoc d)) (t : Fin cfg1.N) (dd) : (dat1 m tcOutF d g).before 7 t dd = iblk m d g 7 t :=
  ((dat1 m tcOutF d g).before_in_eq_fetched 7 rfl (fun _ => rfl) (fun _ _ _ => rfl)
    (fun t => by rw [after1_7]; unfold Dat.blockOf iblk; rw [A_eq]; try rfl) t dd).trans
    (by unfold Dat.fetched Dat.blockOf iblk; rw [A_eq]; try rfl)
/-- Input window 8's staging buffer holds its block (the window is fetched at the point, uncut and never idle). -/
theorem before1_8 (d : Dev nD) (g : Buf (Elt F) (oLoc d)) (t : Fin cfg1.N) (dd) : (dat1 m tcOutF d g).before 8 t dd = iblk m d g 8 t :=
  ((dat1 m tcOutF d g).before_in_eq_fetched 8 rfl (fun _ => rfl) (fun _ _ _ => rfl)
    (fun t => by rw [after1_8]; unfold Dat.blockOf iblk; rw [A_eq]; try rfl) t dd).trans
    (by unfold Dat.fetched Dat.blockOf iblk; rw [A_eq]; try rfl)

/-! ## The invariant's pieces as the body's triple names them -/

/-- The fourteen semaphores at zero, one by one. -/
theorem ownSems0_eq (d : Dev nD) : (Pipeline.ownSems0 osem d : sProp 𝕄) = tcSems d := by
  unfold Pipeline.ownSems0 tcSems
  exact bigSep_univ_eq_bigSepL [(0 : Fin 14), (1 : Fin 14), (2 : Fin 14), (3 : Fin 14), (4 : Fin 14), (5 : Fin 14), (6 : Fin 14), (7 : Fin 14),
    (8 : Fin 14), (9 : Fin 14), (10 : Fin 14), (11 : Fin 14), (12 : Fin 14), (13 : Fin 14)] (by decide) (by decide) _

/-- A TensorCore array held whole, as the region's invariant spells it. -/
theorem heldW_eq (d : Dev nD) (b : Ref sig .tc) (q : PosShare TreeShare) (f : b.ty.Contents (Elt F)) :
    (heldW d b q f : sProp 𝕄) = (((d.tc : Thread nD τ).loc b) ↦{q} f) := by
  simp only [Memref.view_whole, View.set_whole]

/-- The scoped buffers that are no staging buffer are the body's five scratch buffers. -/
theorem scopedRest_eq (d : Dev nD) : (Pipeline.scopedRest spec1 d : sProp 𝕄) = tcScr d := by
  unfold tcScr
  simp only [heldW_eq]
  exact scopedRest1_eq d

/-! ## The body obligation, at the point -/

/-- What the body is called with at point `t` (the windows one by one), -/
def bodyPre (d : Dev nD) (g : Buf (Elt F) (oLoc d)) (t : Fin cfg1.N) : sProp 𝕄 :=
  iprop((dat1 m tcOutF d g).Φ t.castSucc ∗ (dat1 m tcOutF d g).owesAt (none : HIx 1) t.castSucc
    ∗ (∃ dd, owns (d.tc : Thread nD τ) (st1_0 t) fullShare ((dat1 m tcOutF d g).before 0 t dd))
    ∗ (∃ dd, owns (d.tc : Thread nD τ) (st1_1 t) fullShare ((dat1 m tcOutF d g).before 1 t dd))
    ∗ (∃ dd, owns (d.tc : Thread nD τ) (st1_2 t) fullShare ((dat1 m tcOutF d g).before 2 t dd))
    ∗ (∃ dd, owns (d.tc : Thread nD τ) (st1_3 t) fullShare ((dat1 m tcOutF d g).before 3 t dd))
    ∗ (∃ dd, owns (d.tc : Thread nD τ) (st1_4 t) fullShare ((dat1 m tcOutF d g).before 4 t dd))
    ∗ (∃ dd, owns (d.tc : Thread nD τ) (st1_5 t) fullShare ((dat1 m tcOutF d g).before 5 t dd))
    ∗ (∃ dd, owns (d.tc : Thread nD τ) (st1_6 t) fullShare ((dat1 m tcOutF d g).before 6 t dd))
    ∗ (∃ dd, owns (d.tc : Thread nD τ) (st1_7 t) fullShare ((dat1 m tcOutF d g).before 7 t dd))
    ∗ (∃ dd, owns (d.tc : Thread nD τ) (st1_8 t) fullShare ((dat1 m tcOutF d g).before 8 t dd))
    ∗ (∃ dd, owns (d.tc : Thread nD τ) (st1_9 t) fullShare ((dat1 m tcOutF d g).before 9 t dd)))

/-- and what it returns. -/
def bodyPost (d : Dev nD) (g : Buf (Elt F) (oLoc d)) (t : Fin cfg1.N) : sProp 𝕄 :=
  iprop((dat1 m tcOutF d g).Φ t.succ ∗ (dat1 m tcOutF d g).owesAt (none : HIx 1) t.succ
    ∗ owns (d.tc : Thread nD τ) (st1_0 t) fullShare ((dat1 m tcOutF d g).after 0 t)
    ∗ owns (d.tc : Thread nD τ) (st1_1 t) fullShare ((dat1 m tcOutF d g).after 1 t)
    ∗ owns (d.tc : Thread nD τ) (st1_2 t) fullShare ((dat1 m tcOutF d g).after 2 t)
    ∗ owns (d.tc : Thread nD τ) (st1_3 t) fullShare ((dat1 m tcOutF d g).after 3 t)
    ∗ owns (d.tc : Thread nD τ) (st1_4 t) fullShare ((dat1 m tcOutF d g).after 4 t)
    ∗ owns (d.tc : Thread nD τ) (st1_5 t) fullShare ((dat1 m tcOutF d g).after 5 t)
    ∗ owns (d.tc : Thread nD τ) (st1_6 t) fullShare ((dat1 m tcOutF d g).after 6 t)
    ∗ owns (d.tc : Thread nD τ) (st1_7 t) fullShare ((dat1 m tcOutF d g).after 7 t)
    ∗ owns (d.tc : Thread nD τ) (st1_8 t) fullShare ((dat1 m tcOutF d g).after 8 t)
    ∗ owns (d.tc : Thread nD τ) (st1_9 t) fullShare ((dat1 m tcOutF d g).after 9 t))

/-- The body at the point: the inputs' buffers hold their blocks, the invariant yields what the body's triple asks
    beside them, and what the triple hands back is the invariant and the buffers as the next point wants them. -/
theorem sound_body (htc : TcBodySpec tcOutF) (d : Dev nD) (g : Buf (Elt F) (oLoc d)) (t : Fin cfg1.N) :
    bodyPre m tcOutF d g t ⊢ wp frame (wpE (defs₀ (F := F)) 𝒱₀ (d.tc : Thread nD τ) none) Set.univ (bodyAt1 t) (fun _ => bodyPost m tcOutF d g t) := by
  unfold bodyPre bodyPost bodyAt1
  simp only [before1_0, before1_1, before1_2, before1_3, before1_4, before1_5, before1_6, before1_7, before1_8]
  rw [show (dat1 m tcOutF d g).Φ t.succ = RΦ m d g from rfl, show (dat1 m tcOutF d g).Φ t.castSucc = RΦ m d g from rfl,
    show (dat1 m tcOutF d g).owesAt (none : HIx 1) t.succ = (dat1 m tcOutF d g).owesAt (none : HIx 1) t.castSucc from rfl,
    after1_0, after1_1, after1_2, after1_3, after1_4, after1_5, after1_6, after1_7, after1_8, after1_9]
  unfold RΦ
  rw [ownSems0_eq, scopedRest_eq, unscopedRest1_eq]
  iintro ⟨⟨#Hlv, Hsems, ⟨U0, A1, U2, U3, A4, U5, A6, U7, A8, U9, A10, U11, U13, Uv3, Uv4, Uv11, Uv12, Uv13, Uv14, Ucst, Uv15, Uv16⟩, Hscr⟩, ⟨%W0, %hW0, HO⟩,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave Hmw := ((K (F := F)).mayWaits_none (thr := (d.tc : Thread nD τ)) (O := (0 : CellTallies nD τ sig (HIx 1))) (fun _ => rfl)) $$ Hlv
  iapply (htc d _ _ _ _ _ _ _ _ _ _ _ _ _ _ _ _ _ _ _ _ (iblk m d g 0 t) (iblk m d g 1 t) (iblk m d g 2 t) (iblk m d g 3 t) (iblk m d g 4 t)
    (iblk m d g 5 t) (iblk m d g 6 t) (iblk m d g 7 t) (iblk m d g 8 t) fullShare
    (VR m d g main_arg1) (VR m d g main_arg6) (VR m d g main_arg4) (VR m d g main_arg10) (VR m d g main_arg8) 0 W0 _)
  unfold tcIns tcHbm
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [A1 A6 A4 A10 A8]
  · isplitl [A1]; · iapply (Entails.of_eq (heldW_eq (F := F) d _ _ _).symm); iexact A1
    isplitl [A6]; · iapply (Entails.of_eq (heldW_eq (F := F) d _ _ _).symm); iexact A6
    isplitl [A4]; · iapply (Entails.of_eq (heldW_eq (F := F) d _ _ _).symm); iexact A4
    isplitl [A10]; · iapply (Entails.of_eq (heldW_eq (F := F) d _ _ _).symm); iexact A10
    iapply (Entails.of_eq (heldW_eq (F := F) d _ _ _).symm); iexact A8
  isplitl [Hscr]; · iexact Hscr
  isplitl [Hsems]; · iexact Hsems
  isplitl [Hmw]; · iexact Hmw
  isplitl [HO]; · iexact HO
  iintro ⟨⟨H0, H1, H2, H3, H4, H5, H6, H7, H8⟩, H9, ⟨A1, A6, A4, A10, A8⟩, Hscr, Hsems, %W', %hW', HO⟩
  isplitl [Hsems U0 A1 U2 U3 A4 U5 A6 U7 A8 U9 A10 U11 U13 Uv3 Uv4 Uv11 Uv12 Uv13 Uv14 Ucst Uv15 Uv16 Hscr]
  · isplitr; · iexact Hlv
    isplitl [Hsems]; · iexact Hsems
    isplitr [Hscr]
    · isplitl [U0]; · iexact U0
      isplitl [A1]; · iapply (Entails.of_eq (heldW_eq (F := F) d _ _ _)); iexact A1
      isplitl [U2]; · iexact U2
      isplitl [U3]; · iexact U3
      isplitl [A4]; · iapply (Entails.of_eq (heldW_eq (F := F) d _ _ _)); iexact A4
      isplitl [U5]; · iexact U5
      isplitl [A6]; · iapply (Entails.of_eq (heldW_eq (F := F) d _ _ _)); iexact A6
      isplitl [U7]; · iexact U7
      isplitl [A8]; · iapply (Entails.of_eq (heldW_eq (F := F) d _ _ _)); iexact A8
      isplitl [U9]; · iexact U9
      isplitl [A10]; · iapply (Entails.of_eq (heldW_eq (F := F) d _ _ _)); iexact A10
      isplitl [U11]; · iexact U11
      isplitl [U13]; · iexact U13
      isplitl [Uv3]; · iexact Uv3
      isplitl [Uv4]; · iexact Uv4
      isplitl [Uv11]; · iexact Uv11
      isplitl [Uv12]; · iexact Uv12
      isplitl [Uv13]; · iexact Uv13
      isplitl [Uv14]; · iexact Uv14
      isplitl [Ucst]; · iexact Ucst
      isplitl [Uv15]; · iexact Uv15
      iexact Uv16
    · iexact Hscr
  isplitl [HO]
  · iexists W'; isplitr
    · ipureintro; exact fun p _ => Or.inl (Set.mem_univ p)
    · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at the region's one point. -/
theorem body_obligation (htc : TcBodySpec tcOutF) (d : Dev nD) (g : Buf (Elt F) (oLoc d)) :
    BodyObligation (dat1 m tcOutF d g) (defs₀ (F := F)) 𝒱₀ (none : HIx 1) Set.univ := fun t => by
  rw [bigSep_W1, bigSep_W1]
  exact sound_body m tcOutF htc d g t

end Cert.Proof.KB

end
-- ==== Proof.KBTile.lean ====
/-
  One vector-subcore tile's task of the kernel `cc0__sc_aggregates`, proved once at a symbolic tile and generic in
  the float instance.

  The tile starts one copy of its 128 x 128 block of the neighbour states into its vector memory, copies the
  neighbour indices (512 words) and the centre index (16 words) and waits for each, runs a counted loop of 8 trips
  that loads 16 indices and stores two mask rows, waits for the first copy, runs a second counted loop of 8 trips
  that only loads (mask rows, rows of the block) and carries 24 accumulator vectors, stores the accumulators and a
  zero vector into the 4 x 128 scratch (rows 0-2 the sums, row 3 zero), copies that scratch to its own 4 x 128
  block of the result and waits.  Every transfer is local: a copy and its own wait, through the transfers' counters;
  no schedule.  The three arrays read are held whole at a read share, the result block at the slice's own element
  set with full ownership.  What the proof keeps of the data: row 3 of the result block is the zero stored.
-/
import proofs.«211217_g68642167325227_cont_9to1_m_1168_22_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F] [Cert.Kernel.Facts]

local notation "𝕄" => MT nD τ sig (HIx 1) (Elt F) ℕ UU ℕ

variable (m : (ℓ : Loc nD τ sig) → Buf (Elt F) ℓ) (cv : (d : Dev nD) → Buf (Elt F) (cLoc d))

/-! ## The memrefs as the body table passes them, and the tile's own semaphores and buffers -/

local notation "nW" => (Memref.whole Cert.Kernel.main_arg3_scv : Memref Cert.Kernel.sig Kind.scVector Space.hbm Cert.Kernel.S512 EltTy.i32)
local notation "cW" => (Memref.whole Cert.Kernel.main_v3_scv : Memref Cert.Kernel.sig Kind.scVector Space.hbm Cert.Kernel.S16 EltTy.i32)
local notation "xW" => (Memref.whole Cert.Kernel.main_arg1_scv : Memref Cert.Kernel.sig Kind.scVector Space.hbm Cert.Kernel.S512x1024 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S16 EltTy.i32)
local notation "s2" => (Memref.whole Cert.Kernel.cc0_scratch2 : Memref Cert.Kernel.sig Kind.scVector Space.vmem Cert.Kernel.S128x128 EltTy.f32)
local notation "s3" => (Memref.whole Cert.Kernel.cc0_scratch3 : Memref Cert.Kernel.sig Kind.scVector Space.vmem Cert.Kernel.S2x128 EltTy.f32)
local notation "s4" => (Memref.whole Cert.Kernel.cc0_scratch4 : Memref Cert.Kernel.sig Kind.scVector Space.vmem Cert.Kernel.S4x128 EltTy.f32)

section Tile

variable (d : Dev nD) (L : grid0.Coords)

/-- The tile's thread. -/
abbrev thrV : Thread nD τ := V d (cV L) (jV L)

abbrev cell5 : GSem nD τ sig := (thrV d L, .dma cc0_scratch5.sem)
abbrev cellA : GSem nD τ sig := (thrV d L, .dma cc0_scoped0.sem)
abbrev cellB : GSem nD τ sig := (thrV d L, .dma cc0_scoped1.sem)
abbrev cellC : GSem nD τ sig := (thrV d L, .dma cc0_scoped2.sem)

theorem ownSems0_V :
    (ownSems0 (thrV d L) : sProp 𝕄)
      = iprop(semVal (cell5 d L) 0 ∗ semVal (cellA d L) 0 ∗ semVal (cellB d L) 0 ∗ semVal (cellC d L) 0
          ∗ bigSep (((((ownCells (thrV d L)).erase (cell5 d L)).erase (cellA d L)).erase (cellB d L)).erase (cellC d L))
              fun g => semVal g 0) := by
  unfold SparseCore.Cfg.ownSems0
  rw [SparseCore.bigSep_erase' ((mem_ownCells (g := cell5 d L)).mpr ⟨rfl, by
      show (SemLoc.dma cc0_scratch5.sem : SemLoc sig).isScoped .scVector = true; decide⟩),
    SparseCore.bigSep_erase' (Finset.mem_erase.mpr ⟨by simp [cell5, cellA]; decide, (mem_ownCells (g := cellA d L)).mpr ⟨rfl, by
      show (SemLoc.dma cc0_scoped0.sem : SemLoc sig).isScoped .scVector = true; decide⟩⟩),
    SparseCore.bigSep_erase' (Finset.mem_erase.mpr ⟨by simp [cellA, cellB]; decide, Finset.mem_erase.mpr ⟨by simp [cell5, cellB]; decide,
      (mem_ownCells (g := cellB d L)).mpr ⟨rfl, by show (SemLoc.dma cc0_scoped1.sem : SemLoc sig).isScoped .scVector = true; decide⟩⟩⟩),
    SparseCore.bigSep_erase' (Finset.mem_erase.mpr ⟨by simp [cellB, cellC]; decide, Finset.mem_erase.mpr ⟨by simp [cellA, cellC]; decide,
      Finset.mem_erase.mpr ⟨by simp [cell5, cellC]; decide,
      (mem_ownCells (g := cellC d L)).mpr ⟨rfl, by show (SemLoc.dma cc0_scoped2.sem : SemLoc sig).isScoped .scVector = true; decide⟩⟩⟩⟩)]

/-- The tile's processor and its five scratch buffers as references of the device. -/
abbrev pV : Proc τ := Proc.scVector (cV L) (jV L)
abbrev r0 : DevRef τ sig := (pV L).devRef cc0_scratch0
abbrev r1 : DevRef τ sig := (pV L).devRef cc0_scratch1
abbrev r2 : DevRef τ sig := (pV L).devRef cc0_scratch2
abbrev r3 : DevRef τ sig := (pV L).devRef cc0_scratch3
abbrev r4 : DevRef τ sig := (pV L).devRef cc0_scratch4

/-- The five scratch buffers are among the tile's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ (∃ f, (thrV d L).loc cc0_scratch4 ↦{fullShare} f)
          ∗ bigSep ((((((ownRefs (τ := τ) (.scVector (cV L) (jV L))).erase (r0 L)).erase (r1 L)).erase (r2 L)).erase (r3 L)).erase (r4 L))
              fun b => iprop(∃ f, ((d, b) : Loc nD τ sig) ↦{fullShare} f)) := by
  unfold SparseCore.Cfg.ownBufs
  have hne : ∀ {a b : Ref sig .scVector}, a ≠ b → (pV L).devRef a ≠ (pV L).devRef b := fun h e => h (Proc.devRef_injective _ e)
  refine (SparseCore.bigSep_erase' (SparseCore.Cfg.mem_ownRefs_of_owner (p := pV L) (b := r0 L) rfl)).trans ?_
  rw [SparseCore.bigSep_erase' (Finset.mem_erase.mpr ⟨hne (show (cc0_scratch1 : Ref sig .scVector) ≠ cc0_scratch0 by decide),
      SparseCore.Cfg.mem_ownRefs_of_owner (p := pV L) (b := r1 L) rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide),
      SparseCore.Cfg.mem_ownRefs_of_owner (p := pV L) (b := r2 L) rfl⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
      Finset.mem_erase.mpr ⟨hne (show (cc0_scratch3 : Ref sig .scVector) ≠ cc0_scratch0 by decide),
      SparseCore.Cfg.mem_ownRefs_of_owner (p := pV L) (b := r3 L) rfl⟩⟩⟩),
    SparseCore.bigSep_erase' (Finset.mem_erase.mpr ⟨hne (show (cc0_scratch4 : Ref sig .scVector) ≠ cc0_scratch3 by decide),
      Finset.mem_erase.mpr ⟨hne (show (cc0_scratch4 : Ref sig .scVector) ≠ cc0_scratch2 by decide),
      Finset.mem_erase.mpr ⟨hne (show (cc0_scratch4 : Ref sig .scVector) ≠ cc0_scratch1 by decide),
      Finset.mem_erase.mpr ⟨hne (show (cc0_scratch4 : Ref sig .scVector) ≠ cc0_scratch0 by decide),
      SparseCore.Cfg.mem_ownRefs_of_owner (p := pV L) (b := r4 L) rfl⟩⟩⟩⟩)]

/-! ## The arrays as the tile's memrefs address them are the TensorCore's arrays -/

theorem pts_n (q : PosShare TreeShare) (f : Buf (Elt F) (nLoc d)) :
    ((nW).view.loc (thrV d L) ↦{q} f : sProp 𝕄) = nLoc d ↦{q} f := by
  simp only [Memref.view_whole, View.set_whole]
theorem pts_c (q : PosShare TreeShare) (f : Buf (Elt F) (cLoc d)) :
    ((cW).view.loc (thrV d L) ↦{q} f : sProp 𝕄) = cLoc d ↦{q} f := by
  simp only [Memref.view_whole, View.set_whole]
theorem pts_x (q : PosShare TreeShare) (f : Buf (Elt F) (xLoc d)) :
    ((xW).view.loc (thrV d L) ↦{q} f : sProp 𝕄) = xLoc d ↦{q} f := by
  simp only [Memref.view_whole, View.set_whole]
theorem pts_o (f : Buf (Elt F) (oLoc d)) :
    ((outM L).view.loc (thrV d L) ↦[(outM L).view.set]{fullShare} f : sProp 𝕄) = oLoc d ↦[outSet L]{fullShare} f := rfl
theorem pts_s0 (f : Buf (Elt F) ((thrV d L).loc cc0_scratch0)) :
    ((s0).view.loc (thrV d L) ↦{fullShare} f : sProp 𝕄) = (thrV d L).loc cc0_scratch0 ↦{fullShare} f := rfl
theorem pts_s1 (f : Buf (Elt F) ((thrV d L).loc cc0_scratch1)) :
    ((s1).view.loc (thrV d L) ↦{fullShare} f : sProp 𝕄) = (thrV d L).loc cc0_scratch1 ↦{fullShare} f := rfl
theorem pts_s2 (f : Buf (Elt F) ((thrV d L).loc cc0_scratch2)) :
    ((s2).view.loc (thrV d L) ↦{fullShare} f : sProp 𝕄) = (thrV d L).loc cc0_scratch2 ↦{fullShare} f := rfl
theorem pts_s3 (f : Buf (Elt F) ((thrV d L).loc cc0_scratch3)) :
    ((s3).view.loc (thrV d L) ↦{fullShare} f : sProp 𝕄) = (thrV d L).loc cc0_scratch3 ↦{fullShare} f := rfl
theorem pts_s4 (f : Buf (Elt F) ((thrV d L).loc cc0_scratch4)) :
    ((s4).view.loc (thrV d L) ↦{fullShare} f : sProp 𝕄) = (thrV d L).loc cc0_scratch4 ↦{fullShare} f := rfl

/-! ## The two counted loops' invariants -/

/-- The first loop reads the index scratch and writes the two mask rows: both held, at some contents. -/
def inv1 (_ : Nat) (_ : BitVec 32) : sProp 𝕄 :=
  iprop((∃ f, (s0).view.loc (thrV d L) ↦{fullShare} f) ∗ ∃ f, (s3).view.loc (thrV d L) ↦{fullShare} f)

/-- The second loop only reads the block and the mask rows: both held, at some contents; the carried accumulators
    are unconstrained. -/
def inv2 {σ : Type} (_ : Nat) (_ : σ) : sProp 𝕄 :=
  iprop((∃ f, (s2).view.loc (thrV d L) ↦{fullShare} f) ∗ ∃ f, (s3).view.loc (thrV d L) ↦{fullShare} f)

/-! ## Row 3 of the scratch and of the result block -/

/-- What a list of writes leaves at an element some piece covers satisfies `P` as soon as every piece's payload does
    wherever that piece covers the element (the newest piece over the element decides, and it is one of them). -/
theorem read_writes_of_all {sig' : RefSig} {κ : Kind} {sp : Space} {s : Shape} {e : EltTy} {Val : EltTy → Type}
    (v : View sig' κ sp s e) (f : v.ty.Contents Val) (P : Val e → Prop) (y : s.Idx) :
    ∀ Lp : List (View.Piece Val s e), (∃ p ∈ Lp, y ∈ p.1.set) → (∀ p ∈ Lp, ∀ x, p.1.emb x = y → P (p.2 x)) →
      P (v.read Val (v.writes Val f Lp) y)
  | [], h, _ => by obtain ⟨_, hm, _⟩ := h; exact absurd hm List.not_mem_nil
  | p :: Lp, h, hP => by
    by_cases hy : y ∈ p.1.set
    · obtain ⟨r, w⟩ := p
      obtain ⟨x, hx⟩ := r.exists_idx_of_mem hy
      have hx' : r.emb x = y := hx
      have hw := hP ⟨r, w⟩ List.mem_cons_self x hx'
      rw [← hx', View.read_writes_cons_emb]
      exact hw
    · have hy' : y ∉ Finset.univ.map p.1.emb := by rwa [Rect.map_emb_univ]
      rw [View.writes_cons, View.read_slice_write_of_not_mem p.1 _ _ _ hy']
      refine read_writes_of_all v f P y Lp ?_ (fun p' hp' => hP p' (List.mem_cons_of_mem _ hp'))
      obtain ⟨p', hm, hy''⟩ := h
      rcases List.mem_cons.mp hm with rfl | hm
      · exact absurd hy'' hy
      · exact ⟨p', hm, hy''⟩

/-- Row 3 of a 4 x 128 buffer after a list of writes whose pieces cover that row and store zero wherever they touch it. -/
theorem row3_of_pieces {sig' : RefSig} {κ : Kind} {sp : Space} (v : View sig' κ sp S4x128 .f32) (f : v.ty.Contents (Elt F))
    (Lp : List (View.Piece (Elt F) S4x128 .f32))
    (hcov : ∀ y : S4x128.Idx, (y 0).val = 3 → ∃ p ∈ Lp, y ∈ p.1.set)
    (hz : ∀ p ∈ Lp, ∀ x, ((p.1.emb x) 0).val = 3 → p.2 x = (zeroF : F .f32))
    (j : S4x128.Idx) (hj : (j 0).val = 3) :
    v.read (Elt F) (v.writes (Elt F) f Lp) j = (zeroF : F .f32) :=
  read_writes_of_all v f (fun z => z = (zeroF : F .f32)) j Lp (hcov j hj) fun p hp x hx => hz p hp x (by rw [hx]; exact hj)

/-- An index of row 3 whose column lies in `[c0, c0 + 16)` lies in the sixteen-lane rectangle at `(3, c0)`. -/
theorem mem_row3_unit {c0 : ℕ} {inb : ∀ a, (![3, c0] : Fin 2 → ℕ) a + S1x16.size a ≤ S4x128.size a} (y : S4x128.Idx)
    (hy : (y 0).val = 3) (h1 : c0 ≤ (y 1).val) (h2 : (y 1).val < c0 + 16) :
    y ∈ (Rect.unit (s := S4x128) ![3, c0] S1x16.size inb).set :=
  Rect.mem_set_unit.mpr (Fin.forall_fin_two.mpr
    ⟨⟨by show 3 ≤ (y 0).val; omega, by show (y 0).val < 3 + 1; omega⟩, ⟨h1, h2⟩⟩)

/-- A sixteen-lane rectangle at row `r ≠ 3` holds no element of row 3. -/
theorem row_ne3 {r c0 : ℕ} {inb : ∀ a, (![r, c0] : Fin 2 → ℕ) a + S1x16.size a ≤ S4x128.size a} (hr : r ≠ 3)
    (x : (Rect.unit (s := S4x128) ![r, c0] S1x16.size inb).shape.Idx) :
    (((Rect.unit (s := S4x128) ![r, c0] S1x16.size inb).emb x) 0).val ≠ 3 := by
  have h0 : (x 0).val < 1 := (x 0).isLt
  show r + 1 * (x 0).val ≠ 3
  omega

/-- A list of pieces whose entry `i` is the sixteen-lane rectangle at `(3, c0)` covers the indices of row 3 with column in
    `[c0, c0 + 16)`. -/
theorem cover_of_getElem? {Lp : List (View.Piece (Elt F) S4x128 .f32)} (i c0 : ℕ)
    {inb : ∀ a, (![3, c0] : Fin 2 → ℕ) a + S1x16.size a ≤ S4x128.size a}
    {w : (Rect.unit (s := S4x128) ![3, c0] S1x16.size inb).shape.Idx → Elt F .f32}
    (h : Lp[i]? = some ⟨Rect.unit (s := S4x128) ![3, c0] S1x16.size inb, w⟩)
    (y : S4x128.Idx) (hy : (y 0).val = 3) (h1 : c0 ≤ (y 1).val) (h2 : (y 1).val < c0 + 16) : ∃ p ∈ Lp, y ∈ p.1.set :=
  ⟨⟨Rect.unit (s := S4x128) ![3, c0] S1x16.size inb, w⟩, List.mem_of_getElem? h, mem_row3_unit (inb := inb) y hy h1 h2⟩

/-- A property of every entry of a list of known length, entry by entry. -/
theorem forall_mem_of_getElem? {α : Type} {Q : α → Prop} (l : List α) (n : ℕ) (hlen : l.length = n)
    (h : ∀ i, i < n → ∀ p, l[i]? = some p → Q p) : ∀ p ∈ l, Q p := by
  intro p hp
  obtain ⟨i, hi, rfl⟩ := List.getElem_of_mem hp
  exact h i (hlen ▸ hi) _ (List.getElem?_eq_getElem hi)

/-- The result block after the copy-out of a payload whose row 3 is zero: its row 3 is zero. -/
theorem row3_of_payload (g : Buf (Elt F) (oLoc d)) (w : S4x128.Idx → Elt F .f32)
    (hw : ∀ j : S4x128.Idx, (j 0).val = 3 → w j = (zeroF : F .f32)) :
    Row3Zero d L ((outM L).view.writes (Elt F) g [⟨Rect.whole S4x128, w⟩]) := by
  intro j hj
  have h := View.read_writes_cons_emb (outM L).view g (Rect.whole S4x128) w [] j
  rw [Rect.emb_whole_apply] at h
  exact h.trans (hw j hj)

set_option maxHeartbeats 2000000 in
/-- The tile's task: what it was handed comes back, the result block at contents whose row 3 is the zero stored. -/
theorem tile_body (q : PosShare TreeShare) (O : CellTallies nD τ sig (HIx 1)) (W : Waits sig (HIx 1)) (hO : ∀ g, O g none = 0) :
    iprop(levAts (K (F := F)).L (K (F := F)).lev ∗ emp ∗ (rdPts m cv d q ∗ outPre m d L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_aggregates L (Memref.whole main_arg3_scv) (Memref.isWhole_whole _) (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2)
          fun _ => iprop((rdPts m cv d q ∗ outPost d L) ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0__sc_aggregates_eq_skeleton]; unfold cc0__sc_aggregates_skel
  rw [(K (F := F)).scopedBufs_V facts d (cV L) (jV L), SparseCore.Cfg.scopedSems0_V (Val := Elt F) d (cV L) (jV L), ownSems0_V, ownBufs_V]
  unfold rdPts outPre outPost
  iintro ⟨#Hlv, -, ⟨⟨Hn, Hc, Hx⟩, Ho⟩, ⟨⟨%f0, H0⟩, ⟨%f1, H1⟩, ⟨%f2, H2⟩, ⟨%f3, H3⟩, ⟨%f4, H4⟩, Hbufs⟩, ⟨Hsem5, HsemA, HsemB, HsemC, Hsems⟩, HO⟩
  ihave Hmw := ((K (F := F)).mayWaits_none (thr := thrV d L) hO) $$ Hlv
  ihave Hn' := (Entails.of_eq (pts_n (F := F) d L _ _).symm) $$ Hn
  ihave Hc' := (Entails.of_eq (pts_c (F := F) d L _ _).symm) $$ Hc
  ihave Hx' := (Entails.of_eq (pts_x (F := F) d L _ _).symm) $$ Hx
  ihave Ho' := (Entails.of_eq (pts_o (F := F) d L _).symm) $$ Ho
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  sl_exec_parts
  -- the first loop: the index scratch and the mask rows go round
  sl_for (inv1 (F := F) d L) $$ [H0' H3']
  case region =>
    intro k acc
    unfold inv1
    iintro ⟨⟨%g0, H0⟩, %g3, H3⟩
    sl_exec_parts
    sl_step
    isplitl [H0]; · iexists _; iexact H0
    iexists _; iexact H3
  · unfold inv1
    isplitl [H0']; · iexists _; iexact H0'
    iexists _; iexact H3'
  iintro %acc1 HI
  unfold inv1
  icases HI with ⟨⟨%g0, H0'⟩, %g3, H3'⟩
  sl_exec_parts
  -- the second loop: the block and the mask rows are only read
  sl_for (inv2 (F := F) d L) $$ [H2' H3']
  case region =>
    intro k acc
    unfold inv2
    iintro ⟨⟨%g2, H2⟩, %g3', H3⟩
    sl_exec_parts
    sl_step
    isplitl [H2]; · iexists _; iexact H2
    iexists _; iexact H3
  · unfold inv2
    isplitl [H2']; · iexists _; iexact H2'
    iexists _; iexact H3'
  iintro %acc2 HI
  unfold inv2
  icases HI with ⟨⟨%g2, H2'⟩, %g3', H3'⟩
  sl_exec_parts
  sl_step
  isplitl [Hn' Hc' Hx' Ho']
  · isplitl [Hn' Hc' Hx']
    · isplitl [Hn']; · iapply (Entails.of_eq (pts_n (F := F) d L _ _)); iexact Hn'
      isplitl [Hc']; · iapply (Entails.of_eq (pts_c (F := F) d L _ _)); iexact Hc'
      iapply (Entails.of_eq (pts_x (F := F) d L _ _)); iexact Hx'
    · iexists _; isplitl [Ho']
      · iapply (Entails.of_eq (pts_o (F := F) d L _)); iexact Ho'
      · -- row 3 of the scratch is the zero stored, so row 3 of what the copy-out wrote is
        ipureintro
        refine row3_of_payload d L _ _ fun j hj => row3_of_pieces _ _ _ ?hcov ?hz j hj
        case hcov =>
          intro y hy
          have hc : (y 1).val < 128 := (y 1).isLt
          obtain h | h | h | h | h | h | h | h : (y 1).val < 16 ∨ (16 ≤ (y 1).val ∧ (y 1).val < 32) ∨ (32 ≤ (y 1).val ∧ (y 1).val < 48)
              ∨ (48 ≤ (y 1).val ∧ (y 1).val < 64) ∨ (64 ≤ (y 1).val ∧ (y 1).val < 80) ∨ (80 ≤ (y 1).val ∧ (y 1).val < 96)
              ∨ (96 ≤ (y 1).val ∧ (y 1).val < 112) ∨ 112 ≤ (y 1).val := by omega
          · exact cover_of_getElem? 28 0 rfl y hy (Nat.zero_le _) (by omega)
          · exact cover_of_getElem? 24 16 rfl y hy h.1 (by omega)
          · exact cover_of_getElem? 20 32 rfl y hy h.1 (by omega)
          · exact cover_of_getElem? 16 48 rfl y hy h.1 (by omega)
          · exact cover_of_getElem? 12 64 rfl y hy h.1 (by omega)
          · exact cover_of_getElem? 8 80 rfl y hy h.1 (by omega)
          · exact cover_of_getElem? 4 96 rfl y hy h.1 (by omega)
          · exact cover_of_getElem? 0 112 rfl y hy h (by omega)
        case hz =>
          refine forall_mem_of_getElem? _ 32 rfl fun i hi p hp => ?_
          interval_cases i <;> (obtain rfl := Option.some.inj hp) <;> dsimp only <;> first
            | (intro x hx; exact absurd hx (row_ne3 (by decide) x))
            | (intro x _; rfl)
  isplitl [H0' H1' H2' H3' H4' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    iexact Hbufs
  isplitl [Hsem5 HsemA HsemB HsemC Hsems]
  · isplitl [Hsem5]; · iexact Hsem5
    isplitl [HsemA]; · iexact HsemA
    isplitl [HsemB]; · iexact HsemB
    isplitl [HsemC]; · iexact HsemC
    iexact Hsems
  iexists _; isplitr
  rotate_left
  · iexact HO
  · ipureintro; intro p hp
    simp only [Finset.mem_insert] at hp
    rcases hp with rfl | rfl | rfl | rfl | hp
    exacts [.inr rfl, .inr rfl, .inr rfl, .inr rfl, .inl hp]

end Tile

/-! ## The launch theorem's obligation -/

theorem defs₀_vector (c : Fin τ.nSC) (s : Fin τ.nSub) :
    defs₀ (F := F) (.scVector c s) 0 ()
      = SparseCore.onTile hcore0 hsub0 (fun c s => cc0__sc_aggregates (coordsV c s)
          (Memref.whole main_arg3_scv) (Memref.isWhole_whole _) (Memref.whole main_v3_scv) (Memref.isWhole_whole _)
          (Memref.whole main_arg1_scv) (Memref.isWhole_whole _) (Memref.whole main_v4_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) cc0_scratch5 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The one vector-subcore kernel as the task of tile `i` of SparseCore `c`: `tile_body` at that tile's grid point and
    its share of the read share. -/
theorem tileObl : (K (F := F)).TileObl (D (F := F)) 𝒱 (P m cv) v₀ 0 := by
  intro d c i O W hO _ _
  -- this kernel owes nothing for a protocol of its own (`Pay.ox` at its default)
  simp only [show (P m cv).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m cv d (coordsV ⟨_, hc.1⟩ ⟨_, hc.2⟩) (qT (Fin.cast nCore_zero c) (Fin.cast nSub_zero i)) O W hO).trans
    (wp_mono frame _ _ fun _ => obl_post)

end Cert.Proof.KB

end
-- ==== Proof.KBCallIO.lean ====
/-
  How the SparseCore call's operands come out of the unscoped arrays the TensorCore holds, and how its results go
  back.  Four arrays are concerned: the neighbour indices, the centre index on sixteen lanes and the neighbour
  states, which the tiles only read, and the call's 4 x 4096 result, which they write.  The three read arrays split
  by shares, a token per SparseCore and a remainder that waits; the result splits by elements, into the thirty-two
  tiles' 4 x 128 blocks: tile i of SparseCore c owns columns [128 (2 i + c), 128 (2 i + c) + 128) of all four rows,
  part 2 i + c of the cut of the 4096 columns into thirty-two, so the blocks are pairwise disjoint and cover the
  array.  Coming back, every block is at some contents whose row 3 is zero; one contents of the whole array agrees
  with each on its block, so its row 3 is zero everywhere; the shares rejoin; every other array was never touched.
-/
import proofs.«211217_g68642167325227_cont_9to1_m_1168_22_alg».proof.Proof.KBHmain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Transfers (pointsTo_toks_split pointsTo_toks_join shareTok shareDrop)

/-! ## The thirty-two result blocks tile the 4 x 4096 result -/

/-- The result's 4096 columns cut into thirty-two parts of 128. -/
theorem hdiv32 : 32 ∣ S4x4096.size 1 := ⟨128, rfl⟩

/-- The worker number of tile i of SparseCore c: 2 i + c. -/
def wk (c : Fin 2) (i : Fin 16) : Fin 32 := ⟨2 * i.val + c.val, by omega⟩

/-- A tile's block starts at row 0 and column 128 (2 i + c): the offsets of part 2 i + c of the cut. -/
theorem off15_eq : ∀ (c : Fin 2) (i : Fin 16) (a : Fin 2),
    k0_off15 (pt c i) a = Shape.partIx S4x4096 1 (wk c i).val a * Shape.partSize S4x4096 1 32 a := by decide +kernel

/-- A tile's block is 4 x 128: the sizes of a part of the cut. -/
theorem size_eq : ∀ a : Fin 2, S4x128.size a = Shape.partSize S4x4096 1 32 a := by decide +kernel

/-- Two unit-stride rectangles with the same offsets and sizes are one. -/
theorem unit_congr {s : Shape} {off off' size size' : Fin s.rank → Nat} {inb : ∀ a, off a + size a ≤ s.size a}
    {inb' : ∀ a, off' a + size' a ≤ s.size a} (ho : off = off') (hs : size = size') :
    Rect.unit off size inb = Rect.unit off' size' inb' := by
  subst ho; subst hs; rfl

/-- Tile (c, i)'s rectangle is part 2 i + c of the cut of the columns into thirty-two. -/
theorem blkR_eq (p : Fin 2 × Fin 16) :
    Rect.unit (s := S4x4096) (k0_off15 (pt p.1 p.2)) S4x128.size (k0_off15_inb (pt p.1 p.2))
      = Rect.part (s := S4x4096) (a₀ := 1) hdiv32 (wk p.1 p.2) :=
  unit_congr (funext (off15_eq p.1 p.2)) (funext size_eq)

/-- The block of tile (c, i), the pair as one index. -/
abbrev blk (p : Fin 2 × Fin 16) : Finset S4x4096.Idx := outSet (pt p.1 p.2)

/-- Tile (c, i)'s block is part 2 i + c of the cut of the columns into thirty-two. -/
theorem blk_eq (p : Fin 2 × Fin 16) : blk p = (Rect.part (s := S4x4096) (a₀ := 1) hdiv32 (wk p.1 p.2)).set := by
  show ((View.whole (main_v4_scv : Ref sig .scVector)).slice
    (Rect.unit (s := S4x4096) (k0_off15 (pt p.1 p.2)) S4x128.size (k0_off15_inb (pt p.1 p.2)))).set = _
  rw [View.set_slice_whole, blkR_eq]

/-- Different tiles have different worker numbers. -/
theorem wk_inj {p p' : Fin 2 × Fin 16} (h : wk p.1 p.2 = wk p'.1 p'.2) : p = p' := by
  have h' := congrArg Fin.val h
  simp only [wk] at h'
  have := p.1.isLt; have := p'.1.isLt
  apply Prod.ext <;> apply Fin.ext <;> omega

/-- Different tiles' blocks are disjoint. -/
theorem blk_disjoint : ∀ p ∈ (Finset.univ : Finset (Fin 2 × Fin 16)), ∀ p' ∈ (Finset.univ : Finset (Fin 2 × Fin 16)),
    p ≠ p' → Disjoint (blk p) (blk p') :=
  fun p _ p' _ h => by rw [blk_eq, blk_eq]; exact Rect.part_disjoint hdiv32 fun e => h (wk_inj e)

/-- Every element of the result lies in some tile's block. -/
theorem exists_blk (x : S4x4096.Idx) : ∃ p : Fin 2 × Fin 16, x ∈ blk p := by
  obtain ⟨j, hj⟩ := Rect.exists_mem_part hdiv32 x
  have hjl := j.isLt
  refine ⟨(⟨j.val % 2, Nat.mod_lt _ (by norm_num)⟩, ⟨j.val / 2, by omega⟩), ?_⟩
  rw [blk_eq]
  have hw : wk ⟨j.val % 2, Nat.mod_lt _ (by norm_num)⟩ ⟨j.val / 2, by omega⟩ = j :=
    Fin.ext (by simp only [wk]; omega)
  rw [hw]; exact hj

/-- The blocks cover the result. -/
theorem blk_cover : (Finset.univ : Finset (Fin 2 × Fin 16)).biUnion blk = Finset.univ := by
  ext x
  simp only [Finset.mem_biUnion, Finset.mem_univ, true_and, iff_true]
  exact exists_blk x

variable {F : FTy → Type} [FloatOps F] [Cert.Kernel.Facts]

local notation "𝕄" => MT nD τ sig (HIx 1) (Elt F) ℕ UU ℕ

variable (m : (ℓ : Loc nD τ sig) → Buf (Elt F) ℓ)

/-! ## What the first host stretch leaves in the four arrays -/

/-- The first stretch writes only its four results. -/
theorem ops1_not_writes {r : Ref sig .tc} (h0 : r ≠ main_v0) (h1 : r ≠ main_v1) (h2 : r ≠ main_v2) (h3 : r ≠ main_v3) :
    ∀ op ∈ (ops1 : List (HloOp τ sig (Elt F))), (Proc.devRef .tc r : DevRef τ sig) ∉ op.writes := by
  intro op h
  simp only [ops1, List.mem_cons, List.not_mem_nil, or_false] at h
  rcases h with rfl | rfl | rfl | rfl
  · rw [StableHlo.reshape_writes, Finset.mem_singleton]; exact StableHlo.devRef_ne_of_ne h0
  · rw [StableHlo.reshape_writes, Finset.mem_singleton]; exact StableHlo.devRef_ne_of_ne h1
  · rw [StableHlo.reshape_writes, Finset.mem_singleton]; exact StableHlo.devRef_ne_of_ne h2
  · rw [StableHlo.unary_writes, Finset.mem_singleton]; exact StableHlo.devRef_ne_of_ne h3

/-- The neighbour indices are as at the launch. -/
theorem V1_n (d : Dev nD) : V1 m d n' = m (nLoc d) :=
  StableHlo.after_of_forall_not_mem _ _ (ops1_not_writes (by decide) (by decide) (by decide) (by decide))
/-- The neighbour states are as at the launch. -/
theorem V1_x (d : Dev nD) : V1 m d x' = m (xLoc d) :=
  StableHlo.after_of_forall_not_mem _ _ (ops1_not_writes (by decide) (by decide) (by decide) (by decide))
/-- The call's result array is as at the launch. -/
theorem V1_o (d : Dev nD) : V1 m d o' = m (oLoc d) :=
  StableHlo.after_of_forall_not_mem _ _ (ops1_not_writes (by decide) (by decide) (by decide) (by decide))

/-! ## The four arrays out of the unscoped ones -/

/-- The four arrays are unscoped TensorCore arrays. -/
theorem four_sub : ({n', c', x', o'} : Finset (DevRef τ sig)) ⊆ UC := by decide

/-- The four arrays held at a valuation, one by one. -/
theorem held_four (d : Dev nD) (W : Valuation τ sig (Elt F)) :
    (held (T d) {n', c', x', o'} W : sProp 𝕄)
      = iprop((nLoc d ↦{fullShare} W n') ∗ (cLoc d ↦{fullShare} W c') ∗ (xLoc d ↦{fullShare} W x') ∗ (oLoc d ↦{fullShare} W o')) := by
  unfold held
  rw [bigSep_insert (by decide), bigSep_insert (by decide), bigSep_insert (by decide), bigSep_singleton]
  rfl

/-! ## The result array as its thirty-two blocks -/

/-- The result array whole is its thirty-two blocks. -/
theorem oPts_blocks (d : Dev nD) (f : Buf (Elt F) (oLoc d)) :
    (oLoc d ↦{fullShare} f : sProp 𝕄)
      = bigSep Finset.univ fun c : Fin 2 => bigSep Finset.univ fun i : Fin 16 => oLoc d ↦[outSet (pt c i)]{fullShare} f := by
  have h1 : (oLoc d ↦[(Finset.univ : Finset (Fin 2 × Fin 16)).biUnion blk]{fullShare} f : sProp 𝕄)
      = bigSep Finset.univ fun p : Fin 2 × Fin 16 => oLoc d ↦[blk p]{fullShare} f :=
    pointsTo_biUnion Finset.univ (ℓ := oLoc d) blk blk_disjoint
  rw [blk_cover] at h1
  exact h1.trans (bigSep_univ_prod (fun p : Fin 2 × Fin 16 => (oLoc d ↦[blk p]{fullShare} f : sProp 𝕄)))

/-- An element of a tile's block in row 3 is the image of an element of row 3 of the block. -/
theorem row3_of_mem (p : Fin 2 × Fin 16) (j : S4x4096.Idx) (hj : j ∈ blk p) (h3 : (j 0).val = 3) :
    ∃ j' : S4x128.Idx, (j' 0).val = 3 ∧ (outM (pt p.1 p.2)).view.emb j' = j := by
  obtain ⟨j', -, e⟩ := Finset.mem_map.mp hj
  refine ⟨j', ?_, e⟩
  have h0 : k0_off15 (pt p.1 p.2) 0 = 0 := by rw [off15_eq]; rfl
  have e0 : (((Rect.unit (s := S4x4096) (k0_off15 (pt p.1 p.2)) S4x128.size (k0_off15_inb (pt p.1 p.2))).emb j' 0 : Fin _) : Nat)
      = (j 0).val := congrArg (fun x : S4x4096.Idx => (x 0).val) e
  rw [Rect.emb_apply, Rect.off_unit, Rect.stride_unit, h0] at e0
  omega

/-- A block back at contents whose row 3 is zero, the fact first. -/
theorem outPost_swap (d : Dev nD) (p : Fin 2 × Fin 16) :
    (outPost (F := F) d (pt p.1 p.2) : sProp 𝕄)
      ⊢ iprop(∃ f : Buf (Elt F) (oLoc d), ⌜Row3Zero d (pt p.1 p.2) f⌝ ∗ (oLoc d ↦[blk p]{fullShare} f)) := by
  unfold outPost
  iintro ⟨%f, H, %h⟩
  iexists f
  isplitr
  · ipureintro; exact h
  · iexact H

/-- The blocks back, each at contents whose row 3 is zero, are the whole array at contents whose row 3 is zero. -/
theorem oBlocks_join (d : Dev nD) :
    (bigSep Finset.univ fun c : Fin 2 => bigSep Finset.univ fun i : Fin 16 => (outPost (F := F) d (pt c i) : sProp 𝕄))
      ⊢ (iprop(∃ g, ⌜OutZero (F := F) d g⌝ ∗ oLoc d ↦{fullShare} g) : sProp 𝕄) := by
  refine (Entails.of_eq (bigSep_univ_prod (fun p : Fin 2 × Fin 16 => (outPost (F := F) d (pt p.1 p.2) : sProp 𝕄))).symm).trans ?_
  have hswap : (bigSep Finset.univ fun p : Fin 2 × Fin 16 => (outPost (F := F) d (pt p.1 p.2) : sProp 𝕄))
      ⊢ bigSep Finset.univ fun p : Fin 2 × Fin 16 =>
          iprop(∃ f : Buf (Elt F) (oLoc d), ⌜Row3Zero d (pt p.1 p.2) f⌝ ∗ (oLoc d ↦[blk p]{fullShare} f)) :=
    bigSep_mono fun p _ => outPost_swap d p
  refine hswap.trans ?_
  refine (bigSep_exists_pi Finset.univ
    (fun (p : Fin 2 × Fin 16) (f : Buf (Elt F) (oLoc d)) => iprop(⌜Row3Zero d (pt p.1 p.2) f⌝ ∗ (oLoc d ↦[blk p]{fullShare} f)))).trans ?_
  iintro ⟨%fs, H⟩
  ihave H' := (bigSep_pure_sep Finset.univ (fun p : Fin 2 × Fin 16 => Row3Zero d (pt p.1 p.2) (fs p))
    (fun p => (oLoc d ↦[blk p]{fullShare} fs p : sProp 𝕄))) $$ H
  icases H' with ⟨%hz, H⟩
  ihave H'' := (pointsTo_biUnion_join Finset.univ blk fs (fs (0, 0)) blk_disjoint) $$ H
  icases H'' with ⟨%g, %hg, Hg⟩
  rw [blk_cover]
  iexists g
  isplitr
  · ipureintro
    intro j h3
    obtain ⟨p, hp⟩ := exists_blk j
    obtain ⟨j', h3', e⟩ := row3_of_mem p j hp h3
    rw [hg p (Finset.mem_univ p) j hp, ← e]
    exact hz p (Finset.mem_univ p) j' h3'
  · iexact Hg

/-! ## The three read arrays: one share per SparseCore, the remainder kept -/

variable (cv : (d : Dev nD) → Buf (Elt F) (cLoc d))

/-- The three read arrays whole are the remainder of the full share and one token per SparseCore. -/
theorem rdPts_split2 (d : Dev nD) :
    (rdPts m cv d fullShare : sProp 𝕄)
      ⊢ iprop(rdPts m cv d (shareDrop fullShare 2) ∗ bigSep Finset.univ fun c : Fin 2 => rdPts m cv d (qC c)) := by
  unfold rdPts
  iintro ⟨Hn, Hc, Hx⟩
  ihave Hn' := (pointsTo_toks_split (ℓ := nLoc d) (S := Finset.univ) (f := m (nLoc d)) fullShare 2) $$ Hn
  ihave Hc' := (pointsTo_toks_split (ℓ := cLoc d) (S := Finset.univ) (f := cv d) fullShare 2) $$ Hc
  ihave Hx' := (pointsTo_toks_split (ℓ := xLoc d) (S := Finset.univ) (f := m (xLoc d)) fullShare 2) $$ Hx
  icases Hn' with ⟨Hnr, Hnt⟩
  icases Hc' with ⟨Hcr, Hct⟩
  icases Hx' with ⟨Hxr, Hxt⟩
  isplitl [Hnr Hcr Hxr]
  · isplitl [Hnr]; · iexact Hnr
    isplitl [Hcr]; · iexact Hcr
    iexact Hxr
  rw [bigSep_sep', bigSep_sep']
  isplitl [Hnt]; · iexact Hnt
  isplitl [Hct]; · iexact Hct
  iexact Hxt

/-- and back. -/
theorem rdPts_join2 (d : Dev nD) :
    iprop(rdPts m cv d (shareDrop fullShare 2) ∗ bigSep Finset.univ fun c : Fin 2 => rdPts m cv d (qC c))
      ⊢ (rdPts m cv d fullShare : sProp 𝕄) := by
  unfold rdPts
  rw [bigSep_sep', bigSep_sep']
  iintro ⟨⟨Hnr, Hcr, Hxr⟩, Hnt, Hct, Hxt⟩
  isplitl [Hnr Hnt]
  · iapply (pointsTo_toks_join (ℓ := nLoc d) (S := Finset.univ) (f := m (nLoc d)) fullShare 2)
    isplitl [Hnr] <;> iassumption
  isplitl [Hcr Hct]
  · iapply (pointsTo_toks_join (ℓ := cLoc d) (S := Finset.univ) (f := cv d) fullShare 2)
    isplitl [Hcr] <;> iassumption
  iapply (pointsTo_toks_join (ℓ := xLoc d) (S := Finset.univ) (f := m (xLoc d)) fullShare 2)
  isplitl [Hxr] <;> iassumption

/-- A conjunction over the call's SparseCores is one over two numbers. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## After the call -/

/-- The three read arrays are not the result array. -/
theorem n_ne_o : (n' : DevRef τ sig) ≠ o' := by decide
theorem c_ne_o : (c' : DevRef τ sig) ≠ o' := by decide
theorem x_ne_o : (x' : DevRef τ sig) ≠ o' := by decide

/-- The four arrays and the rest, the result at g, are the unscoped arrays after the call. -/
theorem held_V2 (d : Dev nD) (g : Buf (Elt F) (oLoc d)) :
    iprop(rdPts m (cvOf m) d fullShare ∗ (oLoc d ↦{fullShare} g) ∗ held (T d) (UC \ {n', c', x', o'}) (V1 m d))
      ⊢ (held (T d) UC (V2 m d g) : sProp 𝕄) := by
  have hrest : (held (T d) (UC \ {n', c', x', o'}) (V2 m d g) : sProp 𝕄) = held (T d) (UC \ {n', c', x', o'}) (V1 m d) :=
    held_congr (T d) fun b hb => by
      have hne : b ≠ o' := by
        rintro rfl
        exact (Finset.mem_sdiff.mp hb).2 (by decide)
      exact Function.update_of_ne hne _ _
  have hn : V2 m d g n' = m (nLoc d) := (Function.update_of_ne n_ne_o _ _).trans (V1_n m d)
  have hc : V2 m d g c' = cvOf m d := Function.update_of_ne c_ne_o _ _
  have hx : V2 m d g x' = m (xLoc d) := (Function.update_of_ne x_ne_o _ _).trans (V1_x m d)
  have ho : V2 m d g o' = g := Function.update_self _ _ _
  rw [held_sub_split (T d) four_sub (V2 m d g), held_four, hrest, hn, hc, hx, ho]
  unfold rdPts
  iintro ⟨⟨Hn, Hc, Hx⟩, Ho, Hrest⟩
  isplitr [Hrest]
  · isplitl [Hn]; · iexact Hn
    isplitl [Hc]; · iexact Hc
    isplitl [Hx]; · iexact Hx
    iexact Ho
  · iexact Hrest

/-! ## The call's operands out of the unscoped arrays, and its results back -/

/-- Before the call the TensorCore holds every unscoped array at what the first host stretch left.  Out of them
    come, per SparseCore, its read share of the neighbour indices, the centre index and the neighbour states, and
    its sixteen tiles' blocks of the result array; the remainders of the read shares and every other array wait.
    When the SparseCores hand back the same shares and every block with row 3 zero, the shares rejoin, the blocks
    join to the whole result at contents whose row 3 is zero, and the unscoped arrays are held again, the result
    alone changed. -/
theorem call_io (d : Dev nD) :
    (held (T d) UC (V1 m d) : sProp 𝕄) ⊢ iprop((bigSep Finset.univ fun c : Fin ((K (F := F)).nCore 0) => (P m (cvOf m)).st 0 d c)
      ∗ ((bigSep Finset.univ fun c : Fin ((K (F := F)).nCore 0) => (P m (cvOf m)).dn 0 d c)
        -∗ ∃ g, ⌜OutZero d g⌝ ∗ held (T d) UC (V2 m d g))) := by
  rw [held_sub_split (T d) four_sub (V1 m d), held_four, V1_n, V1_x, V1_o, oPts_blocks]
  show iprop(((nLoc d ↦{fullShare} m (nLoc d)) ∗ (cLoc d ↦{fullShare} V1 m d c') ∗ (xLoc d ↦{fullShare} m (xLoc d))
        ∗ bigSep Finset.univ fun c : Fin 2 => bigSep Finset.univ fun i : Fin 16 => oLoc d ↦[outSet (pt c i)]{fullShare} m (oLoc d))
      ∗ held (T d) (UC \ {n', c', x', o'}) (V1 m d))
    ⊢ iprop((bigSep Finset.univ fun c : Fin ((K (F := F)).nCore 0) =>
        iprop(rdPts m (cvOf m) d (qC (Fin.cast nCore_zero c))
          ∗ bigSep Finset.univ fun i : Fin 16 => outPre m d (pt (Fin.cast nCore_zero c) i)))
      ∗ ((bigSep Finset.univ fun c : Fin ((K (F := F)).nCore 0) =>
          iprop(rdPts m (cvOf m) d (qC (Fin.cast nCore_zero c))
            ∗ bigSep Finset.univ fun i : Fin 16 => outPost d (pt (Fin.cast nCore_zero c) i)))
        -∗ ∃ g, ⌜OutZero d g⌝ ∗ held (T d) UC (V2 m d g)))
  rw [bigSep_cores (F := F) (fun c => iprop(rdPts m (cvOf m) d (qC c) ∗ bigSep Finset.univ fun i : Fin 16 => outPre m d (pt c i))),
    bigSep_cores (F := F) (fun c => iprop(rdPts m (cvOf m) d (qC c) ∗ bigSep Finset.univ fun i : Fin 16 => outPost d (pt c i))),
    bigSep_sep', bigSep_sep']
  iintro ⟨⟨Hn, Hc, Hx, Ho⟩, Hrest⟩
  ihave Hr := (rdPts_split2 m (cvOf m) d) $$ [Hn Hc Hx]
  · unfold rdPts
    isplitl [Hn]; · iexact Hn
    isplitl [Hc]; · iexact Hc
    iexact Hx
  icases Hr with ⟨Hrem, Htok⟩
  isplitl [Htok Ho]
  · isplitl [Htok]; · iexact Htok
    unfold outPre
    iexact Ho
  iintro ⟨Htok, Hpost⟩
  ihave Hj := (oBlocks_join (F := F) d) $$ Hpost
  icases Hj with ⟨%g, %hg, Hg⟩
  iexists g
  isplitr
  · ipureintro; exact hg
  iapply (held_V2 m d g)
  isplitl [Hrem Htok]
  · iapply (rdPts_join2 m (cvOf m) d)
    isplitl [Hrem] <;> iassumption
  isplitl [Hg]; · iexact Hg
  iexact Hrest

end Cert.Proof.KB

end
-- ==== Proof.KBArgs.lean ====
/-
  @main's arguments keep their launch contents to the end: no host operation of the three stretches writes an
  argument array, and neither the SparseCore call's result nor the TensorCore kernel region's result is one.
-/
import proofs.«211217_g68642167325227_cont_9to1_m_1168_22_alg».proof.Proof.KBHmain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

/-- @main's fourteen arguments. -/
def argRefs : List (Ref sig .tc) :=
  [main_arg0, main_arg1, main_arg2, main_arg3, main_arg4, main_arg5, main_arg6, main_arg7, main_arg8, main_arg9,
    main_arg10, main_arg11, main_arg12, main_arg13]

/-- Every array @main's steps write: the host operations' results, the call's result, the region's result. -/
def wroteRefs : List (Ref sig .tc) :=
  [main_v0, main_v1, main_v2, main_v3, main_v4, main_v5, main_v6, main_v7, main_v8, main_v9, main_v10, main_v11,
    main_v12, main_v13, main_v14, main_cst, main_v15, main_v16]

/-- No argument is among the arrays written. -/
theorem arg_ne_wrote : ∀ r ∈ argRefs, ∀ y ∈ wroteRefs, r ≠ y := by decide

/-- An array among those written, as a one-element set of device buffers. -/
theorem wrote_sub {y : Ref sig .tc} (h : y ∈ wroteRefs) :
    ({Proc.devRef .tc y} : Finset (DevRef τ sig)) ⊆ (wroteRefs.map (Proc.devRef (τ := τ) .tc)).toFinset :=
  Finset.singleton_subset_iff.mpr (List.mem_toFinset.mpr (List.mem_map_of_mem h))

variable {F : FTy → Type} [FloatOps F] [Cert.Kernel.Facts]

/-- The three host stretches write only arrays of the list. -/
theorem ops1_wrote : (ops1 : List (HloOp τ sig (Elt F))).Forall fun op =>
    op.writes ⊆ (wroteRefs.map (Proc.devRef (τ := τ) .tc)).toFinset :=
  ⟨wrote_sub (by decide), wrote_sub (by decide), wrote_sub (by decide), wrote_sub (by decide)⟩
theorem ops2_wrote : (ops2 : List (HloOp τ sig (Elt F))).Forall fun op =>
    op.writes ⊆ (wroteRefs.map (Proc.devRef (τ := τ) .tc)).toFinset :=
  ⟨wrote_sub (by decide), wrote_sub (by decide), wrote_sub (by decide), wrote_sub (by decide), wrote_sub (by decide)⟩
theorem ops3_wrote : (ops3 : List (HloOp τ sig (Elt F))).Forall fun op =>
    op.writes ⊆ (wroteRefs.map (Proc.devRef (τ := τ) .tc)).toFinset :=
  ⟨wrote_sub (by decide), wrote_sub (by decide), wrote_sub (by decide), wrote_sub (by decide), wrote_sub (by decide),
    wrote_sub (by decide), wrote_sub (by decide)⟩

variable (m : (ℓ : Loc nD τ sig) → Buf (Elt F) ℓ)

/-- At the end every argument holds what it held at the launch, whatever the call and the region returned. -/
theorem V5_arg (d : Dev nD) (g : Buf (Elt F) (oLoc d)) (vo : Buf (Elt F) (rLoc d)) {r : Ref sig .tc} (hr : r ∈ argRefs) :
    V5 m d g vo (Proc.devRef .tc r) = m (d, Proc.devRef .tc r) := by
  have hne : ∀ y ∈ wroteRefs, r ≠ y := arg_ne_wrote r hr
  have hnot : r ∉ wroteRefs := fun h => hne r h rfl
  unfold V5
  rw [StableHlo.after_of_writes_sub ops3 _ ops3_wrote hnot]
  unfold V4
  rw [Function.update_of_ne (StableHlo.devRef_ne_of_ne (hne main_v10 (by decide)))]
  unfold V3
  rw [StableHlo.after_of_writes_sub ops2 _ ops2_wrote hnot]
  unfold V2
  rw [Function.update_of_ne (StableHlo.devRef_ne_of_ne (hne main_v4 (by decide)))]
  unfold V1
  rw [StableHlo.after_of_writes_sub ops1 _ ops1_wrote hnot]
  rfl

end Cert.Proof.KB

end
-- ==== Proof.KBFrame.lean ====
/-
  The frame of the kernel as printed: the whole program's run from the launch theorem, and from its final valuation that every
  argument array ends as it began (no host operation writes an argument; the call and the region write their own results).
-/
import proofs.«211217_g68642167325227_cont_9to1_m_1168_22_alg».proof.Proof.KBRegion
import proofs.«211217_g68642167325227_cont_9to1_m_1168_22_alg».proof.Proof.KBRegBody
import proofs.«211217_g68642167325227_cont_9to1_m_1168_22_alg».proof.Proof.KBTile
import proofs.«211217_g68642167325227_cont_9to1_m_1168_22_alg».proof.Proof.KBCallIO
import proofs.«211217_g68642167325227_cont_9to1_m_1168_22_alg».proof.Proof.KBArgs

noncomputable section

namespace Cert.Proof.KB

open Cert.Kernel Cert.Kernel.Gen

open Idealize.ShloMosaic
open Idealize.ShloMosaic.SparseCore (S V T)
open Idealize.SL Idealize.SL.Sem

variable {F : FTy → Type} [FloatOps F] [Cert.Kernel.Facts] [∀ e, Nonempty (Elt F e)]

variable (m : (ℓ : Loc nD τ sig) → Buf (Elt F) ℓ) (ρ : Dev nD → PrngReg)

/-- The whole program's run: on every device the unscoped arrays end at the final valuation, for a result of the call whose
    row 3 is zero and the region's result as the pipeline library computes it from the body's function. -/
theorem run (tcOutF : TcOutTy F) (htc : TcBodySpec tcOutF) :
    θ_run (Cert.Kernel.defs (F := F)) (Cert.Kernel.threads (F := F)) ⟨m, fun _ => 0, ρ⟩ (QC m (TcOutP m tcOutF)) :=
  run_main m ρ (TcOutP m tcOutF) (call_io m) (region_rule m tcOutF (fun d g => body_obligation m tcOutF htc d g)) (tileObl m (cvOf m))

/-- Every argument is an unscoped TensorCore array. -/
theorem arg_mem_UC : ∀ r ∈ argRefs, (Proc.devRef .tc r : DevRef τ sig) ∈ UC := by decide

/-- The final valuation leaves every argument array at its launch contents. -/
theorem args_of_QC (TcOut : (d : Dev nD) → Buf (Elt F) (oLoc d) → Buf (Elt F) (rLoc d) → Prop) (r : PUnit × MemSt nD τ sig (Elt F))
    (h : QC m TcOut r) (c : Dev nD) :
    r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13) := by
  obtain ⟨g, vo, -, -, hb⟩ := h c
  exact ⟨(hb (Proc.devRef .tc main_arg0) (arg_mem_UC main_arg0 (by decide))).trans (V5_arg m c g vo (r := main_arg0) (by decide)),
    (hb (Proc.devRef .tc main_arg1) (arg_mem_UC main_arg1 (by decide))).trans (V5_arg m c g vo (r := main_arg1) (by decide)),
    (hb (Proc.devRef .tc main_arg2) (arg_mem_UC main_arg2 (by decide))).trans (V5_arg m c g vo (r := main_arg2) (by decide)),
    (hb (Proc.devRef .tc main_arg3) (arg_mem_UC main_arg3 (by decide))).trans (V5_arg m c g vo (r := main_arg3) (by decide)),
    (hb (Proc.devRef .tc main_arg4) (arg_mem_UC main_arg4 (by decide))).trans (V5_arg m c g vo (r := main_arg4) (by decide)),
    (hb (Proc.devRef .tc main_arg5) (arg_mem_UC main_arg5 (by decide))).trans (V5_arg m c g vo (r := main_arg5) (by decide)),
    (hb (Proc.devRef .tc main_arg6) (arg_mem_UC main_arg6 (by decide))).trans (V5_arg m c g vo (r := main_arg6) (by decide)),
    (hb (Proc.devRef .tc main_arg7) (arg_mem_UC main_arg7 (by decide))).trans (V5_arg m c g vo (r := main_arg7) (by decide)),
    (hb (Proc.devRef .tc main_arg8) (arg_mem_UC main_arg8 (by decide))).trans (V5_arg m c g vo (r := main_arg8) (by decide)),
    (hb (Proc.devRef .tc main_arg9) (arg_mem_UC main_arg9 (by decide))).trans (V5_arg m c g vo (r := main_arg9) (by decide)),
    (hb (Proc.devRef .tc main_arg10) (arg_mem_UC main_arg10 (by decide))).trans (V5_arg m c g vo (r := main_arg10) (by decide)),
    (hb (Proc.devRef .tc main_arg11) (arg_mem_UC main_arg11 (by decide))).trans (V5_arg m c g vo (r := main_arg11) (by decide)),
    (hb (Proc.devRef .tc main_arg12) (arg_mem_UC main_arg12 (by decide))).trans (V5_arg m c g vo (r := main_arg12) (by decide)),
    (hb (Proc.devRef .tc main_arg13) (arg_mem_UC main_arg13 (by decide))).trans (V5_arg m c g vo (r := main_arg13) (by decide))⟩

end Cert.Proof.KB

end
-- ==== Proof.LibExperts.lean ====
/-
  The extended-real algebra that joins two spellings of one computation after its masks, at the ideal instance
  (a float an extended real, every operation exact): a masked mean written as a product with a reciprocal and as
  a quotient; a mean written as a sum of scaled terms and as a scaled sum; a contraction over 2048 indices
  accumulated in four chunks of 512; a gated combination of three terms; and the finiteness of a softmax over
  finitely many reals (its maximum is real, its exponentials positive reals, its denominator a nonzero real).
-/
import Idealize.ShloMosaic.PureOps
import Idealize.ShloMosaic.PureOps.Ideal
import Idealize.ShloMosaic.PureOps.Ideal.Laws
import proofs.«211217_g68642167325227_cont_9to1_m_1168_22_alg».proof.Proof.LibLattice

noncomputable section

namespace Cert.Experts

open Idealize.ShloMosaic
open scoped BigOperators

/-! ## Real numbers among the extended reals -/

section Coe
variable {ι : Type} [Fintype ι]

/-- A finite sum of reals, each read as an extended real, is the real sum read as one. -/
theorem coe_finset_sum (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same over a whole finite index type. -/
theorem coe_sum (f : ι → ℝ) : ∑ i, ((f i : ℝ) : EReal) = ((∑ i, f i : ℝ) : EReal) :=
  coe_finset_sum Finset.univ f

/-- A finite sum of products of reals is the real sum of products. -/
theorem coe_sum_mul (w x : ι → ℝ) :
    ∑ i, ((w i : ℝ) : EReal) * ((x i : ℝ) : EReal) = ((∑ i, w i * x i : ℝ) : EReal) := by
  simp_rw [← EReal.coe_mul]
  exact coe_sum _

/-- The maximum of two reals read as extended reals is the real maximum. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The difference of two reals read as extended reals is the real difference. -/
theorem sub_coe (a b : ℝ) : (a : EReal) - (b : EReal) = ((a - b : ℝ) : EReal) :=
  (EReal.coe_sub a b).symm

/-- The quotient of a real by a nonzero real, at the ideal instance, is the real quotient. -/
theorem div_coe_coe (a s : ℝ) (hs : s ≠ 0) : Ideal.div (a : EReal) (s : EReal) = ((a / s : ℝ) : EReal) := by
  rw [Ideal.div_coe hs, ← EReal.coe_mul, mul_one_div]

end Coe

/-! ## (A) The masked mean: a product with the reciprocal of max(count, 1) against the quotient by it -/

/-- Multiplying by the quotient 1 / m is dividing by m, for a nonzero real m and any extended real. -/
theorem mul_div_one (S : EReal) (m : ℝ) (hm : m ≠ 0) :
    S * Ideal.div 1 (m : EReal) = Ideal.div S (m : EReal) := by
  rw [Ideal.div_coe hm, Ideal.div_coe hm, one_mul]

/-- max(count, 1) of a real count is a real that is at least 1. -/
theorem max_one_coe (cnt : ℝ) : max (cnt : EReal) 1 = ((max cnt 1 : ℝ) : EReal) := by
  rw [← EReal.coe_one, coe_max]

/-- max(count, 1) is not zero: it is at least 1. -/
theorem max_one_ne_zero (cnt : ℝ) : max cnt 1 ≠ 0 :=
  (lt_of_lt_of_le one_pos (le_max_right cnt 1)).ne'

/-- The masked mean in its two spellings: S * (1 / max(count, 1)) = S / max(count, 1). -/
theorem masked_mean (S : EReal) (cnt : ℝ) :
    S * Ideal.div 1 (max (cnt : EReal) 1) = Ideal.div S (max (cnt : EReal) 1) := by
  rw [max_one_coe]
  exact mul_div_one S _ (max_one_ne_zero cnt)

/-- The same as the operations print it: the scalar unit's quotient and maximum with the literal 1.0 on one
    side, the host's quotient and the vector maximum on the other. -/
theorem masked_mean' (S : EReal) (cnt : ℝ) :
    FloatOps.mulf (F := Ideal) (φ := .f32) S
        (Scalar.divf (Scalar.ofBits .f32 0x3F800000#32)
          (Scalar.maximumf ((cnt : ℝ) : EReal) (Scalar.ofBits .f32 0x3F800000#32)))
      = FloatOps.hostDivf (F := Ideal) (φ := .f32) S
          (FloatOps.maximumf ((cnt : ℝ) : EReal) (FloatOps.ofBits .f32 0x3F800000#32)) := by
  show S * Ideal.div (Ideal.ofBits .f32 0x3F800000#32) (max ((cnt : ℝ) : EReal) (Ideal.ofBits .f32 0x3F800000#32))
    = Ideal.div S (max ((cnt : ℝ) : EReal) (Ideal.ofBits .f32 0x3F800000#32))
  rw [Cert.Lattice.ofBits_one]
  exact masked_mean S cnt

/-! ## (B) The mean: a sum of terms scaled by 1/n against the sum divided by n -/

section Mean
variable {ι : Type} [Fintype ι]

/-- ∑ (1/n) * x i = (∑ x i) / n for reals x i and a nonzero real n. -/
theorem mean_eq (x : ι → ℝ) (n : ℝ) (hn : n ≠ 0) :
    ∑ i, ((1 / n : ℝ) : EReal) * ((x i : ℝ) : EReal)
      = Ideal.div (∑ i, ((x i : ℝ) : EReal)) (n : EReal) := by
  rw [coe_sum_mul (fun _ => 1 / n) x, coe_sum, div_coe_coe _ _ hn, EReal.coe_eq_coe_iff,
    ← Finset.mul_sum, one_div, div_eq_inv_mul]

/-- The mean over 512 terms as the two programs spell its constants: the literal 1/512 and the literal 512. -/
theorem mean_512' (x : ι → ℝ) :
    ∑ i, Ideal.ofBits .f32 0x3B000000#32 * ((x i : ℝ) : EReal)
      = Ideal.div (∑ i, ((x i : ℝ) : EReal)) (Ideal.ofBits .f32 0x44000000#32) := by
  rw [Cert.Lattice.ofBits_inv512, Cert.Lattice.ofBits_512]
  exact mean_eq x 512 (by norm_num)

end Mean

/-! ## (C) A sum over 2048 indices accumulated in four chunks of 512 -/

/-- A sum over 2048 indices is the accumulation, from zero, of the sums over its four consecutive chunks of 512;
    the chunks' index maps are arbitrary, only their values matter. -/
theorem sum_four_chunks {M : Type} [AddCommMonoid M] (f : Fin 2048 → M) (e0 e1 e2 e3 : Fin 512 → Fin 2048)
    (h0 : ∀ k, (e0 k).val = k.val) (h1 : ∀ k, (e1 k).val = 512 + k.val)
    (h2 : ∀ k, (e2 k).val = 1024 + k.val) (h3 : ∀ k, (e3 k).val = 1536 + k.val) :
    (((0 + ∑ k, f (e0 k)) + ∑ k, f (e1 k)) + ∑ k, f (e2 k)) + ∑ k, f (e3 k) = ∑ k : Fin 2048, f k := by
  let g : ℕ → M := fun n => if h : n < 2048 then f ⟨n, h⟩ else 0
  have hg : ∀ k : Fin 2048, f k = g k.val := fun k => by
    show f k = if h : k.val < 2048 then f ⟨k.val, h⟩ else 0
    rw [dif_pos k.isLt]
  have chunk : ∀ (e : Fin 512 → Fin 2048) (c : ℕ), (∀ k, (e k).val = c + k.val) →
      ∑ k, f (e k) = ∑ n ∈ Finset.range 512, g (c + n) := by
    intro e c he
    rw [← Fin.sum_univ_eq_sum_range (fun n => g (c + n)) 512]
    refine Finset.sum_congr rfl (fun k _ => ?_)
    rw [hg, he]
  have total : ∑ k : Fin 2048, f k = ∑ n ∈ Finset.range 2048, g n := by
    rw [← Fin.sum_univ_eq_sum_range g 2048]
    exact Finset.sum_congr rfl (fun k _ => hg k)
  rw [chunk e0 0 (fun k => by rw [h0 k, zero_add]), chunk e1 512 h1, chunk e2 1024 h2, chunk e3 1536 h3,
    total, zero_add]
  rw [show (2048 : ℕ) = 512 + 512 + 512 + 512 from rfl, Finset.sum_range_add, Finset.sum_range_add,
    Finset.sum_range_add]
  simp only [zero_add, Nat.reduceAdd]

/-! ## (D) The gated combination of three terms -/

/-- A factor moves past a gate: t * (g * f) = g * (t * f). -/
theorem gate_comm (t g f : EReal) : t * (g * f) = g * (t * f) := mul_left_comm t g f

/-- A sum over three indices, written out. -/
theorem sum_fin3 (h : Fin 3 → EReal) : ∑ k : Fin 3, h k = h 0 + h 1 + h 2 := Fin.sum_univ_three h

/-- A gated sum over three indices, accumulated from zero, written out. -/
theorem gate_sum (g e : Fin 3 → EReal) :
    0 + ∑ k : Fin 3, g k * e k = g 0 * e 0 + g 1 * e 1 + g 2 * e 2 := by
  rw [zero_add, Fin.sum_univ_three]

/-! ## (E) A softmax over finitely many reals is real -/

/-- The maximum with negative infinity is the other operand. -/
theorem max_bot_left' (x : EReal) : max ⊥ x = x := max_bot_left x

/-- The running maximum of three reals from negative infinity is the real maximum. -/
theorem max_bot_coe3 (a b c : ℝ) :
    max (max (max (⊥ : EReal) a) b) c = ((max (max a b) c : ℝ) : EReal) := by
  rw [max_bot_left, coe_max, coe_max]

/-- The exponential of a real is a positive real. -/
theorem exp_coe_pos (r : ℝ) : Ideal.exp (r : EReal) = ((Real.exp r : ℝ) : EReal) ∧ 0 < Real.exp r :=
  ⟨Ideal.exp_coe r, Real.exp_pos r⟩

section Softmax
variable {ι : Type} [Fintype ι]

/-- A nonempty finite sum of exponentials of reals is positive. -/
theorem sum_exp_pos [Nonempty ι] (x : ι → ℝ) (m : ℝ) : 0 < ∑ j, Real.exp (x j - m) :=
  Finset.sum_pos (fun j _ => Real.exp_pos _) Finset.univ_nonempty

/-- Each softmax weight exp(x k - m) / ∑ exp(x j - m) of finitely many reals, shifted by a real m, is the
    real quotient: the numerator is a real and the denominator a nonzero real. -/
theorem softmax_real [Nonempty ι] (x : ι → ℝ) (m : ℝ) (k : ι) :
    Ideal.div (Ideal.exp (((x k : ℝ) : EReal) - (m : EReal)))
        (∑ j, Ideal.exp (((x j : ℝ) : EReal) - (m : EReal)))
      = ((Real.exp (x k - m) / ∑ j, Real.exp (x j - m) : ℝ) : EReal) := by
  simp_rw [← EReal.coe_sub, Ideal.exp_coe]
  rw [coe_sum, div_coe_coe _ _ (sum_exp_pos x m).ne']

end Softmax

/-! ## Sums of 0/1 weights, halves of a sum over 2048, and the final order of the combination -/

section Indicators
variable {ι : Type} [Fintype ι]

/-- The sum of 0/1 weights is the number of indices where the weight is 1, a natural number. -/
theorem sum_indicator (P : ι → Prop) [DecidablePred P] :
    ∑ r, (if P r then (1 : EReal) else 0) = ((((Finset.univ.filter P).card : ℕ) : ℝ) : EReal) := by
  have h : ∀ r, (if P r then (1 : EReal) else 0) = (((if P r then (1 : ℝ) else 0) : ℝ) : EReal) := fun r => by
    by_cases hp : P r <;> simp [hp]
  simp_rw [h]
  rw [coe_sum, Finset.sum_boole]

/-- 1 - 1 = 0 on the extended reals. -/
theorem one_sub_one : (1 : EReal) - 1 = 0 := by
  rw [← EReal.coe_one, ← EReal.coe_sub, sub_self, EReal.coe_zero]

/-- The product of the complements of two 0/1 weights is the 0/1 weight of "neither". -/
theorem compl_mul_compl (p q : Prop) [Decidable p] [Decidable q] :
    (1 - (if p then (1 : EReal) else 0)) * (1 - (if q then (1 : EReal) else 0)) = if (¬p ∧ ¬q) then (1 : EReal) else 0 := by
  by_cases hp : p <;> by_cases hq : q <;> simp [hp, hq, one_sub_one]

/-- The masked mean's two spellings agree when the count is a sum of 0/1 weights. -/
theorem masked_mean_indicator (S : EReal) (P : ι → Prop) [DecidablePred P] :
    S * Ideal.div 1 (max (∑ r, (if P r then (1 : EReal) else 0)) 1)
      = Ideal.div S (max (∑ r, (if P r then (1 : EReal) else 0)) 1) := by
  rw [sum_indicator]
  exact masked_mean S _

/-- The same when the weights are products of complements of 0/1 weights. -/
theorem masked_mean_compl (S : EReal) (P Q : ι → Prop) [DecidablePred P] [DecidablePred Q] :
    S * Ideal.div 1 (max (∑ r, (1 - (if P r then (1 : EReal) else 0)) * (1 - (if Q r then (1 : EReal) else 0))) 1)
      = Ideal.div S (max (∑ r, (1 - (if P r then (1 : EReal) else 0)) * (1 - (if Q r then (1 : EReal) else 0))) 1) := by
  simp_rw [compl_mul_compl]
  exact masked_mean_indicator S fun r => ¬P r ∧ ¬Q r

/-- The mean of extended reals that are all real: ∑ (1/n) * X i = (∑ X i) / n. -/
theorem mean_eq_of_real (X : ι → EReal) (hX : ∀ i, ∃ r : ℝ, X i = (r : EReal)) (n : ℝ) (hn : n ≠ 0) :
    ∑ i, ((1 / n : ℝ) : EReal) * X i = Ideal.div (∑ i, X i) (n : EReal) := by
  have e : X = fun i => (((Classical.choose (hX i) : ℝ)) : EReal) := funext fun i => Classical.choose_spec (hX i)
  rw [e]
  exact mean_eq _ n hn

/-- The mean over 512 real entries, in the two programs' literals. -/
theorem mean_512_of_real (X : ι → EReal) (hX : ∀ i, ∃ r : ℝ, X i = (r : EReal)) :
    ∑ i, Ideal.ofBits .f32 0x3B000000#32 * X i = Ideal.div (∑ i, X i) (Ideal.ofBits .f32 0x44000000#32) := by
  rw [Cert.Lattice.ofBits_inv512, Cert.Lattice.ofBits_512]
  exact mean_eq_of_real X hX 512 (by norm_num)

end Indicators

/-- A sum over 2048 indices is the sum over its first 1024 plus the sum over its last 1024. -/
theorem sum_halves_2048 {M : Type} [AddCommMonoid M] (f : Fin 2048 → M) :
    ∑ k : Fin 2048, f k
      = ∑ k : Fin 1024, f ⟨k.val, by omega⟩ + ∑ k : Fin 1024, f ⟨k.val + 1024, by omega⟩ := by
  have h := Fin.sum_univ_add (a := 1024) (b := 1024) f
  refine h.trans (congrArg₂ (· + ·) (Finset.sum_congr rfl fun k _ => ?_) (Finset.sum_congr rfl fun k _ => ?_))
  · exact congrArg f (Fin.ext rfl)
  · exact congrArg f (Fin.ext (Nat.add_comm 1024 k.val))

/-- The combination in its two orders: each expert's term tanh · (gate · flag), accumulated first-middle-last, is
    gate · (tanh · flag) summed in the same order. -/
theorem combine3 (tL tF tD g0 g1 g2 fL fF fD : EReal) :
    (tL * (g0 * fL) + tF * (g1 * fF)) + tD * (g2 * fD) = g0 * (tL * fL) + g1 * (tF * fF) + g2 * (tD * fD) := by
  rw [gate_comm tL, gate_comm tF, gate_comm tD]

/-! ## The flag "the count is positive", in its two spellings -/

/-- The bit of a comparison, widened to 32 bits and converted signed on the scalar unit, is the bit converted
    unsigned: 1 where the comparison holds and 0 elsewhere, either way. -/
theorem flag_eq (c z : EReal) :
    Scalar.sitofp (F := Ideal) .f32 (Scalar.extui (Scalar.cmpf (F := Ideal) (φ := .f32) .ogt c z))
      = FloatOps.uitofp (F := Ideal) .f32 (FloatOps.cmpf (F := Ideal) (φ := .f32) .ogt c z) :=
  Cert.Lattice.bit_sitofp_extui (Ideal.cmp .ogt c z)

/-- The flag of a real count against the literal zero: 1 where the count is positive, 0 elsewhere. -/
theorem flag_val (c : ℝ) :
    FloatOps.uitofp (F := Ideal) .f32
        (FloatOps.cmpf (F := Ideal) (φ := .f32) .ogt ((c : ℝ) : EReal) (FloatOps.ofBits .f32 0x00000000#32))
      = if 0 < c then (1 : EReal) else 0 := by
  show (((Ideal.cmp .ogt ((c : ℝ) : EReal) (Ideal.ofBits .f32 0x00000000#32)).toNat : ℝ) : EReal) = _
  rw [Cert.Lattice.ofBits_zero]
  show (((BitVec.ofBool (decide ((0 : EReal) < ((c : ℝ) : EReal)))).toNat : ℝ) : EReal) = _
  rw [Cert.Lattice.ofBool_toNat_cast]
  simp only [EReal.coe_pos]

end Cert.Experts

end
-- ==== Proof.KIValExperts.lean ====
/-
  The second half of the kernel body's arithmetic, read at an index at the ideal values: the product of the three
  weight rows with the neighbour rows, the scaled aggregates joined to the state, the contractions of a joined row of
  2048 with a 2048×1024 matrix taken in four chunks of 512 rows, the messages, the gates' scores and their softmax, and
  the final combination. A product into a zero accumulator is the sum over the contracted coordinate of the operands'
  products; a slice, a joined row and a repeated scalar read the entry their coordinate names.
-/
import proofs.«211217_g68642167325227_cont_9to1_m_1168_22_alg».proof.Proof.Gen.KernelIdeal.Skeleton
import proofs.«211217_g68642167325227_cont_9to1_m_1168_22_alg».proof.Proof.LibLattice
import proofs.«211217_g68642167325227_cont_9to1_m_1168_22_alg».proof.Proof.LibExperts
import Idealize.ShloMosaic.Lib.IdealHost
import Idealize.ShloMosaic.Lib.Pipeline.Value

noncomputable section

namespace Cert.Proof.KI

open Cert.KernelIdeal Cert.KernelIdeal.Gen Idealize.ShloMosaic Idealize.ShloMosaic.ValueIdx
open scoped BigOperators

variable [Cert.KernelIdeal.Facts]

/-! ## Products into a zero accumulator -/

theorem mmA_lhs0 (i : S3x1024.Idx) (q : dot_S3x512_S512x1024_S3x1024_1_0_0_1_n_n.contr.Idx) : (dot_S3x512_S512x1024_S3x1024_1_0_0_1_n_n.lhsIdx i q 0).val = (i 0).val := by
  unfold DotDims.lhsIdx
  rw [dif_neg (show ¬(0 : Fin S3x512.rank) ∈ dot_S3x512_S512x1024_S3x1024_1_0_0_1_n_n.lhsBatch by decide), dif_pos (show (0 : Fin S3x512.rank) ∈ dot_S3x512_S512x1024_S3x1024_1_0_0_1_n_n.lhsNonContracting by decide)]
  rfl
theorem mmA_lhs1 (i : S3x1024.Idx) (q : dot_S3x512_S512x1024_S3x1024_1_0_0_1_n_n.contr.Idx) : (dot_S3x512_S512x1024_S3x1024_1_0_0_1_n_n.lhsIdx i q 1).val = (q ⟨0, by decide⟩).val :=
  dot_S3x512_S512x1024_S3x1024_1_0_0_1_n_n.lhsIdx_val_of_single rfl i q
theorem mmA_rhs0 (i : S3x1024.Idx) (q : dot_S3x512_S512x1024_S3x1024_1_0_0_1_n_n.contr.Idx) : (dot_S3x512_S512x1024_S3x1024_1_0_0_1_n_n.rhsIdx i q 0).val = (q ⟨0, by decide⟩).val :=
  dot_S3x512_S512x1024_S3x1024_1_0_0_1_n_n.rhsIdx_val_of_single rfl i q
theorem mmA_rhs1 (i : S3x1024.Idx) (q : dot_S3x512_S512x1024_S3x1024_1_0_0_1_n_n.contr.Idx) : (dot_S3x512_S512x1024_S3x1024_1_0_0_1_n_n.rhsIdx i q 1).val = (i 1).val := by
  unfold DotDims.rhsIdx
  rw [dif_neg (show ¬(1 : Fin S512x1024.rank) ∈ dot_S3x512_S512x1024_S3x1024_1_0_0_1_n_n.rhsBatch by decide), dif_pos (show (1 : Fin S512x1024.rank) ∈ dot_S3x512_S512x1024_S3x1024_1_0_0_1_n_n.rhsNonContracting by decide)]
  rfl
/-- The product into a zero accumulator, at a row and a column: the sum over the 512 of entry times entry. -/
theorem mmA_apply (x : FVec Ideal S3x512 .f32) (y : FVec Ideal S512x1024 .f32) (r : Fin 3) (c : Fin 1024) :
    matmul dot_S3x512_S512x1024_S3x1024_1_0_0_1_n_n none x y (constant (F := Ideal) S3x1024 .f32 0x00000000#32) (ix2 r c)
      = ∑ k : Fin 512, x (ix2 r k) * y (ix2 k c) := by
  simp only [matmul]
  rw [Ideal.matmul_constant_zero_apply, ← Equiv.sum_comp (contrEquiv1 dot_S3x512_S512x1024_S3x1024_1_0_0_1_n_n 512 rfl rfl).symm]
  refine Finset.sum_congr rfl fun k _ => ?_
  have hk := contrEquiv1_symm_val dot_S3x512_S512x1024_S3x1024_1_0_0_1_n_n 512 rfl rfl k
  have el : dot_S3x512_S512x1024_S3x1024_1_0_0_1_n_n.lhsIdx (ix2 r c) ((contrEquiv1 dot_S3x512_S512x1024_S3x1024_1_0_0_1_n_n 512 rfl rfl).symm k) = ix2 r k := funext fun a => Fin.ext (by
    match a with
    | ⟨0, _⟩ => exact mmA_lhs0 _ _
    | ⟨1, _⟩ => exact (mmA_lhs1 _ _).trans hk)
  have er : dot_S3x512_S512x1024_S3x1024_1_0_0_1_n_n.rhsIdx (ix2 r c) ((contrEquiv1 dot_S3x512_S512x1024_S3x1024_1_0_0_1_n_n 512 rfl rfl).symm k) = ix2 k c := funext fun a => Fin.ext (by
    match a with
    | ⟨0, _⟩ => exact (mmA_rhs0 _ _).trans hk
    | ⟨1, _⟩ => exact mmA_rhs1 _ _)
  rw [el, er]

theorem mmG_lhs0 (i : S1x3.Idx) (q : dot_S1x2048_S2048x3_S1x3_1_0_0_1_n_n.contr.Idx) : (dot_S1x2048_S2048x3_S1x3_1_0_0_1_n_n.lhsIdx i q 0).val = (i 0).val := by
  unfold DotDims.lhsIdx
  rw [dif_neg (show ¬(0 : Fin S1x2048.rank) ∈ dot_S1x2048_S2048x3_S1x3_1_0_0_1_n_n.lhsBatch by decide), dif_pos (show (0 : Fin S1x2048.rank) ∈ dot_S1x2048_S2048x3_S1x3_1_0_0_1_n_n.lhsNonContracting by decide)]
  rfl
theorem mmG_lhs1 (i : S1x3.Idx) (q : dot_S1x2048_S2048x3_S1x3_1_0_0_1_n_n.contr.Idx) : (dot_S1x2048_S2048x3_S1x3_1_0_0_1_n_n.lhsIdx i q 1).val = (q ⟨0, by decide⟩).val :=
  dot_S1x2048_S2048x3_S1x3_1_0_0_1_n_n.lhsIdx_val_of_single rfl i q
theorem mmG_rhs0 (i : S1x3.Idx) (q : dot_S1x2048_S2048x3_S1x3_1_0_0_1_n_n.contr.Idx) : (dot_S1x2048_S2048x3_S1x3_1_0_0_1_n_n.rhsIdx i q 0).val = (q ⟨0, by decide⟩).val :=
  dot_S1x2048_S2048x3_S1x3_1_0_0_1_n_n.rhsIdx_val_of_single rfl i q
theorem mmG_rhs1 (i : S1x3.Idx) (q : dot_S1x2048_S2048x3_S1x3_1_0_0_1_n_n.contr.Idx) : (dot_S1x2048_S2048x3_S1x3_1_0_0_1_n_n.rhsIdx i q 1).val = (i 1).val := by
  unfold DotDims.rhsIdx
  rw [dif_neg (show ¬(1 : Fin S2048x3.rank) ∈ dot_S1x2048_S2048x3_S1x3_1_0_0_1_n_n.rhsBatch by decide), dif_pos (show (1 : Fin S2048x3.rank) ∈ dot_S1x2048_S2048x3_S1x3_1_0_0_1_n_n.rhsNonContracting by decide)]
  rfl
/-- The product into a zero accumulator, at a row and a column: the sum over the 2048 of entry times entry. -/
theorem mmG_apply (x : FVec Ideal S1x2048 .f32) (y : FVec Ideal S2048x3 .f32) (r : Fin 1) (c : Fin 3) :
    matmul dot_S1x2048_S2048x3_S1x3_1_0_0_1_n_n none x y (constant (F := Ideal) S1x3 .f32 0x00000000#32) (ix2 r c)
      = ∑ k : Fin 2048, x (ix2 r k) * y (ix2 k c) := by
  simp only [matmul]
  rw [Ideal.matmul_constant_zero_apply, ← Equiv.sum_comp (contrEquiv1 dot_S1x2048_S2048x3_S1x3_1_0_0_1_n_n 2048 rfl rfl).symm]
  refine Finset.sum_congr rfl fun k _ => ?_
  have hk := contrEquiv1_symm_val dot_S1x2048_S2048x3_S1x3_1_0_0_1_n_n 2048 rfl rfl k
  have el : dot_S1x2048_S2048x3_S1x3_1_0_0_1_n_n.lhsIdx (ix2 r c) ((contrEquiv1 dot_S1x2048_S2048x3_S1x3_1_0_0_1_n_n 2048 rfl rfl).symm k) = ix2 r k := funext fun a => Fin.ext (by
    match a with
    | ⟨0, _⟩ => exact mmG_lhs0 _ _
    | ⟨1, _⟩ => exact (mmG_lhs1 _ _).trans hk)
  have er : dot_S1x2048_S2048x3_S1x3_1_0_0_1_n_n.rhsIdx (ix2 r c) ((contrEquiv1 dot_S1x2048_S2048x3_S1x3_1_0_0_1_n_n 2048 rfl rfl).symm k) = ix2 k c := funext fun a => Fin.ext (by
    match a with
    | ⟨0, _⟩ => exact (mmG_rhs0 _ _).trans hk
    | ⟨1, _⟩ => exact mmG_rhs1 _ _)
  rw [el, er]

theorem mmM_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mmM_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem mmM_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem mmM_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- The product into a zero accumulator, at a row and a column: the sum over the 1024 of entry times entry. -/
theorem mmM_apply (x : FVec Ideal S512x1024 .f32) (y : FVec Ideal S1024x1024 .f32) (r : Fin 512) (c : Fin 1024) :
    matmul dot_S512x1024_S1024x1024_S512x1024_1_0_0_1_n_n none x y (constant (F := Ideal) S512x1024 .f32 0x00000000#32) (ix2 r c)
      = ∑ k : Fin 1024, x (ix2 r k) * y (ix2 k c) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k := funext fun a => Fin.ext (by
    match a with
    | ⟨0, _⟩ => exact mmM_lhs0 _ _
    | ⟨1, _⟩ => exact (mmM_lhs1 _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c := funext fun a => Fin.ext (by
    match a with
    | ⟨0, _⟩ => exact (mmM_rhs0 _ _).trans hk
    | ⟨1, _⟩ => exact mmM_rhs1 _ _)
  rw [el, er]

theorem mmV_lhs0 (i : S1x1024.Idx) (q : dot_S1x512_S512x1024_S1x1024_1_0_0_1_n_n.contr.Idx) : (dot_S1x512_S512x1024_S1x1024_1_0_0_1_n_n.lhsIdx i q 0).val = (i 0).val := by
  unfold DotDims.lhsIdx
  rw [dif_neg (show ¬(0 : Fin S1x512.rank) ∈ dot_S1x512_S512x1024_S1x1024_1_0_0_1_n_n.lhsBatch by decide), dif_pos (show (0 : Fin S1x512.rank) ∈ dot_S1x512_S512x1024_S1x1024_1_0_0_1_n_n.lhsNonContracting by decide)]
  rfl
theorem mmV_lhs1 (i : S1x1024.Idx) (q : dot_S1x512_S512x1024_S1x1024_1_0_0_1_n_n.contr.Idx) : (dot_S1x512_S512x1024_S1x1024_1_0_0_1_n_n.lhsIdx i q 1).val = (q ⟨0, by decide⟩).val :=
  dot_S1x512_S512x1024_S1x1024_1_0_0_1_n_n.lhsIdx_val_of_single rfl i q
theorem mmV_rhs0 (i : S1x1024.Idx) (q : dot_S1x512_S512x1024_S1x1024_1_0_0_1_n_n.contr.Idx) : (dot_S1x512_S512x1024_S1x1024_1_0_0_1_n_n.rhsIdx i q 0).val = (q ⟨0, by decide⟩).val :=
  dot_S1x512_S512x1024_S1x1024_1_0_0_1_n_n.rhsIdx_val_of_single rfl i q
theorem mmV_rhs1 (i : S1x1024.Idx) (q : dot_S1x512_S512x1024_S1x1024_1_0_0_1_n_n.contr.Idx) : (dot_S1x512_S512x1024_S1x1024_1_0_0_1_n_n.rhsIdx i q 1).val = (i 1).val := by
  unfold DotDims.rhsIdx
  rw [dif_neg (show ¬(1 : Fin S512x1024.rank) ∈ dot_S1x512_S512x1024_S1x1024_1_0_0_1_n_n.rhsBatch by decide), dif_pos (show (1 : Fin S512x1024.rank) ∈ dot_S1x512_S512x1024_S1x1024_1_0_0_1_n_n.rhsNonContracting by decide)]
  rfl
/-- The product into a zero accumulator, at a row and a column: the sum over the 512 of entry times entry. -/
theorem mmV_apply (x : FVec Ideal S1x512 .f32) (y : FVec Ideal S512x1024 .f32) (r : Fin 1) (c : Fin 1024) :
    matmul dot_S1x512_S512x1024_S1x1024_1_0_0_1_n_n none x y (constant (F := Ideal) S1x1024 .f32 0x00000000#32) (ix2 r c)
      = ∑ k : Fin 512, x (ix2 r k) * y (ix2 k c) := by
  simp only [matmul]
  rw [Ideal.matmul_constant_zero_apply, ← Equiv.sum_comp (contrEquiv1 dot_S1x512_S512x1024_S1x1024_1_0_0_1_n_n 512 rfl rfl).symm]
  refine Finset.sum_congr rfl fun k _ => ?_
  have hk := contrEquiv1_symm_val dot_S1x512_S512x1024_S1x1024_1_0_0_1_n_n 512 rfl rfl k
  have el : dot_S1x512_S512x1024_S1x1024_1_0_0_1_n_n.lhsIdx (ix2 r c) ((contrEquiv1 dot_S1x512_S512x1024_S1x1024_1_0_0_1_n_n 512 rfl rfl).symm k) = ix2 r k := funext fun a => Fin.ext (by
    match a with
    | ⟨0, _⟩ => exact mmV_lhs0 _ _
    | ⟨1, _⟩ => exact (mmV_lhs1 _ _).trans hk)
  have er : dot_S1x512_S512x1024_S1x1024_1_0_0_1_n_n.rhsIdx (ix2 r c) ((contrEquiv1 dot_S1x512_S512x1024_S1x1024_1_0_0_1_n_n 512 rfl rfl).symm k) = ix2 k c := funext fun a => Fin.ext (by
    match a with
    | ⟨0, _⟩ => exact (mmV_rhs0 _ _).trans hk
    | ⟨1, _⟩ => exact mmV_rhs1 _ _)
  rw [el, er]

/-! ## Joined rows, slices, a repeated scalar -/

/-- Each row of the three weight rows stacked is the row it was stacked from. -/
theorem rows3_apply0 (u0 u1 u2 : FVec Ideal S1x512 .f32) (k : Fin 512) :
    concatenate S3x512 0 [⟨S1x512, u0⟩, ⟨S1x512, u1⟩, ⟨S1x512, u2⟩] concatenates_S1x512_S1x512_S1x512_S3x512_d0 (ix2 0 k) = u0 (ix2 0 k) :=
  concatenate_apply_piece 0 [⟨S1x512, u0⟩, ⟨S1x512, u1⟩, ⟨S1x512, u2⟩] concatenates_S1x512_S1x512_S1x512_S3x512_d0 (ix2 0 k) 0 (by simp)
    S1x512 u0 rfl rfl 0 rfl (ix2 0 k) (fun b hb => match b, hb with | ⟨0, _⟩, hb => absurd rfl hb | ⟨1, _⟩, _ => rfl) rfl
@[inherit_doc rows3_apply0]
theorem rows3_apply1 (u0 u1 u2 : FVec Ideal S1x512 .f32) (k : Fin 512) :
    concatenate S3x512 0 [⟨S1x512, u0⟩, ⟨S1x512, u1⟩, ⟨S1x512, u2⟩] concatenates_S1x512_S1x512_S1x512_S3x512_d0 (ix2 1 k) = u1 (ix2 0 k) :=
  concatenate_apply_piece 0 [⟨S1x512, u0⟩, ⟨S1x512, u1⟩, ⟨S1x512, u2⟩] concatenates_S1x512_S1x512_S1x512_S3x512_d0 (ix2 1 k) 1 (by simp)
    S1x512 u1 rfl rfl 1 rfl (ix2 0 k) (fun b hb => match b, hb with | ⟨0, _⟩, hb => absurd rfl hb | ⟨1, _⟩, _ => rfl) rfl
@[inherit_doc rows3_apply0]
theorem rows3_apply2 (u0 u1 u2 : FVec Ideal S1x512 .f32) (k : Fin 512) :
    concatenate S3x512 0 [⟨S1x512, u0⟩, ⟨S1x512, u1⟩, ⟨S1x512, u2⟩] concatenates_S1x512_S1x512_S1x512_S3x512_d0 (ix2 2 k) = u2 (ix2 0 k) :=
  concatenate_apply_piece 0 [⟨S1x512, u0⟩, ⟨S1x512, u1⟩, ⟨S1x512, u2⟩] concatenates_S1x512_S1x512_S1x512_S3x512_d0 (ix2 2 k) 2 (by simp)
    S1x512 u2 rfl rfl 2 rfl (ix2 0 k) (fun b hb => match b, hb with | ⟨0, _⟩, hb => absurd rfl hb | ⟨1, _⟩, _ => rfl) rfl

/-- The product of the three stacked weight rows with the 512 neighbour rows: row by row, at a column, the sum over the
    neighbours of weight times entry. -/
theorem pay24_row0 (v97 v101 v132 : FVec Ideal S1x512 .f32) (v134 : FVec Ideal S512x1024 .f32) (c : Fin 1024) :
    k1_pay24 v97 v101 v132 v134 (ix2 0 c) = ∑ k : Fin 512, v97 (ix2 0 k) * v134 (ix2 k c) :=
  (mmA_apply _ v134 0 c).trans (Finset.sum_congr rfl fun k _ => by rw [rows3_apply0])
@[inherit_doc pay24_row0]
theorem pay24_row1 (v97 v101 v132 : FVec Ideal S1x512 .f32) (v134 : FVec Ideal S512x1024 .f32) (c : Fin 1024) :
    k1_pay24 v97 v101 v132 v134 (ix2 1 c) = ∑ k : Fin 512, v101 (ix2 0 k) * v134 (ix2 k c) :=
  (mmA_apply _ v134 1 c).trans (Finset.sum_congr rfl fun k _ => by rw [rows3_apply1])
@[inherit_doc pay24_row0]
theorem pay24_row2 (v97 v101 v132 : FVec Ideal S1x512 .f32) (v134 : FVec Ideal S512x1024 .f32) (c : Fin 1024) :
    k1_pay24 v97 v101 v132 v134 (ix2 2 c) = ∑ k : Fin 512, v132 (ix2 0 k) * v134 (ix2 k c) :=
  (mmA_apply _ v134 2 c).trans (Finset.sum_congr rfl fun k _ => by rw [rows3_apply2])

/-- Two rows of 1024 joined into a row of 2048. -/
def catRow (a b : FVec Ideal S1x1024 .f32) : FVec Ideal S1x2048 .f32 :=
  concatenate S1x2048 1 [⟨S1x1024, a⟩, ⟨S1x1024, b⟩] concatenates_S1x1024_S1x1024_S1x2048_d1

theorem catRow_left (a b : FVec Ideal S1x1024 .f32) (k : Fin 2048) (h : k.val < 1024) :
    catRow a b (ix2 0 k) = a (ix2 0 ⟨k.val, h⟩) :=
  concatenate_pair_apply_left 1 a b concatenates_S1x1024_S1x1024_S1x2048_d1 (ix2 0 k) rfl (ix2 0 ⟨k.val, h⟩)
    (fun b => match b with | ⟨0, _⟩ => rfl | ⟨1, _⟩ => rfl)

theorem catRow_right (a b : FVec Ideal S1x1024 .f32) (k : Fin 2048) (h : 1024 ≤ k.val) :
    catRow a b (ix2 0 k) = b (ix2 0 ⟨k.val - 1024, by omega⟩) :=
  concatenate_pair_apply_right 1 a b concatenates_S1x1024_S1x1024_S1x2048_d1 (ix2 0 k) rfl rfl (ix2 0 ⟨k.val - 1024, by omega⟩)
    (fun b hb => match b, hb with | ⟨0, _⟩, _ => rfl | ⟨1, _⟩, hb => absurd rfl hb)
    (by show k.val - 1024 + 1024 = k.val; omega)

/-- A row times the reciprocal of the larger of a count and one. -/
def scaled (row : FVec Ideal S1x1024 .f32) (cnt : Ideal .f32) : FVec Ideal S1x1024 .f32 :=
  mulf row (broadcast S1x1024
    (Scalar.divf (Scalar.ofBits .f32 0x3F800000#32) (Scalar.maximumf cnt (Scalar.ofBits .f32 0x3F800000#32))))

theorem scaled_apply (row : FVec Ideal S1x1024 .f32) (cnt : Ideal .f32) (j : S1x1024.Idx) :
    scaled row cnt j = row j * Ideal.div 1 (max cnt 1) := by
  show row j * Ideal.div (Ideal.ofBits .f32 0x3F800000#32) (max cnt (Ideal.ofBits .f32 0x3F800000#32)) = _
  rw [Cert.Lattice.ofBits_one]

/-- Row `r` of a table of three rows. -/
def row3 (x : FVec Ideal S3x1024 .f32) (r : Fin 3) : FVec Ideal S1x1024 .f32 := fun j => x (ix2 r ⟨(j 1).val, (j 1).isLt⟩)

theorem slice_row0 (x : FVec Ideal S3x1024 .f32) : extractStridedSlice S1x1024 ![0, 0] x slices_S3x1024_o0_0_S1x1024 = row3 x 0 :=
  funext fun j => extractStridedSlice_apply _ x _ j _ (fun a => match a with | ⟨0, _⟩ => by show 0 = 0 + (j 0).val; have h : (j 0).val < 1 := (j 0).isLt; omega | ⟨1, _⟩ => by show (j 1).val = 0 + (j 1).val; omega)
theorem slice_row1 (x : FVec Ideal S3x1024 .f32) : extractStridedSlice S1x1024 ![1, 0] x slices_S3x1024_o1_0_S1x1024 = row3 x 1 :=
  funext fun j => extractStridedSlice_apply _ x _ j _ (fun a => match a with | ⟨0, _⟩ => by show 1 = 1 + (j 0).val; have h : (j 0).val < 1 := (j 0).isLt; omega | ⟨1, _⟩ => by show (j 1).val = 0 + (j 1).val; omega)
theorem slice_row2 (x : FVec Ideal S3x1024 .f32) : extractStridedSlice S1x1024 ![2, 0] x slices_S3x1024_o2_0_S1x1024 = row3 x 2 :=
  funext fun j => extractStridedSlice_apply _ x _ j _ (fun a => match a with | ⟨0, _⟩ => by show 2 = 2 + (j 0).val; have h : (j 0).val < 1 := (j 0).isLt; omega | ⟨1, _⟩ => by show (j 1).val = 0 + (j 1).val; omega)

/-- The local and the distant inputs: the state joined with the scaled weighted sum of the neighbour rows. -/
theorem pay25_eq (v97 v101 : FVec Ideal S1x512 .f32) (v110 : Ideal .f32) (v129 : FVec Ideal S1x1024 .f32) (v132 : FVec Ideal S1x512 .f32)
    (v134 : FVec Ideal S512x1024 .f32) :
    k1_pay25 v97 v101 v110 v129 v132 v134 = catRow v129 (scaled (row3 (k1_pay24 v97 v101 v132 v134) 0) v110) := by
  unfold k1_pay25 catRow scaled
  rw [slice_row0]
@[inherit_doc pay25_eq]
theorem pay26_eq (v97 v101 : FVec Ideal S1x512 .f32) (v114 : Ideal .f32) (v129 : FVec Ideal S1x1024 .f32) (v132 : FVec Ideal S1x512 .f32)
    (v134 : FVec Ideal S512x1024 .f32) :
    k1_pay26 v97 v101 v114 v129 v132 v134 = catRow v129 (scaled (row3 (k1_pay24 v97 v101 v132 v134) 1) v114) := by
  unfold k1_pay26 catRow scaled
  rw [slice_row1]

/-! ## A row of 2048 against a 2048×1024 matrix, in four chunks of 512 rows -/

/-- Rows `o … o + 511` of a 2048×1024 matrix. -/
def rowsAt (W : FVec Ideal S2048x1024 .f32) (o : ℕ) (ho : o + 512 ≤ 2048) : FVec Ideal S512x1024 .f32 :=
  fun j => W (ix2 ⟨o + (j 0).val, by have h : (j 0).val < 512 := (j 0).isLt; omega⟩ ⟨(j 1).val, (j 1).isLt⟩)

/-- One chunk's product: entries `o … o + 511` of the row against 512 rows. -/
theorem chunk_apply (x : FVec Ideal S1x2048 .f32) (W : FVec Ideal S512x1024 .f32) (o : ℕ) (ho : o + 512 ≤ 2048)
    (fact : S1x2048.Slices ![0, o] S1x512) (c : Fin 1024) :
    matmul dot_S1x512_S512x1024_S1x1024_1_0_0_1_n_n none (extractStridedSlice S1x512 ![0, o] x fact) W
        (constant (F := Ideal) S1x1024 .f32 0x00000000#32) (ix2 0 c)
      = ∑ k : Fin 512, x (ix2 0 ⟨o + k.val, by omega⟩) * W (ix2 k c) := by
  refine (mmV_apply _ W 0 c).trans (Finset.sum_congr rfl fun k _ => ?_)
  rw [extractStridedSlice_apply _ x fact (ix2 0 k) (ix2 0 ⟨o + k.val, by omega⟩)
    (fun a => match a with | ⟨0, _⟩ => rfl | ⟨1, _⟩ => rfl)]

theorem sZero : Scalar.ofBits (F := Ideal) .f32 0x00000000#32 = (0 : EReal) := Cert.Lattice.ofBits_zero
theorem sOne : Scalar.ofBits (F := Ideal) .f32 0x3F800000#32 = (1 : EReal) := Cert.Lattice.ofBits_one

/-- The first two chunks, from a zero row. -/
theorem pay29_apply (v147 : FVec Ideal S1x2048 .f32) (v190 v198 : FVec Ideal S512x1024 .f32) (c : Fin 1024) :
    k1_pay29 v147 v190 v198 (ix2 0 c)
      = (0 + ∑ k : Fin 512, v147 (ix2 0 ⟨0 + k.val, by omega⟩) * v190 (ix2 k c))
        + ∑ k : Fin 512, v147 (ix2 0 ⟨512 + k.val, by omega⟩) * v198 (ix2 k c) := by
  simp only [k1_pay29, addf_apply, broadcast_apply]
  rw [chunk_apply v147 v190 0 (by omega) slices_S1x2048_o0_0_S1x512 c,
    chunk_apply v147 v198 512 (by omega) slices_S1x2048_o0_512_S1x512 c, sZero]

/-- The last two chunks, added to a row. -/
theorem pay30_apply (v147 : FVec Ideal S1x2048 .f32) (v200 : FVec Ideal S1x1024 .f32) (v206 v214 : FVec Ideal S512x1024 .f32) (c : Fin 1024) :
    k1_pay30 v147 v200 v206 v214 (ix2 0 c)
      = (v200 (ix2 0 c) + ∑ k : Fin 512, v147 (ix2 0 ⟨1024 + k.val, by omega⟩) * v206 (ix2 k c))
        + ∑ k : Fin 512, v147 (ix2 0 ⟨1536 + k.val, by omega⟩) * v214 (ix2 k c) := by
  simp only [k1_pay30, addf_apply]
  rw [chunk_apply v147 v206 1024 (by omega) slices_S1x2048_o0_1024_S1x512 c,
    chunk_apply v147 v214 1536 (by omega) slices_S1x2048_o0_1536_S1x512 c]

/-- The first chunk, from a zero row. -/
theorem pay31_apply (v148 : FVec Ideal S1x2048 .f32) (v223 : FVec Ideal S512x1024 .f32) (c : Fin 1024) :
    k1_pay31 v148 v223 (ix2 0 c) = 0 + ∑ k : Fin 512, v148 (ix2 0 ⟨0 + k.val, by omega⟩) * v223 (ix2 k c) := by
  simp only [k1_pay31, addf_apply, broadcast_apply]
  rw [chunk_apply v148 v223 0 (by omega) slices_S1x2048_o0_0_S1x512 c, sZero]

/-- The last three chunks, added to a row (the second chunk's entries sliced beforehand). -/
theorem pay33_apply (v148 : FVec Ideal S1x2048 .f32) (v225 : FVec Ideal S1x1024 .f32) (v231 v239 v247 : FVec Ideal S512x1024 .f32) (c : Fin 1024) :
    k1_pay33 v148 v225 (k1_pay32 v148) v231 v239 v247 (ix2 0 c)
      = ((v225 (ix2 0 c) + ∑ k : Fin 512, v148 (ix2 0 ⟨512 + k.val, by omega⟩) * v231 (ix2 k c))
          + ∑ k : Fin 512, v148 (ix2 0 ⟨1024 + k.val, by omega⟩) * v239 (ix2 k c))
        + ∑ k : Fin 512, v148 (ix2 0 ⟨1536 + k.val, by omega⟩) * v247 (ix2 k c) := by
  simp only [k1_pay33, k1_pay32, addf_apply]
  rw [chunk_apply v148 v231 512 (by omega) slices_S1x2048_o0_512_S1x512 c,
    chunk_apply v148 v239 1024 (by omega) slices_S1x2048_o0_1024_S1x512 c,
    chunk_apply v148 v247 1536 (by omega) slices_S1x2048_o0_1536_S1x512 c]

@[inherit_doc pay31_apply]
theorem pay34_apply (v183 : FVec Ideal S1x2048 .f32) (v256 : FVec Ideal S512x1024 .f32) (c : Fin 1024) :
    k1_pay34 v183 v256 (ix2 0 c) = 0 + ∑ k : Fin 512, v183 (ix2 0 ⟨0 + k.val, by omega⟩) * v256 (ix2 k c) := by
  simp only [k1_pay34, addf_apply, broadcast_apply]
  rw [chunk_apply v183 v256 0 (by omega) slices_S1x2048_o0_0_S1x512 c, sZero]

/-- The last three chunks, added to a row. -/
theorem pay35_apply (v183 : FVec Ideal S1x2048 .f32) (v258 : FVec Ideal S1x1024 .f32) (v264 v272 v280 : FVec Ideal S512x1024 .f32) (c : Fin 1024) :
    k1_pay35 v183 v258 v264 v272 v280 (ix2 0 c)
      = ((v258 (ix2 0 c) + ∑ k : Fin 512, v183 (ix2 0 ⟨512 + k.val, by omega⟩) * v264 (ix2 k c))
          + ∑ k : Fin 512, v183 (ix2 0 ⟨1024 + k.val, by omega⟩) * v272 (ix2 k c))
        + ∑ k : Fin 512, v183 (ix2 0 ⟨1536 + k.val, by omega⟩) * v280 (ix2 k c) := by
  simp only [k1_pay35, addf_apply]
  rw [chunk_apply v183 v264 512 (by omega) slices_S1x2048_o0_512_S1x512 c,
    chunk_apply v183 v272 1024 (by omega) slices_S1x2048_o0_1024_S1x512 c,
    chunk_apply v183 v280 1536 (by omega) slices_S1x2048_o0_1536_S1x512 c]

/-- The four chunks' sums are the one sum over the 2048 entries. -/
theorem four_chunks (x : FVec Ideal S1x2048 .f32) (W : FVec Ideal S2048x1024 .f32) (c : Fin 1024) :
    (((0 + ∑ k : Fin 512, x (ix2 0 ⟨0 + k.val, by omega⟩) * rowsAt W 0 (by omega) (ix2 k c))
        + ∑ k : Fin 512, x (ix2 0 ⟨512 + k.val, by omega⟩) * rowsAt W 512 (by omega) (ix2 k c))
        + ∑ k : Fin 512, x (ix2 0 ⟨1024 + k.val, by omega⟩) * rowsAt W 1024 (by omega) (ix2 k c))
        + ∑ k : Fin 512, x (ix2 0 ⟨1536 + k.val, by omega⟩) * rowsAt W 1536 (by omega) (ix2 k c)
      = ∑ k : Fin 2048, x (ix2 0 k) * W (ix2 k c) :=
  Cert.Experts.sum_four_chunks (fun k : Fin 2048 => x (ix2 0 k) * W (ix2 k c))
    (fun k => ⟨0 + k.val, by omega⟩) (fun k => ⟨512 + k.val, by omega⟩) (fun k => ⟨1024 + k.val, by omega⟩)
    (fun k => ⟨1536 + k.val, by omega⟩) (fun k => Nat.zero_add _) (fun _ => rfl) (fun _ => rfl) (fun _ => rfl)

/-- The local expert's contraction, as the body takes it: four chunks in two steps. -/
theorem preL_apply (x : FVec Ideal S1x2048 .f32) (W : FVec Ideal S2048x1024 .f32) (c : Fin 1024) :
    k1_pay30 x (k1_pay29 x (rowsAt W 0 (by omega)) (rowsAt W 512 (by omega))) (rowsAt W 1024 (by omega)) (rowsAt W 1536 (by omega)) (ix2 0 c)
      = ∑ k : Fin 2048, x (ix2 0 k) * W (ix2 k c) := by
  rw [pay30_apply, pay29_apply]
  exact four_chunks x W c

/-- The distant expert's contraction: one chunk, then three. -/
theorem preD_apply (x : FVec Ideal S1x2048 .f32) (W : FVec Ideal S2048x1024 .f32) (c : Fin 1024) :
    k1_pay33 x (k1_pay31 x (rowsAt W 0 (by omega))) (k1_pay32 x) (rowsAt W 512 (by omega)) (rowsAt W 1024 (by omega)) (rowsAt W 1536 (by omega)) (ix2 0 c)
      = ∑ k : Fin 2048, x (ix2 0 k) * W (ix2 k c) := by
  rw [pay33_apply, pay31_apply]
  exact four_chunks x W c

/-- The middle expert's contraction: one chunk, then three. -/
theorem preF_apply (x : FVec Ideal S1x2048 .f32) (W : FVec Ideal S2048x1024 .f32) (c : Fin 1024) :
    k1_pay35 x (k1_pay34 x (rowsAt W 0 (by omega))) (rowsAt W 512 (by omega)) (rowsAt W 1024 (by omega)) (rowsAt W 1536 (by omega)) (ix2 0 c)
      = ∑ k : Fin 2048, x (ix2 0 k) * W (ix2 k c) := by
  rw [pay35_apply, pay34_apply]
  exact four_chunks x W c

/-! ## The messages and the middle aggregate -/

/-- The messages: the hyperbolic tangent of the rows against a 1024×1024 matrix plus a bias row. -/
def kmsg (ns : FVec Ideal S512x1024 .f32) (W1 : FVec Ideal S1024x1024 .f32) (b1 : FVec Ideal S1x1024 .f32) : FVec Ideal S512x1024 .f32 :=
  tanh (addf (matmul dot_S512x1024_S1024x1024_S512x1024_1_0_0_1_n_n none ns W1 (constant (F := Ideal) S512x1024 .f32 0x00000000#32))
    (broadcastTo S512x1024 (shapeCast S1x1024 b1 shapeCasts_S1x1024_S1x1024) broadcasts_S1x1024_S512x1024))

theorem kmsg_apply (ns : FVec Ideal S512x1024 .f32) (W1 : FVec Ideal S1024x1024 .f32) (b1 : FVec Ideal S1x1024 .f32)
    (r : Fin 512) (c : Fin 1024) :
    kmsg ns W1 b1 (ix2 r c) = Ideal.tanh ((∑ k : Fin 1024, ns (ix2 r k) * W1 (ix2 k c)) + b1 (ix2 0 c)) := by
  unfold kmsg
  show Ideal.tanh (addf (F := Ideal) (s := S512x1024) (φ := .f32) _ _ (ix2 r c)) = _
  rw [addf_apply, mmM_apply, shapeCast_self,
    broadcastTo_apply b1 broadcasts_S1x1024_S512x1024 (ix2 r c) (ix2 0 c) (fun a => match a with | ⟨0, _⟩ => rfl | ⟨1, _⟩ => rfl)]

/-- The middle input: the state joined with the scaled weighted sum of the messages. -/
theorem pay28_eq (v106 : FVec Ideal S1x512 .f32) (v118 : Ideal .f32) (v129 : FVec Ideal S1x1024 .f32) (v170 : FVec Ideal S512x1024 .f32)
    (v171 : FVec Ideal S1024x1024 .f32) (v173 : FVec Ideal S1x1024 .f32) :
    k1_pay28 v106 v118 v129 v170 v171 (constant (F := Ideal) S512x1024 .f32 0x00000000#32) v173
      = catRow v129 (scaled (matmul dot_S1x512_S512x1024_S1x1024_1_0_0_1_n_n none v106 (kmsg v170 v171 v173)
          (constant (F := Ideal) S1x1024 .f32 0x00000000#32)) v118) := rfl

/-! ## The combination -/

/-- One of the three gates, taken out of the row of three. -/
theorem gate_at (g : FVec Ideal S1x3 .f32) (o : ℕ) (ho : o < 3) (fact : S1x3.Slices ![0, o] S1x1) :
    extractAt ![0, 0] (extractStridedSlice S1x1 ![0, o] g fact) inpos_S1x1_p0_0 = g (ix2 0 ⟨o, ho⟩) := by
  unfold extractAt extractStridedSlice
  exact congrArg g (funext fun a => Fin.ext (by
    match a with
    | ⟨0, _⟩ => rfl
    | ⟨1, _⟩ => show o + 0 = o; omega))

/-- The local expert's term: the hyperbolic tangent of the contraction plus the bias, times gate times flag. -/
theorem pay36_apply (v121 : Ideal .f32) (v167 : FVec Ideal S1x3 .f32) (v216 v283 : FVec Ideal S1x1024 .f32) (c : Fin 1024) :
    k1_pay36 v121 v167 v216 v283 (ix2 0 c) = Ideal.tanh (v216 (ix2 0 c) + v283 (ix2 0 c)) * (v167 (ix2 0 0) * v121) := by
  unfold k1_pay36
  show Ideal.tanh (addf (F := Ideal) (s := S1x1024) (φ := .f32) _ _ (ix2 0 c)) * (extractAt (s := S1x1) ![0, 0] _ inpos_S1x1_p0_0 * v121) = _
  rw [addf_apply, shapeCast_self, gate_at v167 0 (by omega) slices_S1x3_o0_0_S1x1]
  rfl

/-- The result row: the local term plus the middle term plus the distant term. -/
theorem pay1_apply (v124 v127 : Ideal .f32) (v167 : FVec Ideal S1x3 .f32) (v249 v282 v291 v292 v301 : FVec Ideal S1x1024 .f32) (c : Fin 1024) :
    k1_pay1 v124 v127 v167 v249 v282 v291 v292 v301 (ix2 0 c)
      = (v291 (ix2 0 c) + Ideal.tanh (v282 (ix2 0 c) + v292 (ix2 0 c)) * (v167 (ix2 0 1) * v127))
        + Ideal.tanh (v249 (ix2 0 c) + v301 (ix2 0 c)) * (v167 (ix2 0 2) * v124) := by
  unfold k1_pay1
  show (v291 (ix2 0 c) + Ideal.tanh (addf (F := Ideal) (s := S1x1024) (φ := .f32) _ _ (ix2 0 c)) * (extractAt (s := S1x1) ![0, 0] _ inpos_S1x1_p0_0 * v127))
      + Ideal.tanh (addf (F := Ideal) (s := S1x1024) (φ := .f32) _ _ (ix2 0 c)) * (extractAt (s := S1x1) ![0, 0] _ inpos_S1x1_p0_0 * v124) = _
  rw [addf_apply, addf_apply, shapeCast_self, shapeCast_self, gate_at v167 1 (by omega) slices_S1x3_o0_1_S1x1,
    gate_at v167 2 (by omega) slices_S1x3_o0_2_S1x1]
  rfl

end Cert.Proof.KI

end
-- ==== Proof.RefRead.lean ====
/-
  The reference's stages read at an index, at the ideal values (a float an extended real, every operation exact):
  a broadcast reads its operand at the coordinates it keeps, a sum over one axis is the sum over that axis's
  coordinate, a contraction is the sum over the contracted coordinate of the operands' products, and a joined vector
  reads the piece its coordinate falls in. From these, each stage of `out` at an index: the weights' total, the
  weighted sum and mean of the 512 rows, an expert, the messages, the gates' scores, and the final combination.
-/
import proofs.«211217_g68642167325227_cont_9to1_m_1168_22_alg».proof.Proof.RefRun
import Idealize.ShloMosaic.Lib.IdealHost
import Idealize.ShloMosaic.Lib.Pipeline.Value

namespace Cert.ReferenceIdeal.RefRun

open Cert.ReferenceIdeal Idealize.ShloMosaic Idealize.ShloMosaic.ValueIdx
open Cert.ReferenceIdeal.Facts₀ Cert.ReferenceIdeal.Facts
open scoped BigOperators

variable [Cert.ReferenceIdeal.Facts]

/-! ## Indices -/

/-- The index `k` of a vector of 512, of 1024, of 2048, of 3. -/
abbrev at512 (k : Fin 512) : S512.Idx := fun a => match a with | ⟨0, _⟩ => ⟨k.val, k.isLt⟩
@[inherit_doc at512] abbrev at1024 (k : Fin 1024) : S1024.Idx := fun a => match a with | ⟨0, _⟩ => ⟨k.val, k.isLt⟩
@[inherit_doc at512] abbrev at2048 (k : Fin 2048) : S2048.Idx := fun a => match a with | ⟨0, _⟩ => ⟨k.val, k.isLt⟩
@[inherit_doc at512] abbrev at3 (k : Fin 3) : S3.Idx := fun a => match a with | ⟨0, _⟩ => ⟨k.val, k.isLt⟩
/-- The index (row `r`, column `c`) of each of the two-axis shapes. -/
abbrev at512x1024 (r : Fin 512) (c : Fin 1024) : S512x1024.Idx := fun a => match a with | ⟨0, _⟩ => ⟨r.val, r.isLt⟩ | ⟨1, _⟩ => ⟨c.val, c.isLt⟩
@[inherit_doc at512x1024] abbrev at2048x1024 (r : Fin 2048) (c : Fin 1024) : S2048x1024.Idx := fun a => match a with | ⟨0, _⟩ => ⟨r.val, r.isLt⟩ | ⟨1, _⟩ => ⟨c.val, c.isLt⟩
@[inherit_doc at512x1024] abbrev at1024x1024 (r : Fin 1024) (c : Fin 1024) : S1024x1024.Idx := fun a => match a with | ⟨0, _⟩ => ⟨r.val, r.isLt⟩ | ⟨1, _⟩ => ⟨c.val, c.isLt⟩
@[inherit_doc at512x1024] abbrev at2048x3 (r : Fin 2048) (c : Fin 3) : S2048x3.Idx := fun a => match a with | ⟨0, _⟩ => ⟨r.val, r.isLt⟩ | ⟨1, _⟩ => ⟨c.val, c.isLt⟩
@[inherit_doc at512x1024] abbrev at512x3 (r : Fin 512) (c : Fin 3) : S512x3.Idx := fun a => match a with | ⟨0, _⟩ => ⟨r.val, r.isLt⟩ | ⟨1, _⟩ => ⟨c.val, c.isLt⟩
@[inherit_doc at512x1024] abbrev at3x1024 (r : Fin 3) (c : Fin 1024) : S3x1024.Idx := fun a => match a with | ⟨0, _⟩ => ⟨r.val, r.isLt⟩ | ⟨1, _⟩ => ⟨c.val, c.isLt⟩
/-- The one index of a one-element vector. -/
abbrev at1 : S1.Idx := fun a => match a with | ⟨0, _⟩ => ⟨0, Nat.zero_lt_one⟩
/-- The one coordinate of an index of a vector. -/
abbrev co512 (j : S512.Idx) : Fin 512 := ⟨(j 0).val, (j 0).isLt⟩
@[inherit_doc co512] abbrev co1024 (j : S1024.Idx) : Fin 1024 := ⟨(j 0).val, (j 0).isLt⟩
@[inherit_doc co512] abbrev co3 (j : S3.Idx) : Fin 3 := ⟨(j 0).val, (j 0).isLt⟩

/-! ## Broadcasts -/

theorem splat_apply {α : Type} (x : S_.Idx → α) (j : S512.Idx) : splat x j = x ix0 :=
  broadcastInDim_scalar_apply _ x j

theorem bcast1024_apply {α : Type} (x : S_.Idx → α) (j : S1024.Idx) :
    broadcastInDim S1024 ![] bcast_S_S1024 x j = x ix0 :=
  broadcastInDim_scalar_apply _ x j

/-- A weight per row, repeated along each row of 1024. -/
theorem rowWeight_apply {α : Type} (w : S512.Idx → α) (r : Fin 512) (c : Fin 1024) :
    broadcastInDim S512x1024 ![0, 1] bcast_S512x1_S512x1024_0_1 (broadcastInDim S512x1 ![0] bcast_S512_S512x1_0 w)
      (at512x1024 r c) = w (at512 r) := by
  rw [broadcastInDim_apply _ _ _ (at512x1024 r c) (fun a => match a with | ⟨0, _⟩ => ⟨r.val, r.isLt⟩ | ⟨1, _⟩ => ⟨0, Nat.zero_lt_one⟩)
    (fun a => match a with | ⟨0, _⟩ => rfl | ⟨1, _⟩ => rfl)]
  exact broadcastInDim_apply _ _ _ _ (at512 r) (fun a => match a with | ⟨0, _⟩ => rfl)

/-- A vector of 1024 repeated down 512 rows. -/
theorem colBias_apply {α : Type} (b : S1024.Idx → α) (r : Fin 512) (c : Fin 1024) :
    broadcastInDim S512x1024 ![0, 1] bcast_S1x1024_S512x1024_0_1 (broadcastInDim S1x1024 ![1] bcast_S1024_S1x1024_1 b)
      (at512x1024 r c) = b (at1024 c) := by
  rw [broadcastInDim_apply _ _ _ (at512x1024 r c) (fun a => match a with | ⟨0, _⟩ => ⟨0, Nat.zero_lt_one⟩ | ⟨1, _⟩ => ⟨c.val, c.isLt⟩)
    (fun a => match a with | ⟨0, _⟩ => rfl | ⟨1, _⟩ => rfl)]
  exact broadcastInDim_apply _ _ _ _ (at1024 c) (fun a => match a with | ⟨0, _⟩ => rfl)

/-! ## Sums -/

/-- A sum over every index of a vector of 512 is the sum over its coordinate. -/
theorem sum_at512 {M : Type*} [AddCommMonoid M] (f : S512.Idx → M) : ∑ i : S512.Idx, f i = ∑ k : Fin 512, f (at512 k) :=
  (Equiv.sum_comp (⟨at512, co512, fun k => rfl, fun j => funext fun a => match a with | ⟨0, _⟩ => rfl⟩ : Fin 512 ≃ S512.Idx) f).symm

/-- A sum over every index of a vector of 3 is the sum over its coordinate. -/
theorem sum_at3 {M : Type*} [AddCommMonoid M] (f : S3.Idx → M) : ∑ i : S3.Idx, f i = ∑ k : Fin 3, f (at3 k) :=
  (Equiv.sum_comp (⟨at3, co3, fun k => rfl, fun j => funext fun a => match a with | ⟨0, _⟩ => rfl⟩ : Fin 3 ≃ S3.Idx) f).symm

/-- The total of 512 weights is their sum. -/
theorem total_apply (w : FVec Ideal S512 .f32) (j : S_.Idx) : total w j = ∑ k : Fin 512, w (at512 k) := by
  unfold total
  simp only [Host.reduceAdd, Ideal.hostReduceAdd_def]
  rw [Ideal.hostReduceAdd_total reducesTo_S512_S_d0 (fun b => b.elim0), constant_apply, Ideal.ofBits_zero_f32, zero_add]
  exact sum_at512 w

/-- The sum of the 512 rows of a 512×1024 table, at a column. -/
theorem sumRows_apply (x : FVec Ideal S512x1024 .f32) (c : Fin 1024) :
    Host.reduceAdd x (constant S_ .f32 0x00000000#32) reducesTo_S512x1024_S1024_d0 h_S_ (at1024 c)
      = ∑ k : Fin 512, x (at512x1024 k c) := by
  simp only [Host.reduceAdd, Ideal.hostReduceAdd_def]
  rw [Ideal.hostReduceAdd_single reducesTo_S512x1024_S1024_d0 (by decide), constant_apply, Ideal.ofBits_zero_f32, zero_add]
  refine Finset.sum_congr rfl fun k _ => ?_
  exact congrArg x (funext fun a => Fin.ext (by match a with | ⟨0, _⟩ => rfl | ⟨1, _⟩ => rfl))

/-- The weighted sum of the rows, at a column: the sum over the rows of weight times entry. -/
theorem maskedSum_apply (w : FVec Ideal S512 .f32) (vals : FVec Ideal S512x1024 .f32) (c : Fin 1024) :
    maskedSum w vals (at1024 c) = ∑ k : Fin 512, w (at512 k) * vals (at512x1024 k c) := by
  unfold maskedSum
  rw [sumRows_apply]
  refine Finset.sum_congr rfl fun k _ => ?_
  rw [mulf_apply, rowWeight_apply]

/-- The divisor of a weighted mean: the larger of the weights' sum and one. -/
theorem count_apply (w : FVec Ideal S512 .f32) (j : S_.Idx) : count w j = max (∑ k : Fin 512, w (at512 k)) 1 := by
  unfold count
  rw [maximumf_apply, total_apply, constant_apply, Ideal.ofBits_one_f32]

/-- The weighted mean of the rows, at a column. -/
theorem maskedMean_apply (w : FVec Ideal S512 .f32) (vals : FVec Ideal S512x1024 .f32) (c : Fin 1024) :
    maskedMean w vals (at1024 c)
      = Ideal.div (∑ k : Fin 512, w (at512 k) * vals (at512x1024 k c)) (max (∑ k : Fin 512, w (at512 k)) 1) := by
  unfold maskedMean
  rw [hostDivf_apply, maskedSum_apply, bcast1024_apply, count_apply]

/-- 1 when the weights' sum is positive, 0 otherwise (as the comparison's bit made a float). -/
theorem anyOn_apply (w : FVec Ideal S512 .f32) (j : S_.Idx) :
    anyOn w j = FloatOps.uitofp .f32 (FloatOps.cmpf .ogt (∑ k : Fin 512, w (at512 k)) (0 : Ideal .f32)) := by
  unfold anyOn
  show FloatOps.uitofp .f32 (FloatOps.cmpf .ogt (total w j) (constant (F := Ideal) S_ .f32 0x00000000#32 j)) = _
  rw [total_apply, constant_apply, Ideal.ofBits_zero_f32]

/-! ## Joined vectors -/

section
variable {F : FTy → Type} [FloatOps F]

/-- The first half of a joined vector is the first piece. -/
theorem cat2_apply_left (a b : FVec F S1024 .f32) (k : Fin 2048) (h : k.val < 1024) :
    cat2 a b (at2048 k) = a (at1024 ⟨k.val, h⟩) :=
  concatenate_pair_apply_left 0 a b concatenates_S1024_S1024_S2048_d0 (at2048 k) rfl (at1024 ⟨k.val, h⟩)
    (fun b => match b with | ⟨0, _⟩ => rfl)

/-- The second half of a joined vector is the second piece. -/
theorem cat2_apply_right (a b : FVec F S1024 .f32) (k : Fin 2048) (h : 1024 ≤ k.val) :
    cat2 a b (at2048 k) = b (at1024 ⟨k.val - 1024, by omega⟩) :=
  concatenate_pair_apply_right 0 a b concatenates_S1024_S1024_S2048_d0 (at2048 k) rfl rfl (at1024 ⟨k.val - 1024, by omega⟩)
    (fun b hb => match b, hb with | ⟨0, _⟩, hb => absurd rfl hb)
    (by show k.val - 1024 + 1024 = k.val; omega)

end

/-! ## Contractions -/

theorem dotW_lhs0 (i : S1024.Idx) (q : dot_S2048_S2048x1024_S1024_0_0_n_1_n_n.contr.Idx) :
    (dot_S2048_S2048x1024_S1024_0_0_n_1_n_n.lhsIdx i q 0).val = (q ⟨0, by decide⟩).val :=
  dot_S2048_S2048x1024_S1024_0_0_n_1_n_n.lhsIdx_val_of_single rfl i q
theorem dotW_rhs0 (i : S1024.Idx) (q : dot_S2048_S2048x1024_S1024_0_0_n_1_n_n.contr.Idx) :
    (dot_S2048_S2048x1024_S1024_0_0_n_1_n_n.rhsIdx i q 0).val = (q ⟨0, by decide⟩).val :=
  dot_S2048_S2048x1024_S1024_0_0_n_1_n_n.rhsIdx_val_of_single rfl i q
theorem dotW_rhs1 (i : S1024.Idx) (q : dot_S2048_S2048x1024_S1024_0_0_n_1_n_n.contr.Idx) :
    (dot_S2048_S2048x1024_S1024_0_0_n_1_n_n.rhsIdx i q 1).val = (i 0).val := by
  unfold DotDims.rhsIdx
  rw [dif_neg (show ¬(1 : Fin S2048x1024.rank) ∈ dot_S2048_S2048x1024_S1024_0_0_n_1_n_n.rhsBatch by decide), dif_pos (show (1 : Fin S2048x1024.rank) ∈ dot_S2048_S2048x1024_S1024_0_0_n_1_n_n.rhsNonContracting by decide)]
  rfl
/-- A vector of 2048 against a 2048×1024 matrix, at a column: the sum over the 2048 of entry times entry. -/
theorem dotW_apply (x : FVec Ideal S2048 .f32) (y : FVec Ideal S2048x1024 .f32) (c : Fin 1024) :
    Host.dotGeneral dot_S2048_S2048x1024_S1024_0_0_n_1_n_n none x y (at1024 c) = ∑ k : Fin 2048, x (at2048 k) * y (at2048x1024 k c) := by
  simp only [Host.dotGeneral]
  rw [Ideal.dotGeneral_apply, ← Equiv.sum_comp (ValueIdx.contrEquiv1 dot_S2048_S2048x1024_S1024_0_0_n_1_n_n 2048 rfl rfl).symm]
  refine Finset.sum_congr rfl fun k _ => ?_
  have hk := ValueIdx.contrEquiv1_symm_val dot_S2048_S2048x1024_S1024_0_0_n_1_n_n 2048 rfl rfl k
  have el : dot_S2048_S2048x1024_S1024_0_0_n_1_n_n.lhsIdx (at1024 c) ((ValueIdx.contrEquiv1 dot_S2048_S2048x1024_S1024_0_0_n_1_n_n 2048 rfl rfl).symm k) = at2048 k := funext fun a => Fin.ext (by
    match a with
    | ⟨0, _⟩ => exact (dotW_lhs0 _ _).trans hk)
  have er : dot_S2048_S2048x1024_S1024_0_0_n_1_n_n.rhsIdx (at1024 c) ((ValueIdx.contrEquiv1 dot_S2048_S2048x1024_S1024_0_0_n_1_n_n 2048 rfl rfl).symm k) = at2048x1024 k c := funext fun a => Fin.ext (by
    match a with
    | ⟨0, _⟩ => exact (dotW_rhs0 _ _).trans hk
    | ⟨1, _⟩ => exact dotW_rhs1 _ _)
  rw [el, er]

theorem dotM_lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dotM_lhs1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem dotM_rhs0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem dotM_rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- The 512×1024 rows against a 1024×1024 matrix, at a row and a column: the sum over the 1024 of entry times entry. -/
theorem dotM_apply (x : FVec Ideal S512x1024 .f32) (y : FVec Ideal S1024x1024 .f32) (r : Fin 512) (c : Fin 1024) :
    Host.dotGeneral dot_S512x1024_S1024x1024_S512x1024_1_0_0_1_n_n none x y (at512x1024 r c) = ∑ k : Fin 1024, x (at512x1024 r k) * y (at1024x1024 k c) := by
  simp only [Host.dotGeneral]
  rw [Ideal.dotGeneral_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (at512x1024 r c) ((ValueIdx.contrEquiv1 dot_S512x1024_S1024x1024_S512x1024_1_0_0_1_n_n 1024 rfl rfl).symm k) = at512x1024 r k := funext fun a => Fin.ext (by
    match a with
    | ⟨0, _⟩ => exact dotM_lhs0 _ _
    | ⟨1, _⟩ => exact (dotM_lhs1 _ _).trans hk)
  have er : dot_S512x1024_S1024x1024_S512x1024_1_0_0_1_n_n.rhsIdx (at512x1024 r c) ((ValueIdx.contrEquiv1 dot_S512x1024_S1024x1024_S512x1024_1_0_0_1_n_n 1024 rfl rfl).symm k) = at1024x1024 k c := funext fun a => Fin.ext (by
    match a with
    | ⟨0, _⟩ => exact (dotM_rhs0 _ _).trans hk
    | ⟨1, _⟩ => exact dotM_rhs1 _ _)
  rw [el, er]

theorem dotG_lhs0 (i : S3.Idx) (q : dot_S2048_S2048x3_S3_0_0_n_1_n_n.contr.Idx) :
    (dot_S2048_S2048x3_S3_0_0_n_1_n_n.lhsIdx i q 0).val = (q ⟨0, by decide⟩).val :=
  dot_S2048_S2048x3_S3_0_0_n_1_n_n.lhsIdx_val_of_single rfl i q
theorem dotG_rhs0 (i : S3.Idx) (q : dot_S2048_S2048x3_S3_0_0_n_1_n_n.contr.Idx) :
    (dot_S2048_S2048x3_S3_0_0_n_1_n_n.rhsIdx i q 0).val = (q ⟨0, by decide⟩).val :=
  dot_S2048_S2048x3_S3_0_0_n_1_n_n.rhsIdx_val_of_single rfl i q
theorem dotG_rhs1 (i : S3.Idx) (q : dot_S2048_S2048x3_S3_0_0_n_1_n_n.contr.Idx) :
    (dot_S2048_S2048x3_S3_0_0_n_1_n_n.rhsIdx i q 1).val = (i 0).val := by
  unfold DotDims.rhsIdx
  rw [dif_neg (show ¬(1 : Fin S2048x3.rank) ∈ dot_S2048_S2048x3_S3_0_0_n_1_n_n.rhsBatch by decide), dif_pos (show (1 : Fin S2048x3.rank) ∈ dot_S2048_S2048x3_S3_0_0_n_1_n_n.rhsNonContracting by decide)]
  rfl
/-- A vector of 2048 against a 2048×3 matrix, at one of the three columns. -/
theorem dotG_apply (x : FVec Ideal S2048 .f32) (y : FVec Ideal S2048x3 .f32) (c : Fin 3) :
    Host.dotGeneral dot_S2048_S2048x3_S3_0_0_n_1_n_n none x y (at3 c) = ∑ k : Fin 2048, x (at2048 k) * y (at2048x3 k c) := by
  simp only [Host.dotGeneral]
  rw [Ideal.dotGeneral_apply, ← Equiv.sum_comp (ValueIdx.contrEquiv1 dot_S2048_S2048x3_S3_0_0_n_1_n_n 2048 rfl rfl).symm]
  refine Finset.sum_congr rfl fun k _ => ?_
  have hk := ValueIdx.contrEquiv1_symm_val dot_S2048_S2048x3_S3_0_0_n_1_n_n 2048 rfl rfl k
  have el : dot_S2048_S2048x3_S3_0_0_n_1_n_n.lhsIdx (at3 c) ((ValueIdx.contrEquiv1 dot_S2048_S2048x3_S3_0_0_n_1_n_n 2048 rfl rfl).symm k) = at2048 k := funext fun a => Fin.ext (by
    match a with
    | ⟨0, _⟩ => exact (dotG_lhs0 _ _).trans hk)
  have er : dot_S2048_S2048x3_S3_0_0_n_1_n_n.rhsIdx (at3 c) ((ValueIdx.contrEquiv1 dot_S2048_S2048x3_S3_0_0_n_1_n_n 2048 rfl rfl).symm k) = at2048x3 k c := funext fun a => Fin.ext (by
    match a with
    | ⟨0, _⟩ => exact (dotG_rhs0 _ _).trans hk
    | ⟨1, _⟩ => exact dotG_rhs1 _ _)
  rw [el, er]

/-! ## The experts -/

/-- An expert before its zeroing, at a column: the hyperbolic tangent of the bias plus the sum over the joined vector's
    2048 entries of entry times weight. -/
theorem hidden_apply (s agg : FVec Ideal S1024 .f32) (W : FVec Ideal S2048x1024 .f32) (b : FVec Ideal S1024 .f32) (c : Fin 1024) :
    hidden s agg W b (at1024 c)
      = FloatOps.hostUnary .tanh ((∑ k : Fin 2048, cat2 s agg (at2048 k) * W (at2048x1024 k c)) + b (at1024 c)) := by
  unfold hidden
  show FloatOps.hostUnary .tanh (addf _ b (at1024 c)) = _
  rw [addf_apply, dotW_apply]

/-- An expert at a column: `hidden` times the zeroing factor. -/
theorem expert_apply (s agg : FVec Ideal S1024 .f32) (W : FVec Ideal S2048x1024 .f32) (b : FVec Ideal S1024 .f32)
    (w : FVec Ideal S512 .f32) (c : Fin 1024) :
    expert s agg W b w (at1024 c) = hidden s agg W b (at1024 c) * anyOn w ix0 := by
  unfold expert
  rw [mulf_apply, bcast1024_apply]

/-- A message at a row and a column: the hyperbolic tangent of the bias plus the row against the matrix's column. -/
theorem msg_apply (vals : FVec Ideal S512x1024 .f32) (W1 : FVec Ideal S1024x1024 .f32) (b1 : FVec Ideal S1024 .f32)
    (r : Fin 512) (c : Fin 1024) :
    msg vals W1 b1 (at512x1024 r c)
      = FloatOps.hostUnary .tanh ((∑ k : Fin 1024, vals (at512x1024 r k) * W1 (at1024x1024 k c)) + b1 (at1024 c)) := by
  unfold msg
  show FloatOps.hostUnary .tanh (addf _ _ (at512x1024 r c)) = _
  rw [addf_apply, dotM_apply, colBias_apply]

/-- The plain mean of the rows, at a column: their sum over 512. -/
theorem nbrMean_apply (vals : FVec Ideal S512x1024 .f32) (c : Fin 1024) :
    nbrMean vals (at1024 c) = Ideal.div (∑ k : Fin 512, vals (at512x1024 k c)) (Ideal.ofBits .f32 0x44000000#32) := by
  unfold nbrMean
  rw [hostDivf_apply, sumRows_apply, bcast1024_apply, constant_apply]

/-- A gate's score: the bias plus the joined vector against the matrix's column. -/
theorem logits_apply (s : FVec Ideal S1024 .f32) (vals : FVec Ideal S512x1024 .f32) (Wg : FVec Ideal S2048x3 .f32)
    (bg : FVec Ideal S3 .f32) (c : Fin 3) :
    logits s vals Wg bg (at3 c) = (∑ k : Fin 2048, cat2 s (nbrMean vals) (at2048 k) * Wg (at2048x3 k c)) + bg (at3 c) := by
  unfold logits
  rw [addf_apply, dotG_apply]

/-! ## The gates -/

/-- A scalar repeated three times reads the scalar. -/
theorem spread3_apply (x : FVec Ideal S_ .f32) (j : S3.Idx) : spread3 x j = x ix0 := by
  unfold spread3
  rw [broadcastInDim_apply _ _ _ j at1 (fun a => match a with | ⟨0, _⟩ => rfl)]
  exact broadcastInDim_scalar_apply _ x _

/-- The largest of three scores (the fold of the maximum from minus infinity, taken once more against minus infinity). -/
noncomputable def zmax (z : FVec Ideal S3 .f32) : Ideal .f32 :=
  maximumf (constant S_ .f32 0xFF800000#32)
    (Host.reduce FloatOps.maximumf z (constant S_ .f32 0xFF800000#32) reducesTo_S3_S_d0 h_S_) ix0

/-- A shifted exponential: the exponential of the score less the largest score. -/
theorem expShift_apply (z : FVec Ideal S3 .f32) (j : S3.Idx) :
    expShift z j = FloatOps.hostUnary .exp (z j - zmax z) := by
  unfold expShift zmax
  show FloatOps.hostUnary .exp (subf z _ j) = _
  rw [subf_apply, spread3_apply]

/-- The sum of three values of a vector of three. -/
theorem sum3_apply (x : FVec Ideal S3 .f32) (j : S_.Idx) :
    Host.reduceAdd x (constant S_ .f32 0x00000000#32) reducesTo_S3_S_d0 h_S_ j = ∑ k : Fin 3, x (at3 k) := by
  simp only [Host.reduceAdd, Ideal.hostReduceAdd_def]
  rw [Ideal.hostReduceAdd_total reducesTo_S3_S_d0 (fun b => b.elim0), constant_apply, Ideal.ofBits_zero_f32, zero_add]
  exact sum_at3 x

/-- The softmax: a shifted exponential over the sum of the three. -/
theorem softmax3_apply (z : FVec Ideal S3 .f32) (j : S3.Idx) :
    softmax3 z j = Ideal.div (expShift z j) (∑ k : Fin 3, expShift z (at3 k)) := by
  unfold softmax3
  rw [hostDivf_apply, spread3_apply, sum3_apply]

/-- A gate is the softmax of the scores. -/
theorem gates_apply (s : FVec Ideal S1024 .f32) (vals : FVec Ideal S512x1024 .f32) (Wg : FVec Ideal S2048x3 .f32)
    (bg : FVec Ideal S3 .f32) (j : S3.Idx) :
    gates s vals Wg bg j
      = Ideal.div (expShift (logits s vals Wg bg) j) (∑ k : Fin 3, expShift (logits s vals Wg bg) (at3 k)) :=
  softmax3_apply _ j

/-! ## The combination -/

/-- The index (0, column `c`) of a one-row table. -/
abbrev at1x1024 (c : Fin 1024) : S1x1024.Idx := fun a => match a with | ⟨0, _⟩ => ⟨0, Nat.zero_lt_one⟩ | ⟨1, _⟩ => ⟨c.val, c.isLt⟩

section
variable {F : FTy → Type} [FloatOps F]

/-- Each row of the stack of three is the row it was stacked from. -/
theorem cat3f_apply0 (u0 u1 u2 : FVec F S1x1024 .f32) (c : Fin 1024) : cat3f u0 u1 u2 (at3x1024 0 c) = u0 (at1x1024 c) :=
  concatenate_apply_piece 0 [⟨S1x1024, u0⟩, ⟨S1x1024, u1⟩, ⟨S1x1024, u2⟩] concatenates_S1x1024_S1x1024_S1x1024_S3x1024_d0 (at3x1024 0 c) 0 (by simp) S1x1024 u0 rfl rfl 0 rfl
    (at1x1024 c) (fun b hb => match b, hb with | ⟨0, _⟩, hb => absurd rfl hb | ⟨1, _⟩, _ => rfl) rfl
@[inherit_doc cat3f_apply0]
theorem cat3f_apply1 (u0 u1 u2 : FVec F S1x1024 .f32) (c : Fin 1024) : cat3f u0 u1 u2 (at3x1024 1 c) = u1 (at1x1024 c) :=
  concatenate_apply_piece 0 [⟨S1x1024, u0⟩, ⟨S1x1024, u1⟩, ⟨S1x1024, u2⟩] concatenates_S1x1024_S1x1024_S1x1024_S3x1024_d0 (at3x1024 1 c) 1 (by simp) S1x1024 u1 rfl rfl 1 rfl
    (at1x1024 c) (fun b hb => match b, hb with | ⟨0, _⟩, hb => absurd rfl hb | ⟨1, _⟩, _ => rfl) rfl
@[inherit_doc cat3f_apply0]
theorem cat3f_apply2 (u0 u1 u2 : FVec F S1x1024 .f32) (c : Fin 1024) : cat3f u0 u1 u2 (at3x1024 2 c) = u2 (at1x1024 c) :=
  concatenate_apply_piece 0 [⟨S1x1024, u0⟩, ⟨S1x1024, u1⟩, ⟨S1x1024, u2⟩] concatenates_S1x1024_S1x1024_S1x1024_S3x1024_d0 (at3x1024 2 c) 2 (by simp) S1x1024 u2 rfl rfl 2 rfl
    (at1x1024 c) (fun b hb => match b, hb with | ⟨0, _⟩, hb => absurd rfl hb | ⟨1, _⟩, _ => rfl) rfl

/-- A vector of 1024 as a one-row table reads the vector. -/
theorem asRow_apply {α : Type} (e : S1024.Idx → α) (c : Fin 1024) :
    broadcastInDim S1x1024 ![1] bcast_S1024_S1x1024_1 e (at1x1024 c) = e (at1024 c) :=
  broadcastInDim_apply _ _ _ _ (at1024 c) (fun a => match a with | ⟨0, _⟩ => rfl)

/-- A gate per row, repeated along each row of 1024. -/
theorem gateRow_apply {α : Type} (g : S3.Idx → α) (r : Fin 3) (c : Fin 1024) :
    broadcastInDim S3x1024 ![0, 1] bcast_S3x1_S3x1024_0_1 (broadcastInDim S3x1 ![0] bcast_S3_S3x1_0 g) (at3x1024 r c) = g (at3 r) := by
  rw [broadcastInDim_apply _ _ _ (at3x1024 r c) (fun a => match a with | ⟨0, _⟩ => ⟨r.val, r.isLt⟩ | ⟨1, _⟩ => ⟨0, Nat.zero_lt_one⟩)
    (fun a => match a with | ⟨0, _⟩ => rfl | ⟨1, _⟩ => rfl)]
  exact broadcastInDim_apply _ _ _ _ (at3 r) (fun a => match a with | ⟨0, _⟩ => rfl)

end

/-- The combination at a column: gate times expert, summed over the three. -/
theorem mix_apply (g : FVec Ideal S3 .f32) (e0 e1 e2 : FVec Ideal S1024 .f32) (c : Fin 1024) :
    mix g e0 e1 e2 (at1024 c) = g (at3 0) * e0 (at1024 c) + g (at3 1) * e1 (at1024 c) + g (at3 2) * e2 (at1024 c) := by
  unfold mix
  simp only [Host.reduceAdd, Ideal.hostReduceAdd_def]
  rw [Ideal.hostReduceAdd_single reducesTo_S3x1024_S1024_d0 (by decide), constant_apply, Ideal.ofBits_zero_f32, zero_add]
  have e : ∀ k : Fin 3, (Shape.Reduces.lift (by decide : S3x1024.Reduces [0] S1024) (at1024 c) k) = at3x1024 k c :=
    fun k => funext fun a => Fin.ext (by match a with | ⟨0, _⟩ => rfl | ⟨1, _⟩ => rfl)
  show ∑ k : Fin 3, _ = _
  rw [Fin.sum_univ_three, e 0, e 1, e 2, mulf_apply, mulf_apply, mulf_apply, gateRow_apply, gateRow_apply, gateRow_apply,
    cat3f_apply0, cat3f_apply1, cat3f_apply2, asRow_apply, asRow_apply, asRow_apply]

/-- The result at a column: the three gates' combination of the three experts. -/
theorem out_apply (a0 : FVec Ideal S1024 .f32) (a1 : FVec Ideal S512x1024 .f32) (a2 : IVec S_ 32) (a3 : IVec S512 32)
    (a4 : FVec Ideal S2048x1024 .f32) (a5 : FVec Ideal S1024 .f32) (a6 : FVec Ideal S1024x1024 .f32) (a7 : FVec Ideal S1024 .f32)
    (a8 : FVec Ideal S2048x1024 .f32) (a9 : FVec Ideal S1024 .f32) (a10 : FVec Ideal S2048x1024 .f32) (a11 : FVec Ideal S1024 .f32)
    (a12 : FVec Ideal S2048x3 .f32) (a13 : FVec Ideal S3 .f32) (c : Fin 1024) :
    out a0 a1 a2 a3 a4 a5 a6 a7 a8 a9 a10 a11 a12 a13 (at1024 c)
      = gates a0 a1 a12 a13 (at3 0)
          * expert a0 (maskedMean (localMask (F := Ideal) a2 a3) a1) a4 a5 (localMask (F := Ideal) a2 a3) (at1024 c)
        + gates a0 a1 a12 a13 (at3 1)
          * expert a0 (maskedMean (funcMask (F := Ideal) a2 a3) (msg a1 a6 a7)) a8 a9 (funcMask (F := Ideal) a2 a3) (at1024 c)
        + gates a0 a1 a12 a13 (at3 2)
          * expert a0 (maskedMean (distantMask (F := Ideal) a2 a3) a1) a10 a11 (distantMask (F := Ideal) a2 a3) (at1024 c) := by
  unfold out
  exact mix_apply _ _ _ _ c

/-! ## The weights -/

/-- The local weight of a neighbour: 1 when its distance is at most 1.8. -/
theorem localMask_apply (i : IVec S_ 32) (n : IVec S512 32) (j : S512.Idx) :
    localMask (F := Ideal) i n j
      = FloatOps.uitofp .f32 (FloatOps.cmpf .ole (dist (F := Ideal) i n j) (Ideal.ofBits .f32 0x3FE66666#32)) := by
  unfold localMask
  show FloatOps.uitofp .f32 (FloatOps.cmpf .ole (dist (F := Ideal) i n j) (splat (constant (F := Ideal) S_ .f32 0x3FE66666#32) j)) = _
  rw [splat_apply, constant_apply]

/-- The distant weight of a neighbour: 1 when its distance is at least 5. -/
theorem distantMask_apply (i : IVec S_ 32) (n : IVec S512 32) (j : S512.Idx) :
    distantMask (F := Ideal) i n j
      = FloatOps.uitofp .f32 (FloatOps.cmpf .oge (dist (F := Ideal) i n j) (Ideal.ofBits .f32 0x40A00000#32)) := by
  unfold distantMask
  show FloatOps.uitofp .f32 (FloatOps.cmpf .oge (dist (F := Ideal) i n j) (splat (constant (F := Ideal) S_ .f32 0x40A00000#32) j)) = _
  rw [splat_apply, constant_apply]

/-- The middle weight of a neighbour: the product of the other two's complements. -/
theorem funcMask_apply (i : IVec S_ 32) (n : IVec S512 32) (j : S512.Idx) :
    funcMask (F := Ideal) i n j = (1 - localMask (F := Ideal) i n j) * (1 - distantMask (F := Ideal) i n j) := by
  unfold funcMask
  rw [mulf_apply, subf_apply, subf_apply, splat_apply, constant_apply, Ideal.ofBits_one_f32]

/-- A neighbour's distance: the square root of its squared distance plus the constant 1e-12. -/
theorem dist_apply (i : IVec S_ 32) (n : IVec S512 32) (j : S512.Idx) :
    dist (F := Ideal) i n j = FloatOps.hostUnary .sqrt (sqDist (F := Ideal) i n j + Ideal.ofBits .f32 0x2B8CBCCC#32) := by
  unfold dist
  show FloatOps.hostUnary .sqrt (addf _ _ j) = _
  rw [addf_apply, splat_apply, constant_apply]

/-- A neighbour's squared distance: the sum of its three squared coordinate differences. -/
theorem sqDist_apply (i : IVec S_ 32) (n : IVec S512 32) (r : Fin 512) :
    sqDist (F := Ideal) i n (at512 r)
      = ∑ k : Fin 3, diff (F := Ideal) i n (at512x3 r k) * diff (F := Ideal) i n (at512x3 r k) := by
  unfold sqDist
  simp only [Host.reduceAdd, Ideal.hostReduceAdd_def]
  rw [Ideal.hostReduceAdd_single reducesTo_S512x3_S512_d1 (by decide), constant_apply, Ideal.ofBits_zero_f32, zero_add]
  refine Finset.sum_congr rfl fun k _ => ?_
  have e : (Shape.Reduces.lift (by decide : S512x3.Reduces [1] S512) (at512 r) k) = at512x3 r ⟨k.val, k.isLt⟩ :=
    funext fun a => Fin.ext (by match a with | ⟨0, _⟩ => rfl | ⟨1, _⟩ => rfl)
  rw [e, mulf_apply]

/-- A coordinate difference: the neighbour's coordinate less the cell's. -/
theorem diff_apply (i : IVec S_ 32) (n : IVec S512 32) (r : Fin 512) (k : Fin 3) :
    diff (F := Ideal) i n (at512x3 r k) = nbrCoords (F := Ideal) n (at512x3 r k) - cellCoords (F := Ideal) i (at3 k) := by
  unfold diff
  rw [subf_apply, broadcastInDim_apply _ _ _ (at512x3 r k) (fun a => match a with | ⟨0, _⟩ => ⟨0, Nat.zero_lt_one⟩ | ⟨1, _⟩ => ⟨k.val, k.isLt⟩)
    (fun a => match a with | ⟨0, _⟩ => rfl | ⟨1, _⟩ => rfl)]
  rw [broadcastInDim_apply _ _ _ _ (at3 k) (fun a => match a with | ⟨0, _⟩ => rfl)]

/-! ## The lattice coordinates -/

/-- The index (row `r`, 0) of a one-column table, and the one index of a one-element vector. -/
abbrev at512x1 (r : Fin 512) : S512x1.Idx := fun a => match a with | ⟨0, _⟩ => ⟨r.val, r.isLt⟩ | ⟨1, _⟩ => ⟨0, Nat.zero_lt_one⟩

/-- Each column of the 512×3 table is the column it was joined from. -/
theorem cat3v_apply0 (u0 u1 u2 : IVec S512x1 32) (r : Fin 512) : cat3v u0 u1 u2 (at512x3 r 0) = u0 (at512x1 r) :=
  concatenate_apply_piece 1 [⟨S512x1, u0⟩, ⟨S512x1, u1⟩, ⟨S512x1, u2⟩] concatenates_S512x1_S512x1_S512x1_S512x3_d1 (at512x3 r 0) 0 (by simp) S512x1 u0 rfl rfl 0 rfl
    (at512x1 r) (fun b hb => match b, hb with | ⟨0, _⟩, _ => rfl | ⟨1, _⟩, hb => absurd rfl hb) rfl
@[inherit_doc cat3v_apply0]
theorem cat3v_apply1 (u0 u1 u2 : IVec S512x1 32) (r : Fin 512) : cat3v u0 u1 u2 (at512x3 r 1) = u1 (at512x1 r) :=
  concatenate_apply_piece 1 [⟨S512x1, u0⟩, ⟨S512x1, u1⟩, ⟨S512x1, u2⟩] concatenates_S512x1_S512x1_S512x1_S512x3_d1 (at512x3 r 1) 1 (by simp) S512x1 u1 rfl rfl 1 rfl
    (at512x1 r) (fun b hb => match b, hb with | ⟨0, _⟩, _ => rfl | ⟨1, _⟩, hb => absurd rfl hb) rfl
@[inherit_doc cat3v_apply0]
theorem cat3v_apply2 (u0 u1 u2 : IVec S512x1 32) (r : Fin 512) : cat3v u0 u1 u2 (at512x3 r 2) = u2 (at512x1 r) :=
  concatenate_apply_piece 1 [⟨S512x1, u0⟩, ⟨S512x1, u1⟩, ⟨S512x1, u2⟩] concatenates_S512x1_S512x1_S512x1_S512x3_d1 (at512x3 r 2) 2 (by simp) S512x1 u2 rfl rfl 2 rfl
    (at512x1 r) (fun b hb => match b, hb with | ⟨0, _⟩, _ => rfl | ⟨1, _⟩, hb => absurd rfl hb) rfl

/-- A vector of 512 as a one-column table reads the vector. -/
theorem asCol_apply {α : Type} (w : S512.Idx → α) (r : Fin 512) :
    broadcastInDim S512x1 ![0] bcast_S512_S512x1_0 w (at512x1 r) = w (at512 r) :=
  broadcastInDim_apply _ _ _ _ (at512 r) (fun a => match a with | ⟨0, _⟩ => rfl)

/-- A neighbour's three coordinates as floats: the first, the middle and the last. -/
theorem nbrCoords_apply0 (n : IVec S512 32) (r : Fin 512) :
    nbrCoords (F := Ideal) n (at512x3 r 0) = FloatOps.sitofp .f32 (nbrX n (at512 r)) := by
  unfold nbrCoords; rw [sitofp_apply, cat3v_apply0, asCol_apply]
@[inherit_doc nbrCoords_apply0]
theorem nbrCoords_apply1 (n : IVec S512 32) (r : Fin 512) :
    nbrCoords (F := Ideal) n (at512x3 r 1) = FloatOps.sitofp .f32 (nbrY n (at512 r)) := by
  unfold nbrCoords; rw [sitofp_apply, cat3v_apply1, asCol_apply]
@[inherit_doc nbrCoords_apply0]
theorem nbrCoords_apply2 (n : IVec S512 32) (r : Fin 512) :
    nbrCoords (F := Ideal) n (at512x3 r 2) = FloatOps.sitofp .f32 (nbrZ n (at512 r)) := by
  unfold nbrCoords; rw [sitofp_apply, cat3v_apply2, asCol_apply]

/-- Each entry of the vector of three is the one-element vector it was joined from. -/
theorem cat3i_apply0 (u0 u1 u2 : IVec S1 32) : cat3i u0 u1 u2 (at3 0) = u0 at1 :=
  concatenate_apply_piece 0 [⟨S1, u0⟩, ⟨S1, u1⟩, ⟨S1, u2⟩] concatenates_S1_S1_S1_S3_d0 (at3 0) 0 (by simp) S1 u0 rfl rfl 0 rfl
    at1 (fun b hb => match b, hb with | ⟨0, _⟩, hb => absurd rfl hb) rfl
@[inherit_doc cat3i_apply0]
theorem cat3i_apply1 (u0 u1 u2 : IVec S1 32) : cat3i u0 u1 u2 (at3 1) = u1 at1 :=
  concatenate_apply_piece 0 [⟨S1, u0⟩, ⟨S1, u1⟩, ⟨S1, u2⟩] concatenates_S1_S1_S1_S3_d0 (at3 1) 1 (by simp) S1 u1 rfl rfl 1 rfl
    at1 (fun b hb => match b, hb with | ⟨0, _⟩, hb => absurd rfl hb) rfl
@[inherit_doc cat3i_apply0]
theorem cat3i_apply2 (u0 u1 u2 : IVec S1 32) : cat3i u0 u1 u2 (at3 2) = u2 at1 :=
  concatenate_apply_piece 0 [⟨S1, u0⟩, ⟨S1, u1⟩, ⟨S1, u2⟩] concatenates_S1_S1_S1_S3_d0 (at3 2) 2 (by simp) S1 u2 rfl rfl 2 rfl
    at1 (fun b hb => match b, hb with | ⟨0, _⟩, hb => absurd rfl hb) rfl

/-- A scalar as a one-element vector reads the scalar. -/
theorem asOne_apply {α : Type} (x : S_.Idx → α) (j : S1.Idx) : broadcastInDim S1 ![] bcast_S_S1 x j = x ix0 :=
  broadcastInDim_scalar_apply _ x j

/-- The cell's three coordinates as floats: the first, the middle and the last. -/
theorem cellCoords_apply0 (i : IVec S_ 32) : cellCoords (F := Ideal) i (at3 0) = FloatOps.sitofp .f32 (cx i ix0) := by
  unfold cellCoords; rw [sitofp_apply, cat3i_apply0, asOne_apply]
@[inherit_doc cellCoords_apply0]
theorem cellCoords_apply1 (i : IVec S_ 32) : cellCoords (F := Ideal) i (at3 1) = FloatOps.sitofp .f32 (cy i ix0) := by
  unfold cellCoords; rw [sitofp_apply, cat3i_apply1, asOne_apply]
@[inherit_doc cellCoords_apply0]
theorem cellCoords_apply2 (i : IVec S_ 32) : cellCoords (F := Ideal) i (at3 2) = FloatOps.sitofp .f32 (cz i ix0) := by
  unfold cellCoords; rw [sitofp_apply, cat3i_apply2, asOne_apply]

/-! ## The integer quotients and remainders, on words -/

/-- A divisor word with zero replaced by one. -/
def nzW (d : BitVec 32) : BitVec 32 := Scalar.select (IntOp.cmpi .eq d 0#32) 1#32 d

/-- The floored remainder of a word by a word. -/
def remW (a d : BitVec 32) : BitVec 32 :=
  Scalar.select
    (IntOp.andi (IntOp.cmpi .ne (IntOp.cmpi .slt (IntOp.remsi .host a (nzW d)) 0#32) (IntOp.cmpi .slt (nzW d) 0#32))
      (IntOp.cmpi .ne (IntOp.remsi .host a (nzW d)) 0#32))
    (IntOp.addi (IntOp.remsi .host a (nzW d)) (nzW d)) (IntOp.remsi .host a (nzW d))

/-- The sign of a word: 0, −1 or 1. -/
def signW (x : BitVec 32) : BitVec 32 := if x = 0 then 0 else if x.msb then -1 else 1

/-- The floored quotient of a word by a word. -/
def fdivW (a d : BitVec 32) : BitVec 32 :=
  Scalar.select (IntOp.andi (IntOp.cmpi .ne (signW a) (signW d)) (IntOp.cmpi .ne (IntOp.remsi .host a d) 0#32))
    (IntOp.subi (IntOp.divsi .host a d) 1#32) (IntOp.divsi .host a d)

theorem remS_apply (a d : IVec S_ 32) (j : S_.Idx) : remS a d j = remW (a j) (d j) := rfl
theorem fdivS_apply (a d : IVec S_ 32) (j : S_.Idx) : fdivS a d j = fdivW (a j) (d j) := rfl

/-- A scalar repeated over the 512 neighbours is the constant function at the scalar. -/
theorem splat_eq {α : Type} (x : S_.Idx → α) : splat x = fun _ => x ix0 := funext fun j => splat_apply x j

/-- The neighbours' floored remainders and quotients by a scalar are the words', entry by entry. -/
theorem remV_apply (a : IVec S512 32) (d : IVec S_ 32) (j : S512.Idx) : remV a d j = remW (a j) (d ix0) := by
  unfold remV; simp only [splat_eq]; rfl
@[inherit_doc remV_apply]
theorem fdivV_apply (a : IVec S512 32) (d : IVec S_ 32) (j : S512.Idx) : fdivV a d j = fdivW (a j) (d ix0) := by
  unfold fdivV; simp only [splat_eq]; rfl

/-- The cell's and the neighbours' coordinates, on words. -/
theorem cz_apply (i : IVec S_ 32) (j : S_.Idx) : cz i j = remW (i j) 27#32 := rfl
theorem cy_apply (i : IVec S_ 32) (j : S_.Idx) : cy i j = remW (fdivW (i j) 27#32) 27#32 := rfl
theorem cx_apply (i : IVec S_ 32) (j : S_.Idx) : cx i j = fdivW (i j) 729#32 := rfl
theorem nbrZ_apply (n : IVec S512 32) (j : S512.Idx) : nbrZ n j = remW (n j) 27#32 := remV_apply n _ j
theorem nbrY_apply (n : IVec S512 32) (j : S512.Idx) : nbrY n j = remW (fdivW (n j) 27#32) 27#32 := by
  unfold nbrY; rw [remV_apply, fdivV_apply]; rfl
theorem nbrX_apply (n : IVec S512 32) (j : S512.Idx) : nbrX n j = fdivW (n j) 729#32 := fdivV_apply n _ j

/-! ## A sum over a joined vector, by its halves -/

/-- A sum over the 2048 entries of a joined vector against any factors is the sum over the first piece plus the sum
    over the second, each against its own half of the factors. -/
theorem cat2_sum (a b : FVec Ideal S1024 .f32) (f : Fin 2048 → Ideal .f32) :
    ∑ k : Fin 2048, cat2 a b (at2048 k) * f k
      = ∑ k : Fin 1024, a (at1024 k) * f ⟨k.val, by omega⟩ + ∑ k : Fin 1024, b (at1024 k) * f ⟨k.val + 1024, by omega⟩ := by
  have h := Fin.sum_univ_add (fun k : Fin (1024 + 1024) => cat2 a b (at2048 k) * f k)
  refine h.trans (congrArg₂ (· + ·) (Finset.sum_congr rfl fun k _ => ?_) (Finset.sum_congr rfl fun k _ => ?_))
  · show cat2 a b (at2048 (Fin.castAdd 1024 k)) * f (Fin.castAdd 1024 k) = _
    have hk : (Fin.castAdd 1024 k : Fin (1024 + 1024)).val < 1024 := k.isLt
    rw [cat2_apply_left a b (Fin.castAdd 1024 k) hk]
    rfl
  · show cat2 a b (at2048 (Fin.natAdd 1024 k)) * f (Fin.natAdd 1024 k) = _
    have hk : 1024 ≤ (Fin.natAdd 1024 k : Fin (1024 + 1024)).val := Nat.le_add_right 1024 k.val
    rw [cat2_apply_right a b (Fin.natAdd 1024 k) hk]
    have e1 : (at1024 ⟨(Fin.natAdd 1024 k : Fin (1024 + 1024)).val - 1024, by
        show 1024 + k.val - 1024 < 1024; omega⟩ : S1024.Idx) = at1024 k :=
      funext fun x => Fin.ext (by match x with | ⟨0, _⟩ => show 1024 + k.val - 1024 = k.val; omega)
    have e2 : (Fin.natAdd 1024 k : Fin (1024 + 1024)) = ⟨k.val + 1024, by omega⟩ := Fin.ext (Nat.add_comm 1024 k.val)
    rw [e1, e2]

/-- An expert before its zeroing, at a column, with the state's and the mean's halves of the sum apart. -/
theorem hidden_apply_halves (s agg : FVec Ideal S1024 .f32) (W : FVec Ideal S2048x1024 .f32) (b : FVec Ideal S1024 .f32) (c : Fin 1024) :
    hidden s agg W b (at1024 c)
      = FloatOps.hostUnary .tanh
          ((∑ k : Fin 1024, s (at1024 k) * W (at2048x1024 ⟨k.val, by omega⟩ c)
            + ∑ k : Fin 1024, agg (at1024 k) * W (at2048x1024 ⟨k.val + 1024, by omega⟩ c)) + b (at1024 c)) := by
  rw [hidden_apply, cat2_sum s agg fun k => W (at2048x1024 k c)]

/-- A gate's score with the state's and the mean's halves of the sum apart. -/
theorem logits_apply_halves (s : FVec Ideal S1024 .f32) (vals : FVec Ideal S512x1024 .f32) (Wg : FVec Ideal S2048x3 .f32)
    (bg : FVec Ideal S3 .f32) (c : Fin 3) :
    logits s vals Wg bg (at3 c)
      = (∑ k : Fin 1024, s (at1024 k) * Wg (at2048x3 ⟨k.val, by omega⟩ c)
          + ∑ k : Fin 1024, nbrMean vals (at1024 k) * Wg (at2048x3 ⟨k.val + 1024, by omega⟩ c)) + bg (at3 c) := by
  rw [logits_apply, cat2_sum s (nbrMean vals) fun k => Wg (at2048x3 k c)]

end Cert.ReferenceIdeal.RefRun
-- ==== Proof.RefSpec.lean ====
/-
  The reference's inputs and its three weights, decoded.

  The precondition is the conjunction of fourteen tests, each reduced by `and` over an array: for each of the twelve
  float arrays that the absolute value of every entry is below a bound, for the cell's index that it is at least and at
  most 9841, for each of the 512 neighbour indices that it is at least 0 and at most 19682. An extended real whose
  absolute value is below any bound is neither infinity, so it is a real number; an integer word between 9841 and 9841
  is the word 9841.

  On a nonnegative word the floored quotient and remainder by 27 and by 729 are the natural-number quotient and
  remainder, so the three lattice coordinates of a neighbour index `v` are `v / 729`, `v / 27 % 27` and `v % 27`, and
  those of the cell 9841 = 13·729 + 13·27 + 13 are 13, 13 and 13. The squared distance of a neighbour to the cell is then
  the natural number `D`, the sum of the three squared coordinate differences, and the three weights are
  1 where `D ≤ 3`, 1 where `25 ≤ D`, and the product of the two complements.
-/
import proofs.«211217_g68642167325227_cont_9to1_m_1168_22_alg».proof.Proof.RefRead
import proofs.«211217_g68642167325227_cont_9to1_m_1168_22_alg».proof.Proof.LibLattice
import proofs.«211217_g68642167325227_cont_9to1_m_1168_22_alg».proof.Proof.LibExperts
import Idealize.ShloMosaic.Lib.ReduceAll

namespace Cert.ReferenceIdeal.RefSpec

open Idealize.ShloMosaic Idealize.ShloMosaic.ValueIdx Cert.ReferenceIdeal.RefRun

/-! ## The precondition, decoded -/

/-- Every entry of a float array is a real number. -/
def IsReal {s : Shape} (x : FVec Ideal s .f32) : Prop := ∀ j, ∃ r : ℝ, x j = ((r : ℝ) : EReal)

/-- An extended real whose absolute value tests below some bound is a real number: the bound is at most +∞, and the
    absolute value of either infinity is +∞. -/
theorem real_of_abs_lt (x c : EReal) (h : Ideal.cmp .olt (max x (-x)) c = 1#1) : ∃ r : ℝ, x = ((r : ℝ) : EReal) := by
  have hlt : max x (-x) < c := by
    by_contra hn
    have h0 : Ideal.cmp .olt (max x (-x)) c = 0#1 := by simp [Ideal.cmp, hn]
    rw [h0] at h
    exact absurd h (by decide)
  have htop : max x (-x) < ⊤ := lt_of_lt_of_le hlt le_top
  induction x using EReal.rec with
  | bot => simp at htop
  | coe r => exact ⟨r, rfl⟩
  | top => simp at htop

instance : Subsingleton Cert.Pre_input_domain.S_.Idx := ⟨fun a b => funext fun d => d.elim0⟩

/-- A float array whose `all |x| < bound` test came out 1 holds real numbers only. -/
theorem isReal_of_all {s : Shape} {axes : List (Fin s.rank)} (x bound : FVec Ideal s .f32)
    (init : Cert.Pre_input_domain.S_.Idx → BitVec 1) (hr : s.ReducesTo axes Cert.Pre_input_domain.S_)
    (hu : 0 < Cert.Pre_input_domain.S_.numel)
    (h : Host.reduce IntOp.andi (cmpf .olt (Host.absf x) bound) init hr hu ix0 = 1#1) : IsReal x := fun j =>
  real_of_abs_lt (x j) (bound j) (Host.reduce_andi_all _ init hr hu ix0 h j)

section
open Cert.Pre_input_domain

/-- The precondition of the fourteen argument arrays says: every float entry is a real number, the cell's index is the
    word 9841, and every neighbour index is between 0 and 19682. -/
theorem pre_decode [Cert.Pre_input_domain.Facts]
    (a0 : FVec Ideal S1024 .f32) (a1 : FVec Ideal S512x1024 .f32) (a2 : IVec S_ 32) (a3 : IVec S512 32)
    (a4 : FVec Ideal S2048x1024 .f32) (a5 : FVec Ideal S1024 .f32) (a6 : FVec Ideal S1024x1024 .f32) (a7 : FVec Ideal S1024 .f32)
    (a8 : FVec Ideal S2048x1024 .f32) (a9 : FVec Ideal S1024 .f32) (a10 : FVec Ideal S2048x1024 .f32) (a11 : FVec Ideal S1024 .f32)
    (a12 : FVec Ideal S2048x3 .f32) (a13 : FVec Ideal S3 .f32)
    (h : Cert.Pre_input_domain.fn (F := Ideal) a0 a1 a2 a3 a4 a5 a6 a7 a8 a9 a10 a11 a12 a13 = fun _ => 1#1) :
    IsReal a0 ∧ IsReal a1 ∧ IsReal a4 ∧ IsReal a5 ∧ IsReal a6 ∧ IsReal a7 ∧ IsReal a8 ∧ IsReal a9 ∧ IsReal a10
      ∧ IsReal a11 ∧ IsReal a12 ∧ IsReal a13 ∧ a2 ix0 = 9841#32 ∧ ∀ j, 0 ≤ (a3 j).toInt ∧ (a3 j).toInt ≤ 19682 := by
  have h0 := congrFun h ix0
  dsimp only [Cert.Pre_input_domain.fn, Cert.Pre_input_domain.fn_part1, Cert.Pre_input_domain.fn_part2,
    Cert.Pre_input_domain.fn_part3, Cert.Pre_input_domain.fn_part4, andi] at h0
  simp only [IntOp.andi_eq_one] at h0
  obtain ⟨⟨⟨⟨⟨⟨⟨⟨⟨⟨⟨⟨⟨h3, h7⟩, h12⟩, h17⟩, h22⟩, h27⟩, h32⟩, h37⟩, h42⟩, h47⟩, h52⟩, h57⟩, h62⟩, h69⟩ := h0
  refine ⟨isReal_of_all _ _ _ _ _ h3, isReal_of_all _ _ _ _ _ h7, isReal_of_all _ _ _ _ _ h12, isReal_of_all _ _ _ _ _ h17,
    isReal_of_all _ _ _ _ _ h22, isReal_of_all _ _ _ _ _ h27, isReal_of_all _ _ _ _ _ h32, isReal_of_all _ _ _ _ _ h37,
    isReal_of_all _ _ _ _ _ h42, isReal_of_all _ _ _ _ _ h47, isReal_of_all _ _ _ _ _ h52, isReal_of_all _ _ _ _ _ h57, ?_, ?_⟩
  · have e := Host.reduce_andi_all _ _ _ _ ix0 h62 ix0
    obtain ⟨e1, e2⟩ := IntOp.andi_eq_one.1 e
    have g1 : (9841#32 : BitVec 32).toInt ≤ (a2 ix0).toInt := IntOp.cmpi_sge.1 e1
    have g2 : (a2 ix0).toInt ≤ (9841#32 : BitVec 32).toInt := IntOp.cmpi_sle.1 e2
    exact BitVec.eq_of_toInt_eq (le_antisymm g2 g1)
  · intro j
    have e := Host.reduce_andi_all _ _ _ _ ix0 h69 j
    obtain ⟨e1, e2⟩ := IntOp.andi_eq_one.1 e
    have g1 := IntOp.cmpi_sge.1 e1
    have g2 := IntOp.cmpi_sle.1 e2
    rw [broadcastInDim_scalar_apply] at g1 g2
    exact ⟨g1, g2⟩

end

/-! ## The floored quotient and remainder of a nonnegative word -/

theorem nzW_27 : nzW 27#32 = 27#32 := Cert.Lattice.guard_27

/-- The floored remainder of a nonnegative word by 27 is its remainder as a natural number. -/
theorem remW_27 (v : BitVec 32) (hv : 0 ≤ v.toInt) : remW v 27#32 = BitVec.ofNat 32 (v.toNat % 27) := by
  unfold remW
  rw [nzW_27]
  exact Cert.Lattice.remainder_word .host v 27#32 hv (by decide)

/-- The floored quotient of a nonnegative word by 27 is its quotient as a natural number. -/
theorem fdivW_27 (v : BitVec 32) (hv : 0 ≤ v.toInt) : fdivW v 27#32 = BitVec.ofNat 32 (v.toNat / 27) := by
  unfold fdivW signW
  exact Cert.Lattice.floorDivide_word .host v 27#32 hv (by decide)

/-- The floored quotient of a nonnegative word by 729 is its quotient as a natural number. -/
theorem fdivW_729 (v : BitVec 32) (hv : 0 ≤ v.toInt) : fdivW v 729#32 = BitVec.ofNat 32 (v.toNat / 729) := by
  unfold fdivW signW
  exact Cert.Lattice.floorDivide_word .host v 729#32 hv (by decide)

/-- A natural number below 2³¹ as a word reads back, signed and unsigned, as itself. -/
theorem toNat_ofNat_small (k : ℕ) (hk : k < 2 ^ 31) : (BitVec.ofNat 32 k).toNat = k := by
  rw [BitVec.toNat_ofNat]; omega

theorem toInt_ofNat_nonneg (k : ℕ) (hk : k < 2 ^ 31) : 0 ≤ (BitVec.ofNat 32 k).toInt := by
  rw [Cert.Lattice.toInt_ofNat_small k hk]; exact Int.natCast_nonneg k

/-- The middle coordinate: the remainder by 27 of the quotient by 27. -/
theorem remW_fdivW_27 (v : BitVec 32) (hv : 0 ≤ v.toInt) :
    remW (fdivW v 27#32) 27#32 = BitVec.ofNat 32 (v.toNat / 27 % 27) := by
  have hlt : v.toNat / 27 < 2 ^ 31 := lt_of_le_of_lt (Nat.div_le_self _ _) (Cert.Lattice.toNat_lt_of_nonneg hv)
  rw [fdivW_27 v hv, remW_27 _ (toInt_ofNat_nonneg _ hlt), toNat_ofNat_small _ hlt]

/-- The signed conversion of a small natural number's word is the number. -/
theorem sitofp_ofNat' (k : ℕ) (hk : k < 2 ^ 31) :
    FloatOps.sitofp (F := Ideal) .f32 (BitVec.ofNat 32 k) = ((k : ℝ) : EReal) :=
  Cert.Lattice.sitofp_ofNat k hk

/-! ## The coordinates, the squared distance and the three weights -/

/-- A neighbour's index as a natural number. -/
def nbr (n : IVec S512 32) (r : Fin 512) : ℕ := (n (at512 r)).toNat

/-- A neighbour's squared lattice distance to the cell (13, 13, 13), a natural number. -/
def D (n : IVec S512 32) (r : Fin 512) : ℕ :=
  Cert.Lattice.sqDiff (nbr n r / 729) 13 + Cert.Lattice.sqDiff (nbr n r / 27 % 27) 13 + Cert.Lattice.sqDiff (nbr n r % 27) 13

theorem nbr_lt (n : IVec S512 32) (hn : ∀ j, 0 ≤ (n j).toInt) (r : Fin 512) : nbr n r < 2 ^ 31 :=
  Cert.Lattice.toNat_lt_of_nonneg (hn _)

/-- The cell's three coordinates are 13. -/
theorem cellCoords_val (i : IVec S_ 32) (hi : i ix0 = 9841#32) (k : Fin 3) :
    cellCoords (F := Ideal) i (at3 k) = ((13 : ℕ) : ℝ) := by
  have h9 : (0 : ℤ) ≤ (9841#32 : BitVec 32).toInt := by decide
  have e0 : fdivW 9841#32 729#32 = BitVec.ofNat 32 13 := (fdivW_729 _ h9).trans (by decide)
  have e1 : remW (fdivW 9841#32 27#32) 27#32 = BitVec.ofNat 32 13 := (remW_fdivW_27 _ h9).trans (by decide)
  have e2 : remW 9841#32 27#32 = BitVec.ofNat 32 13 := (remW_27 _ h9).trans (by decide)
  match k with
  | ⟨0, _⟩ => exact (cellCoords_apply0 i).trans (by rw [cx_apply, hi, e0]; exact sitofp_ofNat' 13 (by norm_num))
  | ⟨1, _⟩ => exact (cellCoords_apply1 i).trans (by rw [cy_apply, hi, e1]; exact sitofp_ofNat' 13 (by norm_num))
  | ⟨2, _⟩ => exact (cellCoords_apply2 i).trans (by rw [cz_apply, hi, e2]; exact sitofp_ofNat' 13 (by norm_num))

/-- A neighbour's three coordinates are the quotient by 729, the remainder by 27 of the quotient by 27, and the
    remainder by 27 of its index. -/
theorem nbrCoords_val0 (n : IVec S512 32) (hn : ∀ j, 0 ≤ (n j).toInt) (r : Fin 512) :
    nbrCoords (F := Ideal) n (at512x3 r 0) = (((nbr n r / 729 : ℕ) : ℝ) : EReal) := by
  rw [nbrCoords_apply0, nbrX_apply, fdivW_729 _ (hn _)]
  exact sitofp_ofNat' _ (lt_of_le_of_lt (Nat.div_le_self _ _) (nbr_lt n hn r))
@[inherit_doc nbrCoords_val0]
theorem nbrCoords_val1 (n : IVec S512 32) (hn : ∀ j, 0 ≤ (n j).toInt) (r : Fin 512) :
    nbrCoords (F := Ideal) n (at512x3 r 1) = (((nbr n r / 27 % 27 : ℕ) : ℝ) : EReal) := by
  rw [nbrCoords_apply1, nbrY_apply, remW_fdivW_27 _ (hn _)]
  exact sitofp_ofNat' _ (lt_of_le_of_lt ((Nat.mod_le _ _).trans (Nat.div_le_self _ _)) (nbr_lt n hn r))
@[inherit_doc nbrCoords_val0]
theorem nbrCoords_val2 (n : IVec S512 32) (hn : ∀ j, 0 ≤ (n j).toInt) (r : Fin 512) :
    nbrCoords (F := Ideal) n (at512x3 r 2) = (((nbr n r % 27 : ℕ) : ℝ) : EReal) := by
  rw [nbrCoords_apply2, nbrZ_apply, remW_27 _ (hn _)]
  exact sitofp_ofNat' _ (lt_of_le_of_lt (Nat.mod_le _ _) (nbr_lt n hn r))

/-- A neighbour's squared distance to the cell 9841 is the natural number `D`. -/
theorem sqDist_val (i : IVec S_ 32) (n : IVec S512 32) (hi : i ix0 = 9841#32) (hn : ∀ j, 0 ≤ (n j).toInt) (r : Fin 512) :
    sqDist (F := Ideal) i n (at512 r) = (((D n r : ℕ) : ℝ) : EReal) := by
  rw [sqDist_apply, Fin.sum_univ_three, diff_apply, diff_apply, diff_apply, nbrCoords_val0 n hn r, nbrCoords_val1 n hn r,
    nbrCoords_val2 n hn r, cellCoords_val i hi 0, cellCoords_val i hi 1, cellCoords_val i hi 2,
    Cert.Lattice.sub_mul_self, Cert.Lattice.sub_mul_self, Cert.Lattice.sub_mul_self, Cert.Lattice.natCast_add,
    Cert.Lattice.natCast_add]
  rfl

/-- The local weight is 1 where `D ≤ 3`, 0 elsewhere. -/
theorem localMask_val (i : IVec S_ 32) (n : IVec S512 32) (hi : i ix0 = 9841#32) (hn : ∀ j, 0 ≤ (n j).toInt) (r : Fin 512) :
    localMask (F := Ideal) i n (at512 r) = if D n r ≤ 3 then (1 : EReal) else 0 := by
  rw [localMask_apply, dist_apply, sqDist_val i n hi hn r]
  exact Cert.Lattice.mask_near_ref_val (D n r)

/-- The distant weight is 1 where `25 ≤ D`, 0 elsewhere. -/
theorem distantMask_val (i : IVec S_ 32) (n : IVec S512 32) (hi : i ix0 = 9841#32) (hn : ∀ j, 0 ≤ (n j).toInt) (r : Fin 512) :
    distantMask (F := Ideal) i n (at512 r) = if 25 ≤ D n r then (1 : EReal) else 0 := by
  rw [distantMask_apply, dist_apply, sqDist_val i n hi hn r]
  exact Cert.Lattice.mask_far_ref_val (D n r)

/-- The middle weight is the product of the two complements. -/
theorem funcMask_val (i : IVec S_ 32) (n : IVec S512 32) (hi : i ix0 = 9841#32) (hn : ∀ j, 0 ≤ (n j).toInt) (r : Fin 512) :
    funcMask (F := Ideal) i n (at512 r)
      = (1 - (if D n r ≤ 3 then (1 : EReal) else 0)) * (1 - (if 25 ≤ D n r then (1 : EReal) else 0)) := by
  rw [funcMask_apply, localMask_val i n hi hn r, distantMask_val i n hi hn r]

/-! ## The same of the reference's own memory -/

section
open Idealize.ShloMosaic.TcCoe Idealize.SL.Sem

/-- The reference's precondition on a memory says of each device's fourteen argument arrays what `pre_decode` says. -/
theorem pre_decode_ref [Cert.Pre_input_domain.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    IsReal (s := Cert.ReferenceIdeal.S1024) (m ((c.tc : Thread Cert.ReferenceIdeal.nD Cert.ReferenceIdeal.τ).loc Cert.ReferenceIdeal.main_arg0))
      ∧ IsReal (s := Cert.ReferenceIdeal.S512x1024) (m ((c.tc : Thread Cert.ReferenceIdeal.nD Cert.ReferenceIdeal.τ).loc Cert.ReferenceIdeal.main_arg1))
      ∧ IsReal (s := Cert.ReferenceIdeal.S2048x1024) (m ((c.tc : Thread Cert.ReferenceIdeal.nD Cert.ReferenceIdeal.τ).loc Cert.ReferenceIdeal.main_arg4))
      ∧ IsReal (s := Cert.ReferenceIdeal.S1024) (m ((c.tc : Thread Cert.ReferenceIdeal.nD Cert.ReferenceIdeal.τ).loc Cert.ReferenceIdeal.main_arg5))
      ∧ IsReal (s := Cert.ReferenceIdeal.S1024x1024) (m ((c.tc : Thread Cert.ReferenceIdeal.nD Cert.ReferenceIdeal.τ).loc Cert.ReferenceIdeal.main_arg6))
      ∧ IsReal (s := Cert.ReferenceIdeal.S1024) (m ((c.tc : Thread Cert.ReferenceIdeal.nD Cert.ReferenceIdeal.τ).loc Cert.ReferenceIdeal.main_arg7))
      ∧ IsReal (s := Cert.ReferenceIdeal.S2048x1024) (m ((c.tc : Thread Cert.ReferenceIdeal.nD Cert.ReferenceIdeal.τ).loc Cert.ReferenceIdeal.main_arg8))
      ∧ IsReal (s := Cert.ReferenceIdeal.S1024) (m ((c.tc : Thread Cert.ReferenceIdeal.nD Cert.ReferenceIdeal.τ).loc Cert.ReferenceIdeal.main_arg9))
      ∧ IsReal (s := Cert.ReferenceIdeal.S2048x1024) (m ((c.tc : Thread Cert.ReferenceIdeal.nD Cert.ReferenceIdeal.τ).loc Cert.ReferenceIdeal.main_arg10))
      ∧ IsReal (s := Cert.ReferenceIdeal.S1024) (m ((c.tc : Thread Cert.ReferenceIdeal.nD Cert.ReferenceIdeal.τ).loc Cert.ReferenceIdeal.main_arg11))
      ∧ IsReal (s := Cert.ReferenceIdeal.S2048x3) (m ((c.tc : Thread Cert.ReferenceIdeal.nD Cert.ReferenceIdeal.τ).loc Cert.ReferenceIdeal.main_arg12))
      ∧ IsReal (s := Cert.ReferenceIdeal.S3) (m ((c.tc : Thread Cert.ReferenceIdeal.nD Cert.ReferenceIdeal.τ).loc Cert.ReferenceIdeal.main_arg13))
      ∧ (m ((c.tc : Thread Cert.ReferenceIdeal.nD Cert.ReferenceIdeal.τ).loc Cert.ReferenceIdeal.main_arg2)) ix0 = 9841#32
      ∧ ∀ j, 0 ≤ ((m ((c.tc : Thread Cert.ReferenceIdeal.nD Cert.ReferenceIdeal.τ).loc Cert.ReferenceIdeal.main_arg3)) j).toInt ∧ ((m ((c.tc : Thread Cert.ReferenceIdeal.nD Cert.ReferenceIdeal.τ).loc Cert.ReferenceIdeal.main_arg3)) j).toInt ≤ 19682 :=
  pre_decode _ _ _ _ _ _ _ _ _ _ _ _ _ _ (h c)

end

end Cert.ReferenceIdeal.RefSpec
-- ==== Proof.KIValMasks.lean ====
/-
  The first part of the TensorCore kernel's arithmetic at the ideal instance, before its first matrix product:
  the lattice coordinates of the 512 neighbour indices and of the cell, the squared distances, the three weights,
  their sums and the three "any" flags.  Every neighbour index n is a nonnegative word, so its float is the natural
  number n; floor((n + 1/2) * (1/27)) = n div 27 and n - 27 (n div 27) = n mod 27 give the coordinates
  (n div 729, (n div 27) mod 27, n mod 27); the cell 9841 has coordinates (13, 13, 13); the squared distance is the
  natural number D; the weights are 1 where D ≤ 3, 1 where 25 ≤ D, and the product of the two complements.
-/
import proofs.«211217_g68642167325227_cont_9to1_m_1168_22_alg».proof.Proof.Gen.KernelIdeal.Skeleton
import proofs.«211217_g68642167325227_cont_9to1_m_1168_22_alg».proof.Proof.LibLattice
import proofs.«211217_g68642167325227_cont_9to1_m_1168_22_alg».proof.Proof.LibExperts
import proofs.«211217_g68642167325227_cont_9to1_m_1168_22_alg».proof.Proof.RefSpec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.Proof.KI

open Cert.KernelIdeal Cert.KernelIdeal.Gen
open Idealize.ShloMosaic Idealize.ShloMosaic.ValueIdx
open Cert.ReferenceIdeal.RefSpec (D nbr)
open Cert.ReferenceIdeal.RefRun (at512)
open scoped BigOperators

variable [Cert.KernelIdeal.Facts]

/-! ## The named reciprocal -/

/-- The kernel's named constant denotes the rational 1/27. -/
theorem inv_27 : Named.named (F := Ideal) Cert.KernelIdeal.κ "inv_27" (φ := .f32) 0x3D17B426#32 = ((1 / 27 : ℝ) : EReal) :=
  IdealRules.named_const.ideal_named_scalar _ _ _ _ rfl

/-! ## The neighbours' coordinates, as vectors of natural numbers -/

section Coords
variable (v52 : Vec Ideal S1x512 .i32)

/-- A neighbour index as a natural number. -/
abbrev nat52 (j : S1x512.Idx) : ℕ := (v52 j).toNat

variable (hv0 : ∀ j, 0 ≤ (v52 j).toInt)
include hv0

/-- The neighbour indices as floats are the natural numbers they denote. -/
theorem pay2_eq : k1_pay2 (F := Ideal) v52 = fun j => ((nat52 v52 j : ℝ) : EReal) := by
  unfold k1_pay2
  rw [shapeCast_self]
  exact Cert.Lattice.sitofp_vec v52 hv0

/-- The first quotient: n div 27. -/
theorem pay3_eq : k1_pay3 (F := Ideal) v52 = fun j => (((nat52 v52 j / 27 : ℕ) : ℝ) : EReal) := by
  unfold k1_pay3
  rw [pay2_eq v52 hv0]
  exact Cert.Lattice.floor_step_vec (fun j => nat52 v52 j) _ _ (fun _ => rfl) (fun _ => inv_27)

/-- The last coordinate: n mod 27. -/
theorem pay4_eq : k1_pay4 (F := Ideal) v52 = fun j => (((nat52 v52 j % 27 : ℕ) : ℝ) : EReal) := by
  unfold k1_pay4
  rw [pay2_eq v52 hv0, pay3_eq v52 hv0]
  exact Cert.Lattice.rem_step_vec (fun j => nat52 v52 j) _ (fun _ => rfl)

/-- The second quotient: (n div 27) div 27. -/
theorem pay5_eq' : k1_pay5 (F := Ideal) v52 = fun j => (((nat52 v52 j / 27 / 27 : ℕ) : ℝ) : EReal) := by
  unfold k1_pay5
  rw [pay3_eq v52 hv0]
  exact Cert.Lattice.floor_step_vec (fun j => nat52 v52 j / 27) _ _ (fun _ => rfl) (fun _ => inv_27)

/-- The first coordinate: (n div 27) div 27 = n div 729. -/
theorem pay5_eq : k1_pay5 (F := Ideal) v52 = fun j => (((nat52 v52 j / 729 : ℕ) : ℝ) : EReal) := by
  rw [pay5_eq' v52 hv0]
  funext j
  rw [Cert.Lattice.div_div_27]

end Coords

/-! ## The cell's coordinates -/

/-- The cell's index as a float is 9841. -/
theorem pay6_eq : k1_pay6 (F := Ideal) (9841#32 : BitVec 32) = ((9841 : ℕ) : ℝ) :=
  Cert.Lattice.sitofp_scalar_nonneg 9841#32 (by decide)

/-- The cell's first quotient: 9841 div 27 = 364. -/
theorem pay7_eq : k1_pay7 (F := Ideal) (9841#32 : BitVec 32) = ((364 : ℕ) : ℝ) := by
  unfold k1_pay7
  rw [pay6_eq]
  exact Cert.Lattice.floor_step_scalar 9841 _ inv_27

/-- The cell's last coordinate: 9841 mod 27 = 13. -/
theorem pay8_eq : k1_pay8 (F := Ideal) (9841#32 : BitVec 32) = ((13 : ℕ) : ℝ) := by
  unfold k1_pay8
  rw [pay6_eq, pay7_eq]
  exact Cert.Lattice.rem_step_scalar 9841

/-- The cell's first coordinate: 364 div 27 = 13. -/
theorem pay9_eq : k1_pay9 (F := Ideal) (9841#32 : BitVec 32) = ((13 : ℕ) : ℝ) := by
  unfold k1_pay9
  rw [pay7_eq]
  exact Cert.Lattice.floor_step_scalar 364 _ inv_27

/-! ## The squared distance and the three weights -/

section Dist
variable (v52 : Vec Ideal S1x512 .i32)

/-- A neighbour's squared lattice distance to the cell (13, 13, 13), from its staged index. -/
def Dk (j : S1x512.Idx) : ℕ :=
  Cert.Lattice.sqDiff (nat52 v52 j / 729) 13 + Cert.Lattice.sqDiff (nat52 v52 j / 27 % 27) 13
    + Cert.Lattice.sqDiff (nat52 v52 j % 27) 13

variable (hv0 : ∀ j, 0 ≤ (v52 j).toInt)
include hv0

/-- The squared difference of the first coordinates. -/
theorem pay10_eq : k1_pay10 (F := Ideal) v52 (9841#32 : BitVec 32)
    = fun j => (((Cert.Lattice.sqDiff (nat52 v52 j / 729) 13 : ℕ) : ℝ) : EReal) := by
  unfold k1_pay10
  rw [pay5_eq v52 hv0, pay9_eq]
  exact Cert.Lattice.sq_diff_vec (fun j => nat52 v52 j / 729) (fun _ => 13)

/-- The difference of the middle coordinates. -/
theorem pay11_eq : k1_pay11 (F := Ideal) v52 (9841#32 : BitVec 32)
    = fun j => (((nat52 v52 j / 27 % 27 : ℕ) : ℝ) : EReal) - (((13 : ℕ) : ℝ) : EReal) := by
  unfold k1_pay11
  rw [pay3_eq v52 hv0, pay5_eq' v52 hv0, pay7_eq, pay9_eq]
  have hvec := Cert.Lattice.rem_step_vec (s := S1x512) (fun j => nat52 v52 j / 27)
    (broadcast S1x512 (Scalar.ofBits .f32 0x41D80000#32)) (fun _ => rfl)
  have hsc : Scalar.subf (F := Ideal) (φ := .f32) (((364 : ℕ) : ℝ) : EReal)
      (Scalar.mulf (Scalar.ofBits .f32 0x41D80000#32) (((13 : ℕ) : ℝ) : EReal)) = (((13 : ℕ) : ℝ) : EReal) :=
    Cert.Lattice.rem_step_scalar 364
  funext j
  show FloatOps.subf (F := Ideal) (φ := .f32)
      (subf (F := Ideal) (φ := .f32) (fun j => (((nat52 v52 j / 27 : ℕ) : ℝ) : EReal))
        (mulf (broadcast S1x512 (Scalar.ofBits .f32 0x41D80000#32)) (fun j => (((nat52 v52 j / 27 / 27 : ℕ) : ℝ) : EReal))) j)
      (Scalar.subf (F := Ideal) (φ := .f32) (((364 : ℕ) : ℝ) : EReal)
        (Scalar.mulf (Scalar.ofBits .f32 0x41D80000#32) (((13 : ℕ) : ℝ) : EReal))) = _
  rw [hvec, hsc]
  rfl

/-- The squared distance is the natural number D. -/
theorem pay12_eq : k1_pay12 (F := Ideal) (k1_pay4 v52) (k1_pay8 (9841#32 : BitVec 32)) (k1_pay10 v52 (9841#32 : BitVec 32))
      (k1_pay11 v52 (9841#32 : BitVec 32))
    = fun j => (((Dk v52 j : ℕ) : ℝ) : EReal) := by
  unfold k1_pay12
  rw [pay4_eq v52 hv0, pay8_eq, pay10_eq v52 hv0, pay11_eq v52 hv0]
  funext j
  show ((((Cert.Lattice.sqDiff (nat52 v52 j / 729) 13 : ℕ) : ℝ) : EReal)
      + ((((nat52 v52 j / 27 % 27 : ℕ) : ℝ) : EReal) - (((13 : ℕ) : ℝ) : EReal))
        * ((((nat52 v52 j / 27 % 27 : ℕ) : ℝ) : EReal) - (((13 : ℕ) : ℝ) : EReal)))
      + ((((nat52 v52 j % 27 : ℕ) : ℝ) : EReal) - (((13 : ℕ) : ℝ) : EReal))
        * ((((nat52 v52 j % 27 : ℕ) : ℝ) : EReal) - (((13 : ℕ) : ℝ) : EReal)) = _
  rw [Cert.Lattice.sub_mul_self, Cert.Lattice.sub_mul_self, Cert.Lattice.natCast_add, Cert.Lattice.natCast_add]
  rfl

/-- The local weight: 1 where D ≤ 3. -/
theorem pay13_eq : k1_pay13 (F := Ideal) (k1_pay4 v52) (k1_pay8 (9841#32 : BitVec 32)) (k1_pay10 v52 (9841#32 : BitVec 32))
      (k1_pay11 v52 (9841#32 : BitVec 32))
    = fun j => if Dk v52 j ≤ 3 then (1 : EReal) else 0 := by
  unfold k1_pay13
  rw [pay12_eq v52 hv0]
  exact Cert.Lattice.mask_near_kernel_vec (fun j => Dk v52 j) _ (fun _ => rfl) natLt_1_32

/-- The distant weight: 1 where 25 ≤ D. -/
theorem pay14_eq : k1_pay14 (F := Ideal) (k1_pay4 v52) (k1_pay8 (9841#32 : BitVec 32)) (k1_pay10 v52 (9841#32 : BitVec 32))
      (k1_pay11 v52 (9841#32 : BitVec 32))
    = fun j => if 25 ≤ Dk v52 j then (1 : EReal) else 0 := by
  unfold k1_pay14
  rw [pay12_eq v52 hv0]
  exact Cert.Lattice.mask_far_kernel_vec (fun j => Dk v52 j) _ (fun _ => rfl) natLt_1_32

/-- The middle weight: the product of the two complements. -/
theorem pay15_eq : k1_pay15 (F := Ideal) (k1_pay4 v52) (k1_pay8 (9841#32 : BitVec 32)) (k1_pay10 v52 (9841#32 : BitVec 32))
      (k1_pay11 v52 (9841#32 : BitVec 32))
    = fun j => (1 - (if Dk v52 j ≤ 3 then (1 : EReal) else 0)) * (1 - (if 25 ≤ Dk v52 j then (1 : EReal) else 0)) := by
  unfold k1_pay15
  rw [pay13_eq v52 hv0, pay14_eq v52 hv0]
  funext j
  show (Ideal.ofBits .f32 0x3F800000#32 - (if Dk v52 j ≤ 3 then (1 : EReal) else 0))
      * (Ideal.ofBits .f32 0x3F800000#32 - (if 25 ≤ Dk v52 j then (1 : EReal) else 0)) = _
  rw [Cert.Lattice.ofBits_one]

end Dist

/-! ## Sums over the 512 neighbours, and the flags -/

/-- A one-element vector has one index. -/
instance : Subsingleton S1.Idx :=
  ⟨fun a b => funext fun d => match d with | ⟨0, _⟩ => Subsingleton.elim (α := Fin 1) _ _⟩

/-- The kernel's sum of a 1 x 512 vector (re-laid 1 x 1 x 512, reduced over its last two axes, the one entry taken
    out) is the sum of its 512 entries. -/
theorem count_eq (X : FVec Ideal S1x512 .f32) :
    extractAt ![0, 0, 0]
        (shapeCast S1x1x1
          (multiReduction (F := Ideal) .add [1, 2] S1 (shapeCast S1x1x512 X shapeCasts_S1x512_S1x1x512) 0x00000000#32
            reduces_S1x1x512_S1 (.inl rfl) rfl)
          shapeCasts_S1_S1x1x1)
        inpos_S1x1x1_p0_0_0
      = ∑ r : Fin 512, X (ix2 (0 : Fin 1) r) := by
  show Ideal.reduceAdd reduces_S1x1x512_S1 (shapeCast S1x1x512 X shapeCasts_S1x512_S1x1x512) _ = _
  unfold Ideal.reduceAdd
  rw [Finset.filter_true_of_mem (fun i _ => Subsingleton.elim _ _)]
  show ∑ i : S1x1x512.Idx, X (Shape.reshapeEquiv _ i) = _
  rw [Equiv.sum_comp (Shape.reshapeEquiv _) X, sum_idx2 X, Fin.sum_univ_one]

section Counts
variable (v52 : Vec Ideal S1x512 .i32) (hv0 : ∀ j, 0 ≤ (v52 j).toInt)
include hv0

/-- The sum of the local weights. -/
theorem pay16_eq : k1_pay16 (F := Ideal) (k1_pay4 v52) (k1_pay8 (9841#32 : BitVec 32)) (k1_pay10 v52 (9841#32 : BitVec 32))
      (k1_pay11 v52 (9841#32 : BitVec 32))
    = ∑ r : Fin 512, if Dk v52 (ix2 (0 : Fin 1) r) ≤ 3 then (1 : EReal) else 0 := by
  unfold k1_pay16
  rw [pay13_eq v52 hv0]
  exact count_eq _

/-- The sum of the distant weights. -/
theorem pay17_eq : k1_pay17 (F := Ideal) (k1_pay4 v52) (k1_pay8 (9841#32 : BitVec 32)) (k1_pay10 v52 (9841#32 : BitVec 32))
      (k1_pay11 v52 (9841#32 : BitVec 32))
    = ∑ r : Fin 512, if 25 ≤ Dk v52 (ix2 (0 : Fin 1) r) then (1 : EReal) else 0 := by
  unfold k1_pay17
  rw [pay14_eq v52 hv0]
  exact count_eq _

/-- The sum of the middle weights. -/
theorem pay18_eq : k1_pay18 (F := Ideal) (k1_pay4 v52) (k1_pay8 (9841#32 : BitVec 32)) (k1_pay10 v52 (9841#32 : BitVec 32))
      (k1_pay11 v52 (9841#32 : BitVec 32))
    = ∑ r : Fin 512, (1 - (if Dk v52 (ix2 (0 : Fin 1) r) ≤ 3 then (1 : EReal) else 0))
        * (1 - (if 25 ≤ Dk v52 (ix2 (0 : Fin 1) r) then (1 : EReal) else 0)) := by
  unfold k1_pay18
  rw [pay15_eq v52 hv0]
  exact count_eq _

end Counts

/-- A flag "the sum is positive" as the kernel computes it — the comparison's bit widened and converted signed —
    is the bit converted unsigned, against zero. -/
theorem flag_form (c : EReal) :
    Scalar.sitofp (F := Ideal) .f32 (Scalar.extui (Scalar.cmpf (F := Ideal) (φ := .f32) .ogt c (Scalar.ofBits .f32 0x00000000#32)))
      = FloatOps.uitofp (F := Ideal) .f32 (FloatOps.cmpf (F := Ideal) (φ := .f32) .ogt c (0 : Ideal .f32)) := by
  rw [Cert.Experts.flag_eq]
  show FloatOps.uitofp (F := Ideal) .f32 (FloatOps.cmpf (F := Ideal) (φ := .f32) .ogt c (Ideal.ofBits .f32 0x00000000#32)) = _
  rw [Cert.Lattice.ofBits_zero]

section Flags
variable (v52 : Vec Ideal S1x512 .i32) (hv0 : ∀ j, 0 ≤ (v52 j).toInt)
include hv0

/-- The flag of the local weights. -/
theorem pay19_eq : k1_pay19 (F := Ideal) (k1_pay4 v52) (k1_pay8 (9841#32 : BitVec 32)) (k1_pay10 v52 (9841#32 : BitVec 32))
      (k1_pay11 v52 (9841#32 : BitVec 32))
    = FloatOps.uitofp (F := Ideal) .f32 (FloatOps.cmpf (F := Ideal) (φ := .f32) .ogt
        (∑ r : Fin 512, if Dk v52 (ix2 (0 : Fin 1) r) ≤ 3 then (1 : EReal) else 0) (0 : Ideal .f32)) := by
  unfold k1_pay19
  rw [pay16_eq v52 hv0]
  exact flag_form _

/-- The flag of the distant weights. -/
theorem pay20_eq : k1_pay20 (F := Ideal) (k1_pay4 v52) (k1_pay8 (9841#32 : BitVec 32)) (k1_pay10 v52 (9841#32 : BitVec 32))
      (k1_pay11 v52 (9841#32 : BitVec 32))
    = FloatOps.uitofp (F := Ideal) .f32 (FloatOps.cmpf (F := Ideal) (φ := .f32) .ogt
        (∑ r : Fin 512, if 25 ≤ Dk v52 (ix2 (0 : Fin 1) r) then (1 : EReal) else 0) (0 : Ideal .f32)) := by
  unfold k1_pay20
  rw [pay17_eq v52 hv0]
  exact flag_form _

/-- The flag of the middle weights. -/
theorem pay21_eq : k1_pay21 (F := Ideal) (k1_pay4 v52) (k1_pay8 (9841#32 : BitVec 32)) (k1_pay10 v52 (9841#32 : BitVec 32))
      (k1_pay11 v52 (9841#32 : BitVec 32))
    = FloatOps.uitofp (F := Ideal) .f32 (FloatOps.cmpf (F := Ideal) (φ := .f32) .ogt
        (∑ r : Fin 512, (1 - (if Dk v52 (ix2 (0 : Fin 1) r) ≤ 3 then (1 : EReal) else 0))
          * (1 - (if 25 ≤ Dk v52 (ix2 (0 : Fin 1) r) then (1 : EReal) else 0))) (0 : Ideal .f32)) := by
  unfold k1_pay21
  rw [pay18_eq v52 hv0]
  exact flag_form _

end Flags

/-! ## The cell's state row and the row of 1/512 -/

/-- The cell's state, re-laid to its own shape, is itself. -/
theorem pay22_eq (v128 : Vec Ideal S1x1024 .f32) : k1_pay22 (F := Ideal) v128 = v128 := by
  unfold k1_pay22
  exact shapeCast_self _ _

/-- The splatted literal is 1/512 at every index. -/
theorem pay23_apply (j : S1x512.Idx) : k1_pay23 (F := Ideal) j = ((1 / 512 : ℝ) : EReal) :=
  Cert.Lattice.ofBits_inv512

/-! ## The staged neighbour indices are the argument's -/

section Staged
variable (n : IVec Cert.ReferenceIdeal.S512 32) (v52 : Vec Ideal S1x512 .i32)

/-- The argument re-laid 1 x 512 holds, at (0, r), the argument's entry r. -/
theorem staged_of_reshape (h : Cert.ReferenceIdeal.S512.ShapeCasts S1x512) (r : Fin 512) :
    shapeCast S1x512 n h (ix2 (0 : Fin 1) r) = n (at512 r) := by
  rw [shapeCast_a_1a_apply n h 0 r]
  exact congrArg n (funext fun a => match a with | ⟨0, _⟩ => rfl)

variable (hn : ∀ j, 0 ≤ (n j).toInt) (hv : ∀ r : Fin 512, v52 (ix2 (0 : Fin 1) r) = n (at512 r))
include hn hv

/-- Every staged index is a nonnegative word. -/
theorem staged_nonneg : ∀ j, 0 ≤ (v52 j).toInt := by
  intro j
  obtain ⟨a, b, rfl⟩ : ∃ a b, j = ix2 a b := ⟨_, _, eq_ix2 j⟩
  have ha : a = 0 := Subsingleton.elim _ _
  subst ha
  rw [hv]; exact hn _

omit hn in
/-- The squared distance from the staged index is the one from the argument's. -/
theorem Dk_eq (r : Fin 512) : Dk v52 (ix2 (0 : Fin 1) r) = D n r := by
  unfold Dk D nbr nat52
  rw [hv r]

/-- The local weight of neighbour r. -/
theorem lm_val (r : Fin 512) :
    k1_pay13 (F := Ideal) (k1_pay4 v52) (k1_pay8 (9841#32 : BitVec 32)) (k1_pay10 v52 (9841#32 : BitVec 32))
        (k1_pay11 v52 (9841#32 : BitVec 32)) (ix2 (0 : Fin 1) r)
      = if D n r ≤ 3 then (1 : EReal) else 0 := by
  rw [pay13_eq v52 (staged_nonneg n v52 hn hv)]
  show (if Dk v52 (ix2 (0 : Fin 1) r) ≤ 3 then (1 : EReal) else 0) = _
  rw [Dk_eq n v52 hv r]

/-- The distant weight of neighbour r. -/
theorem dm_val (r : Fin 512) :
    k1_pay14 (F := Ideal) (k1_pay4 v52) (k1_pay8 (9841#32 : BitVec 32)) (k1_pay10 v52 (9841#32 : BitVec 32))
        (k1_pay11 v52 (9841#32 : BitVec 32)) (ix2 (0 : Fin 1) r)
      = if 25 ≤ D n r then (1 : EReal) else 0 := by
  rw [pay14_eq v52 (staged_nonneg n v52 hn hv)]
  show (if 25 ≤ Dk v52 (ix2 (0 : Fin 1) r) then (1 : EReal) else 0) = _
  rw [Dk_eq n v52 hv r]

/-- The middle weight of neighbour r. -/
theorem fm_val (r : Fin 512) :
    k1_pay15 (F := Ideal) (k1_pay4 v52) (k1_pay8 (9841#32 : BitVec 32)) (k1_pay10 v52 (9841#32 : BitVec 32))
        (k1_pay11 v52 (9841#32 : BitVec 32)) (ix2 (0 : Fin 1) r)
      = (1 - (if D n r ≤ 3 then (1 : EReal) else 0)) * (1 - (if 25 ≤ D n r then (1 : EReal) else 0)) := by
  rw [pay15_eq v52 (staged_nonneg n v52 hn hv)]
  show (1 - (if Dk v52 (ix2 (0 : Fin 1) r) ≤ 3 then (1 : EReal) else 0))
    * (1 - (if 25 ≤ Dk v52 (ix2 (0 : Fin 1) r) then (1 : EReal) else 0)) = _
  rw [Dk_eq n v52 hv r]

/-- The three sums, over the argument's squared distances. -/
theorem lmCount_val :
    k1_pay16 (F := Ideal) (k1_pay4 v52) (k1_pay8 (9841#32 : BitVec 32)) (k1_pay10 v52 (9841#32 : BitVec 32))
        (k1_pay11 v52 (9841#32 : BitVec 32))
      = ∑ r : Fin 512, if D n r ≤ 3 then (1 : EReal) else 0 := by
  rw [pay16_eq v52 (staged_nonneg n v52 hn hv)]
  exact Finset.sum_congr rfl fun r _ => by rw [Dk_eq n v52 hv r]
@[inherit_doc lmCount_val]
theorem dmCount_val :
    k1_pay17 (F := Ideal) (k1_pay4 v52) (k1_pay8 (9841#32 : BitVec 32)) (k1_pay10 v52 (9841#32 : BitVec 32))
        (k1_pay11 v52 (9841#32 : BitVec 32))
      = ∑ r : Fin 512, if 25 ≤ D n r then (1 : EReal) else 0 := by
  rw [pay17_eq v52 (staged_nonneg n v52 hn hv)]
  exact Finset.sum_congr rfl fun r _ => by rw [Dk_eq n v52 hv r]
@[inherit_doc lmCount_val]
theorem fmCount_val :
    k1_pay18 (F := Ideal) (k1_pay4 v52) (k1_pay8 (9841#32 : BitVec 32)) (k1_pay10 v52 (9841#32 : BitVec 32))
        (k1_pay11 v52 (9841#32 : BitVec 32))
      = ∑ r : Fin 512, (1 - (if D n r ≤ 3 then (1 : EReal) else 0)) * (1 - (if 25 ≤ D n r then (1 : EReal) else 0)) := by
  rw [pay18_eq v52 (staged_nonneg n v52 hn hv)]
  exact Finset.sum_congr rfl fun r _ => by rw [Dk_eq n v52 hv r]

/-- The three flags, over the argument's squared distances. -/
theorem lmFlag_val :
    k1_pay19 (F := Ideal) (k1_pay4 v52) (k1_pay8 (9841#32 : BitVec 32)) (k1_pay10 v52 (9841#32 : BitVec 32))
        (k1_pay11 v52 (9841#32 : BitVec 32))
      = FloatOps.uitofp (F := Ideal) .f32 (FloatOps.cmpf (F := Ideal) (φ := .f32) .ogt
          (∑ r : Fin 512, if D n r ≤ 3 then (1 : EReal) else 0) (0 : Ideal .f32)) := by
  unfold k1_pay19
  rw [lmCount_val n v52 hn hv]
  exact flag_form _
@[inherit_doc lmFlag_val]
theorem dmFlag_val :
    k1_pay20 (F := Ideal) (k1_pay4 v52) (k1_pay8 (9841#32 : BitVec 32)) (k1_pay10 v52 (9841#32 : BitVec 32))
        (k1_pay11 v52 (9841#32 : BitVec 32))
      = FloatOps.uitofp (F := Ideal) .f32 (FloatOps.cmpf (F := Ideal) (φ := .f32) .ogt
          (∑ r : Fin 512, if 25 ≤ D n r then (1 : EReal) else 0) (0 : Ideal .f32)) := by
  unfold k1_pay20
  rw [dmCount_val n v52 hn hv]
  exact flag_form _
@[inherit_doc lmFlag_val]
theorem fmFlag_val :
    k1_pay21 (F := Ideal) (k1_pay4 v52) (k1_pay8 (9841#32 : BitVec 32)) (k1_pay10 v52 (9841#32 : BitVec 32))
        (k1_pay11 v52 (9841#32 : BitVec 32))
      = FloatOps.uitofp (F := Ideal) .f32 (FloatOps.cmpf (F := Ideal) (φ := .f32) .ogt
          (∑ r : Fin 512, (1 - (if D n r ≤ 3 then (1 : EReal) else 0)) * (1 - (if 25 ≤ D n r then (1 : EReal) else 0)))
          (0 : Ideal .f32)) := by
  unfold k1_pay21
  rw [fmCount_val n v52 hn hv]
  exact flag_form _

end Staged

end Cert.Proof.KI

end
-- ==== Proof.KIBridge.lean ====
/-
  The value bridge: the kernel body's result, as the composition of its pure stages over what it loads, equals the
  reference's result index by index.

  Both sides are the same three terms. An expert's term is the hyperbolic tangent of a contraction of the state joined
  with a weighted mean of rows, plus a bias, times a gate and a flag. The body takes the contraction in four chunks of
  512 rows and the reference in one sum over 2048; the body scales the weighted sum by the reciprocal of the larger of
  the weights' count and one, the reference divides by it, and the count is a real number, so the two agree; the body
  multiplies the hyperbolic tangent by gate times flag, the reference the gate by the product of the other two.
-/
import proofs.«211217_g68642167325227_cont_9to1_m_1168_22_alg».proof.Proof.KIValExperts
import proofs.«211217_g68642167325227_cont_9to1_m_1168_22_alg».proof.Proof.KIValMasks
import proofs.«211217_g68642167325227_cont_9to1_m_1168_22_alg».proof.Proof.RefRead
import proofs.«211217_g68642167325227_cont_9to1_m_1168_22_alg».proof.Proof.RefSpec
import Idealize.ShloMosaic.Lib.ValueLayout

noncomputable section

namespace Cert.Proof.KI

open Cert.KernelIdeal Cert.KernelIdeal.Gen Idealize.ShloMosaic Idealize.ShloMosaic.ValueIdx
open Cert.ReferenceIdeal.RefRun (at512 at1024 at2048 at3 at512x1024 at2048x1024 at1024x1024 at2048x3)
open Cert.ReferenceIdeal.RefSpec (D nbr)
open scoped BigOperators

variable [Cert.KernelIdeal.Facts]

/-! ## Indices written two ways -/

theorem ix2_512x1024 (r : Fin 512) (c : Fin 1024) : (ix2 r c : S512x1024.Idx) = at512x1024 r c :=
  funext fun a => match a with | ⟨0, _⟩ => rfl | ⟨1, _⟩ => rfl
theorem ix2_2048x1024 (r : Fin 2048) (c : Fin 1024) : (ix2 r c : S2048x1024.Idx) = at2048x1024 r c :=
  funext fun a => match a with | ⟨0, _⟩ => rfl | ⟨1, _⟩ => rfl
theorem ix2_1024x1024 (r : Fin 1024) (c : Fin 1024) : (ix2 r c : S1024x1024.Idx) = at1024x1024 r c :=
  funext fun a => match a with | ⟨0, _⟩ => rfl | ⟨1, _⟩ => rfl

/-- A vector of 1024 re-laid as a row reads, at (0, k), the vector's entry k. -/
theorem row_of_reshape (a : FVec Ideal S1024 .f32) (h : S1024.ShapeCasts S1x1024) (k : Fin 1024) :
    shapeCast S1x1024 a h (ix2 (0 : Fin 1) k) = a (at1024 k) := by
  rw [shapeCast_a_1a_apply a h 0 k]
  exact congrArg a (funext fun x => match x with | ⟨0, _⟩ => rfl)

/-- The cell's index re-laid 1×1 reads the index. -/
theorem cell_of_reshape (a : IVec S_ 32) (h : S_.ShapeCasts S1x1) : shapeCast S1x1 a h (ix2 (0 : Fin 1) (0 : Fin 1)) = a ix0 := by
  unfold shapeCast
  exact congrArg a (funext fun d => d.elim0)

/-- A count of ones is a real number. -/
theorem sum_ite_real (p : Fin 512 → Prop) [DecidablePred p] :
    ∑ r : Fin 512, (if p r then (1 : EReal) else 0) = (((∑ r : Fin 512, if p r then (1 : ℝ) else 0 : ℝ)) : EReal) := by
  rw [← Cert.Experts.coe_sum]
  exact Finset.sum_congr rfl fun r _ => by split <;> simp

/-! ## The joined row and one expert's term, on both sides -/

/-- The body's joined row (the state, then the scaled weighted sum of rows) is the reference's (the state, then the
    weighted mean), entry by entry: the count is a real number. -/
theorem joined_eq (cs row : FVec Ideal S1x1024 .f32) (cnt : Ideal .f32)
    (s : FVec Ideal S1024 .f32) (w : FVec Ideal S512 .f32) (vals : FVec Ideal S512x1024 .f32)
    (hcs : ∀ k : Fin 1024, cs (ix2 0 k) = s (at1024 k))
    (hrow : ∀ c : Fin 1024, row (ix2 0 c) = ∑ r : Fin 512, w (at512 r) * vals (at512x1024 r c))
    (q : ℝ) (hq : cnt = ((q : ℝ) : EReal)) (hcnt : cnt = ∑ r : Fin 512, w (at512 r)) (k : Fin 2048) :
    catRow cs (scaled row cnt) (ix2 0 k) = Cert.ReferenceIdeal.RefRun.cat2 s (Cert.ReferenceIdeal.RefRun.maskedMean w vals) (at2048 k) := by
  by_cases h : k.val < 1024
  · rw [catRow_left _ _ k h, Cert.ReferenceIdeal.RefRun.cat2_apply_left _ _ k h, hcs]
  · have h' : 1024 ≤ k.val := Nat.le_of_not_lt h
    rw [catRow_right _ _ k h', Cert.ReferenceIdeal.RefRun.cat2_apply_right _ _ k h', scaled_apply, hrow,
      Cert.ReferenceIdeal.RefRun.maskedMean_apply, ← hcnt, hq]
    exact Cert.Experts.masked_mean _ q

/-- One expert's term on the two sides. -/
theorem expert_bridge (x : FVec Ideal S1x2048 .f32) (pre b : FVec Ideal S1x1024 .f32) (W : FVec Ideal S2048x1024 .f32) (g fl : Ideal .f32)
    (s agg b' : FVec Ideal S1024 .f32) (w : FVec Ideal S512 .f32) (g' : Ideal .f32) (c : Fin 1024)
    (hpre : pre (ix2 0 c) = ∑ k : Fin 2048, x (ix2 0 k) * W (ix2 k c))
    (hx : ∀ k : Fin 2048, x (ix2 0 k) = Cert.ReferenceIdeal.RefRun.cat2 s agg (at2048 k))
    (hb : b (ix2 0 c) = b' (at1024 c)) (hg : g = g') (hfl : fl = Cert.ReferenceIdeal.RefRun.anyOn w ix0) :
    Ideal.tanh (pre (ix2 0 c) + b (ix2 0 c)) * (g * fl) = g' * Cert.ReferenceIdeal.RefRun.expert s agg W b' w (at1024 c) := by
  rw [Cert.ReferenceIdeal.RefRun.expert_apply, Cert.ReferenceIdeal.RefRun.hidden_apply, hpre, hb, hg, hfl]
  have e : ∑ k : Fin 2048, x (ix2 0 k) * W (ix2 k c)
      = ∑ k : Fin 2048, Cert.ReferenceIdeal.RefRun.cat2 s agg (at2048 k) * W (at2048x1024 k c) :=
    Finset.sum_congr rfl fun k _ => by rw [hx k, ix2_2048x1024]
  rw [e]
  exact Cert.Experts.gate_comm _ _ _

/-! ## The body's result as a function of what it loads -/

/-- The three weight rows, their counts and their flags, from the cell's word and the staged neighbour indices. -/
def kLm (v71 : BitVec 32) (x2 : Vec Ideal S1x512 .i32) : FVec Ideal S1x512 .f32 :=
  k1_pay13 (F := Ideal) (k1_pay4 x2) (k1_pay8 v71) (k1_pay10 x2 v71) (k1_pay11 x2 v71)
@[inherit_doc kLm] def kDm (v71 : BitVec 32) (x2 : Vec Ideal S1x512 .i32) : FVec Ideal S1x512 .f32 :=
  k1_pay14 (F := Ideal) (k1_pay4 x2) (k1_pay8 v71) (k1_pay10 x2 v71) (k1_pay11 x2 v71)
@[inherit_doc kLm] def kFm (v71 : BitVec 32) (x2 : Vec Ideal S1x512 .i32) : FVec Ideal S1x512 .f32 :=
  k1_pay15 (F := Ideal) (k1_pay4 x2) (k1_pay8 v71) (k1_pay10 x2 v71) (k1_pay11 x2 v71)
@[inherit_doc kLm] def kCl (v71 : BitVec 32) (x2 : Vec Ideal S1x512 .i32) : Ideal .f32 :=
  k1_pay16 (F := Ideal) (k1_pay4 x2) (k1_pay8 v71) (k1_pay10 x2 v71) (k1_pay11 x2 v71)
@[inherit_doc kLm] def kCd (v71 : BitVec 32) (x2 : Vec Ideal S1x512 .i32) : Ideal .f32 :=
  k1_pay17 (F := Ideal) (k1_pay4 x2) (k1_pay8 v71) (k1_pay10 x2 v71) (k1_pay11 x2 v71)
@[inherit_doc kLm] def kCf (v71 : BitVec 32) (x2 : Vec Ideal S1x512 .i32) : Ideal .f32 :=
  k1_pay18 (F := Ideal) (k1_pay4 x2) (k1_pay8 v71) (k1_pay10 x2 v71) (k1_pay11 x2 v71)
@[inherit_doc kLm] def kFl (v71 : BitVec 32) (x2 : Vec Ideal S1x512 .i32) : Ideal .f32 :=
  k1_pay19 (F := Ideal) (k1_pay4 x2) (k1_pay8 v71) (k1_pay10 x2 v71) (k1_pay11 x2 v71)
@[inherit_doc kLm] def kFd (v71 : BitVec 32) (x2 : Vec Ideal S1x512 .i32) : Ideal .f32 :=
  k1_pay20 (F := Ideal) (k1_pay4 x2) (k1_pay8 v71) (k1_pay10 x2 v71) (k1_pay11 x2 v71)
@[inherit_doc kLm] def kFf (v71 : BitVec 32) (x2 : Vec Ideal S1x512 .i32) : Ideal .f32 :=
  k1_pay21 (F := Ideal) (k1_pay4 x2) (k1_pay8 v71) (k1_pay10 x2 v71) (k1_pay11 x2 v71)

/-- The local, the distant and the middle joined rows, and the gates. -/
def kInL (v71 : BitVec 32) (x1 : FVec Ideal S1x1024 .f32) (x2 : Vec Ideal S1x512 .i32) (a1 : FVec Ideal S512x1024 .f32) : FVec Ideal S1x2048 .f32 :=
  k1_pay25 (kLm v71 x2) (kDm v71 x2) (kCl v71 x2) (k1_pay22 x1) k1_pay23 a1
@[inherit_doc kInL] def kInD (v71 : BitVec 32) (x1 : FVec Ideal S1x1024 .f32) (x2 : Vec Ideal S1x512 .i32) (a1 : FVec Ideal S512x1024 .f32) : FVec Ideal S1x2048 .f32 :=
  k1_pay26 (kLm v71 x2) (kDm v71 x2) (kCd v71 x2) (k1_pay22 x1) k1_pay23 a1
@[inherit_doc kInL] def kInF (v71 : BitVec 32) (x1 : FVec Ideal S1x1024 .f32) (x2 : Vec Ideal S1x512 .i32) (x5 : FVec Ideal S1x1024 .f32)
    (a1 : FVec Ideal S512x1024 .f32) (a6 : FVec Ideal S1024x1024 .f32) : FVec Ideal S1x2048 .f32 :=
  k1_pay28 (kFm v71 x2) (kCf v71 x2) (k1_pay22 x1) a1 a6 (constant (F := Ideal) S512x1024 .f32 0x00000000#32) x5
@[inherit_doc kInL] def kG (v71 : BitVec 32) (x1 : FVec Ideal S1x1024 .f32) (x2 : Vec Ideal S1x512 .i32) (x3 : FVec Ideal S1x3 .f32)
    (x4 : FVec Ideal S2048x3 .f32) (a1 : FVec Ideal S512x1024 .f32) : FVec Ideal S1x3 .f32 :=
  k1_pay27 (kLm v71 x2) (kDm v71 x2) (k1_pay22 x1) k1_pay23 a1 x4 x3

/-- The body's result from the cell's word and the other thirteen loads: the three experts' chunked contractions, then
    the combination. -/
def koutW (v71 : BitVec 32) (x1 : FVec Ideal S1x1024 .f32) (x2 : Vec Ideal S1x512 .i32) (x3 : FVec Ideal S1x3 .f32) (x4 : FVec Ideal S2048x3 .f32)
    (x5 x6 x7 x8 : FVec Ideal S1x1024 .f32) (a1 : FVec Ideal S512x1024 .f32) (a6 : FVec Ideal S1024x1024 .f32)
    (a4 a10 a8 : FVec Ideal S2048x1024 .f32) : FVec Ideal S1x1024 .f32 :=
  k1_pay1 (kFd v71 x2) (kFf v71 x2) (kG v71 x1 x2 x3 x4 a1)
    (k1_pay33 (kInD v71 x1 x2 a1) (k1_pay31 (kInD v71 x1 x2 a1) (rowsAt a10 0 (by omega))) (k1_pay32 (kInD v71 x1 x2 a1))
      (rowsAt a10 512 (by omega)) (rowsAt a10 1024 (by omega)) (rowsAt a10 1536 (by omega)))
    (k1_pay35 (kInF v71 x1 x2 x5 a1 a6) (k1_pay34 (kInF v71 x1 x2 x5 a1 a6) (rowsAt a8 0 (by omega)))
      (rowsAt a8 512 (by omega)) (rowsAt a8 1024 (by omega)) (rowsAt a8 1536 (by omega)))
    (k1_pay36 (kFl v71 x2) (kG v71 x1 x2 x3 x4 a1)
      (k1_pay30 (kInL v71 x1 x2 a1) (k1_pay29 (kInL v71 x1 x2 a1) (rowsAt a4 0 (by omega)) (rowsAt a4 512 (by omega)))
        (rowsAt a4 1024 (by omega)) (rowsAt a4 1536 (by omega)))
      x6)
    x7 x8

/-- The body's result as a function of what it loads: the nine staged operands (the cell's index read at its one
    entry) and the five arrays it copies, the four 512-row blocks of each 2048×1024 array read as they are loaded. -/
def kout (x0 : Vec Ideal S1x1 .i32) (x1 : FVec Ideal S1x1024 .f32) (x2 : Vec Ideal S1x512 .i32) (x3 : FVec Ideal S1x3 .f32)
    (x4 : FVec Ideal S2048x3 .f32) (x5 x6 x7 x8 : FVec Ideal S1x1024 .f32) (a1 : FVec Ideal S512x1024 .f32)
    (a6 : FVec Ideal S1024x1024 .f32) (a4 a10 a8 : FVec Ideal S2048x1024 .f32) : FVec Ideal S1x1024 .f32 :=
  koutW (x0 (ix2 (0 : Fin 1) (0 : Fin 1))) x1 x2 x3 x4 x5 x6 x7 x8 a1 a6 a4 a10 a8

/-! ## The body's weights, counts and flags against the reference's -/

section Core
variable (a0 : FVec Ideal S1024 .f32) (a1 : FVec Ideal S512x1024 .f32) (a2 : IVec S_ 32) (a3 : IVec S512 32)
  (a4 : FVec Ideal S2048x1024 .f32) (a5 : FVec Ideal S1024 .f32) (a6 : FVec Ideal S1024x1024 .f32) (a7 : FVec Ideal S1024 .f32)
  (a8 : FVec Ideal S2048x1024 .f32) (a9 : FVec Ideal S1024 .f32) (a10 : FVec Ideal S2048x1024 .f32) (a11 : FVec Ideal S1024 .f32)
  (a12 : FVec Ideal S2048x3 .f32) (a13 : FVec Ideal S3 .f32)
  (hi : a2 ix0 = 9841#32) (hn : ∀ j, 0 ≤ (a3 j).toInt)
include hi hn

/-- The body's weight row, count and flag are the reference's. -/
theorem kLm_eq (r : Fin 512) : kLm (9841#32 : BitVec 32) (shapeCast S1x512 a3 shapeCasts_S512_S1x512) (ix2 (0 : Fin 1) r) = Cert.ReferenceIdeal.RefRun.localMask (F := Ideal) a2 a3 (at512 r) :=
  (lm_val a3 (shapeCast S1x512 a3 shapeCasts_S512_S1x512) hn (staged_of_reshape a3 shapeCasts_S512_S1x512) r).trans (Cert.ReferenceIdeal.RefSpec.localMask_val a2 a3 hi hn r).symm
@[inherit_doc kLm_eq]
theorem kCl_eq : kCl (9841#32 : BitVec 32) (shapeCast S1x512 a3 shapeCasts_S512_S1x512) = ∑ r : Fin 512, Cert.ReferenceIdeal.RefRun.localMask (F := Ideal) a2 a3 (at512 r) :=
  (lmCount_val a3 (shapeCast S1x512 a3 shapeCasts_S512_S1x512) hn (staged_of_reshape a3 shapeCasts_S512_S1x512)).trans
    (Finset.sum_congr rfl fun r _ => (Cert.ReferenceIdeal.RefSpec.localMask_val a2 a3 hi hn r).symm)
@[inherit_doc kLm_eq]
theorem kFl_eq : kFl (9841#32 : BitVec 32) (shapeCast S1x512 a3 shapeCasts_S512_S1x512) = Cert.ReferenceIdeal.RefRun.anyOn (Cert.ReferenceIdeal.RefRun.localMask (F := Ideal) a2 a3) ix0 := by
  rw [Cert.ReferenceIdeal.RefRun.anyOn_apply]
  refine (lmFlag_val a3 (shapeCast S1x512 a3 shapeCasts_S512_S1x512) hn (staged_of_reshape a3 shapeCasts_S512_S1x512)).trans ?_
  rw [show (∑ r : Fin 512, if D a3 r ≤ 3 then (1 : EReal) else 0) = ∑ k : Fin 512, Cert.ReferenceIdeal.RefRun.localMask (F := Ideal) a2 a3 (at512 k) from
    Finset.sum_congr rfl fun r _ => (Cert.ReferenceIdeal.RefSpec.localMask_val a2 a3 hi hn r).symm]

/-- The body's weight row, count and flag are the reference's. -/
theorem kDm_eq (r : Fin 512) : kDm (9841#32 : BitVec 32) (shapeCast S1x512 a3 shapeCasts_S512_S1x512) (ix2 (0 : Fin 1) r) = Cert.ReferenceIdeal.RefRun.distantMask (F := Ideal) a2 a3 (at512 r) :=
  (dm_val a3 (shapeCast S1x512 a3 shapeCasts_S512_S1x512) hn (staged_of_reshape a3 shapeCasts_S512_S1x512) r).trans (Cert.ReferenceIdeal.RefSpec.distantMask_val a2 a3 hi hn r).symm
@[inherit_doc kDm_eq]
theorem kCd_eq : kCd (9841#32 : BitVec 32) (shapeCast S1x512 a3 shapeCasts_S512_S1x512) = ∑ r : Fin 512, Cert.ReferenceIdeal.RefRun.distantMask (F := Ideal) a2 a3 (at512 r) :=
  (dmCount_val a3 (shapeCast S1x512 a3 shapeCasts_S512_S1x512) hn (staged_of_reshape a3 shapeCasts_S512_S1x512)).trans
    (Finset.sum_congr rfl fun r _ => (Cert.ReferenceIdeal.RefSpec.distantMask_val a2 a3 hi hn r).symm)
@[inherit_doc kDm_eq]
theorem kFd_eq : kFd (9841#32 : BitVec 32) (shapeCast S1x512 a3 shapeCasts_S512_S1x512) = Cert.ReferenceIdeal.RefRun.anyOn (Cert.ReferenceIdeal.RefRun.distantMask (F := Ideal) a2 a3) ix0 := by
  rw [Cert.ReferenceIdeal.RefRun.anyOn_apply]
  refine (dmFlag_val a3 (shapeCast S1x512 a3 shapeCasts_S512_S1x512) hn (staged_of_reshape a3 shapeCasts_S512_S1x512)).trans ?_
  rw [show (∑ r : Fin 512, if 25 ≤ D a3 r then (1 : EReal) else 0) = ∑ k : Fin 512, Cert.ReferenceIdeal.RefRun.distantMask (F := Ideal) a2 a3 (at512 k) from
    Finset.sum_congr rfl fun r _ => (Cert.ReferenceIdeal.RefSpec.distantMask_val a2 a3 hi hn r).symm]

/-- The body's weight row, count and flag are the reference's. -/
theorem kFm_eq (r : Fin 512) : kFm (9841#32 : BitVec 32) (shapeCast S1x512 a3 shapeCasts_S512_S1x512) (ix2 (0 : Fin 1) r) = Cert.ReferenceIdeal.RefRun.funcMask (F := Ideal) a2 a3 (at512 r) :=
  (fm_val a3 (shapeCast S1x512 a3 shapeCasts_S512_S1x512) hn (staged_of_reshape a3 shapeCasts_S512_S1x512) r).trans (Cert.ReferenceIdeal.RefSpec.funcMask_val a2 a3 hi hn r).symm
@[inherit_doc kFm_eq]
theorem kCf_eq : kCf (9841#32 : BitVec 32) (shapeCast S1x512 a3 shapeCasts_S512_S1x512) = ∑ r : Fin 512, Cert.ReferenceIdeal.RefRun.funcMask (F := Ideal) a2 a3 (at512 r) :=
  (fmCount_val a3 (shapeCast S1x512 a3 shapeCasts_S512_S1x512) hn (staged_of_reshape a3 shapeCasts_S512_S1x512)).trans
    (Finset.sum_congr rfl fun r _ => (Cert.ReferenceIdeal.RefSpec.funcMask_val a2 a3 hi hn r).symm)
@[inherit_doc kFm_eq]
theorem kFf_eq : kFf (9841#32 : BitVec 32) (shapeCast S1x512 a3 shapeCasts_S512_S1x512) = Cert.ReferenceIdeal.RefRun.anyOn (Cert.ReferenceIdeal.RefRun.funcMask (F := Ideal) a2 a3) ix0 := by
  rw [Cert.ReferenceIdeal.RefRun.anyOn_apply]
  refine (fmFlag_val a3 (shapeCast S1x512 a3 shapeCasts_S512_S1x512) hn (staged_of_reshape a3 shapeCasts_S512_S1x512)).trans ?_
  rw [show (∑ r : Fin 512, (1 - (if D a3 r ≤ 3 then (1 : EReal) else 0)) * (1 - (if 25 ≤ D a3 r then (1 : EReal) else 0))) = ∑ k : Fin 512, Cert.ReferenceIdeal.RefRun.funcMask (F := Ideal) a2 a3 (at512 k) from
    Finset.sum_congr rfl fun r _ => (Cert.ReferenceIdeal.RefSpec.funcMask_val a2 a3 hi hn r).symm]

/-- The local and the distant counts are real numbers; so is the middle one. -/
theorem kCl_real : ∃ q : ℝ, kCl (9841#32 : BitVec 32) (shapeCast S1x512 a3 shapeCasts_S512_S1x512) = ((q : ℝ) : EReal) :=
  ⟨_, (lmCount_val a3 (shapeCast S1x512 a3 shapeCasts_S512_S1x512) hn (staged_of_reshape a3 shapeCasts_S512_S1x512)).trans (sum_ite_real fun r => D a3 r ≤ 3)⟩
@[inherit_doc kCl_real]
theorem kCd_real : ∃ q : ℝ, kCd (9841#32 : BitVec 32) (shapeCast S1x512 a3 shapeCasts_S512_S1x512) = ((q : ℝ) : EReal) :=
  ⟨_, (dmCount_val a3 (shapeCast S1x512 a3 shapeCasts_S512_S1x512) hn (staged_of_reshape a3 shapeCasts_S512_S1x512)).trans (sum_ite_real fun r => 25 ≤ D a3 r)⟩
@[inherit_doc kCl_real]
theorem kCf_real : ∃ q : ℝ, kCf (9841#32 : BitVec 32) (shapeCast S1x512 a3 shapeCasts_S512_S1x512) = ((q : ℝ) : EReal) := by
  refine ⟨∑ r : Fin 512, (1 - (if D a3 r ≤ 3 then (1 : ℝ) else 0)) * (1 - (if 25 ≤ D a3 r then (1 : ℝ) else 0)), ?_⟩
  refine (fmCount_val a3 (shapeCast S1x512 a3 shapeCasts_S512_S1x512) hn (staged_of_reshape a3 shapeCasts_S512_S1x512)).trans ?_
  rw [← Cert.Experts.coe_sum]
  refine Finset.sum_congr rfl fun r _ => ?_
  rw [EReal.coe_mul, EReal.coe_sub, EReal.coe_sub]
  split <;> split <;> simp

/-! ## The rows the body joins -/

omit hi hn in
/-- The staged state row is the state. -/
theorem cs_eq (k : Fin 1024) : k1_pay22 (F := Ideal) (shapeCast S1x1024 a0 shapeCasts_S1024_S1x1024) (ix2 (0 : Fin 1) k) = a0 (at1024 k) := by
  rw [pay22_eq]
  exact row_of_reshape a0 _ k

omit hi hn in
/-- The body's messages are the reference's. -/
theorem kmsg_eq (r : Fin 512) (c : Fin 1024) : kmsg a1 a6 (shapeCast S1x1024 a7 shapeCasts_S1024_S1x1024) (ix2 r c) = Cert.ReferenceIdeal.RefRun.msg a1 a6 a7 (at512x1024 r c) := by
  rw [kmsg_apply, Cert.ReferenceIdeal.RefRun.msg_apply, row_of_reshape]
  have e : ∑ k : Fin 1024, a1 (ix2 r k) * a6 (ix2 k c) = ∑ k : Fin 1024, a1 (at512x1024 r k) * a6 (at1024x1024 k c) :=
    Finset.sum_congr rfl fun k _ => by rw [ix2_512x1024, ix2_1024x1024]
  rw [e]
  rfl

/-- The local, the distant and the middle weighted sums of rows, at a column. -/
theorem rowL_eq (c : Fin 1024) :
    row3 (k1_pay24 (kLm (9841#32 : BitVec 32) (shapeCast S1x512 a3 shapeCasts_S512_S1x512)) (kDm (9841#32 : BitVec 32) (shapeCast S1x512 a3 shapeCasts_S512_S1x512)) k1_pay23 a1) 0 (ix2 (0 : Fin 1) c)
      = ∑ r : Fin 512, Cert.ReferenceIdeal.RefRun.localMask (F := Ideal) a2 a3 (at512 r) * a1 (at512x1024 r c) :=
  (pay24_row0 _ _ _ a1 c).trans (Finset.sum_congr rfl fun r _ => by rw [kLm_eq a2 a3 hi hn r, ix2_512x1024])
@[inherit_doc rowL_eq]
theorem rowD_eq (c : Fin 1024) :
    row3 (k1_pay24 (kLm (9841#32 : BitVec 32) (shapeCast S1x512 a3 shapeCasts_S512_S1x512)) (kDm (9841#32 : BitVec 32) (shapeCast S1x512 a3 shapeCasts_S512_S1x512)) k1_pay23 a1) 1 (ix2 (0 : Fin 1) c)
      = ∑ r : Fin 512, Cert.ReferenceIdeal.RefRun.distantMask (F := Ideal) a2 a3 (at512 r) * a1 (at512x1024 r c) :=
  (pay24_row1 _ _ _ a1 c).trans (Finset.sum_congr rfl fun r _ => by rw [kDm_eq a2 a3 hi hn r, ix2_512x1024])
@[inherit_doc rowL_eq]
theorem rowF_eq (c : Fin 1024) :
    matmul dot_S1x512_S512x1024_S1x1024_1_0_0_1_n_n none (kFm (9841#32 : BitVec 32) (shapeCast S1x512 a3 shapeCasts_S512_S1x512)) (kmsg a1 a6 (shapeCast S1x1024 a7 shapeCasts_S1024_S1x1024)) (constant (F := Ideal) S1x1024 .f32 0x00000000#32) (ix2 (0 : Fin 1) c)
      = ∑ r : Fin 512, Cert.ReferenceIdeal.RefRun.funcMask (F := Ideal) a2 a3 (at512 r) * Cert.ReferenceIdeal.RefRun.msg a1 a6 a7 (at512x1024 r c) :=
  (mmV_apply _ _ 0 c).trans (Finset.sum_congr rfl fun r _ => by rw [kFm_eq a2 a3 hi hn r, kmsg_eq a1 a6 a7 r c])

/-- The three joined rows are the reference's, entry by entry. -/
theorem inL_eq (k : Fin 2048) :
    kInL (9841#32 : BitVec 32) (shapeCast S1x1024 a0 shapeCasts_S1024_S1x1024) (shapeCast S1x512 a3 shapeCasts_S512_S1x512) a1 (ix2 (0 : Fin 1) k) = Cert.ReferenceIdeal.RefRun.cat2 a0 (Cert.ReferenceIdeal.RefRun.maskedMean (Cert.ReferenceIdeal.RefRun.localMask (F := Ideal) a2 a3) a1) (at2048 k) := by
  obtain ⟨q, hq⟩ := kCl_real a2 a3 hi hn
  unfold kInL
  rw [pay25_eq]
  exact joined_eq _ _ _ a0 (Cert.ReferenceIdeal.RefRun.localMask (F := Ideal) a2 a3) a1 (cs_eq a0) (rowL_eq a1 a2 a3 hi hn) q hq (kCl_eq a2 a3 hi hn) k
@[inherit_doc inL_eq]
theorem inD_eq (k : Fin 2048) :
    kInD (9841#32 : BitVec 32) (shapeCast S1x1024 a0 shapeCasts_S1024_S1x1024) (shapeCast S1x512 a3 shapeCasts_S512_S1x512) a1 (ix2 (0 : Fin 1) k) = Cert.ReferenceIdeal.RefRun.cat2 a0 (Cert.ReferenceIdeal.RefRun.maskedMean (Cert.ReferenceIdeal.RefRun.distantMask (F := Ideal) a2 a3) a1) (at2048 k) := by
  obtain ⟨q, hq⟩ := kCd_real a2 a3 hi hn
  unfold kInD
  rw [pay26_eq]
  exact joined_eq _ _ _ a0 (Cert.ReferenceIdeal.RefRun.distantMask (F := Ideal) a2 a3) a1 (cs_eq a0) (rowD_eq a1 a2 a3 hi hn) q hq (kCd_eq a2 a3 hi hn) k
@[inherit_doc inL_eq]
theorem inF_eq (k : Fin 2048) :
    kInF (9841#32 : BitVec 32) (shapeCast S1x1024 a0 shapeCasts_S1024_S1x1024) (shapeCast S1x512 a3 shapeCasts_S512_S1x512) (shapeCast S1x1024 a7 shapeCasts_S1024_S1x1024) a1 a6 (ix2 (0 : Fin 1) k) = Cert.ReferenceIdeal.RefRun.cat2 a0 (Cert.ReferenceIdeal.RefRun.maskedMean (Cert.ReferenceIdeal.RefRun.funcMask (F := Ideal) a2 a3) (Cert.ReferenceIdeal.RefRun.msg a1 a6 a7)) (at2048 k) := by
  obtain ⟨q, hq⟩ := kCf_real a2 a3 hi hn
  unfold kInF
  rw [pay28_eq]
  exact joined_eq _ _ _ a0 (Cert.ReferenceIdeal.RefRun.funcMask (F := Ideal) a2 a3) (Cert.ReferenceIdeal.RefRun.msg a1 a6 a7) (cs_eq a0) (rowF_eq a1 a2 a3 a6 a7 hi hn) q hq (kCf_eq a2 a3 hi hn) k

/-! ## The bridge -/

/-- Given the gates, the body's result from the cell word 9841 and the reshaped arguments is the reference's, column by
    column. -/
theorem bridge_core
    (hg : ∀ e : Fin 3, kG (9841#32 : BitVec 32) (shapeCast S1x1024 a0 shapeCasts_S1024_S1x1024) (shapeCast S1x512 a3 shapeCasts_S512_S1x512) (shapeCast S1x3 a13 shapeCasts_S3_S1x3) a12 a1 (ix2 (0 : Fin 1) e) = Cert.ReferenceIdeal.RefRun.gates a0 a1 a12 a13 (at3 e))
    (c : Fin 1024) :
    koutW (9841#32 : BitVec 32) (shapeCast S1x1024 a0 shapeCasts_S1024_S1x1024) (shapeCast S1x512 a3 shapeCasts_S512_S1x512) (shapeCast S1x3 a13 shapeCasts_S3_S1x3) a12 (shapeCast S1x1024 a7 shapeCasts_S1024_S1x1024) (shapeCast S1x1024 a5 shapeCasts_S1024_S1x1024) (shapeCast S1x1024 a9 shapeCasts_S1024_S1x1024) (shapeCast S1x1024 a11 shapeCasts_S1024_S1x1024) a1 a6 a4 a10 a8 (ix2 (0 : Fin 1) c)
      = Cert.ReferenceIdeal.RefRun.out (F := Ideal) a0 a1 a2 a3 a4 a5 a6 a7 a8 a9 a10 a11 a12 a13 (at1024 c) := by
  rw [Cert.ReferenceIdeal.RefRun.out_apply]
  unfold koutW
  rw [pay1_apply, pay36_apply]
  refine congrArg₂ (· + ·) (congrArg₂ (· + ·) ?_ ?_) ?_
  · exact expert_bridge (kInL (9841#32 : BitVec 32) (shapeCast S1x1024 a0 shapeCasts_S1024_S1x1024) (shapeCast S1x512 a3 shapeCasts_S512_S1x512) a1) _ (shapeCast S1x1024 a5 shapeCasts_S1024_S1x1024) a4 _ _ a0 (Cert.ReferenceIdeal.RefRun.maskedMean (Cert.ReferenceIdeal.RefRun.localMask (F := Ideal) a2 a3) a1) a5 (Cert.ReferenceIdeal.RefRun.localMask (F := Ideal) a2 a3) _ c
      (preL_apply _ a4 c) (inL_eq a0 a1 a2 a3 hi hn) (row_of_reshape a5 _ c) (hg 0) (kFl_eq a2 a3 hi hn)
  · exact expert_bridge (kInF (9841#32 : BitVec 32) (shapeCast S1x1024 a0 shapeCasts_S1024_S1x1024) (shapeCast S1x512 a3 shapeCasts_S512_S1x512) (shapeCast S1x1024 a7 shapeCasts_S1024_S1x1024) a1 a6) _ (shapeCast S1x1024 a9 shapeCasts_S1024_S1x1024) a8 _ _ a0 (Cert.ReferenceIdeal.RefRun.maskedMean (Cert.ReferenceIdeal.RefRun.funcMask (F := Ideal) a2 a3) (Cert.ReferenceIdeal.RefRun.msg a1 a6 a7)) a9 (Cert.ReferenceIdeal.RefRun.funcMask (F := Ideal) a2 a3) _ c
      (preF_apply _ a8 c) (inF_eq a0 a1 a2 a3 a6 a7 hi hn) (row_of_reshape a9 _ c) (hg 1) (kFf_eq a2 a3 hi hn)
  · exact expert_bridge (kInD (9841#32 : BitVec 32) (shapeCast S1x1024 a0 shapeCasts_S1024_S1x1024) (shapeCast S1x512 a3 shapeCasts_S512_S1x512) a1) _ (shapeCast S1x1024 a11 shapeCasts_S1024_S1x1024) a10 _ _ a0 (Cert.ReferenceIdeal.RefRun.maskedMean (Cert.ReferenceIdeal.RefRun.distantMask (F := Ideal) a2 a3) a1) a11 (Cert.ReferenceIdeal.RefRun.distantMask (F := Ideal) a2 a3) _ c
      (preD_apply _ a10 c) (inD_eq a0 a1 a2 a3 hi hn) (row_of_reshape a11 _ c) (hg 2) (kFd_eq a2 a3 hi hn)

/-- The same from the reshaped cell index: its one entry is the word 9841. -/
theorem bridge_of_gates
    (hg : ∀ e : Fin 3, kG (9841#32 : BitVec 32) (shapeCast S1x1024 a0 shapeCasts_S1024_S1x1024) (shapeCast S1x512 a3 shapeCasts_S512_S1x512) (shapeCast S1x3 a13 shapeCasts_S3_S1x3) a12 a1 (ix2 (0 : Fin 1) e) = Cert.ReferenceIdeal.RefRun.gates a0 a1 a12 a13 (at3 e))
    (c : Fin 1024) :
    kout (shapeCast S1x1 a2 shapeCasts_S_S1x1) (shapeCast S1x1024 a0 shapeCasts_S1024_S1x1024) (shapeCast S1x512 a3 shapeCasts_S512_S1x512) (shapeCast S1x3 a13 shapeCasts_S3_S1x3) a12 (shapeCast S1x1024 a7 shapeCasts_S1024_S1x1024) (shapeCast S1x1024 a5 shapeCasts_S1024_S1x1024) (shapeCast S1x1024 a9 shapeCasts_S1024_S1x1024) (shapeCast S1x1024 a11 shapeCasts_S1024_S1x1024) a1 a6 a4 a10 a8 (ix2 (0 : Fin 1) c)
      = Cert.ReferenceIdeal.RefRun.out (F := Ideal) a0 a1 a2 a3 a4 a5 a6 a7 a8 a9 a10 a11 a12 a13 (at1024 c) := by
  unfold kout
  rw [cell_of_reshape, hi]
  exact bridge_core a0 a1 a2 a3 a4 a5 a6 a7 a8 a9 a10 a11 a12 a13 hi hn hg c

end Core

/-! ## From the precondition -/

section FromPre
variable [Cert.Pre_input_domain.Facts]

/-- Under the precondition and given the gates, the body's result at the reshaped arguments is the reference's. -/
theorem bridge_of_pre (a0 : FVec Ideal S1024 .f32) (a1 : FVec Ideal S512x1024 .f32) (a2 : IVec S_ 32) (a3 : IVec S512 32)
    (a4 : FVec Ideal S2048x1024 .f32) (a5 : FVec Ideal S1024 .f32) (a6 : FVec Ideal S1024x1024 .f32) (a7 : FVec Ideal S1024 .f32)
    (a8 : FVec Ideal S2048x1024 .f32) (a9 : FVec Ideal S1024 .f32) (a10 : FVec Ideal S2048x1024 .f32) (a11 : FVec Ideal S1024 .f32)
    (a12 : FVec Ideal S2048x3 .f32) (a13 : FVec Ideal S3 .f32)
    (hpre : Cert.Pre_input_domain.fn (F := Ideal) a0 a1 a2 a3 a4 a5 a6 a7 a8 a9 a10 a11 a12 a13 = fun _ => 1#1)
    (hg : ∀ e : Fin 3, kG (9841#32 : BitVec 32) (shapeCast S1x1024 a0 shapeCasts_S1024_S1x1024) (shapeCast S1x512 a3 shapeCasts_S512_S1x512) (shapeCast S1x3 a13 shapeCasts_S3_S1x3) a12 a1 (ix2 (0 : Fin 1) e) = Cert.ReferenceIdeal.RefRun.gates a0 a1 a12 a13 (at3 e))
    (c : Fin 1024) :
    kout (shapeCast S1x1 a2 shapeCasts_S_S1x1) (shapeCast S1x1024 a0 shapeCasts_S1024_S1x1024) (shapeCast S1x512 a3 shapeCasts_S512_S1x512) (shapeCast S1x3 a13 shapeCasts_S3_S1x3) a12 (shapeCast S1x1024 a7 shapeCasts_S1024_S1x1024) (shapeCast S1x1024 a5 shapeCasts_S1024_S1x1024) (shapeCast S1x1024 a9 shapeCasts_S1024_S1x1024) (shapeCast S1x1024 a11 shapeCasts_S1024_S1x1024) a1 a6 a4 a10 a8 (ix2 (0 : Fin 1) c)
      = Cert.ReferenceIdeal.RefRun.out (F := Ideal) a0 a1 a2 a3 a4 a5 a6 a7 a8 a9 a10 a11 a12 a13 (at1024 c) :=
  have h := Cert.ReferenceIdeal.RefSpec.pre_decode a0 a1 a2 a3 a4 a5 a6 a7 a8 a9 a10 a11 a12 a13 hpre
  bridge_of_gates a0 a1 a2 a3 a4 a5 a6 a7 a8 a9 a10 a11 a12 a13 h.2.2.2.2.2.2.2.2.2.2.2.2.1 (fun j => (h.2.2.2.2.2.2.2.2.2.2.2.2.2 j).1) hg c

end FromPre

end Cert.Proof.KI

end
-- ==== Proof.KIValGates.lean ====
/-
  The gates of the TensorCore kernel's arithmetic at the ideal instance.

  The kernel takes the plain mean of the 512 neighbour rows as the third row of its 3 x 512 by 512 x 1024 product
  (the row of 1/512 against the neighbour states), joins the state with it, multiplies by the 2048 x 3 gate matrix,
  adds the bias, and takes the softmax of the three scores shifted by their largest: the exponentials of the
  differences over their sum.  The reference divides the rows' sum by 512 and folds the same maximum; on real
  neighbour states the two means agree, so the three gates are the reference's.
-/
import proofs.«211217_g68642167325227_cont_9to1_m_1168_22_alg».proof.Proof.KIValExperts
import proofs.«211217_g68642167325227_cont_9to1_m_1168_22_alg».proof.Proof.RefSpec
import Idealize.ShloMosaic.PureOps.Ideal.Laws
import Idealize.ShloMosaic.Lib.ValueLayout

noncomputable section

namespace Cert.Proof.KI

open Cert.KernelIdeal Cert.KernelIdeal.Gen Idealize.ShloMosaic Idealize.ShloMosaic.ValueIdx
open Cert.ReferenceIdeal.RefSpec (IsReal)
open scoped BigOperators

variable [Cert.KernelIdeal.Facts]

/-! ## A maximum and a sum over three entries -/

/-- The fold of the maximum over the three indices of `Fin 3`. -/
theorem fold_max_fin3 (b : EReal) (f : Fin 3 → EReal) :
    (Finset.univ : Finset (Fin 3)).fold (FloatOps.maximumf (F := Ideal) (φ := .f32)) b f = max (f 0) (max (f 1) (max (f 2) b)) := by
  rw [show (Finset.univ : Finset (Fin 3)) = {0, 1, 2} by decide, Finset.fold_insert (by decide), Finset.fold_insert (by decide),
    Finset.fold_singleton]
  rfl

/-- The fold of the maximum over all of a type of three elements, listed by `e`. -/
theorem fold_max_three {ι : Type} [Fintype ι] [DecidableEq ι] (e : Fin 3 ≃ ι) (b : EReal) (f : ι → EReal) (S : Finset ι)
    (hS : S = Finset.univ) :
    S.fold (FloatOps.maximumf (F := Ideal) (φ := .f32)) b f = max (f (e 0)) (max (f (e 1)) (max (f (e 2)) b)) := by
  subst hS
  rw [← Finset.map_univ_equiv e, Finset.fold_map]
  exact fold_max_fin3 b (f ∘ e)

/-- The three indices of a 1 x 1 x 3 vector. -/
def e113 : Fin 3 ≃ S1x1x3.Idx where
  toFun k := ix3 (0 : Fin 1) (0 : Fin 1) k
  invFun i := ⟨(i 2).val, (i 2).isLt⟩
  left_inv _ := rfl
  right_inv i := by
    funext d
    match d with
    | ⟨0, _⟩ => exact Fin.ext (by show 0 = (i 0).val; have h : (i 0).val < 1 := (i 0).isLt; omega)
    | ⟨1, _⟩ => exact Fin.ext (by show 0 = (i 1).val; have h : (i 1).val < 1 := (i 1).isLt; omega)
    | ⟨2, _⟩ => rfl

/-- A 1 x 1 x 3 recast of a row of three, at its entry `k`. -/
theorem cast113_apply (x : FVec Ideal S1x3 .f32) (k : Fin 3) :
    shapeCast S1x1x3 x shapeCasts_S1x3_S1x1x3 (e113 k) = x (ix2 0 k) :=
  shapeCast_apply x shapeCasts_S1x3_S1x1x3 (e113 k) (ix2 0 k) (by
    rw [Shape.rowMajor_val_two, Shape.rowMajor_val_three]
    show 0 * 3 + k.val = (0 * 1 + 0) * 3 + k.val
    omega)

/-- Every index of a one-element vector is the same. -/
theorem idx1_eq (a b : S1.Idx) : a = b :=
  funext fun d => Fin.ext (by
    match d with
    | ⟨0, _⟩ =>
      have ha : (a 0).val < 1 := (a 0).isLt
      have hb : (b 0).val < 1 := (b 0).isLt
      show (a 0).val = (b 0).val
      omega)

/-- A scalar taken out of a one-element vector recast 1 x 1 x 1. -/
theorem scalar_of_one (y : FVec Ideal S1 .f32) :
    extractAt ![0, 0, 0] (shapeCast S1x1x1 y shapeCasts_S1_S1x1x1) inpos_S1x1x1_p0_0_0 = y (ix1 0) := by
  unfold extractAt shapeCast
  exact congrArg y (idx1_eq _ _)

/-- The largest of a row of three, as the kernel folds it from minus infinity over the recast row. -/
theorem rowMax_apply (x : FVec Ideal S1x3 .f32) (hφ : FKind.Formats .f32)
    (hacc : (0xFF800000#32 : BitVec 32) = FKind.maximumf.neutral .f32 hφ) :
    multiReduction .maximumf [1, 2] S1 (shapeCast S1x1x3 x shapeCasts_S1x3_S1x1x3) 0xFF800000#32 reduces_S1x1x3_S1 hφ hacc (ix1 0)
      = max (x (ix2 0 0)) (max (x (ix2 0 1)) (max (x (ix2 0 2)) (Ideal.ofBits .f32 0xFF800000#32))) := by
  refine (multiReduction_maximumf_eq_fold _ _ reduces_S1x1x3_S1 hφ hacc (ix1 0)).trans ?_
  refine (fold_max_three e113 _ _ _ (Finset.filter_true_of_mem fun i _ => idx1_eq _ _)).trans ?_
  rw [cast113_apply, cast113_apply, cast113_apply]
  rfl

/-- The sum of a row of three, as the kernel adds it from zero over the recast row. -/
theorem rowSum_apply (x : FVec Ideal S1x3 .f32) (hφ : FKind.Formats .f32)
    (hacc : (0x00000000#32 : BitVec 32) = FKind.add.neutral .f32 hφ) :
    multiReduction .add [1, 2] S1 (shapeCast S1x1x3 x shapeCasts_S1x3_S1x1x3) 0x00000000#32 reduces_S1x1x3_S1 hφ hacc (ix1 0)
      = ∑ k : Fin 3, x (ix2 0 k) := by
  refine (Ideal.multiReduction_add_total _ _ reduces_S1x1x3_S1 (fun b => by match b with | ⟨0, _⟩ => rfl) hφ hacc (ix1 0)).trans ?_
  rw [← Equiv.sum_comp e113]
  exact Finset.sum_congr rfl fun k _ => cast113_apply x k

/-! ## The kernel's gates, read at an entry -/

section Kernel

variable (v97 v101 : FVec Ideal S1x512 .f32) (v129 : FVec Ideal S1x1024 .f32) (v132 : FVec Ideal S1x512 .f32)
  (v134 : FVec Ideal S512x1024 .f32) (v150 : FVec Ideal S2048x3 .f32) (v152 : FVec Ideal S1x3 .f32)

/-- The kernel's row of three scores: the state joined with the third row of the weighted sums, against the gate matrix,
    plus the bias. -/
def scoresK : FVec Ideal S1x3 .f32 :=
  addf (matmul dot_S1x2048_S2048x3_S1x3_1_0_0_1_n_n none (catRow v129 (row3 (k1_pay24 v97 v101 v132 v134) 2)) v150
    (constant (F := Ideal) S1x3 .f32 0x00000000#32)) v152

/-- A score: the sum over the joined row's 2048 entries of entry times weight, plus the bias. -/
theorem scoresK_apply (e : Fin 3) :
    scoresK v97 v101 v129 v132 v134 v150 v152 (ix2 0 e)
      = (∑ k : Fin 2048, catRow v129 (row3 (k1_pay24 v97 v101 v132 v134) 2) (ix2 0 k) * v150 (ix2 k e)) + v152 (ix2 0 e) := by
  unfold scoresK
  rw [addf_apply, mmG_apply]

/-- The largest of the kernel's three scores. -/
def maxK : EReal :=
  max (scoresK v97 v101 v129 v132 v134 v150 v152 (ix2 0 0)) (max (scoresK v97 v101 v129 v132 v134 v150 v152 (ix2 0 1))
    (max (scoresK v97 v101 v129 v132 v134 v150 v152 (ix2 0 2)) (Ideal.ofBits .f32 0xFF800000#32)))

/-- The kernel's gates at an entry: the exponential of the score less the largest, over the sum of the three. -/
theorem pay27_apply (e : Fin 3) :
    k1_pay27 v97 v101 v129 v132 v134 v150 v152 (ix2 0 e)
      = Ideal.div (Ideal.exp (scoresK v97 v101 v129 v132 v134 v150 v152 (ix2 0 e) - maxK v97 v101 v129 v132 v134 v150 v152))
          (∑ k : Fin 3, Ideal.exp (scoresK v97 v101 v129 v132 v134 v150 v152 (ix2 0 k) - maxK v97 v101 v129 v132 v134 v150 v152)) := by
  unfold k1_pay27
  rw [slice_row2, shapeCast_self]
  show Ideal.div (Ideal.exp (scoresK v97 v101 v129 v132 v134 v150 v152 (ix2 0 e) - extractAt ![0, 0, 0] (shapeCast S1x1x1
        (multiReduction .maximumf [1, 2] S1 (shapeCast S1x1x3 (scoresK v97 v101 v129 v132 v134 v150 v152) shapeCasts_S1x3_S1x1x3)
          0xFF800000#32 reduces_S1x1x3_S1 (.inl rfl) rfl) shapeCasts_S1_S1x1x1) inpos_S1x1x1_p0_0_0))
      (extractAt ![0, 0, 0] (shapeCast S1x1x1 (multiReduction .add [1, 2] S1 (shapeCast S1x1x3 (exp (subf (scoresK v97 v101 v129 v132 v134 v150 v152)
          (broadcast S1x3 (extractAt ![0, 0, 0] (shapeCast S1x1x1
            (multiReduction .maximumf [1, 2] S1 (shapeCast S1x1x3 (scoresK v97 v101 v129 v132 v134 v150 v152) shapeCasts_S1x3_S1x1x3)
              0xFF800000#32 reduces_S1x1x3_S1 (.inl rfl) rfl) shapeCasts_S1_S1x1x1) inpos_S1x1x1_p0_0_0)))) shapeCasts_S1x3_S1x1x3)
        0x00000000#32 reduces_S1x1x3_S1 (.inl rfl) rfl) shapeCasts_S1_S1x1x1) inpos_S1x1x1_p0_0_0) = _
  rw [scalar_of_one, scalar_of_one]
  have hmax := rowMax_apply (scoresK v97 v101 v129 v132 v134 v150 v152) (.inl rfl) rfl
  rw [hmax]
  have hsum := rowSum_apply (exp (subf (scoresK v97 v101 v129 v132 v134 v150 v152)
    (broadcast S1x3 (maxK v97 v101 v129 v132 v134 v150 v152)))) (.inl rfl) rfl
  exact congrArg (Ideal.div _) hsum

end Kernel

/-! ## The reference's gates, and the two agree -/

section Bridge

variable [Cert.ReferenceIdeal.Facts]

open Cert.ReferenceIdeal.RefRun (gates logits nbrMean zmax expShift at3 at1024 at2048 at512x1024 at2048x3 cat2)

/-- The three indices of a vector of three. -/
def e3 : Fin 3 ≃ Cert.ReferenceIdeal.S3.Idx where
  toFun := at3
  invFun i := ⟨(i 0).val, (i 0).isLt⟩
  left_inv _ := rfl
  right_inv i := funext fun d => match d with | ⟨0, _⟩ => rfl

/-- The reference's largest score: the same maximum of the three, minus infinity absorbed. -/
theorem zmax_eq (z : FVec Ideal Cert.ReferenceIdeal.S3 .f32) :
    zmax z = max (z (at3 0)) (max (z (at3 1)) (max (z (at3 2)) (Ideal.ofBits .f32 0xFF800000#32))) := by
  unfold zmax
  rw [maximumf_apply, constant_apply, Host.reduce_eq_fold]
  rw [fold_max_three e3 _ _ _ (Finset.filter_true_of_mem fun i _ => (eq_ix0 _).trans (eq_ix0 _).symm)]
  exact max_eq_right (le_max_of_le_right (le_max_of_le_right (le_max_right _ _)))

omit [Cert.KernelIdeal.Facts] [Cert.ReferenceIdeal.Facts] in
theorem ix2_at2048x3 (k : Fin 2048) (e : Fin 3) : (ix2 k e : Cert.ReferenceIdeal.S2048x3.Idx) = at2048x3 k e :=
  funext fun d => match d with | ⟨0, _⟩ => rfl | ⟨1, _⟩ => rfl
omit [Cert.KernelIdeal.Facts] [Cert.ReferenceIdeal.Facts] in
theorem ix2_at512x1024 (k : Fin 512) (c : Fin 1024) : (ix2 k c : Cert.ReferenceIdeal.S512x1024.Idx) = at512x1024 k c :=
  funext fun d => match d with | ⟨0, _⟩ => rfl | ⟨1, _⟩ => rfl

variable (a0 : FVec Ideal S1024 .f32) (a1 : FVec Ideal S512x1024 .f32) (a12 : FVec Ideal S2048x3 .f32) (a13 : FVec Ideal S3 .f32)
  (v97 v101 : FVec Ideal S1x512 .f32) (v129 : FVec Ideal S1x1024 .f32) (v132 : FVec Ideal S1x512 .f32) (v152 : FVec Ideal S1x3 .f32)

/-- The third row of the kernel's weighted sums, at the row of 1/512 and real neighbour states, is the reference's mean. -/
theorem mean_row (hr : IsReal a1) (h132 : ∀ k : Fin 512, v132 (ix2 0 k) = Ideal.ofBits .f32 0x3B000000#32) (c : Fin 1024) :
    row3 (k1_pay24 v97 v101 v132 a1) 2 (ix2 0 c) = nbrMean a1 (at1024 c) := by
  obtain ⟨r, hr'⟩ : ∃ r : S512x1024.Idx → ℝ, ∀ j, a1 j = ((r j : ℝ) : EReal) :=
    ⟨fun j => (hr j).choose, fun j => (hr j).choose_spec⟩
  show k1_pay24 v97 v101 v132 a1 (ix2 2 c) = _
  rw [pay24_row2, Cert.ReferenceIdeal.RefRun.nbrMean_apply]
  have e1 : ∀ k : Fin 512, v132 (ix2 0 k) * a1 (ix2 k c) = Ideal.ofBits .f32 0x3B000000#32 * ((r (ix2 k c) : ℝ) : EReal) :=
    fun k => by rw [h132, hr']
  have e2 : ∀ k : Fin 512, a1 (at512x1024 k c) = ((r (ix2 k c) : ℝ) : EReal) := fun k => by rw [← ix2_at512x1024, hr']
  rw [Finset.sum_congr rfl fun k _ => e1 k, Finset.sum_congr rfl fun k _ => e2 k]
  exact Cert.Experts.mean_512' fun k : Fin 512 => r (ix2 k c)

/-- The kernel's scores are the reference's. -/
theorem scores_logits (hr : IsReal a1) (h129 : ∀ k : Fin 1024, v129 (ix2 0 k) = a0 (at1024 k))
    (h132 : ∀ k : Fin 512, v132 (ix2 0 k) = Ideal.ofBits .f32 0x3B000000#32) (h152 : ∀ e : Fin 3, v152 (ix2 0 e) = a13 (at3 e))
    (e : Fin 3) :
    scoresK v97 v101 v129 v132 a1 a12 v152 (ix2 0 e) = logits a0 a1 a12 a13 (at3 e) := by
  rw [scoresK_apply, Cert.ReferenceIdeal.RefRun.logits_apply, h152]
  congr 1
  refine Finset.sum_congr rfl fun k _ => ?_
  rw [ix2_at2048x3]
  congr 1
  by_cases hk : k.val < 1024
  · rw [catRow_left _ _ k hk, Cert.ReferenceIdeal.RefRun.cat2_apply_left _ _ k hk, h129]
  · have hk' : 1024 ≤ k.val := Nat.le_of_not_lt hk
    rw [catRow_right _ _ k hk', Cert.ReferenceIdeal.RefRun.cat2_apply_right _ _ k hk']
    exact mean_row a1 v97 v101 v132 hr h132 _

/-- THE GATES: the kernel's three gates are the reference's, whatever the two mask rows. -/
theorem pay27_gates (hr : IsReal a1) (h129 : ∀ k : Fin 1024, v129 (ix2 0 k) = a0 (at1024 k))
    (h132 : ∀ k : Fin 512, v132 (ix2 0 k) = Ideal.ofBits .f32 0x3B000000#32) (h152 : ∀ e : Fin 3, v152 (ix2 0 e) = a13 (at3 e))
    (e : Fin 3) :
    k1_pay27 v97 v101 v129 v132 a1 a12 v152 (ix2 0 e) = gates a0 a1 a12 a13 (at3 e) := by
  have hs := scores_logits a0 a1 a12 a13 v97 v101 v129 v132 v152 hr h129 h132 h152
  have hm : maxK v97 v101 v129 v132 a1 a12 v152 = zmax (logits a0 a1 a12 a13) := by
    unfold maxK
    rw [zmax_eq, hs, hs, hs]
  rw [pay27_apply, Cert.ReferenceIdeal.RefRun.gates_apply, hm, hs]
  simp only [hs, Cert.ReferenceIdeal.RefRun.expShift_apply]
  rfl

/-- The same with the row of 1/512, the state and the bias as the host reshapes them. -/
theorem pay27_gates_at (hr : IsReal a1) (e : Fin 3) :
    k1_pay27 v97 v101 (shapeCast S1x1024 a0 shapeCasts_S1024_S1x1024) (k1_pay23 (F := Ideal)) a1 a12
        (shapeCast S1x3 a13 shapeCasts_S3_S1x3) (ix2 0 e)
      = gates a0 a1 a12 a13 (at3 e) :=
  pay27_gates a0 a1 a12 a13 v97 v101 _ _ _ hr
    (fun k => shapeCast_apply a0 shapeCasts_S1024_S1x1024 (ix2 0 k) (at1024 k) (by
      rw [Shape.rowMajor_val_one, Shape.rowMajor_val_two]
      show k.val = 0 * 1024 + k.val
      omega))
    (fun _ => rfl)
    (fun e => shapeCast_apply a13 shapeCasts_S3_S1x3 (ix2 0 e) (at3 e) (by
      rw [Shape.rowMajor_val_one, Shape.rowMajor_val_two]
      show e.val = 0 * 3 + e.val
      omega))
    e

end Bridge

end Cert.Proof.KI

end
-- ==== Proof.KIBridgeFinal.lean ====
/-
  The value bridge in the form the assembly takes: for every memory satisfying the precondition and every device, the
  body's function of the reshaped arguments, re-laid as a vector of 1024, is the reference's result. An index of the
  vector is one coordinate `k`; the re-laid row reads there the row's entry (0, k); the precondition of the memory is the
  precondition of the device's fourteen argument arrays.
-/
import proofs.«211217_g68642167325227_cont_9to1_m_1168_22_alg».proof.Proof.KIAlg
import proofs.«211217_g68642167325227_cont_9to1_m_1168_22_alg».proof.Proof.KIBridge
import proofs.«211217_g68642167325227_cont_9to1_m_1168_22_alg».proof.Proof.KIValGates

noncomputable section

namespace Cert.Proof.KI

open Cert.KernelIdeal Cert.KernelIdeal.Gen Idealize.ShloMosaic Idealize.ShloMosaic.ValueIdx
open Cert.ReferenceIdeal.RefRun (at1024 at3)
open Idealize.SL Idealize.SL.Sem

variable [Cert.KernelIdeal.Facts] [Cert.ReferenceIdeal.Facts] [Cert.Pre_input_domain.Facts]

/-- If the body's function is the composition `kout` of its stages, and the gates it computes are the reference's under
    the precondition, then the value bridge holds. -/
theorem bridge_of (tcOutF : TcOutTy Ideal)
    (hk : ∀ x0 x1 x2 x3 x4 x5 x6 x7 x8 a1 a6 a4 a10 a8,
      tcOutF x0 x1 x2 x3 x4 x5 x6 x7 x8 a1 a6 a4 a10 a8 = kout x0 x1 x2 x3 x4 x5 x6 x7 x8 a1 a6 a4 a10 a8)
    (hgates : ∀ (a0 : FVec Ideal S1024 .f32) (a1 : FVec Ideal S512x1024 .f32) (a2 : IVec S_ 32) (a3 : IVec S512 32)
      (a4 : FVec Ideal S2048x1024 .f32) (a5 : FVec Ideal S1024 .f32) (a6 : FVec Ideal S1024x1024 .f32) (a7 : FVec Ideal S1024 .f32)
      (a8 : FVec Ideal S2048x1024 .f32) (a9 : FVec Ideal S1024 .f32) (a10 : FVec Ideal S2048x1024 .f32) (a11 : FVec Ideal S1024 .f32)
      (a12 : FVec Ideal S2048x3 .f32) (a13 : FVec Ideal S3 .f32),
      Cert.Pre_input_domain.fn (F := Ideal) a0 a1 a2 a3 a4 a5 a6 a7 a8 a9 a10 a11 a12 a13 = (fun _ => 1#1) →
      ∀ e : Fin 3, kG (9841#32 : BitVec 32) (shapeCast S1x1024 a0 shapeCasts_S1024_S1x1024) (shapeCast S1x512 a3 shapeCasts_S512_S1x512) (shapeCast S1x3 a13 shapeCasts_S3_S1x3) a12 a1 (ix2 (0 : Fin 1) e) = Cert.ReferenceIdeal.RefRun.gates a0 a1 a12 a13 (at3 e)) :
    Bridge tcOutF := by
  intro m c hpre
  funext j
  obtain ⟨k, rfl⟩ : ∃ k : Fin 1024, j = ix1 k := ⟨_, eq_ix1 j⟩
  rw [shapeCast_1a_a_apply _ shapeCasts_S1x1024_S1024 k]
  unfold tcOutArgs
  rw [hk]
  have hp := hpre c
  refine (bridge_of_pre (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) (m (c, Proc.devRef .tc main_arg12)) (m (c, Proc.devRef .tc main_arg13)) hp
    (hgates (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) (m (c, Proc.devRef .tc main_arg12)) (m (c, Proc.devRef .tc main_arg13)) hp) k).trans ?_
  have ek : (at1024 k : S1024.Idx) = ix1 k := funext fun a => match a with | ⟨0, _⟩ => rfl
  rw [ek]

/-- Under the precondition the body's gates are the reference's: the neighbour rows are real numbers. -/
theorem gates_of_pre (a0 : FVec Ideal S1024 .f32) (a1 : FVec Ideal S512x1024 .f32) (a2 : IVec S_ 32) (a3 : IVec S512 32)
    (a4 : FVec Ideal S2048x1024 .f32) (a5 : FVec Ideal S1024 .f32) (a6 : FVec Ideal S1024x1024 .f32) (a7 : FVec Ideal S1024 .f32)
    (a8 : FVec Ideal S2048x1024 .f32) (a9 : FVec Ideal S1024 .f32) (a10 : FVec Ideal S2048x1024 .f32) (a11 : FVec Ideal S1024 .f32)
    (a12 : FVec Ideal S2048x3 .f32) (a13 : FVec Ideal S3 .f32)
    (hpre : Cert.Pre_input_domain.fn (F := Ideal) a0 a1 a2 a3 a4 a5 a6 a7 a8 a9 a10 a11 a12 a13 = fun _ => 1#1) (e : Fin 3) :
    kG (9841#32 : BitVec 32) (shapeCast S1x1024 a0 shapeCasts_S1024_S1x1024) (shapeCast S1x512 a3 shapeCasts_S512_S1x512) (shapeCast S1x3 a13 shapeCasts_S3_S1x3) a12 a1 (ix2 (0 : Fin 1) e) = Cert.ReferenceIdeal.RefRun.gates a0 a1 a12 a13 (at3 e) := by
  have h := Cert.ReferenceIdeal.RefSpec.pre_decode a0 a1 a2 a3 a4 a5 a6 a7 a8 a9 a10 a11 a12 a13 hpre
  unfold kG
  rw [pay22_eq]
  exact pay27_gates_at a0 a1 a12 a13 _ _ h.2.1 e

/-- THE VALUE BRIDGE: if the body's function is the composition `kout` of its stages, then for every memory satisfying
    the precondition the body's result at the reshaped arguments, re-laid as a vector, is the reference's result. -/
theorem bridge_closed (tcOutF : TcOutTy Ideal)
    (hk : ∀ x0 x1 x2 x3 x4 x5 x6 x7 x8 a1 a6 a4 a10 a8,
      tcOutF x0 x1 x2 x3 x4 x5 x6 x7 x8 a1 a6 a4 a10 a8 = kout x0 x1 x2 x3 x4 x5 x6 x7 x8 a1 a6 a4 a10 a8) :
    Bridge tcOutF :=
  bridge_of tcOutF hk gates_of_pre

/-- The bridge of the composition itself. -/
theorem bridge_kout : Bridge (fun x0 x1 x2 x3 x4 x5 x6 x7 x8 a1 a6 a4 a10 a8 => kout x0 x1 x2 x3 x4 x5 x6 x7 x8 a1 a6 a4 a10 a8) :=
  bridge_closed _ (fun _ _ _ _ _ _ _ _ _ _ _ _ _ _ => rfl)

end Cert.Proof.KI

end
-- ==== Proof.KITcKout.lean ====
/-
  The TensorCore body's result is the composition of its stages over what it loads: a load through a whole rectangle
  reads the operand itself, the cell word is the staged buffer's one entry, and a chunk load reads 512 consecutive rows
  of an expert's weights.
-/
import proofs.«211217_g68642167325227_cont_9to1_m_1168_22_alg».proof.Proof.KITcBody
import proofs.«211217_g68642167325227_cont_9to1_m_1168_22_alg».proof.Proof.KIBridge

noncomputable section

namespace Cert.Proof.KI

open Cert.KernelIdeal Cert.KernelIdeal.Gen
open Idealize.ShloMosaic Idealize.ShloMosaic.ValueIdx

section Reads

variable {F : FTy → Type} [FloatOps F]

/-! ## The loads through a whole rectangle read the contents -/

theorem ld_rNbr (x : Vec F S1x512 .i32) : View.ld x rNbr = x := View.ld_unit_zero (by funext i; fin_cases i <;> rfl) _ x
theorem ld_rRow (x : Vec F S1x1024 .f32) : View.ld x rRow = x := View.ld_unit_zero (by funext i; fin_cases i <;> rfl) _ x
theorem ld_rBg (x : Vec F S1x3 .f32) : View.ld x rBg = x := View.ld_unit_zero (by funext i; fin_cases i <;> rfl) _ x
theorem ld_rWg (x : Vec F S2048x3 .f32) : View.ld x rWg = x := View.ld_unit_zero (by funext i; fin_cases i <;> rfl) _ x
theorem ld_rNs (x : Vec F S512x1024 .f32) : View.ld x rNs = x := View.ld_unit_zero (by funext i; fin_cases i <;> rfl) _ x
theorem ld_rW1 (x : Vec F S1024x1024 .f32) : View.ld x rW1 = x := View.ld_unit_zero (by funext i; fin_cases i <;> rfl) _ x

/-- The cell word is the staged buffer's one entry. -/
theorem ld_rCell (x : Vec F S1x1 .i32) (h : 0 < rCell.shape.numel) :
    View.ld x rCell (Shape.Idx.first h) = x (ix2 (0 : Fin 1) (0 : Fin 1)) := by
  show x _ = x _
  congr 1
  funext a
  fin_cases a <;> exact Subsingleton.elim (α := Fin 1) _ _

/-! A chunk load reads 512 consecutive rows of the array: row `j 0` of chunk `k` is row `512 k + j 0`. -/
theorem ld_rC0 (W : Vec F S2048x1024 .f32) (j : S512x1024.Idx) :
    View.ld W rC0 j = W (ix2 ⟨0 + (j 0).val, by have h : (j 0).val < 512 := (j 0).isLt; omega⟩ ⟨(j 1).val, (j 1).isLt⟩) := by
  show W _ = W _
  congr 1
  funext a
  fin_cases a <;> (apply Fin.ext; simp [LoadRect.idx_apply, Rect.off_unit, Rect.stride_unit])
theorem ld_rC1 (W : Vec F S2048x1024 .f32) (j : S512x1024.Idx) :
    View.ld W rC1 j = W (ix2 ⟨512 + (j 0).val, by have h : (j 0).val < 512 := (j 0).isLt; omega⟩ ⟨(j 1).val, (j 1).isLt⟩) := by
  show W _ = W _
  congr 1
  funext a
  fin_cases a <;> (apply Fin.ext; simp [LoadRect.idx_apply, Rect.off_unit, Rect.stride_unit])
theorem ld_rC2 (W : Vec F S2048x1024 .f32) (j : S512x1024.Idx) :
    View.ld W rC2 j = W (ix2 ⟨1024 + (j 0).val, by have h : (j 0).val < 512 := (j 0).isLt; omega⟩ ⟨(j 1).val, (j 1).isLt⟩) := by
  show W _ = W _
  congr 1
  funext a
  fin_cases a <;> (apply Fin.ext; simp [LoadRect.idx_apply, Rect.off_unit, Rect.stride_unit])
theorem ld_rC3 (W : Vec F S2048x1024 .f32) (j : S512x1024.Idx) :
    View.ld W rC3 j = W (ix2 ⟨1536 + (j 0).val, by have h : (j 0).val < 512 := (j 0).isLt; omega⟩ ⟨(j 1).val, (j 1).isLt⟩) := by
  show W _ = W _
  congr 1
  funext a
  fin_cases a <;> (apply Fin.ext; simp [LoadRect.idx_apply, Rect.off_unit, Rect.stride_unit])

end Reads

variable [Cert.KernelIdeal.Facts]

/-- The body's result is `kout` of the operands' contents. -/
theorem tcOut_kout (x0 : Vec Ideal S1x1 .i32) (x1 : Vec Ideal S1x1024 .f32) (x2 : Vec Ideal S1x512 .i32) (x3 : Vec Ideal S1x3 .f32)
    (x4 : Vec Ideal S2048x3 .f32) (x5 x6 x7 x8 : Vec Ideal S1x1024 .f32)
    (a1 : main_arg1.ty.Contents (Elt Ideal)) (a6 : main_arg6.ty.Contents (Elt Ideal)) (a4 : main_arg4.ty.Contents (Elt Ideal))
    (a10 : main_arg10.ty.Contents (Elt Ideal)) (a8 : main_arg8.ty.Contents (Elt Ideal)) :
    tcOut (F := Ideal) x0 x1 x2 x3 x4 x5 x6 x7 x8 a1 a6 a4 a10 a8 = kout x0 x1 x2 x3 x4 x5 x6 x7 x8 a1 a6 a4 a10 a8 := by
  unfold tcOut tcLoads
  rw [ld_rNbr, ld_rCell, ld_rRow x1, ld_rRow x5, ld_rRow x6, ld_rRow x7, ld_rRow x8, ld_rBg, ld_rWg, ld_rW1]
  repeat rw [ld_rNs]
  rw [show View.ld (a4 : Vec Ideal S2048x1024 .f32) rC0 = rowsAt a4 0 (by omega) from funext (ld_rC0 _),
    show View.ld (a4 : Vec Ideal S2048x1024 .f32) rC1 = rowsAt a4 512 (by omega) from funext (ld_rC1 _),
    show View.ld (a4 : Vec Ideal S2048x1024 .f32) rC2 = rowsAt a4 1024 (by omega) from funext (ld_rC2 _),
    show View.ld (a4 : Vec Ideal S2048x1024 .f32) rC3 = rowsAt a4 1536 (by omega) from funext (ld_rC3 _),
    show View.ld (a10 : Vec Ideal S2048x1024 .f32) rC0 = rowsAt a10 0 (by omega) from funext (ld_rC0 _),
    show View.ld (a10 : Vec Ideal S2048x1024 .f32) rC1 = rowsAt a10 512 (by omega) from funext (ld_rC1 _),
    show View.ld (a10 : Vec Ideal S2048x1024 .f32) rC2 = rowsAt a10 1024 (by omega) from funext (ld_rC2 _),
    show View.ld (a10 : Vec Ideal S2048x1024 .f32) rC3 = rowsAt a10 1536 (by omega) from funext (ld_rC3 _),
    show View.ld (a8 : Vec Ideal S2048x1024 .f32) rC0 = rowsAt a8 0 (by omega) from funext (ld_rC0 _),
    show View.ld (a8 : Vec Ideal S2048x1024 .f32) rC1 = rowsAt a8 512 (by omega) from funext (ld_rC1 _),
    show View.ld (a8 : Vec Ideal S2048x1024 .f32) rC2 = rowsAt a8 1024 (by omega) from funext (ld_rC2 _),
    show View.ld (a8 : Vec Ideal S2048x1024 .f32) rC3 = rowsAt a8 1536 (by omega) from funext (ld_rC3 _)]
  rfl

end Cert.Proof.KI
end
-- ==== Proof.lean ====
/-
  The certificate's claim.  The program has one SparseCore kernel on 2 x 16 tiles and one gridless TensorCore kernel in a
  host program.  The three frames: the SparseCore launch theorem at one vector-subcore call (each tile's body run once at a
  symbolic tile; the TensorCore kernel region entered inside @main through the lift of the inner body table), for the
  program as printed and for its idealization alike; the reference is a host program, run operation by operation.  The
  ledger's eight entries name one literal, 1/27.  The value: the SparseCore call's only row that is read (row 3) is zero,
  so the result is the TensorCore kernel's row; that row and the reference's result are the same function of the
  arguments at the extended reals: both classify each neighbour by its squared lattice distance D to the centre cell
  (13, 13, 13), an integer, the kernel by D < 3.5 and D > 24.5, the reference by sqrt(D + ε) ≤ 1.8f and ≥ 5, which agree
  on integers; the masked means, the mean, the three experts' contractions (in four chunks or whole), the softmax gates
  and the final weighted sum differ only by reassociations and by a · (1 / c) against a / c for a real c ≥ 1.
-/
import proofs.«211217_g68642167325227_cont_9to1_m_1168_22_alg».proof.Defs
import proofs.«211217_g68642167325227_cont_9to1_m_1168_22_alg».proof.Proof.Preserves
import proofs.«211217_g68642167325227_cont_9to1_m_1168_22_alg».proof.Proof.RefRun
import proofs.«211217_g68642167325227_cont_9to1_m_1168_22_alg».proof.Proof.KIAlg
import proofs.«211217_g68642167325227_cont_9to1_m_1168_22_alg».proof.Proof.KITcBody
import proofs.«211217_g68642167325227_cont_9to1_m_1168_22_alg».proof.Proof.KBFrame
import proofs.«211217_g68642167325227_cont_9to1_m_1168_22_alg».proof.Proof.KBTcBody
import proofs.«211217_g68642167325227_cont_9to1_m_1168_22_alg».proof.Proof.KIBridgeFinal
import proofs.«211217_g68642167325227_cont_9to1_m_1168_22_alg».proof.Proof.KITcKout
import proofs.«211217_g68642167325227_cont_9to1_m_1168_22_alg».proof.Proof.Gen.Kernel
import proofs.«211217_g68642167325227_cont_9to1_m_1168_22_alg».proof.Proof.Gen.KernelIdeal
import proofs.«211217_g68642167325227_cont_9to1_m_1168_22_alg».proof.Proof.Gen.ReferenceIdeal
import proofs.«211217_g68642167325227_cont_9to1_m_1168_22_alg».proof.Proof.Gen.Pre_input_domain
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel (hKernel := Cert.Kernel.Gen.facts) (hPre_input_domain := Cert.Pre_input_domain.Gen.facts) :=
  haveI := Cert.Kernel.Gen.facts
  fun m g _ => (θ_run (Cert.Kernel.defs (F := Bits)) _ _).mono (fun r h c => KB.args_of_QC m _ r h c)
    (KB.run (F := Bits) m g KB.tcOut KB.tc_body)

/-- So does its idealization. -/
theorem frame_ki : Cert.frame_KernelIdeal (hKernelIdeal := Cert.KernelIdeal.Gen.facts) (hPre_input_domain := Cert.Pre_input_domain.Gen.facts) :=
  haveI := Cert.KernelIdeal.Gen.facts
  fun m g _ => (θ_run (Cert.KernelIdeal.defs (F := Ideal)) _ _).mono (fun r h c => KI.args_of_QC m _ r h c)
    (KI.run (F := Ideal) m g KI.tcOut KI.tc_body)

/-- The two idealized programs end with equal results. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  haveI := Cert.KernelIdeal.Gen.facts
  haveI := Cert.ReferenceIdeal.Gen.facts
  haveI := Cert.Pre_input_domain.Gen.facts
  KI.algebraic_of KI.tcOut KI.tc_body (KI.bridge_closed KI.tcOut KI.tcOut_kout)

theorem claim : Cert.Claim :=
  ⟨Cert.Kernel.Gen.facts, Cert.KernelIdeal.Gen.facts, Cert.ReferenceIdeal.Gen.facts, Cert.Pre_input_domain.Gen.facts,
    frame_k, frame_ki, Cert.ReferenceIdeal.RefRun.frame, preserves, algebraic⟩

end Cert.Proof

end
